-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v172)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v172) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v316) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x32 : Shape := ⟨2, ![50000, 32]⟩
abbrev S2x640000 : Shape := ⟨2, ![2, 640000]⟩
abbrev S50000 : Shape := ⟨1, ![50000]⟩
abbrev S32x128 : Shape := ⟨2, ![32, 128]⟩
abbrev S128 : Shape := ⟨1, ![128]⟩
abbrev S4x128x128 : Shape := ⟨3, ![4, 128, 128]⟩
abbrev S4x128 : Shape := ⟨2, ![4, 128]⟩
abbrev S640x128 : Shape := ⟨2, ![640, 128]⟩
abbrev S128x128 : Shape := ⟨2, ![128, 128]⟩
abbrev S_ : Shape := ⟨0, ![]⟩

class Facts : Prop where
  bcast_S_S50000x32 : S_.BroadcastsInDim S50000x32 (![] : Fin 0 → Fin S50000x32.rank)
  reducesTo_S50000x32_S_d0_1 : S50000x32.ReducesTo [0, 1] S_
  h_S_ : 0 < S_.numel
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S640x128 : S_.BroadcastsInDim S640x128 (![] : Fin 0 → Fin S640x128.rank)
  reducesTo_S640x128_S_d0_1 : S640x128.ReducesTo [0, 1] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_arg15 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg15
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg11 : FVec F S4x128 .f32) (main_arg12 : FVec F S640x128 .f32) (main_arg13 : FVec F S128 .f32) (main_arg14 : FVec F S128x128 .f32) (main_arg15 : FVec F S128 .f32) (main_v33 : IVec S_ 1) : IVec S_ 1 :=
  let main_v34 : FVec F S4x128 .f32 := Host.absf main_arg11
  let main_cst_12 : FVec F S_ .f32 := constant S_ .f32 0x7F800000#32
  let main_v35 : FVec F S4x128 .f32 := broadcastInDim S4x128 ![] bcast_S_S4x128 main_cst_12
  let main_v36 : IVec S4x128 1 := cmpf .olt main_v34 main_v35
  let main_c_13 : IVec S_ 1 := constantI S_ 1 1#1
  let main_v37 : IVec S_ 1 := (fun x v => Host.reduce IntOp.andi x v reducesTo_S4x128_S_d0_1 h_S_) main_v36 main_c_13
  let main_v38 : IVec S_ 1 := andi main_v33 main_v37
  let main_v39 : FVec F S640x128 .f32 := Host.absf main_arg12
  let main_cst_14 : FVec F S_ .f32 := constant S_ .f32 0x7F800000#32
  let main_v40 : FVec F S640x128 .f32 := broadcastInDim S640x128 ![] bcast_S_S640x128 main_cst_14
  let main_v41 : IVec S640x128 1 := cmpf .olt main_v39 main_v40
  let main_c_15 : IVec S_ 1 := constantI S_ 1 1#1
  let main_v42 : IVec S_ 1 := (fun x v => Host.reduce IntOp.andi x v reducesTo_S640x128_S_d0_1 h_S_) main_v41 main_c_15
  let main_v43 : IVec S_ 1 := andi main_v38 main_v42
  let main_v44 : FVec F S128 .f32 := Host.absf main_arg13
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg14
  let main_cst_18 : FVec F S_ .f32 := constant S_ .f32 0x7F800000#32
  let main_v50 : FVec F S128x128 .f32 := broadcastInDim S128x128 ![] bcast_S_S128x128 main_cst_18
  fn_part3 (F := F) main_arg15 main_v48 main_v49 main_v50

def fn_part1 {F : FTy → Type} [FloatOps F] (main_arg8 : FVec F S4x128x128 .f32) (main_arg9 : FVec F S4x128 .f32) (main_arg10 : FVec F S4x128x128 .f32) (main_arg11 : FVec F S4x128 .f32) (main_arg12 : FVec F S640x128 .f32) (main_arg13 : FVec F S128 .f32) (main_arg14 : FVec F S128x128 .f32) (main_arg15 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S4x128x128 .f32 := Host.absf main_arg8
  let main_cst_6 : FVec F S_ .f32 := constant S_ .f32 0x7F800000#32
  let main_v20 : FVec F S4x128x128 .f32 := broadcastInDim S4x128x128 ![] bcast_S_S4x128x128 main_cst_6
  let main_v21 : IVec S4x128x128 1 := cmpf .olt main_v19 main_v20
  let main_c_7 : IVec S_ 1 := constantI S_ 1 1#1
  let main_v22 : IVec S_ 1 := (fun x v => Host.reduce IntOp.andi x v reducesTo_S4x128x128_S_d0_1_2 h_S_) main_v21 main_c_7
  let main_v23 : IVec S_ 1 := andi main_v18 main_v22
  let main_v24 : FVec F S4x128 .f32 := Host.absf main_arg9
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S4x128x128 .f32 := Host.absf main_arg10
  let main_cst_10 : FVec F S_ .f32 := constant S_ .f32 0x7F800000#32
  let main_v30 : FVec F S4x128x128 .f32 := broadcastInDim S4x128x128 ![] bcast_S_S4x128x128 main_cst_10
  let main_v31 : IVec S4x128x128 1 := cmpf .olt main_v29 main_v30
  let main_c_11 : IVec S_ 1 := constantI S_ 1 1#1
  let main_v32 : IVec S_ 1 := (fun x v => Host.reduce IntOp.andi x v reducesTo_S4x128x128_S_d0_1_2 h_S_) main_v31 main_c_11
  let main_v33 : IVec S_ 1 := andi main_v28 main_v32
  fn_part2 (F := F) main_arg11 main_arg12 main_arg13 main_arg14 main_arg15 main_v33

def fn {F : FTy → Type} [FloatOps F] (main_arg0 : FVec F S50000x32 .f32) (main_arg1 : IVec S2x640000 32) (main_arg2 : IVec S50000 32) (main_arg3 : FVec F S50000x32 .f32) (main_arg4 : IVec S2x640000 32) (main_arg5 : IVec S50000 32) (main_arg6 : FVec F S32x128 .f32) (main_arg7 : FVec F S128 .f32) (main_arg8 : FVec F S4x128x128 .f32) (main_arg9 : FVec F S4x128 .f32) (main_arg10 : FVec F S4x128x128 .f32) (main_arg11 : FVec F S4x128 .f32) (main_arg12 : FVec F S640x128 .f32) (main_arg13 : FVec F S128 .f32) (main_arg14 : FVec F S128x128 .f32) (main_arg15 : FVec F S128 .f32) : IVec S_ 1 :=
  let main_v0 : FVec F S50000x32 .f32 := Host.absf main_arg0
  let main_cst : FVec F S_ .f32 := constant S_ .f32 0x7F800000#32
  let main_v1 : FVec F S50000x32 .f32 := broadcastInDim S50000x32 ![] bcast_S_S50000x32 main_cst
  let main_v2 : IVec S50000x32 1 := cmpf .olt main_v0 main_v1
  let main_c : IVec S_ 1 := constantI S_ 1 1#1
  let main_v3 : IVec S_ 1 := (fun x v => Host.reduce IntOp.andi x v reducesTo_S50000x32_S_d0_1 h_S_) main_v2 main_c
  let main_v4 : FVec F S50000x32 .f32 := Host.absf main_arg3
  let main_cst_0 : FVec F S_ .f32 := constant S_ .f32 0x7F800000#32
  let main_v5 : FVec F S50000x32 .f32 := broadcastInDim S50000x32 ![] bcast_S_S50000x32 main_cst_0
  let main_v6 : IVec S50000x32 1 := cmpf .olt main_v4 main_v5
  let main_c_1 : IVec S_ 1 := constantI S_ 1 1#1
  let main_v7 : IVec S_ 1 := (fun x v => Host.reduce IntOp.andi x v reducesTo_S50000x32_S_d0_1 h_S_) main_v6 main_c_1
  let main_v8 : IVec S_ 1 := andi main_v3 main_v7
  let main_v9 : FVec F S32x128 .f32 := Host.absf main_arg6
  let main_cst_2 : FVec F S_ .f32 := constant S_ .f32 0x7F800000#32
  let main_v10 : FVec F S32x128 .f32 := broadcastInDim S32x128 ![] bcast_S_S32x128 main_cst_2
  let main_v11 : IVec S32x128 1 := cmpf .olt main_v9 main_v10
  let main_c_3 : IVec S_ 1 := constantI S_ 1 1#1
  let main_v12 : IVec S_ 1 := (fun x v => Host.reduce IntOp.andi x v reducesTo_S32x128_S_d0_1 h_S_) main_v11 main_c_3
  let main_v13 : IVec S_ 1 := andi main_v8 main_v12
  let main_v14 : FVec F S128 .f32 := Host.absf main_arg7
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg8 main_arg9 main_arg10 main_arg11 main_arg12 main_arg13 main_arg14 main_arg15 main_v13 main_v16
-- ==== Kernel.lean ====
abbrev S50000x32 : Shape := ⟨2, ![50000, 32]⟩
abbrev S2x640000 : Shape := ⟨2, ![2, 640000]⟩
abbrev S50000 : Shape := ⟨1, ![50000]⟩
abbrev S32x128 : Shape := ⟨2, ![32, 128]⟩
abbrev S128 : Shape := ⟨1, ![128]⟩
abbrev S4x128x128 : Shape := ⟨3, ![4, 128, 128]⟩
abbrev S4x128 : Shape := ⟨2, ![4, 128]⟩
abbrev S640x128 : Shape := ⟨2, ![640, 128]⟩
abbrev S128x128 : Shape := ⟨2, ![128, 128]⟩
abbrev S1x640000 : Shape := ⟨2, ![1, 640000]⟩
abbrev S640000 : Shape := ⟨1, ![640000]⟩
abbrev S50000x128 : Shape := ⟨2, ![50000, 128]⟩
abbrev S5000x32 : Shape := ⟨2, ![5000, 32]⟩
abbrev S5000x128 : Shape := ⟨2, ![5000, 128]⟩
abbrev S1x128 : Shape := ⟨2, ![1, 128]⟩
abbrev S_ : Shape := ⟨0, ![]⟩
abbrev S640000x1 : Shape := ⟨2, ![640000, 1]⟩
abbrev S640000x128 : Shape := ⟨2, ![640000, 128]⟩
abbrev S1x128x128 : Shape := ⟨3, ![1, 128, 128]⟩
abbrev S50000x640 : Shape := ⟨2, ![50000, 640]⟩
abbrev S1000x640 : Shape := ⟨2, ![1000, 640]⟩
abbrev S50000x1 : Shape := ⟨2, ![50000, 1]⟩
abbrev S1000x128 : Shape := ⟨2, ![1000, 128]⟩
abbrev S200x640 : Shape := ⟨2, ![200, 640]⟩
abbrev S200x128 : Shape := ⟨2, ![200, 128]⟩
abbrev S1000 : Shape := ⟨1, ![1000]⟩
abbrev S1000x64 : Shape := ⟨2, ![1000, 64]⟩

abbrev nBuf : Space → Nat
  | .hbm => 219
  | .vmem => 127
  | .smem => 0
  | _ => 0

abbrev hbmTy0_0 (i : Nat) : BufTy := match i % 128 with
  | 0 => ⟨S50000x32, .f32⟩
  | 1 => ⟨S2x640000, .i32⟩
  | 2 => ⟨S50000, .i32⟩
  | 3 => ⟨S50000x32, .f32⟩
  | 4 => ⟨S2x640000, .i32⟩
  | 5 => ⟨S50000, .i32⟩
  | 6 => ⟨S32x128, .f32⟩
  | 7 => ⟨S128, .f32⟩
  | 8 => ⟨S4x128x128, .f32⟩
  | 9 => ⟨S4x128, .f32⟩
  | 10 => ⟨S4x128x128, .f32⟩
  | 11 => ⟨S4x128, .f32⟩
  | 12 => ⟨S640x128, .f32⟩
  | 13 => ⟨S128, .f32⟩
  | 14 => ⟨S128x128, .f32⟩
  | 15 => ⟨S128, .f32⟩
  | 16 => ⟨S1x640000, .i32⟩
  | 17 => ⟨S640000, .i32⟩
  | 18 => ⟨S1x640000, .i32⟩
  | 19 => ⟨S640000, .i32⟩
  | 20 => ⟨S50000x128, .f32⟩
  | 21 => ⟨S_, .i32⟩
  | 22 => ⟨S640000, .i32⟩
  | 23 => ⟨S640000, .i1⟩
  | 24 => ⟨S_, .i32⟩
  | 25 => ⟨S640000, .i32⟩
  | 26 => ⟨S640000, .i32⟩
  | 27 => ⟨S640000, .i32⟩
  | 28 => ⟨S640000x1, .i32⟩
  | 29 => ⟨S640000x128, .f32⟩
  | 30 => ⟨S_, .f32⟩
  | 31 => ⟨S50000x128, .f32⟩
  | 32 => ⟨S640000x1, .i32⟩
  | 33 => ⟨S50000x128, .f32⟩
  | 34 => ⟨S1x128x128, .f32⟩
  | 35 => ⟨S128x128, .f32⟩
  | 36 => ⟨S1x128, .f32⟩
  | 37 => ⟨S128, .f32⟩
  | 38 => ⟨S1x128x128, .f32⟩
  | 39 => ⟨S128x128, .f32⟩
  | 40 => ⟨S1x128, .f32⟩
  | 41 => ⟨S128, .f32⟩
  | 42 => ⟨S50000x128, .f32⟩
  | 43 => ⟨S_, .i32⟩
  | 44 => ⟨S640000, .i32⟩
  | 45 => ⟨S640000, .i1⟩
  | 46 => ⟨S_, .i32⟩
  | 47 => ⟨S640000, .i32⟩
  | 48 => ⟨S640000, .i32⟩
  | 49 => ⟨S640000, .i32⟩
  | 50 => ⟨S640000x1, .i32⟩
  | 51 => ⟨S640000x128, .f32⟩
  | 52 => ⟨S_, .f32⟩
  | 53 => ⟨S50000x128, .f32⟩
  | 54 => ⟨S640000x1, .i32⟩
  | 55 => ⟨S50000x128, .f32⟩
  | 56 => ⟨S1x128x128, .f32⟩
  | 57 => ⟨S128x128, .f32⟩
  | 58 => ⟨S1x128, .f32⟩
  | 59 => ⟨S128, .f32⟩
  | 60 => ⟨S1x128x128, .f32⟩
  | 61 => ⟨S128x128, .f32⟩
  | 62 => ⟨S1x128, .f32⟩
  | 63 => ⟨S128, .f32⟩
  | 64 => ⟨S50000x128, .f32⟩
  | 65 => ⟨S50000x128, .f32⟩
  | 66 => ⟨S_, .i32⟩
  | 67 => ⟨S640000, .i32⟩
  | 68 => ⟨S640000, .i1⟩
  | 69 => ⟨S_, .i32⟩
  | 70 => ⟨S640000, .i32⟩
  | 71 => ⟨S640000, .i32⟩
  | 72 => ⟨S640000, .i32⟩
  | 73 => ⟨S640000x1, .i32⟩
  | 74 => ⟨S640000x128, .f32⟩
  | 75 => ⟨S_, .f32⟩
  | 76 => ⟨S50000x128, .f32⟩
  | 77 => ⟨S640000x1, .i32⟩
  | 78 => ⟨S50000x128, .f32⟩
  | 79 => ⟨S1x128x128, .f32⟩
  | 80 => ⟨S128x128, .f32⟩
  | 81 => ⟨S1x128, .f32⟩
  | 82 => ⟨S128, .f32⟩
  | 83 => ⟨S1x128x128, .f32⟩
  | 84 => ⟨S128x128, .f32⟩
  | 85 => ⟨S1x128, .f32⟩
  | 86 => ⟨S128, .f32⟩
  | 87 => ⟨S50000x128, .f32⟩
  | 88 => ⟨S_, .i32⟩
  | 89 => ⟨S640000, .i32⟩
  | 90 => ⟨S640000, .i1⟩
  | 91 => ⟨S_, .i32⟩
  | 92 => ⟨S640000, .i32⟩
  | 93 => ⟨S640000, .i32⟩
  | 94 => ⟨S640000, .i32⟩
  | 95 => ⟨S640000x1, .i32⟩
  | 96 => ⟨S640000x128, .f32⟩
  | 97 => ⟨S_, .f32⟩
  | 98 => ⟨S50000x128, .f32⟩
  | 99 => ⟨S640000x1, .i32⟩
  | 100 => ⟨S50000x128, .f32⟩
  | 101 => ⟨S1x128x128, .f32⟩
  | 102 => ⟨S128x128, .f32⟩
  | 103 => ⟨S1x128, .f32⟩
  | 104 => ⟨S128, .f32⟩
  | 105 => ⟨S1x128x128, .f32⟩
  | 106 => ⟨S128x128, .f32⟩
  | 107 => ⟨S1x128, .f32⟩
  | 108 => ⟨S128, .f32⟩
  | 109 => ⟨S50000x128, .f32⟩
  | 110 => ⟨S50000x128, .f32⟩
  | 111 => ⟨S50000x640, .f32⟩
  | 112 => ⟨S_, .f32⟩
  | 113 => ⟨S1000x640, .f32⟩
  | 114 => ⟨S50000x1, .i32⟩
  | 115 => ⟨S1000x640, .f32⟩
  | 116 => ⟨S1000x128, .f32⟩
  | 117 => ⟨S1x640000, .i32⟩
  | 118 => ⟨S640000, .i32⟩
  | 119 => ⟨S1x640000, .i32⟩
  | 120 => ⟨S640000, .i32⟩
  | 121 => ⟨S50000x128, .f32⟩
  | 122 => ⟨S_, .i32⟩
  | 123 => ⟨S640000, .i32⟩
  | 124 => ⟨S640000, .i1⟩
  | 125 => ⟨S_, .i32⟩
  | 126 => ⟨S640000, .i32⟩
  | 127 => ⟨S640000, .i32⟩
  | _ => ⟨S50000x32, .f32⟩

abbrev hbmTy0_1 (i : Nat) : BufTy := match i % 128 with
  | 0 => ⟨S640000, .i32⟩
  | 1 => ⟨S640000x1, .i32⟩
  | 2 => ⟨S640000x128, .f32⟩
  | 3 => ⟨S_, .f32⟩
  | 4 => ⟨S50000x128, .f32⟩
  | 5 => ⟨S640000x1, .i32⟩
  | 6 => ⟨S50000x128, .f32⟩
  | 7 => ⟨S1x128x128, .f32⟩
  | 8 => ⟨S128x128, .f32⟩
  | 9 => ⟨S1x128, .f32⟩
  | 10 => ⟨S128, .f32⟩
  | 11 => ⟨S1x128x128, .f32⟩
  | 12 => ⟨S128x128, .f32⟩
  | 13 => ⟨S1x128, .f32⟩
  | 14 => ⟨S128, .f32⟩
  | 15 => ⟨S50000x128, .f32⟩
  | 16 => ⟨S_, .i32⟩
  | 17 => ⟨S640000, .i32⟩
  | 18 => ⟨S640000, .i1⟩
  | 19 => ⟨S_, .i32⟩
  | 20 => ⟨S640000, .i32⟩
  | 21 => ⟨S640000, .i32⟩
  | 22 => ⟨S640000, .i32⟩
  | 23 => ⟨S640000x1, .i32⟩
  | 24 => ⟨S640000x128, .f32⟩
  | 25 => ⟨S_, .f32⟩
  | 26 => ⟨S50000x128, .f32⟩
  | 27 => ⟨S640000x1, .i32⟩
  | 28 => ⟨S50000x128, .f32⟩
  | 29 => ⟨S1x128x128, .f32⟩
  | 30 => ⟨S128x128, .f32⟩
  | 31 => ⟨S1x128, .f32⟩
  | 32 => ⟨S128, .f32⟩
  | 33 => ⟨S1x128x128, .f32⟩
  | 34 => ⟨S128x128, .f32⟩
  | 35 => ⟨S1x128, .f32⟩
  | 36 => ⟨S128, .f32⟩
  | 37 => ⟨S50000x128, .f32⟩
  | 38 => ⟨S50000x128, .f32⟩
  | 39 => ⟨S_, .i32⟩
  | 40 => ⟨S640000, .i32⟩
  | 41 => ⟨S640000, .i1⟩
  | 42 => ⟨S_, .i32⟩
  | 43 => ⟨S640000, .i32⟩
  | 44 => ⟨S640000, .i32⟩
  | 45 => ⟨S640000, .i32⟩
  | 46 => ⟨S640000x1, .i32⟩
  | 47 => ⟨S640000x128, .f32⟩
  | 48 => ⟨S_, .f32⟩
  | 49 => ⟨S50000x128, .f32⟩
  | 50 => ⟨S640000x1, .i32⟩
  | 51 => ⟨S50000x128, .f32⟩
  | 52 => ⟨S1x128x128, .f32⟩
  | 53 => ⟨S128x128, .f32⟩
  | 54 => ⟨S1x128, .f32⟩
  | 55 => ⟨S128, .f32⟩
  | 56 => ⟨S1x128x128, .f32⟩
  | 57 => ⟨S128x128, .f32⟩
  | 58 => ⟨S1x128, .f32⟩
  | 59 => ⟨S128, .f32⟩
  | 60 => ⟨S50000x128, .f32⟩
  | 61 => ⟨S_, .i32⟩
  | 62 => ⟨S640000, .i32⟩
  | 63 => ⟨S640000, .i1⟩
  | 64 => ⟨S_, .i32⟩
  | 65 => ⟨S640000, .i32⟩
  | 66 => ⟨S640000, .i32⟩
  | 67 => ⟨S640000, .i32⟩
  | 68 => ⟨S640000x1, .i32⟩
  | 69 => ⟨S640000x128, .f32⟩
  | 70 => ⟨S_, .f32⟩
  | 71 => ⟨S50000x128, .f32⟩
  | 72 => ⟨S640000x1, .i32⟩
  | 73 => ⟨S50000x128, .f32⟩
  | 74 => ⟨S1x128x128, .f32⟩
  | 75 => ⟨S128x128, .f32⟩
  | 76 => ⟨S1x128, .f32⟩
  | 77 => ⟨S128, .f32⟩
  | 78 => ⟨S1x128x128, .f32⟩
  | 79 => ⟨S128x128, .f32⟩
  | 80 => ⟨S1x128, .f32⟩
  | 81 => ⟨S128, .f32⟩
  | 82 => ⟨S50000x128, .f32⟩
  | 83 => ⟨S50000x128, .f32⟩
  | 84 => ⟨S50000x640, .f32⟩
  | 85 => ⟨S_, .f32⟩
  | 86 => ⟨S1000x640, .f32⟩
  | 87 => ⟨S50000x1, .i32⟩
  | 88 => ⟨S1000x640, .f32⟩
  | 89 => ⟨S1000x128, .f32⟩
  | 90 => ⟨S1000, .f32⟩
  | _ => ⟨S50000x32, .f32⟩

abbrev hbmTy (i : Nat) : BufTy := match i / 128 with
  | 0 => hbmTy0_0 i
  | 1 => hbmTy0_1 i
  | _ => ⟨S50000x32, .f32⟩

abbrev bufTy : (tb : Table) → Fin (tcTables nBuf tb) → BufTy
  | .hbm, ⟨i, _⟩ => hbmTy i
  | .local _ .vmem, ⟨0, _⟩ => ⟨S5000x32, .f32⟩
  | .local _ .vmem, ⟨1, _⟩ => ⟨S5000x32, .f32⟩
  | .local _ .vmem, ⟨2, _⟩ => ⟨S32x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S128, .f32⟩
  | .local _ .vmem, ⟨12, _⟩ => ⟨S128x128, .f32⟩
  | .local _ .vmem, ⟨13, _⟩ => ⟨S128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128, .f32⟩
  | .local _ .vmem, ⟨24, _⟩ => ⟨S128x128, .f32⟩
  | .local _ .vmem, ⟨25, _⟩ => ⟨S128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S128x128, .f32⟩
  | .local _ .vmem, ⟨35, _⟩ => ⟨S128, .f32⟩
  | .local _ .vmem, ⟨36, _⟩ => ⟨S128x128, .f32⟩
  | .local _ .vmem, ⟨37, _⟩ => ⟨S128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S128x128, .f32⟩
  | .local _ .vmem, ⟨47, _⟩ => ⟨S128, .f32⟩
  | .local _ .vmem, ⟨48, _⟩ => ⟨S128x128, .f32⟩
  | .local _ .vmem, ⟨49, _⟩ => ⟨S128, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S5000x128, .f32⟩
  | .local _ .vmem, ⟨54, _⟩ => ⟨S200x640, .f32⟩
  | .local _ .vmem, ⟨55, _⟩ => ⟨S200x640, .f32⟩
  | .local _ .vmem, ⟨56, _⟩ => ⟨S640x128, .f32⟩
  | .local _ .vmem, ⟨57, _⟩ => ⟨S128, .f32⟩
  | .local _ .vmem, ⟨58, _⟩ => ⟨S128x128, .f32⟩
  | .local _ .vmem, ⟨59, _⟩ => ⟨S128, .f32⟩
  | .local _ .vmem, ⟨60, _⟩ => ⟨S200x128, .f32⟩
  | .local _ .vmem, ⟨61, _⟩ => ⟨S200x128, .f32⟩
  | .local _ .vmem, ⟨62, _⟩ => ⟨S5000x32, .f32⟩
  | .local _ .vmem, ⟨63, _⟩ => ⟨S5000x32, .f32⟩
  | .local _ .vmem, ⟨64, _⟩ => ⟨S32x128, .f32⟩
  | .local _ .vmem, ⟨65, _⟩ => ⟨S128, .f32⟩
  | .local _ .vmem, ⟨66, _⟩ => ⟨S5000x128, .f32⟩
  | .local _ .vmem, ⟨67, _⟩ => ⟨S5000x128, .f32⟩
  | .local _ .vmem, ⟨68, _⟩ => ⟨S5000x128, .f32⟩
  | .local _ .vmem, ⟨69, _⟩ => ⟨S5000x128, .f32⟩
  | .local _ .vmem, ⟨70, _⟩ => ⟨S5000x128, .f32⟩
  | .local _ .vmem, ⟨71, _⟩ => ⟨S5000x128, .f32⟩
  | .local _ .vmem, ⟨72, _⟩ => ⟨S128x128, .f32⟩
  | .local _ .vmem, ⟨73, _⟩ => ⟨S128, .f32⟩
  | .local _ .vmem, ⟨74, _⟩ => ⟨S128x128, .f32⟩
  | .local _ .vmem, ⟨75, _⟩ => ⟨S128, .f32⟩
  | .local _ .vmem, ⟨76, _⟩ => ⟨S5000x128, .f32⟩
  | .local _ .vmem, ⟨77, _⟩ => ⟨S5000x128, .f32⟩
  | .local _ .vmem, ⟨78, _⟩ => ⟨S5000x128, .f32⟩
  | .local _ .vmem, ⟨79, _⟩ => ⟨S5000x128, .f32⟩
  | .local _ .vmem, ⟨80, _⟩ => ⟨S5000x128, .f32⟩
  | .local _ .vmem, ⟨81, _⟩ => ⟨S5000x128, .f32⟩
  | .local _ .vmem, ⟨82, _⟩ => ⟨S5000x128, .f32⟩
  | .local _ .vmem, ⟨83, _⟩ => ⟨S5000x128, .f32⟩
  | .local _ .vmem, ⟨84, _⟩ => ⟨S128x128, .f32⟩
  | .local _ .vmem, ⟨85, _⟩ => ⟨S128, .f32⟩
  | .local _ .vmem, ⟨86, _⟩ => ⟨S128x128, .f32⟩
  | .local _ .vmem, ⟨87, _⟩ => ⟨S128, .f32⟩
  | .local _ .vmem, ⟨88, _⟩ => ⟨S5000x128, .f32⟩
  | .local _ .vmem, ⟨89, _⟩ => ⟨S5000x128, .f32⟩
  | .local _ .vmem, ⟨90, _⟩ => ⟨S5000x128, .f32⟩
  | .local _ .vmem, ⟨91, _⟩ => ⟨S5000x128, .f32⟩
  | .local _ .vmem, ⟨92, _⟩ => ⟨S5000x128, .f32⟩
  | .local _ .vmem, ⟨93, _⟩ => ⟨S5000x128, .f32⟩
  | .local _ .vmem, ⟨94, _⟩ => ⟨S5000x128, .f32⟩
  | .local _ .vmem, ⟨95, _⟩ => ⟨S5000x128, .f32⟩
  | .local _ .vmem, ⟨96, _⟩ => ⟨S128x128, .f32⟩
  | .local _ .vmem, ⟨97, _⟩ => ⟨S128, .f32⟩
  | .local _ .vmem, ⟨98, _⟩ => ⟨S128x128, .f32⟩
  | .local _ .vmem, ⟨99, _⟩ => ⟨S128, .f32⟩
  | .local _ .vmem, ⟨100, _⟩ => ⟨S5000x128, .f32⟩
  | .local _ .vmem, ⟨101, _⟩ => ⟨S5000x128, .f32⟩
  | .local _ .vmem, ⟨102, _⟩ => ⟨S5000x128, .f32⟩
  | .local _ .vmem, ⟨103, _⟩ => ⟨S5000x128, .f32⟩
  | .local _ .vmem, ⟨104, _⟩ => ⟨S5000x128, .f32⟩
  | .local _ .vmem, ⟨105, _⟩ => ⟨S5000x128, .f32⟩
  | .local _ .vmem, ⟨106, _⟩ => ⟨S5000x128, .f32⟩
  | .local _ .vmem, ⟨107, _⟩ => ⟨S5000x128, .f32⟩
  | .local _ .vmem, ⟨108, _⟩ => ⟨S128x128, .f32⟩
  | .local _ .vmem, ⟨109, _⟩ => ⟨S128, .f32⟩
  | .local _ .vmem, ⟨110, _⟩ => ⟨S128x128, .f32⟩
  | .local _ .vmem, ⟨111, _⟩ => ⟨S128, .f32⟩
  | .local _ .vmem, ⟨112, _⟩ => ⟨S5000x128, .f32⟩
  | .local _ .vmem, ⟨113, _⟩ => ⟨S5000x128, .f32⟩
  | .local _ .vmem, ⟨114, _⟩ => ⟨S5000x128, .f32⟩
  | .local _ .vmem, ⟨115, _⟩ => ⟨S5000x128, .f32⟩
  | .local _ .vmem, ⟨116, _⟩ => ⟨S200x640, .f32⟩
  | .local _ .vmem, ⟨117, _⟩ => ⟨S200x640, .f32⟩
  | .local _ .vmem, ⟨118, _⟩ => ⟨S640x128, .f32⟩
  | .local _ .vmem, ⟨119, _⟩ => ⟨S128, .f32⟩
  | .local _ .vmem, ⟨120, _⟩ => ⟨S128x128, .f32⟩
  | .local _ .vmem, ⟨121, _⟩ => ⟨S128, .f32⟩
  | .local _ .vmem, ⟨122, _⟩ => ⟨S200x128, .f32⟩
  | .local _ .vmem, ⟨123, _⟩ => ⟨S200x128, .f32⟩
  | .local _ .vmem, ⟨124, _⟩ => ⟨S1000x128, .f32⟩
  | .local _ .vmem, ⟨125, _⟩ => ⟨S1000x128, .f32⟩
  | .local _ .vmem, ⟨126, _⟩ => ⟨S1000, .f32⟩
  | _, _ => ⟨S50000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | .vmem, ⟨119, _⟩ => true
  | .vmem, ⟨120, _⟩ => true
  | .vmem, ⟨121, _⟩ => true
  | .vmem, ⟨122, _⟩ => true
  | .vmem, ⟨123, _⟩ => true
  | .vmem, ⟨124, _⟩ => true
  | .vmem, ⟨125, _⟩ => true
  | .vmem, ⟨126, _⟩ => true
  | _, _ => false

abbrev semScoped : Fin 0 → Bool
  | ⟨_, h⟩ => absurd h (Nat.not_lt_zero _)

abbrev dmaSemScoped : Fin 127 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | ⟨125, _⟩ => true
  | ⟨126, _⟩ => true
  | _ => false

abbrev sig : RefSig :=
  ofTc nBuf bufTy 0 127 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_c : Ref sig .tc := ⟨.hbm, 21, rfl⟩
abbrev main_v5 : Ref sig .tc := ⟨.hbm, 22, rfl⟩
abbrev main_v6 : Ref sig .tc := ⟨.hbm, 23, rfl⟩
abbrev main_c_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_1 : Ref sig .tc := ⟨.hbm, 43, rfl⟩
abbrev main_v24 : Ref sig .tc := ⟨.hbm, 44, rfl⟩
abbrev main_v25 : Ref sig .tc := ⟨.hbm, 45, rfl⟩
abbrev main_c_2 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_3 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42_0 : Ref sig .tc := ⟨.hbm, 64, rfl⟩
abbrev main_v42_1 : Ref sig .tc := ⟨.hbm, 65, rfl⟩
abbrev main_c_4 : Ref sig .tc := ⟨.hbm, 66, rfl⟩
abbrev main_v43 : Ref sig .tc := ⟨.hbm, 67, rfl⟩
abbrev main_v44 : Ref sig .tc := ⟨.hbm, 68, rfl⟩
abbrev main_c_5 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_6 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_c_7 : Ref sig .tc := ⟨.hbm, 88, rfl⟩
abbrev main_v62 : Ref sig .tc := ⟨.hbm, 89, rfl⟩
abbrev main_v63 : Ref sig .tc := ⟨.hbm, 90, rfl⟩
abbrev main_c_8 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_9 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80_0 : Ref sig .tc := ⟨.hbm, 109, rfl⟩
abbrev main_v80_1 : Ref sig .tc := ⟨.hbm, 110, rfl⟩
abbrev main_v81 : Ref sig .tc := ⟨.hbm, 111, rfl⟩
abbrev main_cst_10 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_c_11 : Ref sig .tc := ⟨.hbm, 122, rfl⟩
abbrev main_v91 : Ref sig .tc := ⟨.hbm, 123, rfl⟩
abbrev main_v92 : Ref sig .tc := ⟨.hbm, 124, rfl⟩
abbrev main_c_12 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_cst_13 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_c_14 : Ref sig .tc := ⟨.hbm, 144, rfl⟩
abbrev main_v110 : Ref sig .tc := ⟨.hbm, 145, rfl⟩
abbrev main_v111 : Ref sig .tc := ⟨.hbm, 146, rfl⟩
abbrev main_c_15 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_cst_16 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128_0 : Ref sig .tc := ⟨.hbm, 165, rfl⟩
abbrev main_v128_1 : Ref sig .tc := ⟨.hbm, 166, rfl⟩
abbrev main_c_17 : Ref sig .tc := ⟨.hbm, 167, rfl⟩
abbrev main_v129 : Ref sig .tc := ⟨.hbm, 168, rfl⟩
abbrev main_v130 : Ref sig .tc := ⟨.hbm, 169, rfl⟩
abbrev main_c_18 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_cst_19 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_c_20 : Ref sig .tc := ⟨.hbm, 189, rfl⟩
abbrev main_v148 : Ref sig .tc := ⟨.hbm, 190, rfl⟩
abbrev main_v149 : Ref sig .tc := ⟨.hbm, 191, rfl⟩
abbrev main_c_21 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_cst_22 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166_0 : Ref sig .tc := ⟨.hbm, 210, rfl⟩
abbrev main_v166_1 : Ref sig .tc := ⟨.hbm, 211, rfl⟩
abbrev main_v167 : Ref sig .tc := ⟨.hbm, 212, rfl⟩
abbrev main_cst_23 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg7_1 : Ref sig .tc := ⟨.vmem, 27, rfl⟩
abbrev cc2_stg8_0 : Ref sig .tc := ⟨.vmem, 28, rfl⟩
abbrev cc2_stg8_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg6_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg2_1 : Ref sig .tc := ⟨.vmem, 45, rfl⟩
abbrev cc4_stg3_0 : Ref sig .tc := ⟨.vmem, 46, rfl⟩
abbrev cc4_stg4_0 : Ref sig .tc := ⟨.vmem, 47, rfl⟩
abbrev cc4_stg5_0 : Ref sig .tc := ⟨.vmem, 48, rfl⟩
abbrev cc4_stg6_0 : Ref sig .tc := ⟨.vmem, 49, rfl⟩
abbrev cc4_stg7_0 : Ref sig .tc := ⟨.vmem, 50, rfl⟩
abbrev cc4_stg7_1 : Ref sig .tc := ⟨.vmem, 51, rfl⟩
abbrev cc4_stg8_0 : Ref sig .tc := ⟨.vmem, 52, rfl⟩
abbrev cc4_stg8_1 : Ref sig .tc := ⟨.vmem, 53, rfl⟩
abbrev cc5_stg0_0 : Ref sig .tc := ⟨.vmem, 54, rfl⟩
abbrev cc5_stg0_1 : Ref sig .tc := ⟨.vmem, 55, rfl⟩
abbrev cc5_stg1_0 : Ref sig .tc := ⟨.vmem, 56, rfl⟩
abbrev cc5_stg2_0 : Ref sig .tc := ⟨.vmem, 57, rfl⟩
abbrev cc5_stg3_0 : Ref sig .tc := ⟨.vmem, 58, rfl⟩
abbrev cc5_stg4_0 : Ref sig .tc := ⟨.vmem, 59, rfl⟩
abbrev cc5_stg5_0 : Ref sig .tc := ⟨.vmem, 60, rfl⟩
abbrev cc5_stg5_1 : Ref sig .tc := ⟨.vmem, 61, rfl⟩
abbrev cc6_stg0_0 : Ref sig .tc := ⟨.vmem, 62, rfl⟩
abbrev cc6_stg0_1 : Ref sig .tc := ⟨.vmem, 63, rfl⟩
abbrev cc6_stg1_0 : Ref sig .tc := ⟨.vmem, 64, rfl⟩
abbrev cc6_stg2_0 : Ref sig .tc := ⟨.vmem, 65, rfl⟩
abbrev cc6_stg3_0 : Ref sig .tc := ⟨.vmem, 66, rfl⟩
abbrev cc6_stg3_1 : Ref sig .tc := ⟨.vmem, 67, rfl⟩
abbrev cc7_stg0_0 : Ref sig .tc := ⟨.vmem, 68, rfl⟩
abbrev cc7_stg0_1 : Ref sig .tc := ⟨.vmem, 69, rfl⟩
abbrev cc7_stg1_0 : Ref sig .tc := ⟨.vmem, 70, rfl⟩
abbrev cc7_stg1_1 : Ref sig .tc := ⟨.vmem, 71, rfl⟩
abbrev cc7_stg2_0 : Ref sig .tc := ⟨.vmem, 72, rfl⟩
abbrev cc7_stg3_0 : Ref sig .tc := ⟨.vmem, 73, rfl⟩
abbrev cc7_stg4_0 : Ref sig .tc := ⟨.vmem, 74, rfl⟩
abbrev cc7_stg5_0 : Ref sig .tc := ⟨.vmem, 75, rfl⟩
abbrev cc7_stg6_0 : Ref sig .tc := ⟨.vmem, 76, rfl⟩
abbrev cc7_stg6_1 : Ref sig .tc := ⟨.vmem, 77, rfl⟩
abbrev cc8_stg0_0 : Ref sig .tc := ⟨.vmem, 78, rfl⟩
abbrev cc8_stg0_1 : Ref sig .tc := ⟨.vmem, 79, rfl⟩
abbrev cc8_stg1_0 : Ref sig .tc := ⟨.vmem, 80, rfl⟩
abbrev cc8_stg1_1 : Ref sig .tc := ⟨.vmem, 81, rfl⟩
abbrev cc8_stg2_0 : Ref sig .tc := ⟨.vmem, 82, rfl⟩
abbrev cc8_stg2_1 : Ref sig .tc := ⟨.vmem, 83, rfl⟩
abbrev cc8_stg3_0 : Ref sig .tc := ⟨.vmem, 84, rfl⟩
abbrev cc8_stg4_0 : Ref sig .tc := ⟨.vmem, 85, rfl⟩
abbrev cc8_stg5_0 : Ref sig .tc := ⟨.vmem, 86, rfl⟩
abbrev cc8_stg6_0 : Ref sig .tc := ⟨.vmem, 87, rfl⟩
abbrev cc8_stg7_0 : Ref sig .tc := ⟨.vmem, 88, rfl⟩
abbrev cc8_stg7_1 : Ref sig .tc := ⟨.vmem, 89, rfl⟩
abbrev cc8_stg8_0 : Ref sig .tc := ⟨.vmem, 90, rfl⟩
abbrev cc8_stg8_1 : Ref sig .tc := ⟨.vmem, 91, rfl⟩
abbrev cc9_stg0_0 : Ref sig .tc := ⟨.vmem, 92, rfl⟩
abbrev cc9_stg0_1 : Ref sig .tc := ⟨.vmem, 93, rfl⟩
abbrev cc9_stg1_0 : Ref sig .tc := ⟨.vmem, 94, rfl⟩
abbrev cc9_stg1_1 : Ref sig .tc := ⟨.vmem, 95, rfl⟩
abbrev cc9_stg2_0 : Ref sig .tc := ⟨.vmem, 96, rfl⟩
abbrev cc9_stg3_0 : Ref sig .tc := ⟨.vmem, 97, rfl⟩
abbrev cc9_stg4_0 : Ref sig .tc := ⟨.vmem, 98, rfl⟩
abbrev cc9_stg5_0 : Ref sig .tc := ⟨.vmem, 99, rfl⟩
abbrev cc9_stg6_0 : Ref sig .tc := ⟨.vmem, 100, rfl⟩
abbrev cc9_stg6_1 : Ref sig .tc := ⟨.vmem, 101, rfl⟩
abbrev cc10_stg0_0 : Ref sig .tc := ⟨.vmem, 102, rfl⟩
abbrev cc10_stg0_1 : Ref sig .tc := ⟨.vmem, 103, rfl⟩
abbrev cc10_stg1_0 : Ref sig .tc := ⟨.vmem, 104, rfl⟩
abbrev cc10_stg1_1 : Ref sig .tc := ⟨.vmem, 105, rfl⟩
abbrev cc10_stg2_0 : Ref sig .tc := ⟨.vmem, 106, rfl⟩
abbrev cc10_stg2_1 : Ref sig .tc := ⟨.vmem, 107, rfl⟩
abbrev cc10_stg3_0 : Ref sig .tc := ⟨.vmem, 108, rfl⟩
abbrev cc10_stg4_0 : Ref sig .tc := ⟨.vmem, 109, rfl⟩
abbrev cc10_stg5_0 : Ref sig .tc := ⟨.vmem, 110, rfl⟩
abbrev cc10_stg6_0 : Ref sig .tc := ⟨.vmem, 111, rfl⟩
abbrev cc10_stg7_0 : Ref sig .tc := ⟨.vmem, 112, rfl⟩
abbrev cc10_stg7_1 : Ref sig .tc := ⟨.vmem, 113, rfl⟩
abbrev cc10_stg8_0 : Ref sig .tc := ⟨.vmem, 114, rfl⟩
abbrev cc10_stg8_1 : Ref sig .tc := ⟨.vmem, 115, rfl⟩
abbrev cc11_stg0_0 : Ref sig .tc := ⟨.vmem, 116, rfl⟩
abbrev cc11_stg0_1 : Ref sig .tc := ⟨.vmem, 117, rfl⟩
abbrev cc11_stg1_0 : Ref sig .tc := ⟨.vmem, 118, rfl⟩
abbrev cc11_stg2_0 : Ref sig .tc := ⟨.vmem, 119, rfl⟩
abbrev cc11_stg3_0 : Ref sig .tc := ⟨.vmem, 120, rfl⟩
abbrev cc11_stg4_0 : Ref sig .tc := ⟨.vmem, 121, rfl⟩
abbrev cc11_stg5_0 : Ref sig .tc := ⟨.vmem, 122, rfl⟩
abbrev cc11_stg5_1 : Ref sig .tc := ⟨.vmem, 123, rfl⟩
abbrev cc12_stg0_0 : Ref sig .tc := ⟨.vmem, 124, rfl⟩
abbrev cc12_stg1_0 : Ref sig .tc := ⟨.vmem, 125, rfl⟩
abbrev cc12_stg2_0 : Ref sig .tc := ⟨.vmem, 126, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem7_1 : DmaSem sig := 27
abbrev cc2_sem8_0 : DmaSem sig := 28
abbrev cc2_sem8_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem6_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem2_1 : DmaSem sig := 45
abbrev cc4_sem3_0 : DmaSem sig := 46
abbrev cc4_sem4_0 : DmaSem sig := 47
abbrev cc4_sem5_0 : DmaSem sig := 48
abbrev cc4_sem6_0 : DmaSem sig := 49
abbrev cc4_sem7_0 : DmaSem sig := 50
abbrev cc4_sem7_1 : DmaSem sig := 51
abbrev cc4_sem8_0 : DmaSem sig := 52
abbrev cc4_sem8_1 : DmaSem sig := 53
abbrev cc5_sem0_0 : DmaSem sig := 54
abbrev cc5_sem0_1 : DmaSem sig := 55
abbrev cc5_sem1_0 : DmaSem sig := 56
abbrev cc5_sem2_0 : DmaSem sig := 57
abbrev cc5_sem3_0 : DmaSem sig := 58
abbrev cc5_sem4_0 : DmaSem sig := 59
abbrev cc5_sem5_0 : DmaSem sig := 60
abbrev cc5_sem5_1 : DmaSem sig := 61
abbrev cc6_sem0_0 : DmaSem sig := 62
abbrev cc6_sem0_1 : DmaSem sig := 63
abbrev cc6_sem1_0 : DmaSem sig := 64
abbrev cc6_sem2_0 : DmaSem sig := 65
abbrev cc6_sem3_0 : DmaSem sig := 66
abbrev cc6_sem3_1 : DmaSem sig := 67
abbrev cc7_sem0_0 : DmaSem sig := 68
abbrev cc7_sem0_1 : DmaSem sig := 69
abbrev cc7_sem1_0 : DmaSem sig := 70
abbrev cc7_sem1_1 : DmaSem sig := 71
abbrev cc7_sem2_0 : DmaSem sig := 72
abbrev cc7_sem3_0 : DmaSem sig := 73
abbrev cc7_sem4_0 : DmaSem sig := 74
abbrev cc7_sem5_0 : DmaSem sig := 75
abbrev cc7_sem6_0 : DmaSem sig := 76
abbrev cc7_sem6_1 : DmaSem sig := 77
abbrev cc8_sem0_0 : DmaSem sig := 78
abbrev cc8_sem0_1 : DmaSem sig := 79
abbrev cc8_sem1_0 : DmaSem sig := 80
abbrev cc8_sem1_1 : DmaSem sig := 81
abbrev cc8_sem2_0 : DmaSem sig := 82
abbrev cc8_sem2_1 : DmaSem sig := 83
abbrev cc8_sem3_0 : DmaSem sig := 84
abbrev cc8_sem4_0 : DmaSem sig := 85
abbrev cc8_sem5_0 : DmaSem sig := 86
abbrev cc8_sem6_0 : DmaSem sig := 87
abbrev cc8_sem7_0 : DmaSem sig := 88
abbrev cc8_sem7_1 : DmaSem sig := 89
abbrev cc8_sem8_0 : DmaSem sig := 90
abbrev cc8_sem8_1 : DmaSem sig := 91
abbrev cc9_sem0_0 : DmaSem sig := 92
abbrev cc9_sem0_1 : DmaSem sig := 93
abbrev cc9_sem1_0 : DmaSem sig := 94
abbrev cc9_sem1_1 : DmaSem sig := 95
abbrev cc9_sem2_0 : DmaSem sig := 96
abbrev cc9_sem3_0 : DmaSem sig := 97
abbrev cc9_sem4_0 : DmaSem sig := 98
abbrev cc9_sem5_0 : DmaSem sig := 99
abbrev cc9_sem6_0 : DmaSem sig := 100
abbrev cc9_sem6_1 : DmaSem sig := 101
abbrev cc10_sem0_0 : DmaSem sig := 102
abbrev cc10_sem0_1 : DmaSem sig := 103
abbrev cc10_sem1_0 : DmaSem sig := 104
abbrev cc10_sem1_1 : DmaSem sig := 105
abbrev cc10_sem2_0 : DmaSem sig := 106
abbrev cc10_sem2_1 : DmaSem sig := 107
abbrev cc10_sem3_0 : DmaSem sig := 108
abbrev cc10_sem4_0 : DmaSem sig := 109
abbrev cc10_sem5_0 : DmaSem sig := 110
abbrev cc10_sem6_0 : DmaSem sig := 111
abbrev cc10_sem7_0 : DmaSem sig := 112
abbrev cc10_sem7_1 : DmaSem sig := 113
abbrev cc10_sem8_0 : DmaSem sig := 114
abbrev cc10_sem8_1 : DmaSem sig := 115
abbrev cc11_sem0_0 : DmaSem sig := 116
abbrev cc11_sem0_1 : DmaSem sig := 117
abbrev cc11_sem1_0 : DmaSem sig := 118
abbrev cc11_sem2_0 : DmaSem sig := 119
abbrev cc11_sem3_0 : DmaSem sig := 120
abbrev cc11_sem4_0 : DmaSem sig := 121
abbrev cc11_sem5_0 : DmaSem sig := 122
abbrev cc11_sem5_1 : DmaSem sig := 123
abbrev cc12_sem0_0 : DmaSem sig := 124
abbrev cc12_sem1_0 : DmaSem sig := 125
abbrev cc12_sem2_0 : DmaSem sig := 126

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S5000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S5000x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S5000x128 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S200x640 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S640x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S200x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S32x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S128x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S128x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S5000x128 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_7 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_8 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S5000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S128x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S128x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S128 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 2 → Memref sig .tc .vmem S5000x128 .f32 := fun | 0 => Memref.whole cc8_stg7_0 | 1 => Memref.whole cc8_stg7_1 | ⟨_ + 2, h⟩ => absurd h (Nat.not_lt.2 (Nat.le_add_left _ _))
abbrev sem8_7 : Fin 2 → DmaSem sig := fun | 0 => cc8_sem7_0 | 1 => cc8_sem7_1 | ⟨_ + 2, h⟩ => absurd h (Nat.not_lt.2 (Nat.le_add_left _ _))
abbrev reads8_7 : Fin grid8.rank → Bool := ![true]

abbrev stage8_8 : Fin 2 → Memref sig .tc .vmem S5000x128 .f32 := fun | 0 => Memref.whole cc8_stg8_0 | 1 => Memref.whole cc8_stg8_1 | ⟨_ + 2, h⟩ => absurd h (Nat.not_lt.2 (Nat.le_add_left _ _))
abbrev sem8_8 : Fin 2 → DmaSem sig := fun | 0 => cc8_sem8_0 | 1 => cc8_sem8_1 | ⟨_ + 2, h⟩ => absurd h (Nat.not_lt.2 (Nat.le_add_left _ _))
abbrev reads8_8 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_6 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S128x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S128x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S128 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 2 → Memref sig .tc .vmem S5000x128 .f32 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 1 → Nat :=
  let arg0 : BitVec 32 := BitVec.ofNat 32 (i 0).val
  let c0_i32 : BitVec 32 := 0#32
  let c0_i32_0 : BitVec 32 := 0#32
  ![c0_i32.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 1 → Nat :=
  let arg0 : BitVec 32 := BitVec.ofNat 32 (i 0).val
  let c0_i32 : BitVec 32 := 0#32
  let c0_i32_0 : BitVec 32 := 0#32
  ![c0_i32.toNat]

def cc10_transform_7 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_8 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S5000x128 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S5000x128 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 1 → Memref sig .tc .vmem S128x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S128 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S128x128 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 1 → Memref sig .tc .vmem S128 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev stage10_7 : Fin 2 → Memref sig .tc .vmem S5000x128 .f32 := fun | 0 => Memref.whole cc10_stg7_0 | 1 => Memref.whole cc10_stg7_1 | ⟨_ + 2, h⟩ => absurd h (Nat.not_lt.2 (Nat.le_add_left _ _))
abbrev sem10_7 : Fin 2 → DmaSem sig := fun | 0 => cc10_sem7_0 | 1 => cc10_sem7_1 | ⟨_ + 2, h⟩ => absurd h (Nat.not_lt.2 (Nat.le_add_left _ _))
abbrev reads10_7 : Fin grid10.rank → Bool := ![true]

abbrev stage10_8 : Fin 2 → Memref sig .tc .vmem S5000x128 .f32 := fun | 0 => Memref.whole cc10_stg8_0 | 1 => Memref.whole cc10_stg8_1 | ⟨_ + 2, h⟩ => absurd h (Nat.not_lt.2 (Nat.le_add_left _ _))
abbrev sem10_8 : Fin 2 → DmaSem sig := fun | 0 => cc10_sem8_0 | 1 => cc10_sem8_1 | ⟨_ + 2, h⟩ => absurd h (Nat.not_lt.2 (Nat.le_add_left _ _))
abbrev reads10_8 : Fin grid10.rank → Bool := ![true]

abbrev grid11 : Pipeline.Grid := ⟨1, ![5], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 1 → Nat :=
  let arg0 : BitVec 32 := BitVec.ofNat 32 (i 0).val
  let c0_i32 : BitVec 32 := 0#32
  let c0_i32_0 : BitVec 32 := 0#32
  ![c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 1 → Nat :=
  let arg0 : BitVec 32 := BitVec.ofNat 32 (i 0).val
  let c0_i32 : BitVec 32 := 0#32
  let c0_i32_0 : BitVec 32 := 0#32
  ![c0_i32.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S200x640 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S640x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S128x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S128 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S200x128 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev grid12 : Pipeline.Grid := ⟨1, ![1], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 1 → Nat :=
  let arg0 : BitVec 32 := BitVec.ofNat 32 (i 0).val
  let c0_i32 : BitVec 32 := 0#32
  let c0_i32_0 : BitVec 32 := 0#32
  ![c0_i32.toNat]

abbrev stage12_0 : Fin 1 → Memref sig .tc .vmem S1000x128 .f32 := fun | 0 => Memref.whole cc12_stg0_0 | ⟨_ + 1, h⟩ => absurd h (Nat.not_lt.2 (Nat.le_add_left _ _))
abbrev sem12_0 : Fin 1 → DmaSem sig := fun | 0 => cc12_sem0_0 | ⟨_ + 1, h⟩ => absurd h (Nat.not_lt.2 (Nat.le_add_left _ _))
abbrev reads12_0 : Fin grid12.rank → Bool := ![false]

abbrev stage12_1 : Fin 1 → Memref sig .tc .vmem S1000x128 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1000 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  inb_S5000x32_S5000x32_0_0 : ∀ a, (![0, 0] : Fin 2 → Nat) a + S5000x32.size a ≤ S5000x32.size a
  h_S5000x32 : 0 < S5000x32.numel
  inb_S32x128_S32x128_0_0 : ∀ a, (![0, 0] : Fin 2 → Nat) a + S32x128.size a ≤ S32x128.size a
  h_S32x128 : 0 < S32x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S640000 : S_.BroadcastsInDim S640000 (![] : Fin 0 → Fin S640000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128_S128 : S128.ShapeCasts S128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  concatenates_S50000x128_S50000x128_S50000x128_S50000x128_S50000x128_S50000x640_d1 : Shape.Concatenates [S50000x128, S50000x128, S50000x128, S50000x128, S50000x128] S50000x640 1
  bcast_S_S1000x640 : S_.BroadcastsInDim S1000x640 (![] : Fin 0 → Fin S1000x640.rank)
  bcast_S50000_S50000x1_0 : S50000.BroadcastsInDim S50000x1 (![0] : Fin 1 → Fin S50000x1.rank)
  inb_S200x640_S200x640_0_0 : ∀ a, (![0, 0] : Fin 2 → Nat) a + S200x640.size a ≤ S200x640.size a
  h_S200x640 : 0 < S200x640.numel
  shapeCasts_S200x640_S200x640 : S200x640.ShapeCasts S200x640
  inb_S640x128_S640x128_0_0 : ∀ a, (![0, 0] : Fin 2 → Nat) a + S640x128.size a ≤ S640x128.size a
  h_S640x128 : 0 < S640x128.numel
  broadcasts_S1x128_S200x128 : S1x128.Broadcasts S200x128
  inb_S200x128_S200x128_0_0 : ∀ a, (![0, 0] : Fin 2 → Nat) a + S200x128.size a ≤ S200x128.size a
  h_S200x128 : 0 < S200x128.numel
  inb_S1000x128_S1000x64_0_0 : ∀ a, (![0, 0] : Fin 2 → Nat) a + S1000x64.size a ≤ S1000x128.size a
  h_S1000x64 : 0 < S1000x64.numel
  shapeCasts_S1000x64_S1000x64 : S1000x64.ShapeCasts S1000x64
  inb_S1000x128_S1000x64_0_64 : ∀ a, (![0, 64] : Fin 2 → Nat) a + S1000x64.size a ≤ S1000x128.size a
  reduces_S1000x64_S1000 : S1000x64.Reduces [1] S1000
  inb_S1000_S1000_0 : ∀ a, (![0] : Fin 1 → Nat) a + S1000.size a ≤ S1000.size a
  h_S1000 : 0 < S1000.numel
  dot_S5000x32_S32x128_S5000x128_1_0_0_1_n_n_wf : DotDims.WF S5000x32 S32x128 S5000x128 [1] [0] [0] [1] [] []
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S5000x128_S128x128_S5000x128_1_0_0_1_n_n_wf : DotDims.WF S5000x128 S128x128 S5000x128 [1] [0] [0] [1] [] []
  scatter_S1000x640_S50000x1_S50000x640_1_0_0_1_wf : ScatterDims.WF S1000x640 S50000x1 S50000x640 [1] [0] [0] 1
  dot_S200x640_S640x128_S200x128_1_0_0_1_n_n_wf : DotDims.WF S200x640 S640x128 S200x128 [1] [0] [0] [1] [] []
  dot_S200x128_S128x128_S200x128_1_0_0_1_n_n_wf : DotDims.WF S200x128 S128x128 S200x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S50000x32.size a
  hwx0_0 : ∀ i : grid0.Coords, EltTy.bits .f32 = 32 ∨ (Rect.block (s := S50000x32) S5000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S32x128.size a
  hwx0_1 : ∀ i : grid0.Coords, EltTy.bits .f32 = 32 ∨ (Rect.block (s := S32x128) S32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128.size a ≤ S128.size a
  hwx2_6 : ∀ i : grid2.Coords, EltTy.bits .f32 = 32 ∨ (Rect.block (s := S128) S128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S50000x128.size a
  hwx2_7 : ∀ i : grid2.Coords, EltTy.bits .f32 = 32 ∨ (Rect.block (s := S50000x128) S5000x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x128.size a ≤ S50000x128.size a
  hwx2_8 : ∀ i : grid2.Coords, EltTy.bits .f32 = 32 ∨ (Rect.block (s := S50000x128) S5000x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128.size a ≤ S128.size a
  hwx3_5 : ∀ i : grid3.Coords, EltTy.bits .f32 = 32 ∨ (Rect.block (s := S128) S128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S50000x128.size a
  hwx3_6 : ∀ i : grid3.Coords, EltTy.bits .f32 = 32 ∨ (Rect.block (s := S50000x128) S5000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128.size a ≤ S128.size a
  hwx4_4 : ∀ i : grid4.Coords, EltTy.bits .f32 = 32 ∨ (Rect.block (s := S128) S128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S128.size a ≤ S128.size a
  hwx4_6 : ∀ i : grid4.Coords, EltTy.bits .f32 = 32 ∨ (Rect.block (s := S128) S128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S5000x128.size a ≤ S50000x128.size a
  hwx4_7 : ∀ i : grid4.Coords, EltTy.bits .f32 = 32 ∨ (Rect.block (s := S50000x128) S5000x128.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S5000x128.size a ≤ S50000x128.size a
  hwx4_8 : ∀ i : grid4.Coords, EltTy.bits .f32 = 32 ∨ (Rect.block (s := S50000x128) S5000x128.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S200x640.size a ≤ S1000x640.size a
  hwx5_0 : ∀ i : grid5.Coords, EltTy.bits .f32 = 32 ∨ (Rect.block (s := S1000x640) S200x640.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S640x128.size a ≤ S640x128.size a
  hwx5_1 : ∀ i : grid5.Coords, EltTy.bits .f32 = 32 ∨ (Rect.block (s := S640x128) S640x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128.size a ≤ S128.size a
  hwx5_2 : ∀ i : grid5.Coords, EltTy.bits .f32 = 32 ∨ (Rect.block (s := S128) S128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128.size a ≤ S128.size a
  hwx5_4 : ∀ i : grid5.Coords, EltTy.bits .f32 = 32 ∨ (Rect.block (s := S128) S128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S200x128.size a ≤ S1000x128.size a
  hwx5_5 : ∀ i : grid5.Coords, EltTy.bits .f32 = 32 ∨ (Rect.block (s := S1000x128) S200x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x32.size a ≤ S50000x32.size a
  hwx6_0 : ∀ i : grid6.Coords, EltTy.bits .f32 = 32 ∨ (Rect.block (s := S50000x32) S5000x32.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S32x128.size a ≤ S32x128.size a
  hwx6_1 : ∀ i : grid6.Coords, EltTy.bits .f32 = 32 ∨ (Rect.block (s := S32x128) S32x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128.size a ≤ S128.size a
  hwx6_2 : ∀ i : grid6.Coords, EltTy.bits .f32 = 32 ∨ (Rect.block (s := S128) S128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x128.size a ≤ S50000x128.size a
  hwx6_3 : ∀ i : grid6.Coords, EltTy.bits .f32 = 32 ∨ (Rect.block (s := S50000x128) S5000x128.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S50000x128.size a
  hwx7_1 : ∀ i : grid7.Coords, EltTy.bits .f32 = 32 ∨ (Rect.block (s := S50000x128) S5000x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x128.size a ≤ S128x128.size a
  hwx7_2 : ∀ i : grid7.Coords, EltTy.bits .f32 = 32 ∨ (Rect.block (s := S128x128) S128x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128.size a ≤ S128.size a
  hwx7_3 : ∀ i : grid7.Coords, EltTy.bits .f32 = 32 ∨ (Rect.block (s := S128) S128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S128x128.size a ≤ S128x128.size a
  hwx7_4 : ∀ i : grid7.Coords, EltTy.bits .f32 = 32 ∨ (Rect.block (s := S128x128) S128x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S128.size a ≤ S128.size a
  hwx7_5 : ∀ i : grid7.Coords, EltTy.bits .f32 = 32 ∨ (Rect.block (s := S128) S128.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S5000x128.size a ≤ S50000x128.size a
  hwx7_6 : ∀ i : grid7.Coords, EltTy.bits .f32 = 32 ∨ (Rect.block (s := S50000x128) S5000x128.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x128.size a ≤ S50000x128.size a
  hwx8_1 : ∀ i : grid8.Coords, EltTy.bits .f32 = 32 ∨ (Rect.block (s := S50000x128) S5000x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x128.size a ≤ S50000x128.size a
  hwx8_2 : ∀ i : grid8.Coords, EltTy.bits .f32 = 32 ∨ (Rect.block (s := S50000x128) S5000x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S128x128.size a ≤ S128x128.size a
  hwx8_3 : ∀ i : grid8.Coords, EltTy.bits .f32 = 32 ∨ (Rect.block (s := S128x128) S128x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S128.size a ≤ S128.size a
  hwx8_4 : ∀ i : grid8.Coords, EltTy.bits .f32 = 32 ∨ (Rect.block (s := S128) S128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S128x128.size a ≤ S128x128.size a
  hwx8_5 : ∀ i : grid8.Coords, EltTy.bits .f32 = 32 ∨ (Rect.block (s := S128x128) S128x128.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S128.size a ≤ S128.size a
  hwx8_6 : ∀ i : grid8.Coords, EltTy.bits .f32 = 32 ∨ (Rect.block (s := S128) S128.size (cc8_transform_6 i) (hinb8_6 i)).WholeWords (EltTy.packing .f32)
  hstage8_7 : ∀ j, (stage8_7 j).IsWhole
  nbuf8_7 : grid8.bufCount reads8_7 false = 2
  hreads8_7 : ∀ i i' : grid8.Coords, (∀ a, reads8_7 a = true → i a = i' a) → cc8_transform_7 i = cc8_transform_7 i'
  hinb8_7 : ∀ (i : grid8.Coords) a, (cc8_transform_7 i a + 1) * S5000x128.size a ≤ S50000x128.size a
  hwx8_7 : ∀ i : grid8.Coords, EltTy.bits .f32 = 32 ∨ (Rect.block (s := S50000x128) S5000x128.size (cc8_transform_7 i) (hinb8_7 i)).WholeWords (EltTy.packing .f32)
  hstage8_8 : ∀ j, (stage8_8 j).IsWhole
  nbuf8_8 : grid8.bufCount reads8_8 false = 2
  hreads8_8 : ∀ i i' : grid8.Coords, (∀ a, reads8_8 a = true → i a = i' a) → cc8_transform_8 i = cc8_transform_8 i'
  hinb8_8 : ∀ (i : grid8.Coords) a, (cc8_transform_8 i a + 1) * S5000x128.size a ≤ S50000x128.size a
  hwx8_8 : ∀ i : grid8.Coords, EltTy.bits .f32 = 32 ∨ (Rect.block (s := S50000x128) S5000x128.size (cc8_transform_8 i) (hinb8_8 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S50000x128.size a
  hwx9_0 : ∀ i : grid9.Coords, EltTy.bits .f32 = 32 ∨ (Rect.block (s := S50000x128) S5000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x128.size a ≤ S50000x128.size a
  hwx9_1 : ∀ i : grid9.Coords, EltTy.bits .f32 = 32 ∨ (Rect.block (s := S50000x128) S5000x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S128x128.size a ≤ S128x128.size a
  hwx9_2 : ∀ i : grid9.Coords, EltTy.bits .f32 = 32 ∨ (Rect.block (s := S128x128) S128x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S128.size a ≤ S128.size a
  hwx9_3 : ∀ i : grid9.Coords, EltTy.bits .f32 = 32 ∨ (Rect.block (s := S128) S128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S128x128.size a ≤ S128x128.size a
  hwx9_4 : ∀ i : grid9.Coords, EltTy.bits .f32 = 32 ∨ (Rect.block (s := S128x128) S128x128.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S128.size a ≤ S128.size a
  hwx9_5 : ∀ i : grid9.Coords, EltTy.bits .f32 = 32 ∨ (Rect.block (s := S128) S128.size (cc9_transform_5 i) (hinb9_5 i)).WholeWords (EltTy.packing .f32)
  hstage9_6 : ∀ j, (stage9_6 j).IsWhole
  nbuf9_6 : grid9.bufCount reads9_6 false = 2
  hreads9_6 : ∀ i i' : grid9.Coords, (∀ a, reads9_6 a = true → i a = i' a) → cc9_transform_6 i = cc9_transform_6 i'
  hinb9_6 : ∀ (i : grid9.Coords) a, (cc9_transform_6 i a + 1) * S5000x128.size a ≤ S50000x128.size a
  hwx9_6 : ∀ i : grid9.Coords, EltTy.bits .f32 = 32 ∨ (Rect.block (s := S50000x128) S5000x128.size (cc9_transform_6 i) (hinb9_6 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S50000x128.size a
  hwx10_0 : ∀ i : grid10.Coords, EltTy.bits .f32 = 32 ∨ (Rect.block (s := S50000x128) S5000x128.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S5000x128.size a ≤ S50000x128.size a
  hwx10_1 : ∀ i : grid10.Coords, EltTy.bits .f32 = 32 ∨ (Rect.block (s := S50000x128) S5000x128.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S5000x128.size a ≤ S50000x128.size a
  hwx10_2 : ∀ i : grid10.Coords, EltTy.bits .f32 = 32 ∨ (Rect.block (s := S50000x128) S5000x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S128x128.size a ≤ S128x128.size a
  hwx10_3 : ∀ i : grid10.Coords, EltTy.bits .f32 = 32 ∨ (Rect.block (s := S128x128) S128x128.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S128.size a ≤ S128.size a
  hwx10_4 : ∀ i : grid10.Coords, EltTy.bits .f32 = 32 ∨ (Rect.block (s := S128) S128.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S128x128.size a ≤ S128x128.size a
  hwx10_5 : ∀ i : grid10.Coords, EltTy.bits .f32 = 32 ∨ (Rect.block (s := S128x128) S128x128.size (cc10_transform_5 i) (hinb10_5 i)).WholeWords (EltTy.packing .f32)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S128.size a ≤ S128.size a
  hwx10_6 : ∀ i : grid10.Coords, EltTy.bits .f32 = 32 ∨ (Rect.block (s := S128) S128.size (cc10_transform_6 i) (hinb10_6 i)).WholeWords (EltTy.packing .f32)
  hstage10_7 : ∀ j, (stage10_7 j).IsWhole
  nbuf10_7 : grid10.bufCount reads10_7 false = 2
  hreads10_7 : ∀ i i' : grid10.Coords, (∀ a, reads10_7 a = true → i a = i' a) → cc10_transform_7 i = cc10_transform_7 i'
  hinb10_7 : ∀ (i : grid10.Coords) a, (cc10_transform_7 i a + 1) * S5000x128.size a ≤ S50000x128.size a
  hwx10_7 : ∀ i : grid10.Coords, EltTy.bits .f32 = 32 ∨ (Rect.block (s := S50000x128) S5000x128.size (cc10_transform_7 i) (hinb10_7 i)).WholeWords (EltTy.packing .f32)
  hstage10_8 : ∀ j, (stage10_8 j).IsWhole
  nbuf10_8 : grid10.bufCount reads10_8 false = 2
  hreads10_8 : ∀ i i' : grid10.Coords, (∀ a, reads10_8 a = true → i a = i' a) → cc10_transform_8 i = cc10_transform_8 i'
  hinb10_8 : ∀ (i : grid10.Coords) a, (cc10_transform_8 i a + 1) * S5000x128.size a ≤ S50000x128.size a
  hwx10_8 : ∀ i : grid10.Coords, EltTy.bits .f32 = 32 ∨ (Rect.block (s := S50000x128) S5000x128.size (cc10_transform_8 i) (hinb10_8 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S200x640.size a ≤ S1000x640.size a
  hwx11_0 : ∀ i : grid11.Coords, EltTy.bits .f32 = 32 ∨ (Rect.block (s := S1000x640) S200x640.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S640x128.size a ≤ S640x128.size a
  hwx11_1 : ∀ i : grid11.Coords, EltTy.bits .f32 = 32 ∨ (Rect.block (s := S640x128) S640x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S128.size a ≤ S128.size a
  hwx11_2 : ∀ i : grid11.Coords, EltTy.bits .f32 = 32 ∨ (Rect.block (s := S128) S128.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S128x128.size a ≤ S128x128.size a
  hwx11_3 : ∀ i : grid11.Coords, EltTy.bits .f32 = 32 ∨ (Rect.block (s := S128x128) S128x128.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S128.size a ≤ S128.size a
  hwx11_4 : ∀ i : grid11.Coords, EltTy.bits .f32 = 32 ∨ (Rect.block (s := S128) S128.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S200x128.size a ≤ S1000x128.size a
  hwx11_5 : ∀ i : grid11.Coords, EltTy.bits .f32 = 32 ∨ (Rect.block (s := S1000x128) S200x128.size (cc11_transform_5 i) (hinb11_5 i)).WholeWords (EltTy.packing .f32)
  hrank12 : 0 < grid12.rank
  hstage12_0 : ∀ j, (stage12_0 j).IsWhole
  nbuf12_0 : grid12.bufCount reads12_0 true = 1
  hreads12_0 : ∀ i i' : grid12.Coords, (∀ a, reads12_0 a = true → i a = i' a) → cc12_transform_0 i = cc12_transform_0 i'
  hinb12_0 : ∀ (i : grid12.Coords) a, (cc12_transform_0 i a + 1) * S1000x128.size a ≤ S1000x128.size a
  hwx12_0 : ∀ i : grid12.Coords, EltTy.bits .f32 = 32 ∨ (Rect.block (s := S1000x128) S1000x128.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S1000x128.size a ≤ S1000x128.size a
  hwx12_1 : ∀ i : grid12.Coords, EltTy.bits .f32 = 32 ∨ (Rect.block (s := S1000x128) S1000x128.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1000.size a ≤ S1000.size a
  hwx12_2 : ∀ i : grid12.Coords, EltTy.bits .f32 = 32 ∨ (Rect.block (s := S1000) S1000.size (cc12_transform_2 i) (hinb12_2 i)).WholeWords (EltTy.packing .f32)

variable [Facts₀]

def dot_S5000x32_S32x128_S5000x128_1_0_0_1_n_n : DotDims S5000x32 S32x128 S5000x128 where
  lhsContracting := [1]
  rhsContracting := [0]
  lhsNonContracting := [0]
  rhsNonContracting := [1]
  lhsBatch := []
  rhsBatch := []
  wf := dot_S5000x32_S32x128_S5000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S1000x640_S50000x1_S50000x640_1_0_0_1 : ScatterDims S1000x640 S50000x1 S50000x640 where
  updateWindowDims := [1]
  insertedWindowDims := [0]
  scatterDimsToOperandDims := [0]
  indexVectorDim := 1
  wf := scatter_S1000x640_S50000x1_S50000x640_1_0_0_1_wf
def dot_S200x640_S640x128_S200x128_1_0_0_1_n_n : DotDims S200x640 S640x128 S200x128 where
  lhsContracting := [1]
  rhsContracting := [0]
  lhsNonContracting := [0]
  rhsNonContracting := [1]
  lhsBatch := []
  rhsBatch := []
  wf := dot_S200x640_S640x128_S200x128_1_0_0_1_n_n_wf
def dot_S200x128_S128x128_S200x128_1_0_0_1_n_n : DotDims S200x128 S128x128 S200x128 where
  lhsContracting := [1]
  rhsContracting := [0]
  lhsNonContracting := [0]
  rhsNonContracting := [1]
  lhsBatch := []
  rhsBatch := []
  wf := dot_S200x128_S128x128_S200x128_1_0_0_1_n_n_wf

abbrev win0_0 : Pipeline.Window sig grid0 :=
  Pipeline.Window.ofSpec (Memref.whole main_arg0) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S32x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v22) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v23) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v23) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v35) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v37) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v39) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v41) S128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v42_0) S5000x128.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v42_1) S5000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v42_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v52) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v54) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v56) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v58) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v60) S128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v61) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v61) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v71) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v42_1) S5000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v73) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v75) S128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v77) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v79) S128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v80_0) S5000x128.size cc4_transform_7 reads4_7 true false 2 stage4_7 sem4_7
    hrank4 hreads4_7 hinb4_7 nbuf4_7 (Memref.isWhole_whole _) hwx4_7 hstage4_7

abbrev win4_8 : Pipeline.Window sig grid4 :=
  Pipeline.Window.ofSpec (Memref.whole main_v80_1) S5000x128.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v84) S200x640.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg12) S640x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg13) S128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg14) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg15) S128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v85) S200x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_arg3) S5000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg6) S32x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg7) S128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v90) S5000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v90) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v100) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v102) S128x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v104) S128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v106) S128x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v108) S128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v109) S5000x128.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v109) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v119) S5000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v90) S5000x128.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v121) S128x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v123) S128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v125) S128x128.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v127) S128.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v128_0) S5000x128.size cc8_transform_7 reads8_7 true false 2 stage8_7 sem8_7
    hrank8 hreads8_7 hinb8_7 nbuf8_7 (Memref.isWhole_whole _) hwx8_7 hstage8_7

abbrev win8_8 : Pipeline.Window sig grid8 :=
  Pipeline.Window.ofSpec (Memref.whole main_v128_1) S5000x128.size cc8_transform_8 reads8_8 true false 2 stage8_8 sem8_8
    hrank8 hreads8_8 hinb8_8 nbuf8_8 (Memref.isWhole_whole _) hwx8_8 hstage8_8

abbrev win8 : Fin 9 → Pipeline.Window sig grid8 := fun | 0 => win8_0 | 1 => win8_1 | 2 => win8_2 | 3 => win8_3 | 4 => win8_4 | 5 => win8_5 | 6 => win8_6 | 7 => win8_7 | 8 => win8_8 | ⟨_ + 9, h⟩ => absurd h (Nat.not_lt.2 (Nat.le_add_left _ _))
abbrev spec8 : Fin 9 → Pipeline.WinSpec sig grid8.rank := fun w => (win8 w).toWinSpec

abbrev win9_0 : Pipeline.Window sig grid9 :=
  Pipeline.Window.ofSpec (Memref.whole main_v128_0) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v138) S5000x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v140) S128x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v142) S128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v144) S128x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v146) S128.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v147) S5000x128.size cc9_transform_6 reads9_6 true false 2 stage9_6 sem9_6
    hrank9 hreads9_6 hinb9_6 nbuf9_6 (Memref.isWhole_whole _) hwx9_6 hstage9_6

abbrev win9 : Fin 7 → Pipeline.Window sig grid9 := fun | 0 => win9_0 | 1 => win9_1 | 2 => win9_2 | 3 => win9_3 | 4 => win9_4 | 5 => win9_5 | 6 => win9_6 | ⟨_ + 7, h⟩ => absurd h (Nat.not_lt.2 (Nat.le_add_left _ _))
abbrev spec9 : Fin 7 → Pipeline.WinSpec sig grid9.rank := fun w => (win9 w).toWinSpec

abbrev win10_0 : Pipeline.Window sig grid10 :=
  Pipeline.Window.ofSpec (Memref.whole main_v147) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v157) S5000x128.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v128_1) S5000x128.size cc10_transform_2 reads10_2 false false 2 stage10_2 sem10_2
    hrank10 hreads10_2 hinb10_2 nbuf10_2 (Memref.isWhole_whole _) hwx10_2 hstage10_2

abbrev win10_3 : Pipeline.Window sig grid10 :=
  Pipeline.Window.ofSpec (Memref.whole main_v159) S128x128.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v161) S128.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v163) S128x128.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v165) S128.size cc10_transform_6 reads10_6 false true 1 stage10_6 sem10_6
    hrank10 hreads10_6 hinb10_6 nbuf10_6 (Memref.isWhole_whole _) hwx10_6 hstage10_6

abbrev win10_7 : Pipeline.Window sig grid10 :=
  Pipeline.Window.ofSpec (Memref.whole main_v166_0) S5000x128.size cc10_transform_7 reads10_7 true false 2 stage10_7 sem10_7
    hrank10 hreads10_7 hinb10_7 nbuf10_7 (Memref.isWhole_whole _) hwx10_7 hstage10_7

abbrev win10_8 : Pipeline.Window sig grid10 :=
  Pipeline.Window.ofSpec (Memref.whole main_v166_1) S5000x128.size cc10_transform_8 reads10_8 true false 2 stage10_8 sem10_8
    hrank10 hreads10_8 hinb10_8 nbuf10_8 (Memref.isWhole_whole _) hwx10_8 hstage10_8

abbrev win10 : Fin 9 → Pipeline.Window sig grid10 := fun | 0 => win10_0 | 1 => win10_1 | 2 => win10_2 | 3 => win10_3 | 4 => win10_4 | 5 => win10_5 | 6 => win10_6 | 7 => win10_7 | 8 => win10_8 | ⟨_ + 9, h⟩ => absurd h (Nat.not_lt.2 (Nat.le_add_left _ _))
abbrev spec10 : Fin 9 → Pipeline.WinSpec sig grid10.rank := fun w => (win10 w).toWinSpec

abbrev win11_0 : Pipeline.Window sig grid11 :=
  Pipeline.Window.ofSpec (Memref.whole main_v170) S200x640.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_arg12) S640x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_arg13) S128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_arg14) S128x128.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_arg15) S128.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v171) S200x128.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

abbrev win12_0 : Pipeline.Window sig grid12 :=
  Pipeline.Window.ofSpec (Memref.whole main_v85) S1000x128.size cc12_transform_0 reads12_0 false true 1 stage12_0 sem12_0
    hrank12 hreads12_0 hinb12_0 nbuf12_0 (Memref.isWhole_whole _) hwx12_0 hstage12_0

abbrev win12_1 : Pipeline.Window sig grid12 :=
  Pipeline.Window.ofSpec (Memref.whole main_v171) S1000x128.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v172) S1000.size cc12_transform_2 reads12_2 true true 1 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

class Facts : Prop extends Facts₀ where

variable [Facts]
-- ==== ReferenceIdeal.lean ====
abbrev S50000x32 : Shape := ⟨2, ![50000, 32]⟩
abbrev S2x640000 : Shape := ⟨2, ![2, 640000]⟩
abbrev S50000 : Shape := ⟨1, ![50000]⟩
abbrev S32x128 : Shape := ⟨2, ![32, 128]⟩
abbrev S128 : Shape := ⟨1, ![128]⟩
abbrev S4x128x128 : Shape := ⟨3, ![4, 128, 128]⟩
abbrev S4x128 : Shape := ⟨2, ![4, 128]⟩
abbrev S640x128 : Shape := ⟨2, ![640, 128]⟩
abbrev S128x128 : Shape := ⟨2, ![128, 128]⟩
abbrev S1x640000 : Shape := ⟨2, ![1, 640000]⟩
abbrev S640000 : Shape := ⟨1, ![640000]⟩
abbrev S50000x128 : Shape := ⟨2, ![50000, 128]⟩
abbrev S1x128 : Shape := ⟨2, ![1, 128]⟩
abbrev S_ : Shape := ⟨0, ![]⟩
abbrev S640000x1 : Shape := ⟨2, ![640000, 1]⟩
abbrev S640000x128 : Shape := ⟨2, ![640000, 128]⟩
abbrev S1x128x128 : Shape := ⟨3, ![1, 128, 128]⟩
abbrev S50000x640 : Shape := ⟨2, ![50000, 640]⟩
abbrev S1000x640 : Shape := ⟨2, ![1000, 640]⟩
abbrev S50000x1 : Shape := ⟨2, ![50000, 1]⟩
abbrev S1000x128 : Shape := ⟨2, ![1000, 128]⟩
abbrev S1000x64 : Shape := ⟨2, ![1000, 64]⟩
abbrev S1000 : Shape := ⟨1, ![1000]⟩

abbrev nBuf : Space → Nat
  | .hbm => 415
  | .vmem => 0
  | .smem => 0
  | _ => 0

abbrev hbmTy0_0 (i : Nat) : BufTy := match i % 128 with
  | 0 => ⟨S50000x32, .f32⟩
  | 1 => ⟨S2x640000, .i32⟩
  | 2 => ⟨S50000, .i32⟩
  | 3 => ⟨S50000x32, .f32⟩
  | 4 => ⟨S2x640000, .i32⟩
  | 5 => ⟨S50000, .i32⟩
  | 6 => ⟨S32x128, .f32⟩
  | 7 => ⟨S128, .f32⟩
  | 8 => ⟨S4x128x128, .f32⟩
  | 9 => ⟨S4x128, .f32⟩
  | 10 => ⟨S4x128x128, .f32⟩
  | 11 => ⟨S4x128, .f32⟩
  | 12 => ⟨S640x128, .f32⟩
  | 13 => ⟨S128, .f32⟩
  | 14 => ⟨S128x128, .f32⟩
  | 15 => ⟨S128, .f32⟩
  | 16 => ⟨S1x640000, .i32⟩
  | 17 => ⟨S640000, .i32⟩
  | 18 => ⟨S1x640000, .i32⟩
  | 19 => ⟨S640000, .i32⟩
  | 20 => ⟨S50000x128, .f32⟩
  | 21 => ⟨S1x128, .f32⟩
  | 22 => ⟨S50000x128, .f32⟩
  | 23 => ⟨S50000x128, .f32⟩
  | 24 => ⟨S_, .i32⟩
  | 25 => ⟨S640000, .i32⟩
  | 26 => ⟨S640000, .i1⟩
  | 27 => ⟨S_, .i32⟩
  | 28 => ⟨S640000, .i32⟩
  | 29 => ⟨S640000, .i32⟩
  | 30 => ⟨S640000, .i32⟩
  | 31 => ⟨S640000x1, .i32⟩
  | 32 => ⟨S640000x128, .f32⟩
  | 33 => ⟨S_, .f32⟩
  | 34 => ⟨S50000x128, .f32⟩
  | 35 => ⟨S640000x1, .i32⟩
  | 36 => ⟨S50000x128, .f32⟩
  | 37 => ⟨S50000x128, .f32⟩
  | 38 => ⟨S1x128x128, .f32⟩
  | 39 => ⟨S128x128, .f32⟩
  | 40 => ⟨S50000x128, .f32⟩
  | 41 => ⟨S1x128, .f32⟩
  | 42 => ⟨S128, .f32⟩
  | 43 => ⟨S1x128, .f32⟩
  | 44 => ⟨S50000x128, .f32⟩
  | 45 => ⟨S50000x128, .f32⟩
  | 46 => ⟨S_, .f32⟩
  | 47 => ⟨S50000x128, .f32⟩
  | 48 => ⟨S50000x128, .f32⟩
  | 49 => ⟨S1x128x128, .f32⟩
  | 50 => ⟨S128x128, .f32⟩
  | 51 => ⟨S50000x128, .f32⟩
  | 52 => ⟨S1x128, .f32⟩
  | 53 => ⟨S128, .f32⟩
  | 54 => ⟨S1x128, .f32⟩
  | 55 => ⟨S50000x128, .f32⟩
  | 56 => ⟨S50000x128, .f32⟩
  | 57 => ⟨S_, .f32⟩
  | 58 => ⟨S50000x128, .f32⟩
  | 59 => ⟨S50000x128, .f32⟩
  | 60 => ⟨S_, .i32⟩
  | 61 => ⟨S640000, .i32⟩
  | 62 => ⟨S640000, .i1⟩
  | 63 => ⟨S_, .i32⟩
  | 64 => ⟨S640000, .i32⟩
  | 65 => ⟨S640000, .i32⟩
  | 66 => ⟨S640000, .i32⟩
  | 67 => ⟨S640000x1, .i32⟩
  | 68 => ⟨S640000x128, .f32⟩
  | 69 => ⟨S_, .f32⟩
  | 70 => ⟨S50000x128, .f32⟩
  | 71 => ⟨S640000x1, .i32⟩
  | 72 => ⟨S50000x128, .f32⟩
  | 73 => ⟨S50000x128, .f32⟩
  | 74 => ⟨S1x128x128, .f32⟩
  | 75 => ⟨S128x128, .f32⟩
  | 76 => ⟨S50000x128, .f32⟩
  | 77 => ⟨S1x128, .f32⟩
  | 78 => ⟨S128, .f32⟩
  | 79 => ⟨S1x128, .f32⟩
  | 80 => ⟨S50000x128, .f32⟩
  | 81 => ⟨S50000x128, .f32⟩
  | 82 => ⟨S_, .f32⟩
  | 83 => ⟨S50000x128, .f32⟩
  | 84 => ⟨S50000x128, .f32⟩
  | 85 => ⟨S1x128x128, .f32⟩
  | 86 => ⟨S128x128, .f32⟩
  | 87 => ⟨S50000x128, .f32⟩
  | 88 => ⟨S1x128, .f32⟩
  | 89 => ⟨S128, .f32⟩
  | 90 => ⟨S1x128, .f32⟩
  | 91 => ⟨S50000x128, .f32⟩
  | 92 => ⟨S50000x128, .f32⟩
  | 93 => ⟨S50000x128, .f32⟩
  | 94 => ⟨S_, .f32⟩
  | 95 => ⟨S50000x128, .f32⟩
  | 96 => ⟨S50000x128, .f32⟩
  | 97 => ⟨S_, .i32⟩
  | 98 => ⟨S640000, .i32⟩
  | 99 => ⟨S640000, .i1⟩
  | 100 => ⟨S_, .i32⟩
  | 101 => ⟨S640000, .i32⟩
  | 102 => ⟨S640000, .i32⟩
  | 103 => ⟨S640000, .i32⟩
  | 104 => ⟨S640000x1, .i32⟩
  | 105 => ⟨S640000x128, .f32⟩
  | 106 => ⟨S_, .f32⟩
  | 107 => ⟨S50000x128, .f32⟩
  | 108 => ⟨S640000x1, .i32⟩
  | 109 => ⟨S50000x128, .f32⟩
  | 110 => ⟨S50000x128, .f32⟩
  | 111 => ⟨S1x128x128, .f32⟩
  | 112 => ⟨S128x128, .f32⟩
  | 113 => ⟨S50000x128, .f32⟩
  | 114 => ⟨S1x128, .f32⟩
  | 115 => ⟨S128, .f32⟩
  | 116 => ⟨S1x128, .f32⟩
  | 117 => ⟨S50000x128, .f32⟩
  | 118 => ⟨S50000x128, .f32⟩
  | 119 => ⟨S_, .f32⟩
  | 120 => ⟨S50000x128, .f32⟩
  | 121 => ⟨S50000x128, .f32⟩
  | 122 => ⟨S1x128x128, .f32⟩
  | 123 => ⟨S128x128, .f32⟩
  | 124 => ⟨S50000x128, .f32⟩
  | 125 => ⟨S1x128, .f32⟩
  | 126 => ⟨S128, .f32⟩
  | 127 => ⟨S1x128, .f32⟩
  | _ => ⟨S50000x32, .f32⟩

abbrev hbmTy0_1 (i : Nat) : BufTy := match i % 128 with
  | 0 => ⟨S50000x128, .f32⟩
  | 1 => ⟨S50000x128, .f32⟩
  | 2 => ⟨S_, .f32⟩
  | 3 => ⟨S50000x128, .f32⟩
  | 4 => ⟨S50000x128, .f32⟩
  | 5 => ⟨S_, .i32⟩
  | 6 => ⟨S640000, .i32⟩
  | 7 => ⟨S640000, .i1⟩
  | 8 => ⟨S_, .i32⟩
  | 9 => ⟨S640000, .i32⟩
  | 10 => ⟨S640000, .i32⟩
  | 11 => ⟨S640000, .i32⟩
  | 12 => ⟨S640000x1, .i32⟩
  | 13 => ⟨S640000x128, .f32⟩
  | 14 => ⟨S_, .f32⟩
  | 15 => ⟨S50000x128, .f32⟩
  | 16 => ⟨S640000x1, .i32⟩
  | 17 => ⟨S50000x128, .f32⟩
  | 18 => ⟨S50000x128, .f32⟩
  | 19 => ⟨S1x128x128, .f32⟩
  | 20 => ⟨S128x128, .f32⟩
  | 21 => ⟨S50000x128, .f32⟩
  | 22 => ⟨S1x128, .f32⟩
  | 23 => ⟨S128, .f32⟩
  | 24 => ⟨S1x128, .f32⟩
  | 25 => ⟨S50000x128, .f32⟩
  | 26 => ⟨S50000x128, .f32⟩
  | 27 => ⟨S_, .f32⟩
  | 28 => ⟨S50000x128, .f32⟩
  | 29 => ⟨S50000x128, .f32⟩
  | 30 => ⟨S1x128x128, .f32⟩
  | 31 => ⟨S128x128, .f32⟩
  | 32 => ⟨S50000x128, .f32⟩
  | 33 => ⟨S1x128, .f32⟩
  | 34 => ⟨S128, .f32⟩
  | 35 => ⟨S1x128, .f32⟩
  | 36 => ⟨S50000x128, .f32⟩
  | 37 => ⟨S50000x128, .f32⟩
  | 38 => ⟨S50000x128, .f32⟩
  | 39 => ⟨S_, .f32⟩
  | 40 => ⟨S50000x128, .f32⟩
  | 41 => ⟨S50000x128, .f32⟩
  | 42 => ⟨S50000x640, .f32⟩
  | 43 => ⟨S_, .f32⟩
  | 44 => ⟨S1000x640, .f32⟩
  | 45 => ⟨S50000x1, .i32⟩
  | 46 => ⟨S1000x640, .f32⟩
  | 47 => ⟨S1000x128, .f32⟩
  | 48 => ⟨S1x128, .f32⟩
  | 49 => ⟨S1000x128, .f32⟩
  | 50 => ⟨S1000x128, .f32⟩
  | 51 => ⟨S_, .f32⟩
  | 52 => ⟨S1000x128, .f32⟩
  | 53 => ⟨S1000x128, .f32⟩
  | 54 => ⟨S1000x128, .f32⟩
  | 55 => ⟨S1x128, .f32⟩
  | 56 => ⟨S1000x128, .f32⟩
  | 57 => ⟨S1000x128, .f32⟩
  | 58 => ⟨S1x640000, .i32⟩
  | 59 => ⟨S640000, .i32⟩
  | 60 => ⟨S1x640000, .i32⟩
  | 61 => ⟨S640000, .i32⟩
  | 62 => ⟨S50000x128, .f32⟩
  | 63 => ⟨S1x128, .f32⟩
  | 64 => ⟨S50000x128, .f32⟩
  | 65 => ⟨S50000x128, .f32⟩
  | 66 => ⟨S_, .i32⟩
  | 67 => ⟨S640000, .i32⟩
  | 68 => ⟨S640000, .i1⟩
  | 69 => ⟨S_, .i32⟩
  | 70 => ⟨S640000, .i32⟩
  | 71 => ⟨S640000, .i32⟩
  | 72 => ⟨S640000, .i32⟩
  | 73 => ⟨S640000x1, .i32⟩
  | 74 => ⟨S640000x128, .f32⟩
  | 75 => ⟨S_, .f32⟩
  | 76 => ⟨S50000x128, .f32⟩
  | 77 => ⟨S640000x1, .i32⟩
  | 78 => ⟨S50000x128, .f32⟩
  | 79 => ⟨S50000x128, .f32⟩
  | 80 => ⟨S1x128x128, .f32⟩
  | 81 => ⟨S128x128, .f32⟩
  | 82 => ⟨S50000x128, .f32⟩
  | 83 => ⟨S1x128, .f32⟩
  | 84 => ⟨S128, .f32⟩
  | 85 => ⟨S1x128, .f32⟩
  | 86 => ⟨S50000x128, .f32⟩
  | 87 => ⟨S50000x128, .f32⟩
  | 88 => ⟨S_, .f32⟩
  | 89 => ⟨S50000x128, .f32⟩
  | 90 => ⟨S50000x128, .f32⟩
  | 91 => ⟨S1x128x128, .f32⟩
  | 92 => ⟨S128x128, .f32⟩
  | 93 => ⟨S50000x128, .f32⟩
  | 94 => ⟨S1x128, .f32⟩
  | 95 => ⟨S128, .f32⟩
  | 96 => ⟨S1x128, .f32⟩
  | 97 => ⟨S50000x128, .f32⟩
  | 98 => ⟨S50000x128, .f32⟩
  | 99 => ⟨S_, .f32⟩
  | 100 => ⟨S50000x128, .f32⟩
  | 101 => ⟨S50000x128, .f32⟩
  | 102 => ⟨S_, .i32⟩
  | 103 => ⟨S640000, .i32⟩
  | 104 => ⟨S640000, .i1⟩
  | 105 => ⟨S_, .i32⟩
  | 106 => ⟨S640000, .i32⟩
  | 107 => ⟨S640000, .i32⟩
  | 108 => ⟨S640000, .i32⟩
  | 109 => ⟨S640000x1, .i32⟩
  | 110 => ⟨S640000x128, .f32⟩
  | 111 => ⟨S_, .f32⟩
  | 112 => ⟨S50000x128, .f32⟩
  | 113 => ⟨S640000x1, .i32⟩
  | 114 => ⟨S50000x128, .f32⟩
  | 115 => ⟨S50000x128, .f32⟩
  | 116 => ⟨S1x128x128, .f32⟩
  | 117 => ⟨S128x128, .f32⟩
  | 118 => ⟨S50000x128, .f32⟩
  | 119 => ⟨S1x128, .f32⟩
  | 120 => ⟨S128, .f32⟩
  | 121 => ⟨S1x128, .f32⟩
  | 122 => ⟨S50000x128, .f32⟩
  | 123 => ⟨S50000x128, .f32⟩
  | 124 => ⟨S_, .f32⟩
  | 125 => ⟨S50000x128, .f32⟩
  | 126 => ⟨S50000x128, .f32⟩
  | 127 => ⟨S1x128x128, .f32⟩
  | _ => ⟨S50000x32, .f32⟩

abbrev hbmTy0_2 (i : Nat) : BufTy := match i % 128 with
  | 0 => ⟨S128x128, .f32⟩
  | 1 => ⟨S50000x128, .f32⟩
  | 2 => ⟨S1x128, .f32⟩
  | 3 => ⟨S128, .f32⟩
  | 4 => ⟨S1x128, .f32⟩
  | 5 => ⟨S50000x128, .f32⟩
  | 6 => ⟨S50000x128, .f32⟩
  | 7 => ⟨S50000x128, .f32⟩
  | 8 => ⟨S_, .f32⟩
  | 9 => ⟨S50000x128, .f32⟩
  | 10 => ⟨S50000x128, .f32⟩
  | 11 => ⟨S_, .i32⟩
  | 12 => ⟨S640000, .i32⟩
  | 13 => ⟨S640000, .i1⟩
  | 14 => ⟨S_, .i32⟩
  | 15 => ⟨S640000, .i32⟩
  | 16 => ⟨S640000, .i32⟩
  | 17 => ⟨S640000, .i32⟩
  | 18 => ⟨S640000x1, .i32⟩
  | 19 => ⟨S640000x128, .f32⟩
  | 20 => ⟨S_, .f32⟩
  | 21 => ⟨S50000x128, .f32⟩
  | 22 => ⟨S640000x1, .i32⟩
  | 23 => ⟨S50000x128, .f32⟩
  | 24 => ⟨S50000x128, .f32⟩
  | 25 => ⟨S1x128x128, .f32⟩
  | 26 => ⟨S128x128, .f32⟩
  | 27 => ⟨S50000x128, .f32⟩
  | 28 => ⟨S1x128, .f32⟩
  | 29 => ⟨S128, .f32⟩
  | 30 => ⟨S1x128, .f32⟩
  | 31 => ⟨S50000x128, .f32⟩
  | 32 => ⟨S50000x128, .f32⟩
  | 33 => ⟨S_, .f32⟩
  | 34 => ⟨S50000x128, .f32⟩
  | 35 => ⟨S50000x128, .f32⟩
  | 36 => ⟨S1x128x128, .f32⟩
  | 37 => ⟨S128x128, .f32⟩
  | 38 => ⟨S50000x128, .f32⟩
  | 39 => ⟨S1x128, .f32⟩
  | 40 => ⟨S128, .f32⟩
  | 41 => ⟨S1x128, .f32⟩
  | 42 => ⟨S50000x128, .f32⟩
  | 43 => ⟨S50000x128, .f32⟩
  | 44 => ⟨S_, .f32⟩
  | 45 => ⟨S50000x128, .f32⟩
  | 46 => ⟨S50000x128, .f32⟩
  | 47 => ⟨S_, .i32⟩
  | 48 => ⟨S640000, .i32⟩
  | 49 => ⟨S640000, .i1⟩
  | 50 => ⟨S_, .i32⟩
  | 51 => ⟨S640000, .i32⟩
  | 52 => ⟨S640000, .i32⟩
  | 53 => ⟨S640000, .i32⟩
  | 54 => ⟨S640000x1, .i32⟩
  | 55 => ⟨S640000x128, .f32⟩
  | 56 => ⟨S_, .f32⟩
  | 57 => ⟨S50000x128, .f32⟩
  | 58 => ⟨S640000x1, .i32⟩
  | 59 => ⟨S50000x128, .f32⟩
  | 60 => ⟨S50000x128, .f32⟩
  | 61 => ⟨S1x128x128, .f32⟩
  | 62 => ⟨S128x128, .f32⟩
  | 63 => ⟨S50000x128, .f32⟩
  | 64 => ⟨S1x128, .f32⟩
  | 65 => ⟨S128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S1x128x128, .f32⟩
  | 73 => ⟨S128x128, .f32⟩
  | 74 => ⟨S50000x128, .f32⟩
  | 75 => ⟨S1x128, .f32⟩
  | 76 => ⟨S128, .f32⟩
  | 77 => ⟨S1x128, .f32⟩
  | 78 => ⟨S50000x128, .f32⟩
  | 79 => ⟨S50000x128, .f32⟩
  | 80 => ⟨S50000x128, .f32⟩
  | 81 => ⟨S_, .f32⟩
  | 82 => ⟨S50000x128, .f32⟩
  | 83 => ⟨S50000x128, .f32⟩
  | 84 => ⟨S50000x640, .f32⟩
  | 85 => ⟨S_, .f32⟩
  | 86 => ⟨S1000x640, .f32⟩
  | 87 => ⟨S50000x1, .i32⟩
  | 88 => ⟨S1000x640, .f32⟩
  | 89 => ⟨S1000x128, .f32⟩
  | 90 => ⟨S1x128, .f32⟩
  | 91 => ⟨S1000x128, .f32⟩
  | 92 => ⟨S1000x128, .f32⟩
  | 93 => ⟨S_, .f32⟩
  | 94 => ⟨S1000x128, .f32⟩
  | 95 => ⟨S1000x128, .f32⟩
  | 96 => ⟨S1000x128, .f32⟩
  | 97 => ⟨S1x128, .f32⟩
  | 98 => ⟨S1000x128, .f32⟩
  | 99 => ⟨S1000x128, .f32⟩
  | 100 => ⟨S1000x64, .f32⟩
  | 101 => ⟨S1000x64, .f32⟩
  | 102 => ⟨S1000x64, .f32⟩
  | 103 => ⟨S1000x64, .f32⟩
  | 104 => ⟨S1000x64, .f32⟩
  | 105 => ⟨S_, .f32⟩
  | 106 => ⟨S1000x64, .f32⟩
  | 107 => ⟨S1000x64, .f32⟩
  | 108 => ⟨S1000x64, .f32⟩
  | 109 => ⟨S_, .f32⟩
  | 110 => ⟨S1000, .f32⟩
  | 111 => ⟨S_, .f32⟩
  | 112 => ⟨S1000, .f32⟩
  | 113 => ⟨S1000, .f32⟩
  | 114 => ⟨S_, .f32⟩
  | 115 => ⟨S1000, .f32⟩
  | 116 => ⟨S1000, .f32⟩
  | 117 => ⟨S1000x64, .f32⟩
  | 118 => ⟨S_, .f32⟩
  | 119 => ⟨S1000x64, .f32⟩
  | 120 => ⟨S1000x64, .f32⟩
  | 121 => ⟨S1000x64, .f32⟩
  | 122 => ⟨S_, .f32⟩
  | 123 => ⟨S1000, .f32⟩
  | 124 => ⟨S_, .f32⟩
  | 125 => ⟨S1000, .f32⟩
  | 126 => ⟨S1000, .f32⟩
  | 127 => ⟨S_, .f32⟩
  | _ => ⟨S50000x32, .f32⟩

abbrev hbmTy0_3 (i : Nat) : BufTy := match i % 128 with
  | 0 => ⟨S1000, .f32⟩
  | 1 => ⟨S1000, .f32⟩
  | 2 => ⟨S1000, .f32⟩
  | 3 => ⟨S1000x64, .f32⟩
  | 4 => ⟨S_, .f32⟩
  | 5 => ⟨S1000x64, .f32⟩
  | 6 => ⟨S1000x64, .f32⟩
  | 7 => ⟨S1000x64, .f32⟩
  | 8 => ⟨S_, .f32⟩
  | 9 => ⟨S1000, .f32⟩
  | 10 => ⟨S_, .f32⟩
  | 11 => ⟨S1000, .f32⟩
  | 12 => ⟨S1000, .f32⟩
  | 13 => ⟨S_, .f32⟩
  | 14 => ⟨S1000, .f32⟩
  | 15 => ⟨S1000, .f32⟩
  | 16 => ⟨S1000x64, .f32⟩
  | 17 => ⟨S_, .f32⟩
  | 18 => ⟨S1000x64, .f32⟩
  | 19 => ⟨S1000x64, .f32⟩
  | 20 => ⟨S1000x64, .f32⟩
  | 21 => ⟨S_, .f32⟩
  | 22 => ⟨S1000, .f32⟩
  | 23 => ⟨S_, .f32⟩
  | 24 => ⟨S1000, .f32⟩
  | 25 => ⟨S1000, .f32⟩
  | 26 => ⟨S_, .f32⟩
  | 27 => ⟨S1000, .f32⟩
  | 28 => ⟨S1000, .f32⟩
  | 29 => ⟨S1000, .f32⟩
  | 30 => ⟨S1000, .f32⟩
  | _ => ⟨S50000x32, .f32⟩

abbrev hbmTy (i : Nat) : BufTy := match i / 128 with
  | 0 => hbmTy0_0 i
  | 1 => hbmTy0_1 i
  | 2 => hbmTy0_2 i
  | 3 => hbmTy0_3 i
  | _ => ⟨S50000x32, .f32⟩

abbrev bufTy : (tb : Table) → Fin (tcTables nBuf tb) → BufTy
  | .hbm, ⟨i, _⟩ => hbmTy i
  | _, _ => ⟨S50000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c : Ref sig .tc := ⟨.hbm, 24, rfl⟩
abbrev main_v8 : Ref sig .tc := ⟨.hbm, 25, rfl⟩
abbrev main_v9 : Ref sig .tc := ⟨.hbm, 26, rfl⟩
abbrev main_c_0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_call0_cst : Ref sig .tc := ⟨.hbm, 46, rfl⟩
abbrev main_call0_v0 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_call1_cst : Ref sig .tc := ⟨.hbm, 57, rfl⟩
abbrev main_call1_v0 : Ref sig .tc := ⟨.hbm, 58, rfl⟩
abbrev main_v36 : Ref sig .tc := ⟨.hbm, 59, rfl⟩
abbrev main_c_1 : Ref sig .tc := ⟨.hbm, 60, rfl⟩
abbrev main_v37 : Ref sig .tc := ⟨.hbm, 61, rfl⟩
abbrev main_v38 : Ref sig .tc := ⟨.hbm, 62, rfl⟩
abbrev main_c_2 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_3 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_call2_cst : Ref sig .tc := ⟨.hbm, 82, rfl⟩
abbrev main_call2_v0 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_call3_cst : Ref sig .tc := ⟨.hbm, 94, rfl⟩
abbrev main_call3_v0 : Ref sig .tc := ⟨.hbm, 95, rfl⟩
abbrev main_v66 : Ref sig .tc := ⟨.hbm, 96, rfl⟩
abbrev main_c_4 : Ref sig .tc := ⟨.hbm, 97, rfl⟩
abbrev main_v67 : Ref sig .tc := ⟨.hbm, 98, rfl⟩
abbrev main_v68 : Ref sig .tc := ⟨.hbm, 99, rfl⟩
abbrev main_c_5 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_6 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_call4_cst : Ref sig .tc := ⟨.hbm, 119, rfl⟩
abbrev main_call4_v0 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_call5_cst : Ref sig .tc := ⟨.hbm, 130, rfl⟩
abbrev main_call5_v0 : Ref sig .tc := ⟨.hbm, 131, rfl⟩
abbrev main_v95 : Ref sig .tc := ⟨.hbm, 132, rfl⟩
abbrev main_c_7 : Ref sig .tc := ⟨.hbm, 133, rfl⟩
abbrev main_v96 : Ref sig .tc := ⟨.hbm, 134, rfl⟩
abbrev main_v97 : Ref sig .tc := ⟨.hbm, 135, rfl⟩
abbrev main_c_8 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_cst_9 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_call6_cst : Ref sig .tc := ⟨.hbm, 155, rfl⟩
abbrev main_call6_v0 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_call7_cst : Ref sig .tc := ⟨.hbm, 167, rfl⟩
abbrev main_call7_v0 : Ref sig .tc := ⟨.hbm, 168, rfl⟩
abbrev main_v125 : Ref sig .tc := ⟨.hbm, 169, rfl⟩
abbrev main_v126 : Ref sig .tc := ⟨.hbm, 170, rfl⟩
abbrev main_cst_10 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_call8_cst : Ref sig .tc := ⟨.hbm, 179, rfl⟩
abbrev main_call8_v0 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_c_11 : Ref sig .tc := ⟨.hbm, 194, rfl⟩
abbrev main_v147 : Ref sig .tc := ⟨.hbm, 195, rfl⟩
abbrev main_v148 : Ref sig .tc := ⟨.hbm, 196, rfl⟩
abbrev main_c_12 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_cst_13 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_call9_cst : Ref sig .tc := ⟨.hbm, 216, rfl⟩
abbrev main_call9_v0 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_call10_cst : Ref sig .tc := ⟨.hbm, 227, rfl⟩
abbrev main_call10_v0 : Ref sig .tc := ⟨.hbm, 228, rfl⟩
abbrev main_v175 : Ref sig .tc := ⟨.hbm, 229, rfl⟩
abbrev main_c_14 : Ref sig .tc := ⟨.hbm, 230, rfl⟩
abbrev main_v176 : Ref sig .tc := ⟨.hbm, 231, rfl⟩
abbrev main_v177 : Ref sig .tc := ⟨.hbm, 232, rfl⟩
abbrev main_c_15 : Ref sig .tc := ⟨.hbm, 233, rfl⟩
abbrev main_v178 : Ref sig .tc := ⟨.hbm, 234, rfl⟩
abbrev main_v179 : Ref sig .tc := ⟨.hbm, 235, rfl⟩
abbrev main_v180 : Ref sig .tc := ⟨.hbm, 236, rfl⟩
abbrev main_v181 : Ref sig .tc := ⟨.hbm, 237, rfl⟩
abbrev main_v182 : Ref sig .tc := ⟨.hbm, 238, rfl⟩
abbrev main_cst_16 : Ref sig .tc := ⟨.hbm, 239, rfl⟩
abbrev main_v183 : Ref sig .tc := ⟨.hbm, 240, rfl⟩
abbrev main_v184 : Ref sig .tc := ⟨.hbm, 241, rfl⟩
abbrev main_v185 : Ref sig .tc := ⟨.hbm, 242, rfl⟩
abbrev main_v186 : Ref sig .tc := ⟨.hbm, 243, rfl⟩
abbrev main_v187 : Ref sig .tc := ⟨.hbm, 244, rfl⟩
abbrev main_v188 : Ref sig .tc := ⟨.hbm, 245, rfl⟩
abbrev main_v189 : Ref sig .tc := ⟨.hbm, 246, rfl⟩
abbrev main_v190 : Ref sig .tc := ⟨.hbm, 247, rfl⟩
abbrev main_v191 : Ref sig .tc := ⟨.hbm, 248, rfl⟩
abbrev main_v192 : Ref sig .tc := ⟨.hbm, 249, rfl⟩
abbrev main_v193 : Ref sig .tc := ⟨.hbm, 250, rfl⟩
abbrev main_v194 : Ref sig .tc := ⟨.hbm, 251, rfl⟩
abbrev main_call11_cst : Ref sig .tc := ⟨.hbm, 252, rfl⟩
abbrev main_call11_v0 : Ref sig .tc := ⟨.hbm, 253, rfl⟩
abbrev main_v195 : Ref sig .tc := ⟨.hbm, 254, rfl⟩
abbrev main_v196 : Ref sig .tc := ⟨.hbm, 255, rfl⟩
abbrev main_v197 : Ref sig .tc := ⟨.hbm, 256, rfl⟩
abbrev main_v198 : Ref sig .tc := ⟨.hbm, 257, rfl⟩
abbrev main_v199 : Ref sig .tc := ⟨.hbm, 258, rfl⟩
abbrev main_v200 : Ref sig .tc := ⟨.hbm, 259, rfl⟩
abbrev main_v201 : Ref sig .tc := ⟨.hbm, 260, rfl⟩
abbrev main_v202 : Ref sig .tc := ⟨.hbm, 261, rfl⟩
abbrev main_v203 : Ref sig .tc := ⟨.hbm, 262, rfl⟩
abbrev main_v204 : Ref sig .tc := ⟨.hbm, 263, rfl⟩
abbrev main_call12_cst : Ref sig .tc := ⟨.hbm, 264, rfl⟩
abbrev main_call12_v0 : Ref sig .tc := ⟨.hbm, 265, rfl⟩
abbrev main_v205 : Ref sig .tc := ⟨.hbm, 266, rfl⟩
abbrev main_c_17 : Ref sig .tc := ⟨.hbm, 267, rfl⟩
abbrev main_v206 : Ref sig .tc := ⟨.hbm, 268, rfl⟩
abbrev main_v207 : Ref sig .tc := ⟨.hbm, 269, rfl⟩
abbrev main_c_18 : Ref sig .tc := ⟨.hbm, 270, rfl⟩
abbrev main_v208 : Ref sig .tc := ⟨.hbm, 271, rfl⟩
abbrev main_v209 : Ref sig .tc := ⟨.hbm, 272, rfl⟩
abbrev main_v210 : Ref sig .tc := ⟨.hbm, 273, rfl⟩
abbrev main_v211 : Ref sig .tc := ⟨.hbm, 274, rfl⟩
abbrev main_v212 : Ref sig .tc := ⟨.hbm, 275, rfl⟩
abbrev main_cst_19 : Ref sig .tc := ⟨.hbm, 276, rfl⟩
abbrev main_v213 : Ref sig .tc := ⟨.hbm, 277, rfl⟩
abbrev main_v214 : Ref sig .tc := ⟨.hbm, 278, rfl⟩
abbrev main_v215 : Ref sig .tc := ⟨.hbm, 279, rfl⟩
abbrev main_v216 : Ref sig .tc := ⟨.hbm, 280, rfl⟩
abbrev main_v217 : Ref sig .tc := ⟨.hbm, 281, rfl⟩
abbrev main_v218 : Ref sig .tc := ⟨.hbm, 282, rfl⟩
abbrev main_v219 : Ref sig .tc := ⟨.hbm, 283, rfl⟩
abbrev main_v220 : Ref sig .tc := ⟨.hbm, 284, rfl⟩
abbrev main_v221 : Ref sig .tc := ⟨.hbm, 285, rfl⟩
abbrev main_v222 : Ref sig .tc := ⟨.hbm, 286, rfl⟩
abbrev main_v223 : Ref sig .tc := ⟨.hbm, 287, rfl⟩
abbrev main_v224 : Ref sig .tc := ⟨.hbm, 288, rfl⟩
abbrev main_call13_cst : Ref sig .tc := ⟨.hbm, 289, rfl⟩
abbrev main_call13_v0 : Ref sig .tc := ⟨.hbm, 290, rfl⟩
abbrev main_v225 : Ref sig .tc := ⟨.hbm, 291, rfl⟩
abbrev main_v226 : Ref sig .tc := ⟨.hbm, 292, rfl⟩
abbrev main_v227 : Ref sig .tc := ⟨.hbm, 293, rfl⟩
abbrev main_v228 : Ref sig .tc := ⟨.hbm, 294, rfl⟩
abbrev main_v229 : Ref sig .tc := ⟨.hbm, 295, rfl⟩
abbrev main_v230 : Ref sig .tc := ⟨.hbm, 296, rfl⟩
abbrev main_v231 : Ref sig .tc := ⟨.hbm, 297, rfl⟩
abbrev main_v232 : Ref sig .tc := ⟨.hbm, 298, rfl⟩
abbrev main_v233 : Ref sig .tc := ⟨.hbm, 299, rfl⟩
abbrev main_call14_cst : Ref sig .tc := ⟨.hbm, 300, rfl⟩
abbrev main_call14_v0 : Ref sig .tc := ⟨.hbm, 301, rfl⟩
abbrev main_v234 : Ref sig .tc := ⟨.hbm, 302, rfl⟩
abbrev main_c_20 : Ref sig .tc := ⟨.hbm, 303, rfl⟩
abbrev main_v235 : Ref sig .tc := ⟨.hbm, 304, rfl⟩
abbrev main_v236 : Ref sig .tc := ⟨.hbm, 305, rfl⟩
abbrev main_c_21 : Ref sig .tc := ⟨.hbm, 306, rfl⟩
abbrev main_v237 : Ref sig .tc := ⟨.hbm, 307, rfl⟩
abbrev main_v238 : Ref sig .tc := ⟨.hbm, 308, rfl⟩
abbrev main_v239 : Ref sig .tc := ⟨.hbm, 309, rfl⟩
abbrev main_v240 : Ref sig .tc := ⟨.hbm, 310, rfl⟩
abbrev main_v241 : Ref sig .tc := ⟨.hbm, 311, rfl⟩
abbrev main_cst_22 : Ref sig .tc := ⟨.hbm, 312, rfl⟩
abbrev main_v242 : Ref sig .tc := ⟨.hbm, 313, rfl⟩
abbrev main_v243 : Ref sig .tc := ⟨.hbm, 314, rfl⟩
abbrev main_v244 : Ref sig .tc := ⟨.hbm, 315, rfl⟩
abbrev main_v245 : Ref sig .tc := ⟨.hbm, 316, rfl⟩
abbrev main_v246 : Ref sig .tc := ⟨.hbm, 317, rfl⟩
abbrev main_v247 : Ref sig .tc := ⟨.hbm, 318, rfl⟩
abbrev main_v248 : Ref sig .tc := ⟨.hbm, 319, rfl⟩
abbrev main_v249 : Ref sig .tc := ⟨.hbm, 320, rfl⟩
abbrev main_v250 : Ref sig .tc := ⟨.hbm, 321, rfl⟩
abbrev main_v251 : Ref sig .tc := ⟨.hbm, 322, rfl⟩
abbrev main_v252 : Ref sig .tc := ⟨.hbm, 323, rfl⟩
abbrev main_v253 : Ref sig .tc := ⟨.hbm, 324, rfl⟩
abbrev main_call15_cst : Ref sig .tc := ⟨.hbm, 325, rfl⟩
abbrev main_call15_v0 : Ref sig .tc := ⟨.hbm, 326, rfl⟩
abbrev main_v254 : Ref sig .tc := ⟨.hbm, 327, rfl⟩
abbrev main_v255 : Ref sig .tc := ⟨.hbm, 328, rfl⟩
abbrev main_v256 : Ref sig .tc := ⟨.hbm, 329, rfl⟩
abbrev main_v257 : Ref sig .tc := ⟨.hbm, 330, rfl⟩
abbrev main_v258 : Ref sig .tc := ⟨.hbm, 331, rfl⟩
abbrev main_v259 : Ref sig .tc := ⟨.hbm, 332, rfl⟩
abbrev main_v260 : Ref sig .tc := ⟨.hbm, 333, rfl⟩
abbrev main_v261 : Ref sig .tc := ⟨.hbm, 334, rfl⟩
abbrev main_v262 : Ref sig .tc := ⟨.hbm, 335, rfl⟩
abbrev main_v263 : Ref sig .tc := ⟨.hbm, 336, rfl⟩
abbrev main_call16_cst : Ref sig .tc := ⟨.hbm, 337, rfl⟩
abbrev main_call16_v0 : Ref sig .tc := ⟨.hbm, 338, rfl⟩
abbrev main_v264 : Ref sig .tc := ⟨.hbm, 339, rfl⟩
abbrev main_v265 : Ref sig .tc := ⟨.hbm, 340, rfl⟩
abbrev main_cst_23 : Ref sig .tc := ⟨.hbm, 341, rfl⟩
abbrev main_v266 : Ref sig .tc := ⟨.hbm, 342, rfl⟩
abbrev main_v267 : Ref sig .tc := ⟨.hbm, 343, rfl⟩
abbrev main_v268 : Ref sig .tc := ⟨.hbm, 344, rfl⟩
abbrev main_v269 : Ref sig .tc := ⟨.hbm, 345, rfl⟩
abbrev main_v270 : Ref sig .tc := ⟨.hbm, 346, rfl⟩
abbrev main_v271 : Ref sig .tc := ⟨.hbm, 347, rfl⟩
abbrev main_v272 : Ref sig .tc := ⟨.hbm, 348, rfl⟩
abbrev main_call17_cst : Ref sig .tc := ⟨.hbm, 349, rfl⟩
abbrev main_call17_v0 : Ref sig .tc := ⟨.hbm, 350, rfl⟩
abbrev main_v273 : Ref sig .tc := ⟨.hbm, 351, rfl⟩
abbrev main_v274 : Ref sig .tc := ⟨.hbm, 352, rfl⟩
abbrev main_v275 : Ref sig .tc := ⟨.hbm, 353, rfl⟩
abbrev main_v276 : Ref sig .tc := ⟨.hbm, 354, rfl⟩
abbrev main_v277 : Ref sig .tc := ⟨.hbm, 355, rfl⟩
abbrev main_v278 : Ref sig .tc := ⟨.hbm, 356, rfl⟩
abbrev main_v279 : Ref sig .tc := ⟨.hbm, 357, rfl⟩
abbrev main_v280 : Ref sig .tc := ⟨.hbm, 358, rfl⟩
abbrev main_v281 : Ref sig .tc := ⟨.hbm, 359, rfl⟩
abbrev main_v282 : Ref sig .tc := ⟨.hbm, 360, rfl⟩
abbrev main_call18_cst : Ref sig .tc := ⟨.hbm, 361, rfl⟩
abbrev main_call18_v0 : Ref sig .tc := ⟨.hbm, 362, rfl⟩
abbrev main_v283 : Ref sig .tc := ⟨.hbm, 363, rfl⟩
abbrev main_v284 : Ref sig .tc := ⟨.hbm, 364, rfl⟩
abbrev main_cst_24 : Ref sig .tc := ⟨.hbm, 365, rfl⟩
abbrev main_v285 : Ref sig .tc := ⟨.hbm, 366, rfl⟩
abbrev main_cst_25 : Ref sig .tc := ⟨.hbm, 367, rfl⟩
abbrev main_v286 : Ref sig .tc := ⟨.hbm, 368, rfl⟩
abbrev main_v287 : Ref sig .tc := ⟨.hbm, 369, rfl⟩
abbrev main_cst_26 : Ref sig .tc := ⟨.hbm, 370, rfl⟩
abbrev main_v288 : Ref sig .tc := ⟨.hbm, 371, rfl⟩
abbrev main_v289 : Ref sig .tc := ⟨.hbm, 372, rfl⟩
abbrev main_v290 : Ref sig .tc := ⟨.hbm, 373, rfl⟩
abbrev main_call19_cst : Ref sig .tc := ⟨.hbm, 374, rfl⟩
abbrev main_call19_v0 : Ref sig .tc := ⟨.hbm, 375, rfl⟩
abbrev main_v291 : Ref sig .tc := ⟨.hbm, 376, rfl⟩
abbrev main_v292 : Ref sig .tc := ⟨.hbm, 377, rfl⟩
abbrev main_cst_27 : Ref sig .tc := ⟨.hbm, 378, rfl⟩
abbrev main_v293 : Ref sig .tc := ⟨.hbm, 379, rfl⟩
abbrev main_cst_28 : Ref sig .tc := ⟨.hbm, 380, rfl⟩
abbrev main_v294 : Ref sig .tc := ⟨.hbm, 381, rfl⟩
abbrev main_v295 : Ref sig .tc := ⟨.hbm, 382, rfl⟩
abbrev main_cst_29 : Ref sig .tc := ⟨.hbm, 383, rfl⟩
abbrev main_v296 : Ref sig .tc := ⟨.hbm, 384, rfl⟩
abbrev main_v297 : Ref sig .tc := ⟨.hbm, 385, rfl⟩
abbrev main_v298 : Ref sig .tc := ⟨.hbm, 386, rfl⟩
abbrev main_v299 : Ref sig .tc := ⟨.hbm, 387, rfl⟩
abbrev main_call20_cst : Ref sig .tc := ⟨.hbm, 388, rfl⟩
abbrev main_call20_v0 : Ref sig .tc := ⟨.hbm, 389, rfl⟩
abbrev main_v300 : Ref sig .tc := ⟨.hbm, 390, rfl⟩
abbrev main_v301 : Ref sig .tc := ⟨.hbm, 391, rfl⟩
abbrev main_cst_30 : Ref sig .tc := ⟨.hbm, 392, rfl⟩
abbrev main_v302 : Ref sig .tc := ⟨.hbm, 393, rfl⟩
abbrev main_cst_31 : Ref sig .tc := ⟨.hbm, 394, rfl⟩
abbrev main_v303 : Ref sig .tc := ⟨.hbm, 395, rfl⟩
abbrev main_v304 : Ref sig .tc := ⟨.hbm, 396, rfl⟩
abbrev main_cst_32 : Ref sig .tc := ⟨.hbm, 397, rfl⟩
abbrev main_v305 : Ref sig .tc := ⟨.hbm, 398, rfl⟩
abbrev main_v306 : Ref sig .tc := ⟨.hbm, 399, rfl⟩
abbrev main_v307 : Ref sig .tc := ⟨.hbm, 400, rfl⟩
abbrev main_call21_cst : Ref sig .tc := ⟨.hbm, 401, rfl⟩
abbrev main_call21_v0 : Ref sig .tc := ⟨.hbm, 402, rfl⟩
abbrev main_v308 : Ref sig .tc := ⟨.hbm, 403, rfl⟩
abbrev main_v309 : Ref sig .tc := ⟨.hbm, 404, rfl⟩
abbrev main_cst_33 : Ref sig .tc := ⟨.hbm, 405, rfl⟩
abbrev main_v310 : Ref sig .tc := ⟨.hbm, 406, rfl⟩
abbrev main_cst_34 : Ref sig .tc := ⟨.hbm, 407, rfl⟩
abbrev main_v311 : Ref sig .tc := ⟨.hbm, 408, rfl⟩
abbrev main_v312 : Ref sig .tc := ⟨.hbm, 409, rfl⟩
abbrev main_cst_35 : Ref sig .tc := ⟨.hbm, 410, rfl⟩
abbrev main_v313 : Ref sig .tc := ⟨.hbm, 411, rfl⟩
abbrev main_v314 : Ref sig .tc := ⟨.hbm, 412, rfl⟩
abbrev main_v315 : Ref sig .tc := ⟨.hbm, 413, rfl⟩
abbrev main_v316 : Ref sig .tc := ⟨.hbm, 414, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S640000 : S_.BroadcastsInDim S640000 (![] : Fin 0 → Fin S640000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  concatenates_S50000x128_S50000x128_S50000x128_S50000x128_S50000x128_S50000x640_d1 : Shape.Concatenates [S50000x128, S50000x128, S50000x128, S50000x128, S50000x128] S50000x640 1
  bcast_S_S1000x640 : S_.BroadcastsInDim S1000x640 (![] : Fin 0 → Fin S1000x640.rank)
  bcast_S50000_S50000x1_0 : S50000.BroadcastsInDim S50000x1 (![0] : Fin 1 → Fin S50000x1.rank)
  bcast_S1x128_S1000x128_0_1 : S1x128.BroadcastsInDim S1000x128 (![0, 1] : Fin 2 → Fin S1000x128.rank)
  bcast_S_S1000x128 : S_.BroadcastsInDim S1000x128 (![] : Fin 0 → Fin S1000x128.rank)
  slices_S1000x128_S1000x64_0_0 : S1000x128.Slices ![0, 0] S1000x64
  slices_S1000x128_S1000x64_0_64 : S1000x128.Slices ![0, 64] S1000x64
  bcast_S_S1000x64 : S_.BroadcastsInDim S1000x64 (![] : Fin 0 → Fin S1000x64.rank)
  reducesTo_S1000x64_S1000_d1 : S1000x64.ReducesTo [1] S1000
  h_S_ : 0 < S_.numel
  bcast_S_S1000 : S_.BroadcastsInDim S1000 (![] : Fin 0 → Fin S1000.rank)
  dot_S50000x32_S32x128_S50000x128_1_0_0_1_n_n_wf : DotDims.WF S50000x32 S32x128 S50000x128 [1] [0] [0] [1] [] []
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S50000x128_S128x128_S50000x128_1_0_0_1_n_n_wf : DotDims.WF S50000x128 S128x128 S50000x128 [1] [0] [0] [1] [] []
  scatter_S1000x640_S50000x1_S50000x640_1_0_0_1_wf : ScatterDims.WF S1000x640 S50000x1 S50000x640 [1] [0] [0] 1
  dot_S1000x640_S640x128_S1000x128_1_0_0_1_n_n_wf : DotDims.WF S1000x640 S640x128 S1000x128 [1] [0] [0] [1] [] []
  dot_S1000x128_S128x128_S1000x128_1_0_0_1_n_n_wf : DotDims.WF S1000x128 S128x128 S1000x128 [1] [0] [0] [1] [] []

variable [Facts₀]

def dot_S50000x32_S32x128_S50000x128_1_0_0_1_n_n : DotDims S50000x32 S32x128 S50000x128 where
  lhsContracting := [1]
  rhsContracting := [0]
  lhsNonContracting := [0]
  rhsNonContracting := [1]
  lhsBatch := []
  rhsBatch := []
  wf := dot_S50000x32_S32x128_S50000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S1000x640_S50000x1_S50000x640_1_0_0_1 : ScatterDims S1000x640 S50000x1 S50000x640 where
  updateWindowDims := [1]
  insertedWindowDims := [0]
  scatterDimsToOperandDims := [0]
  indexVectorDim := 1
  wf := scatter_S1000x640_S50000x1_S50000x640_1_0_0_1_wf
def dot_S1000x640_S640x128_S1000x128_1_0_0_1_n_n : DotDims S1000x640 S640x128 S1000x128 where
  lhsContracting := [1]
  rhsContracting := [0]
  lhsNonContracting := [0]
  rhsNonContracting := [1]
  lhsBatch := []
  rhsBatch := []
  wf := dot_S1000x640_S640x128_S1000x128_1_0_0_1_n_n_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf

class Facts : Prop extends Facts₀ where

variable [Facts]
-- ==== Proof.BReg0.lean ====
/-
  Region 0 of the program's thirteen kernel regions (the body `cc0__pre_kernel`): what its proof data are, at an
  arbitrary valuation `V` of the TensorCore's buffers at the region's entry.  Each window's block at a grid point is read
  off the window's array; the body loads whole blocks and overwrites each output block whole, so what it leaves in an
  output window's staging buffer is one rectangle piece holding the body's payload of the input blocks; the input
  buffers are left as found.  From this the body's Hoare triple (by symbolic execution of the skeleton) and the
  pipeline library's per-point obligation follow at every float instance.
-/
import proofs.«106875_j87694642250037_1_alg».proof.Proof.Gen.Kernel.Launch
import proofs.«106875_j87694642250037_1_alg».proof.Proof.Gen.Kernel.Skeleton
import proofs.«106875_j87694642250037_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every grid point, whether or not the block was fetched
    there (an unfetched point has the block index of the point before it), for any proof data on `V`'s arrays whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- An input window's staging buffer holds the window's block at every grid point, whether or not the block was fetched
    there (an unfetched point has the block index of the point before it), for any proof data on `V`'s arrays whose body
    leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- An input window's staging buffer holds the window's block at every grid point, whether or not the block was fetched
    there (an unfetched point has the block index of the point before it), for any proof data on `V`'s arrays whose body
    leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- What the body leaves in output window 3's staging buffer, as a function of the input blocks: the block-sized rectangle
    holding the body's payload. -/
def out0_3 (x0 : Vec F S5000x32 .f32) (x1 : Vec F S32x128 .f32) (x2 : Vec F S128 .f32) : Vec F S5000x128 .f32 :=
  View.canon [⟨Rect.unit (s := S5000x128) ![0, 0] S5000x128.size inb_S5000x128_S5000x128_0_0, k0_pay1 (View.ld x0 (Rect.unit (s := S5000x32) ![0, 0] S5000x32.size inb_S5000x32_S5000x32_0_0)) (View.ld x1 (Rect.unit (s := S32x128) ![0, 0] S32x128.size inb_S32x128_S32x128_0_0)) (View.ld x2 (Rect.unit (s := S128) ![0] S128.size inb_S128_S128_0))⟩]

/-- That rectangle is the whole buffer. -/
theorem cover0_3 (p0 : Vec F S5000x128 .f32) (y : S5000x128.Idx) :
    ∃ pc ∈ ([⟨Rect.unit (s := S5000x128) ![0, 0] S5000x128.size inb_S5000x128_S5000x128_0_0, p0⟩] : List (View.Piece (Elt F) S5000x128 .f32)), y ∈ pc.1.set :=
  View.cover_of_tiled [⟨Rect.unit (s := S5000x128) ![0, 0] S5000x128.size inb_S5000x128_S5000x128_0_0, p0⟩] S5000x128.size (by rfl) y

set_option maxHeartbeats 4000000 in
/-- The body on whole staging memrefs — the inputs' at given contents, the outputs' at anything — runs to its continuation with
    the inputs' contents unchanged and each output's at `out0_w` of the inputs'. -/
theorem sound_kernel0 (c : Dev nD) (E : Set ℕ) (i : grid0.Coords) (arg1 : Memref sig .tc .vmem S5000x32 .f32) (harg1 : arg1.IsWhole) (arg2 : Memref sig .tc .vmem S32x128 .f32) (harg2 : arg2.IsWhole) (arg3 : Memref sig .tc .vmem S128 .f32) (harg3 : arg3.IsWhole) (arg4 : Memref sig .tc .vmem S5000x128 .f32) (harg4 : arg4.IsWhole)
    (x0 : Vec F S5000x32 .f32) (x1 : Vec F S32x128 .f32) (x2 : Vec F S128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__pre_kernel i arg1 harg1 arg2 harg2 arg3 harg3 arg4 harg4) K := by
  simp only [cc0__pre_kernel_eq_skeleton]; unfold cc0__pre_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of this region on core `c`: the windows' arrays are `V`'s; after the body at point `t` an input's buffer holds
    its block and an output's holds `out0_w` of the input blocks; the invariant is the pipeline library's plain one (the scoped
    rest and the generator register, untouched); nothing is owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any grid point: the inputs' memrefs hold their blocks, so `sound_kernel0` applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BReg1.lean ====
/-
  Region 1 of the program's thirteen kernel regions (the body `cc1__gin_kernel_plain`): what its proof data are, at an
  arbitrary valuation `V` of the TensorCore's buffers at the region's entry.  Each window's block at a grid point is read
  off the window's array; the body loads whole blocks and overwrites each output block whole, so what it leaves in an
  output window's staging buffer is one rectangle piece holding the body's payload of the input blocks; the input
  buffers are left as found.  From this the body's Hoare triple (by symbolic execution of the skeleton) and the
  pipeline library's per-point obligation follow at every float instance.
-/
import proofs.«106875_j87694642250037_1_alg».proof.Proof.Gen.Kernel.Launch
import proofs.«106875_j87694642250037_1_alg».proof.Proof.Gen.Kernel.Skeleton
import proofs.«106875_j87694642250037_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every grid point, whether or not the block was fetched
    there (an unfetched point has the block index of the point before it), for any proof data on `V`'s arrays whose body
    leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- An input window's staging buffer holds the window's block at every grid point, whether or not the block was fetched
    there (an unfetched point has the block index of the point before it), for any proof data on `V`'s arrays whose body
    leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- An input window's staging buffer holds the window's block at every grid point, whether or not the block was fetched
    there (an unfetched point has the block index of the point before it), for any proof data on `V`'s arrays whose body
    leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- An input window's staging buffer holds the window's block at every grid point, whether or not the block was fetched
    there (an unfetched point has the block index of the point before it), for any proof data on `V`'s arrays whose body
    leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- An input window's staging buffer holds the window's block at every grid point, whether or not the block was fetched
    there (an unfetched point has the block index of the point before it), for any proof data on `V`'s arrays whose body
    leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- An input window's staging buffer holds the window's block at every grid point, whether or not the block was fetched
    there (an unfetched point has the block index of the point before it), for any proof data on `V`'s arrays whose body
    leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- What the body leaves in output window 6's staging buffer, as a function of the input blocks: the block-sized rectangle
    holding the body's payload. -/
def out1_6 (x0 : Vec F S5000x128 .f32) (x1 : Vec F S5000x128 .f32) (x2 : Vec F S128x128 .f32) (x3 : Vec F S128 .f32) (x4 : Vec F S128x128 .f32) (x5 : Vec F S128 .f32) : Vec F S5000x128 .f32 :=
  View.canon [⟨Rect.unit (s := S5000x128) ![0, 0] S5000x128.size inb_S5000x128_S5000x128_0_0, k1_pay1 (View.ld x1 (Rect.unit (s := S5000x128) ![0, 0] S5000x128.size inb_S5000x128_S5000x128_0_0)) (View.ld x0 (Rect.unit (s := S5000x128) ![0, 0] S5000x128.size inb_S5000x128_S5000x128_0_0)) (View.ld x2 (Rect.unit (s := S128x128) ![0, 0] S128x128.size inb_S128x128_S128x128_0_0)) (View.ld x3 (Rect.unit (s := S128) ![0] S128.size inb_S128_S128_0)) (View.ld x4 (Rect.unit (s := S128x128) ![0, 0] S128x128.size inb_S128x128_S128x128_0_0)) (View.ld x5 (Rect.unit (s := S128) ![0] S128.size inb_S128_S128_0))⟩]

/-- That rectangle is the whole buffer. -/
theorem cover1_6 (p0 : Vec F S5000x128 .f32) (y : S5000x128.Idx) :
    ∃ pc ∈ ([⟨Rect.unit (s := S5000x128) ![0, 0] S5000x128.size inb_S5000x128_S5000x128_0_0, p0⟩] : List (View.Piece (Elt F) S5000x128 .f32)), y ∈ pc.1.set :=
  View.cover_of_tiled [⟨Rect.unit (s := S5000x128) ![0, 0] S5000x128.size inb_S5000x128_S5000x128_0_0, p0⟩] S5000x128.size (by rfl) y

set_option maxHeartbeats 4000000 in
/-- The body on whole staging memrefs — the inputs' at given contents, the outputs' at anything — runs to its continuation with
    the inputs' contents unchanged and each output's at `out1_w` of the inputs'. -/
theorem sound_kernel1 (c : Dev nD) (E : Set ℕ) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S5000x128 .f32) (harg7 : arg7.IsWhole)
    (x0 : Vec F S5000x128 .f32) (x1 : Vec F S5000x128 .f32) (x2 : Vec F S128x128 .f32) (x3 : Vec F S128 .f32) (x4 : Vec F S128x128 .f32) (x5 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__gin_kernel_plain i arg1 harg1 arg2 harg2 arg3 harg3 arg4 harg4 arg5 harg5 arg6 harg6 arg7 harg7) K := by
  simp only [cc1__gin_kernel_plain_eq_skeleton]; unfold cc1__gin_kernel_plain_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-- The proof data of this region on core `c`: the windows' arrays are `V`'s; after the body at point `t` an input's buffer holds
    its block and an output's holds `out1_w` of the input blocks; the invariant is the pipeline library's plain one (the scoped
    rest and the generator register, untouched); nothing is owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any grid point: the inputs' memrefs hold their blocks, so `sound_kernel1` applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BReg2.lean ====
/-
  Region 2 of the program's thirteen kernel regions (the body `cc2__gin_kernel_resid`): what its proof data are, at an
  arbitrary valuation `V` of the TensorCore's buffers at the region's entry.  Each window's block at a grid point is read
  off the window's array; the body loads whole blocks and overwrites each output block whole, so what it leaves in an
  output window's staging buffer is one rectangle piece holding the body's payload of the input blocks; the input
  buffers are left as found.  From this the body's Hoare triple (by symbolic execution of the skeleton) and the
  pipeline library's per-point obligation follow at every float instance.
-/
import proofs.«106875_j87694642250037_1_alg».proof.Proof.Gen.Kernel.Launch
import proofs.«106875_j87694642250037_1_alg».proof.Proof.Gen.Kernel.Skeleton
import proofs.«106875_j87694642250037_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds the window's block at every grid point, whether or not the block was fetched
    there (an unfetched point has the block index of the point before it), for any proof data on `V`'s arrays whose body
    leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- An input window's staging buffer holds the window's block at every grid point, whether or not the block was fetched
    there (an unfetched point has the block index of the point before it), for any proof data on `V`'s arrays whose body
    leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- An input window's staging buffer holds the window's block at every grid point, whether or not the block was fetched
    there (an unfetched point has the block index of the point before it), for any proof data on `V`'s arrays whose body
    leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- An input window's staging buffer holds the window's block at every grid point, whether or not the block was fetched
    there (an unfetched point has the block index of the point before it), for any proof data on `V`'s arrays whose body
    leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- An input window's staging buffer holds the window's block at every grid point, whether or not the block was fetched
    there (an unfetched point has the block index of the point before it), for any proof data on `V`'s arrays whose body
    leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- An input window's staging buffer holds the window's block at every grid point, whether or not the block was fetched
    there (an unfetched point has the block index of the point before it), for any proof data on `V`'s arrays whose body
    leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- An input window's staging buffer holds the window's block at every grid point, whether or not the block was fetched
    there (an unfetched point has the block index of the point before it), for any proof data on `V`'s arrays whose body
    leaves the block in place. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- What the body leaves in output window 7's staging buffer, as a function of the input blocks: the block-sized rectangle
    holding the body's payload. -/
def out2_7 (x0 : Vec F S5000x128 .f32) (x1 : Vec F S5000x128 .f32) (x2 : Vec F S5000x128 .f32) (x3 : Vec F S128x128 .f32) (x4 : Vec F S128 .f32) (x5 : Vec F S128x128 .f32) (x6 : Vec F S128 .f32) : Vec F S5000x128 .f32 :=
  View.canon [⟨Rect.unit (s := S5000x128) ![0, 0] S5000x128.size inb_S5000x128_S5000x128_0_0, k2_pay2 (View.ld x1 (Rect.unit (s := S5000x128) ![0, 0] S5000x128.size inb_S5000x128_S5000x128_0_0)) (View.ld x0 (Rect.unit (s := S5000x128) ![0, 0] S5000x128.size inb_S5000x128_S5000x128_0_0)) (View.ld x3 (Rect.unit (s := S128x128) ![0, 0] S128x128.size inb_S128x128_S128x128_0_0)) (View.ld x4 (Rect.unit (s := S128) ![0] S128.size inb_S128_S128_0)) (View.ld x5 (Rect.unit (s := S128x128) ![0, 0] S128x128.size inb_S128x128_S128x128_0_0)) (View.ld x6 (Rect.unit (s := S128) ![0] S128.size inb_S128_S128_0)) (View.ld x2 (Rect.unit (s := S5000x128) ![0, 0] S5000x128.size inb_S5000x128_S5000x128_0_0))⟩]

/-- That rectangle is the whole buffer. -/
theorem cover2_7 (p0 : Vec F S5000x128 .f32) (y : S5000x128.Idx) :
    ∃ pc ∈ ([⟨Rect.unit (s := S5000x128) ![0, 0] S5000x128.size inb_S5000x128_S5000x128_0_0, p0⟩] : List (View.Piece (Elt F) S5000x128 .f32)), y ∈ pc.1.set :=
  View.cover_of_tiled [⟨Rect.unit (s := S5000x128) ![0, 0] S5000x128.size inb_S5000x128_S5000x128_0_0, p0⟩] S5000x128.size (by rfl) y

/-- What the body leaves in output window 8's staging buffer, as a function of the input blocks: the block-sized rectangle
    holding the body's payload. -/
def out2_8 (x0 : Vec F S5000x128 .f32) (x1 : Vec F S5000x128 .f32) (x2 : Vec F S5000x128 .f32) (x3 : Vec F S128x128 .f32) (x4 : Vec F S128 .f32) (x5 : Vec F S128x128 .f32) (x6 : Vec F S128 .f32) : Vec F S5000x128 .f32 :=
  View.canon [⟨Rect.unit (s := S5000x128) ![0, 0] S5000x128.size inb_S5000x128_S5000x128_0_0, k2_pay1 (View.ld x1 (Rect.unit (s := S5000x128) ![0, 0] S5000x128.size inb_S5000x128_S5000x128_0_0)) (View.ld x0 (Rect.unit (s := S5000x128) ![0, 0] S5000x128.size inb_S5000x128_S5000x128_0_0)) (View.ld x3 (Rect.unit (s := S128x128) ![0, 0] S128x128.size inb_S128x128_S128x128_0_0)) (View.ld x4 (Rect.unit (s := S128) ![0] S128.size inb_S128_S128_0)) (View.ld x5 (Rect.unit (s := S128x128) ![0, 0] S128x128.size inb_S128x128_S128x128_0_0)) (View.ld x6 (Rect.unit (s := S128) ![0] S128.size inb_S128_S128_0)) (View.ld x2 (Rect.unit (s := S5000x128) ![0, 0] S5000x128.size inb_S5000x128_S5000x128_0_0))⟩]

/-- That rectangle is the whole buffer. -/
theorem cover2_8 (p0 : Vec F S5000x128 .f32) (y : S5000x128.Idx) :
    ∃ pc ∈ ([⟨Rect.unit (s := S5000x128) ![0, 0] S5000x128.size inb_S5000x128_S5000x128_0_0, p0⟩] : List (View.Piece (Elt F) S5000x128 .f32)), y ∈ pc.1.set :=
  View.cover_of_tiled [⟨Rect.unit (s := S5000x128) ![0, 0] S5000x128.size inb_S5000x128_S5000x128_0_0, p0⟩] S5000x128.size (by rfl) y

set_option maxHeartbeats 4000000 in
/-- The body on whole staging memrefs — the inputs' at given contents, the outputs' at anything — runs to its continuation with
    the inputs' contents unchanged and each output's at `out2_w` of the inputs'. -/
theorem sound_kernel2 (c : Dev nD) (E : Set ℕ) (i : grid2.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S5000x128 .f32) (harg8 : arg8.IsWhole) (arg9 : Memref sig .tc .vmem S5000x128 .f32) (harg9 : arg9.IsWhole)
    (x0 : Vec F S5000x128 .f32) (x1 : Vec F S5000x128 .f32) (x2 : Vec F S5000x128 .f32) (x3 : Vec F S128x128 .f32) (x4 : Vec F S128 .f32) (x5 : Vec F S128x128 .f32) (x6 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out2_7 x0 x1 x2 x3 x4 x5 x6) ∗ owns (c : Thread nD τ) arg9 fullShare (out2_8 x0 x1 x2 x3 x4 x5 x6)) -∗ K ⟨⟩))
      ⊢ wp frame (wpE (defs₀ (F := F)) Variants.none c none) E (cc2__gin_kernel_resid i arg1 harg1 arg2 harg2 arg3 harg3 arg4 harg4 arg5 harg5 arg6 harg6 arg7 harg7 arg8 harg8 arg9 harg9) K := by
  simp only [cc2__gin_kernel_resid_eq_skeleton]; unfold cc2__gin_kernel_resid_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover2_7 _)
  iexists _; isplitr
  swap; · iexact H8
  ipureintro
  exact View.read_writes_eq_canon _ _ _ (cover2_8 _)

/-- The proof data of this region on core `c`: the windows' arrays are `V`'s; after the body at point `t` an input's buffer holds
    its block and an output's holds `out2_w` of the input blocks; the invariant is the pipeline library's plain one (the scoped
    rest and the generator register, untouched); nothing is owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
    | ⟨8, _⟩ => out2_8 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]
theorem after2_8 (c : Dev nD) (t : Fin cfg2.N) : (dat2 V c).after 8 t = out2_8 (iblk2 V c 0 t) (iblk2 V c 1 t) (iblk2 V c 2 t) (iblk2 V c 3 t) (iblk2 V c 4 t) (iblk2 V c 5 t) (iblk2 V c 6 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

/-- The body at any grid point: the inputs' memrefs hold their blocks, so `sound_kernel2` applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ (grid2.coords t) _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.BReg3.lean ====
/-
  Region 3 of the program's thirteen kernel regions (the body `cc3__gin_kernel_plain`): what its proof data are, at an
  arbitrary valuation `V` of the TensorCore's buffers at the region's entry.  Each window's block at a grid point is read
  off the window's array; the body loads whole blocks and overwrites each output block whole, so what it leaves in an
  output window's staging buffer is one rectangle piece holding the body's payload of the input blocks; the input
  buffers are left as found.  From this the body's Hoare triple (by symbolic execution of the skeleton) and the
  pipeline library's per-point obligation follow at every float instance.
-/
import proofs.«106875_j87694642250037_1_alg».proof.Proof.Gen.Kernel.Launch
import proofs.«106875_j87694642250037_1_alg».proof.Proof.Gen.Kernel.Skeleton
import proofs.«106875_j87694642250037_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds the window's block at every grid point, whether or not the block was fetched
    there (an unfetched point has the block index of the point before it), for any proof data on `V`'s arrays whose body
    leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- An input window's staging buffer holds the window's block at every grid point, whether or not the block was fetched
    there (an unfetched point has the block index of the point before it), for any proof data on `V`'s arrays whose body
    leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- An input window's staging buffer holds the window's block at every grid point, whether or not the block was fetched
    there (an unfetched point has the block index of the point before it), for any proof data on `V`'s arrays whose body
    leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- An input window's staging buffer holds the window's block at every grid point, whether or not the block was fetched
    there (an unfetched point has the block index of the point before it), for any proof data on `V`'s arrays whose body
    leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- An input window's staging buffer holds the window's block at every grid point, whether or not the block was fetched
    there (an unfetched point has the block index of the point before it), for any proof data on `V`'s arrays whose body
    leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- An input window's staging buffer holds the window's block at every grid point, whether or not the block was fetched
    there (an unfetched point has the block index of the point before it), for any proof data on `V`'s arrays whose body
    leaves the block in place. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- What the body leaves in output window 6's staging buffer, as a function of the input blocks: the block-sized rectangle
    holding the body's payload. -/
def out3_6 (x0 : Vec F S5000x128 .f32) (x1 : Vec F S5000x128 .f32) (x2 : Vec F S128x128 .f32) (x3 : Vec F S128 .f32) (x4 : Vec F S128x128 .f32) (x5 : Vec F S128 .f32) : Vec F S5000x128 .f32 :=
  View.canon [⟨Rect.unit (s := S5000x128) ![0, 0] S5000x128.size inb_S5000x128_S5000x128_0_0, k3_pay1 (View.ld x1 (Rect.unit (s := S5000x128) ![0, 0] S5000x128.size inb_S5000x128_S5000x128_0_0)) (View.ld x0 (Rect.unit (s := S5000x128) ![0, 0] S5000x128.size inb_S5000x128_S5000x128_0_0)) (View.ld x2 (Rect.unit (s := S128x128) ![0, 0] S128x128.size inb_S128x128_S128x128_0_0)) (View.ld x3 (Rect.unit (s := S128) ![0] S128.size inb_S128_S128_0)) (View.ld x4 (Rect.unit (s := S128x128) ![0, 0] S128x128.size inb_S128x128_S128x128_0_0)) (View.ld x5 (Rect.unit (s := S128) ![0] S128.size inb_S128_S128_0))⟩]

/-- That rectangle is the whole buffer. -/
theorem cover3_6 (p0 : Vec F S5000x128 .f32) (y : S5000x128.Idx) :
    ∃ pc ∈ ([⟨Rect.unit (s := S5000x128) ![0, 0] S5000x128.size inb_S5000x128_S5000x128_0_0, p0⟩] : List (View.Piece (Elt F) S5000x128 .f32)), y ∈ pc.1.set :=
  View.cover_of_tiled [⟨Rect.unit (s := S5000x128) ![0, 0] S5000x128.size inb_S5000x128_S5000x128_0_0, p0⟩] S5000x128.size (by rfl) y

set_option maxHeartbeats 4000000 in
/-- The body on whole staging memrefs — the inputs' at given contents, the outputs' at anything — runs to its continuation with
    the inputs' contents unchanged and each output's at `out3_w` of the inputs'. -/
theorem sound_kernel3 (c : Dev nD) (E : Set ℕ) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S5000x128 .f32) (harg7 : arg7.IsWhole)
    (x0 : Vec F S5000x128 .f32) (x1 : Vec F S5000x128 .f32) (x2 : Vec F S128x128 .f32) (x3 : Vec F S128 .f32) (x4 : Vec F S128x128 .f32) (x5 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out3_6 x0 x1 x2 x3 x4 x5)) -∗ K ⟨⟩))
      ⊢ wp frame (wpE (defs₀ (F := F)) Variants.none c none) E (cc3__gin_kernel_plain i arg1 harg1 arg2 harg2 arg3 harg3 arg4 harg4 arg5 harg5 arg6 harg6 arg7 harg7) K := by
  simp only [cc3__gin_kernel_plain_eq_skeleton]; unfold cc3__gin_kernel_plain_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

/-- The proof data of this region on core `c`: the windows' arrays are `V`'s; after the body at point `t` an input's buffer holds
    its block and an output's holds `out3_w` of the input blocks; the invariant is the pipeline library's plain one (the scoped
    rest and the generator register, untouched); nothing is owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-- What the body is called with at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any grid point: the inputs' memrefs hold their blocks, so `sound_kernel3` applies; the invariant and what the
    core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ (grid3.coords t) _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.BReg4.lean ====
/-
  Region 4 of the program's thirteen kernel regions (the body `cc4__gin_kernel_resid`): what its proof data are, at an
  arbitrary valuation `V` of the TensorCore's buffers at the region's entry.  Each window's block at a grid point is read
  off the window's array; the body loads whole blocks and overwrites each output block whole, so what it leaves in an
  output window's staging buffer is one rectangle piece holding the body's payload of the input blocks; the input
  buffers are left as found.  From this the body's Hoare triple (by symbolic execution of the skeleton) and the
  pipeline library's per-point obligation follow at every float instance.
-/
import proofs.«106875_j87694642250037_1_alg».proof.Proof.Gen.Kernel.Launch
import proofs.«106875_j87694642250037_1_alg».proof.Proof.Gen.Kernel.Skeleton
import proofs.«106875_j87694642250037_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's staging buffer holds the window's block at every grid point, whether or not the block was fetched
    there (an unfetched point has the block index of the point before it), for any proof data on `V`'s arrays whose body
    leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- An input window's staging buffer holds the window's block at every grid point, whether or not the block was fetched
    there (an unfetched point has the block index of the point before it), for any proof data on `V`'s arrays whose body
    leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- An input window's staging buffer holds the window's block at every grid point, whether or not the block was fetched
    there (an unfetched point has the block index of the point before it), for any proof data on `V`'s arrays whose body
    leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- An input window's staging buffer holds the window's block at every grid point, whether or not the block was fetched
    there (an unfetched point has the block index of the point before it), for any proof data on `V`'s arrays whose body
    leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
/-- An input window's staging buffer holds the window's block at every grid point, whether or not the block was fetched
    there (an unfetched point has the block index of the point before it), for any proof data on `V`'s arrays whose body
    leaves the block in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
/-- An input window's staging buffer holds the window's block at every grid point, whether or not the block was fetched
    there (an unfetched point has the block index of the point before it), for any proof data on `V`'s arrays whose body
    leaves the block in place. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)
/-- An input window's staging buffer holds the window's block at every grid point, whether or not the block was fetched
    there (an unfetched point has the block index of the point before it), for any proof data on `V`'s arrays whose body
    leaves the block in place. -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-- What the body leaves in output window 7's staging buffer, as a function of the input blocks: the block-sized rectangle
    holding the body's payload. -/
def out4_7 (x0 : Vec F S5000x128 .f32) (x1 : Vec F S5000x128 .f32) (x2 : Vec F S5000x128 .f32) (x3 : Vec F S128x128 .f32) (x4 : Vec F S128 .f32) (x5 : Vec F S128x128 .f32) (x6 : Vec F S128 .f32) : Vec F S5000x128 .f32 :=
  View.canon [⟨Rect.unit (s := S5000x128) ![0, 0] S5000x128.size inb_S5000x128_S5000x128_0_0, k4_pay2 (View.ld x1 (Rect.unit (s := S5000x128) ![0, 0] S5000x128.size inb_S5000x128_S5000x128_0_0)) (View.ld x0 (Rect.unit (s := S5000x128) ![0, 0] S5000x128.size inb_S5000x128_S5000x128_0_0)) (View.ld x3 (Rect.unit (s := S128x128) ![0, 0] S128x128.size inb_S128x128_S128x128_0_0)) (View.ld x4 (Rect.unit (s := S128) ![0] S128.size inb_S128_S128_0)) (View.ld x5 (Rect.unit (s := S128x128) ![0, 0] S128x128.size inb_S128x128_S128x128_0_0)) (View.ld x6 (Rect.unit (s := S128) ![0] S128.size inb_S128_S128_0)) (View.ld x2 (Rect.unit (s := S5000x128) ![0, 0] S5000x128.size inb_S5000x128_S5000x128_0_0))⟩]

/-- That rectangle is the whole buffer. -/
theorem cover4_7 (p0 : Vec F S5000x128 .f32) (y : S5000x128.Idx) :
    ∃ pc ∈ ([⟨Rect.unit (s := S5000x128) ![0, 0] S5000x128.size inb_S5000x128_S5000x128_0_0, p0⟩] : List (View.Piece (Elt F) S5000x128 .f32)), y ∈ pc.1.set :=
  View.cover_of_tiled [⟨Rect.unit (s := S5000x128) ![0, 0] S5000x128.size inb_S5000x128_S5000x128_0_0, p0⟩] S5000x128.size (by rfl) y

/-- What the body leaves in output window 8's staging buffer, as a function of the input blocks: the block-sized rectangle
    holding the body's payload. -/
def out4_8 (x0 : Vec F S5000x128 .f32) (x1 : Vec F S5000x128 .f32) (x2 : Vec F S5000x128 .f32) (x3 : Vec F S128x128 .f32) (x4 : Vec F S128 .f32) (x5 : Vec F S128x128 .f32) (x6 : Vec F S128 .f32) : Vec F S5000x128 .f32 :=
  View.canon [⟨Rect.unit (s := S5000x128) ![0, 0] S5000x128.size inb_S5000x128_S5000x128_0_0, k4_pay1 (View.ld x1 (Rect.unit (s := S5000x128) ![0, 0] S5000x128.size inb_S5000x128_S5000x128_0_0)) (View.ld x0 (Rect.unit (s := S5000x128) ![0, 0] S5000x128.size inb_S5000x128_S5000x128_0_0)) (View.ld x3 (Rect.unit (s := S128x128) ![0, 0] S128x128.size inb_S128x128_S128x128_0_0)) (View.ld x4 (Rect.unit (s := S128) ![0] S128.size inb_S128_S128_0)) (View.ld x5 (Rect.unit (s := S128x128) ![0, 0] S128x128.size inb_S128x128_S128x128_0_0)) (View.ld x6 (Rect.unit (s := S128) ![0] S128.size inb_S128_S128_0)) (View.ld x2 (Rect.unit (s := S5000x128) ![0, 0] S5000x128.size inb_S5000x128_S5000x128_0_0))⟩]

/-- That rectangle is the whole buffer. -/
theorem cover4_8 (p0 : Vec F S5000x128 .f32) (y : S5000x128.Idx) :
    ∃ pc ∈ ([⟨Rect.unit (s := S5000x128) ![0, 0] S5000x128.size inb_S5000x128_S5000x128_0_0, p0⟩] : List (View.Piece (Elt F) S5000x128 .f32)), y ∈ pc.1.set :=
  View.cover_of_tiled [⟨Rect.unit (s := S5000x128) ![0, 0] S5000x128.size inb_S5000x128_S5000x128_0_0, p0⟩] S5000x128.size (by rfl) y

set_option maxHeartbeats 4000000 in
/-- The body on whole staging memrefs — the inputs' at given contents, the outputs' at anything — runs to its continuation with
    the inputs' contents unchanged and each output's at `out4_w` of the inputs'. -/
theorem sound_kernel4 (c : Dev nD) (E : Set ℕ) (i : grid4.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S5000x128 .f32) (harg8 : arg8.IsWhole) (arg9 : Memref sig .tc .vmem S5000x128 .f32) (harg9 : arg9.IsWhole)
    (x0 : Vec F S5000x128 .f32) (x1 : Vec F S5000x128 .f32) (x2 : Vec F S5000x128 .f32) (x3 : Vec F S128x128 .f32) (x4 : Vec F S128 .f32) (x5 : Vec F S128x128 .f32) (x6 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out4_7 x0 x1 x2 x3 x4 x5 x6) ∗ owns (c : Thread nD τ) arg9 fullShare (out4_8 x0 x1 x2 x3 x4 x5 x6)) -∗ K ⟨⟩))
      ⊢ wp frame (wpE (defs₀ (F := F)) Variants.none c none) E (cc4__gin_kernel_resid i arg1 harg1 arg2 harg2 arg3 harg3 arg4 harg4 arg5 harg5 arg6 harg6 arg7 harg7 arg8 harg8 arg9 harg9) K := by
  simp only [cc4__gin_kernel_resid_eq_skeleton]; unfold cc4__gin_kernel_resid_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover4_7 _)
  iexists _; isplitr
  swap; · iexact H8
  ipureintro
  exact View.read_writes_eq_canon _ _ _ (cover4_8 _)

/-- The proof data of this region on core `c`: the windows' arrays are `V`'s; after the body at point `t` an input's buffer holds
    its block and an output's holds `out4_w` of the input blocks; the invariant is the pipeline library's plain one (the scoped
    rest and the generator register, untouched); nothing is owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => out4_7 (iblk4 V c 0 t) (iblk4 V c 1 t) (iblk4 V c 2 t) (iblk4 V c 3 t) (iblk4 V c 4 t) (iblk4 V c 5 t) (iblk4 V c 6 t)
    | ⟨8, _⟩ => out4_8 (iblk4 V c 0 t) (iblk4 V c 1 t) (iblk4 V c 2 t) (iblk4 V c 3 t) (iblk4 V c 4 t) (iblk4 V c 5 t) (iblk4 V c 6 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = out4_7 (iblk4 V c 0 t) (iblk4 V c 1 t) (iblk4 V c 2 t) (iblk4 V c 3 t) (iblk4 V c 4 t) (iblk4 V c 5 t) (iblk4 V c 6 t) := by dsimp only [dat4]
theorem after4_8 (c : Dev nD) (t : Fin cfg4.N) : (dat4 V c).after 8 t = out4_8 (iblk4 V c 0 t) (iblk4 V c 1 t) (iblk4 V c 2 t) (iblk4 V c 3 t) (iblk4 V c 4 t) (iblk4 V c 5 t) (iblk4 V c 6 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d

/-- What the body is called with at point `t`, window by window, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t))

/-- The body at any grid point: the inputs' memrefs hold their blocks, so `sound_kernel4` applies; the invariant and what the
    core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel4 c Set.univ (grid4.coords t) _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.BReg5.lean ====
/-
  Region 5 of the program's thirteen kernel regions (the body `cc5__post_kernel`): what its proof data are, at an
  arbitrary valuation `V` of the TensorCore's buffers at the region's entry.  Each window's block at a grid point is read
  off the window's array; the body loads whole blocks and overwrites each output block whole, so what it leaves in an
  output window's staging buffer is one rectangle piece holding the body's payload of the input blocks; the input
  buffers are left as found.  From this the body's Hoare triple (by symbolic execution of the skeleton) and the
  pipeline library's per-point obligation follow at every float instance.
-/
import proofs.«106875_j87694642250037_1_alg».proof.Proof.Gen.Kernel.Launch
import proofs.«106875_j87694642250037_1_alg».proof.Proof.Gen.Kernel.Skeleton
import proofs.«106875_j87694642250037_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's staging buffer holds the window's block at every grid point, whether or not the block was fetched
    there (an unfetched point has the block index of the point before it), for any proof data on `V`'s arrays whose body
    leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- An input window's staging buffer holds the window's block at every grid point, whether or not the block was fetched
    there (an unfetched point has the block index of the point before it), for any proof data on `V`'s arrays whose body
    leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- An input window's staging buffer holds the window's block at every grid point, whether or not the block was fetched
    there (an unfetched point has the block index of the point before it), for any proof data on `V`'s arrays whose body
    leaves the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- An input window's staging buffer holds the window's block at every grid point, whether or not the block was fetched
    there (an unfetched point has the block index of the point before it), for any proof data on `V`'s arrays whose body
    leaves the block in place. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
/-- An input window's staging buffer holds the window's block at every grid point, whether or not the block was fetched
    there (an unfetched point has the block index of the point before it), for any proof data on `V`'s arrays whose body
    leaves the block in place. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- What the body leaves in output window 5's staging buffer, as a function of the input blocks: the block-sized rectangle
    holding the body's payload. -/
def out5_5 (x0 : Vec F S200x640 .f32) (x1 : Vec F S640x128 .f32) (x2 : Vec F S128 .f32) (x3 : Vec F S128x128 .f32) (x4 : Vec F S128 .f32) : Vec F S200x128 .f32 :=
  View.canon [⟨Rect.unit (s := S200x128) ![0, 0] S200x128.size inb_S200x128_S200x128_0_0, k5_pay1 (View.ld x0 (Rect.unit (s := S200x640) ![0, 0] S200x640.size inb_S200x640_S200x640_0_0)) (View.ld x1 (Rect.unit (s := S640x128) ![0, 0] S640x128.size inb_S640x128_S640x128_0_0)) (View.ld x2 (Rect.unit (s := S128) ![0] S128.size inb_S128_S128_0)) (View.ld x3 (Rect.unit (s := S128x128) ![0, 0] S128x128.size inb_S128x128_S128x128_0_0)) (View.ld x4 (Rect.unit (s := S128) ![0] S128.size inb_S128_S128_0))⟩]

/-- That rectangle is the whole buffer. -/
theorem cover5_5 (p0 : Vec F S200x128 .f32) (y : S200x128.Idx) :
    ∃ pc ∈ ([⟨Rect.unit (s := S200x128) ![0, 0] S200x128.size inb_S200x128_S200x128_0_0, p0⟩] : List (View.Piece (Elt F) S200x128 .f32)), y ∈ pc.1.set :=
  View.cover_of_tiled [⟨Rect.unit (s := S200x128) ![0, 0] S200x128.size inb_S200x128_S200x128_0_0, p0⟩] S200x128.size (by rfl) y

set_option maxHeartbeats 4000000 in
/-- The body on whole staging memrefs — the inputs' at given contents, the outputs' at anything — runs to its continuation with
    the inputs' contents unchanged and each output's at `out5_w` of the inputs'. -/
theorem sound_kernel5 (c : Dev nD) (E : Set ℕ) (i : grid5.Coords) (arg1 : Memref sig .tc .vmem S200x640 .f32) (harg1 : arg1.IsWhole) (arg2 : Memref sig .tc .vmem S640x128 .f32) (harg2 : arg2.IsWhole) (arg3 : Memref sig .tc .vmem S128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S200x128 .f32) (harg6 : arg6.IsWhole)
    (x0 : Vec F S200x640 .f32) (x1 : Vec F S640x128 .f32) (x2 : Vec F S128 .f32) (x3 : Vec F S128x128 .f32) (x4 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5__post_kernel i arg1 harg1 arg2 harg2 arg3 harg3 arg4 harg4 arg5 harg5 arg6 harg6) K := by
  simp only [cc5__post_kernel_eq_skeleton]; unfold cc5__post_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-- The proof data of this region on core `c`: the windows' arrays are `V`'s; after the body at point `t` an input's buffer holds
    its block and an output's holds `out5_w` of the input blocks; the invariant is the pipeline library's plain one (the scoped
    rest and the generator register, untouched); nothing is owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-- What the body is called with at point `t`, window by window, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any grid point: the inputs' memrefs hold their blocks, so `sound_kernel5` applies; the invariant and what the
    core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.BReg6.lean ====
/-
  Region 6 of the program's thirteen kernel regions (the body `cc6__pre_kernel`): what its proof data are, at an
  arbitrary valuation `V` of the TensorCore's buffers at the region's entry.  Each window's block at a grid point is read
  off the window's array; the body loads whole blocks and overwrites each output block whole, so what it leaves in an
  output window's staging buffer is one rectangle piece holding the body's payload of the input blocks; the input
  buffers are left as found.  From this the body's Hoare triple (by symbolic execution of the skeleton) and the
  pipeline library's per-point obligation follow at every float instance.
-/
import proofs.«106875_j87694642250037_1_alg».proof.Proof.Gen.Kernel.Launch
import proofs.«106875_j87694642250037_1_alg».proof.Proof.Gen.Kernel.Skeleton
import proofs.«106875_j87694642250037_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's staging buffer holds the window's block at every grid point, whether or not the block was fetched
    there (an unfetched point has the block index of the point before it), for any proof data on `V`'s arrays whose body
    leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- An input window's staging buffer holds the window's block at every grid point, whether or not the block was fetched
    there (an unfetched point has the block index of the point before it), for any proof data on `V`'s arrays whose body
    leaves the block in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
/-- An input window's staging buffer holds the window's block at every grid point, whether or not the block was fetched
    there (an unfetched point has the block index of the point before it), for any proof data on `V`'s arrays whose body
    leaves the block in place. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- What the body leaves in output window 3's staging buffer, as a function of the input blocks: the block-sized rectangle
    holding the body's payload. -/
def out6_3 (x0 : Vec F S5000x32 .f32) (x1 : Vec F S32x128 .f32) (x2 : Vec F S128 .f32) : Vec F S5000x128 .f32 :=
  View.canon [⟨Rect.unit (s := S5000x128) ![0, 0] S5000x128.size inb_S5000x128_S5000x128_0_0, k6_pay1 (View.ld x0 (Rect.unit (s := S5000x32) ![0, 0] S5000x32.size inb_S5000x32_S5000x32_0_0)) (View.ld x1 (Rect.unit (s := S32x128) ![0, 0] S32x128.size inb_S32x128_S32x128_0_0)) (View.ld x2 (Rect.unit (s := S128) ![0] S128.size inb_S128_S128_0))⟩]

/-- That rectangle is the whole buffer. -/
theorem cover6_3 (p0 : Vec F S5000x128 .f32) (y : S5000x128.Idx) :
    ∃ pc ∈ ([⟨Rect.unit (s := S5000x128) ![0, 0] S5000x128.size inb_S5000x128_S5000x128_0_0, p0⟩] : List (View.Piece (Elt F) S5000x128 .f32)), y ∈ pc.1.set :=
  View.cover_of_tiled [⟨Rect.unit (s := S5000x128) ![0, 0] S5000x128.size inb_S5000x128_S5000x128_0_0, p0⟩] S5000x128.size (by rfl) y

set_option maxHeartbeats 4000000 in
/-- The body on whole staging memrefs — the inputs' at given contents, the outputs' at anything — runs to its continuation with
    the inputs' contents unchanged and each output's at `out6_w` of the inputs'. -/
theorem sound_kernel6 (c : Dev nD) (E : Set ℕ) (i : grid6.Coords) (arg1 : Memref sig .tc .vmem S5000x32 .f32) (harg1 : arg1.IsWhole) (arg2 : Memref sig .tc .vmem S32x128 .f32) (harg2 : arg2.IsWhole) (arg3 : Memref sig .tc .vmem S128 .f32) (harg3 : arg3.IsWhole) (arg4 : Memref sig .tc .vmem S5000x128 .f32) (harg4 : arg4.IsWhole)
    (x0 : Vec F S5000x32 .f32) (x1 : Vec F S32x128 .f32) (x2 : Vec F S128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out6_3 x0 x1 x2)) -∗ K ⟨⟩))
      ⊢ wp frame (wpE (defs₀ (F := F)) Variants.none c none) E (cc6__pre_kernel i arg1 harg1 arg2 harg2 arg3 harg3 arg4 harg4) K := by
  simp only [cc6__pre_kernel_eq_skeleton]; unfold cc6__pre_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-- The proof data of this region on core `c`: the windows' arrays are `V`'s; after the body at point `t` an input's buffer holds
    its block and an output's holds `out6_w` of the input blocks; the invariant is the pipeline library's plain one (the scoped
    rest and the generator register, untouched); nothing is owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- What the body is called with at point `t`, window by window, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any grid point: the inputs' memrefs hold their blocks, so `sound_kernel6` applies; the invariant and what the
    core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ (grid6.coords t) _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.BReg7.lean ====
/-
  Region 7 of the program's thirteen kernel regions (the body `cc7__gin_kernel_plain`): what its proof data are, at an
  arbitrary valuation `V` of the TensorCore's buffers at the region's entry.  Each window's block at a grid point is read
  off the window's array; the body loads whole blocks and overwrites each output block whole, so what it leaves in an
  output window's staging buffer is one rectangle piece holding the body's payload of the input blocks; the input
  buffers are left as found.  From this the body's Hoare triple (by symbolic execution of the skeleton) and the
  pipeline library's per-point obligation follow at every float instance.
-/
import proofs.«106875_j87694642250037_1_alg».proof.Proof.Gen.Kernel.Launch
import proofs.«106875_j87694642250037_1_alg».proof.Proof.Gen.Kernel.Skeleton
import proofs.«106875_j87694642250037_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's staging buffer holds the window's block at every grid point, whether or not the block was fetched
    there (an unfetched point has the block index of the point before it), for any proof data on `V`'s arrays whose body
    leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
/-- An input window's staging buffer holds the window's block at every grid point, whether or not the block was fetched
    there (an unfetched point has the block index of the point before it), for any proof data on `V`'s arrays whose body
    leaves the block in place. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
/-- An input window's staging buffer holds the window's block at every grid point, whether or not the block was fetched
    there (an unfetched point has the block index of the point before it), for any proof data on `V`'s arrays whose body
    leaves the block in place. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
/-- An input window's staging buffer holds the window's block at every grid point, whether or not the block was fetched
    there (an unfetched point has the block index of the point before it), for any proof data on `V`'s arrays whose body
    leaves the block in place. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)
/-- An input window's staging buffer holds the window's block at every grid point, whether or not the block was fetched
    there (an unfetched point has the block index of the point before it), for any proof data on `V`'s arrays whose body
    leaves the block in place. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)
/-- An input window's staging buffer holds the window's block at every grid point, whether or not the block was fetched
    there (an unfetched point has the block index of the point before it), for any proof data on `V`'s arrays whose body
    leaves the block in place. -/
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

/-- What the body leaves in output window 6's staging buffer, as a function of the input blocks: the block-sized rectangle
    holding the body's payload. -/
def out7_6 (x0 : Vec F S5000x128 .f32) (x1 : Vec F S5000x128 .f32) (x2 : Vec F S128x128 .f32) (x3 : Vec F S128 .f32) (x4 : Vec F S128x128 .f32) (x5 : Vec F S128 .f32) : Vec F S5000x128 .f32 :=
  View.canon [⟨Rect.unit (s := S5000x128) ![0, 0] S5000x128.size inb_S5000x128_S5000x128_0_0, k7_pay1 (View.ld x1 (Rect.unit (s := S5000x128) ![0, 0] S5000x128.size inb_S5000x128_S5000x128_0_0)) (View.ld x0 (Rect.unit (s := S5000x128) ![0, 0] S5000x128.size inb_S5000x128_S5000x128_0_0)) (View.ld x2 (Rect.unit (s := S128x128) ![0, 0] S128x128.size inb_S128x128_S128x128_0_0)) (View.ld x3 (Rect.unit (s := S128) ![0] S128.size inb_S128_S128_0)) (View.ld x4 (Rect.unit (s := S128x128) ![0, 0] S128x128.size inb_S128x128_S128x128_0_0)) (View.ld x5 (Rect.unit (s := S128) ![0] S128.size inb_S128_S128_0))⟩]

/-- That rectangle is the whole buffer. -/
theorem cover7_6 (p0 : Vec F S5000x128 .f32) (y : S5000x128.Idx) :
    ∃ pc ∈ ([⟨Rect.unit (s := S5000x128) ![0, 0] S5000x128.size inb_S5000x128_S5000x128_0_0, p0⟩] : List (View.Piece (Elt F) S5000x128 .f32)), y ∈ pc.1.set :=
  View.cover_of_tiled [⟨Rect.unit (s := S5000x128) ![0, 0] S5000x128.size inb_S5000x128_S5000x128_0_0, p0⟩] S5000x128.size (by rfl) y

set_option maxHeartbeats 4000000 in
/-- The body on whole staging memrefs — the inputs' at given contents, the outputs' at anything — runs to its continuation with
    the inputs' contents unchanged and each output's at `out7_w` of the inputs'. -/
theorem sound_kernel7 (c : Dev nD) (E : Set ℕ) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S5000x128 .f32) (harg7 : arg7.IsWhole)
    (x0 : Vec F S5000x128 .f32) (x1 : Vec F S5000x128 .f32) (x2 : Vec F S128x128 .f32) (x3 : Vec F S128 .f32) (x4 : Vec F S128x128 .f32) (x5 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out7_6 x0 x1 x2 x3 x4 x5)) -∗ K ⟨⟩))
      ⊢ wp frame (wpE (defs₀ (F := F)) Variants.none c none) E (cc7__gin_kernel_plain i arg1 harg1 arg2 harg2 arg3 harg3 arg4 harg4 arg5 harg5 arg6 harg6 arg7 harg7) K := by
  simp only [cc7__gin_kernel_plain_eq_skeleton]; unfold cc7__gin_kernel_plain_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover7_6 _)

/-- The proof data of this region on core `c`: the windows' arrays are `V`'s; after the body at point `t` an input's buffer holds
    its block and an output's holds `out7_w` of the input blocks; the invariant is the pipeline library's plain one (the scoped
    rest and the generator register, untouched); nothing is owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => out7_6 (iblk7 V c 0 t) (iblk7 V c 1 t) (iblk7 V c 2 t) (iblk7 V c 3 t) (iblk7 V c 4 t) (iblk7 V c 5 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = out7_6 (iblk7 V c 0 t) (iblk7 V c 1 t) (iblk7 V c 2 t) (iblk7 V c 3 t) (iblk7 V c 4 t) (iblk7 V c 5 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d

/-- What the body is called with at point `t`, window by window, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t))

/-- The body at any grid point: the inputs' memrefs hold their blocks, so `sound_kernel7` applies; the invariant and what the
    core owes pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel7 c Set.univ (grid7.coords t) _ _ _ _ _ _ _ _ _ _ _ _ _ _ (iblk7 V c 0 t) (iblk7 V c 1 t) (iblk7 V c 2 t) (iblk7 V c 3 t) (iblk7 V c 4 t) (iblk7 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.BReg8.lean ====
/-
  Region 8 of the program's thirteen kernel regions (the body `cc8__gin_kernel_resid`): what its proof data are, at an
  arbitrary valuation `V` of the TensorCore's buffers at the region's entry.  Each window's block at a grid point is read
  off the window's array; the body loads whole blocks and overwrites each output block whole, so what it leaves in an
  output window's staging buffer is one rectangle piece holding the body's payload of the input blocks; the input
  buffers are left as found.  From this the body's Hoare triple (by symbolic execution of the skeleton) and the
  pipeline library's per-point obligation follow at every float instance.
-/
import proofs.«106875_j87694642250037_1_alg».proof.Proof.Gen.Kernel.Launch
import proofs.«106875_j87694642250037_1_alg».proof.Proof.Gen.Kernel.Skeleton
import proofs.«106875_j87694642250037_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's staging buffer holds the window's block at every grid point, whether or not the block was fetched
    there (an unfetched point has the block index of the point before it), for any proof data on `V`'s arrays whose body
    leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
/-- An input window's staging buffer holds the window's block at every grid point, whether or not the block was fetched
    there (an unfetched point has the block index of the point before it), for any proof data on `V`'s arrays whose body
    leaves the block in place. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
/-- An input window's staging buffer holds the window's block at every grid point, whether or not the block was fetched
    there (an unfetched point has the block index of the point before it), for any proof data on `V`'s arrays whose body
    leaves the block in place. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)
/-- An input window's staging buffer holds the window's block at every grid point, whether or not the block was fetched
    there (an unfetched point has the block index of the point before it), for any proof data on `V`'s arrays whose body
    leaves the block in place. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)
/-- An input window's staging buffer holds the window's block at every grid point, whether or not the block was fetched
    there (an unfetched point has the block index of the point before it), for any proof data on `V`'s arrays whose body
    leaves the block in place. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)
/-- An input window's staging buffer holds the window's block at every grid point, whether or not the block was fetched
    there (an unfetched point has the block index of the point before it), for any proof data on `V`'s arrays whose body
    leaves the block in place. -/
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)
/-- An input window's staging buffer holds the window's block at every grid point, whether or not the block was fetched
    there (an unfetched point has the block index of the point before it), for any proof data on `V`'s arrays whose body
    leaves the block in place. -/
theorem before8_6_of {c : Dev nD} (dat : Dat τ (Elt F) Unit ℕ (UR sig nD τ) ℕ cfg8 c) (hA : dat.A 6 = V c (Pipeline.arrRef spec8 6))
    (hafter : ∀ t, dat.after 6 t = iblk8 V c 6 t) (t : Fin cfg8.N) (d) : dat.before 6 t d = iblk8 V c 6 t :=
  (dat.before_in_eq_fetched 6 rfl (fun _ => rfl) (fun _ _ _ => rfl) (fun t => by rw [hafter]; unfold Dat.blockOf iblk8; rw [hA]; try rfl) t d).trans
    (by unfold Dat.fetched Dat.blockOf iblk8; rw [hA]; try rfl)

/-- What the body leaves in output window 7's staging buffer, as a function of the input blocks: the block-sized rectangle
    holding the body's payload. -/
def out8_7 (x0 : Vec F S5000x128 .f32) (x1 : Vec F S5000x128 .f32) (x2 : Vec F S5000x128 .f32) (x3 : Vec F S128x128 .f32) (x4 : Vec F S128 .f32) (x5 : Vec F S128x128 .f32) (x6 : Vec F S128 .f32) : Vec F S5000x128 .f32 :=
  View.canon [⟨Rect.unit (s := S5000x128) ![0, 0] S5000x128.size inb_S5000x128_S5000x128_0_0, k8_pay2 (View.ld x1 (Rect.unit (s := S5000x128) ![0, 0] S5000x128.size inb_S5000x128_S5000x128_0_0)) (View.ld x0 (Rect.unit (s := S5000x128) ![0, 0] S5000x128.size inb_S5000x128_S5000x128_0_0)) (View.ld x3 (Rect.unit (s := S128x128) ![0, 0] S128x128.size inb_S128x128_S128x128_0_0)) (View.ld x4 (Rect.unit (s := S128) ![0] S128.size inb_S128_S128_0)) (View.ld x5 (Rect.unit (s := S128x128) ![0, 0] S128x128.size inb_S128x128_S128x128_0_0)) (View.ld x6 (Rect.unit (s := S128) ![0] S128.size inb_S128_S128_0)) (View.ld x2 (Rect.unit (s := S5000x128) ![0, 0] S5000x128.size inb_S5000x128_S5000x128_0_0))⟩]

/-- That rectangle is the whole buffer. -/
theorem cover8_7 (p0 : Vec F S5000x128 .f32) (y : S5000x128.Idx) :
    ∃ pc ∈ ([⟨Rect.unit (s := S5000x128) ![0, 0] S5000x128.size inb_S5000x128_S5000x128_0_0, p0⟩] : List (View.Piece (Elt F) S5000x128 .f32)), y ∈ pc.1.set :=
  View.cover_of_tiled [⟨Rect.unit (s := S5000x128) ![0, 0] S5000x128.size inb_S5000x128_S5000x128_0_0, p0⟩] S5000x128.size (by rfl) y

/-- What the body leaves in output window 8's staging buffer, as a function of the input blocks: the block-sized rectangle
    holding the body's payload. -/
def out8_8 (x0 : Vec F S5000x128 .f32) (x1 : Vec F S5000x128 .f32) (x2 : Vec F S5000x128 .f32) (x3 : Vec F S128x128 .f32) (x4 : Vec F S128 .f32) (x5 : Vec F S128x128 .f32) (x6 : Vec F S128 .f32) : Vec F S5000x128 .f32 :=
  View.canon [⟨Rect.unit (s := S5000x128) ![0, 0] S5000x128.size inb_S5000x128_S5000x128_0_0, k8_pay1 (View.ld x1 (Rect.unit (s := S5000x128) ![0, 0] S5000x128.size inb_S5000x128_S5000x128_0_0)) (View.ld x0 (Rect.unit (s := S5000x128) ![0, 0] S5000x128.size inb_S5000x128_S5000x128_0_0)) (View.ld x3 (Rect.unit (s := S128x128) ![0, 0] S128x128.size inb_S128x128_S128x128_0_0)) (View.ld x4 (Rect.unit (s := S128) ![0] S128.size inb_S128_S128_0)) (View.ld x5 (Rect.unit (s := S128x128) ![0, 0] S128x128.size inb_S128x128_S128x128_0_0)) (View.ld x6 (Rect.unit (s := S128) ![0] S128.size inb_S128_S128_0)) (View.ld x2 (Rect.unit (s := S5000x128) ![0, 0] S5000x128.size inb_S5000x128_S5000x128_0_0))⟩]

/-- That rectangle is the whole buffer. -/
theorem cover8_8 (p0 : Vec F S5000x128 .f32) (y : S5000x128.Idx) :
    ∃ pc ∈ ([⟨Rect.unit (s := S5000x128) ![0, 0] S5000x128.size inb_S5000x128_S5000x128_0_0, p0⟩] : List (View.Piece (Elt F) S5000x128 .f32)), y ∈ pc.1.set :=
  View.cover_of_tiled [⟨Rect.unit (s := S5000x128) ![0, 0] S5000x128.size inb_S5000x128_S5000x128_0_0, p0⟩] S5000x128.size (by rfl) y

set_option maxHeartbeats 4000000 in
/-- The body on whole staging memrefs — the inputs' at given contents, the outputs' at anything — runs to its continuation with
    the inputs' contents unchanged and each output's at `out8_w` of the inputs'. -/
theorem sound_kernel8 (c : Dev nD) (E : Set ℕ) (i : grid8.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S5000x128 .f32) (harg8 : arg8.IsWhole) (arg9 : Memref sig .tc .vmem S5000x128 .f32) (harg9 : arg9.IsWhole)
    (x0 : Vec F S5000x128 .f32) (x1 : Vec F S5000x128 .f32) (x2 : Vec F S5000x128 .f32) (x3 : Vec F S128x128 .f32) (x4 : Vec F S128 .f32) (x5 : Vec F S128x128 .f32) (x6 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out8_7 x0 x1 x2 x3 x4 x5 x6) ∗ owns (c : Thread nD τ) arg9 fullShare (out8_8 x0 x1 x2 x3 x4 x5 x6)) -∗ K ⟨⟩))
      ⊢ wp frame (wpE (defs₀ (F := F)) Variants.none c none) E (cc8__gin_kernel_resid i arg1 harg1 arg2 harg2 arg3 harg3 arg4 harg4 arg5 harg5 arg6 harg6 arg7 harg7 arg8 harg8 arg9 harg9) K := by
  simp only [cc8__gin_kernel_resid_eq_skeleton]; unfold cc8__gin_kernel_resid_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover8_7 _)
  iexists _; isplitr
  swap; · iexact H8
  ipureintro
  exact View.read_writes_eq_canon _ _ _ (cover8_8 _)

/-- The proof data of this region on core `c`: the windows' arrays are `V`'s; after the body at point `t` an input's buffer holds
    its block and an output's holds `out8_w` of the input blocks; the invariant is the pipeline library's plain one (the scoped
    rest and the generator register, untouched); nothing is owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => out8_7 (iblk8 V c 0 t) (iblk8 V c 1 t) (iblk8 V c 2 t) (iblk8 V c 3 t) (iblk8 V c 4 t) (iblk8 V c 5 t) (iblk8 V c 6 t)
    | ⟨8, _⟩ => out8_8 (iblk8 V c 0 t) (iblk8 V c 1 t) (iblk8 V c 2 t) (iblk8 V c 3 t) (iblk8 V c 4 t) (iblk8 V c 5 t) (iblk8 V c 6 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = iblk8 V c 6 t := by dsimp only [dat8]
theorem after8_7 (c : Dev nD) (t : Fin cfg8.N) : (dat8 V c).after 7 t = out8_7 (iblk8 V c 0 t) (iblk8 V c 1 t) (iblk8 V c 2 t) (iblk8 V c 3 t) (iblk8 V c 4 t) (iblk8 V c 5 t) (iblk8 V c 6 t) := by dsimp only [dat8]
theorem after8_8 (c : Dev nD) (t : Fin cfg8.N) : (dat8 V c).after 8 t = out8_8 (iblk8 V c 0 t) (iblk8 V c 1 t) (iblk8 V c 2 t) (iblk8 V c 3 t) (iblk8 V c 4 t) (iblk8 V c 5 t) (iblk8 V c 6 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d
theorem before8_6 (c : Dev nD) (t : Fin cfg8.N) (d) : (dat8 V c).before 6 t d = iblk8 V c 6 t :=
  before8_6_of V (dat8 V c) (A_eq8 V c 6) (after8_6 V c) t d

/-- What the body is called with at point `t`, window by window, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d))
    ∗ (∃ d, owns (c : Thread nD τ) (st8_7 t) fullShare ((dat8 V c).before 7 t d))
    ∗ (∃ d, owns (c : Thread nD τ) (st8_8 t) fullShare ((dat8 V c).before 8 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t)
    ∗ owns (c : Thread nD τ) (st8_7 t) fullShare ((dat8 V c).after 7 t)
    ∗ owns (c : Thread nD τ) (st8_8 t) fullShare ((dat8 V c).after 8 t))

/-- The body at any grid point: the inputs' memrefs hold their blocks, so `sound_kernel8` applies; the invariant and what the
    core owes pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5, before8_6]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6, after8_7, after8_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel8 c Set.univ (grid8.coords t) _ _ _ _ _ _ _ _ _ _ _ _ _ _ _ _ _ _ (iblk8 V c 0 t) (iblk8 V c 1 t) (iblk8 V c 2 t) (iblk8 V c 3 t) (iblk8 V c 4 t) (iblk8 V c 5 t) (iblk8 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline library's body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Hand

end
-- ==== Proof.BReg9.lean ====
/-
  Region 9 of the program's thirteen kernel regions (the body `cc9__gin_kernel_plain`): what its proof data are, at an
  arbitrary valuation `V` of the TensorCore's buffers at the region's entry.  Each window's block at a grid point is read
  off the window's array; the body loads whole blocks and overwrites each output block whole, so what it leaves in an
  output window's staging buffer is one rectangle piece holding the body's payload of the input blocks; the input
  buffers are left as found.  From this the body's Hoare triple (by symbolic execution of the skeleton) and the
  pipeline library's per-point obligation follow at every float instance.
-/
import proofs.«106875_j87694642250037_1_alg».proof.Proof.Gen.Kernel.Launch
import proofs.«106875_j87694642250037_1_alg».proof.Proof.Gen.Kernel.Skeleton
import proofs.«106875_j87694642250037_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- An input window's staging buffer holds the window's block at every grid point, whether or not the block was fetched
    there (an unfetched point has the block index of the point before it), for any proof data on `V`'s arrays whose body
    leaves the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
/-- An input window's staging buffer holds the window's block at every grid point, whether or not the block was fetched
    there (an unfetched point has the block index of the point before it), for any proof data on `V`'s arrays whose body
    leaves the block in place. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
/-- An input window's staging buffer holds the window's block at every grid point, whether or not the block was fetched
    there (an unfetched point has the block index of the point before it), for any proof data on `V`'s arrays whose body
    leaves the block in place. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)
/-- An input window's staging buffer holds the window's block at every grid point, whether or not the block was fetched
    there (an unfetched point has the block index of the point before it), for any proof data on `V`'s arrays whose body
    leaves the block in place. -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)
/-- An input window's staging buffer holds the window's block at every grid point, whether or not the block was fetched
    there (an unfetched point has the block index of the point before it), for any proof data on `V`'s arrays whose body
    leaves the block in place. -/
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)
/-- An input window's staging buffer holds the window's block at every grid point, whether or not the block was fetched
    there (an unfetched point has the block index of the point before it), for any proof data on `V`'s arrays whose body
    leaves the block in place. -/
theorem before9_5_of {c : Dev nD} (dat : Dat τ (Elt F) Unit ℕ (UR sig nD τ) ℕ cfg9 c) (hA : dat.A 5 = V c (Pipeline.arrRef spec9 5))
    (hafter : ∀ t, dat.after 5 t = iblk9 V c 5 t) (t : Fin cfg9.N) (d) : dat.before 5 t d = iblk9 V c 5 t :=
  (dat.before_in_eq_fetched 5 rfl (fun _ => rfl) (fun _ _ _ => rfl) (fun t => by rw [hafter]; unfold Dat.blockOf iblk9; rw [hA]; try rfl) t d).trans
    (by unfold Dat.fetched Dat.blockOf iblk9; rw [hA]; try rfl)

/-- What the body leaves in output window 6's staging buffer, as a function of the input blocks: the block-sized rectangle
    holding the body's payload. -/
def out9_6 (x0 : Vec F S5000x128 .f32) (x1 : Vec F S5000x128 .f32) (x2 : Vec F S128x128 .f32) (x3 : Vec F S128 .f32) (x4 : Vec F S128x128 .f32) (x5 : Vec F S128 .f32) : Vec F S5000x128 .f32 :=
  View.canon [⟨Rect.unit (s := S5000x128) ![0, 0] S5000x128.size inb_S5000x128_S5000x128_0_0, k9_pay1 (View.ld x1 (Rect.unit (s := S5000x128) ![0, 0] S5000x128.size inb_S5000x128_S5000x128_0_0)) (View.ld x0 (Rect.unit (s := S5000x128) ![0, 0] S5000x128.size inb_S5000x128_S5000x128_0_0)) (View.ld x2 (Rect.unit (s := S128x128) ![0, 0] S128x128.size inb_S128x128_S128x128_0_0)) (View.ld x3 (Rect.unit (s := S128) ![0] S128.size inb_S128_S128_0)) (View.ld x4 (Rect.unit (s := S128x128) ![0, 0] S128x128.size inb_S128x128_S128x128_0_0)) (View.ld x5 (Rect.unit (s := S128) ![0] S128.size inb_S128_S128_0))⟩]

/-- That rectangle is the whole buffer. -/
theorem cover9_6 (p0 : Vec F S5000x128 .f32) (y : S5000x128.Idx) :
    ∃ pc ∈ ([⟨Rect.unit (s := S5000x128) ![0, 0] S5000x128.size inb_S5000x128_S5000x128_0_0, p0⟩] : List (View.Piece (Elt F) S5000x128 .f32)), y ∈ pc.1.set :=
  View.cover_of_tiled [⟨Rect.unit (s := S5000x128) ![0, 0] S5000x128.size inb_S5000x128_S5000x128_0_0, p0⟩] S5000x128.size (by rfl) y

set_option maxHeartbeats 4000000 in
/-- The body on whole staging memrefs — the inputs' at given contents, the outputs' at anything — runs to its continuation with
    the inputs' contents unchanged and each output's at `out9_w` of the inputs'. -/
theorem sound_kernel9 (c : Dev nD) (E : Set ℕ) (i : grid9.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S5000x128 .f32) (harg7 : arg7.IsWhole)
    (x0 : Vec F S5000x128 .f32) (x1 : Vec F S5000x128 .f32) (x2 : Vec F S128x128 .f32) (x3 : Vec F S128 .f32) (x4 : Vec F S128x128 .f32) (x5 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out9_6 x0 x1 x2 x3 x4 x5)) -∗ K ⟨⟩))
      ⊢ wp frame (wpE (defs₀ (F := F)) Variants.none c none) E (cc9__gin_kernel_plain i arg1 harg1 arg2 harg2 arg3 harg3 arg4 harg4 arg5 harg5 arg6 harg6 arg7 harg7) K := by
  simp only [cc9__gin_kernel_plain_eq_skeleton]; unfold cc9__gin_kernel_plain_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover9_6 _)

/-- The proof data of this region on core `c`: the windows' arrays are `V`'s; after the body at point `t` an input's buffer holds
    its block and an output's holds `out9_w` of the input blocks; the invariant is the pipeline library's plain one (the scoped
    rest and the generator register, untouched); nothing is owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => out9_6 (iblk9 V c 0 t) (iblk9 V c 1 t) (iblk9 V c 2 t) (iblk9 V c 3 t) (iblk9 V c 4 t) (iblk9 V c 5 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = iblk9 V c 5 t := by dsimp only [dat9]
theorem after9_6 (c : Dev nD) (t : Fin cfg9.N) : (dat9 V c).after 6 t = out9_6 (iblk9 V c 0 t) (iblk9 V c 1 t) (iblk9 V c 2 t) (iblk9 V c 3 t) (iblk9 V c 4 t) (iblk9 V c 5 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d
theorem before9_5 (c : Dev nD) (t : Fin cfg9.N) (d) : (dat9 V c).before 5 t d = iblk9 V c 5 t :=
  before9_5_of V (dat9 V c) (A_eq9 V c 5) (after9_5 V c) t d

/-- What the body is called with at point `t`, window by window, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d))
    ∗ (∃ d, owns (c : Thread nD τ) (st9_6 t) fullShare ((dat9 V c).before 6 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t)
    ∗ owns (c : Thread nD τ) (st9_6 t) fullShare ((dat9 V c).after 6 t))

/-- The body at any grid point: the inputs' memrefs hold their blocks, so `sound_kernel9` applies; the invariant and what the
    core owes pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4, before9_5]
  rw [show (dat9 V c).Φ t.succ = (dat9 V c).Φ t.castSucc from rfl,
    show (dat9 V c).owesAt () t.succ = (dat9 V c).owesAt () t.castSucc from rfl,
    after9_0, after9_1, after9_2, after9_3, after9_4, after9_5, after9_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel9 c Set.univ (grid9.coords t) _ _ _ _ _ _ _ _ _ _ _ _ _ _ (iblk9 V c 0 t) (iblk9 V c 1 t) (iblk9 V c 2 t) (iblk9 V c 3 t) (iblk9 V c 4 t) (iblk9 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline library's body obligation, at every point. -/
theorem body_obligation9 (c : Dev nD) : BodyObligation (dat9 (F := F) V c) (defs₀ (F := F)) Variants.none () Set.univ := fun t => by
  rw [bigSep_W9, bigSep_W9]
  exact sound_body9 V c t

end Cert.Kernel.Hand

end
-- ==== Proof.BReg10.lean ====
/-
  Region 10 of the program's thirteen kernel regions (the body `cc10__gin_kernel_resid`): what its proof data are, at an
  arbitrary valuation `V` of the TensorCore's buffers at the region's entry.  Each window's block at a grid point is read
  off the window's array; the body loads whole blocks and overwrites each output block whole, so what it leaves in an
  output window's staging buffer is one rectangle piece holding the body's payload of the input blocks; the input
  buffers are left as found.  From this the body's Hoare triple (by symbolic execution of the skeleton) and the
  pipeline library's per-point obligation follow at every float instance.
-/
import proofs.«106875_j87694642250037_1_alg».proof.Proof.Gen.Kernel.Launch
import proofs.«106875_j87694642250037_1_alg».proof.Proof.Gen.Kernel.Skeleton
import proofs.«106875_j87694642250037_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- An input window's staging buffer holds the window's block at every grid point, whether or not the block was fetched
    there (an unfetched point has the block index of the point before it), for any proof data on `V`'s arrays whose body
    leaves the block in place. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
/-- An input window's staging buffer holds the window's block at every grid point, whether or not the block was fetched
    there (an unfetched point has the block index of the point before it), for any proof data on `V`'s arrays whose body
    leaves the block in place. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)
/-- An input window's staging buffer holds the window's block at every grid point, whether or not the block was fetched
    there (an unfetched point has the block index of the point before it), for any proof data on `V`'s arrays whose body
    leaves the block in place. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)
/-- An input window's staging buffer holds the window's block at every grid point, whether or not the block was fetched
    there (an unfetched point has the block index of the point before it), for any proof data on `V`'s arrays whose body
    leaves the block in place. -/
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)
/-- An input window's staging buffer holds the window's block at every grid point, whether or not the block was fetched
    there (an unfetched point has the block index of the point before it), for any proof data on `V`'s arrays whose body
    leaves the block in place. -/
theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)
/-- An input window's staging buffer holds the window's block at every grid point, whether or not the block was fetched
    there (an unfetched point has the block index of the point before it), for any proof data on `V`'s arrays whose body
    leaves the block in place. -/
theorem before10_5_of {c : Dev nD} (dat : Dat τ (Elt F) Unit ℕ (UR sig nD τ) ℕ cfg10 c) (hA : dat.A 5 = V c (Pipeline.arrRef spec10 5))
    (hafter : ∀ t, dat.after 5 t = iblk10 V c 5 t) (t : Fin cfg10.N) (d) : dat.before 5 t d = iblk10 V c 5 t :=
  (dat.before_in_eq_fetched 5 rfl (fun _ => rfl) (fun _ _ _ => rfl) (fun t => by rw [hafter]; unfold Dat.blockOf iblk10; rw [hA]; try rfl) t d).trans
    (by unfold Dat.fetched Dat.blockOf iblk10; rw [hA]; try rfl)
/-- An input window's staging buffer holds the window's block at every grid point, whether or not the block was fetched
    there (an unfetched point has the block index of the point before it), for any proof data on `V`'s arrays whose body
    leaves the block in place. -/
theorem before10_6_of {c : Dev nD} (dat : Dat τ (Elt F) Unit ℕ (UR sig nD τ) ℕ cfg10 c) (hA : dat.A 6 = V c (Pipeline.arrRef spec10 6))
    (hafter : ∀ t, dat.after 6 t = iblk10 V c 6 t) (t : Fin cfg10.N) (d) : dat.before 6 t d = iblk10 V c 6 t :=
  (dat.before_in_eq_fetched 6 rfl (fun _ => rfl) (fun _ _ _ => rfl) (fun t => by rw [hafter]; unfold Dat.blockOf iblk10; rw [hA]; try rfl) t d).trans
    (by unfold Dat.fetched Dat.blockOf iblk10; rw [hA]; try rfl)

/-- What the body leaves in output window 7's staging buffer, as a function of the input blocks: the block-sized rectangle
    holding the body's payload. -/
def out10_7 (x0 : Vec F S5000x128 .f32) (x1 : Vec F S5000x128 .f32) (x2 : Vec F S5000x128 .f32) (x3 : Vec F S128x128 .f32) (x4 : Vec F S128 .f32) (x5 : Vec F S128x128 .f32) (x6 : Vec F S128 .f32) : Vec F S5000x128 .f32 :=
  View.canon [⟨Rect.unit (s := S5000x128) ![0, 0] S5000x128.size inb_S5000x128_S5000x128_0_0, k10_pay2 (View.ld x1 (Rect.unit (s := S5000x128) ![0, 0] S5000x128.size inb_S5000x128_S5000x128_0_0)) (View.ld x0 (Rect.unit (s := S5000x128) ![0, 0] S5000x128.size inb_S5000x128_S5000x128_0_0)) (View.ld x3 (Rect.unit (s := S128x128) ![0, 0] S128x128.size inb_S128x128_S128x128_0_0)) (View.ld x4 (Rect.unit (s := S128) ![0] S128.size inb_S128_S128_0)) (View.ld x5 (Rect.unit (s := S128x128) ![0, 0] S128x128.size inb_S128x128_S128x128_0_0)) (View.ld x6 (Rect.unit (s := S128) ![0] S128.size inb_S128_S128_0)) (View.ld x2 (Rect.unit (s := S5000x128) ![0, 0] S5000x128.size inb_S5000x128_S5000x128_0_0))⟩]

/-- That rectangle is the whole buffer. -/
theorem cover10_7 (p0 : Vec F S5000x128 .f32) (y : S5000x128.Idx) :
    ∃ pc ∈ ([⟨Rect.unit (s := S5000x128) ![0, 0] S5000x128.size inb_S5000x128_S5000x128_0_0, p0⟩] : List (View.Piece (Elt F) S5000x128 .f32)), y ∈ pc.1.set :=
  View.cover_of_tiled [⟨Rect.unit (s := S5000x128) ![0, 0] S5000x128.size inb_S5000x128_S5000x128_0_0, p0⟩] S5000x128.size (by rfl) y

/-- What the body leaves in output window 8's staging buffer, as a function of the input blocks: the block-sized rectangle
    holding the body's payload. -/
def out10_8 (x0 : Vec F S5000x128 .f32) (x1 : Vec F S5000x128 .f32) (x2 : Vec F S5000x128 .f32) (x3 : Vec F S128x128 .f32) (x4 : Vec F S128 .f32) (x5 : Vec F S128x128 .f32) (x6 : Vec F S128 .f32) : Vec F S5000x128 .f32 :=
  View.canon [⟨Rect.unit (s := S5000x128) ![0, 0] S5000x128.size inb_S5000x128_S5000x128_0_0, k10_pay1 (View.ld x1 (Rect.unit (s := S5000x128) ![0, 0] S5000x128.size inb_S5000x128_S5000x128_0_0)) (View.ld x0 (Rect.unit (s := S5000x128) ![0, 0] S5000x128.size inb_S5000x128_S5000x128_0_0)) (View.ld x3 (Rect.unit (s := S128x128) ![0, 0] S128x128.size inb_S128x128_S128x128_0_0)) (View.ld x4 (Rect.unit (s := S128) ![0] S128.size inb_S128_S128_0)) (View.ld x5 (Rect.unit (s := S128x128) ![0, 0] S128x128.size inb_S128x128_S128x128_0_0)) (View.ld x6 (Rect.unit (s := S128) ![0] S128.size inb_S128_S128_0)) (View.ld x2 (Rect.unit (s := S5000x128) ![0, 0] S5000x128.size inb_S5000x128_S5000x128_0_0))⟩]

/-- That rectangle is the whole buffer. -/
theorem cover10_8 (p0 : Vec F S5000x128 .f32) (y : S5000x128.Idx) :
    ∃ pc ∈ ([⟨Rect.unit (s := S5000x128) ![0, 0] S5000x128.size inb_S5000x128_S5000x128_0_0, p0⟩] : List (View.Piece (Elt F) S5000x128 .f32)), y ∈ pc.1.set :=
  View.cover_of_tiled [⟨Rect.unit (s := S5000x128) ![0, 0] S5000x128.size inb_S5000x128_S5000x128_0_0, p0⟩] S5000x128.size (by rfl) y

set_option maxHeartbeats 4000000 in
/-- The body on whole staging memrefs — the inputs' at given contents, the outputs' at anything — runs to its continuation with
    the inputs' contents unchanged and each output's at `out10_w` of the inputs'. -/
theorem sound_kernel10 (c : Dev nD) (E : Set ℕ) (i : grid10.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S5000x128 .f32) (harg8 : arg8.IsWhole) (arg9 : Memref sig .tc .vmem S5000x128 .f32) (harg9 : arg9.IsWhole)
    (x0 : Vec F S5000x128 .f32) (x1 : Vec F S5000x128 .f32) (x2 : Vec F S5000x128 .f32) (x3 : Vec F S128x128 .f32) (x4 : Vec F S128 .f32) (x5 : Vec F S128x128 .f32) (x6 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out10_7 x0 x1 x2 x3 x4 x5 x6) ∗ owns (c : Thread nD τ) arg9 fullShare (out10_8 x0 x1 x2 x3 x4 x5 x6)) -∗ K ⟨⟩))
      ⊢ wp frame (wpE (defs₀ (F := F)) Variants.none c none) E (cc10__gin_kernel_resid i arg1 harg1 arg2 harg2 arg3 harg3 arg4 harg4 arg5 harg5 arg6 harg6 arg7 harg7 arg8 harg8 arg9 harg9) K := by
  simp only [cc10__gin_kernel_resid_eq_skeleton]; unfold cc10__gin_kernel_resid_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover10_7 _)
  iexists _; isplitr
  swap; · iexact H8
  ipureintro
  exact View.read_writes_eq_canon _ _ _ (cover10_8 _)

/-- The proof data of this region on core `c`: the windows' arrays are `V`'s; after the body at point `t` an input's buffer holds
    its block and an output's holds `out10_w` of the input blocks; the invariant is the pipeline library's plain one (the scoped
    rest and the generator register, untouched); nothing is owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => iblk10 V c 5 t
    | ⟨6, _⟩ => iblk10 V c 6 t
    | ⟨7, _⟩ => out10_7 (iblk10 V c 0 t) (iblk10 V c 1 t) (iblk10 V c 2 t) (iblk10 V c 3 t) (iblk10 V c 4 t) (iblk10 V c 5 t) (iblk10 V c 6 t)
    | ⟨8, _⟩ => out10_8 (iblk10 V c 0 t) (iblk10 V c 1 t) (iblk10 V c 2 t) (iblk10 V c 3 t) (iblk10 V c 4 t) (iblk10 V c 5 t) (iblk10 V c 6 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = iblk10 V c 5 t := by dsimp only [dat10]
theorem after10_6 (c : Dev nD) (t : Fin cfg10.N) : (dat10 V c).after 6 t = iblk10 V c 6 t := by dsimp only [dat10]
theorem after10_7 (c : Dev nD) (t : Fin cfg10.N) : (dat10 V c).after 7 t = out10_7 (iblk10 V c 0 t) (iblk10 V c 1 t) (iblk10 V c 2 t) (iblk10 V c 3 t) (iblk10 V c 4 t) (iblk10 V c 5 t) (iblk10 V c 6 t) := by dsimp only [dat10]
theorem after10_8 (c : Dev nD) (t : Fin cfg10.N) : (dat10 V c).after 8 t = out10_8 (iblk10 V c 0 t) (iblk10 V c 1 t) (iblk10 V c 2 t) (iblk10 V c 3 t) (iblk10 V c 4 t) (iblk10 V c 5 t) (iblk10 V c 6 t) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d
theorem before10_5 (c : Dev nD) (t : Fin cfg10.N) (d) : (dat10 V c).before 5 t d = iblk10 V c 5 t :=
  before10_5_of V (dat10 V c) (A_eq10 V c 5) (after10_5 V c) t d
theorem before10_6 (c : Dev nD) (t : Fin cfg10.N) (d) : (dat10 V c).before 6 t d = iblk10 V c 6 t :=
  before10_6_of V (dat10 V c) (A_eq10 V c 6) (after10_6 V c) t d

/-- What the body is called with at point `t`, window by window, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d))
    ∗ (∃ d, owns (c : Thread nD τ) (st10_6 t) fullShare ((dat10 V c).before 6 t d))
    ∗ (∃ d, owns (c : Thread nD τ) (st10_7 t) fullShare ((dat10 V c).before 7 t d))
    ∗ (∃ d, owns (c : Thread nD τ) (st10_8 t) fullShare ((dat10 V c).before 8 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t)
    ∗ owns (c : Thread nD τ) (st10_6 t) fullShare ((dat10 V c).after 6 t)
    ∗ owns (c : Thread nD τ) (st10_7 t) fullShare ((dat10 V c).after 7 t)
    ∗ owns (c : Thread nD τ) (st10_8 t) fullShare ((dat10 V c).after 8 t))

/-- The body at any grid point: the inputs' memrefs hold their blocks, so `sound_kernel10` applies; the invariant and what the
    core owes pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4, before10_5, before10_6]
  rw [show (dat10 V c).Φ t.succ = (dat10 V c).Φ t.castSucc from rfl,
    show (dat10 V c).owesAt () t.succ = (dat10 V c).owesAt () t.castSucc from rfl,
    after10_0, after10_1, after10_2, after10_3, after10_4, after10_5, after10_6, after10_7, after10_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel10 c Set.univ (grid10.coords t) _ _ _ _ _ _ _ _ _ _ _ _ _ _ _ _ _ _ (iblk10 V c 0 t) (iblk10 V c 1 t) (iblk10 V c 2 t) (iblk10 V c 3 t) (iblk10 V c 4 t) (iblk10 V c 5 t) (iblk10 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline library's body obligation, at every point. -/
theorem body_obligation10 (c : Dev nD) : BodyObligation (dat10 (F := F) V c) (defs₀ (F := F)) Variants.none () Set.univ := fun t => by
  rw [bigSep_W10, bigSep_W10]
  exact sound_body10 V c t

end Cert.Kernel.Hand

end
-- ==== Proof.BReg11.lean ====
/-
  Region 11 of the program's thirteen kernel regions (the body `cc11__post_kernel`): what its proof data are, at an
  arbitrary valuation `V` of the TensorCore's buffers at the region's entry.  Each window's block at a grid point is read
  off the window's array; the body loads whole blocks and overwrites each output block whole, so what it leaves in an
  output window's staging buffer is one rectangle piece holding the body's payload of the input blocks; the input
  buffers are left as found.  From this the body's Hoare triple (by symbolic execution of the skeleton) and the
  pipeline library's per-point obligation follow at every float instance.
-/
import proofs.«106875_j87694642250037_1_alg».proof.Proof.Gen.Kernel.Launch
import proofs.«106875_j87694642250037_1_alg».proof.Proof.Gen.Kernel.Skeleton
import proofs.«106875_j87694642250037_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- An input window's staging buffer holds the window's block at every grid point, whether or not the block was fetched
    there (an unfetched point has the block index of the point before it), for any proof data on `V`'s arrays whose body
    leaves the block in place. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
/-- An input window's staging buffer holds the window's block at every grid point, whether or not the block was fetched
    there (an unfetched point has the block index of the point before it), for any proof data on `V`'s arrays whose body
    leaves the block in place. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
/-- An input window's staging buffer holds the window's block at every grid point, whether or not the block was fetched
    there (an unfetched point has the block index of the point before it), for any proof data on `V`'s arrays whose body
    leaves the block in place. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)
/-- An input window's staging buffer holds the window's block at every grid point, whether or not the block was fetched
    there (an unfetched point has the block index of the point before it), for any proof data on `V`'s arrays whose body
    leaves the block in place. -/
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)
/-- An input window's staging buffer holds the window's block at every grid point, whether or not the block was fetched
    there (an unfetched point has the block index of the point before it), for any proof data on `V`'s arrays whose body
    leaves the block in place. -/
theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)

/-- What the body leaves in output window 5's staging buffer, as a function of the input blocks: the block-sized rectangle
    holding the body's payload. -/
def out11_5 (x0 : Vec F S200x640 .f32) (x1 : Vec F S640x128 .f32) (x2 : Vec F S128 .f32) (x3 : Vec F S128x128 .f32) (x4 : Vec F S128 .f32) : Vec F S200x128 .f32 :=
  View.canon [⟨Rect.unit (s := S200x128) ![0, 0] S200x128.size inb_S200x128_S200x128_0_0, k11_pay1 (View.ld x0 (Rect.unit (s := S200x640) ![0, 0] S200x640.size inb_S200x640_S200x640_0_0)) (View.ld x1 (Rect.unit (s := S640x128) ![0, 0] S640x128.size inb_S640x128_S640x128_0_0)) (View.ld x2 (Rect.unit (s := S128) ![0] S128.size inb_S128_S128_0)) (View.ld x3 (Rect.unit (s := S128x128) ![0, 0] S128x128.size inb_S128x128_S128x128_0_0)) (View.ld x4 (Rect.unit (s := S128) ![0] S128.size inb_S128_S128_0))⟩]

/-- That rectangle is the whole buffer. -/
theorem cover11_5 (p0 : Vec F S200x128 .f32) (y : S200x128.Idx) :
    ∃ pc ∈ ([⟨Rect.unit (s := S200x128) ![0, 0] S200x128.size inb_S200x128_S200x128_0_0, p0⟩] : List (View.Piece (Elt F) S200x128 .f32)), y ∈ pc.1.set :=
  View.cover_of_tiled [⟨Rect.unit (s := S200x128) ![0, 0] S200x128.size inb_S200x128_S200x128_0_0, p0⟩] S200x128.size (by rfl) y

set_option maxHeartbeats 4000000 in
/-- The body on whole staging memrefs — the inputs' at given contents, the outputs' at anything — runs to its continuation with
    the inputs' contents unchanged and each output's at `out11_w` of the inputs'. -/
theorem sound_kernel11 (c : Dev nD) (E : Set ℕ) (i : grid11.Coords) (arg1 : Memref sig .tc .vmem S200x640 .f32) (harg1 : arg1.IsWhole) (arg2 : Memref sig .tc .vmem S640x128 .f32) (harg2 : arg2.IsWhole) (arg3 : Memref sig .tc .vmem S128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S200x128 .f32) (harg6 : arg6.IsWhole)
    (x0 : Vec F S200x640 .f32) (x1 : Vec F S640x128 .f32) (x2 : Vec F S128 .f32) (x3 : Vec F S128x128 .f32) (x4 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out11_5 x0 x1 x2 x3 x4)) -∗ K ⟨⟩))
      ⊢ wp frame (wpE (defs₀ (F := F)) Variants.none c none) E (cc11__post_kernel i arg1 harg1 arg2 harg2 arg3 harg3 arg4 harg4 arg5 harg5 arg6 harg6) K := by
  simp only [cc11__post_kernel_eq_skeleton]; unfold cc11__post_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover11_5 _)

/-- The proof data of this region on core `c`: the windows' arrays are `V`'s; after the body at point `t` an input's buffer holds
    its block and an output's holds `out11_w` of the input blocks; the invariant is the pipeline library's plain one (the scoped
    rest and the generator register, untouched); nothing is owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => out11_5 (iblk11 V c 0 t) (iblk11 V c 1 t) (iblk11 V c 2 t) (iblk11 V c 3 t) (iblk11 V c 4 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t = out11_5 (iblk11 V c 0 t) (iblk11 V c 1 t) (iblk11 V c 2 t) (iblk11 V c 3 t) (iblk11 V c 4 t) := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d

/-- What the body is called with at point `t`, window by window, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t))

/-- The body at any grid point: the inputs' memrefs hold their blocks, so `sound_kernel11` applies; the invariant and what the
    core owes pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4]
  rw [show (dat11 V c).Φ t.succ = (dat11 V c).Φ t.castSucc from rfl,
    show (dat11 V c).owesAt () t.succ = (dat11 V c).owesAt () t.castSucc from rfl,
    after11_0, after11_1, after11_2, after11_3, after11_4, after11_5]
  iintro ⟨HΦ, Ho, ⟨%d0, H0⟩, ⟨%d1, H1⟩, ⟨%d2, H2⟩, ⟨%d3, H3⟩, ⟨%d4, H4⟩, ⟨%d5, H5⟩⟩
  iapply (sound_kernel11 c Set.univ (grid11.coords t) _ _ _ _ _ _ _ _ _ _ _ _ (iblk11 V c 0 t) (iblk11 V c 1 t) (iblk11 V c 2 t) (iblk11 V c 3 t) (iblk11 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every point. -/
theorem body_obligation11 (c : Dev nD) : BodyObligation (dat11 (F := F) V c) (defs₀ (F := F)) Variants.none () Set.univ := fun t => by
  rw [bigSep_W11, bigSep_W11]
  exact sound_body11 V c t

end Cert.Kernel.Hand

end
-- ==== Proof.BReg12.lean ====
/-
  Region 12 of the program's thirteen kernel regions (the body `cc12__asymm_kernel`): what its proof data are, at an
  arbitrary valuation `V` of the TensorCore's buffers at the region's entry.  Each window's block at a grid point is read
  off the window's array; the body loads whole blocks and overwrites each output block whole, so what it leaves in an
  output window's staging buffer is one rectangle piece holding the body's payload of the input blocks; the input
  buffers are left as found.  From this the body's Hoare triple (by symbolic execution of the skeleton) and the
  pipeline library's per-point obligation follow at every float instance.
-/
import proofs.«106875_j87694642250037_1_alg».proof.Proof.Gen.Kernel.Launch
import proofs.«106875_j87694642250037_1_alg».proof.Proof.Gen.Kernel.Skeleton
import proofs.«106875_j87694642250037_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- An input window's staging buffer holds the window's block at every grid point, whether or not the block was fetched
    there (an unfetched point has the block index of the point before it), for any proof data on `V`'s arrays whose body
    leaves the block in place. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)
/-- An input window's staging buffer holds the window's block at every grid point, whether or not the block was fetched
    there (an unfetched point has the block index of the point before it), for any proof data on `V`'s arrays whose body
    leaves the block in place. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-- What the body leaves in output window 2's staging buffer, as a function of the input blocks: the block-sized rectangle
    holding the body's payload. -/
def out12_2 (x0 : Vec F S1000x128 .f32) (x1 : Vec F S1000x128 .f32) : Vec F S1000 .f32 :=
  View.canon [⟨Rect.unit (s := S1000) ![0] S1000.size inb_S1000_S1000_0, k12_pay1 (k12_pay4 (View.ld x0 (Rect.unit (s := S1000x128) ![0, 0] S1000x64.size inb_S1000x128_S1000x64_0_0)) (View.ld x1 (Rect.unit (s := S1000x128) ![0, 0] S1000x64.size inb_S1000x128_S1000x64_0_0))) (k12_pay5 (View.ld x0 (Rect.unit (s := S1000x128) ![0, 64] S1000x64.size inb_S1000x128_S1000x64_0_64)) (View.ld x1 (Rect.unit (s := S1000x128) ![0, 64] S1000x64.size inb_S1000x128_S1000x64_0_64))) (k12_pay6 (View.ld x0 (Rect.unit (s := S1000x128) ![0, 64] S1000x64.size inb_S1000x128_S1000x64_0_64)) (View.ld x1 (Rect.unit (s := S1000x128) ![0, 64] S1000x64.size inb_S1000x128_S1000x64_0_64))) (Scalar.ofBits .f32 0x3F800000#32)⟩]

/-- That rectangle is the whole buffer. -/
theorem cover12_2 (p0 : Vec F S1000 .f32) (y : S1000.Idx) :
    ∃ pc ∈ ([⟨Rect.unit (s := S1000) ![0] S1000.size inb_S1000_S1000_0, p0⟩] : List (View.Piece (Elt F) S1000 .f32)), y ∈ pc.1.set :=
  View.cover_of_tiled [⟨Rect.unit (s := S1000) ![0] S1000.size inb_S1000_S1000_0, p0⟩] S1000.size (by rfl) y

set_option maxHeartbeats 4000000 in
/-- The body on whole staging memrefs — the inputs' at given contents, the outputs' at anything — runs to its continuation with
    the inputs' contents unchanged and each output's at `out12_w` of the inputs'. -/
theorem sound_kernel12 (c : Dev nD) (E : Set ℕ) (i : grid12.Coords) (arg1 : Memref sig .tc .vmem S1000x128 .f32) (harg1 : arg1.IsWhole) (arg2 : Memref sig .tc .vmem S1000x128 .f32) (harg2 : arg2.IsWhole) (arg3 : Memref sig .tc .vmem S1000 .f32) (harg3 : arg3.IsWhole)
    (x0 : Vec F S1000x128 .f32) (x1 : Vec F S1000x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out12_2 x0 x1)) -∗ K ⟨⟩))
      ⊢ wp frame (wpE (defs₀ (F := F)) Variants.none c none) E (cc12__asymm_kernel i arg1 harg1 arg2 harg2 arg3 harg3) K := by
  simp only [cc12__asymm_kernel_eq_skeleton]; unfold cc12__asymm_kernel_skel
  simp only [k12_part1_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover12_2 _)

/-- The proof data of this region on core `c`: the windows' arrays are `V`'s; after the body at point `t` an input's buffer holds
    its block and an output's holds `out12_w` of the input blocks; the invariant is the pipeline library's plain one (the scoped
    rest and the generator register, untouched); nothing is owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => out12_2 (iblk12 V c 0 t) (iblk12 V c 1 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = out12_2 (iblk12 V c 0 t) (iblk12 V c 1 t) := by dsimp only [dat12]

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d

/-- What the body is called with at point `t`, window by window, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t))

/-- The body at any grid point: the inputs' memrefs hold their blocks, so `sound_kernel12` applies; the invariant and what the
    core owes pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1]
  rw [show (dat12 V c).Φ t.succ = (dat12 V c).Φ t.castSucc from rfl,
    show (dat12 V c).owesAt () t.succ = (dat12 V c).owesAt () t.castSucc from rfl,
    after12_0, after12_1, after12_2]
  iintro ⟨HΦ, Ho, ⟨%d0, H0⟩, ⟨%d1, H1⟩, ⟨%d2, H2⟩⟩
  iapply (sound_kernel12 c Set.univ (grid12.coords t) _ _ _ _ _ _ (iblk12 V c 0 t) (iblk12 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation12 (c : Dev nD) : BodyObligation (dat12 (F := F) V c) (defs₀ (F := F)) Variants.none () Set.univ := fun t => by
  rw [bigSep_W12, bigSep_W12]
  exact sound_body12 V c t

end Cert.Kernel.Hand

end
-- ==== Proof.BRun.lean ====
/-
  The run of the whole program, region by region.  Between two items of the program's main function core `c` holds every
  unscoped buffer at a valuation `YJ`: the launch memory, then, alternately, the host operations of a stretch applied to
  it and a kernel region's arrays replaced by what the region's pipeline leaves in them (an input array as found; an
  output array the fold of the blocks written back, `Dat.arrAt … N`).  Each region is a segment of the pipeline library
  over the thread state "every unscoped buffer at the valuation, the generator register at some state, nothing owed";
  the library's launch theorem then gives: every weakly fair execution terminates, the result buffer ends at the last
  valuation's contents, and every argument buffer ends as launched (no host stretch writes an argument; a region that
  reads one through an input window hands it back as found).
-/
import proofs.«106875_j87694642250037_1_alg».proof.Proof.BReg0
import proofs.«106875_j87694642250037_1_alg».proof.Proof.BReg1
import proofs.«106875_j87694642250037_1_alg».proof.Proof.BReg2
import proofs.«106875_j87694642250037_1_alg».proof.Proof.BReg3
import proofs.«106875_j87694642250037_1_alg».proof.Proof.BReg4
import proofs.«106875_j87694642250037_1_alg».proof.Proof.BReg5
import proofs.«106875_j87694642250037_1_alg».proof.Proof.BReg6
import proofs.«106875_j87694642250037_1_alg».proof.Proof.BReg7
import proofs.«106875_j87694642250037_1_alg».proof.Proof.BReg8
import proofs.«106875_j87694642250037_1_alg».proof.Proof.BReg9
import proofs.«106875_j87694642250037_1_alg».proof.Proof.BReg10
import proofs.«106875_j87694642250037_1_alg».proof.Proof.BReg11
import proofs.«106875_j87694642250037_1_alg».proof.Proof.BReg12
import proofs.«106875_j87694642250037_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between items -/

/-- Core `c`'s buffers at launch. -/
abbrev Y0 : Dev nD → Valuation τ sig (Elt F) := fun c b => m ((c : Dev nD), b)
abbrev R0v : (c : Dev nD) → (b : Ref sig .tc) → Buf (Elt F) ((c : Thread nD τ).loc b) := fun c b => Y0 m c b
/-- After the host stretch `hostOps0`. -/
abbrev Y1 : Dev nD → Valuation τ sig (Elt F) := fun c => StableHlo.after hostOps0 (Y0 m c)
abbrev R1v : (c : Dev nD) → (b : Ref sig .tc) → Buf (Elt F) ((c : Thread nD τ).loc b) := fun c b => Y1 m c b
theorem Y1_keep (c : Dev nD) (r : Ref sig .tc) (h : r ∉ hostOps0_W) : Y1 m c r = Y0 m c r :=
  StableHlo.after_of_writes_sub hostOps0 _ hostOps0_writes h
/-- After region 0: its arrays at what its pipeline leaves, every other buffer as at its entry. -/
def Y2 (c : Dev nD) : Valuation τ sig (Elt F) :=
  Pipeline.withArrays spec0 c (Y1 m c) fun w => (dat0 (R1v m) c).arrAt w cfg0.N
abbrev R2v : (c : Dev nD) → (b : Ref sig .tc) → Buf (Elt F) ((c : Thread nD τ).loc b) := fun c b => Y2 m c b
theorem Y2_arr (c : Dev nD) (w : Fin cfg0.W) :
    Y2 m c (Proc.devRef .tc (Pipeline.arrRef spec0 w)) = (dat0 (R1v m) c).arrAt w cfg0.N := by
  unfold Y2; exact Pipeline.withArrays_arr spec0 launch0.win.arr_inj c _ _ w
theorem Y2_of_ne (c : Dev nD) (b : Ref sig .tc) (hb : ∀ w, Pipeline.arrRef spec0 w ≠ b) :
    Y2 m c (Proc.devRef .tc b) = Y1 m c (Proc.devRef .tc b) := by
  unfold Y2; exact Pipeline.withArrays_of_ne spec0 c _ _ b hb
/-- An input window's array is handed back as found. -/
theorem Y2_in (c : Dev nD) (w : Fin cfg0.W) (hw : (cfg0.win w).isOut = false) :
    Y2 m c (Proc.devRef .tc (Pipeline.arrRef spec0 w)) = Y1 m c (Proc.devRef .tc (Pipeline.arrRef spec0 w)) :=
  (Y2_arr m c w).trans (((dat0 (R1v m) c).arrAt_in w hw _).trans (A_eq0 (R1v m) c w))
theorem hF0 (c : Dev nD) (w : Fin cfg0.W) : (dat0 (R1v m) c).arrAt w cfg0.N = R2v m c (Pipeline.arrRef spec0 w) :=
  (Y2_arr m c w).symm
theorem hrest0 (c : Dev nD) : ∀ b, b ∉ Finset.univ.image (Pipeline.arrRef spec0) → R2v m c b = R1v m c b :=
  fun b hb => Y2_of_ne m c b fun w e => hb (Finset.mem_image.mpr ⟨w, Finset.mem_univ _, e⟩)
/-- After the host stretch `hostOps1`. -/
abbrev Y3 : Dev nD → Valuation τ sig (Elt F) := fun c => StableHlo.after hostOps1 (Y2 m c)
abbrev R3v : (c : Dev nD) → (b : Ref sig .tc) → Buf (Elt F) ((c : Thread nD τ).loc b) := fun c b => Y3 m c b
theorem Y3_keep (c : Dev nD) (r : Ref sig .tc) (h : r ∉ hostOps1_W) : Y3 m c r = Y2 m c r :=
  StableHlo.after_of_writes_sub hostOps1 _ hostOps1_writes h
/-- After region 1: its arrays at what its pipeline leaves, every other buffer as at its entry. -/
def Y4 (c : Dev nD) : Valuation τ sig (Elt F) :=
  Pipeline.withArrays spec1 c (Y3 m c) fun w => (dat1 (R3v m) c).arrAt w cfg1.N
abbrev R4v : (c : Dev nD) → (b : Ref sig .tc) → Buf (Elt F) ((c : Thread nD τ).loc b) := fun c b => Y4 m c b
theorem Y4_arr (c : Dev nD) (w : Fin cfg1.W) :
    Y4 m c (Proc.devRef .tc (Pipeline.arrRef spec1 w)) = (dat1 (R3v m) c).arrAt w cfg1.N := by
  unfold Y4; exact Pipeline.withArrays_arr spec1 launch1.win.arr_inj c _ _ w
theorem Y4_of_ne (c : Dev nD) (b : Ref sig .tc) (hb : ∀ w, Pipeline.arrRef spec1 w ≠ b) :
    Y4 m c (Proc.devRef .tc b) = Y3 m c (Proc.devRef .tc b) := by
  unfold Y4; exact Pipeline.withArrays_of_ne spec1 c _ _ b hb
/-- An input window's array is handed back as found. -/
theorem Y4_in (c : Dev nD) (w : Fin cfg1.W) (hw : (cfg1.win w).isOut = false) :
    Y4 m c (Proc.devRef .tc (Pipeline.arrRef spec1 w)) = Y3 m c (Proc.devRef .tc (Pipeline.arrRef spec1 w)) :=
  (Y4_arr m c w).trans (((dat1 (R3v m) c).arrAt_in w hw _).trans (A_eq1 (R3v m) c w))
theorem hF1 (c : Dev nD) (w : Fin cfg1.W) : (dat1 (R3v m) c).arrAt w cfg1.N = R4v m c (Pipeline.arrRef spec1 w) :=
  (Y4_arr m c w).symm
theorem hrest1 (c : Dev nD) : ∀ b, b ∉ Finset.univ.image (Pipeline.arrRef spec1) → R4v m c b = R3v m c b :=
  fun b hb => Y4_of_ne m c b fun w e => hb (Finset.mem_image.mpr ⟨w, Finset.mem_univ _, e⟩)
/-- After the host stretch `hostOps2`. -/
abbrev Y5 : Dev nD → Valuation τ sig (Elt F) := fun c => StableHlo.after hostOps2 (Y4 m c)
abbrev R5v : (c : Dev nD) → (b : Ref sig .tc) → Buf (Elt F) ((c : Thread nD τ).loc b) := fun c b => Y5 m c b
theorem Y5_keep (c : Dev nD) (r : Ref sig .tc) (h : r ∉ hostOps2_W) : Y5 m c r = Y4 m c r :=
  StableHlo.after_of_writes_sub hostOps2 _ hostOps2_writes h
/-- After region 2: its arrays at what its pipeline leaves, every other buffer as at its entry. -/
def Y6 (c : Dev nD) : Valuation τ sig (Elt F) :=
  Pipeline.withArrays spec2 c (Y5 m c) fun w => (dat2 (R5v m) c).arrAt w cfg2.N
abbrev R6v : (c : Dev nD) → (b : Ref sig .tc) → Buf (Elt F) ((c : Thread nD τ).loc b) := fun c b => Y6 m c b
theorem Y6_arr (c : Dev nD) (w : Fin cfg2.W) :
    Y6 m c (Proc.devRef .tc (Pipeline.arrRef spec2 w)) = (dat2 (R5v m) c).arrAt w cfg2.N := by
  unfold Y6; exact Pipeline.withArrays_arr spec2 launch2.win.arr_inj c _ _ w
theorem Y6_of_ne (c : Dev nD) (b : Ref sig .tc) (hb : ∀ w, Pipeline.arrRef spec2 w ≠ b) :
    Y6 m c (Proc.devRef .tc b) = Y5 m c (Proc.devRef .tc b) := by
  unfold Y6; exact Pipeline.withArrays_of_ne spec2 c _ _ b hb
/-- An input window's array is handed back as found. -/
theorem Y6_in (c : Dev nD) (w : Fin cfg2.W) (hw : (cfg2.win w).isOut = false) :
    Y6 m c (Proc.devRef .tc (Pipeline.arrRef spec2 w)) = Y5 m c (Proc.devRef .tc (Pipeline.arrRef spec2 w)) :=
  (Y6_arr m c w).trans (((dat2 (R5v m) c).arrAt_in w hw _).trans (A_eq2 (R5v m) c w))
theorem hF2 (c : Dev nD) (w : Fin cfg2.W) : (dat2 (R5v m) c).arrAt w cfg2.N = R6v m c (Pipeline.arrRef spec2 w) :=
  (Y6_arr m c w).symm
theorem hrest2 (c : Dev nD) : ∀ b, b ∉ Finset.univ.image (Pipeline.arrRef spec2) → R6v m c b = R5v m c b :=
  fun b hb => Y6_of_ne m c b fun w e => hb (Finset.mem_image.mpr ⟨w, Finset.mem_univ _, e⟩)
/-- After the host stretch `hostOps3`. -/
abbrev Y7 : Dev nD → Valuation τ sig (Elt F) := fun c => StableHlo.after hostOps3 (Y6 m c)
abbrev R7v : (c : Dev nD) → (b : Ref sig .tc) → Buf (Elt F) ((c : Thread nD τ).loc b) := fun c b => Y7 m c b
theorem Y7_keep (c : Dev nD) (r : Ref sig .tc) (h : r ∉ hostOps3_W) : Y7 m c r = Y6 m c r :=
  StableHlo.after_of_writes_sub hostOps3 _ hostOps3_writes h
/-- After region 3: its arrays at what its pipeline leaves, every other buffer as at its entry. -/
def Y8 (c : Dev nD) : Valuation τ sig (Elt F) :=
  Pipeline.withArrays spec3 c (Y7 m c) fun w => (dat3 (R7v m) c).arrAt w cfg3.N
abbrev R8v : (c : Dev nD) → (b : Ref sig .tc) → Buf (Elt F) ((c : Thread nD τ).loc b) := fun c b => Y8 m c b
theorem Y8_arr (c : Dev nD) (w : Fin cfg3.W) :
    Y8 m c (Proc.devRef .tc (Pipeline.arrRef spec3 w)) = (dat3 (R7v m) c).arrAt w cfg3.N := by
  unfold Y8; exact Pipeline.withArrays_arr spec3 launch3.win.arr_inj c _ _ w
theorem Y8_of_ne (c : Dev nD) (b : Ref sig .tc) (hb : ∀ w, Pipeline.arrRef spec3 w ≠ b) :
    Y8 m c (Proc.devRef .tc b) = Y7 m c (Proc.devRef .tc b) := by
  unfold Y8; exact Pipeline.withArrays_of_ne spec3 c _ _ b hb
/-- An input window's array is handed back as found. -/
theorem Y8_in (c : Dev nD) (w : Fin cfg3.W) (hw : (cfg3.win w).isOut = false) :
    Y8 m c (Proc.devRef .tc (Pipeline.arrRef spec3 w)) = Y7 m c (Proc.devRef .tc (Pipeline.arrRef spec3 w)) :=
  (Y8_arr m c w).trans (((dat3 (R7v m) c).arrAt_in w hw _).trans (A_eq3 (R7v m) c w))
theorem hF3 (c : Dev nD) (w : Fin cfg3.W) : (dat3 (R7v m) c).arrAt w cfg3.N = R8v m c (Pipeline.arrRef spec3 w) :=
  (Y8_arr m c w).symm
theorem hrest3 (c : Dev nD) : ∀ b, b ∉ Finset.univ.image (Pipeline.arrRef spec3) → R8v m c b = R7v m c b :=
  fun b hb => Y8_of_ne m c b fun w e => hb (Finset.mem_image.mpr ⟨w, Finset.mem_univ _, e⟩)
/-- After the host stretch `hostOps4`. -/
abbrev Y9 : Dev nD → Valuation τ sig (Elt F) := fun c => StableHlo.after hostOps4 (Y8 m c)
abbrev R9v : (c : Dev nD) → (b : Ref sig .tc) → Buf (Elt F) ((c : Thread nD τ).loc b) := fun c b => Y9 m c b
theorem Y9_keep (c : Dev nD) (r : Ref sig .tc) (h : r ∉ hostOps4_W) : Y9 m c r = Y8 m c r :=
  StableHlo.after_of_writes_sub hostOps4 _ hostOps4_writes h
/-- After region 4: its arrays at what its pipeline leaves, every other buffer as at its entry. -/
def Y10 (c : Dev nD) : Valuation τ sig (Elt F) :=
  Pipeline.withArrays spec4 c (Y9 m c) fun w => (dat4 (R9v m) c).arrAt w cfg4.N
abbrev R10v : (c : Dev nD) → (b : Ref sig .tc) → Buf (Elt F) ((c : Thread nD τ).loc b) := fun c b => Y10 m c b
theorem Y10_arr (c : Dev nD) (w : Fin cfg4.W) :
    Y10 m c (Proc.devRef .tc (Pipeline.arrRef spec4 w)) = (dat4 (R9v m) c).arrAt w cfg4.N := by
  unfold Y10; exact Pipeline.withArrays_arr spec4 launch4.win.arr_inj c _ _ w
theorem Y10_of_ne (c : Dev nD) (b : Ref sig .tc) (hb : ∀ w, Pipeline.arrRef spec4 w ≠ b) :
    Y10 m c (Proc.devRef .tc b) = Y9 m c (Proc.devRef .tc b) := by
  unfold Y10; exact Pipeline.withArrays_of_ne spec4 c _ _ b hb
/-- An input window's array is handed back as found. -/
theorem Y10_in (c : Dev nD) (w : Fin cfg4.W) (hw : (cfg4.win w).isOut = false) :
    Y10 m c (Proc.devRef .tc (Pipeline.arrRef spec4 w)) = Y9 m c (Proc.devRef .tc (Pipeline.arrRef spec4 w)) :=
  (Y10_arr m c w).trans (((dat4 (R9v m) c).arrAt_in w hw _).trans (A_eq4 (R9v m) c w))
theorem hF4 (c : Dev nD) (w : Fin cfg4.W) : (dat4 (R9v m) c).arrAt w cfg4.N = R10v m c (Pipeline.arrRef spec4 w) :=
  (Y10_arr m c w).symm
theorem hrest4 (c : Dev nD) : ∀ b, b ∉ Finset.univ.image (Pipeline.arrRef spec4) → R10v m c b = R9v m c b :=
  fun b hb => Y10_of_ne m c b fun w e => hb (Finset.mem_image.mpr ⟨w, Finset.mem_univ _, e⟩)
/-- After the host stretch `hostOps5`. -/
abbrev Y11 : Dev nD → Valuation τ sig (Elt F) := fun c => StableHlo.after hostOps5 (Y10 m c)
abbrev R11v : (c : Dev nD) → (b : Ref sig .tc) → Buf (Elt F) ((c : Thread nD τ).loc b) := fun c b => Y11 m c b
theorem Y11_keep (c : Dev nD) (r : Ref sig .tc) (h : r ∉ hostOps5_W) : Y11 m c r = Y10 m c r :=
  StableHlo.after_of_writes_sub hostOps5 _ hostOps5_writes h
/-- After region 5: its arrays at what its pipeline leaves, every other buffer as at its entry. -/
def Y12 (c : Dev nD) : Valuation τ sig (Elt F) :=
  Pipeline.withArrays spec5 c (Y11 m c) fun w => (dat5 (R11v m) c).arrAt w cfg5.N
abbrev R12v : (c : Dev nD) → (b : Ref sig .tc) → Buf (Elt F) ((c : Thread nD τ).loc b) := fun c b => Y12 m c b
theorem Y12_arr (c : Dev nD) (w : Fin cfg5.W) :
    Y12 m c (Proc.devRef .tc (Pipeline.arrRef spec5 w)) = (dat5 (R11v m) c).arrAt w cfg5.N := by
  unfold Y12; exact Pipeline.withArrays_arr spec5 launch5.win.arr_inj c _ _ w
theorem Y12_of_ne (c : Dev nD) (b : Ref sig .tc) (hb : ∀ w, Pipeline.arrRef spec5 w ≠ b) :
    Y12 m c (Proc.devRef .tc b) = Y11 m c (Proc.devRef .tc b) := by
  unfold Y12; exact Pipeline.withArrays_of_ne spec5 c _ _ b hb
/-- An input window's array is handed back as found. -/
theorem Y12_in (c : Dev nD) (w : Fin cfg5.W) (hw : (cfg5.win w).isOut = false) :
    Y12 m c (Proc.devRef .tc (Pipeline.arrRef spec5 w)) = Y11 m c (Proc.devRef .tc (Pipeline.arrRef spec5 w)) :=
  (Y12_arr m c w).trans (((dat5 (R11v m) c).arrAt_in w hw _).trans (A_eq5 (R11v m) c w))
theorem hF5 (c : Dev nD) (w : Fin cfg5.W) : (dat5 (R11v m) c).arrAt w cfg5.N = R12v m c (Pipeline.arrRef spec5 w) :=
  (Y12_arr m c w).symm
theorem hrest5 (c : Dev nD) : ∀ b, b ∉ Finset.univ.image (Pipeline.arrRef spec5) → R12v m c b = R11v m c b :=
  fun b hb => Y12_of_ne m c b fun w e => hb (Finset.mem_image.mpr ⟨w, Finset.mem_univ _, e⟩)
/-- After the host stretch `hostOps6`. -/
abbrev Y13 : Dev nD → Valuation τ sig (Elt F) := fun c => StableHlo.after hostOps6 (Y12 m c)
abbrev R13v : (c : Dev nD) → (b : Ref sig .tc) → Buf (Elt F) ((c : Thread nD τ).loc b) := fun c b => Y13 m c b
theorem Y13_keep (c : Dev nD) (r : Ref sig .tc) (h : r ∉ hostOps6_W) : Y13 m c r = Y12 m c r :=
  StableHlo.after_of_writes_sub hostOps6 _ hostOps6_writes h
/-- After region 6: its arrays at what its pipeline leaves, every other buffer as at its entry. -/
def Y14 (c : Dev nD) : Valuation τ sig (Elt F) :=
  Pipeline.withArrays spec6 c (Y13 m c) fun w => (dat6 (R13v m) c).arrAt w cfg6.N
abbrev R14v : (c : Dev nD) → (b : Ref sig .tc) → Buf (Elt F) ((c : Thread nD τ).loc b) := fun c b => Y14 m c b
theorem Y14_arr (c : Dev nD) (w : Fin cfg6.W) :
    Y14 m c (Proc.devRef .tc (Pipeline.arrRef spec6 w)) = (dat6 (R13v m) c).arrAt w cfg6.N := by
  unfold Y14; exact Pipeline.withArrays_arr spec6 launch6.win.arr_inj c _ _ w
theorem Y14_of_ne (c : Dev nD) (b : Ref sig .tc) (hb : ∀ w, Pipeline.arrRef spec6 w ≠ b) :
    Y14 m c (Proc.devRef .tc b) = Y13 m c (Proc.devRef .tc b) := by
  unfold Y14; exact Pipeline.withArrays_of_ne spec6 c _ _ b hb
/-- An input window's array is handed back as found. -/
theorem Y14_in (c : Dev nD) (w : Fin cfg6.W) (hw : (cfg6.win w).isOut = false) :
    Y14 m c (Proc.devRef .tc (Pipeline.arrRef spec6 w)) = Y13 m c (Proc.devRef .tc (Pipeline.arrRef spec6 w)) :=
  (Y14_arr m c w).trans (((dat6 (R13v m) c).arrAt_in w hw _).trans (A_eq6 (R13v m) c w))
theorem hF6 (c : Dev nD) (w : Fin cfg6.W) : (dat6 (R13v m) c).arrAt w cfg6.N = R14v m c (Pipeline.arrRef spec6 w) :=
  (Y14_arr m c w).symm
theorem hrest6 (c : Dev nD) : ∀ b, b ∉ Finset.univ.image (Pipeline.arrRef spec6) → R14v m c b = R13v m c b :=
  fun b hb => Y14_of_ne m c b fun w e => hb (Finset.mem_image.mpr ⟨w, Finset.mem_univ _, e⟩)
/-- After the host stretch `hostOps7`. -/
abbrev Y15 : Dev nD → Valuation τ sig (Elt F) := fun c => StableHlo.after hostOps7 (Y14 m c)
abbrev R15v : (c : Dev nD) → (b : Ref sig .tc) → Buf (Elt F) ((c : Thread nD τ).loc b) := fun c b => Y15 m c b
theorem Y15_keep (c : Dev nD) (r : Ref sig .tc) (h : r ∉ hostOps7_W) : Y15 m c r = Y14 m c r :=
  StableHlo.after_of_writes_sub hostOps7 _ hostOps7_writes h
/-- After region 7: its arrays at what its pipeline leaves, every other buffer as at its entry. -/
def Y16 (c : Dev nD) : Valuation τ sig (Elt F) :=
  Pipeline.withArrays spec7 c (Y15 m c) fun w => (dat7 (R15v m) c).arrAt w cfg7.N
abbrev R16v : (c : Dev nD) → (b : Ref sig .tc) → Buf (Elt F) ((c : Thread nD τ).loc b) := fun c b => Y16 m c b
theorem Y16_arr (c : Dev nD) (w : Fin cfg7.W) :
    Y16 m c (Proc.devRef .tc (Pipeline.arrRef spec7 w)) = (dat7 (R15v m) c).arrAt w cfg7.N := by
  unfold Y16; exact Pipeline.withArrays_arr spec7 launch7.win.arr_inj c _ _ w
theorem Y16_of_ne (c : Dev nD) (b : Ref sig .tc) (hb : ∀ w, Pipeline.arrRef spec7 w ≠ b) :
    Y16 m c (Proc.devRef .tc b) = Y15 m c (Proc.devRef .tc b) := by
  unfold Y16; exact Pipeline.withArrays_of_ne spec7 c _ _ b hb
/-- An input window's array is handed back as found. -/
theorem Y16_in (c : Dev nD) (w : Fin cfg7.W) (hw : (cfg7.win w).isOut = false) :
    Y16 m c (Proc.devRef .tc (Pipeline.arrRef spec7 w)) = Y15 m c (Proc.devRef .tc (Pipeline.arrRef spec7 w)) :=
  (Y16_arr m c w).trans (((dat7 (R15v m) c).arrAt_in w hw _).trans (A_eq7 (R15v m) c w))
theorem hF7 (c : Dev nD) (w : Fin cfg7.W) : (dat7 (R15v m) c).arrAt w cfg7.N = R16v m c (Pipeline.arrRef spec7 w) :=
  (Y16_arr m c w).symm
theorem hrest7 (c : Dev nD) : ∀ b, b ∉ Finset.univ.image (Pipeline.arrRef spec7) → R16v m c b = R15v m c b :=
  fun b hb => Y16_of_ne m c b fun w e => hb (Finset.mem_image.mpr ⟨w, Finset.mem_univ _, e⟩)
/-- After the host stretch `hostOps8`. -/
abbrev Y17 : Dev nD → Valuation τ sig (Elt F) := fun c => StableHlo.after hostOps8 (Y16 m c)
abbrev R17v : (c : Dev nD) → (b : Ref sig .tc) → Buf (Elt F) ((c : Thread nD τ).loc b) := fun c b => Y17 m c b
theorem Y17_keep (c : Dev nD) (r : Ref sig .tc) (h : r ∉ hostOps8_W) : Y17 m c r = Y16 m c r :=
  StableHlo.after_of_writes_sub hostOps8 _ hostOps8_writes h
/-- After region 8: its arrays at what its pipeline leaves, every other buffer as at its entry. -/
def Y18 (c : Dev nD) : Valuation τ sig (Elt F) :=
  Pipeline.withArrays spec8 c (Y17 m c) fun w => (dat8 (R17v m) c).arrAt w cfg8.N
abbrev R18v : (c : Dev nD) → (b : Ref sig .tc) → Buf (Elt F) ((c : Thread nD τ).loc b) := fun c b => Y18 m c b
theorem Y18_arr (c : Dev nD) (w : Fin cfg8.W) :
    Y18 m c (Proc.devRef .tc (Pipeline.arrRef spec8 w)) = (dat8 (R17v m) c).arrAt w cfg8.N := by
  unfold Y18; exact Pipeline.withArrays_arr spec8 launch8.win.arr_inj c _ _ w
theorem Y18_of_ne (c : Dev nD) (b : Ref sig .tc) (hb : ∀ w, Pipeline.arrRef spec8 w ≠ b) :
    Y18 m c (Proc.devRef .tc b) = Y17 m c (Proc.devRef .tc b) := by
  unfold Y18; exact Pipeline.withArrays_of_ne spec8 c _ _ b hb
/-- An input window's array is handed back as found. -/
theorem Y18_in (c : Dev nD) (w : Fin cfg8.W) (hw : (cfg8.win w).isOut = false) :
    Y18 m c (Proc.devRef .tc (Pipeline.arrRef spec8 w)) = Y17 m c (Proc.devRef .tc (Pipeline.arrRef spec8 w)) :=
  (Y18_arr m c w).trans (((dat8 (R17v m) c).arrAt_in w hw _).trans (A_eq8 (R17v m) c w))
theorem hF8 (c : Dev nD) (w : Fin cfg8.W) : (dat8 (R17v m) c).arrAt w cfg8.N = R18v m c (Pipeline.arrRef spec8 w) :=
  (Y18_arr m c w).symm
theorem hrest8 (c : Dev nD) : ∀ b, b ∉ Finset.univ.image (Pipeline.arrRef spec8) → R18v m c b = R17v m c b :=
  fun b hb => Y18_of_ne m c b fun w e => hb (Finset.mem_image.mpr ⟨w, Finset.mem_univ _, e⟩)
/-- After the host stretch `hostOps9`. -/
abbrev Y19 : Dev nD → Valuation τ sig (Elt F) := fun c => StableHlo.after hostOps9 (Y18 m c)
abbrev R19v : (c : Dev nD) → (b : Ref sig .tc) → Buf (Elt F) ((c : Thread nD τ).loc b) := fun c b => Y19 m c b
theorem Y19_keep (c : Dev nD) (r : Ref sig .tc) (h : r ∉ hostOps9_W) : Y19 m c r = Y18 m c r :=
  StableHlo.after_of_writes_sub hostOps9 _ hostOps9_writes h
/-- After region 9: its arrays at what its pipeline leaves, every other buffer as at its entry. -/
def Y20 (c : Dev nD) : Valuation τ sig (Elt F) :=
  Pipeline.withArrays spec9 c (Y19 m c) fun w => (dat9 (R19v m) c).arrAt w cfg9.N
abbrev R20v : (c : Dev nD) → (b : Ref sig .tc) → Buf (Elt F) ((c : Thread nD τ).loc b) := fun c b => Y20 m c b
theorem Y20_arr (c : Dev nD) (w : Fin cfg9.W) :
    Y20 m c (Proc.devRef .tc (Pipeline.arrRef spec9 w)) = (dat9 (R19v m) c).arrAt w cfg9.N := by
  unfold Y20; exact Pipeline.withArrays_arr spec9 launch9.win.arr_inj c _ _ w
theorem Y20_of_ne (c : Dev nD) (b : Ref sig .tc) (hb : ∀ w, Pipeline.arrRef spec9 w ≠ b) :
    Y20 m c (Proc.devRef .tc b) = Y19 m c (Proc.devRef .tc b) := by
  unfold Y20; exact Pipeline.withArrays_of_ne spec9 c _ _ b hb
/-- An input window's array is handed back as found. -/
theorem Y20_in (c : Dev nD) (w : Fin cfg9.W) (hw : (cfg9.win w).isOut = false) :
    Y20 m c (Proc.devRef .tc (Pipeline.arrRef spec9 w)) = Y19 m c (Proc.devRef .tc (Pipeline.arrRef spec9 w)) :=
  (Y20_arr m c w).trans (((dat9 (R19v m) c).arrAt_in w hw _).trans (A_eq9 (R19v m) c w))
theorem hF9 (c : Dev nD) (w : Fin cfg9.W) : (dat9 (R19v m) c).arrAt w cfg9.N = R20v m c (Pipeline.arrRef spec9 w) :=
  (Y20_arr m c w).symm
theorem hrest9 (c : Dev nD) : ∀ b, b ∉ Finset.univ.image (Pipeline.arrRef spec9) → R20v m c b = R19v m c b :=
  fun b hb => Y20_of_ne m c b fun w e => hb (Finset.mem_image.mpr ⟨w, Finset.mem_univ _, e⟩)
/-- After the host stretch `hostOps10`. -/
abbrev Y21 : Dev nD → Valuation τ sig (Elt F) := fun c => StableHlo.after hostOps10 (Y20 m c)
abbrev R21v : (c : Dev nD) → (b : Ref sig .tc) → Buf (Elt F) ((c : Thread nD τ).loc b) := fun c b => Y21 m c b
theorem Y21_keep (c : Dev nD) (r : Ref sig .tc) (h : r ∉ hostOps10_W) : Y21 m c r = Y20 m c r :=
  StableHlo.after_of_writes_sub hostOps10 _ hostOps10_writes h
/-- After region 10: its arrays at what its pipeline leaves, every other buffer as at its entry. -/
def Y22 (c : Dev nD) : Valuation τ sig (Elt F) :=
  Pipeline.withArrays spec10 c (Y21 m c) fun w => (dat10 (R21v m) c).arrAt w cfg10.N
abbrev R22v : (c : Dev nD) → (b : Ref sig .tc) → Buf (Elt F) ((c : Thread nD τ).loc b) := fun c b => Y22 m c b
theorem Y22_arr (c : Dev nD) (w : Fin cfg10.W) :
    Y22 m c (Proc.devRef .tc (Pipeline.arrRef spec10 w)) = (dat10 (R21v m) c).arrAt w cfg10.N := by
  unfold Y22; exact Pipeline.withArrays_arr spec10 launch10.win.arr_inj c _ _ w
theorem Y22_of_ne (c : Dev nD) (b : Ref sig .tc) (hb : ∀ w, Pipeline.arrRef spec10 w ≠ b) :
    Y22 m c (Proc.devRef .tc b) = Y21 m c (Proc.devRef .tc b) := by
  unfold Y22; exact Pipeline.withArrays_of_ne spec10 c _ _ b hb
/-- An input window's array is handed back as found. -/
theorem Y22_in (c : Dev nD) (w : Fin cfg10.W) (hw : (cfg10.win w).isOut = false) :
    Y22 m c (Proc.devRef .tc (Pipeline.arrRef spec10 w)) = Y21 m c (Proc.devRef .tc (Pipeline.arrRef spec10 w)) :=
  (Y22_arr m c w).trans (((dat10 (R21v m) c).arrAt_in w hw _).trans (A_eq10 (R21v m) c w))
theorem hF10 (c : Dev nD) (w : Fin cfg10.W) : (dat10 (R21v m) c).arrAt w cfg10.N = R22v m c (Pipeline.arrRef spec10 w) :=
  (Y22_arr m c w).symm
theorem hrest10 (c : Dev nD) : ∀ b, b ∉ Finset.univ.image (Pipeline.arrRef spec10) → R22v m c b = R21v m c b :=
  fun b hb => Y22_of_ne m c b fun w e => hb (Finset.mem_image.mpr ⟨w, Finset.mem_univ _, e⟩)
/-- After the host stretch `hostOps11`. -/
abbrev Y23 : Dev nD → Valuation τ sig (Elt F) := fun c => StableHlo.after hostOps11 (Y22 m c)
abbrev R23v : (c : Dev nD) → (b : Ref sig .tc) → Buf (Elt F) ((c : Thread nD τ).loc b) := fun c b => Y23 m c b
theorem Y23_keep (c : Dev nD) (r : Ref sig .tc) (h : r ∉ hostOps11_W) : Y23 m c r = Y22 m c r :=
  StableHlo.after_of_writes_sub hostOps11 _ hostOps11_writes h
/-- After region 11: its arrays at what its pipeline leaves, every other buffer as at its entry. -/
def Y24 (c : Dev nD) : Valuation τ sig (Elt F) :=
  Pipeline.withArrays spec11 c (Y23 m c) fun w => (dat11 (R23v m) c).arrAt w cfg11.N
abbrev R24v : (c : Dev nD) → (b : Ref sig .tc) → Buf (Elt F) ((c : Thread nD τ).loc b) := fun c b => Y24 m c b
theorem Y24_arr (c : Dev nD) (w : Fin cfg11.W) :
    Y24 m c (Proc.devRef .tc (Pipeline.arrRef spec11 w)) = (dat11 (R23v m) c).arrAt w cfg11.N := by
  unfold Y24; exact Pipeline.withArrays_arr spec11 launch11.win.arr_inj c _ _ w
theorem Y24_of_ne (c : Dev nD) (b : Ref sig .tc) (hb : ∀ w, Pipeline.arrRef spec11 w ≠ b) :
    Y24 m c (Proc.devRef .tc b) = Y23 m c (Proc.devRef .tc b) := by
  unfold Y24; exact Pipeline.withArrays_of_ne spec11 c _ _ b hb
/-- An input window's array is handed back as found. -/
theorem Y24_in (c : Dev nD) (w : Fin cfg11.W) (hw : (cfg11.win w).isOut = false) :
    Y24 m c (Proc.devRef .tc (Pipeline.arrRef spec11 w)) = Y23 m c (Proc.devRef .tc (Pipeline.arrRef spec11 w)) :=
  (Y24_arr m c w).trans (((dat11 (R23v m) c).arrAt_in w hw _).trans (A_eq11 (R23v m) c w))
theorem hF11 (c : Dev nD) (w : Fin cfg11.W) : (dat11 (R23v m) c).arrAt w cfg11.N = R24v m c (Pipeline.arrRef spec11 w) :=
  (Y24_arr m c w).symm
theorem hrest11 (c : Dev nD) : ∀ b, b ∉ Finset.univ.image (Pipeline.arrRef spec11) → R24v m c b = R23v m c b :=
  fun b hb => Y24_of_ne m c b fun w e => hb (Finset.mem_image.mpr ⟨w, Finset.mem_univ _, e⟩)
/-- After region 12: its arrays at what its pipeline leaves, every other buffer as at its entry. -/
def Y25 (c : Dev nD) : Valuation τ sig (Elt F) :=
  Pipeline.withArrays spec12 c (Y24 m c) fun w => (dat12 (R24v m) c).arrAt w cfg12.N
abbrev R25v : (c : Dev nD) → (b : Ref sig .tc) → Buf (Elt F) ((c : Thread nD τ).loc b) := fun c b => Y25 m c b
theorem Y25_arr (c : Dev nD) (w : Fin cfg12.W) :
    Y25 m c (Proc.devRef .tc (Pipeline.arrRef spec12 w)) = (dat12 (R24v m) c).arrAt w cfg12.N := by
  unfold Y25; exact Pipeline.withArrays_arr spec12 launch12.win.arr_inj c _ _ w
theorem Y25_of_ne (c : Dev nD) (b : Ref sig .tc) (hb : ∀ w, Pipeline.arrRef spec12 w ≠ b) :
    Y25 m c (Proc.devRef .tc b) = Y24 m c (Proc.devRef .tc b) := by
  unfold Y25; exact Pipeline.withArrays_of_ne spec12 c _ _ b hb
/-- An input window's array is handed back as found. -/
theorem Y25_in (c : Dev nD) (w : Fin cfg12.W) (hw : (cfg12.win w).isOut = false) :
    Y25 m c (Proc.devRef .tc (Pipeline.arrRef spec12 w)) = Y24 m c (Proc.devRef .tc (Pipeline.arrRef spec12 w)) :=
  (Y25_arr m c w).trans (((dat12 (R24v m) c).arrAt_in w hw _).trans (A_eq12 (R24v m) c w))
theorem hF12 (c : Dev nD) (w : Fin cfg12.W) : (dat12 (R24v m) c).arrAt w cfg12.N = R25v m c (Pipeline.arrRef spec12 w) :=
  (Y25_arr m c w).symm
theorem hrest12 (c : Dev nD) : ∀ b, b ∉ Finset.univ.image (Pipeline.arrRef spec12) → R25v m c b = R24v m c b :=
  fun b hb => Y25_of_ne m c b fun w e => hb (Finset.mem_image.mpr ⟨w, Finset.mem_univ _, e⟩)

/-! ## Every argument ends as launched -/

theorem Y25_main_arg0 (c : Dev nD) : Y25 m c (Proc.devRef .tc main_arg0) = m ((c : Thread nD τ).loc main_arg0) :=
  (Y25_of_ne m c main_arg0 (by decide)).trans <| (Y24_of_ne m c main_arg0 (by decide)).trans <| (Y23_keep m c main_arg0 (by decide)).trans <| (Y22_of_ne m c main_arg0 (by decide)).trans <| (Y21_keep m c main_arg0 (by decide)).trans <| (Y20_of_ne m c main_arg0 (by decide)).trans <| (Y19_keep m c main_arg0 (by decide)).trans <| (Y18_of_ne m c main_arg0 (by decide)).trans <| (Y17_keep m c main_arg0 (by decide)).trans <| (Y16_of_ne m c main_arg0 (by decide)).trans <| (Y15_keep m c main_arg0 (by decide)).trans <| (Y14_of_ne m c main_arg0 (by decide)).trans <| (Y13_keep m c main_arg0 (by decide)).trans <| (Y12_of_ne m c main_arg0 (by decide)).trans <| (Y11_keep m c main_arg0 (by decide)).trans <| (Y10_of_ne m c main_arg0 (by decide)).trans <| (Y9_keep m c main_arg0 (by decide)).trans <| (Y8_of_ne m c main_arg0 (by decide)).trans <| (Y7_keep m c main_arg0 (by decide)).trans <| (Y6_of_ne m c main_arg0 (by decide)).trans <| (Y5_keep m c main_arg0 (by decide)).trans <| (Y4_of_ne m c main_arg0 (by decide)).trans <| (Y3_keep m c main_arg0 (by decide)).trans <| (Y2_in m c 0 rfl).trans <| (Y1_keep m c main_arg0 (by decide)).trans <| rfl
theorem Y25_main_arg1 (c : Dev nD) : Y25 m c (Proc.devRef .tc main_arg1) = m ((c : Thread nD τ).loc main_arg1) :=
  (Y25_of_ne m c main_arg1 (by decide)).trans <| (Y24_of_ne m c main_arg1 (by decide)).trans <| (Y23_keep m c main_arg1 (by decide)).trans <| (Y22_of_ne m c main_arg1 (by decide)).trans <| (Y21_keep m c main_arg1 (by decide)).trans <| (Y20_of_ne m c main_arg1 (by decide)).trans <| (Y19_keep m c main_arg1 (by decide)).trans <| (Y18_of_ne m c main_arg1 (by decide)).trans <| (Y17_keep m c main_arg1 (by decide)).trans <| (Y16_of_ne m c main_arg1 (by decide)).trans <| (Y15_keep m c main_arg1 (by decide)).trans <| (Y14_of_ne m c main_arg1 (by decide)).trans <| (Y13_keep m c main_arg1 (by decide)).trans <| (Y12_of_ne m c main_arg1 (by decide)).trans <| (Y11_keep m c main_arg1 (by decide)).trans <| (Y10_of_ne m c main_arg1 (by decide)).trans <| (Y9_keep m c main_arg1 (by decide)).trans <| (Y8_of_ne m c main_arg1 (by decide)).trans <| (Y7_keep m c main_arg1 (by decide)).trans <| (Y6_of_ne m c main_arg1 (by decide)).trans <| (Y5_keep m c main_arg1 (by decide)).trans <| (Y4_of_ne m c main_arg1 (by decide)).trans <| (Y3_keep m c main_arg1 (by decide)).trans <| (Y2_of_ne m c main_arg1 (by decide)).trans <| (Y1_keep m c main_arg1 (by decide)).trans <| rfl
theorem Y25_main_arg2 (c : Dev nD) : Y25 m c (Proc.devRef .tc main_arg2) = m ((c : Thread nD τ).loc main_arg2) :=
  (Y25_of_ne m c main_arg2 (by decide)).trans <| (Y24_of_ne m c main_arg2 (by decide)).trans <| (Y23_keep m c main_arg2 (by decide)).trans <| (Y22_of_ne m c main_arg2 (by decide)).trans <| (Y21_keep m c main_arg2 (by decide)).trans <| (Y20_of_ne m c main_arg2 (by decide)).trans <| (Y19_keep m c main_arg2 (by decide)).trans <| (Y18_of_ne m c main_arg2 (by decide)).trans <| (Y17_keep m c main_arg2 (by decide)).trans <| (Y16_of_ne m c main_arg2 (by decide)).trans <| (Y15_keep m c main_arg2 (by decide)).trans <| (Y14_of_ne m c main_arg2 (by decide)).trans <| (Y13_keep m c main_arg2 (by decide)).trans <| (Y12_of_ne m c main_arg2 (by decide)).trans <| (Y11_keep m c main_arg2 (by decide)).trans <| (Y10_of_ne m c main_arg2 (by decide)).trans <| (Y9_keep m c main_arg2 (by decide)).trans <| (Y8_of_ne m c main_arg2 (by decide)).trans <| (Y7_keep m c main_arg2 (by decide)).trans <| (Y6_of_ne m c main_arg2 (by decide)).trans <| (Y5_keep m c main_arg2 (by decide)).trans <| (Y4_of_ne m c main_arg2 (by decide)).trans <| (Y3_keep m c main_arg2 (by decide)).trans <| (Y2_of_ne m c main_arg2 (by decide)).trans <| (Y1_keep m c main_arg2 (by decide)).trans <| rfl
theorem Y25_main_arg3 (c : Dev nD) : Y25 m c (Proc.devRef .tc main_arg3) = m ((c : Thread nD τ).loc main_arg3) :=
  (Y25_of_ne m c main_arg3 (by decide)).trans <| (Y24_of_ne m c main_arg3 (by decide)).trans <| (Y23_keep m c main_arg3 (by decide)).trans <| (Y22_of_ne m c main_arg3 (by decide)).trans <| (Y21_keep m c main_arg3 (by decide)).trans <| (Y20_of_ne m c main_arg3 (by decide)).trans <| (Y19_keep m c main_arg3 (by decide)).trans <| (Y18_of_ne m c main_arg3 (by decide)).trans <| (Y17_keep m c main_arg3 (by decide)).trans <| (Y16_of_ne m c main_arg3 (by decide)).trans <| (Y15_keep m c main_arg3 (by decide)).trans <| (Y14_in m c 0 rfl).trans <| (Y13_keep m c main_arg3 (by decide)).trans <| (Y12_of_ne m c main_arg3 (by decide)).trans <| (Y11_keep m c main_arg3 (by decide)).trans <| (Y10_of_ne m c main_arg3 (by decide)).trans <| (Y9_keep m c main_arg3 (by decide)).trans <| (Y8_of_ne m c main_arg3 (by decide)).trans <| (Y7_keep m c main_arg3 (by decide)).trans <| (Y6_of_ne m c main_arg3 (by decide)).trans <| (Y5_keep m c main_arg3 (by decide)).trans <| (Y4_of_ne m c main_arg3 (by decide)).trans <| (Y3_keep m c main_arg3 (by decide)).trans <| (Y2_of_ne m c main_arg3 (by decide)).trans <| (Y1_keep m c main_arg3 (by decide)).trans <| rfl
theorem Y25_main_arg4 (c : Dev nD) : Y25 m c (Proc.devRef .tc main_arg4) = m ((c : Thread nD τ).loc main_arg4) :=
  (Y25_of_ne m c main_arg4 (by decide)).trans <| (Y24_of_ne m c main_arg4 (by decide)).trans <| (Y23_keep m c main_arg4 (by decide)).trans <| (Y22_of_ne m c main_arg4 (by decide)).trans <| (Y21_keep m c main_arg4 (by decide)).trans <| (Y20_of_ne m c main_arg4 (by decide)).trans <| (Y19_keep m c main_arg4 (by decide)).trans <| (Y18_of_ne m c main_arg4 (by decide)).trans <| (Y17_keep m c main_arg4 (by decide)).trans <| (Y16_of_ne m c main_arg4 (by decide)).trans <| (Y15_keep m c main_arg4 (by decide)).trans <| (Y14_of_ne m c main_arg4 (by decide)).trans <| (Y13_keep m c main_arg4 (by decide)).trans <| (Y12_of_ne m c main_arg4 (by decide)).trans <| (Y11_keep m c main_arg4 (by decide)).trans <| (Y10_of_ne m c main_arg4 (by decide)).trans <| (Y9_keep m c main_arg4 (by decide)).trans <| (Y8_of_ne m c main_arg4 (by decide)).trans <| (Y7_keep m c main_arg4 (by decide)).trans <| (Y6_of_ne m c main_arg4 (by decide)).trans <| (Y5_keep m c main_arg4 (by decide)).trans <| (Y4_of_ne m c main_arg4 (by decide)).trans <| (Y3_keep m c main_arg4 (by decide)).trans <| (Y2_of_ne m c main_arg4 (by decide)).trans <| (Y1_keep m c main_arg4 (by decide)).trans <| rfl
theorem Y25_main_arg5 (c : Dev nD) : Y25 m c (Proc.devRef .tc main_arg5) = m ((c : Thread nD τ).loc main_arg5) :=
  (Y25_of_ne m c main_arg5 (by decide)).trans <| (Y24_of_ne m c main_arg5 (by decide)).trans <| (Y23_keep m c main_arg5 (by decide)).trans <| (Y22_of_ne m c main_arg5 (by decide)).trans <| (Y21_keep m c main_arg5 (by decide)).trans <| (Y20_of_ne m c main_arg5 (by decide)).trans <| (Y19_keep m c main_arg5 (by decide)).trans <| (Y18_of_ne m c main_arg5 (by decide)).trans <| (Y17_keep m c main_arg5 (by decide)).trans <| (Y16_of_ne m c main_arg5 (by decide)).trans <| (Y15_keep m c main_arg5 (by decide)).trans <| (Y14_of_ne m c main_arg5 (by decide)).trans <| (Y13_keep m c main_arg5 (by decide)).trans <| (Y12_of_ne m c main_arg5 (by decide)).trans <| (Y11_keep m c main_arg5 (by decide)).trans <| (Y10_of_ne m c main_arg5 (by decide)).trans <| (Y9_keep m c main_arg5 (by decide)).trans <| (Y8_of_ne m c main_arg5 (by decide)).trans <| (Y7_keep m c main_arg5 (by decide)).trans <| (Y6_of_ne m c main_arg5 (by decide)).trans <| (Y5_keep m c main_arg5 (by decide)).trans <| (Y4_of_ne m c main_arg5 (by decide)).trans <| (Y3_keep m c main_arg5 (by decide)).trans <| (Y2_of_ne m c main_arg5 (by decide)).trans <| (Y1_keep m c main_arg5 (by decide)).trans <| rfl
theorem Y25_main_arg6 (c : Dev nD) : Y25 m c (Proc.devRef .tc main_arg6) = m ((c : Thread nD τ).loc main_arg6) :=
  (Y25_of_ne m c main_arg6 (by decide)).trans <| (Y24_of_ne m c main_arg6 (by decide)).trans <| (Y23_keep m c main_arg6 (by decide)).trans <| (Y22_of_ne m c main_arg6 (by decide)).trans <| (Y21_keep m c main_arg6 (by decide)).trans <| (Y20_of_ne m c main_arg6 (by decide)).trans <| (Y19_keep m c main_arg6 (by decide)).trans <| (Y18_of_ne m c main_arg6 (by decide)).trans <| (Y17_keep m c main_arg6 (by decide)).trans <| (Y16_of_ne m c main_arg6 (by decide)).trans <| (Y15_keep m c main_arg6 (by decide)).trans <| (Y14_in m c 1 rfl).trans <| (Y13_keep m c main_arg6 (by decide)).trans <| (Y12_of_ne m c main_arg6 (by decide)).trans <| (Y11_keep m c main_arg6 (by decide)).trans <| (Y10_of_ne m c main_arg6 (by decide)).trans <| (Y9_keep m c main_arg6 (by decide)).trans <| (Y8_of_ne m c main_arg6 (by decide)).trans <| (Y7_keep m c main_arg6 (by decide)).trans <| (Y6_of_ne m c main_arg6 (by decide)).trans <| (Y5_keep m c main_arg6 (by decide)).trans <| (Y4_of_ne m c main_arg6 (by decide)).trans <| (Y3_keep m c main_arg6 (by decide)).trans <| (Y2_in m c 1 rfl).trans <| (Y1_keep m c main_arg6 (by decide)).trans <| rfl
theorem Y25_main_arg7 (c : Dev nD) : Y25 m c (Proc.devRef .tc main_arg7) = m ((c : Thread nD τ).loc main_arg7) :=
  (Y25_of_ne m c main_arg7 (by decide)).trans <| (Y24_of_ne m c main_arg7 (by decide)).trans <| (Y23_keep m c main_arg7 (by decide)).trans <| (Y22_of_ne m c main_arg7 (by decide)).trans <| (Y21_keep m c main_arg7 (by decide)).trans <| (Y20_of_ne m c main_arg7 (by decide)).trans <| (Y19_keep m c main_arg7 (by decide)).trans <| (Y18_of_ne m c main_arg7 (by decide)).trans <| (Y17_keep m c main_arg7 (by decide)).trans <| (Y16_of_ne m c main_arg7 (by decide)).trans <| (Y15_keep m c main_arg7 (by decide)).trans <| (Y14_in m c 2 rfl).trans <| (Y13_keep m c main_arg7 (by decide)).trans <| (Y12_of_ne m c main_arg7 (by decide)).trans <| (Y11_keep m c main_arg7 (by decide)).trans <| (Y10_of_ne m c main_arg7 (by decide)).trans <| (Y9_keep m c main_arg7 (by decide)).trans <| (Y8_of_ne m c main_arg7 (by decide)).trans <| (Y7_keep m c main_arg7 (by decide)).trans <| (Y6_of_ne m c main_arg7 (by decide)).trans <| (Y5_keep m c main_arg7 (by decide)).trans <| (Y4_of_ne m c main_arg7 (by decide)).trans <| (Y3_keep m c main_arg7 (by decide)).trans <| (Y2_in m c 2 rfl).trans <| (Y1_keep m c main_arg7 (by decide)).trans <| rfl
theorem Y25_main_arg8 (c : Dev nD) : Y25 m c (Proc.devRef .tc main_arg8) = m ((c : Thread nD τ).loc main_arg8) :=
  (Y25_of_ne m c main_arg8 (by decide)).trans <| (Y24_of_ne m c main_arg8 (by decide)).trans <| (Y23_keep m c main_arg8 (by decide)).trans <| (Y22_of_ne m c main_arg8 (by decide)).trans <| (Y21_keep m c main_arg8 (by decide)).trans <| (Y20_of_ne m c main_arg8 (by decide)).trans <| (Y19_keep m c main_arg8 (by decide)).trans <| (Y18_of_ne m c main_arg8 (by decide)).trans <| (Y17_keep m c main_arg8 (by decide)).trans <| (Y16_of_ne m c main_arg8 (by decide)).trans <| (Y15_keep m c main_arg8 (by decide)).trans <| (Y14_of_ne m c main_arg8 (by decide)).trans <| (Y13_keep m c main_arg8 (by decide)).trans <| (Y12_of_ne m c main_arg8 (by decide)).trans <| (Y11_keep m c main_arg8 (by decide)).trans <| (Y10_of_ne m c main_arg8 (by decide)).trans <| (Y9_keep m c main_arg8 (by decide)).trans <| (Y8_of_ne m c main_arg8 (by decide)).trans <| (Y7_keep m c main_arg8 (by decide)).trans <| (Y6_of_ne m c main_arg8 (by decide)).trans <| (Y5_keep m c main_arg8 (by decide)).trans <| (Y4_of_ne m c main_arg8 (by decide)).trans <| (Y3_keep m c main_arg8 (by decide)).trans <| (Y2_of_ne m c main_arg8 (by decide)).trans <| (Y1_keep m c main_arg8 (by decide)).trans <| rfl
theorem Y25_main_arg9 (c : Dev nD) : Y25 m c (Proc.devRef .tc main_arg9) = m ((c : Thread nD τ).loc main_arg9) :=
  (Y25_of_ne m c main_arg9 (by decide)).trans <| (Y24_of_ne m c main_arg9 (by decide)).trans <| (Y23_keep m c main_arg9 (by decide)).trans <| (Y22_of_ne m c main_arg9 (by decide)).trans <| (Y21_keep m c main_arg9 (by decide)).trans <| (Y20_of_ne m c main_arg9 (by decide)).trans <| (Y19_keep m c main_arg9 (by decide)).trans <| (Y18_of_ne m c main_arg9 (by decide)).trans <| (Y17_keep m c main_arg9 (by decide)).trans <| (Y16_of_ne m c main_arg9 (by decide)).trans <| (Y15_keep m c main_arg9 (by decide)).trans <| (Y14_of_ne m c main_arg9 (by decide)).trans <| (Y13_keep m c main_arg9 (by decide)).trans <| (Y12_of_ne m c main_arg9 (by decide)).trans <| (Y11_keep m c main_arg9 (by decide)).trans <| (Y10_of_ne m c main_arg9 (by decide)).trans <| (Y9_keep m c main_arg9 (by decide)).trans <| (Y8_of_ne m c main_arg9 (by decide)).trans <| (Y7_keep m c main_arg9 (by decide)).trans <| (Y6_of_ne m c main_arg9 (by decide)).trans <| (Y5_keep m c main_arg9 (by decide)).trans <| (Y4_of_ne m c main_arg9 (by decide)).trans <| (Y3_keep m c main_arg9 (by decide)).trans <| (Y2_of_ne m c main_arg9 (by decide)).trans <| (Y1_keep m c main_arg9 (by decide)).trans <| rfl
theorem Y25_main_arg10 (c : Dev nD) : Y25 m c (Proc.devRef .tc main_arg10) = m ((c : Thread nD τ).loc main_arg10) :=
  (Y25_of_ne m c main_arg10 (by decide)).trans <| (Y24_of_ne m c main_arg10 (by decide)).trans <| (Y23_keep m c main_arg10 (by decide)).trans <| (Y22_of_ne m c main_arg10 (by decide)).trans <| (Y21_keep m c main_arg10 (by decide)).trans <| (Y20_of_ne m c main_arg10 (by decide)).trans <| (Y19_keep m c main_arg10 (by decide)).trans <| (Y18_of_ne m c main_arg10 (by decide)).trans <| (Y17_keep m c main_arg10 (by decide)).trans <| (Y16_of_ne m c main_arg10 (by decide)).trans <| (Y15_keep m c main_arg10 (by decide)).trans <| (Y14_of_ne m c main_arg10 (by decide)).trans <| (Y13_keep m c main_arg10 (by decide)).trans <| (Y12_of_ne m c main_arg10 (by decide)).trans <| (Y11_keep m c main_arg10 (by decide)).trans <| (Y10_of_ne m c main_arg10 (by decide)).trans <| (Y9_keep m c main_arg10 (by decide)).trans <| (Y8_of_ne m c main_arg10 (by decide)).trans <| (Y7_keep m c main_arg10 (by decide)).trans <| (Y6_of_ne m c main_arg10 (by decide)).trans <| (Y5_keep m c main_arg10 (by decide)).trans <| (Y4_of_ne m c main_arg10 (by decide)).trans <| (Y3_keep m c main_arg10 (by decide)).trans <| (Y2_of_ne m c main_arg10 (by decide)).trans <| (Y1_keep m c main_arg10 (by decide)).trans <| rfl
theorem Y25_main_arg11 (c : Dev nD) : Y25 m c (Proc.devRef .tc main_arg11) = m ((c : Thread nD τ).loc main_arg11) :=
  (Y25_of_ne m c main_arg11 (by decide)).trans <| (Y24_of_ne m c main_arg11 (by decide)).trans <| (Y23_keep m c main_arg11 (by decide)).trans <| (Y22_of_ne m c main_arg11 (by decide)).trans <| (Y21_keep m c main_arg11 (by decide)).trans <| (Y20_of_ne m c main_arg11 (by decide)).trans <| (Y19_keep m c main_arg11 (by decide)).trans <| (Y18_of_ne m c main_arg11 (by decide)).trans <| (Y17_keep m c main_arg11 (by decide)).trans <| (Y16_of_ne m c main_arg11 (by decide)).trans <| (Y15_keep m c main_arg11 (by decide)).trans <| (Y14_of_ne m c main_arg11 (by decide)).trans <| (Y13_keep m c main_arg11 (by decide)).trans <| (Y12_of_ne m c main_arg11 (by decide)).trans <| (Y11_keep m c main_arg11 (by decide)).trans <| (Y10_of_ne m c main_arg11 (by decide)).trans <| (Y9_keep m c main_arg11 (by decide)).trans <| (Y8_of_ne m c main_arg11 (by decide)).trans <| (Y7_keep m c main_arg11 (by decide)).trans <| (Y6_of_ne m c main_arg11 (by decide)).trans <| (Y5_keep m c main_arg11 (by decide)).trans <| (Y4_of_ne m c main_arg11 (by decide)).trans <| (Y3_keep m c main_arg11 (by decide)).trans <| (Y2_of_ne m c main_arg11 (by decide)).trans <| (Y1_keep m c main_arg11 (by decide)).trans <| rfl
theorem Y25_main_arg12 (c : Dev nD) : Y25 m c (Proc.devRef .tc main_arg12) = m ((c : Thread nD τ).loc main_arg12) :=
  (Y25_of_ne m c main_arg12 (by decide)).trans <| (Y24_in m c 1 rfl).trans <| (Y23_keep m c main_arg12 (by decide)).trans <| (Y22_of_ne m c main_arg12 (by decide)).trans <| (Y21_keep m c main_arg12 (by decide)).trans <| (Y20_of_ne m c main_arg12 (by decide)).trans <| (Y19_keep m c main_arg12 (by decide)).trans <| (Y18_of_ne m c main_arg12 (by decide)).trans <| (Y17_keep m c main_arg12 (by decide)).trans <| (Y16_of_ne m c main_arg12 (by decide)).trans <| (Y15_keep m c main_arg12 (by decide)).trans <| (Y14_of_ne m c main_arg12 (by decide)).trans <| (Y13_keep m c main_arg12 (by decide)).trans <| (Y12_in m c 1 rfl).trans <| (Y11_keep m c main_arg12 (by decide)).trans <| (Y10_of_ne m c main_arg12 (by decide)).trans <| (Y9_keep m c main_arg12 (by decide)).trans <| (Y8_of_ne m c main_arg12 (by decide)).trans <| (Y7_keep m c main_arg12 (by decide)).trans <| (Y6_of_ne m c main_arg12 (by decide)).trans <| (Y5_keep m c main_arg12 (by decide)).trans <| (Y4_of_ne m c main_arg12 (by decide)).trans <| (Y3_keep m c main_arg12 (by decide)).trans <| (Y2_of_ne m c main_arg12 (by decide)).trans <| (Y1_keep m c main_arg12 (by decide)).trans <| rfl
theorem Y25_main_arg13 (c : Dev nD) : Y25 m c (Proc.devRef .tc main_arg13) = m ((c : Thread nD τ).loc main_arg13) :=
  (Y25_of_ne m c main_arg13 (by decide)).trans <| (Y24_in m c 2 rfl).trans <| (Y23_keep m c main_arg13 (by decide)).trans <| (Y22_of_ne m c main_arg13 (by decide)).trans <| (Y21_keep m c main_arg13 (by decide)).trans <| (Y20_of_ne m c main_arg13 (by decide)).trans <| (Y19_keep m c main_arg13 (by decide)).trans <| (Y18_of_ne m c main_arg13 (by decide)).trans <| (Y17_keep m c main_arg13 (by decide)).trans <| (Y16_of_ne m c main_arg13 (by decide)).trans <| (Y15_keep m c main_arg13 (by decide)).trans <| (Y14_of_ne m c main_arg13 (by decide)).trans <| (Y13_keep m c main_arg13 (by decide)).trans <| (Y12_in m c 2 rfl).trans <| (Y11_keep m c main_arg13 (by decide)).trans <| (Y10_of_ne m c main_arg13 (by decide)).trans <| (Y9_keep m c main_arg13 (by decide)).trans <| (Y8_of_ne m c main_arg13 (by decide)).trans <| (Y7_keep m c main_arg13 (by decide)).trans <| (Y6_of_ne m c main_arg13 (by decide)).trans <| (Y5_keep m c main_arg13 (by decide)).trans <| (Y4_of_ne m c main_arg13 (by decide)).trans <| (Y3_keep m c main_arg13 (by decide)).trans <| (Y2_of_ne m c main_arg13 (by decide)).trans <| (Y1_keep m c main_arg13 (by decide)).trans <| rfl
theorem Y25_main_arg14 (c : Dev nD) : Y25 m c (Proc.devRef .tc main_arg14) = m ((c : Thread nD τ).loc main_arg14) :=
  (Y25_of_ne m c main_arg14 (by decide)).trans <| (Y24_in m c 3 rfl).trans <| (Y23_keep m c main_arg14 (by decide)).trans <| (Y22_of_ne m c main_arg14 (by decide)).trans <| (Y21_keep m c main_arg14 (by decide)).trans <| (Y20_of_ne m c main_arg14 (by decide)).trans <| (Y19_keep m c main_arg14 (by decide)).trans <| (Y18_of_ne m c main_arg14 (by decide)).trans <| (Y17_keep m c main_arg14 (by decide)).trans <| (Y16_of_ne m c main_arg14 (by decide)).trans <| (Y15_keep m c main_arg14 (by decide)).trans <| (Y14_of_ne m c main_arg14 (by decide)).trans <| (Y13_keep m c main_arg14 (by decide)).trans <| (Y12_in m c 3 rfl).trans <| (Y11_keep m c main_arg14 (by decide)).trans <| (Y10_of_ne m c main_arg14 (by decide)).trans <| (Y9_keep m c main_arg14 (by decide)).trans <| (Y8_of_ne m c main_arg14 (by decide)).trans <| (Y7_keep m c main_arg14 (by decide)).trans <| (Y6_of_ne m c main_arg14 (by decide)).trans <| (Y5_keep m c main_arg14 (by decide)).trans <| (Y4_of_ne m c main_arg14 (by decide)).trans <| (Y3_keep m c main_arg14 (by decide)).trans <| (Y2_of_ne m c main_arg14 (by decide)).trans <| (Y1_keep m c main_arg14 (by decide)).trans <| rfl
theorem Y25_main_arg15 (c : Dev nD) : Y25 m c (Proc.devRef .tc main_arg15) = m ((c : Thread nD τ).loc main_arg15) :=
  (Y25_of_ne m c main_arg15 (by decide)).trans <| (Y24_in m c 4 rfl).trans <| (Y23_keep m c main_arg15 (by decide)).trans <| (Y22_of_ne m c main_arg15 (by decide)).trans <| (Y21_keep m c main_arg15 (by decide)).trans <| (Y20_of_ne m c main_arg15 (by decide)).trans <| (Y19_keep m c main_arg15 (by decide)).trans <| (Y18_of_ne m c main_arg15 (by decide)).trans <| (Y17_keep m c main_arg15 (by decide)).trans <| (Y16_of_ne m c main_arg15 (by decide)).trans <| (Y15_keep m c main_arg15 (by decide)).trans <| (Y14_of_ne m c main_arg15 (by decide)).trans <| (Y13_keep m c main_arg15 (by decide)).trans <| (Y12_in m c 4 rfl).trans <| (Y11_keep m c main_arg15 (by decide)).trans <| (Y10_of_ne m c main_arg15 (by decide)).trans <| (Y9_keep m c main_arg15 (by decide)).trans <| (Y8_of_ne m c main_arg15 (by decide)).trans <| (Y7_keep m c main_arg15 (by decide)).trans <| (Y6_of_ne m c main_arg15 (by decide)).trans <| (Y5_keep m c main_arg15 (by decide)).trans <| (Y4_of_ne m c main_arg15 (by decide)).trans <| (Y3_keep m c main_arg15 (by decide)).trans <| (Y2_of_ne m c main_arg15 (by decide)).trans <| (Y1_keep m c main_arg15 (by decide)).trans <| rfl

/-! ## The proof data family and the thread state -/

abbrev adm : (p : Fin 13) → (pcfgs (F := F) p).Adm := fun p => (cfgs p).toPCfg_adm
/-- Every pipeline's proof data, each at its region's entry contents. -/
def pdats : (p : Fin 13) → (c : Dev nD) → Dat τ (Elt F) Unit ℕ (UR sig nD τ) ℕ (Pipeline.pin (pcfgs (F := F)) adm p) c
  | ⟨0, _⟩ => fun c => dat0 (R1v m) c
  | ⟨1, _⟩ => fun c => dat1 (R3v m) c
  | ⟨2, _⟩ => fun c => dat2 (R5v m) c
  | ⟨3, _⟩ => fun c => dat3 (R7v m) c
  | ⟨4, _⟩ => fun c => dat4 (R9v m) c
  | ⟨5, _⟩ => fun c => dat5 (R11v m) c
  | ⟨6, _⟩ => fun c => dat6 (R13v m) c
  | ⟨7, _⟩ => fun c => dat7 (R15v m) c
  | ⟨8, _⟩ => fun c => dat8 (R17v m) c
  | ⟨9, _⟩ => fun c => dat9 (R19v m) c
  | ⟨10, _⟩ => fun c => dat10 (R21v m) c
  | ⟨11, _⟩ => fun c => dat11 (R23v m) c
  | ⟨12, _⟩ => fun c => dat12 (R24v m) c
abbrev 𝒱₀ : Variants := Variants.none
abbrev L : GSem nD τ sig → Finset Unit := fun _ => ∅
abbrev lv : GSem nD τ sig → Unit → ℕ := fun _ _ => 0
/-- What rides beside the buffers through every segment: the core's generator register at some state and what it owes, nothing. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (Y25 m c) ∗ ∃ r, prngReg c r)

/-! ## The regions as segments -/

set_option backward.isDefEq.respectTransparency.types false in
/-- Region 0 over the thread state: its arrays split out of the unscoped buffers and put back at the exit contents; the generator
    register into the pipeline's invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (R1v m) c).loose
  hwaits := Pipeline.hwaits_of_owed_zero _ _ _ _ L lv 0 fun _ _ => rfl
  pre c := iprop(StableHlo.held (c : Thread nD τ) (Pipeline.ucRefs τ sig) (Y1 m c) ∗ R c)
  post c := iprop(StableHlo.held (c : Thread nD τ) (Pipeline.ucRefs τ sig) (Y2 m c) ∗ R c)
  X c := iprop(∃ r, prngReg c r)
  Y c := iprop(∃ r, prngReg c r)
  Z c := Pipeline.unscopedRest (Ix := Unit) (Name := ℕ) (U := UR sig nD τ) (Lvl := ℕ) spec0 c (R1v m c)
  hentry c := by
    rw [Pipeline.ownSems0_none]
    have hsplit := Pipeline.arrays_of_unscopedBufs (p := 0) (pcfgs (F := F)) adm (pdats m) launch0.win launch0.arr_whole c
      ((pdats m 0 c).share_full fun _ => rfl) (R1v m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (R1v m c) (R2v m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: its arrays split out of the unscoped buffers and put back at the exit contents; the generator
    register into the pipeline's invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (R3v m) c).loose
  hwaits := Pipeline.hwaits_of_owed_zero _ _ _ _ L lv 1 fun _ _ => rfl
  pre c := iprop(StableHlo.held (c : Thread nD τ) (Pipeline.ucRefs τ sig) (Y3 m c) ∗ R c)
  post c := iprop(StableHlo.held (c : Thread nD τ) (Pipeline.ucRefs τ sig) (Y4 m c) ∗ R c)
  X c := iprop(∃ r, prngReg c r)
  Y c := iprop(∃ r, prngReg c r)
  Z c := Pipeline.unscopedRest (Ix := Unit) (Name := ℕ) (U := UR sig nD τ) (Lvl := ℕ) spec1 c (R3v m c)
  hentry c := by
    rw [Pipeline.ownSems0_none]
    have hsplit := Pipeline.arrays_of_unscopedBufs (p := 1) (pcfgs (F := F)) adm (pdats m) launch1.win launch1.arr_whole c
      ((pdats m 1 c).share_full fun _ => rfl) (R3v m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (R3v m c) (R4v m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: its arrays split out of the unscoped buffers and put back at the exit contents; the generator
    register into the pipeline's invariant and out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (R5v m) c).loose
  hwaits := Pipeline.hwaits_of_owed_zero _ _ _ _ L lv 2 fun _ _ => rfl
  pre c := iprop(StableHlo.held (c : Thread nD τ) (Pipeline.ucRefs τ sig) (Y5 m c) ∗ R c)
  post c := iprop(StableHlo.held (c : Thread nD τ) (Pipeline.ucRefs τ sig) (Y6 m c) ∗ R c)
  X c := iprop(∃ r, prngReg c r)
  Y c := iprop(∃ r, prngReg c r)
  Z c := Pipeline.unscopedRest (Ix := Unit) (Name := ℕ) (U := UR sig nD τ) (Lvl := ℕ) spec2 c (R5v m c)
  hentry c := by
    rw [Pipeline.ownSems0_none]
    have hsplit := Pipeline.arrays_of_unscopedBufs (p := 2) (pcfgs (F := F)) adm (pdats m) launch2.win launch2.arr_whole c
      ((pdats m 2 c).share_full fun _ => rfl) (R5v m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (R5v m c) (R6v m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: its arrays split out of the unscoped buffers and put back at the exit contents; the generator
    register into the pipeline's invariant and out; nothing owed; no semaphore of the kernel's own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (R7v m) c).loose
  hwaits := Pipeline.hwaits_of_owed_zero _ _ _ _ L lv 3 fun _ _ => rfl
  pre c := iprop(StableHlo.held (c : Thread nD τ) (Pipeline.ucRefs τ sig) (Y7 m c) ∗ R c)
  post c := iprop(StableHlo.held (c : Thread nD τ) (Pipeline.ucRefs τ sig) (Y8 m c) ∗ R c)
  X c := iprop(∃ r, prngReg c r)
  Y c := iprop(∃ r, prngReg c r)
  Z c := Pipeline.unscopedRest (Ix := Unit) (Name := ℕ) (U := UR sig nD τ) (Lvl := ℕ) spec3 c (R7v m c)
  hentry c := by
    rw [Pipeline.ownSems0_none]
    have hsplit := Pipeline.arrays_of_unscopedBufs (p := 3) (pcfgs (F := F)) adm (pdats m) launch3.win launch3.arr_whole c
      ((pdats m 3 c).share_full fun _ => rfl) (R7v m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (R7v m c) (R8v m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: its arrays split out of the unscoped buffers and put back at the exit contents; the generator
    register into the pipeline's invariant and out; nothing owed; no semaphore of the kernel's own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (R9v m) c).loose
  hwaits := Pipeline.hwaits_of_owed_zero _ _ _ _ L lv 4 fun _ _ => rfl
  pre c := iprop(StableHlo.held (c : Thread nD τ) (Pipeline.ucRefs τ sig) (Y9 m c) ∗ R c)
  post c := iprop(StableHlo.held (c : Thread nD τ) (Pipeline.ucRefs τ sig) (Y10 m c) ∗ R c)
  X c := iprop(∃ r, prngReg c r)
  Y c := iprop(∃ r, prngReg c r)
  Z c := Pipeline.unscopedRest (Ix := Unit) (Name := ℕ) (U := UR sig nD τ) (Lvl := ℕ) spec4 c (R9v m c)
  hentry c := by
    rw [Pipeline.ownSems0_none]
    have hsplit := Pipeline.arrays_of_unscopedBufs (p := 4) (pcfgs (F := F)) adm (pdats m) launch4.win launch4.arr_whole c
      ((pdats m 4 c).share_full fun _ => rfl) (R9v m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (R9v m c) (R10v m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: its arrays split out of the unscoped buffers and put back at the exit contents; the generator
    register into the pipeline's invariant and out; nothing owed; no semaphore of the kernel's own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (R11v m) c).loose
  hwaits := Pipeline.hwaits_of_owed_zero _ _ _ _ L lv 5 fun _ _ => rfl
  pre c := iprop(StableHlo.held (c : Thread nD τ) (Pipeline.ucRefs τ sig) (Y11 m c) ∗ R c)
  post c := iprop(StableHlo.held (c : Thread nD τ) (Pipeline.ucRefs τ sig) (Y12 m c) ∗ R c)
  X c := iprop(∃ r, prngReg c r)
  Y c := iprop(∃ r, prngReg c r)
  Z c := Pipeline.unscopedRest (Ix := Unit) (Name := ℕ) (U := UR sig nD τ) (Lvl := ℕ) spec5 c (R11v m c)
  hentry c := by
    rw [Pipeline.ownSems0_none]
    have hsplit := Pipeline.arrays_of_unscopedBufs (p := 5) (pcfgs (F := F)) adm (pdats m) launch5.win launch5.arr_whole c
      ((pdats m 5 c).share_full fun _ => rfl) (R11v m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (R11v m c) (R12v m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: its arrays split out of the unscoped buffers and put back at the exit contents; the generator
    register into the pipeline's invariant and out; nothing owed; no semaphore of the kernel's own. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (R13v m) c).loose
  hwaits := Pipeline.hwaits_of_owed_zero _ _ _ _ L lv 6 fun _ _ => rfl
  pre c := iprop(StableHlo.held (c : Thread nD τ) (Pipeline.ucRefs τ sig) (Y13 m c) ∗ R c)
  post c := iprop(StableHlo.held (c : Thread nD τ) (Pipeline.ucRefs τ sig) (Y14 m c) ∗ R c)
  X c := iprop(∃ r, prngReg c r)
  Y c := iprop(∃ r, prngReg c r)
  Z c := Pipeline.unscopedRest (Ix := Unit) (Name := ℕ) (U := UR sig nD τ) (Lvl := ℕ) spec6 c (R13v m c)
  hentry c := by
    rw [Pipeline.ownSems0_none]
    have hsplit := Pipeline.arrays_of_unscopedBufs (p := 6) (pcfgs (F := F)) adm (pdats m) launch6.win launch6.arr_whole c
      ((pdats m 6 c).share_full fun _ => rfl) (R13v m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (R13v m c) (R14v m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: its arrays split out of the unscoped buffers and put back at the exit contents; the generator
    register into the pipeline's invariant and out; nothing owed; no semaphore of the kernel's own. -/
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (R15v m) c).loose
  hwaits := Pipeline.hwaits_of_owed_zero _ _ _ _ L lv 7 fun _ _ => rfl
  pre c := iprop(StableHlo.held (c : Thread nD τ) (Pipeline.ucRefs τ sig) (Y15 m c) ∗ R c)
  post c := iprop(StableHlo.held (c : Thread nD τ) (Pipeline.ucRefs τ sig) (Y16 m c) ∗ R c)
  X c := iprop(∃ r, prngReg c r)
  Y c := iprop(∃ r, prngReg c r)
  Z c := Pipeline.unscopedRest (Ix := Unit) (Name := ℕ) (U := UR sig nD τ) (Lvl := ℕ) spec7 c (R15v m c)
  hentry c := by
    rw [Pipeline.ownSems0_none]
    have hsplit := Pipeline.arrays_of_unscopedBufs (p := 7) (pcfgs (F := F)) adm (pdats m) launch7.win launch7.arr_whole c
      ((pdats m 7 c).share_full fun _ => rfl) (R15v m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (R15v m c) (R16v m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8 over the thread state: its arrays split out of the unscoped buffers and put back at the exit contents; the generator
    register into the pipeline's invariant and out; nothing owed; no semaphore of the kernel's own. -/
def reg8 : Pipeline.RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (R17v m) c).loose
  hwaits := Pipeline.hwaits_of_owed_zero _ _ _ _ L lv 8 fun _ _ => rfl
  pre c := iprop(StableHlo.held (c : Thread nD τ) (Pipeline.ucRefs τ sig) (Y17 m c) ∗ R c)
  post c := iprop(StableHlo.held (c : Thread nD τ) (Pipeline.ucRefs τ sig) (Y18 m c) ∗ R c)
  X c := iprop(∃ r, prngReg c r)
  Y c := iprop(∃ r, prngReg c r)
  Z c := Pipeline.unscopedRest (Ix := Unit) (Name := ℕ) (U := UR sig nD τ) (Lvl := ℕ) spec8 c (R17v m c)
  hentry c := by
    rw [Pipeline.ownSems0_none]
    have hsplit := Pipeline.arrays_of_unscopedBufs (p := 8) (pcfgs (F := F)) adm (pdats m) launch8.win launch8.arr_whole c
      ((pdats m 8 c).share_full fun _ => rfl) (R17v m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (R17v m c) (R18v m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9 over the thread state: its arrays split out of the unscoped buffers and put back at the exit contents; the generator
    register into the pipeline's invariant and out; nothing owed; no semaphore of the kernel's own. -/
def reg9 : Pipeline.RegionSeg (pcfgs (F := F)) adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (R19v m) c).loose
  hwaits := Pipeline.hwaits_of_owed_zero _ _ _ _ L lv 9 fun _ _ => rfl
  pre c := iprop(StableHlo.held (c : Thread nD τ) (Pipeline.ucRefs τ sig) (Y19 m c) ∗ R c)
  post c := iprop(StableHlo.held (c : Thread nD τ) (Pipeline.ucRefs τ sig) (Y20 m c) ∗ R c)
  X c := iprop(∃ r, prngReg c r)
  Y c := iprop(∃ r, prngReg c r)
  Z c := Pipeline.unscopedRest (Ix := Unit) (Name := ℕ) (U := UR sig nD τ) (Lvl := ℕ) spec9 c (R19v m c)
  hentry c := by
    rw [Pipeline.ownSems0_none]
    have hsplit := Pipeline.arrays_of_unscopedBufs (p := 9) (pcfgs (F := F)) adm (pdats m) launch9.win launch9.arr_whole c
      ((pdats m 9 c).share_full fun _ => rfl) (R19v m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (R19v m c) (R20v m c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 10 over the thread state: its arrays split out of the unscoped buffers and put back at the exit contents; the generator
    register into the pipeline's invariant and out; nothing owed; no semaphore of the kernel's own. -/
def reg10 : Pipeline.RegionSeg (pcfgs (F := F)) adm (pdats m) () defs₀ 𝒱₀ L lv 10 where
  win := launch10.win.to₀
  block_pos := launch10.block_pos
  stage_whole := launch10.stage_whole
  K := PEmpty
  osem k := k.elim
  ho := Pipeline.OwnSemFacts.none _
  hbody c := (body_obligation10 (R21v m) c).loose
  hwaits := Pipeline.hwaits_of_owed_zero _ _ _ _ L lv 10 fun _ _ => rfl
  pre c := iprop(StableHlo.held (c : Thread nD τ) (Pipeline.ucRefs τ sig) (Y21 m c) ∗ R c)
  post c := iprop(StableHlo.held (c : Thread nD τ) (Pipeline.ucRefs τ sig) (Y22 m c) ∗ R c)
  X c := iprop(∃ r, prngReg c r)
  Y c := iprop(∃ r, prngReg c r)
  Z c := Pipeline.unscopedRest (Ix := Unit) (Name := ℕ) (U := UR sig nD τ) (Lvl := ℕ) spec10 c (R21v m c)
  hentry c := by
    rw [Pipeline.ownSems0_none]
    have hsplit := Pipeline.arrays_of_unscopedBufs (p := 10) (pcfgs (F := F)) adm (pdats m) launch10.win launch10.arr_whole c
      ((pdats m 10 c).share_full fun _ => rfl) (R21v m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (R21v m c) (R22v m c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 11 over the thread state: its arrays split out of the unscoped buffers and put back at the exit contents; the generator
    register into the pipeline's invariant and out; nothing owed; no semaphore of the kernel's own. -/
def reg11 : Pipeline.RegionSeg (pcfgs (F := F)) adm (pdats m) () defs₀ 𝒱₀ L lv 11 where
  win := launch11.win.to₀
  block_pos := launch11.block_pos
  stage_whole := launch11.stage_whole
  K := PEmpty
  osem k := k.elim
  ho := Pipeline.OwnSemFacts.none _
  hbody c := (body_obligation11 (R23v m) c).loose
  hwaits := Pipeline.hwaits_of_owed_zero _ _ _ _ L lv 11 fun _ _ => rfl
  pre c := iprop(StableHlo.held (c : Thread nD τ) (Pipeline.ucRefs τ sig) (Y23 m c) ∗ R c)
  post c := iprop(StableHlo.held (c : Thread nD τ) (Pipeline.ucRefs τ sig) (Y24 m c) ∗ R c)
  X c := iprop(∃ r, prngReg c r)
  Y c := iprop(∃ r, prngReg c r)
  Z c := Pipeline.unscopedRest (Ix := Unit) (Name := ℕ) (U := UR sig nD τ) (Lvl := ℕ) spec11 c (R23v m c)
  hentry c := by
    rw [Pipeline.ownSems0_none]
    have hsplit := Pipeline.arrays_of_unscopedBufs (p := 11) (pcfgs (F := F)) adm (pdats m) launch11.win launch11.arr_whole c
      ((pdats m 11 c).share_full fun _ => rfl) (R23v m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m) ((pdats m 11 c).share_full fun _ => rfl)
      (R23v m c) (R24v m c) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 12 over the thread state: its arrays split out of the unscoped buffers and put back at the exit contents; the generator
    register into the pipeline's invariant and out; nothing owed; no semaphore of the kernel's own. -/
def reg12 : Pipeline.RegionSeg (pcfgs (F := F)) adm (pdats m) () defs₀ 𝒱₀ L lv 12 where
  win := launch12.win.to₀
  block_pos := launch12.block_pos
  stage_whole := launch12.stage_whole
  K := PEmpty
  osem k := k.elim
  ho := Pipeline.OwnSemFacts.none _
  hbody c := (body_obligation12 (R24v m) c).loose
  hwaits := Pipeline.hwaits_of_owed_zero _ _ _ _ L lv 12 fun _ _ => rfl
  pre c := iprop(StableHlo.held (c : Thread nD τ) (Pipeline.ucRefs τ sig) (Y24 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec12 c (R24v m c)
  hentry c := by
    rw [Pipeline.ownSems0_none]
    have hsplit := Pipeline.arrays_of_unscopedBufs (p := 12) (pcfgs (F := F)) adm (pdats m) launch12.win launch12.arr_whole c
      ((pdats m 12 c).share_full fun _ => rfl) (R24v m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m) ((pdats m 12 c).share_full fun _ => rfl)
      (R24v m c) (R25v m c) ((pdats m 12 c).arrAt · cfg12.N) (hF12 m c) (hrest12 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The main function as segments, and the launch -/

abbrev segs : List (Pipeline.Seg (pcfgs (F := F)) adm (pdats m) () defs₀ 𝒱₀ L lv) :=
  [ .host (hseg hostOps0 hostOps0_sub hostOps0_fresh (Y0 m)),
    .region (reg0 m),
    .host (hseg hostOps1 hostOps1_sub hostOps1_fresh (Y2 m)),
    .region (reg1 m),
    .host (hseg hostOps2 hostOps2_sub hostOps2_fresh (Y4 m)),
    .region (reg2 m),
    .host (hseg hostOps3 hostOps3_sub hostOps3_fresh (Y6 m)),
    .region (reg3 m),
    .host (hseg hostOps4 hostOps4_sub hostOps4_fresh (Y8 m)),
    .region (reg4 m),
    .host (hseg hostOps5 hostOps5_sub hostOps5_fresh (Y10 m)),
    .region (reg5 m),
    .host (hseg hostOps6 hostOps6_sub hostOps6_fresh (Y12 m)),
    .region (reg6 m),
    .host (hseg hostOps7 hostOps7_sub hostOps7_fresh (Y14 m)),
    .region (reg7 m),
    .host (hseg hostOps8 hostOps8_sub hostOps8_fresh (Y16 m)),
    .region (reg8 m),
    .host (hseg hostOps9 hostOps9_sub hostOps9_fresh (Y18 m)),
    .region (reg9 m),
    .host (hseg hostOps10 hostOps10_sub hostOps10_fresh (Y20 m)),
    .region (reg10 m),
    .host (hseg hostOps11 hostOps11_sub hostOps11_fresh (Y22 m)),
    .region (reg11 m),
    .region (reg12 m) ]

variable (ρ : Dev nD → PrngReg)

set_option backward.isDefEq.respectTransparency.types false in
/-- From any memory with zero counters every weakly fair execution of the main function terminates, nothing faulting; the result
    buffer ends at the last valuation's contents and every argument buffer as launched. -/
theorem run_main : θ_run defs (onTc (τ := τ) (main (F := F))) ⟨m, fun _ => 0, ρ⟩ (fun r => ∀ c : Dev nD,
      r.2.mem ((c.tc : Thread nD τ).loc main_v172) = Y25 m c (Proc.devRef .tc main_v172)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11,
          Prog.lift (.customCall (Pipeline.entry 11) ()),
          Prog.lift (.customCall (Pipeline.entry 12) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Y0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Y0 m c)
        from Pipeline.unscopedBufs_held c (Y0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Y25 m c b)
    (hfin := fun c s' => by
      iintro ⟨⟨Hh, -⟩, HSI⟩
      unfold StableHlo.held
      imodintro
      iapply (pointsTo_read_all (Pipeline.ucRefs τ sig) (fun b => (((c : Thread nD τ)).1, b)) (Y25 m c) s')
      isplitl [Hh] <;> iassumption)
    (hQ := fun s h c =>
      ⟨h c _ (mem_uc main_v172 (by decide)),
       (h c _ (mem_uc main_arg0 (by decide))).trans (Y25_main_arg0 m c),
       (h c _ (mem_uc main_arg1 (by decide))).trans (Y25_main_arg1 m c),
       (h c _ (mem_uc main_arg2 (by decide))).trans (Y25_main_arg2 m c),
       (h c _ (mem_uc main_arg3 (by decide))).trans (Y25_main_arg3 m c),
       (h c _ (mem_uc main_arg4 (by decide))).trans (Y25_main_arg4 m c),
       (h c _ (mem_uc main_arg5 (by decide))).trans (Y25_main_arg5 m c),
       (h c _ (mem_uc main_arg6 (by decide))).trans (Y25_main_arg6 m c),
       (h c _ (mem_uc main_arg7 (by decide))).trans (Y25_main_arg7 m c),
       (h c _ (mem_uc main_arg8 (by decide))).trans (Y25_main_arg8 m c),
       (h c _ (mem_uc main_arg9 (by decide))).trans (Y25_main_arg9 m c),
       (h c _ (mem_uc main_arg10 (by decide))).trans (Y25_main_arg10 m c),
       (h c _ (mem_uc main_arg11 (by decide))).trans (Y25_main_arg11 m c),
       (h c _ (mem_uc main_arg12 (by decide))).trans (Y25_main_arg12 m c),
       (h c _ (mem_uc main_arg13 (by decide))).trans (Y25_main_arg13 m c),
       (h c _ (mem_uc main_arg14 (by decide))).trans (Y25_main_arg14 m c),
       (h c _ (mem_uc main_arg15 (by decide))).trans (Y25_main_arg15 m c)⟩)

end Cert.Kernel.Hand

end
-- ==== Proof.IReg0.lean ====
/-
  Region 0 of the program's thirteen kernel regions (the body `cc0__pre_kernel`): what its proof data are, at an
  arbitrary valuation `V` of the TensorCore's buffers at the region's entry.  Each window's block at a grid point is read
  off the window's array; the body loads whole blocks and overwrites each output block whole, so what it leaves in an
  output window's staging buffer is one rectangle piece holding the body's payload of the input blocks; the input
  buffers are left as found.  From this the body's Hoare triple (by symbolic execution of the skeleton) and the
  pipeline library's per-point obligation follow at every float instance.
-/
import proofs.«106875_j87694642250037_1_alg».proof.Proof.Gen.KernelIdeal.Launch
import proofs.«106875_j87694642250037_1_alg».proof.Proof.Gen.KernelIdeal.Skeleton
import proofs.«106875_j87694642250037_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every grid point, whether or not the block was fetched
    there (an unfetched point has the block index of the point before it), for any proof data on `V`'s arrays whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- An input window's staging buffer holds the window's block at every grid point, whether or not the block was fetched
    there (an unfetched point has the block index of the point before it), for any proof data on `V`'s arrays whose body
    leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- An input window's staging buffer holds the window's block at every grid point, whether or not the block was fetched
    there (an unfetched point has the block index of the point before it), for any proof data on `V`'s arrays whose body
    leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- What the body leaves in output window 3's staging buffer, as a function of the input blocks: the block-sized rectangle
    holding the body's payload. -/
def out0_3 (x0 : Vec F S5000x32 .f32) (x1 : Vec F S32x128 .f32) (x2 : Vec F S128 .f32) : Vec F S5000x128 .f32 :=
  View.canon [⟨Rect.unit (s := S5000x128) ![0, 0] S5000x128.size inb_S5000x128_S5000x128_0_0, k0_pay1 (View.ld x0 (Rect.unit (s := S5000x32) ![0, 0] S5000x32.size inb_S5000x32_S5000x32_0_0)) (View.ld x1 (Rect.unit (s := S32x128) ![0, 0] S32x128.size inb_S32x128_S32x128_0_0)) (View.ld x2 (Rect.unit (s := S128) ![0] S128.size inb_S128_S128_0))⟩]

/-- That rectangle is the whole buffer. -/
theorem cover0_3 (p0 : Vec F S5000x128 .f32) (y : S5000x128.Idx) :
    ∃ pc ∈ ([⟨Rect.unit (s := S5000x128) ![0, 0] S5000x128.size inb_S5000x128_S5000x128_0_0, p0⟩] : List (View.Piece (Elt F) S5000x128 .f32)), y ∈ pc.1.set :=
  View.cover_of_tiled [⟨Rect.unit (s := S5000x128) ![0, 0] S5000x128.size inb_S5000x128_S5000x128_0_0, p0⟩] S5000x128.size (by rfl) y

set_option maxHeartbeats 4000000 in
/-- The body on whole staging memrefs — the inputs' at given contents, the outputs' at anything — runs to its continuation with
    the inputs' contents unchanged and each output's at `out0_w` of the inputs'. -/
theorem sound_kernel0 (c : Dev nD) (E : Set ℕ) (i : grid0.Coords) (arg1 : Memref sig .tc .vmem S5000x32 .f32) (harg1 : arg1.IsWhole) (arg2 : Memref sig .tc .vmem S32x128 .f32) (harg2 : arg2.IsWhole) (arg3 : Memref sig .tc .vmem S128 .f32) (harg3 : arg3.IsWhole) (arg4 : Memref sig .tc .vmem S5000x128 .f32) (harg4 : arg4.IsWhole)
    (x0 : Vec F S5000x32 .f32) (x1 : Vec F S32x128 .f32) (x2 : Vec F S128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__pre_kernel i arg1 harg1 arg2 harg2 arg3 harg3 arg4 harg4) K := by
  simp only [cc0__pre_kernel_eq_skeleton]; unfold cc0__pre_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of this region on core `c`: the windows' arrays are `V`'s; after the body at point `t` an input's buffer holds
    its block and an output's holds `out0_w` of the input blocks; the invariant is the pipeline library's plain one (the scoped
    rest and the generator register, untouched); nothing is owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any grid point: the inputs' memrefs hold their blocks, so `sound_kernel0` applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.IReg1.lean ====
/-
  Region 1 of the program's thirteen kernel regions (the body `cc1__gin_kernel_plain`): what its proof data are, at an
  arbitrary valuation `V` of the TensorCore's buffers at the region's entry.  Each window's block at a grid point is read
  off the window's array; the body loads whole blocks and overwrites each output block whole, so what it leaves in an
  output window's staging buffer is one rectangle piece holding the body's payload of the input blocks; the input
  buffers are left as found.  From this the body's Hoare triple (by symbolic execution of the skeleton) and the
  pipeline library's per-point obligation follow at every float instance.
-/
import proofs.«106875_j87694642250037_1_alg».proof.Proof.Gen.KernelIdeal.Launch
import proofs.«106875_j87694642250037_1_alg».proof.Proof.Gen.KernelIdeal.Skeleton
import proofs.«106875_j87694642250037_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every grid point, whether or not the block was fetched
    there (an unfetched point has the block index of the point before it), for any proof data on `V`'s arrays whose body
    leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- An input window's staging buffer holds the window's block at every grid point, whether or not the block was fetched
    there (an unfetched point has the block index of the point before it), for any proof data on `V`'s arrays whose body
    leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- An input window's staging buffer holds the window's block at every grid point, whether or not the block was fetched
    there (an unfetched point has the block index of the point before it), for any proof data on `V`'s arrays whose body
    leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- An input window's staging buffer holds the window's block at every grid point, whether or not the block was fetched
    there (an unfetched point has the block index of the point before it), for any proof data on `V`'s arrays whose body
    leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- An input window's staging buffer holds the window's block at every grid point, whether or not the block was fetched
    there (an unfetched point has the block index of the point before it), for any proof data on `V`'s arrays whose body
    leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- An input window's staging buffer holds the window's block at every grid point, whether or not the block was fetched
    there (an unfetched point has the block index of the point before it), for any proof data on `V`'s arrays whose body
    leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- What the body leaves in output window 6's staging buffer, as a function of the input blocks: the block-sized rectangle
    holding the body's payload. -/
def out1_6 (x0 : Vec F S5000x128 .f32) (x1 : Vec F S5000x128 .f32) (x2 : Vec F S128x128 .f32) (x3 : Vec F S128 .f32) (x4 : Vec F S128x128 .f32) (x5 : Vec F S128 .f32) : Vec F S5000x128 .f32 :=
  View.canon [⟨Rect.unit (s := S5000x128) ![0, 0] S5000x128.size inb_S5000x128_S5000x128_0_0, k1_pay1 (View.ld x1 (Rect.unit (s := S5000x128) ![0, 0] S5000x128.size inb_S5000x128_S5000x128_0_0)) (View.ld x0 (Rect.unit (s := S5000x128) ![0, 0] S5000x128.size inb_S5000x128_S5000x128_0_0)) (View.ld x2 (Rect.unit (s := S128x128) ![0, 0] S128x128.size inb_S128x128_S128x128_0_0)) (View.ld x3 (Rect.unit (s := S128) ![0] S128.size inb_S128_S128_0)) (View.ld x4 (Rect.unit (s := S128x128) ![0, 0] S128x128.size inb_S128x128_S128x128_0_0)) (View.ld x5 (Rect.unit (s := S128) ![0] S128.size inb_S128_S128_0))⟩]

/-- That rectangle is the whole buffer. -/
theorem cover1_6 (p0 : Vec F S5000x128 .f32) (y : S5000x128.Idx) :
    ∃ pc ∈ ([⟨Rect.unit (s := S5000x128) ![0, 0] S5000x128.size inb_S5000x128_S5000x128_0_0, p0⟩] : List (View.Piece (Elt F) S5000x128 .f32)), y ∈ pc.1.set :=
  View.cover_of_tiled [⟨Rect.unit (s := S5000x128) ![0, 0] S5000x128.size inb_S5000x128_S5000x128_0_0, p0⟩] S5000x128.size (by rfl) y

set_option maxHeartbeats 4000000 in
/-- The body on whole staging memrefs — the inputs' at given contents, the outputs' at anything — runs to its continuation with
    the inputs' contents unchanged and each output's at `out1_w` of the inputs'. -/
theorem sound_kernel1 (c : Dev nD) (E : Set ℕ) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S5000x128 .f32) (harg7 : arg7.IsWhole)
    (x0 : Vec F S5000x128 .f32) (x1 : Vec F S5000x128 .f32) (x2 : Vec F S128x128 .f32) (x3 : Vec F S128 .f32) (x4 : Vec F S128x128 .f32) (x5 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__gin_kernel_plain i arg1 harg1 arg2 harg2 arg3 harg3 arg4 harg4 arg5 harg5 arg6 harg6 arg7 harg7) K := by
  simp only [cc1__gin_kernel_plain_eq_skeleton]; unfold cc1__gin_kernel_plain_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-- The proof data of this region on core `c`: the windows' arrays are `V`'s; after the body at point `t` an input's buffer holds
    its block and an output's holds `out1_w` of the input blocks; the invariant is the pipeline library's plain one (the scoped
    rest and the generator register, untouched); nothing is owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any grid point: the inputs' memrefs hold their blocks, so `sound_kernel1` applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.IReg2.lean ====
/-
  Region 2 of the program's thirteen kernel regions (the body `cc2__gin_kernel_resid`): what its proof data are, at an
  arbitrary valuation `V` of the TensorCore's buffers at the region's entry.  Each window's block at a grid point is read
  off the window's array; the body loads whole blocks and overwrites each output block whole, so what it leaves in an
  output window's staging buffer is one rectangle piece holding the body's payload of the input blocks; the input
  buffers are left as found.  From this the body's Hoare triple (by symbolic execution of the skeleton) and the
  pipeline library's per-point obligation follow at every float instance.
-/
import proofs.«106875_j87694642250037_1_alg».proof.Proof.Gen.KernelIdeal.Launch
import proofs.«106875_j87694642250037_1_alg».proof.Proof.Gen.KernelIdeal.Skeleton
import proofs.«106875_j87694642250037_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds the window's block at every grid point, whether or not the block was fetched
    there (an unfetched point has the block index of the point before it), for any proof data on `V`'s arrays whose body
    leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- An input window's staging buffer holds the window's block at every grid point, whether or not the block was fetched
    there (an unfetched point has the block index of the point before it), for any proof data on `V`'s arrays whose body
    leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- An input window's staging buffer holds the window's block at every grid point, whether or not the block was fetched
    there (an unfetched point has the block index of the point before it), for any proof data on `V`'s arrays whose body
    leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- An input window's staging buffer holds the window's block at every grid point, whether or not the block was fetched
    there (an unfetched point has the block index of the point before it), for any proof data on `V`'s arrays whose body
    leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- An input window's staging buffer holds the window's block at every grid point, whether or not the block was fetched
    there (an unfetched point has the block index of the point before it), for any proof data on `V`'s arrays whose body
    leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- An input window's staging buffer holds the window's block at every grid point, whether or not the block was fetched
    there (an unfetched point has the block index of the point before it), for any proof data on `V`'s arrays whose body
    leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- An input window's staging buffer holds the window's block at every grid point, whether or not the block was fetched
    there (an unfetched point has the block index of the point before it), for any proof data on `V`'s arrays whose body
    leaves the block in place. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- What the body leaves in output window 7's staging buffer, as a function of the input blocks: the block-sized rectangle
    holding the body's payload. -/
def out2_7 (x0 : Vec F S5000x128 .f32) (x1 : Vec F S5000x128 .f32) (x2 : Vec F S5000x128 .f32) (x3 : Vec F S128x128 .f32) (x4 : Vec F S128 .f32) (x5 : Vec F S128x128 .f32) (x6 : Vec F S128 .f32) : Vec F S5000x128 .f32 :=
  View.canon [⟨Rect.unit (s := S5000x128) ![0, 0] S5000x128.size inb_S5000x128_S5000x128_0_0, k2_pay2 (View.ld x1 (Rect.unit (s := S5000x128) ![0, 0] S5000x128.size inb_S5000x128_S5000x128_0_0)) (View.ld x0 (Rect.unit (s := S5000x128) ![0, 0] S5000x128.size inb_S5000x128_S5000x128_0_0)) (View.ld x3 (Rect.unit (s := S128x128) ![0, 0] S128x128.size inb_S128x128_S128x128_0_0)) (View.ld x4 (Rect.unit (s := S128) ![0] S128.size inb_S128_S128_0)) (View.ld x5 (Rect.unit (s := S128x128) ![0, 0] S128x128.size inb_S128x128_S128x128_0_0)) (View.ld x6 (Rect.unit (s := S128) ![0] S128.size inb_S128_S128_0)) (View.ld x2 (Rect.unit (s := S5000x128) ![0, 0] S5000x128.size inb_S5000x128_S5000x128_0_0))⟩]

/-- That rectangle is the whole buffer. -/
theorem cover2_7 (p0 : Vec F S5000x128 .f32) (y : S5000x128.Idx) :
    ∃ pc ∈ ([⟨Rect.unit (s := S5000x128) ![0, 0] S5000x128.size inb_S5000x128_S5000x128_0_0, p0⟩] : List (View.Piece (Elt F) S5000x128 .f32)), y ∈ pc.1.set :=
  View.cover_of_tiled [⟨Rect.unit (s := S5000x128) ![0, 0] S5000x128.size inb_S5000x128_S5000x128_0_0, p0⟩] S5000x128.size (by rfl) y

/-- What the body leaves in output window 8's staging buffer, as a function of the input blocks: the block-sized rectangle
    holding the body's payload. -/
def out2_8 (x0 : Vec F S5000x128 .f32) (x1 : Vec F S5000x128 .f32) (x2 : Vec F S5000x128 .f32) (x3 : Vec F S128x128 .f32) (x4 : Vec F S128 .f32) (x5 : Vec F S128x128 .f32) (x6 : Vec F S128 .f32) : Vec F S5000x128 .f32 :=
  View.canon [⟨Rect.unit (s := S5000x128) ![0, 0] S5000x128.size inb_S5000x128_S5000x128_0_0, k2_pay1 (View.ld x1 (Rect.unit (s := S5000x128) ![0, 0] S5000x128.size inb_S5000x128_S5000x128_0_0)) (View.ld x0 (Rect.unit (s := S5000x128) ![0, 0] S5000x128.size inb_S5000x128_S5000x128_0_0)) (View.ld x3 (Rect.unit (s := S128x128) ![0, 0] S128x128.size inb_S128x128_S128x128_0_0)) (View.ld x4 (Rect.unit (s := S128) ![0] S128.size inb_S128_S128_0)) (View.ld x5 (Rect.unit (s := S128x128) ![0, 0] S128x128.size inb_S128x128_S128x128_0_0)) (View.ld x6 (Rect.unit (s := S128) ![0] S128.size inb_S128_S128_0)) (View.ld x2 (Rect.unit (s := S5000x128) ![0, 0] S5000x128.size inb_S5000x128_S5000x128_0_0))⟩]

/-- That rectangle is the whole buffer. -/
theorem cover2_8 (p0 : Vec F S5000x128 .f32) (y : S5000x128.Idx) :
    ∃ pc ∈ ([⟨Rect.unit (s := S5000x128) ![0, 0] S5000x128.size inb_S5000x128_S5000x128_0_0, p0⟩] : List (View.Piece (Elt F) S5000x128 .f32)), y ∈ pc.1.set :=
  View.cover_of_tiled [⟨Rect.unit (s := S5000x128) ![0, 0] S5000x128.size inb_S5000x128_S5000x128_0_0, p0⟩] S5000x128.size (by rfl) y

set_option maxHeartbeats 4000000 in
/-- The body on whole staging memrefs — the inputs' at given contents, the outputs' at anything — runs to its continuation with
    the inputs' contents unchanged and each output's at `out2_w` of the inputs'. -/
theorem sound_kernel2 (c : Dev nD) (E : Set ℕ) (i : grid2.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S5000x128 .f32) (harg8 : arg8.IsWhole) (arg9 : Memref sig .tc .vmem S5000x128 .f32) (harg9 : arg9.IsWhole)
    (x0 : Vec F S5000x128 .f32) (x1 : Vec F S5000x128 .f32) (x2 : Vec F S5000x128 .f32) (x3 : Vec F S128x128 .f32) (x4 : Vec F S128 .f32) (x5 : Vec F S128x128 .f32) (x6 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out2_7 x0 x1 x2 x3 x4 x5 x6) ∗ owns (c : Thread nD τ) arg9 fullShare (out2_8 x0 x1 x2 x3 x4 x5 x6)) -∗ K ⟨⟩))
      ⊢ wp frame (wpE (defs₀ (F := F)) Variants.none c none) E (cc2__gin_kernel_resid i arg1 harg1 arg2 harg2 arg3 harg3 arg4 harg4 arg5 harg5 arg6 harg6 arg7 harg7 arg8 harg8 arg9 harg9) K := by
  simp only [cc2__gin_kernel_resid_eq_skeleton]; unfold cc2__gin_kernel_resid_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover2_7 _)
  iexists _; isplitr
  swap; · iexact H8
  ipureintro
  exact View.read_writes_eq_canon _ _ _ (cover2_8 _)

/-- The proof data of this region on core `c`: the windows' arrays are `V`'s; after the body at point `t` an input's buffer holds
    its block and an output's holds `out2_w` of the input blocks; the invariant is the pipeline library's plain one (the scoped
    rest and the generator register, untouched); nothing is owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
    | ⟨8, _⟩ => out2_8 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]
theorem after2_8 (c : Dev nD) (t : Fin cfg2.N) : (dat2 V c).after 8 t = out2_8 (iblk2 V c 0 t) (iblk2 V c 1 t) (iblk2 V c 2 t) (iblk2 V c 3 t) (iblk2 V c 4 t) (iblk2 V c 5 t) (iblk2 V c 6 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

/-- The body at any grid point: the inputs' memrefs hold their blocks, so `sound_kernel2` applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ (grid2.coords t) _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.IReg3.lean ====
/-
  Region 3 of the program's thirteen kernel regions (the body `cc3__gin_kernel_plain`): what its proof data are, at an
  arbitrary valuation `V` of the TensorCore's buffers at the region's entry.  Each window's block at a grid point is read
  off the window's array; the body loads whole blocks and overwrites each output block whole, so what it leaves in an
  output window's staging buffer is one rectangle piece holding the body's payload of the input blocks; the input
  buffers are left as found.  From this the body's Hoare triple (by symbolic execution of the skeleton) and the
  pipeline library's per-point obligation follow at every float instance.
-/
import proofs.«106875_j87694642250037_1_alg».proof.Proof.Gen.KernelIdeal.Launch
import proofs.«106875_j87694642250037_1_alg».proof.Proof.Gen.KernelIdeal.Skeleton
import proofs.«106875_j87694642250037_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds the window's block at every grid point, whether or not the block was fetched
    there (an unfetched point has the block index of the point before it), for any proof data on `V`'s arrays whose body
    leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- An input window's staging buffer holds the window's block at every grid point, whether or not the block was fetched
    there (an unfetched point has the block index of the point before it), for any proof data on `V`'s arrays whose body
    leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- An input window's staging buffer holds the window's block at every grid point, whether or not the block was fetched
    there (an unfetched point has the block index of the point before it), for any proof data on `V`'s arrays whose body
    leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- An input window's staging buffer holds the window's block at every grid point, whether or not the block was fetched
    there (an unfetched point has the block index of the point before it), for any proof data on `V`'s arrays whose body
    leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- An input window's staging buffer holds the window's block at every grid point, whether or not the block was fetched
    there (an unfetched point has the block index of the point before it), for any proof data on `V`'s arrays whose body
    leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- An input window's staging buffer holds the window's block at every grid point, whether or not the block was fetched
    there (an unfetched point has the block index of the point before it), for any proof data on `V`'s arrays whose body
    leaves the block in place. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- What the body leaves in output window 6's staging buffer, as a function of the input blocks: the block-sized rectangle
    holding the body's payload. -/
def out3_6 (x0 : Vec F S5000x128 .f32) (x1 : Vec F S5000x128 .f32) (x2 : Vec F S128x128 .f32) (x3 : Vec F S128 .f32) (x4 : Vec F S128x128 .f32) (x5 : Vec F S128 .f32) : Vec F S5000x128 .f32 :=
  View.canon [⟨Rect.unit (s := S5000x128) ![0, 0] S5000x128.size inb_S5000x128_S5000x128_0_0, k3_pay1 (View.ld x1 (Rect.unit (s := S5000x128) ![0, 0] S5000x128.size inb_S5000x128_S5000x128_0_0)) (View.ld x0 (Rect.unit (s := S5000x128) ![0, 0] S5000x128.size inb_S5000x128_S5000x128_0_0)) (View.ld x2 (Rect.unit (s := S128x128) ![0, 0] S128x128.size inb_S128x128_S128x128_0_0)) (View.ld x3 (Rect.unit (s := S128) ![0] S128.size inb_S128_S128_0)) (View.ld x4 (Rect.unit (s := S128x128) ![0, 0] S128x128.size inb_S128x128_S128x128_0_0)) (View.ld x5 (Rect.unit (s := S128) ![0] S128.size inb_S128_S128_0))⟩]

/-- That rectangle is the whole buffer. -/
theorem cover3_6 (p0 : Vec F S5000x128 .f32) (y : S5000x128.Idx) :
    ∃ pc ∈ ([⟨Rect.unit (s := S5000x128) ![0, 0] S5000x128.size inb_S5000x128_S5000x128_0_0, p0⟩] : List (View.Piece (Elt F) S5000x128 .f32)), y ∈ pc.1.set :=
  View.cover_of_tiled [⟨Rect.unit (s := S5000x128) ![0, 0] S5000x128.size inb_S5000x128_S5000x128_0_0, p0⟩] S5000x128.size (by rfl) y

set_option maxHeartbeats 4000000 in
/-- The body on whole staging memrefs — the inputs' at given contents, the outputs' at anything — runs to its continuation with
    the inputs' contents unchanged and each output's at `out3_w` of the inputs'. -/
theorem sound_kernel3 (c : Dev nD) (E : Set ℕ) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S5000x128 .f32) (harg7 : arg7.IsWhole)
    (x0 : Vec F S5000x128 .f32) (x1 : Vec F S5000x128 .f32) (x2 : Vec F S128x128 .f32) (x3 : Vec F S128 .f32) (x4 : Vec F S128x128 .f32) (x5 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out3_6 x0 x1 x2 x3 x4 x5)) -∗ K ⟨⟩))
      ⊢ wp frame (wpE (defs₀ (F := F)) Variants.none c none) E (cc3__gin_kernel_plain i arg1 harg1 arg2 harg2 arg3 harg3 arg4 harg4 arg5 harg5 arg6 harg6 arg7 harg7) K := by
  simp only [cc3__gin_kernel_plain_eq_skeleton]; unfold cc3__gin_kernel_plain_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

/-- The proof data of this region on core `c`: the windows' arrays are `V`'s; after the body at point `t` an input's buffer holds
    its block and an output's holds `out3_w` of the input blocks; the invariant is the pipeline library's plain one (the scoped
    rest and the generator register, untouched); nothing is owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out3_6 (iblk3 V c 0 t) (iblk3 V c 1 t) (iblk3 V c 2 t) (iblk3 V c 3 t) (iblk3 V c 4 t) (iblk3 V c 5 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-- What the body is called with at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any grid point: the inputs' memrefs hold their blocks, so `sound_kernel3` applies; the invariant and what the
    core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ (grid3.coords t) _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.IReg4.lean ====
/-
  Region 4 of the program's thirteen kernel regions (the body `cc4__gin_kernel_resid`): what its proof data are, at an
  arbitrary valuation `V` of the TensorCore's buffers at the region's entry.  Each window's block at a grid point is read
  off the window's array; the body loads whole blocks and overwrites each output block whole, so what it leaves in an
  output window's staging buffer is one rectangle piece holding the body's payload of the input blocks; the input
  buffers are left as found.  From this the body's Hoare triple (by symbolic execution of the skeleton) and the
  pipeline library's per-point obligation follow at every float instance.
-/
import proofs.«106875_j87694642250037_1_alg».proof.Proof.Gen.KernelIdeal.Launch
import proofs.«106875_j87694642250037_1_alg».proof.Proof.Gen.KernelIdeal.Skeleton
import proofs.«106875_j87694642250037_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's staging buffer holds the window's block at every grid point, whether or not the block was fetched
    there (an unfetched point has the block index of the point before it), for any proof data on `V`'s arrays whose body
    leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- An input window's staging buffer holds the window's block at every grid point, whether or not the block was fetched
    there (an unfetched point has the block index of the point before it), for any proof data on `V`'s arrays whose body
    leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- An input window's staging buffer holds the window's block at every grid point, whether or not the block was fetched
    there (an unfetched point has the block index of the point before it), for any proof data on `V`'s arrays whose body
    leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- An input window's staging buffer holds the window's block at every grid point, whether or not the block was fetched
    there (an unfetched point has the block index of the point before it), for any proof data on `V`'s arrays whose body
    leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
/-- An input window's staging buffer holds the window's block at every grid point, whether or not the block was fetched
    there (an unfetched point has the block index of the point before it), for any proof data on `V`'s arrays whose body
    leaves the block in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
/-- An input window's staging buffer holds the window's block at every grid point, whether or not the block was fetched
    there (an unfetched point has the block index of the point before it), for any proof data on `V`'s arrays whose body
    leaves the block in place. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)
/-- An input window's staging buffer holds the window's block at every grid point, whether or not the block was fetched
    there (an unfetched point has the block index of the point before it), for any proof data on `V`'s arrays whose body
    leaves the block in place. -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-- What the body leaves in output window 7's staging buffer, as a function of the input blocks: the block-sized rectangle
    holding the body's payload. -/
def out4_7 (x0 : Vec F S5000x128 .f32) (x1 : Vec F S5000x128 .f32) (x2 : Vec F S5000x128 .f32) (x3 : Vec F S128x128 .f32) (x4 : Vec F S128 .f32) (x5 : Vec F S128x128 .f32) (x6 : Vec F S128 .f32) : Vec F S5000x128 .f32 :=
  View.canon [⟨Rect.unit (s := S5000x128) ![0, 0] S5000x128.size inb_S5000x128_S5000x128_0_0, k4_pay2 (View.ld x1 (Rect.unit (s := S5000x128) ![0, 0] S5000x128.size inb_S5000x128_S5000x128_0_0)) (View.ld x0 (Rect.unit (s := S5000x128) ![0, 0] S5000x128.size inb_S5000x128_S5000x128_0_0)) (View.ld x3 (Rect.unit (s := S128x128) ![0, 0] S128x128.size inb_S128x128_S128x128_0_0)) (View.ld x4 (Rect.unit (s := S128) ![0] S128.size inb_S128_S128_0)) (View.ld x5 (Rect.unit (s := S128x128) ![0, 0] S128x128.size inb_S128x128_S128x128_0_0)) (View.ld x6 (Rect.unit (s := S128) ![0] S128.size inb_S128_S128_0)) (View.ld x2 (Rect.unit (s := S5000x128) ![0, 0] S5000x128.size inb_S5000x128_S5000x128_0_0))⟩]

/-- That rectangle is the whole buffer. -/
theorem cover4_7 (p0 : Vec F S5000x128 .f32) (y : S5000x128.Idx) :
    ∃ pc ∈ ([⟨Rect.unit (s := S5000x128) ![0, 0] S5000x128.size inb_S5000x128_S5000x128_0_0, p0⟩] : List (View.Piece (Elt F) S5000x128 .f32)), y ∈ pc.1.set :=
  View.cover_of_tiled [⟨Rect.unit (s := S5000x128) ![0, 0] S5000x128.size inb_S5000x128_S5000x128_0_0, p0⟩] S5000x128.size (by rfl) y

/-- What the body leaves in output window 8's staging buffer, as a function of the input blocks: the block-sized rectangle
    holding the body's payload. -/
def out4_8 (x0 : Vec F S5000x128 .f32) (x1 : Vec F S5000x128 .f32) (x2 : Vec F S5000x128 .f32) (x3 : Vec F S128x128 .f32) (x4 : Vec F S128 .f32) (x5 : Vec F S128x128 .f32) (x6 : Vec F S128 .f32) : Vec F S5000x128 .f32 :=
  View.canon [⟨Rect.unit (s := S5000x128) ![0, 0] S5000x128.size inb_S5000x128_S5000x128_0_0, k4_pay1 (View.ld x1 (Rect.unit (s := S5000x128) ![0, 0] S5000x128.size inb_S5000x128_S5000x128_0_0)) (View.ld x0 (Rect.unit (s := S5000x128) ![0, 0] S5000x128.size inb_S5000x128_S5000x128_0_0)) (View.ld x3 (Rect.unit (s := S128x128) ![0, 0] S128x128.size inb_S128x128_S128x128_0_0)) (View.ld x4 (Rect.unit (s := S128) ![0] S128.size inb_S128_S128_0)) (View.ld x5 (Rect.unit (s := S128x128) ![0, 0] S128x128.size inb_S128x128_S128x128_0_0)) (View.ld x6 (Rect.unit (s := S128) ![0] S128.size inb_S128_S128_0)) (View.ld x2 (Rect.unit (s := S5000x128) ![0, 0] S5000x128.size inb_S5000x128_S5000x128_0_0))⟩]

/-- That rectangle is the whole buffer. -/
theorem cover4_8 (p0 : Vec F S5000x128 .f32) (y : S5000x128.Idx) :
    ∃ pc ∈ ([⟨Rect.unit (s := S5000x128) ![0, 0] S5000x128.size inb_S5000x128_S5000x128_0_0, p0⟩] : List (View.Piece (Elt F) S5000x128 .f32)), y ∈ pc.1.set :=
  View.cover_of_tiled [⟨Rect.unit (s := S5000x128) ![0, 0] S5000x128.size inb_S5000x128_S5000x128_0_0, p0⟩] S5000x128.size (by rfl) y

set_option maxHeartbeats 4000000 in
/-- The body on whole staging memrefs — the inputs' at given contents, the outputs' at anything — runs to its continuation with
    the inputs' contents unchanged and each output's at `out4_w` of the inputs'. -/
theorem sound_kernel4 (c : Dev nD) (E : Set ℕ) (i : grid4.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S5000x128 .f32) (harg8 : arg8.IsWhole) (arg9 : Memref sig .tc .vmem S5000x128 .f32) (harg9 : arg9.IsWhole)
    (x0 : Vec F S5000x128 .f32) (x1 : Vec F S5000x128 .f32) (x2 : Vec F S5000x128 .f32) (x3 : Vec F S128x128 .f32) (x4 : Vec F S128 .f32) (x5 : Vec F S128x128 .f32) (x6 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out4_7 x0 x1 x2 x3 x4 x5 x6) ∗ owns (c : Thread nD τ) arg9 fullShare (out4_8 x0 x1 x2 x3 x4 x5 x6)) -∗ K ⟨⟩))
      ⊢ wp frame (wpE (defs₀ (F := F)) Variants.none c none) E (cc4__gin_kernel_resid i arg1 harg1 arg2 harg2 arg3 harg3 arg4 harg4 arg5 harg5 arg6 harg6 arg7 harg7 arg8 harg8 arg9 harg9) K := by
  simp only [cc4__gin_kernel_resid_eq_skeleton]; unfold cc4__gin_kernel_resid_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover4_7 _)
  iexists _; isplitr
  swap; · iexact H8
  ipureintro
  exact View.read_writes_eq_canon _ _ _ (cover4_8 _)

/-- The proof data of this region on core `c`: the windows' arrays are `V`'s; after the body at point `t` an input's buffer holds
    its block and an output's holds `out4_w` of the input blocks; the invariant is the pipeline library's plain one (the scoped
    rest and the generator register, untouched); nothing is owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => out4_7 (iblk4 V c 0 t) (iblk4 V c 1 t) (iblk4 V c 2 t) (iblk4 V c 3 t) (iblk4 V c 4 t) (iblk4 V c 5 t) (iblk4 V c 6 t)
    | ⟨8, _⟩ => out4_8 (iblk4 V c 0 t) (iblk4 V c 1 t) (iblk4 V c 2 t) (iblk4 V c 3 t) (iblk4 V c 4 t) (iblk4 V c 5 t) (iblk4 V c 6 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = out4_7 (iblk4 V c 0 t) (iblk4 V c 1 t) (iblk4 V c 2 t) (iblk4 V c 3 t) (iblk4 V c 4 t) (iblk4 V c 5 t) (iblk4 V c 6 t) := by dsimp only [dat4]
theorem after4_8 (c : Dev nD) (t : Fin cfg4.N) : (dat4 V c).after 8 t = out4_8 (iblk4 V c 0 t) (iblk4 V c 1 t) (iblk4 V c 2 t) (iblk4 V c 3 t) (iblk4 V c 4 t) (iblk4 V c 5 t) (iblk4 V c 6 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d

/-- What the body is called with at point `t`, window by window, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t))

/-- The body at any grid point: the inputs' memrefs hold their blocks, so `sound_kernel4` applies; the invariant and what the
    core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel4 c Set.univ (grid4.coords t) _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.IReg5.lean ====
/-
  Region 5 of the program's thirteen kernel regions (the body `cc5__post_kernel`): what its proof data are, at an
  arbitrary valuation `V` of the TensorCore's buffers at the region's entry.  Each window's block at a grid point is read
  off the window's array; the body loads whole blocks and overwrites each output block whole, so what it leaves in an
  output window's staging buffer is one rectangle piece holding the body's payload of the input blocks; the input
  buffers are left as found.  From this the body's Hoare triple (by symbolic execution of the skeleton) and the
  pipeline library's per-point obligation follow at every float instance.
-/
import proofs.«106875_j87694642250037_1_alg».proof.Proof.Gen.KernelIdeal.Launch
import proofs.«106875_j87694642250037_1_alg».proof.Proof.Gen.KernelIdeal.Skeleton
import proofs.«106875_j87694642250037_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's staging buffer holds the window's block at every grid point, whether or not the block was fetched
    there (an unfetched point has the block index of the point before it), for any proof data on `V`'s arrays whose body
    leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- An input window's staging buffer holds the window's block at every grid point, whether or not the block was fetched
    there (an unfetched point has the block index of the point before it), for any proof data on `V`'s arrays whose body
    leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- An input window's staging buffer holds the window's block at every grid point, whether or not the block was fetched
    there (an unfetched point has the block index of the point before it), for any proof data on `V`'s arrays whose body
    leaves the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- An input window's staging buffer holds the window's block at every grid point, whether or not the block was fetched
    there (an unfetched point has the block index of the point before it), for any proof data on `V`'s arrays whose body
    leaves the block in place. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
/-- An input window's staging buffer holds the window's block at every grid point, whether or not the block was fetched
    there (an unfetched point has the block index of the point before it), for any proof data on `V`'s arrays whose body
    leaves the block in place. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- What the body leaves in output window 5's staging buffer, as a function of the input blocks: the block-sized rectangle
    holding the body's payload. -/
def out5_5 (x0 : Vec F S200x640 .f32) (x1 : Vec F S640x128 .f32) (x2 : Vec F S128 .f32) (x3 : Vec F S128x128 .f32) (x4 : Vec F S128 .f32) : Vec F S200x128 .f32 :=
  View.canon [⟨Rect.unit (s := S200x128) ![0, 0] S200x128.size inb_S200x128_S200x128_0_0, k5_pay1 (View.ld x0 (Rect.unit (s := S200x640) ![0, 0] S200x640.size inb_S200x640_S200x640_0_0)) (View.ld x1 (Rect.unit (s := S640x128) ![0, 0] S640x128.size inb_S640x128_S640x128_0_0)) (View.ld x2 (Rect.unit (s := S128) ![0] S128.size inb_S128_S128_0)) (View.ld x3 (Rect.unit (s := S128x128) ![0, 0] S128x128.size inb_S128x128_S128x128_0_0)) (View.ld x4 (Rect.unit (s := S128) ![0] S128.size inb_S128_S128_0))⟩]

/-- That rectangle is the whole buffer. -/
theorem cover5_5 (p0 : Vec F S200x128 .f32) (y : S200x128.Idx) :
    ∃ pc ∈ ([⟨Rect.unit (s := S200x128) ![0, 0] S200x128.size inb_S200x128_S200x128_0_0, p0⟩] : List (View.Piece (Elt F) S200x128 .f32)), y ∈ pc.1.set :=
  View.cover_of_tiled [⟨Rect.unit (s := S200x128) ![0, 0] S200x128.size inb_S200x128_S200x128_0_0, p0⟩] S200x128.size (by rfl) y

set_option maxHeartbeats 4000000 in
/-- The body on whole staging memrefs — the inputs' at given contents, the outputs' at anything — runs to its continuation with
    the inputs' contents unchanged and each output's at `out5_w` of the inputs'. -/
theorem sound_kernel5 (c : Dev nD) (E : Set ℕ) (i : grid5.Coords) (arg1 : Memref sig .tc .vmem S200x640 .f32) (harg1 : arg1.IsWhole) (arg2 : Memref sig .tc .vmem S640x128 .f32) (harg2 : arg2.IsWhole) (arg3 : Memref sig .tc .vmem S128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S200x128 .f32) (harg6 : arg6.IsWhole)
    (x0 : Vec F S200x640 .f32) (x1 : Vec F S640x128 .f32) (x2 : Vec F S128 .f32) (x3 : Vec F S128x128 .f32) (x4 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5__post_kernel i arg1 harg1 arg2 harg2 arg3 harg3 arg4 harg4 arg5 harg5 arg6 harg6) K := by
  simp only [cc5__post_kernel_eq_skeleton]; unfold cc5__post_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-- The proof data of this region on core `c`: the windows' arrays are `V`'s; after the body at point `t` an input's buffer holds
    its block and an output's holds `out5_w` of the input blocks; the invariant is the pipeline library's plain one (the scoped
    rest and the generator register, untouched); nothing is owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-- What the body is called with at point `t`, window by window, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any grid point: the inputs' memrefs hold their blocks, so `sound_kernel5` applies; the invariant and what the
    core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.IReg6.lean ====
/-
  Region 6 of the program's thirteen kernel regions (the body `cc6__pre_kernel`): what its proof data are, at an
  arbitrary valuation `V` of the TensorCore's buffers at the region's entry.  Each window's block at a grid point is read
  off the window's array; the body loads whole blocks and overwrites each output block whole, so what it leaves in an
  output window's staging buffer is one rectangle piece holding the body's payload of the input blocks; the input
  buffers are left as found.  From this the body's Hoare triple (by symbolic execution of the skeleton) and the
  pipeline library's per-point obligation follow at every float instance.
-/
import proofs.«106875_j87694642250037_1_alg».proof.Proof.Gen.KernelIdeal.Launch
import proofs.«106875_j87694642250037_1_alg».proof.Proof.Gen.KernelIdeal.Skeleton
import proofs.«106875_j87694642250037_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's staging buffer holds the window's block at every grid point, whether or not the block was fetched
    there (an unfetched point has the block index of the point before it), for any proof data on `V`'s arrays whose body
    leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- An input window's staging buffer holds the window's block at every grid point, whether or not the block was fetched
    there (an unfetched point has the block index of the point before it), for any proof data on `V`'s arrays whose body
    leaves the block in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
/-- An input window's staging buffer holds the window's block at every grid point, whether or not the block was fetched
    there (an unfetched point has the block index of the point before it), for any proof data on `V`'s arrays whose body
    leaves the block in place. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- What the body leaves in output window 3's staging buffer, as a function of the input blocks: the block-sized rectangle
    holding the body's payload. -/
def out6_3 (x0 : Vec F S5000x32 .f32) (x1 : Vec F S32x128 .f32) (x2 : Vec F S128 .f32) : Vec F S5000x128 .f32 :=
  View.canon [⟨Rect.unit (s := S5000x128) ![0, 0] S5000x128.size inb_S5000x128_S5000x128_0_0, k6_pay1 (View.ld x0 (Rect.unit (s := S5000x32) ![0, 0] S5000x32.size inb_S5000x32_S5000x32_0_0)) (View.ld x1 (Rect.unit (s := S32x128) ![0, 0] S32x128.size inb_S32x128_S32x128_0_0)) (View.ld x2 (Rect.unit (s := S128) ![0] S128.size inb_S128_S128_0))⟩]

/-- That rectangle is the whole buffer. -/
theorem cover6_3 (p0 : Vec F S5000x128 .f32) (y : S5000x128.Idx) :
    ∃ pc ∈ ([⟨Rect.unit (s := S5000x128) ![0, 0] S5000x128.size inb_S5000x128_S5000x128_0_0, p0⟩] : List (View.Piece (Elt F) S5000x128 .f32)), y ∈ pc.1.set :=
  View.cover_of_tiled [⟨Rect.unit (s := S5000x128) ![0, 0] S5000x128.size inb_S5000x128_S5000x128_0_0, p0⟩] S5000x128.size (by rfl) y

set_option maxHeartbeats 4000000 in
/-- The body on whole staging memrefs — the inputs' at given contents, the outputs' at anything — runs to its continuation with
    the inputs' contents unchanged and each output's at `out6_w` of the inputs'. -/
theorem sound_kernel6 (c : Dev nD) (E : Set ℕ) (i : grid6.Coords) (arg1 : Memref sig .tc .vmem S5000x32 .f32) (harg1 : arg1.IsWhole) (arg2 : Memref sig .tc .vmem S32x128 .f32) (harg2 : arg2.IsWhole) (arg3 : Memref sig .tc .vmem S128 .f32) (harg3 : arg3.IsWhole) (arg4 : Memref sig .tc .vmem S5000x128 .f32) (harg4 : arg4.IsWhole)
    (x0 : Vec F S5000x32 .f32) (x1 : Vec F S32x128 .f32) (x2 : Vec F S128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out6_3 x0 x1 x2)) -∗ K ⟨⟩))
      ⊢ wp frame (wpE (defs₀ (F := F)) Variants.none c none) E (cc6__pre_kernel i arg1 harg1 arg2 harg2 arg3 harg3 arg4 harg4) K := by
  simp only [cc6__pre_kernel_eq_skeleton]; unfold cc6__pre_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-- The proof data of this region on core `c`: the windows' arrays are `V`'s; after the body at point `t` an input's buffer holds
    its block and an output's holds `out6_w` of the input blocks; the invariant is the pipeline library's plain one (the scoped
    rest and the generator register, untouched); nothing is owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- What the body is called with at point `t`, window by window, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any grid point: the inputs' memrefs hold their blocks, so `sound_kernel6` applies; the invariant and what the
    core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ (grid6.coords t) _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.IReg7.lean ====
/-
  Region 7 of the program's thirteen kernel regions (the body `cc7__gin_kernel_plain`): what its proof data are, at an
  arbitrary valuation `V` of the TensorCore's buffers at the region's entry.  Each window's block at a grid point is read
  off the window's array; the body loads whole blocks and overwrites each output block whole, so what it leaves in an
  output window's staging buffer is one rectangle piece holding the body's payload of the input blocks; the input
  buffers are left as found.  From this the body's Hoare triple (by symbolic execution of the skeleton) and the
  pipeline library's per-point obligation follow at every float instance.
-/
import proofs.«106875_j87694642250037_1_alg».proof.Proof.Gen.KernelIdeal.Launch
import proofs.«106875_j87694642250037_1_alg».proof.Proof.Gen.KernelIdeal.Skeleton
import proofs.«106875_j87694642250037_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's staging buffer holds the window's block at every grid point, whether or not the block was fetched
    there (an unfetched point has the block index of the point before it), for any proof data on `V`'s arrays whose body
    leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
/-- An input window's staging buffer holds the window's block at every grid point, whether or not the block was fetched
    there (an unfetched point has the block index of the point before it), for any proof data on `V`'s arrays whose body
    leaves the block in place. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
/-- An input window's staging buffer holds the window's block at every grid point, whether or not the block was fetched
    there (an unfetched point has the block index of the point before it), for any proof data on `V`'s arrays whose body
    leaves the block in place. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
/-- An input window's staging buffer holds the window's block at every grid point, whether or not the block was fetched
    there (an unfetched point has the block index of the point before it), for any proof data on `V`'s arrays whose body
    leaves the block in place. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)
/-- An input window's staging buffer holds the window's block at every grid point, whether or not the block was fetched
    there (an unfetched point has the block index of the point before it), for any proof data on `V`'s arrays whose body
    leaves the block in place. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)
/-- An input window's staging buffer holds the window's block at every grid point, whether or not the block was fetched
    there (an unfetched point has the block index of the point before it), for any proof data on `V`'s arrays whose body
    leaves the block in place. -/
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

/-- What the body leaves in output window 6's staging buffer, as a function of the input blocks: the block-sized rectangle
    holding the body's payload. -/
def out7_6 (x0 : Vec F S5000x128 .f32) (x1 : Vec F S5000x128 .f32) (x2 : Vec F S128x128 .f32) (x3 : Vec F S128 .f32) (x4 : Vec F S128x128 .f32) (x5 : Vec F S128 .f32) : Vec F S5000x128 .f32 :=
  View.canon [⟨Rect.unit (s := S5000x128) ![0, 0] S5000x128.size inb_S5000x128_S5000x128_0_0, k7_pay1 (View.ld x1 (Rect.unit (s := S5000x128) ![0, 0] S5000x128.size inb_S5000x128_S5000x128_0_0)) (View.ld x0 (Rect.unit (s := S5000x128) ![0, 0] S5000x128.size inb_S5000x128_S5000x128_0_0)) (View.ld x2 (Rect.unit (s := S128x128) ![0, 0] S128x128.size inb_S128x128_S128x128_0_0)) (View.ld x3 (Rect.unit (s := S128) ![0] S128.size inb_S128_S128_0)) (View.ld x4 (Rect.unit (s := S128x128) ![0, 0] S128x128.size inb_S128x128_S128x128_0_0)) (View.ld x5 (Rect.unit (s := S128) ![0] S128.size inb_S128_S128_0))⟩]

/-- That rectangle is the whole buffer. -/
theorem cover7_6 (p0 : Vec F S5000x128 .f32) (y : S5000x128.Idx) :
    ∃ pc ∈ ([⟨Rect.unit (s := S5000x128) ![0, 0] S5000x128.size inb_S5000x128_S5000x128_0_0, p0⟩] : List (View.Piece (Elt F) S5000x128 .f32)), y ∈ pc.1.set :=
  View.cover_of_tiled [⟨Rect.unit (s := S5000x128) ![0, 0] S5000x128.size inb_S5000x128_S5000x128_0_0, p0⟩] S5000x128.size (by rfl) y

set_option maxHeartbeats 4000000 in
/-- The body on whole staging memrefs — the inputs' at given contents, the outputs' at anything — runs to its continuation with
    the inputs' contents unchanged and each output's at `out7_w` of the inputs'. -/
theorem sound_kernel7 (c : Dev nD) (E : Set ℕ) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S5000x128 .f32) (harg7 : arg7.IsWhole)
    (x0 : Vec F S5000x128 .f32) (x1 : Vec F S5000x128 .f32) (x2 : Vec F S128x128 .f32) (x3 : Vec F S128 .f32) (x4 : Vec F S128x128 .f32) (x5 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out7_6 x0 x1 x2 x3 x4 x5)) -∗ K ⟨⟩))
      ⊢ wp frame (wpE (defs₀ (F := F)) Variants.none c none) E (cc7__gin_kernel_plain i arg1 harg1 arg2 harg2 arg3 harg3 arg4 harg4 arg5 harg5 arg6 harg6 arg7 harg7) K := by
  simp only [cc7__gin_kernel_plain_eq_skeleton]; unfold cc7__gin_kernel_plain_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover7_6 _)

/-- The proof data of this region on core `c`: the windows' arrays are `V`'s; after the body at point `t` an input's buffer holds
    its block and an output's holds `out7_w` of the input blocks; the invariant is the pipeline library's plain one (the scoped
    rest and the generator register, untouched); nothing is owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => out7_6 (iblk7 V c 0 t) (iblk7 V c 1 t) (iblk7 V c 2 t) (iblk7 V c 3 t) (iblk7 V c 4 t) (iblk7 V c 5 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = out7_6 (iblk7 V c 0 t) (iblk7 V c 1 t) (iblk7 V c 2 t) (iblk7 V c 3 t) (iblk7 V c 4 t) (iblk7 V c 5 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d

/-- What the body is called with at point `t`, window by window, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t))

/-- The body at any grid point: the inputs' memrefs hold their blocks, so `sound_kernel7` applies; the invariant and what the
    core owes pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel7 c Set.univ (grid7.coords t) _ _ _ _ _ _ _ _ _ _ _ _ _ _ (iblk7 V c 0 t) (iblk7 V c 1 t) (iblk7 V c 2 t) (iblk7 V c 3 t) (iblk7 V c 4 t) (iblk7 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.IReg8.lean ====
/-
  Region 8 of the program's thirteen kernel regions (the body `cc8__gin_kernel_resid`): what its proof data are, at an
  arbitrary valuation `V` of the TensorCore's buffers at the region's entry.  Each window's block at a grid point is read
  off the window's array; the body loads whole blocks and overwrites each output block whole, so what it leaves in an
  output window's staging buffer is one rectangle piece holding the body's payload of the input blocks; the input
  buffers are left as found.  From this the body's Hoare triple (by symbolic execution of the skeleton) and the
  pipeline library's per-point obligation follow at every float instance.
-/
import proofs.«106875_j87694642250037_1_alg».proof.Proof.Gen.KernelIdeal.Launch
import proofs.«106875_j87694642250037_1_alg».proof.Proof.Gen.KernelIdeal.Skeleton
import proofs.«106875_j87694642250037_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's staging buffer holds the window's block at every grid point, whether or not the block was fetched
    there (an unfetched point has the block index of the point before it), for any proof data on `V`'s arrays whose body
    leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
/-- An input window's staging buffer holds the window's block at every grid point, whether or not the block was fetched
    there (an unfetched point has the block index of the point before it), for any proof data on `V`'s arrays whose body
    leaves the block in place. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
/-- An input window's staging buffer holds the window's block at every grid point, whether or not the block was fetched
    there (an unfetched point has the block index of the point before it), for any proof data on `V`'s arrays whose body
    leaves the block in place. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)
/-- An input window's staging buffer holds the window's block at every grid point, whether or not the block was fetched
    there (an unfetched point has the block index of the point before it), for any proof data on `V`'s arrays whose body
    leaves the block in place. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)
/-- An input window's staging buffer holds the window's block at every grid point, whether or not the block was fetched
    there (an unfetched point has the block index of the point before it), for any proof data on `V`'s arrays whose body
    leaves the block in place. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)
/-- An input window's staging buffer holds the window's block at every grid point, whether or not the block was fetched
    there (an unfetched point has the block index of the point before it), for any proof data on `V`'s arrays whose body
    leaves the block in place. -/
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)
/-- An input window's staging buffer holds the window's block at every grid point, whether or not the block was fetched
    there (an unfetched point has the block index of the point before it), for any proof data on `V`'s arrays whose body
    leaves the block in place. -/
theorem before8_6_of {c : Dev nD} (dat : Dat τ (Elt F) Unit ℕ (UR sig nD τ) ℕ cfg8 c) (hA : dat.A 6 = V c (Pipeline.arrRef spec8 6))
    (hafter : ∀ t, dat.after 6 t = iblk8 V c 6 t) (t : Fin cfg8.N) (d) : dat.before 6 t d = iblk8 V c 6 t :=
  (dat.before_in_eq_fetched 6 rfl (fun _ => rfl) (fun _ _ _ => rfl) (fun t => by rw [hafter]; unfold Dat.blockOf iblk8; rw [hA]; try rfl) t d).trans
    (by unfold Dat.fetched Dat.blockOf iblk8; rw [hA]; try rfl)

/-- What the body leaves in output window 7's staging buffer, as a function of the input blocks: the block-sized rectangle
    holding the body's payload. -/
def out8_7 (x0 : Vec F S5000x128 .f32) (x1 : Vec F S5000x128 .f32) (x2 : Vec F S5000x128 .f32) (x3 : Vec F S128x128 .f32) (x4 : Vec F S128 .f32) (x5 : Vec F S128x128 .f32) (x6 : Vec F S128 .f32) : Vec F S5000x128 .f32 :=
  View.canon [⟨Rect.unit (s := S5000x128) ![0, 0] S5000x128.size inb_S5000x128_S5000x128_0_0, k8_pay2 (View.ld x1 (Rect.unit (s := S5000x128) ![0, 0] S5000x128.size inb_S5000x128_S5000x128_0_0)) (View.ld x0 (Rect.unit (s := S5000x128) ![0, 0] S5000x128.size inb_S5000x128_S5000x128_0_0)) (View.ld x3 (Rect.unit (s := S128x128) ![0, 0] S128x128.size inb_S128x128_S128x128_0_0)) (View.ld x4 (Rect.unit (s := S128) ![0] S128.size inb_S128_S128_0)) (View.ld x5 (Rect.unit (s := S128x128) ![0, 0] S128x128.size inb_S128x128_S128x128_0_0)) (View.ld x6 (Rect.unit (s := S128) ![0] S128.size inb_S128_S128_0)) (View.ld x2 (Rect.unit (s := S5000x128) ![0, 0] S5000x128.size inb_S5000x128_S5000x128_0_0))⟩]

/-- That rectangle is the whole buffer. -/
theorem cover8_7 (p0 : Vec F S5000x128 .f32) (y : S5000x128.Idx) :
    ∃ pc ∈ ([⟨Rect.unit (s := S5000x128) ![0, 0] S5000x128.size inb_S5000x128_S5000x128_0_0, p0⟩] : List (View.Piece (Elt F) S5000x128 .f32)), y ∈ pc.1.set :=
  View.cover_of_tiled [⟨Rect.unit (s := S5000x128) ![0, 0] S5000x128.size inb_S5000x128_S5000x128_0_0, p0⟩] S5000x128.size (by rfl) y

/-- What the body leaves in output window 8's staging buffer, as a function of the input blocks: the block-sized rectangle
    holding the body's payload. -/
def out8_8 (x0 : Vec F S5000x128 .f32) (x1 : Vec F S5000x128 .f32) (x2 : Vec F S5000x128 .f32) (x3 : Vec F S128x128 .f32) (x4 : Vec F S128 .f32) (x5 : Vec F S128x128 .f32) (x6 : Vec F S128 .f32) : Vec F S5000x128 .f32 :=
  View.canon [⟨Rect.unit (s := S5000x128) ![0, 0] S5000x128.size inb_S5000x128_S5000x128_0_0, k8_pay1 (View.ld x1 (Rect.unit (s := S5000x128) ![0, 0] S5000x128.size inb_S5000x128_S5000x128_0_0)) (View.ld x0 (Rect.unit (s := S5000x128) ![0, 0] S5000x128.size inb_S5000x128_S5000x128_0_0)) (View.ld x3 (Rect.unit (s := S128x128) ![0, 0] S128x128.size inb_S128x128_S128x128_0_0)) (View.ld x4 (Rect.unit (s := S128) ![0] S128.size inb_S128_S128_0)) (View.ld x5 (Rect.unit (s := S128x128) ![0, 0] S128x128.size inb_S128x128_S128x128_0_0)) (View.ld x6 (Rect.unit (s := S128) ![0] S128.size inb_S128_S128_0)) (View.ld x2 (Rect.unit (s := S5000x128) ![0, 0] S5000x128.size inb_S5000x128_S5000x128_0_0))⟩]

/-- That rectangle is the whole buffer. -/
theorem cover8_8 (p0 : Vec F S5000x128 .f32) (y : S5000x128.Idx) :
    ∃ pc ∈ ([⟨Rect.unit (s := S5000x128) ![0, 0] S5000x128.size inb_S5000x128_S5000x128_0_0, p0⟩] : List (View.Piece (Elt F) S5000x128 .f32)), y ∈ pc.1.set :=
  View.cover_of_tiled [⟨Rect.unit (s := S5000x128) ![0, 0] S5000x128.size inb_S5000x128_S5000x128_0_0, p0⟩] S5000x128.size (by rfl) y

set_option maxHeartbeats 4000000 in
/-- The body on whole staging memrefs — the inputs' at given contents, the outputs' at anything — runs to its continuation with
    the inputs' contents unchanged and each output's at `out8_w` of the inputs'. -/
theorem sound_kernel8 (c : Dev nD) (E : Set ℕ) (i : grid8.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S5000x128 .f32) (harg8 : arg8.IsWhole) (arg9 : Memref sig .tc .vmem S5000x128 .f32) (harg9 : arg9.IsWhole)
    (x0 : Vec F S5000x128 .f32) (x1 : Vec F S5000x128 .f32) (x2 : Vec F S5000x128 .f32) (x3 : Vec F S128x128 .f32) (x4 : Vec F S128 .f32) (x5 : Vec F S128x128 .f32) (x6 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out8_7 x0 x1 x2 x3 x4 x5 x6) ∗ owns (c : Thread nD τ) arg9 fullShare (out8_8 x0 x1 x2 x3 x4 x5 x6)) -∗ K ⟨⟩))
      ⊢ wp frame (wpE (defs₀ (F := F)) Variants.none c none) E (cc8__gin_kernel_resid i arg1 harg1 arg2 harg2 arg3 harg3 arg4 harg4 arg5 harg5 arg6 harg6 arg7 harg7 arg8 harg8 arg9 harg9) K := by
  simp only [cc8__gin_kernel_resid_eq_skeleton]; unfold cc8__gin_kernel_resid_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover8_7 _)
  iexists _; isplitr
  swap; · iexact H8
  ipureintro
  exact View.read_writes_eq_canon _ _ _ (cover8_8 _)

/-- The proof data of this region on core `c`: the windows' arrays are `V`'s; after the body at point `t` an input's buffer holds
    its block and an output's holds `out8_w` of the input blocks; the invariant is the pipeline library's plain one (the scoped
    rest and the generator register, untouched); nothing is owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => out8_7 (iblk8 V c 0 t) (iblk8 V c 1 t) (iblk8 V c 2 t) (iblk8 V c 3 t) (iblk8 V c 4 t) (iblk8 V c 5 t) (iblk8 V c 6 t)
    | ⟨8, _⟩ => out8_8 (iblk8 V c 0 t) (iblk8 V c 1 t) (iblk8 V c 2 t) (iblk8 V c 3 t) (iblk8 V c 4 t) (iblk8 V c 5 t) (iblk8 V c 6 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = iblk8 V c 6 t := by dsimp only [dat8]
theorem after8_7 (c : Dev nD) (t : Fin cfg8.N) : (dat8 V c).after 7 t = out8_7 (iblk8 V c 0 t) (iblk8 V c 1 t) (iblk8 V c 2 t) (iblk8 V c 3 t) (iblk8 V c 4 t) (iblk8 V c 5 t) (iblk8 V c 6 t) := by dsimp only [dat8]
theorem after8_8 (c : Dev nD) (t : Fin cfg8.N) : (dat8 V c).after 8 t = out8_8 (iblk8 V c 0 t) (iblk8 V c 1 t) (iblk8 V c 2 t) (iblk8 V c 3 t) (iblk8 V c 4 t) (iblk8 V c 5 t) (iblk8 V c 6 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d
theorem before8_6 (c : Dev nD) (t : Fin cfg8.N) (d) : (dat8 V c).before 6 t d = iblk8 V c 6 t :=
  before8_6_of V (dat8 V c) (A_eq8 V c 6) (after8_6 V c) t d

/-- What the body is called with at point `t`, window by window, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d))
    ∗ (∃ d, owns (c : Thread nD τ) (st8_7 t) fullShare ((dat8 V c).before 7 t d))
    ∗ (∃ d, owns (c : Thread nD τ) (st8_8 t) fullShare ((dat8 V c).before 8 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t)
    ∗ owns (c : Thread nD τ) (st8_7 t) fullShare ((dat8 V c).after 7 t)
    ∗ owns (c : Thread nD τ) (st8_8 t) fullShare ((dat8 V c).after 8 t))

/-- The body at any grid point: the inputs' memrefs hold their blocks, so `sound_kernel8` applies; the invariant and what the
    core owes pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5, before8_6]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6, after8_7, after8_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel8 c Set.univ (grid8.coords t) _ _ _ _ _ _ _ _ _ _ _ _ _ _ _ _ _ _ (iblk8 V c 0 t) (iblk8 V c 1 t) (iblk8 V c 2 t) (iblk8 V c 3 t) (iblk8 V c 4 t) (iblk8 V c 5 t) (iblk8 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline library's body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Hand

end
-- ==== Proof.IReg9.lean ====
/-
  Region 9 of the program's thirteen kernel regions (the body `cc9__gin_kernel_plain`): what its proof data are, at an
  arbitrary valuation `V` of the TensorCore's buffers at the region's entry.  Each window's block at a grid point is read
  off the window's array; the body loads whole blocks and overwrites each output block whole, so what it leaves in an
  output window's staging buffer is one rectangle piece holding the body's payload of the input blocks; the input
  buffers are left as found.  From this the body's Hoare triple (by symbolic execution of the skeleton) and the
  pipeline library's per-point obligation follow at every float instance.
-/
import proofs.«106875_j87694642250037_1_alg».proof.Proof.Gen.KernelIdeal.Launch
import proofs.«106875_j87694642250037_1_alg».proof.Proof.Gen.KernelIdeal.Skeleton
import proofs.«106875_j87694642250037_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- An input window's staging buffer holds the window's block at every grid point, whether or not the block was fetched
    there (an unfetched point has the block index of the point before it), for any proof data on `V`'s arrays whose body
    leaves the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
/-- An input window's staging buffer holds the window's block at every grid point, whether or not the block was fetched
    there (an unfetched point has the block index of the point before it), for any proof data on `V`'s arrays whose body
    leaves the block in place. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
/-- An input window's staging buffer holds the window's block at every grid point, whether or not the block was fetched
    there (an unfetched point has the block index of the point before it), for any proof data on `V`'s arrays whose body
    leaves the block in place. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)
/-- An input window's staging buffer holds the window's block at every grid point, whether or not the block was fetched
    there (an unfetched point has the block index of the point before it), for any proof data on `V`'s arrays whose body
    leaves the block in place. -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)
/-- An input window's staging buffer holds the window's block at every grid point, whether or not the block was fetched
    there (an unfetched point has the block index of the point before it), for any proof data on `V`'s arrays whose body
    leaves the block in place. -/
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)
/-- An input window's staging buffer holds the window's block at every grid point, whether or not the block was fetched
    there (an unfetched point has the block index of the point before it), for any proof data on `V`'s arrays whose body
    leaves the block in place. -/
theorem before9_5_of {c : Dev nD} (dat : Dat τ (Elt F) Unit ℕ (UR sig nD τ) ℕ cfg9 c) (hA : dat.A 5 = V c (Pipeline.arrRef spec9 5))
    (hafter : ∀ t, dat.after 5 t = iblk9 V c 5 t) (t : Fin cfg9.N) (d) : dat.before 5 t d = iblk9 V c 5 t :=
  (dat.before_in_eq_fetched 5 rfl (fun _ => rfl) (fun _ _ _ => rfl) (fun t => by rw [hafter]; unfold Dat.blockOf iblk9; rw [hA]; try rfl) t d).trans
    (by unfold Dat.fetched Dat.blockOf iblk9; rw [hA]; try rfl)

/-- What the body leaves in output window 6's staging buffer, as a function of the input blocks: the block-sized rectangle
    holding the body's payload. -/
def out9_6 (x0 : Vec F S5000x128 .f32) (x1 : Vec F S5000x128 .f32) (x2 : Vec F S128x128 .f32) (x3 : Vec F S128 .f32) (x4 : Vec F S128x128 .f32) (x5 : Vec F S128 .f32) : Vec F S5000x128 .f32 :=
  View.canon [⟨Rect.unit (s := S5000x128) ![0, 0] S5000x128.size inb_S5000x128_S5000x128_0_0, k9_pay1 (View.ld x1 (Rect.unit (s := S5000x128) ![0, 0] S5000x128.size inb_S5000x128_S5000x128_0_0)) (View.ld x0 (Rect.unit (s := S5000x128) ![0, 0] S5000x128.size inb_S5000x128_S5000x128_0_0)) (View.ld x2 (Rect.unit (s := S128x128) ![0, 0] S128x128.size inb_S128x128_S128x128_0_0)) (View.ld x3 (Rect.unit (s := S128) ![0] S128.size inb_S128_S128_0)) (View.ld x4 (Rect.unit (s := S128x128) ![0, 0] S128x128.size inb_S128x128_S128x128_0_0)) (View.ld x5 (Rect.unit (s := S128) ![0] S128.size inb_S128_S128_0))⟩]

/-- That rectangle is the whole buffer. -/
theorem cover9_6 (p0 : Vec F S5000x128 .f32) (y : S5000x128.Idx) :
    ∃ pc ∈ ([⟨Rect.unit (s := S5000x128) ![0, 0] S5000x128.size inb_S5000x128_S5000x128_0_0, p0⟩] : List (View.Piece (Elt F) S5000x128 .f32)), y ∈ pc.1.set :=
  View.cover_of_tiled [⟨Rect.unit (s := S5000x128) ![0, 0] S5000x128.size inb_S5000x128_S5000x128_0_0, p0⟩] S5000x128.size (by rfl) y

set_option maxHeartbeats 4000000 in
/-- The body on whole staging memrefs — the inputs' at given contents, the outputs' at anything — runs to its continuation with
    the inputs' contents unchanged and each output's at `out9_w` of the inputs'. -/
theorem sound_kernel9 (c : Dev nD) (E : Set ℕ) (i : grid9.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S5000x128 .f32) (harg7 : arg7.IsWhole)
    (x0 : Vec F S5000x128 .f32) (x1 : Vec F S5000x128 .f32) (x2 : Vec F S128x128 .f32) (x3 : Vec F S128 .f32) (x4 : Vec F S128x128 .f32) (x5 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out9_6 x0 x1 x2 x3 x4 x5)) -∗ K ⟨⟩))
      ⊢ wp frame (wpE (defs₀ (F := F)) Variants.none c none) E (cc9__gin_kernel_plain i arg1 harg1 arg2 harg2 arg3 harg3 arg4 harg4 arg5 harg5 arg6 harg6 arg7 harg7) K := by
  simp only [cc9__gin_kernel_plain_eq_skeleton]; unfold cc9__gin_kernel_plain_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover9_6 _)

/-- The proof data of this region on core `c`: the windows' arrays are `V`'s; after the body at point `t` an input's buffer holds
    its block and an output's holds `out9_w` of the input blocks; the invariant is the pipeline library's plain one (the scoped
    rest and the generator register, untouched); nothing is owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => out9_6 (iblk9 V c 0 t) (iblk9 V c 1 t) (iblk9 V c 2 t) (iblk9 V c 3 t) (iblk9 V c 4 t) (iblk9 V c 5 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = iblk9 V c 5 t := by dsimp only [dat9]
theorem after9_6 (c : Dev nD) (t : Fin cfg9.N) : (dat9 V c).after 6 t = out9_6 (iblk9 V c 0 t) (iblk9 V c 1 t) (iblk9 V c 2 t) (iblk9 V c 3 t) (iblk9 V c 4 t) (iblk9 V c 5 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d
theorem before9_5 (c : Dev nD) (t : Fin cfg9.N) (d) : (dat9 V c).before 5 t d = iblk9 V c 5 t :=
  before9_5_of V (dat9 V c) (A_eq9 V c 5) (after9_5 V c) t d

/-- What the body is called with at point `t`, window by window, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d))
    ∗ (∃ d, owns (c : Thread nD τ) (st9_6 t) fullShare ((dat9 V c).before 6 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t)
    ∗ owns (c : Thread nD τ) (st9_6 t) fullShare ((dat9 V c).after 6 t))

/-- The body at any grid point: the inputs' memrefs hold their blocks, so `sound_kernel9` applies; the invariant and what the
    core owes pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4, before9_5]
  rw [show (dat9 V c).Φ t.succ = (dat9 V c).Φ t.castSucc from rfl,
    show (dat9 V c).owesAt () t.succ = (dat9 V c).owesAt () t.castSucc from rfl,
    after9_0, after9_1, after9_2, after9_3, after9_4, after9_5, after9_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel9 c Set.univ (grid9.coords t) _ _ _ _ _ _ _ _ _ _ _ _ _ _ (iblk9 V c 0 t) (iblk9 V c 1 t) (iblk9 V c 2 t) (iblk9 V c 3 t) (iblk9 V c 4 t) (iblk9 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline library's body obligation, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Hand

end
-- ==== Proof.IReg10.lean ====
/-
  Region 10 of the program's thirteen kernel regions (the body `cc10__gin_kernel_resid`): what its proof data are, at an
  arbitrary valuation `V` of the TensorCore's buffers at the region's entry.  Each window's block at a grid point is read
  off the window's array; the body loads whole blocks and overwrites each output block whole, so what it leaves in an
  output window's staging buffer is one rectangle piece holding the body's payload of the input blocks; the input
  buffers are left as found.  From this the body's Hoare triple (by symbolic execution of the skeleton) and the
  pipeline library's per-point obligation follow at every float instance.
-/
import proofs.«106875_j87694642250037_1_alg».proof.Proof.Gen.KernelIdeal.Launch
import proofs.«106875_j87694642250037_1_alg».proof.Proof.Gen.KernelIdeal.Skeleton
import proofs.«106875_j87694642250037_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- An input window's staging buffer holds the window's block at every grid point, whether or not the block was fetched
    there (an unfetched point has the block index of the point before it), for any proof data on `V`'s arrays whose body
    leaves the block in place. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
/-- An input window's staging buffer holds the window's block at every grid point, whether or not the block was fetched
    there (an unfetched point has the block index of the point before it), for any proof data on `V`'s arrays whose body
    leaves the block in place. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)
/-- An input window's staging buffer holds the window's block at every grid point, whether or not the block was fetched
    there (an unfetched point has the block index of the point before it), for any proof data on `V`'s arrays whose body
    leaves the block in place. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)
/-- An input window's staging buffer holds the window's block at every grid point, whether or not the block was fetched
    there (an unfetched point has the block index of the point before it), for any proof data on `V`'s arrays whose body
    leaves the block in place. -/
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)
/-- An input window's staging buffer holds the window's block at every grid point, whether or not the block was fetched
    there (an unfetched point has the block index of the point before it), for any proof data on `V`'s arrays whose body
    leaves the block in place. -/
theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)
/-- An input window's staging buffer holds the window's block at every grid point, whether or not the block was fetched
    there (an unfetched point has the block index of the point before it), for any proof data on `V`'s arrays whose body
    leaves the block in place. -/
theorem before10_5_of {c : Dev nD} (dat : Dat τ (Elt F) Unit ℕ (UR sig nD τ) ℕ cfg10 c) (hA : dat.A 5 = V c (Pipeline.arrRef spec10 5))
    (hafter : ∀ t, dat.after 5 t = iblk10 V c 5 t) (t : Fin cfg10.N) (d) : dat.before 5 t d = iblk10 V c 5 t :=
  (dat.before_in_eq_fetched 5 rfl (fun _ => rfl) (fun _ _ _ => rfl) (fun t => by rw [hafter]; unfold Dat.blockOf iblk10; rw [hA]; try rfl) t d).trans
    (by unfold Dat.fetched Dat.blockOf iblk10; rw [hA]; try rfl)
/-- An input window's staging buffer holds the window's block at every grid point, whether or not the block was fetched
    there (an unfetched point has the block index of the point before it), for any proof data on `V`'s arrays whose body
    leaves the block in place. -/
theorem before10_6_of {c : Dev nD} (dat : Dat τ (Elt F) Unit ℕ (UR sig nD τ) ℕ cfg10 c) (hA : dat.A 6 = V c (Pipeline.arrRef spec10 6))
    (hafter : ∀ t, dat.after 6 t = iblk10 V c 6 t) (t : Fin cfg10.N) (d) : dat.before 6 t d = iblk10 V c 6 t :=
  (dat.before_in_eq_fetched 6 rfl (fun _ => rfl) (fun _ _ _ => rfl) (fun t => by rw [hafter]; unfold Dat.blockOf iblk10; rw [hA]; try rfl) t d).trans
    (by unfold Dat.fetched Dat.blockOf iblk10; rw [hA]; try rfl)

/-- What the body leaves in output window 7's staging buffer, as a function of the input blocks: the block-sized rectangle
    holding the body's payload. -/
def out10_7 (x0 : Vec F S5000x128 .f32) (x1 : Vec F S5000x128 .f32) (x2 : Vec F S5000x128 .f32) (x3 : Vec F S128x128 .f32) (x4 : Vec F S128 .f32) (x5 : Vec F S128x128 .f32) (x6 : Vec F S128 .f32) : Vec F S5000x128 .f32 :=
  View.canon [⟨Rect.unit (s := S5000x128) ![0, 0] S5000x128.size inb_S5000x128_S5000x128_0_0, k10_pay2 (View.ld x1 (Rect.unit (s := S5000x128) ![0, 0] S5000x128.size inb_S5000x128_S5000x128_0_0)) (View.ld x0 (Rect.unit (s := S5000x128) ![0, 0] S5000x128.size inb_S5000x128_S5000x128_0_0)) (View.ld x3 (Rect.unit (s := S128x128) ![0, 0] S128x128.size inb_S128x128_S128x128_0_0)) (View.ld x4 (Rect.unit (s := S128) ![0] S128.size inb_S128_S128_0)) (View.ld x5 (Rect.unit (s := S128x128) ![0, 0] S128x128.size inb_S128x128_S128x128_0_0)) (View.ld x6 (Rect.unit (s := S128) ![0] S128.size inb_S128_S128_0)) (View.ld x2 (Rect.unit (s := S5000x128) ![0, 0] S5000x128.size inb_S5000x128_S5000x128_0_0))⟩]

/-- That rectangle is the whole buffer. -/
theorem cover10_7 (p0 : Vec F S5000x128 .f32) (y : S5000x128.Idx) :
    ∃ pc ∈ ([⟨Rect.unit (s := S5000x128) ![0, 0] S5000x128.size inb_S5000x128_S5000x128_0_0, p0⟩] : List (View.Piece (Elt F) S5000x128 .f32)), y ∈ pc.1.set :=
  View.cover_of_tiled [⟨Rect.unit (s := S5000x128) ![0, 0] S5000x128.size inb_S5000x128_S5000x128_0_0, p0⟩] S5000x128.size (by rfl) y

/-- What the body leaves in output window 8's staging buffer, as a function of the input blocks: the block-sized rectangle
    holding the body's payload. -/
def out10_8 (x0 : Vec F S5000x128 .f32) (x1 : Vec F S5000x128 .f32) (x2 : Vec F S5000x128 .f32) (x3 : Vec F S128x128 .f32) (x4 : Vec F S128 .f32) (x5 : Vec F S128x128 .f32) (x6 : Vec F S128 .f32) : Vec F S5000x128 .f32 :=
  View.canon [⟨Rect.unit (s := S5000x128) ![0, 0] S5000x128.size inb_S5000x128_S5000x128_0_0, k10_pay1 (View.ld x1 (Rect.unit (s := S5000x128) ![0, 0] S5000x128.size inb_S5000x128_S5000x128_0_0)) (View.ld x0 (Rect.unit (s := S5000x128) ![0, 0] S5000x128.size inb_S5000x128_S5000x128_0_0)) (View.ld x3 (Rect.unit (s := S128x128) ![0, 0] S128x128.size inb_S128x128_S128x128_0_0)) (View.ld x4 (Rect.unit (s := S128) ![0] S128.size inb_S128_S128_0)) (View.ld x5 (Rect.unit (s := S128x128) ![0, 0] S128x128.size inb_S128x128_S128x128_0_0)) (View.ld x6 (Rect.unit (s := S128) ![0] S128.size inb_S128_S128_0)) (View.ld x2 (Rect.unit (s := S5000x128) ![0, 0] S5000x128.size inb_S5000x128_S5000x128_0_0))⟩]

/-- That rectangle is the whole buffer. -/
theorem cover10_8 (p0 : Vec F S5000x128 .f32) (y : S5000x128.Idx) :
    ∃ pc ∈ ([⟨Rect.unit (s := S5000x128) ![0, 0] S5000x128.size inb_S5000x128_S5000x128_0_0, p0⟩] : List (View.Piece (Elt F) S5000x128 .f32)), y ∈ pc.1.set :=
  View.cover_of_tiled [⟨Rect.unit (s := S5000x128) ![0, 0] S5000x128.size inb_S5000x128_S5000x128_0_0, p0⟩] S5000x128.size (by rfl) y

set_option maxHeartbeats 4000000 in
/-- The body on whole staging memrefs — the inputs' at given contents, the outputs' at anything — runs to its continuation with
    the inputs' contents unchanged and each output's at `out10_w` of the inputs'. -/
theorem sound_kernel10 (c : Dev nD) (E : Set ℕ) (i : grid10.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S5000x128 .f32) (harg8 : arg8.IsWhole) (arg9 : Memref sig .tc .vmem S5000x128 .f32) (harg9 : arg9.IsWhole)
    (x0 : Vec F S5000x128 .f32) (x1 : Vec F S5000x128 .f32) (x2 : Vec F S5000x128 .f32) (x3 : Vec F S128x128 .f32) (x4 : Vec F S128 .f32) (x5 : Vec F S128x128 .f32) (x6 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out10_7 x0 x1 x2 x3 x4 x5 x6) ∗ owns (c : Thread nD τ) arg9 fullShare (out10_8 x0 x1 x2 x3 x4 x5 x6)) -∗ K ⟨⟩))
      ⊢ wp frame (wpE (defs₀ (F := F)) Variants.none c none) E (cc10__gin_kernel_resid i arg1 harg1 arg2 harg2 arg3 harg3 arg4 harg4 arg5 harg5 arg6 harg6 arg7 harg7 arg8 harg8 arg9 harg9) K := by
  simp only [cc10__gin_kernel_resid_eq_skeleton]; unfold cc10__gin_kernel_resid_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover10_7 _)
  iexists _; isplitr
  swap; · iexact H8
  ipureintro
  exact View.read_writes_eq_canon _ _ _ (cover10_8 _)

/-- The proof data of this region on core `c`: the windows' arrays are `V`'s; after the body at point `t` an input's buffer holds
    its block and an output's holds `out10_w` of the input blocks; the invariant is the pipeline library's plain one (the scoped
    rest and the generator register, untouched); nothing is owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => iblk10 V c 5 t
    | ⟨6, _⟩ => iblk10 V c 6 t
    | ⟨7, _⟩ => out10_7 (iblk10 V c 0 t) (iblk10 V c 1 t) (iblk10 V c 2 t) (iblk10 V c 3 t) (iblk10 V c 4 t) (iblk10 V c 5 t) (iblk10 V c 6 t)
    | ⟨8, _⟩ => out10_8 (iblk10 V c 0 t) (iblk10 V c 1 t) (iblk10 V c 2 t) (iblk10 V c 3 t) (iblk10 V c 4 t) (iblk10 V c 5 t) (iblk10 V c 6 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = iblk10 V c 5 t := by dsimp only [dat10]
theorem after10_6 (c : Dev nD) (t : Fin cfg10.N) : (dat10 V c).after 6 t = iblk10 V c 6 t := by dsimp only [dat10]
theorem after10_7 (c : Dev nD) (t : Fin cfg10.N) : (dat10 V c).after 7 t = out10_7 (iblk10 V c 0 t) (iblk10 V c 1 t) (iblk10 V c 2 t) (iblk10 V c 3 t) (iblk10 V c 4 t) (iblk10 V c 5 t) (iblk10 V c 6 t) := by dsimp only [dat10]
theorem after10_8 (c : Dev nD) (t : Fin cfg10.N) : (dat10 V c).after 8 t = out10_8 (iblk10 V c 0 t) (iblk10 V c 1 t) (iblk10 V c 2 t) (iblk10 V c 3 t) (iblk10 V c 4 t) (iblk10 V c 5 t) (iblk10 V c 6 t) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d
theorem before10_5 (c : Dev nD) (t : Fin cfg10.N) (d) : (dat10 V c).before 5 t d = iblk10 V c 5 t :=
  before10_5_of V (dat10 V c) (A_eq10 V c 5) (after10_5 V c) t d
theorem before10_6 (c : Dev nD) (t : Fin cfg10.N) (d) : (dat10 V c).before 6 t d = iblk10 V c 6 t :=
  before10_6_of V (dat10 V c) (A_eq10 V c 6) (after10_6 V c) t d

/-- What the body is called with at point `t`, window by window, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d))
    ∗ (∃ d, owns (c : Thread nD τ) (st10_6 t) fullShare ((dat10 V c).before 6 t d))
    ∗ (∃ d, owns (c : Thread nD τ) (st10_7 t) fullShare ((dat10 V c).before 7 t d))
    ∗ (∃ d, owns (c : Thread nD τ) (st10_8 t) fullShare ((dat10 V c).before 8 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t)
    ∗ owns (c : Thread nD τ) (st10_6 t) fullShare ((dat10 V c).after 6 t)
    ∗ owns (c : Thread nD τ) (st10_7 t) fullShare ((dat10 V c).after 7 t)
    ∗ owns (c : Thread nD τ) (st10_8 t) fullShare ((dat10 V c).after 8 t))

/-- The body at any grid point: the inputs' memrefs hold their blocks, so `sound_kernel10` applies; the invariant and what the
    core owes pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4, before10_5, before10_6]
  rw [show (dat10 V c).Φ t.succ = (dat10 V c).Φ t.castSucc from rfl,
    show (dat10 V c).owesAt () t.succ = (dat10 V c).owesAt () t.castSucc from rfl,
    after10_0, after10_1, after10_2, after10_3, after10_4, after10_5, after10_6, after10_7, after10_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel10 c Set.univ (grid10.coords t) _ _ _ _ _ _ _ _ _ _ _ _ _ _ _ _ _ _ (iblk10 V c 0 t) (iblk10 V c 1 t) (iblk10 V c 2 t) (iblk10 V c 3 t) (iblk10 V c 4 t) (iblk10 V c 5 t) (iblk10 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline library's body obligation, at every point. -/
theorem body_obligation10 (c : Dev nD) : BodyObligation (dat10 (F := F) V c) (defs₀ (F := F)) Variants.none () Set.univ := fun t => by
  rw [bigSep_W10, bigSep_W10]
  exact sound_body10 V c t

end Cert.KernelIdeal.Hand

end
-- ==== Proof.IReg11.lean ====
/-
  Region 11 of the program's thirteen kernel regions (the body `cc11__post_kernel`): what its proof data are, at an
  arbitrary valuation `V` of the TensorCore's buffers at the region's entry.  Each window's block at a grid point is read
  off the window's array; the body loads whole blocks and overwrites each output block whole, so what it leaves in an
  output window's staging buffer is one rectangle piece holding the body's payload of the input blocks; the input
  buffers are left as found.  From this the body's Hoare triple (by symbolic execution of the skeleton) and the
  pipeline library's per-point obligation follow at every float instance.
-/
import proofs.«106875_j87694642250037_1_alg».proof.Proof.Gen.KernelIdeal.Launch
import proofs.«106875_j87694642250037_1_alg».proof.Proof.Gen.KernelIdeal.Skeleton
import proofs.«106875_j87694642250037_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- An input window's staging buffer holds the window's block at every grid point, whether or not the block was fetched
    there (an unfetched point has the block index of the point before it), for any proof data on `V`'s arrays whose body
    leaves the block in place. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
/-- An input window's staging buffer holds the window's block at every grid point, whether or not the block was fetched
    there (an unfetched point has the block index of the point before it), for any proof data on `V`'s arrays whose body
    leaves the block in place. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
/-- An input window's staging buffer holds the window's block at every grid point, whether or not the block was fetched
    there (an unfetched point has the block index of the point before it), for any proof data on `V`'s arrays whose body
    leaves the block in place. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)
/-- An input window's staging buffer holds the window's block at every grid point, whether or not the block was fetched
    there (an unfetched point has the block index of the point before it), for any proof data on `V`'s arrays whose body
    leaves the block in place. -/
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)
/-- An input window's staging buffer holds the window's block at every grid point, whether or not the block was fetched
    there (an unfetched point has the block index of the point before it), for any proof data on `V`'s arrays whose body
    leaves the block in place. -/
theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)

/-- What the body leaves in output window 5's staging buffer, as a function of the input blocks: the block-sized rectangle
    holding the body's payload. -/
def out11_5 (x0 : Vec F S200x640 .f32) (x1 : Vec F S640x128 .f32) (x2 : Vec F S128 .f32) (x3 : Vec F S128x128 .f32) (x4 : Vec F S128 .f32) : Vec F S200x128 .f32 :=
  View.canon [⟨Rect.unit (s := S200x128) ![0, 0] S200x128.size inb_S200x128_S200x128_0_0, k11_pay1 (View.ld x0 (Rect.unit (s := S200x640) ![0, 0] S200x640.size inb_S200x640_S200x640_0_0)) (View.ld x1 (Rect.unit (s := S640x128) ![0, 0] S640x128.size inb_S640x128_S640x128_0_0)) (View.ld x2 (Rect.unit (s := S128) ![0] S128.size inb_S128_S128_0)) (View.ld x3 (Rect.unit (s := S128x128) ![0, 0] S128x128.size inb_S128x128_S128x128_0_0)) (View.ld x4 (Rect.unit (s := S128) ![0] S128.size inb_S128_S128_0))⟩]

/-- That rectangle is the whole buffer. -/
theorem cover11_5 (p0 : Vec F S200x128 .f32) (y : S200x128.Idx) :
    ∃ pc ∈ ([⟨Rect.unit (s := S200x128) ![0, 0] S200x128.size inb_S200x128_S200x128_0_0, p0⟩] : List (View.Piece (Elt F) S200x128 .f32)), y ∈ pc.1.set :=
  View.cover_of_tiled [⟨Rect.unit (s := S200x128) ![0, 0] S200x128.size inb_S200x128_S200x128_0_0, p0⟩] S200x128.size (by rfl) y

set_option maxHeartbeats 4000000 in
/-- The body on whole staging memrefs — the inputs' at given contents, the outputs' at anything — runs to its continuation with
    the inputs' contents unchanged and each output's at `out11_w` of the inputs'. -/
theorem sound_kernel11 (c : Dev nD) (E : Set ℕ) (i : grid11.Coords) (arg1 : Memref sig .tc .vmem S200x640 .f32) (harg1 : arg1.IsWhole) (arg2 : Memref sig .tc .vmem S640x128 .f32) (harg2 : arg2.IsWhole) (arg3 : Memref sig .tc .vmem S128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S200x128 .f32) (harg6 : arg6.IsWhole)
    (x0 : Vec F S200x640 .f32) (x1 : Vec F S640x128 .f32) (x2 : Vec F S128 .f32) (x3 : Vec F S128x128 .f32) (x4 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out11_5 x0 x1 x2 x3 x4)) -∗ K ⟨⟩))
      ⊢ wp frame (wpE (defs₀ (F := F)) Variants.none c none) E (cc11__post_kernel i arg1 harg1 arg2 harg2 arg3 harg3 arg4 harg4 arg5 harg5 arg6 harg6) K := by
  simp only [cc11__post_kernel_eq_skeleton]; unfold cc11__post_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover11_5 _)

/-- The proof data of this region on core `c`: the windows' arrays are `V`'s; after the body at point `t` an input's buffer holds
    its block and an output's holds `out11_w` of the input blocks; the invariant is the pipeline library's plain one (the scoped
    rest and the generator register, untouched); nothing is owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => out11_5 (iblk11 V c 0 t) (iblk11 V c 1 t) (iblk11 V c 2 t) (iblk11 V c 3 t) (iblk11 V c 4 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t = out11_5 (iblk11 V c 0 t) (iblk11 V c 1 t) (iblk11 V c 2 t) (iblk11 V c 3 t) (iblk11 V c 4 t) := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d

/-- What the body is called with at point `t`, window by window, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t))

/-- The body at any grid point: the inputs' memrefs hold their blocks, so `sound_kernel11` applies; the invariant and what the
    core owes pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4]
  rw [show (dat11 V c).Φ t.succ = (dat11 V c).Φ t.castSucc from rfl,
    show (dat11 V c).owesAt () t.succ = (dat11 V c).owesAt () t.castSucc from rfl,
    after11_0, after11_1, after11_2, after11_3, after11_4, after11_5]
  iintro ⟨HΦ, Ho, ⟨%d0, H0⟩, ⟨%d1, H1⟩, ⟨%d2, H2⟩, ⟨%d3, H3⟩, ⟨%d4, H4⟩, ⟨%d5, H5⟩⟩
  iapply (sound_kernel11 c Set.univ (grid11.coords t) _ _ _ _ _ _ _ _ _ _ _ _ (iblk11 V c 0 t) (iblk11 V c 1 t) (iblk11 V c 2 t) (iblk11 V c 3 t) (iblk11 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every point. -/
theorem body_obligation11 (c : Dev nD) : BodyObligation (dat11 (F := F) V c) (defs₀ (F := F)) Variants.none () Set.univ := fun t => by
  rw [bigSep_W11, bigSep_W11]
  exact sound_body11 V c t

end Cert.KernelIdeal.Hand

end
-- ==== Proof.IReg12.lean ====
/-
  Region 12 of the program's thirteen kernel regions (the body `cc12__asymm_kernel`): what its proof data are, at an
  arbitrary valuation `V` of the TensorCore's buffers at the region's entry.  Each window's block at a grid point is read
  off the window's array; the body loads whole blocks and overwrites each output block whole, so what it leaves in an
  output window's staging buffer is one rectangle piece holding the body's payload of the input blocks; the input
  buffers are left as found.  From this the body's Hoare triple (by symbolic execution of the skeleton) and the
  pipeline library's per-point obligation follow at every float instance.
-/
import proofs.«106875_j87694642250037_1_alg».proof.Proof.Gen.KernelIdeal.Launch
import proofs.«106875_j87694642250037_1_alg».proof.Proof.Gen.KernelIdeal.Skeleton
import proofs.«106875_j87694642250037_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- An input window's staging buffer holds the window's block at every grid point, whether or not the block was fetched
    there (an unfetched point has the block index of the point before it), for any proof data on `V`'s arrays whose body
    leaves the block in place. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)
/-- An input window's staging buffer holds the window's block at every grid point, whether or not the block was fetched
    there (an unfetched point has the block index of the point before it), for any proof data on `V`'s arrays whose body
    leaves the block in place. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-- What the body leaves in output window 2's staging buffer, as a function of the input blocks: the block-sized rectangle
    holding the body's payload. -/
def out12_2 (x0 : Vec F S1000x128 .f32) (x1 : Vec F S1000x128 .f32) : Vec F S1000 .f32 :=
  View.canon [⟨Rect.unit (s := S1000) ![0] S1000.size inb_S1000_S1000_0, k12_pay1 (k12_pay4 (View.ld x0 (Rect.unit (s := S1000x128) ![0, 0] S1000x64.size inb_S1000x128_S1000x64_0_0)) (View.ld x1 (Rect.unit (s := S1000x128) ![0, 0] S1000x64.size inb_S1000x128_S1000x64_0_0))) (k12_pay5 (View.ld x0 (Rect.unit (s := S1000x128) ![0, 64] S1000x64.size inb_S1000x128_S1000x64_0_64)) (View.ld x1 (Rect.unit (s := S1000x128) ![0, 64] S1000x64.size inb_S1000x128_S1000x64_0_64))) (k12_pay6 (View.ld x0 (Rect.unit (s := S1000x128) ![0, 64] S1000x64.size inb_S1000x128_S1000x64_0_64)) (View.ld x1 (Rect.unit (s := S1000x128) ![0, 64] S1000x64.size inb_S1000x128_S1000x64_0_64))) (Scalar.ofBits .f32 0x3F800000#32)⟩]

/-- That rectangle is the whole buffer. -/
theorem cover12_2 (p0 : Vec F S1000 .f32) (y : S1000.Idx) :
    ∃ pc ∈ ([⟨Rect.unit (s := S1000) ![0] S1000.size inb_S1000_S1000_0, p0⟩] : List (View.Piece (Elt F) S1000 .f32)), y ∈ pc.1.set :=
  View.cover_of_tiled [⟨Rect.unit (s := S1000) ![0] S1000.size inb_S1000_S1000_0, p0⟩] S1000.size (by rfl) y

set_option maxHeartbeats 4000000 in
/-- The body on whole staging memrefs — the inputs' at given contents, the outputs' at anything — runs to its continuation with
    the inputs' contents unchanged and each output's at `out12_w` of the inputs'. -/
theorem sound_kernel12 (c : Dev nD) (E : Set ℕ) (i : grid12.Coords) (arg1 : Memref sig .tc .vmem S1000x128 .f32) (harg1 : arg1.IsWhole) (arg2 : Memref sig .tc .vmem S1000x128 .f32) (harg2 : arg2.IsWhole) (arg3 : Memref sig .tc .vmem S1000 .f32) (harg3 : arg3.IsWhole)
    (x0 : Vec F S1000x128 .f32) (x1 : Vec F S1000x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out12_2 x0 x1)) -∗ K ⟨⟩))
      ⊢ wp frame (wpE (defs₀ (F := F)) Variants.none c none) E (cc12__asymm_kernel i arg1 harg1 arg2 harg2 arg3 harg3) K := by
  simp only [cc12__asymm_kernel_eq_skeleton]; unfold cc12__asymm_kernel_skel
  simp only [k12_part1_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover12_2 _)

/-- The proof data of this region on core `c`: the windows' arrays are `V`'s; after the body at point `t` an input's buffer holds
    its block and an output's holds `out12_w` of the input blocks; the invariant is the pipeline library's plain one (the scoped
    rest and the generator register, untouched); nothing is owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => out12_2 (iblk12 V c 0 t) (iblk12 V c 1 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = out12_2 (iblk12 V c 0 t) (iblk12 V c 1 t) := by dsimp only [dat12]

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d

/-- What the body is called with at point `t`, window by window, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t))

/-- The body at any grid point: the inputs' memrefs hold their blocks, so `sound_kernel12` applies; the invariant and what the
    core owes pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1]
  rw [show (dat12 V c).Φ t.succ = (dat12 V c).Φ t.castSucc from rfl,
    show (dat12 V c).owesAt () t.succ = (dat12 V c).owesAt () t.castSucc from rfl,
    after12_0, after12_1, after12_2]
  iintro ⟨HΦ, Ho, ⟨%d0, H0⟩, ⟨%d1, H1⟩, ⟨%d2, H2⟩⟩
  iapply (sound_kernel12 c Set.univ (grid12.coords t) _ _ _ _ _ _ (iblk12 V c 0 t) (iblk12 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation12 (c : Dev nD) : BodyObligation (dat12 (F := F) V c) (defs₀ (F := F)) Variants.none () Set.univ := fun t => by
  rw [bigSep_W12, bigSep_W12]
  exact sound_body12 V c t

end Cert.KernelIdeal.Hand

end
-- ==== Proof.IRun.lean ====
/-
  The run of the whole program, region by region.  Between two items of the program's main function core `c` holds every
  unscoped buffer at a valuation `YJ`: the launch memory, then, alternately, the host operations of a stretch applied to
  it and a kernel region's arrays replaced by what the region's pipeline leaves in them (an input array as found; an
  output array the fold of the blocks written back, `Dat.arrAt … N`).  Each region is a segment of the pipeline library
  over the thread state "every unscoped buffer at the valuation, the generator register at some state, nothing owed";
  the library's launch theorem then gives: every weakly fair execution terminates, the result buffer ends at the last
  valuation's contents, and every argument buffer ends as launched (no host stretch writes an argument; a region that
  reads one through an input window hands it back as found).
-/
import proofs.«106875_j87694642250037_1_alg».proof.Proof.IReg0
import proofs.«106875_j87694642250037_1_alg».proof.Proof.IReg1
import proofs.«106875_j87694642250037_1_alg».proof.Proof.IReg2
import proofs.«106875_j87694642250037_1_alg».proof.Proof.IReg3
import proofs.«106875_j87694642250037_1_alg».proof.Proof.IReg4
import proofs.«106875_j87694642250037_1_alg».proof.Proof.IReg5
import proofs.«106875_j87694642250037_1_alg».proof.Proof.IReg6
import proofs.«106875_j87694642250037_1_alg».proof.Proof.IReg7
import proofs.«106875_j87694642250037_1_alg».proof.Proof.IReg8
import proofs.«106875_j87694642250037_1_alg».proof.Proof.IReg9
import proofs.«106875_j87694642250037_1_alg».proof.Proof.IReg10
import proofs.«106875_j87694642250037_1_alg».proof.Proof.IReg11
import proofs.«106875_j87694642250037_1_alg».proof.Proof.IReg12
import proofs.«106875_j87694642250037_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between items -/

/-- Core `c`'s buffers at launch. -/
abbrev Y0 : Dev nD → Valuation τ sig (Elt F) := fun c b => m ((c : Dev nD), b)
abbrev R0v : (c : Dev nD) → (b : Ref sig .tc) → Buf (Elt F) ((c : Thread nD τ).loc b) := fun c b => Y0 m c b
/-- After the host stretch `hostOps0`. -/
abbrev Y1 : Dev nD → Valuation τ sig (Elt F) := fun c => StableHlo.after hostOps0 (Y0 m c)
abbrev R1v : (c : Dev nD) → (b : Ref sig .tc) → Buf (Elt F) ((c : Thread nD τ).loc b) := fun c b => Y1 m c b
theorem Y1_keep (c : Dev nD) (r : Ref sig .tc) (h : r ∉ hostOps0_W) : Y1 m c r = Y0 m c r :=
  StableHlo.after_of_writes_sub hostOps0 _ hostOps0_writes h
/-- After region 0: its arrays at what its pipeline leaves, every other buffer as at its entry. -/
def Y2 (c : Dev nD) : Valuation τ sig (Elt F) :=
  Pipeline.withArrays spec0 c (Y1 m c) fun w => (dat0 (R1v m) c).arrAt w cfg0.N
abbrev R2v : (c : Dev nD) → (b : Ref sig .tc) → Buf (Elt F) ((c : Thread nD τ).loc b) := fun c b => Y2 m c b
theorem Y2_arr (c : Dev nD) (w : Fin cfg0.W) :
    Y2 m c (Proc.devRef .tc (Pipeline.arrRef spec0 w)) = (dat0 (R1v m) c).arrAt w cfg0.N := by
  unfold Y2; exact Pipeline.withArrays_arr spec0 launch0.win.arr_inj c _ _ w
theorem Y2_of_ne (c : Dev nD) (b : Ref sig .tc) (hb : ∀ w, Pipeline.arrRef spec0 w ≠ b) :
    Y2 m c (Proc.devRef .tc b) = Y1 m c (Proc.devRef .tc b) := by
  unfold Y2; exact Pipeline.withArrays_of_ne spec0 c _ _ b hb
/-- An input window's array is handed back as found. -/
theorem Y2_in (c : Dev nD) (w : Fin cfg0.W) (hw : (cfg0.win w).isOut = false) :
    Y2 m c (Proc.devRef .tc (Pipeline.arrRef spec0 w)) = Y1 m c (Proc.devRef .tc (Pipeline.arrRef spec0 w)) :=
  (Y2_arr m c w).trans (((dat0 (R1v m) c).arrAt_in w hw _).trans (A_eq0 (R1v m) c w))
theorem hF0 (c : Dev nD) (w : Fin cfg0.W) : (dat0 (R1v m) c).arrAt w cfg0.N = R2v m c (Pipeline.arrRef spec0 w) :=
  (Y2_arr m c w).symm
theorem hrest0 (c : Dev nD) : ∀ b, b ∉ Finset.univ.image (Pipeline.arrRef spec0) → R2v m c b = R1v m c b :=
  fun b hb => Y2_of_ne m c b fun w e => hb (Finset.mem_image.mpr ⟨w, Finset.mem_univ _, e⟩)
/-- After the host stretch `hostOps1`. -/
abbrev Y3 : Dev nD → Valuation τ sig (Elt F) := fun c => StableHlo.after hostOps1 (Y2 m c)
abbrev R3v : (c : Dev nD) → (b : Ref sig .tc) → Buf (Elt F) ((c : Thread nD τ).loc b) := fun c b => Y3 m c b
theorem Y3_keep (c : Dev nD) (r : Ref sig .tc) (h : r ∉ hostOps1_W) : Y3 m c r = Y2 m c r :=
  StableHlo.after_of_writes_sub hostOps1 _ hostOps1_writes h
/-- After region 1: its arrays at what its pipeline leaves, every other buffer as at its entry. -/
def Y4 (c : Dev nD) : Valuation τ sig (Elt F) :=
  Pipeline.withArrays spec1 c (Y3 m c) fun w => (dat1 (R3v m) c).arrAt w cfg1.N
abbrev R4v : (c : Dev nD) → (b : Ref sig .tc) → Buf (Elt F) ((c : Thread nD τ).loc b) := fun c b => Y4 m c b
theorem Y4_arr (c : Dev nD) (w : Fin cfg1.W) :
    Y4 m c (Proc.devRef .tc (Pipeline.arrRef spec1 w)) = (dat1 (R3v m) c).arrAt w cfg1.N := by
  unfold Y4; exact Pipeline.withArrays_arr spec1 launch1.win.arr_inj c _ _ w
theorem Y4_of_ne (c : Dev nD) (b : Ref sig .tc) (hb : ∀ w, Pipeline.arrRef spec1 w ≠ b) :
    Y4 m c (Proc.devRef .tc b) = Y3 m c (Proc.devRef .tc b) := by
  unfold Y4; exact Pipeline.withArrays_of_ne spec1 c _ _ b hb
/-- An input window's array is handed back as found. -/
theorem Y4_in (c : Dev nD) (w : Fin cfg1.W) (hw : (cfg1.win w).isOut = false) :
    Y4 m c (Proc.devRef .tc (Pipeline.arrRef spec1 w)) = Y3 m c (Proc.devRef .tc (Pipeline.arrRef spec1 w)) :=
  (Y4_arr m c w).trans (((dat1 (R3v m) c).arrAt_in w hw _).trans (A_eq1 (R3v m) c w))
theorem hF1 (c : Dev nD) (w : Fin cfg1.W) : (dat1 (R3v m) c).arrAt w cfg1.N = R4v m c (Pipeline.arrRef spec1 w) :=
  (Y4_arr m c w).symm
theorem hrest1 (c : Dev nD) : ∀ b, b ∉ Finset.univ.image (Pipeline.arrRef spec1) → R4v m c b = R3v m c b :=
  fun b hb => Y4_of_ne m c b fun w e => hb (Finset.mem_image.mpr ⟨w, Finset.mem_univ _, e⟩)
/-- After the host stretch `hostOps2`. -/
abbrev Y5 : Dev nD → Valuation τ sig (Elt F) := fun c => StableHlo.after hostOps2 (Y4 m c)
abbrev R5v : (c : Dev nD) → (b : Ref sig .tc) → Buf (Elt F) ((c : Thread nD τ).loc b) := fun c b => Y5 m c b
theorem Y5_keep (c : Dev nD) (r : Ref sig .tc) (h : r ∉ hostOps2_W) : Y5 m c r = Y4 m c r :=
  StableHlo.after_of_writes_sub hostOps2 _ hostOps2_writes h
/-- After region 2: its arrays at what its pipeline leaves, every other buffer as at its entry. -/
def Y6 (c : Dev nD) : Valuation τ sig (Elt F) :=
  Pipeline.withArrays spec2 c (Y5 m c) fun w => (dat2 (R5v m) c).arrAt w cfg2.N
abbrev R6v : (c : Dev nD) → (b : Ref sig .tc) → Buf (Elt F) ((c : Thread nD τ).loc b) := fun c b => Y6 m c b
theorem Y6_arr (c : Dev nD) (w : Fin cfg2.W) :
    Y6 m c (Proc.devRef .tc (Pipeline.arrRef spec2 w)) = (dat2 (R5v m) c).arrAt w cfg2.N := by
  unfold Y6; exact Pipeline.withArrays_arr spec2 launch2.win.arr_inj c _ _ w
theorem Y6_of_ne (c : Dev nD) (b : Ref sig .tc) (hb : ∀ w, Pipeline.arrRef spec2 w ≠ b) :
    Y6 m c (Proc.devRef .tc b) = Y5 m c (Proc.devRef .tc b) := by
  unfold Y6; exact Pipeline.withArrays_of_ne spec2 c _ _ b hb
/-- An input window's array is handed back as found. -/
theorem Y6_in (c : Dev nD) (w : Fin cfg2.W) (hw : (cfg2.win w).isOut = false) :
    Y6 m c (Proc.devRef .tc (Pipeline.arrRef spec2 w)) = Y5 m c (Proc.devRef .tc (Pipeline.arrRef spec2 w)) :=
  (Y6_arr m c w).trans (((dat2 (R5v m) c).arrAt_in w hw _).trans (A_eq2 (R5v m) c w))
theorem hF2 (c : Dev nD) (w : Fin cfg2.W) : (dat2 (R5v m) c).arrAt w cfg2.N = R6v m c (Pipeline.arrRef spec2 w) :=
  (Y6_arr m c w).symm
theorem hrest2 (c : Dev nD) : ∀ b, b ∉ Finset.univ.image (Pipeline.arrRef spec2) → R6v m c b = R5v m c b :=
  fun b hb => Y6_of_ne m c b fun w e => hb (Finset.mem_image.mpr ⟨w, Finset.mem_univ _, e⟩)
/-- After the host stretch `hostOps3`. -/
abbrev Y7 : Dev nD → Valuation τ sig (Elt F) := fun c => StableHlo.after hostOps3 (Y6 m c)
abbrev R7v : (c : Dev nD) → (b : Ref sig .tc) → Buf (Elt F) ((c : Thread nD τ).loc b) := fun c b => Y7 m c b
theorem Y7_keep (c : Dev nD) (r : Ref sig .tc) (h : r ∉ hostOps3_W) : Y7 m c r = Y6 m c r :=
  StableHlo.after_of_writes_sub hostOps3 _ hostOps3_writes h
/-- After region 3: its arrays at what its pipeline leaves, every other buffer as at its entry. -/
def Y8 (c : Dev nD) : Valuation τ sig (Elt F) :=
  Pipeline.withArrays spec3 c (Y7 m c) fun w => (dat3 (R7v m) c).arrAt w cfg3.N
abbrev R8v : (c : Dev nD) → (b : Ref sig .tc) → Buf (Elt F) ((c : Thread nD τ).loc b) := fun c b => Y8 m c b
theorem Y8_arr (c : Dev nD) (w : Fin cfg3.W) :
    Y8 m c (Proc.devRef .tc (Pipeline.arrRef spec3 w)) = (dat3 (R7v m) c).arrAt w cfg3.N := by
  unfold Y8; exact Pipeline.withArrays_arr spec3 launch3.win.arr_inj c _ _ w
theorem Y8_of_ne (c : Dev nD) (b : Ref sig .tc) (hb : ∀ w, Pipeline.arrRef spec3 w ≠ b) :
    Y8 m c (Proc.devRef .tc b) = Y7 m c (Proc.devRef .tc b) := by
  unfold Y8; exact Pipeline.withArrays_of_ne spec3 c _ _ b hb
/-- An input window's array is handed back as found. -/
theorem Y8_in (c : Dev nD) (w : Fin cfg3.W) (hw : (cfg3.win w).isOut = false) :
    Y8 m c (Proc.devRef .tc (Pipeline.arrRef spec3 w)) = Y7 m c (Proc.devRef .tc (Pipeline.arrRef spec3 w)) :=
  (Y8_arr m c w).trans (((dat3 (R7v m) c).arrAt_in w hw _).trans (A_eq3 (R7v m) c w))
theorem hF3 (c : Dev nD) (w : Fin cfg3.W) : (dat3 (R7v m) c).arrAt w cfg3.N = R8v m c (Pipeline.arrRef spec3 w) :=
  (Y8_arr m c w).symm
theorem hrest3 (c : Dev nD) : ∀ b, b ∉ Finset.univ.image (Pipeline.arrRef spec3) → R8v m c b = R7v m c b :=
  fun b hb => Y8_of_ne m c b fun w e => hb (Finset.mem_image.mpr ⟨w, Finset.mem_univ _, e⟩)
/-- After the host stretch `hostOps4`. -/
abbrev Y9 : Dev nD → Valuation τ sig (Elt F) := fun c => StableHlo.after hostOps4 (Y8 m c)
abbrev R9v : (c : Dev nD) → (b : Ref sig .tc) → Buf (Elt F) ((c : Thread nD τ).loc b) := fun c b => Y9 m c b
theorem Y9_keep (c : Dev nD) (r : Ref sig .tc) (h : r ∉ hostOps4_W) : Y9 m c r = Y8 m c r :=
  StableHlo.after_of_writes_sub hostOps4 _ hostOps4_writes h
/-- After region 4: its arrays at what its pipeline leaves, every other buffer as at its entry. -/
def Y10 (c : Dev nD) : Valuation τ sig (Elt F) :=
  Pipeline.withArrays spec4 c (Y9 m c) fun w => (dat4 (R9v m) c).arrAt w cfg4.N
abbrev R10v : (c : Dev nD) → (b : Ref sig .tc) → Buf (Elt F) ((c : Thread nD τ).loc b) := fun c b => Y10 m c b
theorem Y10_arr (c : Dev nD) (w : Fin cfg4.W) :
    Y10 m c (Proc.devRef .tc (Pipeline.arrRef spec4 w)) = (dat4 (R9v m) c).arrAt w cfg4.N := by
  unfold Y10; exact Pipeline.withArrays_arr spec4 launch4.win.arr_inj c _ _ w
theorem Y10_of_ne (c : Dev nD) (b : Ref sig .tc) (hb : ∀ w, Pipeline.arrRef spec4 w ≠ b) :
    Y10 m c (Proc.devRef .tc b) = Y9 m c (Proc.devRef .tc b) := by
  unfold Y10; exact Pipeline.withArrays_of_ne spec4 c _ _ b hb
/-- An input window's array is handed back as found. -/
theorem Y10_in (c : Dev nD) (w : Fin cfg4.W) (hw : (cfg4.win w).isOut = false) :
    Y10 m c (Proc.devRef .tc (Pipeline.arrRef spec4 w)) = Y9 m c (Proc.devRef .tc (Pipeline.arrRef spec4 w)) :=
  (Y10_arr m c w).trans (((dat4 (R9v m) c).arrAt_in w hw _).trans (A_eq4 (R9v m) c w))
theorem hF4 (c : Dev nD) (w : Fin cfg4.W) : (dat4 (R9v m) c).arrAt w cfg4.N = R10v m c (Pipeline.arrRef spec4 w) :=
  (Y10_arr m c w).symm
theorem hrest4 (c : Dev nD) : ∀ b, b ∉ Finset.univ.image (Pipeline.arrRef spec4) → R10v m c b = R9v m c b :=
  fun b hb => Y10_of_ne m c b fun w e => hb (Finset.mem_image.mpr ⟨w, Finset.mem_univ _, e⟩)
/-- After the host stretch `hostOps5`. -/
abbrev Y11 : Dev nD → Valuation τ sig (Elt F) := fun c => StableHlo.after hostOps5 (Y10 m c)
abbrev R11v : (c : Dev nD) → (b : Ref sig .tc) → Buf (Elt F) ((c : Thread nD τ).loc b) := fun c b => Y11 m c b
theorem Y11_keep (c : Dev nD) (r : Ref sig .tc) (h : r ∉ hostOps5_W) : Y11 m c r = Y10 m c r :=
  StableHlo.after_of_writes_sub hostOps5 _ hostOps5_writes h
/-- After region 5: its arrays at what its pipeline leaves, every other buffer as at its entry. -/
def Y12 (c : Dev nD) : Valuation τ sig (Elt F) :=
  Pipeline.withArrays spec5 c (Y11 m c) fun w => (dat5 (R11v m) c).arrAt w cfg5.N
abbrev R12v : (c : Dev nD) → (b : Ref sig .tc) → Buf (Elt F) ((c : Thread nD τ).loc b) := fun c b => Y12 m c b
theorem Y12_arr (c : Dev nD) (w : Fin cfg5.W) :
    Y12 m c (Proc.devRef .tc (Pipeline.arrRef spec5 w)) = (dat5 (R11v m) c).arrAt w cfg5.N := by
  unfold Y12; exact Pipeline.withArrays_arr spec5 launch5.win.arr_inj c _ _ w
theorem Y12_of_ne (c : Dev nD) (b : Ref sig .tc) (hb : ∀ w, Pipeline.arrRef spec5 w ≠ b) :
    Y12 m c (Proc.devRef .tc b) = Y11 m c (Proc.devRef .tc b) := by
  unfold Y12; exact Pipeline.withArrays_of_ne spec5 c _ _ b hb
/-- An input window's array is handed back as found. -/
theorem Y12_in (c : Dev nD) (w : Fin cfg5.W) (hw : (cfg5.win w).isOut = false) :
    Y12 m c (Proc.devRef .tc (Pipeline.arrRef spec5 w)) = Y11 m c (Proc.devRef .tc (Pipeline.arrRef spec5 w)) :=
  (Y12_arr m c w).trans (((dat5 (R11v m) c).arrAt_in w hw _).trans (A_eq5 (R11v m) c w))
theorem hF5 (c : Dev nD) (w : Fin cfg5.W) : (dat5 (R11v m) c).arrAt w cfg5.N = R12v m c (Pipeline.arrRef spec5 w) :=
  (Y12_arr m c w).symm
theorem hrest5 (c : Dev nD) : ∀ b, b ∉ Finset.univ.image (Pipeline.arrRef spec5) → R12v m c b = R11v m c b :=
  fun b hb => Y12_of_ne m c b fun w e => hb (Finset.mem_image.mpr ⟨w, Finset.mem_univ _, e⟩)
/-- After the host stretch `hostOps6`. -/
abbrev Y13 : Dev nD → Valuation τ sig (Elt F) := fun c => StableHlo.after hostOps6 (Y12 m c)
abbrev R13v : (c : Dev nD) → (b : Ref sig .tc) → Buf (Elt F) ((c : Thread nD τ).loc b) := fun c b => Y13 m c b
theorem Y13_keep (c : Dev nD) (r : Ref sig .tc) (h : r ∉ hostOps6_W) : Y13 m c r = Y12 m c r :=
  StableHlo.after_of_writes_sub hostOps6 _ hostOps6_writes h
/-- After region 6: its arrays at what its pipeline leaves, every other buffer as at its entry. -/
def Y14 (c : Dev nD) : Valuation τ sig (Elt F) :=
  Pipeline.withArrays spec6 c (Y13 m c) fun w => (dat6 (R13v m) c).arrAt w cfg6.N
abbrev R14v : (c : Dev nD) → (b : Ref sig .tc) → Buf (Elt F) ((c : Thread nD τ).loc b) := fun c b => Y14 m c b
theorem Y14_arr (c : Dev nD) (w : Fin cfg6.W) :
    Y14 m c (Proc.devRef .tc (Pipeline.arrRef spec6 w)) = (dat6 (R13v m) c).arrAt w cfg6.N := by
  unfold Y14; exact Pipeline.withArrays_arr spec6 launch6.win.arr_inj c _ _ w
theorem Y14_of_ne (c : Dev nD) (b : Ref sig .tc) (hb : ∀ w, Pipeline.arrRef spec6 w ≠ b) :
    Y14 m c (Proc.devRef .tc b) = Y13 m c (Proc.devRef .tc b) := by
  unfold Y14; exact Pipeline.withArrays_of_ne spec6 c _ _ b hb
/-- An input window's array is handed back as found. -/
theorem Y14_in (c : Dev nD) (w : Fin cfg6.W) (hw : (cfg6.win w).isOut = false) :
    Y14 m c (Proc.devRef .tc (Pipeline.arrRef spec6 w)) = Y13 m c (Proc.devRef .tc (Pipeline.arrRef spec6 w)) :=
  (Y14_arr m c w).trans (((dat6 (R13v m) c).arrAt_in w hw _).trans (A_eq6 (R13v m) c w))
theorem hF6 (c : Dev nD) (w : Fin cfg6.W) : (dat6 (R13v m) c).arrAt w cfg6.N = R14v m c (Pipeline.arrRef spec6 w) :=
  (Y14_arr m c w).symm
theorem hrest6 (c : Dev nD) : ∀ b, b ∉ Finset.univ.image (Pipeline.arrRef spec6) → R14v m c b = R13v m c b :=
  fun b hb => Y14_of_ne m c b fun w e => hb (Finset.mem_image.mpr ⟨w, Finset.mem_univ _, e⟩)
/-- After the host stretch `hostOps7`. -/
abbrev Y15 : Dev nD → Valuation τ sig (Elt F) := fun c => StableHlo.after hostOps7 (Y14 m c)
abbrev R15v : (c : Dev nD) → (b : Ref sig .tc) → Buf (Elt F) ((c : Thread nD τ).loc b) := fun c b => Y15 m c b
theorem Y15_keep (c : Dev nD) (r : Ref sig .tc) (h : r ∉ hostOps7_W) : Y15 m c r = Y14 m c r :=
  StableHlo.after_of_writes_sub hostOps7 _ hostOps7_writes h
/-- After region 7: its arrays at what its pipeline leaves, every other buffer as at its entry. -/
def Y16 (c : Dev nD) : Valuation τ sig (Elt F) :=
  Pipeline.withArrays spec7 c (Y15 m c) fun w => (dat7 (R15v m) c).arrAt w cfg7.N
abbrev R16v : (c : Dev nD) → (b : Ref sig .tc) → Buf (Elt F) ((c : Thread nD τ).loc b) := fun c b => Y16 m c b
theorem Y16_arr (c : Dev nD) (w : Fin cfg7.W) :
    Y16 m c (Proc.devRef .tc (Pipeline.arrRef spec7 w)) = (dat7 (R15v m) c).arrAt w cfg7.N := by
  unfold Y16; exact Pipeline.withArrays_arr spec7 launch7.win.arr_inj c _ _ w
theorem Y16_of_ne (c : Dev nD) (b : Ref sig .tc) (hb : ∀ w, Pipeline.arrRef spec7 w ≠ b) :
    Y16 m c (Proc.devRef .tc b) = Y15 m c (Proc.devRef .tc b) := by
  unfold Y16; exact Pipeline.withArrays_of_ne spec7 c _ _ b hb
/-- An input window's array is handed back as found. -/
theorem Y16_in (c : Dev nD) (w : Fin cfg7.W) (hw : (cfg7.win w).isOut = false) :
    Y16 m c (Proc.devRef .tc (Pipeline.arrRef spec7 w)) = Y15 m c (Proc.devRef .tc (Pipeline.arrRef spec7 w)) :=
  (Y16_arr m c w).trans (((dat7 (R15v m) c).arrAt_in w hw _).trans (A_eq7 (R15v m) c w))
theorem hF7 (c : Dev nD) (w : Fin cfg7.W) : (dat7 (R15v m) c).arrAt w cfg7.N = R16v m c (Pipeline.arrRef spec7 w) :=
  (Y16_arr m c w).symm
theorem hrest7 (c : Dev nD) : ∀ b, b ∉ Finset.univ.image (Pipeline.arrRef spec7) → R16v m c b = R15v m c b :=
  fun b hb => Y16_of_ne m c b fun w e => hb (Finset.mem_image.mpr ⟨w, Finset.mem_univ _, e⟩)
/-- After the host stretch `hostOps8`. -/
abbrev Y17 : Dev nD → Valuation τ sig (Elt F) := fun c => StableHlo.after hostOps8 (Y16 m c)
abbrev R17v : (c : Dev nD) → (b : Ref sig .tc) → Buf (Elt F) ((c : Thread nD τ).loc b) := fun c b => Y17 m c b
theorem Y17_keep (c : Dev nD) (r : Ref sig .tc) (h : r ∉ hostOps8_W) : Y17 m c r = Y16 m c r :=
  StableHlo.after_of_writes_sub hostOps8 _ hostOps8_writes h
/-- After region 8: its arrays at what its pipeline leaves, every other buffer as at its entry. -/
def Y18 (c : Dev nD) : Valuation τ sig (Elt F) :=
  Pipeline.withArrays spec8 c (Y17 m c) fun w => (dat8 (R17v m) c).arrAt w cfg8.N
abbrev R18v : (c : Dev nD) → (b : Ref sig .tc) → Buf (Elt F) ((c : Thread nD τ).loc b) := fun c b => Y18 m c b
theorem Y18_arr (c : Dev nD) (w : Fin cfg8.W) :
    Y18 m c (Proc.devRef .tc (Pipeline.arrRef spec8 w)) = (dat8 (R17v m) c).arrAt w cfg8.N := by
  unfold Y18; exact Pipeline.withArrays_arr spec8 launch8.win.arr_inj c _ _ w
theorem Y18_of_ne (c : Dev nD) (b : Ref sig .tc) (hb : ∀ w, Pipeline.arrRef spec8 w ≠ b) :
    Y18 m c (Proc.devRef .tc b) = Y17 m c (Proc.devRef .tc b) := by
  unfold Y18; exact Pipeline.withArrays_of_ne spec8 c _ _ b hb
/-- An input window's array is handed back as found. -/
theorem Y18_in (c : Dev nD) (w : Fin cfg8.W) (hw : (cfg8.win w).isOut = false) :
    Y18 m c (Proc.devRef .tc (Pipeline.arrRef spec8 w)) = Y17 m c (Proc.devRef .tc (Pipeline.arrRef spec8 w)) :=
  (Y18_arr m c w).trans (((dat8 (R17v m) c).arrAt_in w hw _).trans (A_eq8 (R17v m) c w))
theorem hF8 (c : Dev nD) (w : Fin cfg8.W) : (dat8 (R17v m) c).arrAt w cfg8.N = R18v m c (Pipeline.arrRef spec8 w) :=
  (Y18_arr m c w).symm
theorem hrest8 (c : Dev nD) : ∀ b, b ∉ Finset.univ.image (Pipeline.arrRef spec8) → R18v m c b = R17v m c b :=
  fun b hb => Y18_of_ne m c b fun w e => hb (Finset.mem_image.mpr ⟨w, Finset.mem_univ _, e⟩)
/-- After the host stretch `hostOps9`. -/
abbrev Y19 : Dev nD → Valuation τ sig (Elt F) := fun c => StableHlo.after hostOps9 (Y18 m c)
abbrev R19v : (c : Dev nD) → (b : Ref sig .tc) → Buf (Elt F) ((c : Thread nD τ).loc b) := fun c b => Y19 m c b
theorem Y19_keep (c : Dev nD) (r : Ref sig .tc) (h : r ∉ hostOps9_W) : Y19 m c r = Y18 m c r :=
  StableHlo.after_of_writes_sub hostOps9 _ hostOps9_writes h
/-- After region 9: its arrays at what its pipeline leaves, every other buffer as at its entry. -/
def Y20 (c : Dev nD) : Valuation τ sig (Elt F) :=
  Pipeline.withArrays spec9 c (Y19 m c) fun w => (dat9 (R19v m) c).arrAt w cfg9.N
abbrev R20v : (c : Dev nD) → (b : Ref sig .tc) → Buf (Elt F) ((c : Thread nD τ).loc b) := fun c b => Y20 m c b
theorem Y20_arr (c : Dev nD) (w : Fin cfg9.W) :
    Y20 m c (Proc.devRef .tc (Pipeline.arrRef spec9 w)) = (dat9 (R19v m) c).arrAt w cfg9.N := by
  unfold Y20; exact Pipeline.withArrays_arr spec9 launch9.win.arr_inj c _ _ w
theorem Y20_of_ne (c : Dev nD) (b : Ref sig .tc) (hb : ∀ w, Pipeline.arrRef spec9 w ≠ b) :
    Y20 m c (Proc.devRef .tc b) = Y19 m c (Proc.devRef .tc b) := by
  unfold Y20; exact Pipeline.withArrays_of_ne spec9 c _ _ b hb
/-- An input window's array is handed back as found. -/
theorem Y20_in (c : Dev nD) (w : Fin cfg9.W) (hw : (cfg9.win w).isOut = false) :
    Y20 m c (Proc.devRef .tc (Pipeline.arrRef spec9 w)) = Y19 m c (Proc.devRef .tc (Pipeline.arrRef spec9 w)) :=
  (Y20_arr m c w).trans (((dat9 (R19v m) c).arrAt_in w hw _).trans (A_eq9 (R19v m) c w))
theorem hF9 (c : Dev nD) (w : Fin cfg9.W) : (dat9 (R19v m) c).arrAt w cfg9.N = R20v m c (Pipeline.arrRef spec9 w) :=
  (Y20_arr m c w).symm
theorem hrest9 (c : Dev nD) : ∀ b, b ∉ Finset.univ.image (Pipeline.arrRef spec9) → R20v m c b = R19v m c b :=
  fun b hb => Y20_of_ne m c b fun w e => hb (Finset.mem_image.mpr ⟨w, Finset.mem_univ _, e⟩)
/-- After the host stretch `hostOps10`. -/
abbrev Y21 : Dev nD → Valuation τ sig (Elt F) := fun c => StableHlo.after hostOps10 (Y20 m c)
abbrev R21v : (c : Dev nD) → (b : Ref sig .tc) → Buf (Elt F) ((c : Thread nD τ).loc b) := fun c b => Y21 m c b
theorem Y21_keep (c : Dev nD) (r : Ref sig .tc) (h : r ∉ hostOps10_W) : Y21 m c r = Y20 m c r :=
  StableHlo.after_of_writes_sub hostOps10 _ hostOps10_writes h
/-- After region 10: its arrays at what its pipeline leaves, every other buffer as at its entry. -/
def Y22 (c : Dev nD) : Valuation τ sig (Elt F) :=
  Pipeline.withArrays spec10 c (Y21 m c) fun w => (dat10 (R21v m) c).arrAt w cfg10.N
abbrev R22v : (c : Dev nD) → (b : Ref sig .tc) → Buf (Elt F) ((c : Thread nD τ).loc b) := fun c b => Y22 m c b
theorem Y22_arr (c : Dev nD) (w : Fin cfg10.W) :
    Y22 m c (Proc.devRef .tc (Pipeline.arrRef spec10 w)) = (dat10 (R21v m) c).arrAt w cfg10.N := by
  unfold Y22; exact Pipeline.withArrays_arr spec10 launch10.win.arr_inj c _ _ w
theorem Y22_of_ne (c : Dev nD) (b : Ref sig .tc) (hb : ∀ w, Pipeline.arrRef spec10 w ≠ b) :
    Y22 m c (Proc.devRef .tc b) = Y21 m c (Proc.devRef .tc b) := by
  unfold Y22; exact Pipeline.withArrays_of_ne spec10 c _ _ b hb
/-- An input window's array is handed back as found. -/
theorem Y22_in (c : Dev nD) (w : Fin cfg10.W) (hw : (cfg10.win w).isOut = false) :
    Y22 m c (Proc.devRef .tc (Pipeline.arrRef spec10 w)) = Y21 m c (Proc.devRef .tc (Pipeline.arrRef spec10 w)) :=
  (Y22_arr m c w).trans (((dat10 (R21v m) c).arrAt_in w hw _).trans (A_eq10 (R21v m) c w))
theorem hF10 (c : Dev nD) (w : Fin cfg10.W) : (dat10 (R21v m) c).arrAt w cfg10.N = R22v m c (Pipeline.arrRef spec10 w) :=
  (Y22_arr m c w).symm
theorem hrest10 (c : Dev nD) : ∀ b, b ∉ Finset.univ.image (Pipeline.arrRef spec10) → R22v m c b = R21v m c b :=
  fun b hb => Y22_of_ne m c b fun w e => hb (Finset.mem_image.mpr ⟨w, Finset.mem_univ _, e⟩)
/-- After the host stretch `hostOps11`. -/
abbrev Y23 : Dev nD → Valuation τ sig (Elt F) := fun c => StableHlo.after hostOps11 (Y22 m c)
abbrev R23v : (c : Dev nD) → (b : Ref sig .tc) → Buf (Elt F) ((c : Thread nD τ).loc b) := fun c b => Y23 m c b
theorem Y23_keep (c : Dev nD) (r : Ref sig .tc) (h : r ∉ hostOps11_W) : Y23 m c r = Y22 m c r :=
  StableHlo.after_of_writes_sub hostOps11 _ hostOps11_writes h
/-- After region 11: its arrays at what its pipeline leaves, every other buffer as at its entry. -/
def Y24 (c : Dev nD) : Valuation τ sig (Elt F) :=
  Pipeline.withArrays spec11 c (Y23 m c) fun w => (dat11 (R23v m) c).arrAt w cfg11.N
abbrev R24v : (c : Dev nD) → (b : Ref sig .tc) → Buf (Elt F) ((c : Thread nD τ).loc b) := fun c b => Y24 m c b
theorem Y24_arr (c : Dev nD) (w : Fin cfg11.W) :
    Y24 m c (Proc.devRef .tc (Pipeline.arrRef spec11 w)) = (dat11 (R23v m) c).arrAt w cfg11.N := by
  unfold Y24; exact Pipeline.withArrays_arr spec11 launch11.win.arr_inj c _ _ w
theorem Y24_of_ne (c : Dev nD) (b : Ref sig .tc) (hb : ∀ w, Pipeline.arrRef spec11 w ≠ b) :
    Y24 m c (Proc.devRef .tc b) = Y23 m c (Proc.devRef .tc b) := by
  unfold Y24; exact Pipeline.withArrays_of_ne spec11 c _ _ b hb
/-- An input window's array is handed back as found. -/
theorem Y24_in (c : Dev nD) (w : Fin cfg11.W) (hw : (cfg11.win w).isOut = false) :
    Y24 m c (Proc.devRef .tc (Pipeline.arrRef spec11 w)) = Y23 m c (Proc.devRef .tc (Pipeline.arrRef spec11 w)) :=
  (Y24_arr m c w).trans (((dat11 (R23v m) c).arrAt_in w hw _).trans (A_eq11 (R23v m) c w))
theorem hF11 (c : Dev nD) (w : Fin cfg11.W) : (dat11 (R23v m) c).arrAt w cfg11.N = R24v m c (Pipeline.arrRef spec11 w) :=
  (Y24_arr m c w).symm
theorem hrest11 (c : Dev nD) : ∀ b, b ∉ Finset.univ.image (Pipeline.arrRef spec11) → R24v m c b = R23v m c b :=
  fun b hb => Y24_of_ne m c b fun w e => hb (Finset.mem_image.mpr ⟨w, Finset.mem_univ _, e⟩)
/-- After region 12: its arrays at what its pipeline leaves, every other buffer as at its entry. -/
def Y25 (c : Dev nD) : Valuation τ sig (Elt F) :=
  Pipeline.withArrays spec12 c (Y24 m c) fun w => (dat12 (R24v m) c).arrAt w cfg12.N
abbrev R25v : (c : Dev nD) → (b : Ref sig .tc) → Buf (Elt F) ((c : Thread nD τ).loc b) := fun c b => Y25 m c b
theorem Y25_arr (c : Dev nD) (w : Fin cfg12.W) :
    Y25 m c (Proc.devRef .tc (Pipeline.arrRef spec12 w)) = (dat12 (R24v m) c).arrAt w cfg12.N := by
  unfold Y25; exact Pipeline.withArrays_arr spec12 launch12.win.arr_inj c _ _ w
theorem Y25_of_ne (c : Dev nD) (b : Ref sig .tc) (hb : ∀ w, Pipeline.arrRef spec12 w ≠ b) :
    Y25 m c (Proc.devRef .tc b) = Y24 m c (Proc.devRef .tc b) := by
  unfold Y25; exact Pipeline.withArrays_of_ne spec12 c _ _ b hb
/-- An input window's array is handed back as found. -/
theorem Y25_in (c : Dev nD) (w : Fin cfg12.W) (hw : (cfg12.win w).isOut = false) :
    Y25 m c (Proc.devRef .tc (Pipeline.arrRef spec12 w)) = Y24 m c (Proc.devRef .tc (Pipeline.arrRef spec12 w)) :=
  (Y25_arr m c w).trans (((dat12 (R24v m) c).arrAt_in w hw _).trans (A_eq12 (R24v m) c w))
theorem hF12 (c : Dev nD) (w : Fin cfg12.W) : (dat12 (R24v m) c).arrAt w cfg12.N = R25v m c (Pipeline.arrRef spec12 w) :=
  (Y25_arr m c w).symm
theorem hrest12 (c : Dev nD) : ∀ b, b ∉ Finset.univ.image (Pipeline.arrRef spec12) → R25v m c b = R24v m c b :=
  fun b hb => Y25_of_ne m c b fun w e => hb (Finset.mem_image.mpr ⟨w, Finset.mem_univ _, e⟩)

/-! ## Every argument ends as launched -/

theorem Y25_main_arg0 (c : Dev nD) : Y25 m c (Proc.devRef .tc main_arg0) = m ((c : Thread nD τ).loc main_arg0) :=
  (Y25_of_ne m c main_arg0 (by decide)).trans <| (Y24_of_ne m c main_arg0 (by decide)).trans <| (Y23_keep m c main_arg0 (by decide)).trans <| (Y22_of_ne m c main_arg0 (by decide)).trans <| (Y21_keep m c main_arg0 (by decide)).trans <| (Y20_of_ne m c main_arg0 (by decide)).trans <| (Y19_keep m c main_arg0 (by decide)).trans <| (Y18_of_ne m c main_arg0 (by decide)).trans <| (Y17_keep m c main_arg0 (by decide)).trans <| (Y16_of_ne m c main_arg0 (by decide)).trans <| (Y15_keep m c main_arg0 (by decide)).trans <| (Y14_of_ne m c main_arg0 (by decide)).trans <| (Y13_keep m c main_arg0 (by decide)).trans <| (Y12_of_ne m c main_arg0 (by decide)).trans <| (Y11_keep m c main_arg0 (by decide)).trans <| (Y10_of_ne m c main_arg0 (by decide)).trans <| (Y9_keep m c main_arg0 (by decide)).trans <| (Y8_of_ne m c main_arg0 (by decide)).trans <| (Y7_keep m c main_arg0 (by decide)).trans <| (Y6_of_ne m c main_arg0 (by decide)).trans <| (Y5_keep m c main_arg0 (by decide)).trans <| (Y4_of_ne m c main_arg0 (by decide)).trans <| (Y3_keep m c main_arg0 (by decide)).trans <| (Y2_in m c 0 rfl).trans <| (Y1_keep m c main_arg0 (by decide)).trans <| rfl
theorem Y25_main_arg1 (c : Dev nD) : Y25 m c (Proc.devRef .tc main_arg1) = m ((c : Thread nD τ).loc main_arg1) :=
  (Y25_of_ne m c main_arg1 (by decide)).trans <| (Y24_of_ne m c main_arg1 (by decide)).trans <| (Y23_keep m c main_arg1 (by decide)).trans <| (Y22_of_ne m c main_arg1 (by decide)).trans <| (Y21_keep m c main_arg1 (by decide)).trans <| (Y20_of_ne m c main_arg1 (by decide)).trans <| (Y19_keep m c main_arg1 (by decide)).trans <| (Y18_of_ne m c main_arg1 (by decide)).trans <| (Y17_keep m c main_arg1 (by decide)).trans <| (Y16_of_ne m c main_arg1 (by decide)).trans <| (Y15_keep m c main_arg1 (by decide)).trans <| (Y14_of_ne m c main_arg1 (by decide)).trans <| (Y13_keep m c main_arg1 (by decide)).trans <| (Y12_of_ne m c main_arg1 (by decide)).trans <| (Y11_keep m c main_arg1 (by decide)).trans <| (Y10_of_ne m c main_arg1 (by decide)).trans <| (Y9_keep m c main_arg1 (by decide)).trans <| (Y8_of_ne m c main_arg1 (by decide)).trans <| (Y7_keep m c main_arg1 (by decide)).trans <| (Y6_of_ne m c main_arg1 (by decide)).trans <| (Y5_keep m c main_arg1 (by decide)).trans <| (Y4_of_ne m c main_arg1 (by decide)).trans <| (Y3_keep m c main_arg1 (by decide)).trans <| (Y2_of_ne m c main_arg1 (by decide)).trans <| (Y1_keep m c main_arg1 (by decide)).trans <| rfl
theorem Y25_main_arg2 (c : Dev nD) : Y25 m c (Proc.devRef .tc main_arg2) = m ((c : Thread nD τ).loc main_arg2) :=
  (Y25_of_ne m c main_arg2 (by decide)).trans <| (Y24_of_ne m c main_arg2 (by decide)).trans <| (Y23_keep m c main_arg2 (by decide)).trans <| (Y22_of_ne m c main_arg2 (by decide)).trans <| (Y21_keep m c main_arg2 (by decide)).trans <| (Y20_of_ne m c main_arg2 (by decide)).trans <| (Y19_keep m c main_arg2 (by decide)).trans <| (Y18_of_ne m c main_arg2 (by decide)).trans <| (Y17_keep m c main_arg2 (by decide)).trans <| (Y16_of_ne m c main_arg2 (by decide)).trans <| (Y15_keep m c main_arg2 (by decide)).trans <| (Y14_of_ne m c main_arg2 (by decide)).trans <| (Y13_keep m c main_arg2 (by decide)).trans <| (Y12_of_ne m c main_arg2 (by decide)).trans <| (Y11_keep m c main_arg2 (by decide)).trans <| (Y10_of_ne m c main_arg2 (by decide)).trans <| (Y9_keep m c main_arg2 (by decide)).trans <| (Y8_of_ne m c main_arg2 (by decide)).trans <| (Y7_keep m c main_arg2 (by decide)).trans <| (Y6_of_ne m c main_arg2 (by decide)).trans <| (Y5_keep m c main_arg2 (by decide)).trans <| (Y4_of_ne m c main_arg2 (by decide)).trans <| (Y3_keep m c main_arg2 (by decide)).trans <| (Y2_of_ne m c main_arg2 (by decide)).trans <| (Y1_keep m c main_arg2 (by decide)).trans <| rfl
theorem Y25_main_arg3 (c : Dev nD) : Y25 m c (Proc.devRef .tc main_arg3) = m ((c : Thread nD τ).loc main_arg3) :=
  (Y25_of_ne m c main_arg3 (by decide)).trans <| (Y24_of_ne m c main_arg3 (by decide)).trans <| (Y23_keep m c main_arg3 (by decide)).trans <| (Y22_of_ne m c main_arg3 (by decide)).trans <| (Y21_keep m c main_arg3 (by decide)).trans <| (Y20_of_ne m c main_arg3 (by decide)).trans <| (Y19_keep m c main_arg3 (by decide)).trans <| (Y18_of_ne m c main_arg3 (by decide)).trans <| (Y17_keep m c main_arg3 (by decide)).trans <| (Y16_of_ne m c main_arg3 (by decide)).trans <| (Y15_keep m c main_arg3 (by decide)).trans <| (Y14_in m c 0 rfl).trans <| (Y13_keep m c main_arg3 (by decide)).trans <| (Y12_of_ne m c main_arg3 (by decide)).trans <| (Y11_keep m c main_arg3 (by decide)).trans <| (Y10_of_ne m c main_arg3 (by decide)).trans <| (Y9_keep m c main_arg3 (by decide)).trans <| (Y8_of_ne m c main_arg3 (by decide)).trans <| (Y7_keep m c main_arg3 (by decide)).trans <| (Y6_of_ne m c main_arg3 (by decide)).trans <| (Y5_keep m c main_arg3 (by decide)).trans <| (Y4_of_ne m c main_arg3 (by decide)).trans <| (Y3_keep m c main_arg3 (by decide)).trans <| (Y2_of_ne m c main_arg3 (by decide)).trans <| (Y1_keep m c main_arg3 (by decide)).trans <| rfl
theorem Y25_main_arg4 (c : Dev nD) : Y25 m c (Proc.devRef .tc main_arg4) = m ((c : Thread nD τ).loc main_arg4) :=
  (Y25_of_ne m c main_arg4 (by decide)).trans <| (Y24_of_ne m c main_arg4 (by decide)).trans <| (Y23_keep m c main_arg4 (by decide)).trans <| (Y22_of_ne m c main_arg4 (by decide)).trans <| (Y21_keep m c main_arg4 (by decide)).trans <| (Y20_of_ne m c main_arg4 (by decide)).trans <| (Y19_keep m c main_arg4 (by decide)).trans <| (Y18_of_ne m c main_arg4 (by decide)).trans <| (Y17_keep m c main_arg4 (by decide)).trans <| (Y16_of_ne m c main_arg4 (by decide)).trans <| (Y15_keep m c main_arg4 (by decide)).trans <| (Y14_of_ne m c main_arg4 (by decide)).trans <| (Y13_keep m c main_arg4 (by decide)).trans <| (Y12_of_ne m c main_arg4 (by decide)).trans <| (Y11_keep m c main_arg4 (by decide)).trans <| (Y10_of_ne m c main_arg4 (by decide)).trans <| (Y9_keep m c main_arg4 (by decide)).trans <| (Y8_of_ne m c main_arg4 (by decide)).trans <| (Y7_keep m c main_arg4 (by decide)).trans <| (Y6_of_ne m c main_arg4 (by decide)).trans <| (Y5_keep m c main_arg4 (by decide)).trans <| (Y4_of_ne m c main_arg4 (by decide)).trans <| (Y3_keep m c main_arg4 (by decide)).trans <| (Y2_of_ne m c main_arg4 (by decide)).trans <| (Y1_keep m c main_arg4 (by decide)).trans <| rfl
theorem Y25_main_arg5 (c : Dev nD) : Y25 m c (Proc.devRef .tc main_arg5) = m ((c : Thread nD τ).loc main_arg5) :=
  (Y25_of_ne m c main_arg5 (by decide)).trans <| (Y24_of_ne m c main_arg5 (by decide)).trans <| (Y23_keep m c main_arg5 (by decide)).trans <| (Y22_of_ne m c main_arg5 (by decide)).trans <| (Y21_keep m c main_arg5 (by decide)).trans <| (Y20_of_ne m c main_arg5 (by decide)).trans <| (Y19_keep m c main_arg5 (by decide)).trans <| (Y18_of_ne m c main_arg5 (by decide)).trans <| (Y17_keep m c main_arg5 (by decide)).trans <| (Y16_of_ne m c main_arg5 (by decide)).trans <| (Y15_keep m c main_arg5 (by decide)).trans <| (Y14_of_ne m c main_arg5 (by decide)).trans <| (Y13_keep m c main_arg5 (by decide)).trans <| (Y12_of_ne m c main_arg5 (by decide)).trans <| (Y11_keep m c main_arg5 (by decide)).trans <| (Y10_of_ne m c main_arg5 (by decide)).trans <| (Y9_keep m c main_arg5 (by decide)).trans <| (Y8_of_ne m c main_arg5 (by decide)).trans <| (Y7_keep m c main_arg5 (by decide)).trans <| (Y6_of_ne m c main_arg5 (by decide)).trans <| (Y5_keep m c main_arg5 (by decide)).trans <| (Y4_of_ne m c main_arg5 (by decide)).trans <| (Y3_keep m c main_arg5 (by decide)).trans <| (Y2_of_ne m c main_arg5 (by decide)).trans <| (Y1_keep m c main_arg5 (by decide)).trans <| rfl
theorem Y25_main_arg6 (c : Dev nD) : Y25 m c (Proc.devRef .tc main_arg6) = m ((c : Thread nD τ).loc main_arg6) :=
  (Y25_of_ne m c main_arg6 (by decide)).trans <| (Y24_of_ne m c main_arg6 (by decide)).trans <| (Y23_keep m c main_arg6 (by decide)).trans <| (Y22_of_ne m c main_arg6 (by decide)).trans <| (Y21_keep m c main_arg6 (by decide)).trans <| (Y20_of_ne m c main_arg6 (by decide)).trans <| (Y19_keep m c main_arg6 (by decide)).trans <| (Y18_of_ne m c main_arg6 (by decide)).trans <| (Y17_keep m c main_arg6 (by decide)).trans <| (Y16_of_ne m c main_arg6 (by decide)).trans <| (Y15_keep m c main_arg6 (by decide)).trans <| (Y14_in m c 1 rfl).trans <| (Y13_keep m c main_arg6 (by decide)).trans <| (Y12_of_ne m c main_arg6 (by decide)).trans <| (Y11_keep m c main_arg6 (by decide)).trans <| (Y10_of_ne m c main_arg6 (by decide)).trans <| (Y9_keep m c main_arg6 (by decide)).trans <| (Y8_of_ne m c main_arg6 (by decide)).trans <| (Y7_keep m c main_arg6 (by decide)).trans <| (Y6_of_ne m c main_arg6 (by decide)).trans <| (Y5_keep m c main_arg6 (by decide)).trans <| (Y4_of_ne m c main_arg6 (by decide)).trans <| (Y3_keep m c main_arg6 (by decide)).trans <| (Y2_in m c 1 rfl).trans <| (Y1_keep m c main_arg6 (by decide)).trans <| rfl
theorem Y25_main_arg7 (c : Dev nD) : Y25 m c (Proc.devRef .tc main_arg7) = m ((c : Thread nD τ).loc main_arg7) :=
  (Y25_of_ne m c main_arg7 (by decide)).trans <| (Y24_of_ne m c main_arg7 (by decide)).trans <| (Y23_keep m c main_arg7 (by decide)).trans <| (Y22_of_ne m c main_arg7 (by decide)).trans <| (Y21_keep m c main_arg7 (by decide)).trans <| (Y20_of_ne m c main_arg7 (by decide)).trans <| (Y19_keep m c main_arg7 (by decide)).trans <| (Y18_of_ne m c main_arg7 (by decide)).trans <| (Y17_keep m c main_arg7 (by decide)).trans <| (Y16_of_ne m c main_arg7 (by decide)).trans <| (Y15_keep m c main_arg7 (by decide)).trans <| (Y14_in m c 2 rfl).trans <| (Y13_keep m c main_arg7 (by decide)).trans <| (Y12_of_ne m c main_arg7 (by decide)).trans <| (Y11_keep m c main_arg7 (by decide)).trans <| (Y10_of_ne m c main_arg7 (by decide)).trans <| (Y9_keep m c main_arg7 (by decide)).trans <| (Y8_of_ne m c main_arg7 (by decide)).trans <| (Y7_keep m c main_arg7 (by decide)).trans <| (Y6_of_ne m c main_arg7 (by decide)).trans <| (Y5_keep m c main_arg7 (by decide)).trans <| (Y4_of_ne m c main_arg7 (by decide)).trans <| (Y3_keep m c main_arg7 (by decide)).trans <| (Y2_in m c 2 rfl).trans <| (Y1_keep m c main_arg7 (by decide)).trans <| rfl
theorem Y25_main_arg8 (c : Dev nD) : Y25 m c (Proc.devRef .tc main_arg8) = m ((c : Thread nD τ).loc main_arg8) :=
  (Y25_of_ne m c main_arg8 (by decide)).trans <| (Y24_of_ne m c main_arg8 (by decide)).trans <| (Y23_keep m c main_arg8 (by decide)).trans <| (Y22_of_ne m c main_arg8 (by decide)).trans <| (Y21_keep m c main_arg8 (by decide)).trans <| (Y20_of_ne m c main_arg8 (by decide)).trans <| (Y19_keep m c main_arg8 (by decide)).trans <| (Y18_of_ne m c main_arg8 (by decide)).trans <| (Y17_keep m c main_arg8 (by decide)).trans <| (Y16_of_ne m c main_arg8 (by decide)).trans <| (Y15_keep m c main_arg8 (by decide)).trans <| (Y14_of_ne m c main_arg8 (by decide)).trans <| (Y13_keep m c main_arg8 (by decide)).trans <| (Y12_of_ne m c main_arg8 (by decide)).trans <| (Y11_keep m c main_arg8 (by decide)).trans <| (Y10_of_ne m c main_arg8 (by decide)).trans <| (Y9_keep m c main_arg8 (by decide)).trans <| (Y8_of_ne m c main_arg8 (by decide)).trans <| (Y7_keep m c main_arg8 (by decide)).trans <| (Y6_of_ne m c main_arg8 (by decide)).trans <| (Y5_keep m c main_arg8 (by decide)).trans <| (Y4_of_ne m c main_arg8 (by decide)).trans <| (Y3_keep m c main_arg8 (by decide)).trans <| (Y2_of_ne m c main_arg8 (by decide)).trans <| (Y1_keep m c main_arg8 (by decide)).trans <| rfl
theorem Y25_main_arg9 (c : Dev nD) : Y25 m c (Proc.devRef .tc main_arg9) = m ((c : Thread nD τ).loc main_arg9) :=
  (Y25_of_ne m c main_arg9 (by decide)).trans <| (Y24_of_ne m c main_arg9 (by decide)).trans <| (Y23_keep m c main_arg9 (by decide)).trans <| (Y22_of_ne m c main_arg9 (by decide)).trans <| (Y21_keep m c main_arg9 (by decide)).trans <| (Y20_of_ne m c main_arg9 (by decide)).trans <| (Y19_keep m c main_arg9 (by decide)).trans <| (Y18_of_ne m c main_arg9 (by decide)).trans <| (Y17_keep m c main_arg9 (by decide)).trans <| (Y16_of_ne m c main_arg9 (by decide)).trans <| (Y15_keep m c main_arg9 (by decide)).trans <| (Y14_of_ne m c main_arg9 (by decide)).trans <| (Y13_keep m c main_arg9 (by decide)).trans <| (Y12_of_ne m c main_arg9 (by decide)).trans <| (Y11_keep m c main_arg9 (by decide)).trans <| (Y10_of_ne m c main_arg9 (by decide)).trans <| (Y9_keep m c main_arg9 (by decide)).trans <| (Y8_of_ne m c main_arg9 (by decide)).trans <| (Y7_keep m c main_arg9 (by decide)).trans <| (Y6_of_ne m c main_arg9 (by decide)).trans <| (Y5_keep m c main_arg9 (by decide)).trans <| (Y4_of_ne m c main_arg9 (by decide)).trans <| (Y3_keep m c main_arg9 (by decide)).trans <| (Y2_of_ne m c main_arg9 (by decide)).trans <| (Y1_keep m c main_arg9 (by decide)).trans <| rfl
theorem Y25_main_arg10 (c : Dev nD) : Y25 m c (Proc.devRef .tc main_arg10) = m ((c : Thread nD τ).loc main_arg10) :=
  (Y25_of_ne m c main_arg10 (by decide)).trans <| (Y24_of_ne m c main_arg10 (by decide)).trans <| (Y23_keep m c main_arg10 (by decide)).trans <| (Y22_of_ne m c main_arg10 (by decide)).trans <| (Y21_keep m c main_arg10 (by decide)).trans <| (Y20_of_ne m c main_arg10 (by decide)).trans <| (Y19_keep m c main_arg10 (by decide)).trans <| (Y18_of_ne m c main_arg10 (by decide)).trans <| (Y17_keep m c main_arg10 (by decide)).trans <| (Y16_of_ne m c main_arg10 (by decide)).trans <| (Y15_keep m c main_arg10 (by decide)).trans <| (Y14_of_ne m c main_arg10 (by decide)).trans <| (Y13_keep m c main_arg10 (by decide)).trans <| (Y12_of_ne m c main_arg10 (by decide)).trans <| (Y11_keep m c main_arg10 (by decide)).trans <| (Y10_of_ne m c main_arg10 (by decide)).trans <| (Y9_keep m c main_arg10 (by decide)).trans <| (Y8_of_ne m c main_arg10 (by decide)).trans <| (Y7_keep m c main_arg10 (by decide)).trans <| (Y6_of_ne m c main_arg10 (by decide)).trans <| (Y5_keep m c main_arg10 (by decide)).trans <| (Y4_of_ne m c main_arg10 (by decide)).trans <| (Y3_keep m c main_arg10 (by decide)).trans <| (Y2_of_ne m c main_arg10 (by decide)).trans <| (Y1_keep m c main_arg10 (by decide)).trans <| rfl
theorem Y25_main_arg11 (c : Dev nD) : Y25 m c (Proc.devRef .tc main_arg11) = m ((c : Thread nD τ).loc main_arg11) :=
  (Y25_of_ne m c main_arg11 (by decide)).trans <| (Y24_of_ne m c main_arg11 (by decide)).trans <| (Y23_keep m c main_arg11 (by decide)).trans <| (Y22_of_ne m c main_arg11 (by decide)).trans <| (Y21_keep m c main_arg11 (by decide)).trans <| (Y20_of_ne m c main_arg11 (by decide)).trans <| (Y19_keep m c main_arg11 (by decide)).trans <| (Y18_of_ne m c main_arg11 (by decide)).trans <| (Y17_keep m c main_arg11 (by decide)).trans <| (Y16_of_ne m c main_arg11 (by decide)).trans <| (Y15_keep m c main_arg11 (by decide)).trans <| (Y14_of_ne m c main_arg11 (by decide)).trans <| (Y13_keep m c main_arg11 (by decide)).trans <| (Y12_of_ne m c main_arg11 (by decide)).trans <| (Y11_keep m c main_arg11 (by decide)).trans <| (Y10_of_ne m c main_arg11 (by decide)).trans <| (Y9_keep m c main_arg11 (by decide)).trans <| (Y8_of_ne m c main_arg11 (by decide)).trans <| (Y7_keep m c main_arg11 (by decide)).trans <| (Y6_of_ne m c main_arg11 (by decide)).trans <| (Y5_keep m c main_arg11 (by decide)).trans <| (Y4_of_ne m c main_arg11 (by decide)).trans <| (Y3_keep m c main_arg11 (by decide)).trans <| (Y2_of_ne m c main_arg11 (by decide)).trans <| (Y1_keep m c main_arg11 (by decide)).trans <| rfl
theorem Y25_main_arg12 (c : Dev nD) : Y25 m c (Proc.devRef .tc main_arg12) = m ((c : Thread nD τ).loc main_arg12) :=
  (Y25_of_ne m c main_arg12 (by decide)).trans <| (Y24_in m c 1 rfl).trans <| (Y23_keep m c main_arg12 (by decide)).trans <| (Y22_of_ne m c main_arg12 (by decide)).trans <| (Y21_keep m c main_arg12 (by decide)).trans <| (Y20_of_ne m c main_arg12 (by decide)).trans <| (Y19_keep m c main_arg12 (by decide)).trans <| (Y18_of_ne m c main_arg12 (by decide)).trans <| (Y17_keep m c main_arg12 (by decide)).trans <| (Y16_of_ne m c main_arg12 (by decide)).trans <| (Y15_keep m c main_arg12 (by decide)).trans <| (Y14_of_ne m c main_arg12 (by decide)).trans <| (Y13_keep m c main_arg12 (by decide)).trans <| (Y12_in m c 1 rfl).trans <| (Y11_keep m c main_arg12 (by decide)).trans <| (Y10_of_ne m c main_arg12 (by decide)).trans <| (Y9_keep m c main_arg12 (by decide)).trans <| (Y8_of_ne m c main_arg12 (by decide)).trans <| (Y7_keep m c main_arg12 (by decide)).trans <| (Y6_of_ne m c main_arg12 (by decide)).trans <| (Y5_keep m c main_arg12 (by decide)).trans <| (Y4_of_ne m c main_arg12 (by decide)).trans <| (Y3_keep m c main_arg12 (by decide)).trans <| (Y2_of_ne m c main_arg12 (by decide)).trans <| (Y1_keep m c main_arg12 (by decide)).trans <| rfl
theorem Y25_main_arg13 (c : Dev nD) : Y25 m c (Proc.devRef .tc main_arg13) = m ((c : Thread nD τ).loc main_arg13) :=
  (Y25_of_ne m c main_arg13 (by decide)).trans <| (Y24_in m c 2 rfl).trans <| (Y23_keep m c main_arg13 (by decide)).trans <| (Y22_of_ne m c main_arg13 (by decide)).trans <| (Y21_keep m c main_arg13 (by decide)).trans <| (Y20_of_ne m c main_arg13 (by decide)).trans <| (Y19_keep m c main_arg13 (by decide)).trans <| (Y18_of_ne m c main_arg13 (by decide)).trans <| (Y17_keep m c main_arg13 (by decide)).trans <| (Y16_of_ne m c main_arg13 (by decide)).trans <| (Y15_keep m c main_arg13 (by decide)).trans <| (Y14_of_ne m c main_arg13 (by decide)).trans <| (Y13_keep m c main_arg13 (by decide)).trans <| (Y12_in m c 2 rfl).trans <| (Y11_keep m c main_arg13 (by decide)).trans <| (Y10_of_ne m c main_arg13 (by decide)).trans <| (Y9_keep m c main_arg13 (by decide)).trans <| (Y8_of_ne m c main_arg13 (by decide)).trans <| (Y7_keep m c main_arg13 (by decide)).trans <| (Y6_of_ne m c main_arg13 (by decide)).trans <| (Y5_keep m c main_arg13 (by decide)).trans <| (Y4_of_ne m c main_arg13 (by decide)).trans <| (Y3_keep m c main_arg13 (by decide)).trans <| (Y2_of_ne m c main_arg13 (by decide)).trans <| (Y1_keep m c main_arg13 (by decide)).trans <| rfl
theorem Y25_main_arg14 (c : Dev nD) : Y25 m c (Proc.devRef .tc main_arg14) = m ((c : Thread nD τ).loc main_arg14) :=
  (Y25_of_ne m c main_arg14 (by decide)).trans <| (Y24_in m c 3 rfl).trans <| (Y23_keep m c main_arg14 (by decide)).trans <| (Y22_of_ne m c main_arg14 (by decide)).trans <| (Y21_keep m c main_arg14 (by decide)).trans <| (Y20_of_ne m c main_arg14 (by decide)).trans <| (Y19_keep m c main_arg14 (by decide)).trans <| (Y18_of_ne m c main_arg14 (by decide)).trans <| (Y17_keep m c main_arg14 (by decide)).trans <| (Y16_of_ne m c main_arg14 (by decide)).trans <| (Y15_keep m c main_arg14 (by decide)).trans <| (Y14_of_ne m c main_arg14 (by decide)).trans <| (Y13_keep m c main_arg14 (by decide)).trans <| (Y12_in m c 3 rfl).trans <| (Y11_keep m c main_arg14 (by decide)).trans <| (Y10_of_ne m c main_arg14 (by decide)).trans <| (Y9_keep m c main_arg14 (by decide)).trans <| (Y8_of_ne m c main_arg14 (by decide)).trans <| (Y7_keep m c main_arg14 (by decide)).trans <| (Y6_of_ne m c main_arg14 (by decide)).trans <| (Y5_keep m c main_arg14 (by decide)).trans <| (Y4_of_ne m c main_arg14 (by decide)).trans <| (Y3_keep m c main_arg14 (by decide)).trans <| (Y2_of_ne m c main_arg14 (by decide)).trans <| (Y1_keep m c main_arg14 (by decide)).trans <| rfl
theorem Y25_main_arg15 (c : Dev nD) : Y25 m c (Proc.devRef .tc main_arg15) = m ((c : Thread nD τ).loc main_arg15) :=
  (Y25_of_ne m c main_arg15 (by decide)).trans <| (Y24_in m c 4 rfl).trans <| (Y23_keep m c main_arg15 (by decide)).trans <| (Y22_of_ne m c main_arg15 (by decide)).trans <| (Y21_keep m c main_arg15 (by decide)).trans <| (Y20_of_ne m c main_arg15 (by decide)).trans <| (Y19_keep m c main_arg15 (by decide)).trans <| (Y18_of_ne m c main_arg15 (by decide)).trans <| (Y17_keep m c main_arg15 (by decide)).trans <| (Y16_of_ne m c main_arg15 (by decide)).trans <| (Y15_keep m c main_arg15 (by decide)).trans <| (Y14_of_ne m c main_arg15 (by decide)).trans <| (Y13_keep m c main_arg15 (by decide)).trans <| (Y12_in m c 4 rfl).trans <| (Y11_keep m c main_arg15 (by decide)).trans <| (Y10_of_ne m c main_arg15 (by decide)).trans <| (Y9_keep m c main_arg15 (by decide)).trans <| (Y8_of_ne m c main_arg15 (by decide)).trans <| (Y7_keep m c main_arg15 (by decide)).trans <| (Y6_of_ne m c main_arg15 (by decide)).trans <| (Y5_keep m c main_arg15 (by decide)).trans <| (Y4_of_ne m c main_arg15 (by decide)).trans <| (Y3_keep m c main_arg15 (by decide)).trans <| (Y2_of_ne m c main_arg15 (by decide)).trans <| (Y1_keep m c main_arg15 (by decide)).trans <| rfl

/-! ## The proof data family and the thread state -/

abbrev adm : (p : Fin 13) → (pcfgs (F := F) p).Adm := fun p => (cfgs p).toPCfg_adm
/-- Every pipeline's proof data, each at its region's entry contents. -/
def pdats : (p : Fin 13) → (c : Dev nD) → Dat τ (Elt F) Unit ℕ (UR sig nD τ) ℕ (Pipeline.pin (pcfgs (F := F)) adm p) c
  | ⟨0, _⟩ => fun c => dat0 (R1v m) c
  | ⟨1, _⟩ => fun c => dat1 (R3v m) c
  | ⟨2, _⟩ => fun c => dat2 (R5v m) c
  | ⟨3, _⟩ => fun c => dat3 (R7v m) c
  | ⟨4, _⟩ => fun c => dat4 (R9v m) c
  | ⟨5, _⟩ => fun c => dat5 (R11v m) c
  | ⟨6, _⟩ => fun c => dat6 (R13v m) c
  | ⟨7, _⟩ => fun c => dat7 (R15v m) c
  | ⟨8, _⟩ => fun c => dat8 (R17v m) c
  | ⟨9, _⟩ => fun c => dat9 (R19v m) c
  | ⟨10, _⟩ => fun c => dat10 (R21v m) c
  | ⟨11, _⟩ => fun c => dat11 (R23v m) c
  | ⟨12, _⟩ => fun c => dat12 (R24v m) c
abbrev 𝒱₀ : Variants := Variants.none
abbrev L : GSem nD τ sig → Finset Unit := fun _ => ∅
abbrev lv : GSem nD τ sig → Unit → ℕ := fun _ _ => 0
/-- What rides beside the buffers through every segment: the core's generator register at some state and what it owes, nothing. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (Y25 m c) ∗ ∃ r, prngReg c r)

/-! ## The regions as segments -/

set_option backward.isDefEq.respectTransparency.types false in
/-- Region 0 over the thread state: its arrays split out of the unscoped buffers and put back at the exit contents; the generator
    register into the pipeline's invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (R1v m) c).loose
  hwaits := Pipeline.hwaits_of_owed_zero _ _ _ _ L lv 0 fun _ _ => rfl
  pre c := iprop(StableHlo.held (c : Thread nD τ) (Pipeline.ucRefs τ sig) (Y1 m c) ∗ R c)
  post c := iprop(StableHlo.held (c : Thread nD τ) (Pipeline.ucRefs τ sig) (Y2 m c) ∗ R c)
  X c := iprop(∃ r, prngReg c r)
  Y c := iprop(∃ r, prngReg c r)
  Z c := Pipeline.unscopedRest (Ix := Unit) (Name := ℕ) (U := UR sig nD τ) (Lvl := ℕ) spec0 c (R1v m c)
  hentry c := by
    rw [Pipeline.ownSems0_none]
    have hsplit := Pipeline.arrays_of_unscopedBufs (p := 0) (pcfgs (F := F)) adm (pdats m) launch0.win launch0.arr_whole c
      ((pdats m 0 c).share_full fun _ => rfl) (R1v m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (R1v m c) (R2v m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: its arrays split out of the unscoped buffers and put back at the exit contents; the generator
    register into the pipeline's invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (R3v m) c).loose
  hwaits := Pipeline.hwaits_of_owed_zero _ _ _ _ L lv 1 fun _ _ => rfl
  pre c := iprop(StableHlo.held (c : Thread nD τ) (Pipeline.ucRefs τ sig) (Y3 m c) ∗ R c)
  post c := iprop(StableHlo.held (c : Thread nD τ) (Pipeline.ucRefs τ sig) (Y4 m c) ∗ R c)
  X c := iprop(∃ r, prngReg c r)
  Y c := iprop(∃ r, prngReg c r)
  Z c := Pipeline.unscopedRest (Ix := Unit) (Name := ℕ) (U := UR sig nD τ) (Lvl := ℕ) spec1 c (R3v m c)
  hentry c := by
    rw [Pipeline.ownSems0_none]
    have hsplit := Pipeline.arrays_of_unscopedBufs (p := 1) (pcfgs (F := F)) adm (pdats m) launch1.win launch1.arr_whole c
      ((pdats m 1 c).share_full fun _ => rfl) (R3v m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (R3v m c) (R4v m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: its arrays split out of the unscoped buffers and put back at the exit contents; the generator
    register into the pipeline's invariant and out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (R5v m) c).loose
  hwaits := Pipeline.hwaits_of_owed_zero _ _ _ _ L lv 2 fun _ _ => rfl
  pre c := iprop(StableHlo.held (c : Thread nD τ) (Pipeline.ucRefs τ sig) (Y5 m c) ∗ R c)
  post c := iprop(StableHlo.held (c : Thread nD τ) (Pipeline.ucRefs τ sig) (Y6 m c) ∗ R c)
  X c := iprop(∃ r, prngReg c r)
  Y c := iprop(∃ r, prngReg c r)
  Z c := Pipeline.unscopedRest (Ix := Unit) (Name := ℕ) (U := UR sig nD τ) (Lvl := ℕ) spec2 c (R5v m c)
  hentry c := by
    rw [Pipeline.ownSems0_none]
    have hsplit := Pipeline.arrays_of_unscopedBufs (p := 2) (pcfgs (F := F)) adm (pdats m) launch2.win launch2.arr_whole c
      ((pdats m 2 c).share_full fun _ => rfl) (R5v m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (R5v m c) (R6v m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: its arrays split out of the unscoped buffers and put back at the exit contents; the generator
    register into the pipeline's invariant and out; nothing owed; no semaphore of the kernel's own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (R7v m) c).loose
  hwaits := Pipeline.hwaits_of_owed_zero _ _ _ _ L lv 3 fun _ _ => rfl
  pre c := iprop(StableHlo.held (c : Thread nD τ) (Pipeline.ucRefs τ sig) (Y7 m c) ∗ R c)
  post c := iprop(StableHlo.held (c : Thread nD τ) (Pipeline.ucRefs τ sig) (Y8 m c) ∗ R c)
  X c := iprop(∃ r, prngReg c r)
  Y c := iprop(∃ r, prngReg c r)
  Z c := Pipeline.unscopedRest (Ix := Unit) (Name := ℕ) (U := UR sig nD τ) (Lvl := ℕ) spec3 c (R7v m c)
  hentry c := by
    rw [Pipeline.ownSems0_none]
    have hsplit := Pipeline.arrays_of_unscopedBufs (p := 3) (pcfgs (F := F)) adm (pdats m) launch3.win launch3.arr_whole c
      ((pdats m 3 c).share_full fun _ => rfl) (R7v m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (R7v m c) (R8v m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: its arrays split out of the unscoped buffers and put back at the exit contents; the generator
    register into the pipeline's invariant and out; nothing owed; no semaphore of the kernel's own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (R9v m) c).loose
  hwaits := Pipeline.hwaits_of_owed_zero _ _ _ _ L lv 4 fun _ _ => rfl
  pre c := iprop(StableHlo.held (c : Thread nD τ) (Pipeline.ucRefs τ sig) (Y9 m c) ∗ R c)
  post c := iprop(StableHlo.held (c : Thread nD τ) (Pipeline.ucRefs τ sig) (Y10 m c) ∗ R c)
  X c := iprop(∃ r, prngReg c r)
  Y c := iprop(∃ r, prngReg c r)
  Z c := Pipeline.unscopedRest (Ix := Unit) (Name := ℕ) (U := UR sig nD τ) (Lvl := ℕ) spec4 c (R9v m c)
  hentry c := by
    rw [Pipeline.ownSems0_none]
    have hsplit := Pipeline.arrays_of_unscopedBufs (p := 4) (pcfgs (F := F)) adm (pdats m) launch4.win launch4.arr_whole c
      ((pdats m 4 c).share_full fun _ => rfl) (R9v m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (R9v m c) (R10v m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: its arrays split out of the unscoped buffers and put back at the exit contents; the generator
    register into the pipeline's invariant and out; nothing owed; no semaphore of the kernel's own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (R11v m) c).loose
  hwaits := Pipeline.hwaits_of_owed_zero _ _ _ _ L lv 5 fun _ _ => rfl
  pre c := iprop(StableHlo.held (c : Thread nD τ) (Pipeline.ucRefs τ sig) (Y11 m c) ∗ R c)
  post c := iprop(StableHlo.held (c : Thread nD τ) (Pipeline.ucRefs τ sig) (Y12 m c) ∗ R c)
  X c := iprop(∃ r, prngReg c r)
  Y c := iprop(∃ r, prngReg c r)
  Z c := Pipeline.unscopedRest (Ix := Unit) (Name := ℕ) (U := UR sig nD τ) (Lvl := ℕ) spec5 c (R11v m c)
  hentry c := by
    rw [Pipeline.ownSems0_none]
    have hsplit := Pipeline.arrays_of_unscopedBufs (p := 5) (pcfgs (F := F)) adm (pdats m) launch5.win launch5.arr_whole c
      ((pdats m 5 c).share_full fun _ => rfl) (R11v m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (R11v m c) (R12v m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: its arrays split out of the unscoped buffers and put back at the exit contents; the generator
    register into the pipeline's invariant and out; nothing owed; no semaphore of the kernel's own. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (R13v m) c).loose
  hwaits := Pipeline.hwaits_of_owed_zero _ _ _ _ L lv 6 fun _ _ => rfl
  pre c := iprop(StableHlo.held (c : Thread nD τ) (Pipeline.ucRefs τ sig) (Y13 m c) ∗ R c)
  post c := iprop(StableHlo.held (c : Thread nD τ) (Pipeline.ucRefs τ sig) (Y14 m c) ∗ R c)
  X c := iprop(∃ r, prngReg c r)
  Y c := iprop(∃ r, prngReg c r)
  Z c := Pipeline.unscopedRest (Ix := Unit) (Name := ℕ) (U := UR sig nD τ) (Lvl := ℕ) spec6 c (R13v m c)
  hentry c := by
    rw [Pipeline.ownSems0_none]
    have hsplit := Pipeline.arrays_of_unscopedBufs (p := 6) (pcfgs (F := F)) adm (pdats m) launch6.win launch6.arr_whole c
      ((pdats m 6 c).share_full fun _ => rfl) (R13v m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (R13v m c) (R14v m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: its arrays split out of the unscoped buffers and put back at the exit contents; the generator
    register into the pipeline's invariant and out; nothing owed; no semaphore of the kernel's own. -/
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (R15v m) c).loose
  hwaits := Pipeline.hwaits_of_owed_zero _ _ _ _ L lv 7 fun _ _ => rfl
  pre c := iprop(StableHlo.held (c : Thread nD τ) (Pipeline.ucRefs τ sig) (Y15 m c) ∗ R c)
  post c := iprop(StableHlo.held (c : Thread nD τ) (Pipeline.ucRefs τ sig) (Y16 m c) ∗ R c)
  X c := iprop(∃ r, prngReg c r)
  Y c := iprop(∃ r, prngReg c r)
  Z c := Pipeline.unscopedRest (Ix := Unit) (Name := ℕ) (U := UR sig nD τ) (Lvl := ℕ) spec7 c (R15v m c)
  hentry c := by
    rw [Pipeline.ownSems0_none]
    have hsplit := Pipeline.arrays_of_unscopedBufs (p := 7) (pcfgs (F := F)) adm (pdats m) launch7.win launch7.arr_whole c
      ((pdats m 7 c).share_full fun _ => rfl) (R15v m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (R15v m c) (R16v m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8 over the thread state: its arrays split out of the unscoped buffers and put back at the exit contents; the generator
    register into the pipeline's invariant and out; nothing owed; no semaphore of the kernel's own. -/
def reg8 : Pipeline.RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (R17v m) c).loose
  hwaits := Pipeline.hwaits_of_owed_zero _ _ _ _ L lv 8 fun _ _ => rfl
  pre c := iprop(StableHlo.held (c : Thread nD τ) (Pipeline.ucRefs τ sig) (Y17 m c) ∗ R c)
  post c := iprop(StableHlo.held (c : Thread nD τ) (Pipeline.ucRefs τ sig) (Y18 m c) ∗ R c)
  X c := iprop(∃ r, prngReg c r)
  Y c := iprop(∃ r, prngReg c r)
  Z c := Pipeline.unscopedRest (Ix := Unit) (Name := ℕ) (U := UR sig nD τ) (Lvl := ℕ) spec8 c (R17v m c)
  hentry c := by
    rw [Pipeline.ownSems0_none]
    have hsplit := Pipeline.arrays_of_unscopedBufs (p := 8) (pcfgs (F := F)) adm (pdats m) launch8.win launch8.arr_whole c
      ((pdats m 8 c).share_full fun _ => rfl) (R17v m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (R17v m c) (R18v m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9 over the thread state: its arrays split out of the unscoped buffers and put back at the exit contents; the generator
    register into the pipeline's invariant and out; nothing owed; no semaphore of the kernel's own. -/
def reg9 : Pipeline.RegionSeg (pcfgs (F := F)) adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (R19v m) c).loose
  hwaits := Pipeline.hwaits_of_owed_zero _ _ _ _ L lv 9 fun _ _ => rfl
  pre c := iprop(StableHlo.held (c : Thread nD τ) (Pipeline.ucRefs τ sig) (Y19 m c) ∗ R c)
  post c := iprop(StableHlo.held (c : Thread nD τ) (Pipeline.ucRefs τ sig) (Y20 m c) ∗ R c)
  X c := iprop(∃ r, prngReg c r)
  Y c := iprop(∃ r, prngReg c r)
  Z c := Pipeline.unscopedRest (Ix := Unit) (Name := ℕ) (U := UR sig nD τ) (Lvl := ℕ) spec9 c (R19v m c)
  hentry c := by
    rw [Pipeline.ownSems0_none]
    have hsplit := Pipeline.arrays_of_unscopedBufs (p := 9) (pcfgs (F := F)) adm (pdats m) launch9.win launch9.arr_whole c
      ((pdats m 9 c).share_full fun _ => rfl) (R19v m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (R19v m c) (R20v m c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 10 over the thread state: its arrays split out of the unscoped buffers and put back at the exit contents; the generator
    register into the pipeline's invariant and out; nothing owed; no semaphore of the kernel's own. -/
def reg10 : Pipeline.RegionSeg (pcfgs (F := F)) adm (pdats m) () defs₀ 𝒱₀ L lv 10 where
  win := launch10.win.to₀
  block_pos := launch10.block_pos
  stage_whole := launch10.stage_whole
  K := PEmpty
  osem k := k.elim
  ho := Pipeline.OwnSemFacts.none _
  hbody c := (body_obligation10 (R21v m) c).loose
  hwaits := Pipeline.hwaits_of_owed_zero _ _ _ _ L lv 10 fun _ _ => rfl
  pre c := iprop(StableHlo.held (c : Thread nD τ) (Pipeline.ucRefs τ sig) (Y21 m c) ∗ R c)
  post c := iprop(StableHlo.held (c : Thread nD τ) (Pipeline.ucRefs τ sig) (Y22 m c) ∗ R c)
  X c := iprop(∃ r, prngReg c r)
  Y c := iprop(∃ r, prngReg c r)
  Z c := Pipeline.unscopedRest (Ix := Unit) (Name := ℕ) (U := UR sig nD τ) (Lvl := ℕ) spec10 c (R21v m c)
  hentry c := by
    rw [Pipeline.ownSems0_none]
    have hsplit := Pipeline.arrays_of_unscopedBufs (p := 10) (pcfgs (F := F)) adm (pdats m) launch10.win launch10.arr_whole c
      ((pdats m 10 c).share_full fun _ => rfl) (R21v m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (R21v m c) (R22v m c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 11 over the thread state: its arrays split out of the unscoped buffers and put back at the exit contents; the generator
    register into the pipeline's invariant and out; nothing owed; no semaphore of the kernel's own. -/
def reg11 : Pipeline.RegionSeg (pcfgs (F := F)) adm (pdats m) () defs₀ 𝒱₀ L lv 11 where
  win := launch11.win.to₀
  block_pos := launch11.block_pos
  stage_whole := launch11.stage_whole
  K := PEmpty
  osem k := k.elim
  ho := Pipeline.OwnSemFacts.none _
  hbody c := (body_obligation11 (R23v m) c).loose
  hwaits := Pipeline.hwaits_of_owed_zero _ _ _ _ L lv 11 fun _ _ => rfl
  pre c := iprop(StableHlo.held (c : Thread nD τ) (Pipeline.ucRefs τ sig) (Y23 m c) ∗ R c)
  post c := iprop(StableHlo.held (c : Thread nD τ) (Pipeline.ucRefs τ sig) (Y24 m c) ∗ R c)
  X c := iprop(∃ r, prngReg c r)
  Y c := iprop(∃ r, prngReg c r)
  Z c := Pipeline.unscopedRest (Ix := Unit) (Name := ℕ) (U := UR sig nD τ) (Lvl := ℕ) spec11 c (R23v m c)
  hentry c := by
    rw [Pipeline.ownSems0_none]
    have hsplit := Pipeline.arrays_of_unscopedBufs (p := 11) (pcfgs (F := F)) adm (pdats m) launch11.win launch11.arr_whole c
      ((pdats m 11 c).share_full fun _ => rfl) (R23v m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m) ((pdats m 11 c).share_full fun _ => rfl)
      (R23v m c) (R24v m c) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 12 over the thread state: its arrays split out of the unscoped buffers and put back at the exit contents; the generator
    register into the pipeline's invariant and out; nothing owed; no semaphore of the kernel's own. -/
def reg12 : Pipeline.RegionSeg (pcfgs (F := F)) adm (pdats m) () defs₀ 𝒱₀ L lv 12 where
  win := launch12.win.to₀
  block_pos := launch12.block_pos
  stage_whole := launch12.stage_whole
  K := PEmpty
  osem k := k.elim
  ho := Pipeline.OwnSemFacts.none _
  hbody c := (body_obligation12 (R24v m) c).loose
  hwaits := Pipeline.hwaits_of_owed_zero _ _ _ _ L lv 12 fun _ _ => rfl
  pre c := iprop(StableHlo.held (c : Thread nD τ) (Pipeline.ucRefs τ sig) (Y24 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec12 c (R24v m c)
  hentry c := by
    rw [Pipeline.ownSems0_none]
    have hsplit := Pipeline.arrays_of_unscopedBufs (p := 12) (pcfgs (F := F)) adm (pdats m) launch12.win launch12.arr_whole c
      ((pdats m 12 c).share_full fun _ => rfl) (R24v m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m) ((pdats m 12 c).share_full fun _ => rfl)
      (R24v m c) (R25v m c) ((pdats m 12 c).arrAt · cfg12.N) (hF12 m c) (hrest12 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The main function as segments, and the launch -/

abbrev segs : List (Pipeline.Seg (pcfgs (F := F)) adm (pdats m) () defs₀ 𝒱₀ L lv) :=
  [ .host (hseg hostOps0 hostOps0_sub hostOps0_fresh (Y0 m)),
    .region (reg0 m),
    .host (hseg hostOps1 hostOps1_sub hostOps1_fresh (Y2 m)),
    .region (reg1 m),
    .host (hseg hostOps2 hostOps2_sub hostOps2_fresh (Y4 m)),
    .region (reg2 m),
    .host (hseg hostOps3 hostOps3_sub hostOps3_fresh (Y6 m)),
    .region (reg3 m),
    .host (hseg hostOps4 hostOps4_sub hostOps4_fresh (Y8 m)),
    .region (reg4 m),
    .host (hseg hostOps5 hostOps5_sub hostOps5_fresh (Y10 m)),
    .region (reg5 m),
    .host (hseg hostOps6 hostOps6_sub hostOps6_fresh (Y12 m)),
    .region (reg6 m),
    .host (hseg hostOps7 hostOps7_sub hostOps7_fresh (Y14 m)),
    .region (reg7 m),
    .host (hseg hostOps8 hostOps8_sub hostOps8_fresh (Y16 m)),
    .region (reg8 m),
    .host (hseg hostOps9 hostOps9_sub hostOps9_fresh (Y18 m)),
    .region (reg9 m),
    .host (hseg hostOps10 hostOps10_sub hostOps10_fresh (Y20 m)),
    .region (reg10 m),
    .host (hseg hostOps11 hostOps11_sub hostOps11_fresh (Y22 m)),
    .region (reg11 m),
    .region (reg12 m) ]

variable (ρ : Dev nD → PrngReg)

set_option backward.isDefEq.respectTransparency.types false in
/-- From any memory with zero counters every weakly fair execution of the main function terminates, nothing faulting; the result
    buffer ends at the last valuation's contents and every argument buffer as launched. -/
theorem run_main : θ_run defs (onTc (τ := τ) (main (F := F))) ⟨m, fun _ => 0, ρ⟩ (fun r => ∀ c : Dev nD,
      r.2.mem ((c.tc : Thread nD τ).loc main_v172) = Y25 m c (Proc.devRef .tc main_v172)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11,
          Prog.lift (.customCall (Pipeline.entry 11) ()),
          Prog.lift (.customCall (Pipeline.entry 12) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Y0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Y0 m c)
        from Pipeline.unscopedBufs_held c (Y0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Y25 m c b)
    (hfin := fun c s' => by
      iintro ⟨⟨Hh, -⟩, HSI⟩
      unfold StableHlo.held
      imodintro
      iapply (pointsTo_read_all (Pipeline.ucRefs τ sig) (fun b => (((c : Thread nD τ)).1, b)) (Y25 m c) s')
      isplitl [Hh] <;> iassumption)
    (hQ := fun s h c =>
      ⟨h c _ (mem_uc main_v172 (by decide)),
       (h c _ (mem_uc main_arg0 (by decide))).trans (Y25_main_arg0 m c),
       (h c _ (mem_uc main_arg1 (by decide))).trans (Y25_main_arg1 m c),
       (h c _ (mem_uc main_arg2 (by decide))).trans (Y25_main_arg2 m c),
       (h c _ (mem_uc main_arg3 (by decide))).trans (Y25_main_arg3 m c),
       (h c _ (mem_uc main_arg4 (by decide))).trans (Y25_main_arg4 m c),
       (h c _ (mem_uc main_arg5 (by decide))).trans (Y25_main_arg5 m c),
       (h c _ (mem_uc main_arg6 (by decide))).trans (Y25_main_arg6 m c),
       (h c _ (mem_uc main_arg7 (by decide))).trans (Y25_main_arg7 m c),
       (h c _ (mem_uc main_arg8 (by decide))).trans (Y25_main_arg8 m c),
       (h c _ (mem_uc main_arg9 (by decide))).trans (Y25_main_arg9 m c),
       (h c _ (mem_uc main_arg10 (by decide))).trans (Y25_main_arg10 m c),
       (h c _ (mem_uc main_arg11 (by decide))).trans (Y25_main_arg11 m c),
       (h c _ (mem_uc main_arg12 (by decide))).trans (Y25_main_arg12 m c),
       (h c _ (mem_uc main_arg13 (by decide))).trans (Y25_main_arg13 m c),
       (h c _ (mem_uc main_arg14 (by decide))).trans (Y25_main_arg14 m c),
       (h c _ (mem_uc main_arg15 (by decide))).trans (Y25_main_arg15 m c)⟩)

end Cert.KernelIdeal.Hand

end
-- ==== Proof.Layers.lean ====
import proofs.«106875_j87694642250037_1_alg».proof.ReferenceIdeal
import Idealize.ShloMosaic.PureOps.Ideal

/-!
# The network, layer by layer

The reference computation written as a composition of small pure functions at the ideal
instance (extended reals), one per layer of the network: the input projection, neighbour
aggregation, the graph convolutions (with and without residual), concatenation, pooling,
the readout perceptron and the asymmetric distance. Every function is spelt with the
reference program's own host operations and shape records, in its own order of operands,
so that the program's composed result term is this composition by unfolding.
-/

noncomputable section

namespace Cert.Layers

open Cert.ReferenceIdeal Idealize.ShloMosaic Idealize.SL.Sem

variable [Cert.ReferenceIdeal.Facts]
open Cert.ReferenceIdeal.Facts₀ Cert.ReferenceIdeal.Facts

/-- A float tensor of shape `s` over the extended reals. -/
abbrev T (s : Shape) : Type := FVec Ideal s .f32
/-- A 32-bit integer tensor of shape `s`. -/
abbrev TI (s : Shape) : Type := IVec s 32

/-- The zero tensor of node features. -/
def zeroN : T S50000x128 :=
  broadcastInDim S50000x128 ![] bcast_S_S50000x128 (constant (F := Ideal) S_ .f32 0x00000000#32)

/-- `max(x, 0)` on node features. -/
def relu (x : T S50000x128) : T S50000x128 :=
  maximumf x zeroN

/-- `max(x, 0)` on graph features. -/
def reluG (x : T S1000x128) : T S1000x128 :=
  maximumf x (broadcastInDim S1000x128 ![] bcast_S_S1000x128 (constant (F := Ideal) S_ .f32 0x00000000#32))

/-- `max(x, 0)` on a half of the graph features. -/
def reluH (x : T S1000x64) : T S1000x64 :=
  maximumf x (broadcastInDim S1000x64 ![] bcast_S_S1000x64 (constant (F := Ideal) S_ .f32 0x00000000#32))

/-- A bias row repeated over the nodes. -/
def bias (b : T S128) : T S50000x128 :=
  broadcastInDim S50000x128 ![0, 1] bcast_S1x128_S50000x128_0_1 (broadcastInDim S1x128 ![1] bcast_S128_S1x128_1 b)

/-- A bias row repeated over the graphs. -/
def biasG (b : T S128) : T S1000x128 :=
  broadcastInDim S1000x128 ![0, 1] bcast_S1x128_S1000x128_0_1 (broadcastInDim S1x128 ![1] bcast_S128_S1x128_1 b)

/-- The input projection `x · pw + pb`. -/
def pre (x : T S50000x32) (pw : T S32x128) (pb : T S128) : T S50000x128 :=
  addf (Host.dotGeneral dot_S50000x32_S32x128_S50000x128_1_0_0_1_n_n none x pw) (bias pb)

/-- Row 0 of the edge list: the source node of each edge. -/
def row0 (ei : TI S2x640000) : TI S640000 :=
  shapeCast S640000 (extractStridedSlice S1x640000 ![0, 0] ei slices_S2x640000_S1x640000_0_0) shapeCasts_S1x640000_S640000

/-- Row 1 of the edge list: the target node of each edge. -/
def row1 (ei : TI S2x640000) : TI S640000 :=
  shapeCast S640000 (extractStridedSlice S1x640000 ![1, 0] ei slices_S2x640000_S1x640000_1_0) shapeCasts_S1x640000_S640000

/-- The source indices as a column, a negative index wrapped by the node count. -/
def srcCol (ei : TI S2x640000) : TI S640000x1 :=
  broadcastInDim S640000x1 ![0] bcast_S640000_S640000x1_0 (select (cmpi .slt (row0 ei) (broadcastInDim S640000 ![] bcast_S_S640000 (constantI S_ 32 0#32))) (addi (row0 ei) (broadcastInDim S640000 ![] bcast_S_S640000 (constantI S_ 32 50000#32))) (row0 ei))

/-- The target indices as a column. -/
def dstCol (ei : TI S2x640000) : TI S640000x1 :=
  broadcastInDim S640000x1 ![0] bcast_S640000_S640000x1_0 (row1 ei)

/-- Neighbour aggregation: row `dst e` of the result sums the rows `x (src e)` over the edges `e`. -/
def agg (x : T S50000x128) (ei : TI S2x640000) : T S50000x128 :=
  Host.scatterAdd scatter_S50000x128_S640000x1_S640000x128_1_0_0_1 zeroN (dstCol ei) (Host.gather gather_S50000x128_S640000x1_S640000x128_1_0_n_n_0_1_1128 x (srcCol ei))

/-- Layer 0's matrix out of a stack of four. -/
def wAt0 (a : T S4x128x128) : T S128x128 :=
  shapeCast S128x128 (extractStridedSlice S1x128x128 ![0, 0, 0] a slices_S4x128x128_S1x128x128_0_0_0) shapeCasts_S1x128x128_S128x128

/-- Layer 0's bias out of a stack of four. -/
def bAt0 (a : T S4x128) : T S128 :=
  shapeCast S128 (extractStridedSlice S1x128 ![0, 0] a slices_S4x128_S1x128_0_0) shapeCasts_S1x128_S128

/-- Layer 1's matrix out of a stack of four. -/
def wAt1 (a : T S4x128x128) : T S128x128 :=
  shapeCast S128x128 (extractStridedSlice S1x128x128 ![1, 0, 0] a slices_S4x128x128_S1x128x128_1_0_0) shapeCasts_S1x128x128_S128x128

/-- Layer 1's bias out of a stack of four. -/
def bAt1 (a : T S4x128) : T S128 :=
  shapeCast S128 (extractStridedSlice S1x128 ![1, 0] a slices_S4x128_S1x128_1_0) shapeCasts_S1x128_S128

/-- Layer 2's matrix out of a stack of four. -/
def wAt2 (a : T S4x128x128) : T S128x128 :=
  shapeCast S128x128 (extractStridedSlice S1x128x128 ![2, 0, 0] a slices_S4x128x128_S1x128x128_2_0_0) shapeCasts_S1x128x128_S128x128

/-- Layer 2's bias out of a stack of four. -/
def bAt2 (a : T S4x128) : T S128 :=
  shapeCast S128 (extractStridedSlice S1x128 ![2, 0] a slices_S4x128_S1x128_2_0) shapeCasts_S1x128_S128

/-- Layer 3's matrix out of a stack of four. -/
def wAt3 (a : T S4x128x128) : T S128x128 :=
  shapeCast S128x128 (extractStridedSlice S1x128x128 ![3, 0, 0] a slices_S4x128x128_S1x128x128_3_0_0) shapeCasts_S1x128x128_S128x128

/-- Layer 3's bias out of a stack of four. -/
def bAt3 (a : T S4x128) : T S128 :=
  shapeCast S128 (extractStridedSlice S1x128 ![3, 0] a slices_S4x128_S1x128_3_0) shapeCasts_S1x128_S128

/-- The two-layer perceptron of a graph convolution on `ag + x`, before the final activation. -/
def mlp (x ag : T S50000x128) (W1 : T S128x128) (B1 : T S128) (W2 : T S128x128) (B2 : T S128) : T S50000x128 :=
  addf (Host.dotGeneral dot_S50000x128_S128x128_S50000x128_1_0_0_1_n_n none (relu (addf (Host.dotGeneral dot_S50000x128_S128x128_S50000x128_1_0_0_1_n_n none (addf ag x) W1) (bias B1))) W2) (bias B2)

/-- A graph convolution without residual. -/
def ginPlain (x ag : T S50000x128) (W1 : T S128x128) (B1 : T S128) (W2 : T S128x128) (B2 : T S128) : T S50000x128 :=
  relu (mlp x ag W1 B1 W2 B2)

/-- A graph convolution with residual `xr`, before the activation: the next residual. -/
def ginResidPre (x ag xr : T S50000x128) (W1 : T S128x128) (B1 : T S128) (W2 : T S128x128) (B2 : T S128) : T S50000x128 :=
  addf (mlp x ag W1 B1 W2 B2) xr

/-- A graph convolution with residual `xr`. -/
def ginResid (x ag xr : T S50000x128) (W1 : T S128x128) (B1 : T S128) (W2 : T S128x128) (B2 : T S128) : T S50000x128 :=
  relu (ginResidPre x ag xr W1 B1 W2 B2)

/-- The five node embeddings side by side. -/
def cat5 (e0 e1 e2 e3 e4 : T S50000x128) : T S50000x640 :=
  concatenate S50000x640 1 [⟨S50000x128, e0⟩, ⟨S50000x128, e1⟩, ⟨S50000x128, e2⟩, ⟨S50000x128, e3⟩, ⟨S50000x128, e4⟩] concatenates_S50000x128_S50000x128_S50000x128_S50000x128_S50000x128_S50000x640_d1

/-- Sum pooling of the nodes of each graph. -/
def pool (emb : T S50000x640) (batch : TI S50000) : T S1000x640 :=
  Host.scatterAdd scatter_S1000x640_S50000x1_S50000x640_1_0_0_1 (broadcastInDim S1000x640 ![] bcast_S_S1000x640 (constant (F := Ideal) S_ .f32 0x00000000#32)) (broadcastInDim S50000x1 ![0] bcast_S50000_S50000x1_0 batch) emb

/-- The readout perceptron on the pooled features. -/
def post (p : T S1000x640) (W1 : T S640x128) (B1 : T S128) (W2 : T S128x128) (B2 : T S128) : T S1000x128 :=
  addf (Host.dotGeneral dot_S1000x128_S128x128_S1000x128_1_0_0_1_n_n none (reluG (addf (Host.dotGeneral dot_S1000x640_S640x128_S1000x128_1_0_0_1_n_n none p W1) (biasG B1))) W2) (biasG B2)

/-- Embedding 0: the input projection. -/
def emb0 (x : T S50000x32) (pw : T S32x128) (pb : T S128) : T S50000x128 :=
  pre x pw pb

/-- Embedding 1: convolution 0 (no residual) of embedding 0. -/
def emb1 (x : T S50000x32) (ei : TI S2x640000) (pw : T S32x128) (pb : T S128) (a8 : T S4x128x128) (a9 : T S4x128) (a10 : T S4x128x128) (a11 : T S4x128) : T S50000x128 :=
  ginPlain (emb0 x pw pb) (agg (emb0 x pw pb) ei) (wAt0 a8) (bAt0 a9) (wAt0 a10) (bAt0 a11)

/-- Convolution 1 of embedding 1 plus the residual embedding 0, before the activation. -/
def res2 (x : T S50000x32) (ei : TI S2x640000) (pw : T S32x128) (pb : T S128) (a8 : T S4x128x128) (a9 : T S4x128) (a10 : T S4x128x128) (a11 : T S4x128) : T S50000x128 :=
  ginResidPre (emb1 x ei pw pb a8 a9 a10 a11) (agg (emb1 x ei pw pb a8 a9 a10 a11) ei) (emb0 x pw pb) (wAt1 a8) (bAt1 a9) (wAt1 a10) (bAt1 a11)

/-- Embedding 2. -/
def emb2 (x : T S50000x32) (ei : TI S2x640000) (pw : T S32x128) (pb : T S128) (a8 : T S4x128x128) (a9 : T S4x128) (a10 : T S4x128x128) (a11 : T S4x128) : T S50000x128 :=
  relu (res2 x ei pw pb a8 a9 a10 a11)

/-- Embedding 3: convolution 2 (no residual) of embedding 2. -/
def emb3 (x : T S50000x32) (ei : TI S2x640000) (pw : T S32x128) (pb : T S128) (a8 : T S4x128x128) (a9 : T S4x128) (a10 : T S4x128x128) (a11 : T S4x128) : T S50000x128 :=
  ginPlain (emb2 x ei pw pb a8 a9 a10 a11) (agg (emb2 x ei pw pb a8 a9 a10 a11) ei) (wAt2 a8) (bAt2 a9) (wAt2 a10) (bAt2 a11)

/-- Convolution 3 of embedding 3 plus the residual `res2`, before the activation. -/
def res4 (x : T S50000x32) (ei : TI S2x640000) (pw : T S32x128) (pb : T S128) (a8 : T S4x128x128) (a9 : T S4x128) (a10 : T S4x128x128) (a11 : T S4x128) : T S50000x128 :=
  ginResidPre (emb3 x ei pw pb a8 a9 a10 a11) (agg (emb3 x ei pw pb a8 a9 a10 a11) ei) (res2 x ei pw pb a8 a9 a10 a11) (wAt3 a8) (bAt3 a9) (wAt3 a10) (bAt3 a11)

/-- Embedding 4. -/
def emb4 (x : T S50000x32) (ei : TI S2x640000) (pw : T S32x128) (pb : T S128) (a8 : T S4x128x128) (a9 : T S4x128) (a10 : T S4x128x128) (a11 : T S4x128) : T S50000x128 :=
  relu (res4 x ei pw pb a8 a9 a10 a11)

/-- The graph embedding network: five node embeddings, pooled per graph, then the readout. -/
def embed (x : T S50000x32) (ei : TI S2x640000) (batch : TI S50000) (pw : T S32x128) (pb : T S128) (a8 : T S4x128x128) (a9 : T S4x128) (a10 : T S4x128x128) (a11 : T S4x128) (pw1 : T S640x128) (pb1 : T S128) (pw2 : T S128x128) (pb2 : T S128) : T S1000x128 :=
  post (pool (cat5 (emb0 x pw pb) (emb1 x ei pw pb a8 a9 a10 a11) (emb2 x ei pw pb a8 a9 a10 a11) (emb3 x ei pw pb a8 a9 a10 a11) (emb4 x ei pw pb a8 a9 a10 a11)) batch) pw1 pb1 pw2 pb2

/-- Columns 0 … 63. -/
def lo (v : T S1000x128) : T S1000x64 :=
  extractStridedSlice S1000x64 ![0, 0] v slices_S1000x128_S1000x64_0_0

/-- Columns 64 … 127. -/
def hi (v : T S1000x128) : T S1000x64 :=
  extractStridedSlice S1000x64 ![0, 64] v slices_S1000x128_S1000x64_0_64

/-- `1 · (Σ_j max(d_j, 0)²) ^ (1/2)` per row. -/
def pn (d : T S1000x64) : T S1000 :=
  mulf (broadcastInDim S1000 ![] bcast_S_S1000 (constant (F := Ideal) S_ .f32 0x3F800000#32)) (Host.powf (Host.reduceAdd (mulf (reluH d) (reluH d)) (constant (F := Ideal) S_ .f32 0x00000000#32) reducesTo_S1000x64_S1000_d1 h_S_) (broadcastInDim S1000 ![] bcast_S_S1000 (constant (F := Ideal) S_ .f32 0x3F000000#32)))

/-- The asymmetric distance of two graph embeddings: both one-sided norms on each half of the columns. -/
def asymm (gx hx : T S1000x128) : T S1000 :=
  addf (addf (pn (subf (lo gx) (lo hx))) (pn (subf (lo hx) (lo gx)))) (addf (pn (subf (hi gx) (hi hx))) (pn (subf (hi hx) (hi gx))))

/-- The whole computation of the sixteen argument arrays. -/
def result (gX : T S50000x32) (gEi : TI S2x640000) (gB : TI S50000) (hX : T S50000x32) (hEi : TI S2x640000) (hB : TI S50000) (pw : T S32x128) (pb : T S128) (a8 : T S4x128x128) (a9 : T S4x128) (a10 : T S4x128x128) (a11 : T S4x128) (pw1 : T S640x128) (pb1 : T S128) (pw2 : T S128x128) (pb2 : T S128) : T S1000 :=
  asymm (embed gX gEi gB pw pb a8 a9 a10 a11 pw1 pb1 pw2 pb2) (embed hX hEi hB pw pb a8 a9 a10 a11 pw1 pb1 pw2 pb2)

end Cert.Layers

end
-- ==== Proof.HostLayers.lean ====
/- The neighbour aggregation written over the two index rows of an edge list, as a program that
   has already split the edge list into its rows reads it. -/
import proofs.«106875_j87694642250037_1_alg».proof.Proof.Layers

noncomputable section

namespace Cert.Layers

open Cert.ReferenceIdeal Idealize.ShloMosaic Idealize.SL.Sem

variable [Cert.ReferenceIdeal.Facts]
open Cert.ReferenceIdeal.Facts₀ Cert.ReferenceIdeal.Facts

/-- The source indices `r0` as a column, a negative index wrapped by the node count. -/
def srcColOf (r0 : TI S640000) : TI S640000x1 :=
  broadcastInDim S640000x1 ![0] bcast_S640000_S640000x1_0 (select (cmpi .slt r0 (broadcastInDim S640000 ![] bcast_S_S640000 (constantI S_ 32 0#32))) (addi r0 (broadcastInDim S640000 ![] bcast_S_S640000 (constantI S_ 32 50000#32))) r0)

/-- The target indices `r1` as a column. -/
def dstColOf (r1 : TI S640000) : TI S640000x1 :=
  broadcastInDim S640000x1 ![0] bcast_S640000_S640000x1_0 r1

/-- Neighbour aggregation over the source row `r0` and the target row `r1` of the edges. -/
def aggOf (x : T S50000x128) (r0 r1 : TI S640000) : T S50000x128 :=
  Host.scatterAdd scatter_S50000x128_S640000x1_S640000x128_1_0_0_1 zeroN (dstColOf r1) (Host.gather gather_S50000x128_S640000x1_S640000x128_1_0_n_n_0_1_1128 x (srcColOf r0))

/-- Aggregation over an edge list is aggregation over its two rows. -/
theorem agg_eq (x : T S50000x128) (ei : TI S2x640000) : agg x ei = aggOf x (row0 ei) (row1 ei) := rfl

end Cert.Layers

end
-- ==== Proof.IHost.lean ====
/- What the kernel program's host stretches write, read as the layer functions of what the buffers
   held before the stretch, for an arbitrary valuation of the buffers. -/
import proofs.«106875_j87694642250037_1_alg».proof.Proof.Gen.KernelIdeal.Launch
import proofs.«106875_j87694642250037_1_alg».proof.Proof.HostLayers
import Idealize.ShloMosaic.Lib.StableHlo.Run

noncomputable section

namespace Cert.KernelIdeal.HandHost

open Idealize.ShloMosaic Idealize.ShloMosaic.TcCoe Idealize.ShloMosaic.StableHlo
open Cert.KernelIdeal Cert.KernelIdeal.Gen

variable [Cert.ReferenceIdeal.Facts]
variable (X : Valuation τ sig (Elt Ideal))

set_option maxHeartbeats 1000000 in
/-- Stretch 0 leaves the source row of graph g's edge list in `main_v1`. -/
theorem host0_v1 : StableHlo.after (hostOps0 (F := Ideal)) X main_v1
    = Cert.Layers.row0 (X main_arg1) := by
  after_results_simp
  rfl

set_option maxHeartbeats 1000000 in
/-- Stretch 0 leaves the target row of graph g's edge list in `main_v3`. -/
theorem host0_v3 : StableHlo.after (hostOps0 (F := Ideal)) X main_v3
    = Cert.Layers.row1 (X main_arg1) := by
  after_results_simp
  rfl

set_option maxHeartbeats 1000000 in
/-- Stretch 1 leaves in `main_v14` the neighbour aggregation of `main_v4` over graph g's edge rows. -/
theorem host1_v14 : StableHlo.after (hostOps1 (F := Ideal)) X main_v14
    = Cert.Layers.aggOf (X main_v4) (X main_v1) (X main_v3) := by
  after_results_simp
  rfl

set_option maxHeartbeats 1000000 in
/-- Stretch 1 leaves layer 0's first matrix in `main_v16`. -/
theorem host1_v16 : StableHlo.after (hostOps1 (F := Ideal)) X main_v16
    = Cert.Layers.wAt0 (X main_arg8) := by
  after_results_simp
  rfl

set_option maxHeartbeats 1000000 in
/-- Stretch 1 leaves layer 0's first bias in `main_v18`. -/
theorem host1_v18 : StableHlo.after (hostOps1 (F := Ideal)) X main_v18
    = Cert.Layers.bAt0 (X main_arg9) := by
  after_results_simp
  rfl

set_option maxHeartbeats 1000000 in
/-- Stretch 1 leaves layer 0's second matrix in `main_v20`. -/
theorem host1_v20 : StableHlo.after (hostOps1 (F := Ideal)) X main_v20
    = Cert.Layers.wAt0 (X main_arg10) := by
  after_results_simp
  rfl

set_option maxHeartbeats 1000000 in
/-- Stretch 1 leaves layer 0's second bias in `main_v22`. -/
theorem host1_v22 : StableHlo.after (hostOps1 (F := Ideal)) X main_v22
    = Cert.Layers.bAt0 (X main_arg11) := by
  after_results_simp
  rfl

set_option maxHeartbeats 1000000 in
/-- Stretch 2 leaves in `main_v33` the neighbour aggregation of `main_v23` over graph g's edge rows. -/
theorem host2_v33 : StableHlo.after (hostOps2 (F := Ideal)) X main_v33
    = Cert.Layers.aggOf (X main_v23) (X main_v1) (X main_v3) := by
  after_results_simp
  rfl

set_option maxHeartbeats 1000000 in
/-- Stretch 2 leaves layer 1's first matrix in `main_v35`. -/
theorem host2_v35 : StableHlo.after (hostOps2 (F := Ideal)) X main_v35
    = Cert.Layers.wAt1 (X main_arg8) := by
  after_results_simp
  rfl

set_option maxHeartbeats 1000000 in
/-- Stretch 2 leaves layer 1's first bias in `main_v37`. -/
theorem host2_v37 : StableHlo.after (hostOps2 (F := Ideal)) X main_v37
    = Cert.Layers.bAt1 (X main_arg9) := by
  after_results_simp
  rfl

set_option maxHeartbeats 1000000 in
/-- Stretch 2 leaves layer 1's second matrix in `main_v39`. -/
theorem host2_v39 : StableHlo.after (hostOps2 (F := Ideal)) X main_v39
    = Cert.Layers.wAt1 (X main_arg10) := by
  after_results_simp
  rfl

set_option maxHeartbeats 1000000 in
/-- Stretch 2 leaves layer 1's second bias in `main_v41`. -/
theorem host2_v41 : StableHlo.after (hostOps2 (F := Ideal)) X main_v41
    = Cert.Layers.bAt1 (X main_arg11) := by
  after_results_simp
  rfl

set_option maxHeartbeats 1000000 in
/-- Stretch 3 leaves in `main_v52` the neighbour aggregation of `main_v42_0` over graph g's edge rows. -/
theorem host3_v52 : StableHlo.after (hostOps3 (F := Ideal)) X main_v52
    = Cert.Layers.aggOf (X main_v42_0) (X main_v1) (X main_v3) := by
  after_results_simp
  rfl

set_option maxHeartbeats 1000000 in
/-- Stretch 3 leaves layer 2's first matrix in `main_v54`. -/
theorem host3_v54 : StableHlo.after (hostOps3 (F := Ideal)) X main_v54
    = Cert.Layers.wAt2 (X main_arg8) := by
  after_results_simp
  rfl

set_option maxHeartbeats 1000000 in
/-- Stretch 3 leaves layer 2's first bias in `main_v56`. -/
theorem host3_v56 : StableHlo.after (hostOps3 (F := Ideal)) X main_v56
    = Cert.Layers.bAt2 (X main_arg9) := by
  after_results_simp
  rfl

set_option maxHeartbeats 1000000 in
/-- Stretch 3 leaves layer 2's second matrix in `main_v58`. -/
theorem host3_v58 : StableHlo.after (hostOps3 (F := Ideal)) X main_v58
    = Cert.Layers.wAt2 (X main_arg10) := by
  after_results_simp
  rfl

set_option maxHeartbeats 1000000 in
/-- Stretch 3 leaves layer 2's second bias in `main_v60`. -/
theorem host3_v60 : StableHlo.after (hostOps3 (F := Ideal)) X main_v60
    = Cert.Layers.bAt2 (X main_arg11) := by
  after_results_simp
  rfl

set_option maxHeartbeats 1000000 in
/-- Stretch 4 leaves in `main_v71` the neighbour aggregation of `main_v61` over graph g's edge rows. -/
theorem host4_v71 : StableHlo.after (hostOps4 (F := Ideal)) X main_v71
    = Cert.Layers.aggOf (X main_v61) (X main_v1) (X main_v3) := by
  after_results_simp
  rfl

set_option maxHeartbeats 1000000 in
/-- Stretch 4 leaves layer 3's first matrix in `main_v73`. -/
theorem host4_v73 : StableHlo.after (hostOps4 (F := Ideal)) X main_v73
    = Cert.Layers.wAt3 (X main_arg8) := by
  after_results_simp
  rfl

set_option maxHeartbeats 1000000 in
/-- Stretch 4 leaves layer 3's first bias in `main_v75`. -/
theorem host4_v75 : StableHlo.after (hostOps4 (F := Ideal)) X main_v75
    = Cert.Layers.bAt3 (X main_arg9) := by
  after_results_simp
  rfl

set_option maxHeartbeats 1000000 in
/-- Stretch 4 leaves layer 3's second matrix in `main_v77`. -/
theorem host4_v77 : StableHlo.after (hostOps4 (F := Ideal)) X main_v77
    = Cert.Layers.wAt3 (X main_arg10) := by
  after_results_simp
  rfl

set_option maxHeartbeats 1000000 in
/-- Stretch 4 leaves layer 3's second bias in `main_v79`. -/
theorem host4_v79 : StableHlo.after (hostOps4 (F := Ideal)) X main_v79
    = Cert.Layers.bAt3 (X main_arg11) := by
  after_results_simp
  rfl

set_option maxHeartbeats 1000000 in
/-- Stretch 5 leaves in `main_v84` graph g's five node embeddings side by side, pooled per graph. -/
theorem host5_v84 : StableHlo.after (hostOps5 (F := Ideal)) X main_v84
    = Cert.Layers.pool (Cert.Layers.cat5 (X main_v4) (X main_v23) (X main_v42_0) (X main_v61) (X main_v80_0)) (X main_arg2) := by
  after_results_simp
  rfl

set_option maxHeartbeats 1000000 in
/-- Stretch 6 leaves the source row of graph h's edge list in `main_v87`. -/
theorem host6_v87 : StableHlo.after (hostOps6 (F := Ideal)) X main_v87
    = Cert.Layers.row0 (X main_arg4) := by
  after_results_simp
  rfl

set_option maxHeartbeats 1000000 in
/-- Stretch 6 leaves the target row of graph h's edge list in `main_v89`. -/
theorem host6_v89 : StableHlo.after (hostOps6 (F := Ideal)) X main_v89
    = Cert.Layers.row1 (X main_arg4) := by
  after_results_simp
  rfl

set_option maxHeartbeats 1000000 in
/-- Stretch 7 leaves in `main_v100` the neighbour aggregation of `main_v90` over graph h's edge rows. -/
theorem host7_v100 : StableHlo.after (hostOps7 (F := Ideal)) X main_v100
    = Cert.Layers.aggOf (X main_v90) (X main_v87) (X main_v89) := by
  after_results_simp
  rfl

set_option maxHeartbeats 1000000 in
/-- Stretch 7 leaves layer 0's first matrix in `main_v102`. -/
theorem host7_v102 : StableHlo.after (hostOps7 (F := Ideal)) X main_v102
    = Cert.Layers.wAt0 (X main_arg8) := by
  after_results_simp
  rfl

set_option maxHeartbeats 1000000 in
/-- Stretch 7 leaves layer 0's first bias in `main_v104`. -/
theorem host7_v104 : StableHlo.after (hostOps7 (F := Ideal)) X main_v104
    = Cert.Layers.bAt0 (X main_arg9) := by
  after_results_simp
  rfl

set_option maxHeartbeats 1000000 in
/-- Stretch 7 leaves layer 0's second matrix in `main_v106`. -/
theorem host7_v106 : StableHlo.after (hostOps7 (F := Ideal)) X main_v106
    = Cert.Layers.wAt0 (X main_arg10) := by
  after_results_simp
  rfl

set_option maxHeartbeats 1000000 in
/-- Stretch 7 leaves layer 0's second bias in `main_v108`. -/
theorem host7_v108 : StableHlo.after (hostOps7 (F := Ideal)) X main_v108
    = Cert.Layers.bAt0 (X main_arg11) := by
  after_results_simp
  rfl

set_option maxHeartbeats 1000000 in
/-- Stretch 8 leaves in `main_v119` the neighbour aggregation of `main_v109` over graph h's edge rows. -/
theorem host8_v119 : StableHlo.after (hostOps8 (F := Ideal)) X main_v119
    = Cert.Layers.aggOf (X main_v109) (X main_v87) (X main_v89) := by
  after_results_simp
  rfl

set_option maxHeartbeats 1000000 in
/-- Stretch 8 leaves layer 1's first matrix in `main_v121`. -/
theorem host8_v121 : StableHlo.after (hostOps8 (F := Ideal)) X main_v121
    = Cert.Layers.wAt1 (X main_arg8) := by
  after_results_simp
  rfl

set_option maxHeartbeats 1000000 in
/-- Stretch 8 leaves layer 1's first bias in `main_v123`. -/
theorem host8_v123 : StableHlo.after (hostOps8 (F := Ideal)) X main_v123
    = Cert.Layers.bAt1 (X main_arg9) := by
  after_results_simp
  rfl

set_option maxHeartbeats 1000000 in
/-- Stretch 8 leaves layer 1's second matrix in `main_v125`. -/
theorem host8_v125 : StableHlo.after (hostOps8 (F := Ideal)) X main_v125
    = Cert.Layers.wAt1 (X main_arg10) := by
  after_results_simp
  rfl

set_option maxHeartbeats 1000000 in
/-- Stretch 8 leaves layer 1's second bias in `main_v127`. -/
theorem host8_v127 : StableHlo.after (hostOps8 (F := Ideal)) X main_v127
    = Cert.Layers.bAt1 (X main_arg11) := by
  after_results_simp
  rfl

set_option maxHeartbeats 1000000 in
/-- Stretch 9 leaves in `main_v138` the neighbour aggregation of `main_v128_0` over graph h's edge rows. -/
theorem host9_v138 : StableHlo.after (hostOps9 (F := Ideal)) X main_v138
    = Cert.Layers.aggOf (X main_v128_0) (X main_v87) (X main_v89) := by
  after_results_simp
  rfl

set_option maxHeartbeats 1000000 in
/-- Stretch 9 leaves layer 2's first matrix in `main_v140`. -/
theorem host9_v140 : StableHlo.after (hostOps9 (F := Ideal)) X main_v140
    = Cert.Layers.wAt2 (X main_arg8) := by
  after_results_simp
  rfl

set_option maxHeartbeats 1000000 in
/-- Stretch 9 leaves layer 2's first bias in `main_v142`. -/
theorem host9_v142 : StableHlo.after (hostOps9 (F := Ideal)) X main_v142
    = Cert.Layers.bAt2 (X main_arg9) := by
  after_results_simp
  rfl

set_option maxHeartbeats 1000000 in
/-- Stretch 9 leaves layer 2's second matrix in `main_v144`. -/
theorem host9_v144 : StableHlo.after (hostOps9 (F := Ideal)) X main_v144
    = Cert.Layers.wAt2 (X main_arg10) := by
  after_results_simp
  rfl

set_option maxHeartbeats 1000000 in
/-- Stretch 9 leaves layer 2's second bias in `main_v146`. -/
theorem host9_v146 : StableHlo.after (hostOps9 (F := Ideal)) X main_v146
    = Cert.Layers.bAt2 (X main_arg11) := by
  after_results_simp
  rfl

set_option maxHeartbeats 1000000 in
/-- Stretch 10 leaves in `main_v157` the neighbour aggregation of `main_v147` over graph h's edge rows. -/
theorem host10_v157 : StableHlo.after (hostOps10 (F := Ideal)) X main_v157
    = Cert.Layers.aggOf (X main_v147) (X main_v87) (X main_v89) := by
  after_results_simp
  rfl

set_option maxHeartbeats 1000000 in
/-- Stretch 10 leaves layer 3's first matrix in `main_v159`. -/
theorem host10_v159 : StableHlo.after (hostOps10 (F := Ideal)) X main_v159
    = Cert.Layers.wAt3 (X main_arg8) := by
  after_results_simp
  rfl

set_option maxHeartbeats 1000000 in
/-- Stretch 10 leaves layer 3's first bias in `main_v161`. -/
theorem host10_v161 : StableHlo.after (hostOps10 (F := Ideal)) X main_v161
    = Cert.Layers.bAt3 (X main_arg9) := by
  after_results_simp
  rfl

set_option maxHeartbeats 1000000 in
/-- Stretch 10 leaves layer 3's second matrix in `main_v163`. -/
theorem host10_v163 : StableHlo.after (hostOps10 (F := Ideal)) X main_v163
    = Cert.Layers.wAt3 (X main_arg10) := by
  after_results_simp
  rfl

set_option maxHeartbeats 1000000 in
/-- Stretch 10 leaves layer 3's second bias in `main_v165`. -/
theorem host10_v165 : StableHlo.after (hostOps10 (F := Ideal)) X main_v165
    = Cert.Layers.bAt3 (X main_arg11) := by
  after_results_simp
  rfl

set_option maxHeartbeats 1000000 in
/-- Stretch 11 leaves in `main_v170` graph h's five node embeddings side by side, pooled per graph. -/
theorem host11_v170 : StableHlo.after (hostOps11 (F := Ideal)) X main_v170
    = Cert.Layers.pool (Cert.Layers.cat5 (X main_v90) (X main_v109) (X main_v128_0) (X main_v147) (X main_v166_0)) (X main_arg5) := by
  after_results_simp
  rfl

end Cert.KernelIdeal.HandHost

end
-- ==== Proof.LibDense.lean ====
/-
  Dense layers read at an index, at the ideal values: a matrix product whose dimension numbers contract the left
  operand's columns with the right operand's rows (the kernel's product accumulated into a zero splat, and the
  host's product with no accumulator), and a vector laid along every row of a matrix.
-/
import Idealize.ShloMosaic.Lib.Pipeline.Value
import Idealize.ShloMosaic.Lib.ValueIdx
import Idealize.ShloMosaic.PureOps.Ideal.Laws

open scoped BigOperators

namespace Cert.Dense

open Idealize.ShloMosaic Idealize.ShloMosaic.ValueIdx

variable {m k n : Nat} {φ₁ φ₂ : FTy}

/-- The operand indices of a rows-by-columns contraction at output (a, b) and contraction coordinate c are
    (a, c) on the left … -/
theorem lhsIdx_rowcol (w : DotDims.WF ⟨2, ![m, k]⟩ ⟨2, ![k, n]⟩ ⟨2, ![m, n]⟩ [1] [0] [0] [1] [] [])
    (a : Fin m) (b : Fin n) (c : Fin k) :
    (⟨[1], [0], [0], [1], [], [], w⟩ : DotDims ⟨2, ![m, k]⟩ ⟨2, ![k, n]⟩ ⟨2, ![m, n]⟩).lhsIdx (ix2 a b)
      ((contrEquiv1 (⟨[1], [0], [0], [1], [], [], w⟩ : DotDims ⟨2, ![m, k]⟩ ⟨2, ![k, n]⟩ ⟨2, ![m, n]⟩) k rfl rfl).symm c)
      = ix2 a c := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.lhsIdx]; rfl
  | ⟨1, _⟩ => simp [DotDims.lhsIdx]; exact c2

/-- … and (c, b) on the right. -/
theorem rhsIdx_rowcol (w : DotDims.WF ⟨2, ![m, k]⟩ ⟨2, ![k, n]⟩ ⟨2, ![m, n]⟩ [1] [0] [0] [1] [] [])
    (a : Fin m) (b : Fin n) (c : Fin k) :
    (⟨[1], [0], [0], [1], [], [], w⟩ : DotDims ⟨2, ![m, k]⟩ ⟨2, ![k, n]⟩ ⟨2, ![m, n]⟩).rhsIdx (ix2 a b)
      ((contrEquiv1 (⟨[1], [0], [0], [1], [], [], w⟩ : DotDims ⟨2, ![m, k]⟩ ⟨2, ![k, n]⟩ ⟨2, ![m, n]⟩) k rfl rfl).symm c)
      = ix2 c b := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.rhsIdx]; exact c2
  | ⟨1, _⟩ => simp [DotDims.rhsIdx]; rfl

/-- A kernel's matrix product into the zero splat, read at (a, b): the sum over c of A (a, c) · B (c, b). -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  rw [lhsIdx_rowcol, rhsIdx_rowcol]

/-- The host's matrix product, read at (a, b): the same sum. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  rw [lhsIdx_rowcol, rhsIdx_rowcol]

/-- A vector of n entries cast to one row and broadcast down m rows, read at (a, b), is the vector at b. -/
theorem rowBroadcast_apply {α : Type} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (a : Fin m) (b : Fin n) :
    broadcastTo ⟨2, ![m, n]⟩ (shapeCast ⟨2, ![1, n]⟩ x h1) hb (ix2 a b) = x (ix1 b) := by
  have e1 := broadcastTo_apply (shapeCast ⟨2, ![1, n]⟩ x h1) hb (ix2 a b) (ix2 (0 : Fin 1) b) (by
    intro ax
    match ax with
    | ⟨0, _⟩ => rfl
    | ⟨1, _⟩ =>
      show b.val = if n = 1 then 0 else b.val
      split
      · have := b.isLt; omega
      · rfl)
  have e2 := shapeCast_apply x h1 (ix2 (0 : Fin 1) b) (ix1 b) (by
    rw [Shape.rowMajor_val_two, Shape.rowMajor_val_one]; show b.val = 0 * n + b.val; omega)
  exact e1.trans e2

/-- The host's spelling: the vector broadcast to one row (along axis 1) and that row broadcast down m rows, read at
    (a, b), is the vector at b. -/
theorem hostRowBroadcast_apply {α : Type} (x : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![m, n]⟩ ![0, 1]) (a : Fin m) (b : Fin n) :
    broadcastInDim ⟨2, ![m, n]⟩ ![0, 1] h2 (broadcastInDim ⟨2, ![1, n]⟩ ![1] h1 x) (ix2 a b) = x (ix1 b) := by
  have e1 := broadcastInDim_apply ![0, 1] h2 (broadcastInDim ⟨2, ![1, n]⟩ ![1] h1 x) (ix2 a b) (ix2 (0 : Fin 1) b) (by
    intro ax
    match ax with
    | ⟨0, _⟩ => rfl
    | ⟨1, _⟩ =>
      show b.val = if n = 1 then 0 else b.val
      split
      · have := b.isLt; omega
      · rfl)
  have e2 := broadcastInDim_apply ![1] h1 x (ix2 (0 : Fin 1) b) (ix1 b) (by
    intro ax
    match ax with
    | ⟨0, _⟩ =>
      show b.val = if n = 1 then 0 else b.val
      split
      · have := b.isLt; omega
      · rfl)
  exact e1.trans e2

/-! ## A dense layer and a two-layer perceptron, one output entry from one input row -/

/-- Entry q of x · W + b, for one row x. -/
noncomputable def lin {k n : Nat} (x : Fin k → EReal) (W : FVec Ideal ⟨2, ![k, n]⟩ .f32) (b : FVec Ideal ⟨1, ![n]⟩ .f32)
    (q : Fin n) : EReal :=
  (∑ c : Fin k, x c * W (ix2 c q)) + b (ix1 q)

/-- Entry q of max(x · W₁ + b₁, 0) · W₂ + b₂, for one row x. -/
noncomputable def mlp {k h n : Nat} (x : Fin k → EReal) (W₁ : FVec Ideal ⟨2, ![k, h]⟩ .f32) (b₁ : FVec Ideal ⟨1, ![h]⟩ .f32)
    (W₂ : FVec Ideal ⟨2, ![h, n]⟩ .f32) (b₂ : FVec Ideal ⟨1, ![n]⟩ .f32) (q : Fin n) : EReal :=
  lin (fun j => max (lin x W₁ b₁ j) 0) W₂ b₂ q

/-- A kernel's dense layer on a block of rows, read at (p, q). -/
theorem dense_apply (w : DotDims.WF ⟨2, ![m, k]⟩ ⟨2, ![k, n]⟩ ⟨2, ![m, n]⟩ [1] [0] [0] [1] [] [])
    (prec : Option ContractPrecision) (A : FVec Ideal ⟨2, ![m, k]⟩ .f32) (W : FVec Ideal ⟨2, ![k, n]⟩ .f32)
    (b : FVec Ideal ⟨1, ![n]⟩ .f32)
    (h1 : (⟨1, ![n]⟩ : Shape).ShapeCasts ⟨2, ![1, n]⟩) (hb : (⟨2, ![1, n]⟩ : Shape).Broadcasts ⟨2, ![m, n]⟩)
    (p : Fin m) (q : Fin n) :
    addf (matmul (⟨[1], [0], [0], [1], [], [], w⟩ : DotDims ⟨2, ![m, k]⟩ ⟨2, ![k, n]⟩ ⟨2, ![m, n]⟩) prec A W
        (constant (F := Ideal) ⟨2, ![m, n]⟩ .f32 0x00000000#32))
      (broadcastTo ⟨2, ![m, n]⟩ (shapeCast ⟨2, ![1, n]⟩ b h1) hb) (ix2 p q)
      = lin (fun c => A (ix2 p c)) W b q := by
  rw [addf_apply, matmul_zero_apply, rowBroadcast_apply]
  rfl

/-- The host's dense layer on a whole array, read at (p, q). -/
theorem hostDense_apply (w : DotDims.WF ⟨2, ![m, k]⟩ ⟨2, ![k, n]⟩ ⟨2, ![m, n]⟩ [1] [0] [0] [1] [] [])
    (prec : Option ContractPrecision) (A : FVec Ideal ⟨2, ![m, k]⟩ .f32) (W : FVec Ideal ⟨2, ![k, n]⟩ .f32)
    (b : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![m, n]⟩ ![0, 1]) (p : Fin m) (q : Fin n) :
    addf (Host.dotGeneral (⟨[1], [0], [0], [1], [], [], w⟩ : DotDims ⟨2, ![m, k]⟩ ⟨2, ![k, n]⟩ ⟨2, ![m, n]⟩) prec A W)
      (broadcastInDim ⟨2, ![m, n]⟩ ![0, 1] h2 (broadcastInDim ⟨2, ![1, n]⟩ ![1] h1 b)) (ix2 p q)
      = lin (fun c => A (ix2 p c)) W b q := by
  rw [addf_apply, dotGeneral_apply, hostRowBroadcast_apply]
  rfl

/-- A kernel's rectifier: the maximum with a splat of the zero word, at an index. -/
theorem relu_apply {s : Shape} (X : FVec Ideal s .f32) (i : s.Idx) :
    maximumf X (broadcast s (Scalar.ofBits (F := Ideal) .f32 0x00000000#32)) i = max (X i) 0 := by
  rw [maximumf_apply, broadcast_apply]
  show max (X i) (Ideal.ofBits .f32 0x00000000#32) = _
  rw [Ideal.ofBits_zero_f32]

/-- The host's rectifier: the maximum with the broadcast of the zero constant, at an index. -/
theorem hostRelu_apply {s : Shape} (X : FVec Ideal s .f32)
    (h : (⟨0, ![]⟩ : Shape).BroadcastsInDim s (![] : Fin 0 → Fin s.rank)) (i : s.Idx) :
    maximumf X (broadcastInDim s ![] h (constant (F := Ideal) ⟨0, ![]⟩ .f32 0x00000000#32)) i = max (X i) 0 := by
  rw [maximumf_apply]
  show max (X i) (Ideal.ofBits .f32 0x00000000#32) = _
  rw [Ideal.ofBits_zero_f32]

/-- A kernel's two-layer perceptron on a block of rows, read at (p, q). -/
theorem mlp_apply {h : Nat} (w₁ : DotDims.WF ⟨2, ![m, k]⟩ ⟨2, ![k, h]⟩ ⟨2, ![m, h]⟩ [1] [0] [0] [1] [] [])
    (w₂ : DotDims.WF ⟨2, ![m, h]⟩ ⟨2, ![h, n]⟩ ⟨2, ![m, n]⟩ [1] [0] [0] [1] [] [])
    (prec₁ prec₂ : Option ContractPrecision) (A : FVec Ideal ⟨2, ![m, k]⟩ .f32)
    (W₁ : FVec Ideal ⟨2, ![k, h]⟩ .f32) (b₁ : FVec Ideal ⟨1, ![h]⟩ .f32)
    (W₂ : FVec Ideal ⟨2, ![h, n]⟩ .f32) (b₂ : FVec Ideal ⟨1, ![n]⟩ .f32)
    (hs₁ : (⟨1, ![h]⟩ : Shape).ShapeCasts ⟨2, ![1, h]⟩) (hb₁ : (⟨2, ![1, h]⟩ : Shape).Broadcasts ⟨2, ![m, h]⟩)
    (hs₂ : (⟨1, ![n]⟩ : Shape).ShapeCasts ⟨2, ![1, n]⟩) (hb₂ : (⟨2, ![1, n]⟩ : Shape).Broadcasts ⟨2, ![m, n]⟩)
    (p : Fin m) (q : Fin n) :
    addf (matmul (⟨[1], [0], [0], [1], [], [], w₂⟩ : DotDims ⟨2, ![m, h]⟩ ⟨2, ![h, n]⟩ ⟨2, ![m, n]⟩) prec₂
        (maximumf
          (addf (matmul (⟨[1], [0], [0], [1], [], [], w₁⟩ : DotDims ⟨2, ![m, k]⟩ ⟨2, ![k, h]⟩ ⟨2, ![m, h]⟩) prec₁ A W₁
              (constant (F := Ideal) ⟨2, ![m, h]⟩ .f32 0x00000000#32))
            (broadcastTo ⟨2, ![m, h]⟩ (shapeCast ⟨2, ![1, h]⟩ b₁ hs₁) hb₁))
          (broadcast ⟨2, ![m, h]⟩ (Scalar.ofBits (F := Ideal) .f32 0x00000000#32)))
        W₂ (constant (F := Ideal) ⟨2, ![m, n]⟩ .f32 0x00000000#32))
      (broadcastTo ⟨2, ![m, n]⟩ (shapeCast ⟨2, ![1, n]⟩ b₂ hs₂) hb₂) (ix2 p q)
      = mlp (fun c => A (ix2 p c)) W₁ b₁ W₂ b₂ q := by
  rw [dense_apply]
  unfold mlp
  congr 1
  funext j
  rw [relu_apply, dense_apply]

/-- The host's two-layer perceptron on a whole array, read at (p, q). -/
theorem hostMlp_apply {h : Nat} (w₁ : DotDims.WF ⟨2, ![m, k]⟩ ⟨2, ![k, h]⟩ ⟨2, ![m, h]⟩ [1] [0] [0] [1] [] [])
    (w₂ : DotDims.WF ⟨2, ![m, h]⟩ ⟨2, ![h, n]⟩ ⟨2, ![m, n]⟩ [1] [0] [0] [1] [] [])
    (prec₁ prec₂ : Option ContractPrecision) (A : FVec Ideal ⟨2, ![m, k]⟩ .f32)
    (W₁ : FVec Ideal ⟨2, ![k, h]⟩ .f32) (b₁ : FVec Ideal ⟨1, ![h]⟩ .f32)
    (W₂ : FVec Ideal ⟨2, ![h, n]⟩ .f32) (b₂ : FVec Ideal ⟨1, ![n]⟩ .f32)
    (hs₁ : (⟨1, ![h]⟩ : Shape).BroadcastsInDim ⟨2, ![1, h]⟩ ![1])
    (hb₁ : (⟨2, ![1, h]⟩ : Shape).BroadcastsInDim ⟨2, ![m, h]⟩ ![0, 1])
    (hs₂ : (⟨1, ![n]⟩ : Shape).BroadcastsInDim ⟨2, ![1, n]⟩ ![1])
    (hb₂ : (⟨2, ![1, n]⟩ : Shape).BroadcastsInDim ⟨2, ![m, n]⟩ ![0, 1])
    (hz : (⟨0, ![]⟩ : Shape).BroadcastsInDim ⟨2, ![m, h]⟩ (![] : Fin 0 → Fin 2))
    (p : Fin m) (q : Fin n) :
    addf (Host.dotGeneral (⟨[1], [0], [0], [1], [], [], w₂⟩ : DotDims ⟨2, ![m, h]⟩ ⟨2, ![h, n]⟩ ⟨2, ![m, n]⟩) prec₂
        (maximumf
          (addf (Host.dotGeneral (⟨[1], [0], [0], [1], [], [], w₁⟩ : DotDims ⟨2, ![m, k]⟩ ⟨2, ![k, h]⟩ ⟨2, ![m, h]⟩) prec₁ A W₁)
            (broadcastInDim ⟨2, ![m, h]⟩ ![0, 1] hb₁ (broadcastInDim ⟨2, ![1, h]⟩ ![1] hs₁ b₁)))
          (broadcastInDim ⟨2, ![m, h]⟩ ![] hz (constant (F := Ideal) ⟨0, ![]⟩ .f32 0x00000000#32)))
        W₂)
      (broadcastInDim ⟨2, ![m, n]⟩ ![0, 1] hb₂ (broadcastInDim ⟨2, ![1, n]⟩ ![1] hs₂ b₂)) (ix2 p q)
      = mlp (fun c => A (ix2 p c)) W₁ b₁ W₂ b₂ q := by
  rw [hostDense_apply]
  unfold mlp
  congr 1
  funext j
  rw [hostRelu_apply, hostDense_apply]

end Cert.Dense
-- ==== Proof.PayIdx.lean ====
/-
  The payloads of the dense regions read at an index, at the ideal values: each is one entry of a dense layer
  (Cert.Dense.lin) or of a two-layer perceptron (Cert.Dense.mlp) of one row of the block, with the rectifier written as
  the maximum with zero.
-/
import proofs.«106875_j87694642250037_1_alg».proof.Proof.Gen.KernelIdeal.Skeleton
import proofs.«106875_j87694642250037_1_alg».proof.Proof.LibDense

open scoped BigOperators

namespace Cert.PayIdx

open Idealize.ShloMosaic Idealize.ShloMosaic.ValueIdx Cert.KernelIdeal Cert.KernelIdeal.Gen Cert.Dense

/-- The input projection (region 0): entry (p, q) of x · W + b on a block of 5000 rows. -/
theorem pre0_apply (v0 : Vec Ideal S5000x32 .f32) (v1 : Vec Ideal S32x128 .f32) (v3 : Vec Ideal S128 .f32)
    (p : Fin 5000) (q : Fin 128) :
    k0_pay1 (F := Ideal) v0 v1 v3 (ix2 p q) = lin (fun c => v0 (ix2 p c)) v1 v3 q := by
  unfold k0_pay1
  exact dense_apply dot_S5000x32_S32x128_S5000x128_1_0_0_1_n_n_wf none v0 v1 v3 _ _ p q

/-- A convolution without residual (region 1): entry (p, q) of max(mlp(a + x), 0) on a block of 5000 rows. -/
theorem plain1_apply (v0 v2 : Vec Ideal S5000x128 .f32) (v5 : Vec Ideal S128x128 .f32) (v8 : Vec Ideal S128 .f32)
    (v15 : Vec Ideal S128x128 .f32) (v18 : Vec Ideal S128 .f32) (p : Fin 5000) (q : Fin 128) :
    k1_pay1 (F := Ideal) v0 v2 v5 v8 v15 v18 (ix2 p q)
      = max (mlp (fun c => v0 (ix2 p c) + v2 (ix2 p c)) v5 v8 v15 v18 q) 0 := by
  unfold k1_pay1 dot_S5000x128_S128x128_S5000x128_1_0_0_1_n_n
  simp only [shapeCast_self]
  rw [relu_apply, mlp_apply dot_S5000x128_S128x128_S5000x128_1_0_0_1_n_n_wf dot_S5000x128_S128x128_S5000x128_1_0_0_1_n_n_wf]
  rfl

/-- A convolution with residual (region 2), before the rectifier: entry (p, q) of mlp(a + x) + r. -/
theorem residPre2_apply (v0 v2 : Vec Ideal S5000x128 .f32) (v5 : Vec Ideal S128x128 .f32) (v8 : Vec Ideal S128 .f32)
    (v15 : Vec Ideal S128x128 .f32) (v18 : Vec Ideal S128 .f32) (v23 : Vec Ideal S5000x128 .f32) (p : Fin 5000) (q : Fin 128) :
    k2_pay1 (F := Ideal) v0 v2 v5 v8 v15 v18 v23 (ix2 p q)
      = mlp (fun c => v0 (ix2 p c) + v2 (ix2 p c)) v5 v8 v15 v18 q + v23 (ix2 p q) := by
  unfold k2_pay1 dot_S5000x128_S128x128_S5000x128_1_0_0_1_n_n
  simp only [shapeCast_self]
  rw [addf_apply, mlp_apply dot_S5000x128_S128x128_S5000x128_1_0_0_1_n_n_wf dot_S5000x128_S128x128_S5000x128_1_0_0_1_n_n_wf]
  rfl

/-- The same after the rectifier. -/
theorem resid2_apply (v0 v2 : Vec Ideal S5000x128 .f32) (v5 : Vec Ideal S128x128 .f32) (v8 : Vec Ideal S128 .f32)
    (v15 : Vec Ideal S128x128 .f32) (v18 : Vec Ideal S128 .f32) (v23 : Vec Ideal S5000x128 .f32) (p : Fin 5000) (q : Fin 128) :
    k2_pay2 (F := Ideal) v0 v2 v5 v8 v15 v18 v23 (ix2 p q)
      = max (mlp (fun c => v0 (ix2 p c) + v2 (ix2 p c)) v5 v8 v15 v18 q + v23 (ix2 p q)) 0 := by
  unfold k2_pay2
  rw [relu_apply, residPre2_apply]

/-- A convolution without residual (region 3): entry (p, q) of max(mlp(a + x), 0) on a block of 5000 rows. -/
theorem plain3_apply (v0 v2 : Vec Ideal S5000x128 .f32) (v5 : Vec Ideal S128x128 .f32) (v8 : Vec Ideal S128 .f32)
    (v15 : Vec Ideal S128x128 .f32) (v18 : Vec Ideal S128 .f32) (p : Fin 5000) (q : Fin 128) :
    k3_pay1 (F := Ideal) v0 v2 v5 v8 v15 v18 (ix2 p q)
      = max (mlp (fun c => v0 (ix2 p c) + v2 (ix2 p c)) v5 v8 v15 v18 q) 0 := by
  unfold k3_pay1 dot_S5000x128_S128x128_S5000x128_1_0_0_1_n_n
  simp only [shapeCast_self]
  rw [relu_apply, mlp_apply dot_S5000x128_S128x128_S5000x128_1_0_0_1_n_n_wf dot_S5000x128_S128x128_S5000x128_1_0_0_1_n_n_wf]
  rfl

/-- A convolution with residual (region 4), before the rectifier: entry (p, q) of mlp(a + x) + r. -/
theorem residPre4_apply (v0 v2 : Vec Ideal S5000x128 .f32) (v5 : Vec Ideal S128x128 .f32) (v8 : Vec Ideal S128 .f32)
    (v15 : Vec Ideal S128x128 .f32) (v18 : Vec Ideal S128 .f32) (v23 : Vec Ideal S5000x128 .f32) (p : Fin 5000) (q : Fin 128) :
    k4_pay1 (F := Ideal) v0 v2 v5 v8 v15 v18 v23 (ix2 p q)
      = mlp (fun c => v0 (ix2 p c) + v2 (ix2 p c)) v5 v8 v15 v18 q + v23 (ix2 p q) := by
  unfold k4_pay1 dot_S5000x128_S128x128_S5000x128_1_0_0_1_n_n
  simp only [shapeCast_self]
  rw [addf_apply, mlp_apply dot_S5000x128_S128x128_S5000x128_1_0_0_1_n_n_wf dot_S5000x128_S128x128_S5000x128_1_0_0_1_n_n_wf]
  rfl

/-- The same after the rectifier. -/
theorem resid4_apply (v0 v2 : Vec Ideal S5000x128 .f32) (v5 : Vec Ideal S128x128 .f32) (v8 : Vec Ideal S128 .f32)
    (v15 : Vec Ideal S128x128 .f32) (v18 : Vec Ideal S128 .f32) (v23 : Vec Ideal S5000x128 .f32) (p : Fin 5000) (q : Fin 128) :
    k4_pay2 (F := Ideal) v0 v2 v5 v8 v15 v18 v23 (ix2 p q)
      = max (mlp (fun c => v0 (ix2 p c) + v2 (ix2 p c)) v5 v8 v15 v18 q + v23 (ix2 p q)) 0 := by
  unfold k4_pay2
  rw [relu_apply, residPre4_apply]

/-- The readout perceptron (region 5): entry (p, q) of mlp(x) on a block of 200 rows. -/
theorem post5_apply (v0 : Vec Ideal S200x640 .f32) (v2 : Vec Ideal S640x128 .f32) (v4 : Vec Ideal S128 .f32)
    (v10 : Vec Ideal S128x128 .f32) (v12 : Vec Ideal S128 .f32) (p : Fin 200) (q : Fin 128) :
    k5_pay1 (F := Ideal) v0 v2 v4 v10 v12 (ix2 p q) = mlp (fun c => v0 (ix2 p c)) v2 v4 v10 v12 q := by
  unfold k5_pay1 dot_S200x640_S640x128_S200x128_1_0_0_1_n_n dot_S200x128_S128x128_S200x128_1_0_0_1_n_n
  simp only [shapeCast_self]
  rw [mlp_apply dot_S200x640_S640x128_S200x128_1_0_0_1_n_n_wf dot_S200x128_S128x128_S200x128_1_0_0_1_n_n_wf]

/-- The input projection (region 6): entry (p, q) of x · W + b on a block of 5000 rows. -/
theorem pre6_apply (v0 : Vec Ideal S5000x32 .f32) (v1 : Vec Ideal S32x128 .f32) (v3 : Vec Ideal S128 .f32)
    (p : Fin 5000) (q : Fin 128) :
    k6_pay1 (F := Ideal) v0 v1 v3 (ix2 p q) = lin (fun c => v0 (ix2 p c)) v1 v3 q := by
  unfold k6_pay1
  exact dense_apply dot_S5000x32_S32x128_S5000x128_1_0_0_1_n_n_wf none v0 v1 v3 _ _ p q

/-- A convolution without residual (region 7): entry (p, q) of max(mlp(a + x), 0) on a block of 5000 rows. -/
theorem plain7_apply (v0 v2 : Vec Ideal S5000x128 .f32) (v5 : Vec Ideal S128x128 .f32) (v8 : Vec Ideal S128 .f32)
    (v15 : Vec Ideal S128x128 .f32) (v18 : Vec Ideal S128 .f32) (p : Fin 5000) (q : Fin 128) :
    k7_pay1 (F := Ideal) v0 v2 v5 v8 v15 v18 (ix2 p q)
      = max (mlp (fun c => v0 (ix2 p c) + v2 (ix2 p c)) v5 v8 v15 v18 q) 0 := by
  unfold k7_pay1 dot_S5000x128_S128x128_S5000x128_1_0_0_1_n_n
  simp only [shapeCast_self]
  rw [relu_apply, mlp_apply dot_S5000x128_S128x128_S5000x128_1_0_0_1_n_n_wf dot_S5000x128_S128x128_S5000x128_1_0_0_1_n_n_wf]
  rfl

/-- A convolution with residual (region 8), before the rectifier: entry (p, q) of mlp(a + x) + r. -/
theorem residPre8_apply (v0 v2 : Vec Ideal S5000x128 .f32) (v5 : Vec Ideal S128x128 .f32) (v8 : Vec Ideal S128 .f32)
    (v15 : Vec Ideal S128x128 .f32) (v18 : Vec Ideal S128 .f32) (v23 : Vec Ideal S5000x128 .f32) (p : Fin 5000) (q : Fin 128) :
    k8_pay1 (F := Ideal) v0 v2 v5 v8 v15 v18 v23 (ix2 p q)
      = mlp (fun c => v0 (ix2 p c) + v2 (ix2 p c)) v5 v8 v15 v18 q + v23 (ix2 p q) := by
  unfold k8_pay1 dot_S5000x128_S128x128_S5000x128_1_0_0_1_n_n
  simp only [shapeCast_self]
  rw [addf_apply, mlp_apply dot_S5000x128_S128x128_S5000x128_1_0_0_1_n_n_wf dot_S5000x128_S128x128_S5000x128_1_0_0_1_n_n_wf]
  rfl

/-- The same after the rectifier. -/
theorem resid8_apply (v0 v2 : Vec Ideal S5000x128 .f32) (v5 : Vec Ideal S128x128 .f32) (v8 : Vec Ideal S128 .f32)
    (v15 : Vec Ideal S128x128 .f32) (v18 : Vec Ideal S128 .f32) (v23 : Vec Ideal S5000x128 .f32) (p : Fin 5000) (q : Fin 128) :
    k8_pay2 (F := Ideal) v0 v2 v5 v8 v15 v18 v23 (ix2 p q)
      = max (mlp (fun c => v0 (ix2 p c) + v2 (ix2 p c)) v5 v8 v15 v18 q + v23 (ix2 p q)) 0 := by
  unfold k8_pay2
  rw [relu_apply, residPre8_apply]

/-- A convolution without residual (region 9): entry (p, q) of max(mlp(a + x), 0) on a block of 5000 rows. -/
theorem plain9_apply (v0 v2 : Vec Ideal S5000x128 .f32) (v5 : Vec Ideal S128x128 .f32) (v8 : Vec Ideal S128 .f32)
    (v15 : Vec Ideal S128x128 .f32) (v18 : Vec Ideal S128 .f32) (p : Fin 5000) (q : Fin 128) :
    k9_pay1 (F := Ideal) v0 v2 v5 v8 v15 v18 (ix2 p q)
      = max (mlp (fun c => v0 (ix2 p c) + v2 (ix2 p c)) v5 v8 v15 v18 q) 0 := by
  unfold k9_pay1 dot_S5000x128_S128x128_S5000x128_1_0_0_1_n_n
  simp only [shapeCast_self]
  rw [relu_apply, mlp_apply dot_S5000x128_S128x128_S5000x128_1_0_0_1_n_n_wf dot_S5000x128_S128x128_S5000x128_1_0_0_1_n_n_wf]
  rfl

/-- A convolution with residual (region 10), before the rectifier: entry (p, q) of mlp(a + x) + r. -/
theorem residPre10_apply (v0 v2 : Vec Ideal S5000x128 .f32) (v5 : Vec Ideal S128x128 .f32) (v8 : Vec Ideal S128 .f32)
    (v15 : Vec Ideal S128x128 .f32) (v18 : Vec Ideal S128 .f32) (v23 : Vec Ideal S5000x128 .f32) (p : Fin 5000) (q : Fin 128) :
    k10_pay1 (F := Ideal) v0 v2 v5 v8 v15 v18 v23 (ix2 p q)
      = mlp (fun c => v0 (ix2 p c) + v2 (ix2 p c)) v5 v8 v15 v18 q + v23 (ix2 p q) := by
  unfold k10_pay1 dot_S5000x128_S128x128_S5000x128_1_0_0_1_n_n
  simp only [shapeCast_self]
  rw [addf_apply, mlp_apply dot_S5000x128_S128x128_S5000x128_1_0_0_1_n_n_wf dot_S5000x128_S128x128_S5000x128_1_0_0_1_n_n_wf]
  rfl

/-- The same after the rectifier. -/
theorem resid10_apply (v0 v2 : Vec Ideal S5000x128 .f32) (v5 : Vec Ideal S128x128 .f32) (v8 : Vec Ideal S128 .f32)
    (v15 : Vec Ideal S128x128 .f32) (v18 : Vec Ideal S128 .f32) (v23 : Vec Ideal S5000x128 .f32) (p : Fin 5000) (q : Fin 128) :
    k10_pay2 (F := Ideal) v0 v2 v5 v8 v15 v18 v23 (ix2 p q)
      = max (mlp (fun c => v0 (ix2 p c) + v2 (ix2 p c)) v5 v8 v15 v18 q + v23 (ix2 p q)) 0 := by
  unfold k10_pay2
  rw [relu_apply, residPre10_apply]

/-- The readout perceptron (region 11): entry (p, q) of mlp(x) on a block of 200 rows. -/
theorem post11_apply (v0 : Vec Ideal S200x640 .f32) (v2 : Vec Ideal S640x128 .f32) (v4 : Vec Ideal S128 .f32)
    (v10 : Vec Ideal S128x128 .f32) (v12 : Vec Ideal S128 .f32) (p : Fin 200) (q : Fin 128) :
    k11_pay1 (F := Ideal) v0 v2 v4 v10 v12 (ix2 p q) = mlp (fun c => v0 (ix2 p c)) v2 v4 v10 v12 q := by
  unfold k11_pay1 dot_S200x640_S640x128_S200x128_1_0_0_1_n_n dot_S200x128_S128x128_S200x128_1_0_0_1_n_n
  simp only [shapeCast_self]
  rw [mlp_apply dot_S200x640_S640x128_S200x128_1_0_0_1_n_n_wf dot_S200x128_S128x128_S200x128_1_0_0_1_n_n_wf]

end Cert.PayIdx
-- ==== Proof.LayerIdx.lean ====
/-
  The reference's dense layers read at an index, at the ideal values: each entry of the input projection, of a graph
  convolution's perceptron (with and without residual) and of the readout perceptron is Cert.Dense.lin or Cert.Dense.mlp
  of one row of the layer's input.
-/
import proofs.«106875_j87694642250037_1_alg».proof.Proof.Layers
import proofs.«106875_j87694642250037_1_alg».proof.Proof.LibDense

open scoped BigOperators

namespace Cert.LayerIdx

open Idealize.ShloMosaic Idealize.ShloMosaic.ValueIdx Cert.ReferenceIdeal Cert.Dense

variable [Cert.ReferenceIdeal.Facts]
open Cert.ReferenceIdeal.Facts₀ Cert.ReferenceIdeal.Facts

/-- The input projection at (r, q). -/
theorem pre_apply (x : Layers.T S50000x32) (pw : Layers.T S32x128) (pb : Layers.T S128) (r : Fin 50000) (q : Fin 128) :
    Layers.pre x pw pb (ix2 r q) = lin (fun c => x (ix2 r c)) pw pb q := by
  unfold Layers.pre Layers.bias dot_S50000x32_S32x128_S50000x128_1_0_0_1_n_n
  rw [hostDense_apply]

/-- A convolution's perceptron at (r, q): of the row r of ag + x. -/
theorem mlp_apply (x ag : Layers.T S50000x128) (W1 : Layers.T S128x128) (B1 : Layers.T S128) (W2 : Layers.T S128x128)
    (B2 : Layers.T S128) (r : Fin 50000) (q : Fin 128) :
    Layers.mlp x ag W1 B1 W2 B2 (ix2 r q) = mlp (fun c => ag (ix2 r c) + x (ix2 r c)) W1 B1 W2 B2 q := by
  unfold Layers.mlp Layers.relu Layers.zeroN Layers.bias dot_S50000x128_S128x128_S50000x128_1_0_0_1_n_n
  rw [hostMlp_apply]
  rfl

/-- A convolution without residual at (r, q). -/
theorem ginPlain_apply (x ag : Layers.T S50000x128) (W1 : Layers.T S128x128) (B1 : Layers.T S128) (W2 : Layers.T S128x128)
    (B2 : Layers.T S128) (r : Fin 50000) (q : Fin 128) :
    Layers.ginPlain x ag W1 B1 W2 B2 (ix2 r q) = max (mlp (fun c => ag (ix2 r c) + x (ix2 r c)) W1 B1 W2 B2 q) 0 := by
  unfold Layers.ginPlain Layers.relu Layers.zeroN
  rw [hostRelu_apply, mlp_apply]

/-- A convolution with residual, before the rectifier, at (r, q). -/
theorem ginResidPre_apply (x ag xr : Layers.T S50000x128) (W1 : Layers.T S128x128) (B1 : Layers.T S128)
    (W2 : Layers.T S128x128) (B2 : Layers.T S128) (r : Fin 50000) (q : Fin 128) :
    Layers.ginResidPre x ag xr W1 B1 W2 B2 (ix2 r q)
      = mlp (fun c => ag (ix2 r c) + x (ix2 r c)) W1 B1 W2 B2 q + xr (ix2 r q) := by
  unfold Layers.ginResidPre
  rw [addf_apply, mlp_apply]

/-- A convolution with residual at (r, q). -/
theorem ginResid_apply (x ag xr : Layers.T S50000x128) (W1 : Layers.T S128x128) (B1 : Layers.T S128)
    (W2 : Layers.T S128x128) (B2 : Layers.T S128) (r : Fin 50000) (q : Fin 128) :
    Layers.ginResid x ag xr W1 B1 W2 B2 (ix2 r q)
      = max (mlp (fun c => ag (ix2 r c) + x (ix2 r c)) W1 B1 W2 B2 q + xr (ix2 r q)) 0 := by
  unfold Layers.ginResid Layers.relu Layers.zeroN
  rw [hostRelu_apply, ginResidPre_apply]

/-- The readout perceptron at (r, q). -/
theorem post_apply (p : Layers.T S1000x640) (W1 : Layers.T S640x128) (B1 : Layers.T S128) (W2 : Layers.T S128x128)
    (B2 : Layers.T S128) (r : Fin 1000) (q : Fin 128) :
    Layers.post p W1 B1 W2 B2 (ix2 r q) = mlp (fun c => p (ix2 r c)) W1 B1 W2 B2 q := by
  unfold Layers.post Layers.reluG Layers.biasG dot_S1000x128_S128x128_S1000x128_1_0_0_1_n_n
    dot_S1000x640_S640x128_S1000x128_1_0_0_1_n_n
  rw [hostMlp_apply]

end Cert.LayerIdx
-- ==== Proof.IVal0.lean ====
/-
  Region 0: each output array after the region is the reference's layer function of the region's input arrays. Each grid
  point's block of an output is the payload of the point's input blocks; row p of a row-tiled block at point t is row
  5000·t + p of its array, the weight and bias windows hold their whole arrays at every point, and the 10 blocks tile the array.
-/
import proofs.«106875_j87694642250037_1_alg».proof.Proof.IReg0
import proofs.«106875_j87694642250037_1_alg».proof.Proof.PayIdx
import proofs.«106875_j87694642250037_1_alg».proof.Proof.LayerIdx
import Idealize.ShloMosaic.Lib.Pipeline.Value

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

variable [Cert.ReferenceIdeal.Facts]

variable (V : (c : Dev nD) → (b : Ref sig .tc) → Buf (Elt Ideal) ((c : Thread nD τ).loc b))

private theorem hz2 : (![0, 0] : Fin 2 → Nat) = fun _ => 0 := funext fun a => by fin_cases a <;> rfl
private theorem hz1 : (![0] : Fin 1 → Nat) = fun _ => 0 := funext fun a => by fin_cases a <;> rfl

/-- The printed index maps over the grid: a row-tiled window's block index is (t, 0), a weight or bias window's is zero. -/
theorem idx0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 1) = 0
    ∧ win0_3.index t (0 : Fin 2) = t.val
    ∧ win0_3.index t (1 : Fin 2) = 0 :=
  (by decide +kernel : ∀ t : Fin grid0.N, _)

/-- Row p of window 0's block at point t is row 5000·t + p of its array. -/
theorem iblk0_0_apply (c : Dev nD) (t : Fin cfg0.N) (p : Fin 5000) (k : Fin 32) (r : Fin 50000)
    (hr : r.val = t.val * 5000 + p.val) :
    (iblk0 V c 0 t : Vec Ideal S5000x32 .f32) (ix2 p k)
      = (V c main_arg0 : S50000x32.Idx → Elt Ideal .f32) (ix2 r k) := by
  obtain ⟨e0_0, e0_1, e1_0, e1_1, e2_0, e3_0, e3_1⟩ := idx0 t
  unfold iblk0
  rw [View.read_apply]
  show V c main_arg0 _ = V c main_arg0 _
  congr 1
  funext a; apply Fin.ext
  match a with
  | ⟨0, _⟩ => show win0_0.index t 0 * 5000 + 1 * p.val = r.val; rw [e0_0, hr]; omega
  | ⟨1, _⟩ => show win0_0.index t 1 * 32 + 1 * k.val = k.val; rw [e0_1]; omega

/-- Window 1 holds its whole array at every point. -/
theorem iblk0_1_eq (c : Dev nD) (t : Fin cfg0.N) :
    (iblk0 V c 1 t : Vec Ideal S32x128 .f32) = (V c main_arg6 : S32x128.Idx → Elt Ideal .f32) := by
  obtain ⟨e0_0, e0_1, e1_0, e1_1, e2_0, e3_0, e3_1⟩ := idx0 t
  funext x
  unfold iblk0
  rw [View.read_apply]
  show V c main_arg6 _ = V c main_arg6 x
  congr 1
  funext a; apply Fin.ext
  match a with
  | ⟨0, _⟩ => show win0_1.index t 0 * 32 + 1 * (x 0).val = (x 0).val; rw [e1_0]; omega
  | ⟨1, _⟩ => show win0_1.index t 1 * 128 + 1 * (x 1).val = (x 1).val; rw [e1_1]; omega

/-- Window 2 holds its whole array at every point. -/
theorem iblk0_2_eq (c : Dev nD) (t : Fin cfg0.N) :
    (iblk0 V c 2 t : Vec Ideal S128 .f32) = (V c main_arg7 : S128.Idx → Elt Ideal .f32) := by
  obtain ⟨e0_0, e0_1, e1_0, e1_1, e2_0, e3_0, e3_1⟩ := idx0 t
  funext x
  unfold iblk0
  rw [View.read_apply]
  show V c main_arg7 _ = V c main_arg7 x
  congr 1
  funext a; apply Fin.ext
  match a with
  | ⟨0, _⟩ => show win0_2.index t 0 * 128 + 1 * (x 0).val = (x 0).val; rw [e2_0]; omega

/-- What point t writes back to window 3 is block t of the input projection of the region's input arrays. -/
theorem flushed0_3 (c : Dev nD) (t : Fin cfg0.N) :
    (dat0 V c).flushed 3 t = ((cfg0.win 3).blk t).view.read (Elt Ideal)
      (Cert.Layers.pre (V c main_arg0) (V c main_arg6) (V c main_arg7)) := by
  show (cfg0.win 3).cut (grid0.coords t) ((dat0 V c).after 3 t) = _
  rw [after0_3]
  unfold out0_3
  rw [View.canon_unit_zero hz2]
  simp only [View.ld_unit_zero (S := S5000x32) hz2, View.ld_unit_zero (S := S32x128) hz2, View.ld_unit_zero (S := S128) hz1]
  rw [iblk0_1_eq, iblk0_2_eq]
  obtain ⟨e0_0, e0_1, e1_0, e1_1, e2_0, e3_0, e3_1⟩ := idx0 t
  have ht : t.val < 10 := t.isLt
  funext j
  obtain ⟨p, q, rfl⟩ : ∃ (p : Fin 5000) (q : Fin 128), j = ix2 p q := ⟨j 0, j 1, eq_ix2 j⟩
  show k0_pay1 (iblk0 V c 0 t) (V c main_arg6) (V c main_arg7) (ix2 p q)
    = Cert.Layers.pre (V c main_arg0) (V c main_arg6) (V c main_arg7) (((cfg0.win 3).blk t).view.emb (ix2 p q))
  have hrow : t.val * 5000 + p.val < 50000 := by have := p.isLt; omega
  have hr : ((cfg0.win 3).blk t).view.emb (ix2 p q)
      = ix2 (⟨t.val * 5000 + p.val, hrow⟩ : Fin 50000) q := by
    funext a; apply Fin.ext
    match a with
    | ⟨0, _⟩ => show win0_3.index t 0 * 5000 + 1 * p.val = t.val * 5000 + p.val; rw [e3_0]; omega
    | ⟨1, _⟩ => show win0_3.index t 1 * 128 + 1 * q.val = q.val; rw [e3_1]; omega
  rw [hr, Cert.LayerIdx.pre_apply, Cert.PayIdx.pre0_apply]
  refine congrArg (fun f => Cert.Dense.lin f _ _ q) (funext fun k => ?_)
  exact iblk0_0_apply V c t p k ⟨t.val * 5000 + p.val, hrow⟩ rfl

/-- The 10 blocks of window 3 tile its array. -/
theorem cover0_3 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hlt : (i 0).val / 5000 < 10 := by omega
  refine ⟨⟨(i 0).val / 5000, hlt⟩, flush0_3 _, ?_⟩
  obtain ⟨e0_0, e0_1, e1_0, e1_1, e2_0, e3_0, e3_1⟩ := idx0 ⟨(i 0).val / 5000, hlt⟩
  show i ∈ ((View.whole main_v4).slice (win0_3.rect ⟨(i 0).val / 5000, hlt⟩)).set
  rw [View.set_slice_whole, Rect.mem_set_unit]
  intro a
  match a with
  | ⟨0, _⟩ =>
    show win0_3.index _ (0 : Fin 2) * 5000 ≤ (i 0).val ∧ (i 0).val < win0_3.index _ (0 : Fin 2) * 5000 + 5000
    rw [e3_0]; show (i 0).val / 5000 * 5000 ≤ (i 0).val ∧ (i 0).val < (i 0).val / 5000 * 5000 + 5000; omega
  | ⟨1, _⟩ =>
    show win0_3.index _ (1 : Fin 2) * 128 ≤ (i 1).val ∧ (i 1).val < win0_3.index _ (1 : Fin 2) * 128 + 128
    rw [e3_1]; omega

/-- Window 3's array after region 0 is the input projection of the region's input arrays. -/
theorem arrAt0_3 (c : Dev nD) :
    (dat0 V c).arrAt 3 cfg0.N = Cert.Layers.pre (V c main_arg0) (V c main_arg6) (V c main_arg7) :=
  (dat0 V c).arrAt_eq_of_cover 3 (Cert.Layers.pre (V c main_arg0) (V c main_arg6) (V c main_arg7))
    (fun t _ => flushed0_3 V c t) (cover0_3)

end Cert.KernelIdeal.HandVal

end
-- ==== Proof.IVal1.lean ====
/-
  Region 1: each output array after the region is the reference's layer function of the region's input arrays. Each grid
  point's block of an output is the payload of the point's input blocks; row p of a row-tiled block at point t is row
  5000·t + p of its array, the weight and bias windows hold their whole arrays at every point, and the 10 blocks tile the array.
-/
import proofs.«106875_j87694642250037_1_alg».proof.Proof.IReg1
import proofs.«106875_j87694642250037_1_alg».proof.Proof.PayIdx
import proofs.«106875_j87694642250037_1_alg».proof.Proof.LayerIdx
import Idealize.ShloMosaic.Lib.Pipeline.Value

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

variable [Cert.ReferenceIdeal.Facts]

variable (V : (c : Dev nD) → (b : Ref sig .tc) → Buf (Elt Ideal) ((c : Thread nD τ).loc b))

private theorem hz2 : (![0, 0] : Fin 2 → Nat) = fun _ => 0 := funext fun a => by fin_cases a <;> rfl
private theorem hz1 : (![0] : Fin 1 → Nat) = fun _ => 0 := funext fun a => by fin_cases a <;> rfl

/-- The printed index maps over the grid: a row-tiled window's block index is (t, 0), a weight or bias window's is zero. -/
theorem idx1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 1) = 0
    ∧ win1_4.index t (0 : Fin 2) = 0
    ∧ win1_4.index t (1 : Fin 2) = 0
    ∧ win1_5.index t (0 : Fin 1) = 0
    ∧ win1_6.index t (0 : Fin 2) = t.val
    ∧ win1_6.index t (1 : Fin 2) = 0 :=
  (by decide +kernel : ∀ t : Fin grid1.N, _)

/-- Row p of window 0's block at point t is row 5000·t + p of its array. -/
theorem iblk1_0_apply (c : Dev nD) (t : Fin cfg1.N) (p : Fin 5000) (k : Fin 128) (r : Fin 50000)
    (hr : r.val = t.val * 5000 + p.val) :
    (iblk1 V c 0 t : Vec Ideal S5000x128 .f32) (ix2 p k)
      = (V c main_v4 : S50000x128.Idx → Elt Ideal .f32) (ix2 r k) := by
  obtain ⟨e0_0, e0_1, e1_0, e1_1, e2_0, e2_1, e3_0, e4_0, e4_1, e5_0, e6_0, e6_1⟩ := idx1 t
  unfold iblk1
  rw [View.read_apply]
  show V c main_v4 _ = V c main_v4 _
  congr 1
  funext a; apply Fin.ext
  match a with
  | ⟨0, _⟩ => show win1_0.index t 0 * 5000 + 1 * p.val = r.val; rw [e0_0, hr]; omega
  | ⟨1, _⟩ => show win1_0.index t 1 * 128 + 1 * k.val = k.val; rw [e0_1]; omega

/-- Row p of window 1's block at point t is row 5000·t + p of its array. -/
theorem iblk1_1_apply (c : Dev nD) (t : Fin cfg1.N) (p : Fin 5000) (k : Fin 128) (r : Fin 50000)
    (hr : r.val = t.val * 5000 + p.val) :
    (iblk1 V c 1 t : Vec Ideal S5000x128 .f32) (ix2 p k)
      = (V c main_v14 : S50000x128.Idx → Elt Ideal .f32) (ix2 r k) := by
  obtain ⟨e0_0, e0_1, e1_0, e1_1, e2_0, e2_1, e3_0, e4_0, e4_1, e5_0, e6_0, e6_1⟩ := idx1 t
  unfold iblk1
  rw [View.read_apply]
  show V c main_v14 _ = V c main_v14 _
  congr 1
  funext a; apply Fin.ext
  match a with
  | ⟨0, _⟩ => show win1_1.index t 0 * 5000 + 1 * p.val = r.val; rw [e1_0, hr]; omega
  | ⟨1, _⟩ => show win1_1.index t 1 * 128 + 1 * k.val = k.val; rw [e1_1]; omega

/-- Window 2 holds its whole array at every point. -/
theorem iblk1_2_eq (c : Dev nD) (t : Fin cfg1.N) :
    (iblk1 V c 2 t : Vec Ideal S128x128 .f32) = (V c main_v16 : S128x128.Idx → Elt Ideal .f32) := by
  obtain ⟨e0_0, e0_1, e1_0, e1_1, e2_0, e2_1, e3_0, e4_0, e4_1, e5_0, e6_0, e6_1⟩ := idx1 t
  funext x
  unfold iblk1
  rw [View.read_apply]
  show V c main_v16 _ = V c main_v16 x
  congr 1
  funext a; apply Fin.ext
  match a with
  | ⟨0, _⟩ => show win1_2.index t 0 * 128 + 1 * (x 0).val = (x 0).val; rw [e2_0]; omega
  | ⟨1, _⟩ => show win1_2.index t 1 * 128 + 1 * (x 1).val = (x 1).val; rw [e2_1]; omega

/-- Window 3 holds its whole array at every point. -/
theorem iblk1_3_eq (c : Dev nD) (t : Fin cfg1.N) :
    (iblk1 V c 3 t : Vec Ideal S128 .f32) = (V c main_v18 : S128.Idx → Elt Ideal .f32) := by
  obtain ⟨e0_0, e0_1, e1_0, e1_1, e2_0, e2_1, e3_0, e4_0, e4_1, e5_0, e6_0, e6_1⟩ := idx1 t
  funext x
  unfold iblk1
  rw [View.read_apply]
  show V c main_v18 _ = V c main_v18 x
  congr 1
  funext a; apply Fin.ext
  match a with
  | ⟨0, _⟩ => show win1_3.index t 0 * 128 + 1 * (x 0).val = (x 0).val; rw [e3_0]; omega

/-- Window 4 holds its whole array at every point. -/
theorem iblk1_4_eq (c : Dev nD) (t : Fin cfg1.N) :
    (iblk1 V c 4 t : Vec Ideal S128x128 .f32) = (V c main_v20 : S128x128.Idx → Elt Ideal .f32) := by
  obtain ⟨e0_0, e0_1, e1_0, e1_1, e2_0, e2_1, e3_0, e4_0, e4_1, e5_0, e6_0, e6_1⟩ := idx1 t
  funext x
  unfold iblk1
  rw [View.read_apply]
  show V c main_v20 _ = V c main_v20 x
  congr 1
  funext a; apply Fin.ext
  match a with
  | ⟨0, _⟩ => show win1_4.index t 0 * 128 + 1 * (x 0).val = (x 0).val; rw [e4_0]; omega
  | ⟨1, _⟩ => show win1_4.index t 1 * 128 + 1 * (x 1).val = (x 1).val; rw [e4_1]; omega

/-- Window 5 holds its whole array at every point. -/
theorem iblk1_5_eq (c : Dev nD) (t : Fin cfg1.N) :
    (iblk1 V c 5 t : Vec Ideal S128 .f32) = (V c main_v22 : S128.Idx → Elt Ideal .f32) := by
  obtain ⟨e0_0, e0_1, e1_0, e1_1, e2_0, e2_1, e3_0, e4_0, e4_1, e5_0, e6_0, e6_1⟩ := idx1 t
  funext x
  unfold iblk1
  rw [View.read_apply]
  show V c main_v22 _ = V c main_v22 x
  congr 1
  funext a; apply Fin.ext
  match a with
  | ⟨0, _⟩ => show win1_5.index t 0 * 128 + 1 * (x 0).val = (x 0).val; rw [e5_0]; omega

/-- What point t writes back to window 6 is block t of the convolution without residual of the region's input arrays. -/
theorem flushed1_6 (c : Dev nD) (t : Fin cfg1.N) :
    (dat1 V c).flushed 6 t = ((cfg1.win 6).blk t).view.read (Elt Ideal)
      (Cert.Layers.ginPlain (V c main_v4) (V c main_v14) (V c main_v16) (V c main_v18) (V c main_v20) (V c main_v22)) := by
  show (cfg1.win 6).cut (grid1.coords t) ((dat1 V c).after 6 t) = _
  rw [after1_6]
  unfold out1_6
  rw [View.canon_unit_zero hz2]
  simp only [View.ld_unit_zero (S := S5000x128) hz2, View.ld_unit_zero (S := S128x128) hz2, View.ld_unit_zero (S := S128) hz1]
  rw [iblk1_2_eq, iblk1_3_eq, iblk1_4_eq, iblk1_5_eq]
  obtain ⟨e0_0, e0_1, e1_0, e1_1, e2_0, e2_1, e3_0, e4_0, e4_1, e5_0, e6_0, e6_1⟩ := idx1 t
  have ht : t.val < 10 := t.isLt
  funext j
  obtain ⟨p, q, rfl⟩ : ∃ (p : Fin 5000) (q : Fin 128), j = ix2 p q := ⟨j 0, j 1, eq_ix2 j⟩
  show k1_pay1 (iblk1 V c 1 t) (iblk1 V c 0 t) (V c main_v16) (V c main_v18) (V c main_v20) (V c main_v22) (ix2 p q)
    = Cert.Layers.ginPlain (V c main_v4) (V c main_v14) (V c main_v16) (V c main_v18) (V c main_v20) (V c main_v22) (((cfg1.win 6).blk t).view.emb (ix2 p q))
  have hrow : t.val * 5000 + p.val < 50000 := by have := p.isLt; omega
  have hr : ((cfg1.win 6).blk t).view.emb (ix2 p q)
      = ix2 (⟨t.val * 5000 + p.val, hrow⟩ : Fin 50000) q := by
    funext a; apply Fin.ext
    match a with
    | ⟨0, _⟩ => show win1_6.index t 0 * 5000 + 1 * p.val = t.val * 5000 + p.val; rw [e6_0]; omega
    | ⟨1, _⟩ => show win1_6.index t 1 * 128 + 1 * q.val = q.val; rw [e6_1]; omega
  rw [hr, Cert.LayerIdx.ginPlain_apply, Cert.PayIdx.plain1_apply]
  refine congrArg (fun z => max z 0) (congrArg (fun f => Cert.Dense.mlp f _ _ _ _ q) (funext fun k => ?_))
  rw [iblk1_1_apply V c t p k ⟨t.val * 5000 + p.val, hrow⟩ rfl, iblk1_0_apply V c t p k ⟨t.val * 5000 + p.val, hrow⟩ rfl]

/-- The 10 blocks of window 6 tile its array. -/
theorem cover1_6 (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have hlt : (i 0).val / 5000 < 10 := by omega
  refine ⟨⟨(i 0).val / 5000, hlt⟩, flush1_6 _, ?_⟩
  obtain ⟨e0_0, e0_1, e1_0, e1_1, e2_0, e2_1, e3_0, e4_0, e4_1, e5_0, e6_0, e6_1⟩ := idx1 ⟨(i 0).val / 5000, hlt⟩
  show i ∈ ((View.whole main_v23).slice (win1_6.rect ⟨(i 0).val / 5000, hlt⟩)).set
  rw [View.set_slice_whole, Rect.mem_set_unit]
  intro a
  match a with
  | ⟨0, _⟩ =>
    show win1_6.index _ (0 : Fin 2) * 5000 ≤ (i 0).val ∧ (i 0).val < win1_6.index _ (0 : Fin 2) * 5000 + 5000
    rw [e6_0]; show (i 0).val / 5000 * 5000 ≤ (i 0).val ∧ (i 0).val < (i 0).val / 5000 * 5000 + 5000; omega
  | ⟨1, _⟩ =>
    show win1_6.index _ (1 : Fin 2) * 128 ≤ (i 1).val ∧ (i 1).val < win1_6.index _ (1 : Fin 2) * 128 + 128
    rw [e6_1]; omega

/-- Window 6's array after region 1 is the convolution without residual of the region's input arrays. -/
theorem arrAt1_6 (c : Dev nD) :
    (dat1 V c).arrAt 6 cfg1.N = Cert.Layers.ginPlain (V c main_v4) (V c main_v14) (V c main_v16) (V c main_v18) (V c main_v20) (V c main_v22) :=
  (dat1 V c).arrAt_eq_of_cover 6 (Cert.Layers.ginPlain (V c main_v4) (V c main_v14) (V c main_v16) (V c main_v18) (V c main_v20) (V c main_v22))
    (fun t _ => flushed1_6 V c t) (cover1_6)

end Cert.KernelIdeal.HandVal

end
-- ==== Proof.IVal2.lean ====
/-
  Region 2: each output array after the region is the reference's layer function of the region's input arrays. Each grid
  point's block of an output is the payload of the point's input blocks; row p of a row-tiled block at point t is row
  5000·t + p of its array, the weight and bias windows hold their whole arrays at every point, and the 10 blocks tile the array.
-/
import proofs.«106875_j87694642250037_1_alg».proof.Proof.IReg2
import proofs.«106875_j87694642250037_1_alg».proof.Proof.PayIdx
import proofs.«106875_j87694642250037_1_alg».proof.Proof.LayerIdx
import Idealize.ShloMosaic.Lib.Pipeline.Value

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

variable [Cert.ReferenceIdeal.Facts]

variable (V : (c : Dev nD) → (b : Ref sig .tc) → Buf (Elt Ideal) ((c : Thread nD τ).loc b))

private theorem hz2 : (![0, 0] : Fin 2 → Nat) = fun _ => 0 := funext fun a => by fin_cases a <;> rfl
private theorem hz1 : (![0] : Fin 1 → Nat) = fun _ => 0 := funext fun a => by fin_cases a <;> rfl

/-- The printed index maps over the grid: a row-tiled window's block index is (t, 0), a weight or bias window's is zero. -/
theorem idx2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = t.val
    ∧ win2_2.index t (1 : Fin 2) = 0
    ∧ win2_3.index t (0 : Fin 2) = 0
    ∧ win2_3.index t (1 : Fin 2) = 0
    ∧ win2_4.index t (0 : Fin 1) = 0
    ∧ win2_5.index t (0 : Fin 2) = 0
    ∧ win2_5.index t (1 : Fin 2) = 0
    ∧ win2_6.index t (0 : Fin 1) = 0
    ∧ win2_7.index t (0 : Fin 2) = t.val
    ∧ win2_7.index t (1 : Fin 2) = 0
    ∧ win2_8.index t (0 : Fin 2) = t.val
    ∧ win2_8.index t (1 : Fin 2) = 0 :=
  (by decide +kernel : ∀ t : Fin grid2.N, _)

/-- Row p of window 0's block at point t is row 5000·t + p of its array. -/
theorem iblk2_0_apply (c : Dev nD) (t : Fin cfg2.N) (p : Fin 5000) (k : Fin 128) (r : Fin 50000)
    (hr : r.val = t.val * 5000 + p.val) :
    (iblk2 V c 0 t : Vec Ideal S5000x128 .f32) (ix2 p k)
      = (V c main_v23 : S50000x128.Idx → Elt Ideal .f32) (ix2 r k) := by
  obtain ⟨e0_0, e0_1, e1_0, e1_1, e2_0, e2_1, e3_0, e3_1, e4_0, e5_0, e5_1, e6_0, e7_0, e7_1, e8_0, e8_1⟩ := idx2 t
  unfold iblk2
  rw [View.read_apply]
  show V c main_v23 _ = V c main_v23 _
  congr 1
  funext a; apply Fin.ext
  match a with
  | ⟨0, _⟩ => show win2_0.index t 0 * 5000 + 1 * p.val = r.val; rw [e0_0, hr]; omega
  | ⟨1, _⟩ => show win2_0.index t 1 * 128 + 1 * k.val = k.val; rw [e0_1]; omega

/-- Row p of window 1's block at point t is row 5000·t + p of its array. -/
theorem iblk2_1_apply (c : Dev nD) (t : Fin cfg2.N) (p : Fin 5000) (k : Fin 128) (r : Fin 50000)
    (hr : r.val = t.val * 5000 + p.val) :
    (iblk2 V c 1 t : Vec Ideal S5000x128 .f32) (ix2 p k)
      = (V c main_v33 : S50000x128.Idx → Elt Ideal .f32) (ix2 r k) := by
  obtain ⟨e0_0, e0_1, e1_0, e1_1, e2_0, e2_1, e3_0, e3_1, e4_0, e5_0, e5_1, e6_0, e7_0, e7_1, e8_0, e8_1⟩ := idx2 t
  unfold iblk2
  rw [View.read_apply]
  show V c main_v33 _ = V c main_v33 _
  congr 1
  funext a; apply Fin.ext
  match a with
  | ⟨0, _⟩ => show win2_1.index t 0 * 5000 + 1 * p.val = r.val; rw [e1_0, hr]; omega
  | ⟨1, _⟩ => show win2_1.index t 1 * 128 + 1 * k.val = k.val; rw [e1_1]; omega

/-- Row p of window 2's block at point t is row 5000·t + p of its array. -/
theorem iblk2_2_apply (c : Dev nD) (t : Fin cfg2.N) (p : Fin 5000) (k : Fin 128) (r : Fin 50000)
    (hr : r.val = t.val * 5000 + p.val) :
    (iblk2 V c 2 t : Vec Ideal S5000x128 .f32) (ix2 p k)
      = (V c main_v4 : S50000x128.Idx → Elt Ideal .f32) (ix2 r k) := by
  obtain ⟨e0_0, e0_1, e1_0, e1_1, e2_0, e2_1, e3_0, e3_1, e4_0, e5_0, e5_1, e6_0, e7_0, e7_1, e8_0, e8_1⟩ := idx2 t
  unfold iblk2
  rw [View.read_apply]
  show V c main_v4 _ = V c main_v4 _
  congr 1
  funext a; apply Fin.ext
  match a with
  | ⟨0, _⟩ => show win2_2.index t 0 * 5000 + 1 * p.val = r.val; rw [e2_0, hr]; omega
  | ⟨1, _⟩ => show win2_2.index t 1 * 128 + 1 * k.val = k.val; rw [e2_1]; omega

/-- Window 3 holds its whole array at every point. -/
theorem iblk2_3_eq (c : Dev nD) (t : Fin cfg2.N) :
    (iblk2 V c 3 t : Vec Ideal S128x128 .f32) = (V c main_v35 : S128x128.Idx → Elt Ideal .f32) := by
  obtain ⟨e0_0, e0_1, e1_0, e1_1, e2_0, e2_1, e3_0, e3_1, e4_0, e5_0, e5_1, e6_0, e7_0, e7_1, e8_0, e8_1⟩ := idx2 t
  funext x
  unfold iblk2
  rw [View.read_apply]
  show V c main_v35 _ = V c main_v35 x
  congr 1
  funext a; apply Fin.ext
  match a with
  | ⟨0, _⟩ => show win2_3.index t 0 * 128 + 1 * (x 0).val = (x 0).val; rw [e3_0]; omega
  | ⟨1, _⟩ => show win2_3.index t 1 * 128 + 1 * (x 1).val = (x 1).val; rw [e3_1]; omega

/-- Window 4 holds its whole array at every point. -/
theorem iblk2_4_eq (c : Dev nD) (t : Fin cfg2.N) :
    (iblk2 V c 4 t : Vec Ideal S128 .f32) = (V c main_v37 : S128.Idx → Elt Ideal .f32) := by
  obtain ⟨e0_0, e0_1, e1_0, e1_1, e2_0, e2_1, e3_0, e3_1, e4_0, e5_0, e5_1, e6_0, e7_0, e7_1, e8_0, e8_1⟩ := idx2 t
  funext x
  unfold iblk2
  rw [View.read_apply]
  show V c main_v37 _ = V c main_v37 x
  congr 1
  funext a; apply Fin.ext
  match a with
  | ⟨0, _⟩ => show win2_4.index t 0 * 128 + 1 * (x 0).val = (x 0).val; rw [e4_0]; omega

/-- Window 5 holds its whole array at every point. -/
theorem iblk2_5_eq (c : Dev nD) (t : Fin cfg2.N) :
    (iblk2 V c 5 t : Vec Ideal S128x128 .f32) = (V c main_v39 : S128x128.Idx → Elt Ideal .f32) := by
  obtain ⟨e0_0, e0_1, e1_0, e1_1, e2_0, e2_1, e3_0, e3_1, e4_0, e5_0, e5_1, e6_0, e7_0, e7_1, e8_0, e8_1⟩ := idx2 t
  funext x
  unfold iblk2
  rw [View.read_apply]
  show V c main_v39 _ = V c main_v39 x
  congr 1
  funext a; apply Fin.ext
  match a with
  | ⟨0, _⟩ => show win2_5.index t 0 * 128 + 1 * (x 0).val = (x 0).val; rw [e5_0]; omega
  | ⟨1, _⟩ => show win2_5.index t 1 * 128 + 1 * (x 1).val = (x 1).val; rw [e5_1]; omega

/-- Window 6 holds its whole array at every point. -/
theorem iblk2_6_eq (c : Dev nD) (t : Fin cfg2.N) :
    (iblk2 V c 6 t : Vec Ideal S128 .f32) = (V c main_v41 : S128.Idx → Elt Ideal .f32) := by
  obtain ⟨e0_0, e0_1, e1_0, e1_1, e2_0, e2_1, e3_0, e3_1, e4_0, e5_0, e5_1, e6_0, e7_0, e7_1, e8_0, e8_1⟩ := idx2 t
  funext x
  unfold iblk2
  rw [View.read_apply]
  show V c main_v41 _ = V c main_v41 x
  congr 1
  funext a; apply Fin.ext
  match a with
  | ⟨0, _⟩ => show win2_6.index t 0 * 128 + 1 * (x 0).val = (x 0).val; rw [e6_0]; omega

/-- What point t writes back to window 7 is block t of the convolution with residual of the region's input arrays. -/
theorem flushed2_7 (c : Dev nD) (t : Fin cfg2.N) :
    (dat2 V c).flushed 7 t = ((cfg2.win 7).blk t).view.read (Elt Ideal)
      (Cert.Layers.ginResid (V c main_v23) (V c main_v33) (V c main_v4) (V c main_v35) (V c main_v37) (V c main_v39) (V c main_v41)) := by
  show (cfg2.win 7).cut (grid2.coords t) ((dat2 V c).after 7 t) = _
  rw [after2_7]
  unfold out2_7
  rw [View.canon_unit_zero hz2]
  simp only [View.ld_unit_zero (S := S5000x128) hz2, View.ld_unit_zero (S := S128x128) hz2, View.ld_unit_zero (S := S128) hz1]
  rw [iblk2_3_eq, iblk2_4_eq, iblk2_5_eq, iblk2_6_eq]
  obtain ⟨e0_0, e0_1, e1_0, e1_1, e2_0, e2_1, e3_0, e3_1, e4_0, e5_0, e5_1, e6_0, e7_0, e7_1, e8_0, e8_1⟩ := idx2 t
  have ht : t.val < 10 := t.isLt
  funext j
  obtain ⟨p, q, rfl⟩ : ∃ (p : Fin 5000) (q : Fin 128), j = ix2 p q := ⟨j 0, j 1, eq_ix2 j⟩
  show k2_pay2 (iblk2 V c 1 t) (iblk2 V c 0 t) (V c main_v35) (V c main_v37) (V c main_v39) (V c main_v41) (iblk2 V c 2 t) (ix2 p q)
    = Cert.Layers.ginResid (V c main_v23) (V c main_v33) (V c main_v4) (V c main_v35) (V c main_v37) (V c main_v39) (V c main_v41) (((cfg2.win 7).blk t).view.emb (ix2 p q))
  have hrow : t.val * 5000 + p.val < 50000 := by have := p.isLt; omega
  have hr : ((cfg2.win 7).blk t).view.emb (ix2 p q)
      = ix2 (⟨t.val * 5000 + p.val, hrow⟩ : Fin 50000) q := by
    funext a; apply Fin.ext
    match a with
    | ⟨0, _⟩ => show win2_7.index t 0 * 5000 + 1 * p.val = t.val * 5000 + p.val; rw [e7_0]; omega
    | ⟨1, _⟩ => show win2_7.index t 1 * 128 + 1 * q.val = q.val; rw [e7_1]; omega
  rw [hr, Cert.LayerIdx.ginResid_apply, Cert.PayIdx.resid2_apply]
  refine congrArg (fun z => max z 0) (congrArg₂ (· + ·) (congrArg (fun f => Cert.Dense.mlp f _ _ _ _ q) (funext fun k => ?_)) (iblk2_2_apply V c t p q ⟨t.val * 5000 + p.val, hrow⟩ rfl))
  rw [iblk2_1_apply V c t p k ⟨t.val * 5000 + p.val, hrow⟩ rfl, iblk2_0_apply V c t p k ⟨t.val * 5000 + p.val, hrow⟩ rfl]

/-- The 10 blocks of window 7 tile its array. -/
theorem cover2_7 (i : S50000x128.Idx) :
    ∃ t : Fin cfg2.N, (cfg2.win 7).flush t = true ∧ i ∈ ((cfg2.win 7).blk t).view.set := by
  have hi0 : (i 0).val < 50000 := (i 0).isLt
  have hi1 : (i 1).val < 128 := (i 1).isLt
  have hlt : (i 0).val / 5000 < 10 := by omega
  refine ⟨⟨(i 0).val / 5000, hlt⟩, flush2_7 _, ?_⟩
  obtain ⟨e0_0, e0_1, e1_0, e1_1, e2_0, e2_1, e3_0, e3_1, e4_0, e5_0, e5_1, e6_0, e7_0, e7_1, e8_0, e8_1⟩ := idx2 ⟨(i 0).val / 5000, hlt⟩
  show i ∈ ((View.whole main_v42_0).slice (win2_7.rect ⟨(i 0).val / 5000, hlt⟩)).set
  rw [View.set_slice_whole, Rect.mem_set_unit]
  intro a
  match a with
  | ⟨0, _⟩ =>
    show win2_7.index _ (0 : Fin 2) * 5000 ≤ (i 0).val ∧ (i 0).val < win2_7.index _ (0 : Fin 2) * 5000 + 5000
    rw [e7_0]; show (i 0).val / 5000 * 5000 ≤ (i 0).val ∧ (i 0).val < (i 0).val / 5000 * 5000 + 5000; omega
  | ⟨1, _⟩ =>
    show win2_7.index _ (1 : Fin 2) * 128 ≤ (i 1).val ∧ (i 1).val < win2_7.index _ (1 : Fin 2) * 128 + 128
    rw [e7_1]; omega

/-- Window 7's array after region 2 is the convolution with residual of the region's input arrays. -/
theorem arrAt2_7 (c : Dev nD) :
    (dat2 V c).arrAt 7 cfg2.N = Cert.Layers.ginResid (V c main_v23) (V c main_v33) (V c main_v4) (V c main_v35) (V c main_v37) (V c main_v39) (V c main_v41) :=
  (dat2 V c).arrAt_eq_of_cover 7 (Cert.Layers.ginResid (V c main_v23) (V c main_v33) (V c main_v4) (V c main_v35) (V c main_v37) (V c main_v39) (V c main_v41))
    (fun t _ => flushed2_7 V c t) (cover2_7)

/-- What point t writes back to window 8 is block t of the convolution with residual before the rectifier (the next residual) of the region's input arrays. -/
theorem flushed2_8 (c : Dev nD) (t : Fin cfg2.N) :
    (dat2 V c).flushed 8 t = ((cfg2.win 8).blk t).view.read (Elt Ideal)
      (Cert.Layers.ginResidPre (V c main_v23) (V c main_v33) (V c main_v4) (V c main_v35) (V c main_v37) (V c main_v39) (V c main_v41)) := by
  show (cfg2.win 8).cut (grid2.coords t) ((dat2 V c).after 8 t) = _
  rw [after2_8]
  unfold out2_8
  rw [View.canon_unit_zero hz2]
  simp only [View.ld_unit_zero (S := S5000x128) hz2, View.ld_unit_zero (S := S128x128) hz2, View.ld_unit_zero (S := S128) hz1]
  rw [iblk2_3_eq, iblk2_4_eq, iblk2_5_eq, iblk2_6_eq]
  obtain ⟨e0_0, e0_1, e1_0, e1_1, e2_0, e2_1, e3_0, e3_1, e4_0, e5_0, e5_1, e6_0, e7_0, e7_1, e8_0, e8_1⟩ := idx2 t
  have ht : t.val < 10 := t.isLt
  funext j
  obtain ⟨p, q, rfl⟩ : ∃ (p : Fin 5000) (q : Fin 128), j = ix2 p q := ⟨j 0, j 1, eq_ix2 j⟩
  show k2_pay1 (iblk2 V c 1 t) (iblk2 V c 0 t) (V c main_v35) (V c main_v37) (V c main_v39) (V c main_v41) (iblk2 V c 2 t) (ix2 p q)
    = Cert.Layers.ginResidPre (V c main_v23) (V c main_v33) (V c main_v4) (V c main_v35) (V c main_v37) (V c main_v39) (V c main_v41) (((cfg2.win 8).blk t).view.emb (ix2 p q))
  have hrow : t.val * 5000 + p.val < 50000 := by have := p.isLt; omega
  have hr : ((cfg2.win 8).blk t).view.emb (ix2 p q)
      = ix2 (⟨t.val * 5000 + p.val, hrow⟩ : Fin 50000) q := by
    funext a; apply Fin.ext
    match a with
    | ⟨0, _⟩ => show win2_8.index t 0 * 5000 + 1 * p.val = t.val * 5000 + p.val; rw [e8_0]; omega
    | ⟨1, _⟩ => show win2_8.index t 1 * 128 + 1 * q.val = q.val; rw [e8_1]; omega
  rw [hr, Cert.LayerIdx.ginResidPre_apply, Cert.PayIdx.residPre2_apply]
  refine (congrArg₂ (· + ·) (congrArg (fun f => Cert.Dense.mlp f _ _ _ _ q) (funext fun k => ?_)) (iblk2_2_apply V c t p q ⟨t.val * 5000 + p.val, hrow⟩ rfl))
  rw [iblk2_1_apply V c t p k ⟨t.val * 5000 + p.val, hrow⟩ rfl, iblk2_0_apply V c t p k ⟨t.val * 5000 + p.val, hrow⟩ rfl]

/-- The 10 blocks of window 8 tile its array. -/
theorem cover2_8 (i : S50000x128.Idx) :
    ∃ t : Fin cfg2.N, (cfg2.win 8).flush t = true ∧ i ∈ ((cfg2.win 8).blk t).view.set := by
  have hi0 : (i 0).val < 50000 := (i 0).isLt
  have hi1 : (i 1).val < 128 := (i 1).isLt
  have hlt : (i 0).val / 5000 < 10 := by omega
  refine ⟨⟨(i 0).val / 5000, hlt⟩, flush2_8 _, ?_⟩
  obtain ⟨e0_0, e0_1, e1_0, e1_1, e2_0, e2_1, e3_0, e3_1, e4_0, e5_0, e5_1, e6_0, e7_0, e7_1, e8_0, e8_1⟩ := idx2 ⟨(i 0).val / 5000, hlt⟩
  show i ∈ ((View.whole main_v42_1).slice (win2_8.rect ⟨(i 0).val / 5000, hlt⟩)).set
  rw [View.set_slice_whole, Rect.mem_set_unit]
  intro a
  match a with
  | ⟨0, _⟩ =>
    show win2_8.index _ (0 : Fin 2) * 5000 ≤ (i 0).val ∧ (i 0).val < win2_8.index _ (0 : Fin 2) * 5000 + 5000
    rw [e8_0]; show (i 0).val / 5000 * 5000 ≤ (i 0).val ∧ (i 0).val < (i 0).val / 5000 * 5000 + 5000; omega
  | ⟨1, _⟩ =>
    show win2_8.index _ (1 : Fin 2) * 128 ≤ (i 1).val ∧ (i 1).val < win2_8.index _ (1 : Fin 2) * 128 + 128
    rw [e8_1]; omega

/-- Window 8's array after region 2 is the convolution with residual before the rectifier (the next residual) of the region's input arrays. -/
theorem arrAt2_8 (c : Dev nD) :
    (dat2 V c).arrAt 8 cfg2.N = Cert.Layers.ginResidPre (V c main_v23) (V c main_v33) (V c main_v4) (V c main_v35) (V c main_v37) (V c main_v39) (V c main_v41) :=
  (dat2 V c).arrAt_eq_of_cover 8 (Cert.Layers.ginResidPre (V c main_v23) (V c main_v33) (V c main_v4) (V c main_v35) (V c main_v37) (V c main_v39) (V c main_v41))
    (fun t _ => flushed2_8 V c t) (cover2_8)

end Cert.KernelIdeal.HandVal

end
-- ==== Proof.IVal3.lean ====
/-
  Region 3: each output array after the region is the reference's layer function of the region's input arrays. Each grid
  point's block of an output is the payload of the point's input blocks; row p of a row-tiled block at point t is row
  5000·t + p of its array, the weight and bias windows hold their whole arrays at every point, and the 10 blocks tile the array.
-/
import proofs.«106875_j87694642250037_1_alg».proof.Proof.IReg3
import proofs.«106875_j87694642250037_1_alg».proof.Proof.PayIdx
import proofs.«106875_j87694642250037_1_alg».proof.Proof.LayerIdx
import Idealize.ShloMosaic.Lib.Pipeline.Value

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

variable [Cert.ReferenceIdeal.Facts]

variable (V : (c : Dev nD) → (b : Ref sig .tc) → Buf (Elt Ideal) ((c : Thread nD τ).loc b))

private theorem hz2 : (![0, 0] : Fin 2 → Nat) = fun _ => 0 := funext fun a => by fin_cases a <;> rfl
private theorem hz1 : (![0] : Fin 1 → Nat) = fun _ => 0 := funext fun a => by fin_cases a <;> rfl

/-- The printed index maps over the grid: a row-tiled window's block index is (t, 0), a weight or bias window's is zero. -/
theorem idx3 : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_2.index t (0 : Fin 2) = 0
    ∧ win3_2.index t (1 : Fin 2) = 0
    ∧ win3_3.index t (0 : Fin 1) = 0
    ∧ win3_4.index t (0 : Fin 2) = 0
    ∧ win3_4.index t (1 : Fin 2) = 0
    ∧ win3_5.index t (0 : Fin 1) = 0
    ∧ win3_6.index t (0 : Fin 2) = t.val
    ∧ win3_6.index t (1 : Fin 2) = 0 :=
  (by decide +kernel : ∀ t : Fin grid3.N, _)

/-- Row p of window 0's block at point t is row 5000·t + p of its array. -/
theorem iblk3_0_apply (c : Dev nD) (t : Fin cfg3.N) (p : Fin 5000) (k : Fin 128) (r : Fin 50000)
    (hr : r.val = t.val * 5000 + p.val) :
    (iblk3 V c 0 t : Vec Ideal S5000x128 .f32) (ix2 p k)
      = (V c main_v42_0 : S50000x128.Idx → Elt Ideal .f32) (ix2 r k) := by
  obtain ⟨e0_0, e0_1, e1_0, e1_1, e2_0, e2_1, e3_0, e4_0, e4_1, e5_0, e6_0, e6_1⟩ := idx3 t
  unfold iblk3
  rw [View.read_apply]
  show V c main_v42_0 _ = V c main_v42_0 _
  congr 1
  funext a; apply Fin.ext
  match a with
  | ⟨0, _⟩ => show win3_0.index t 0 * 5000 + 1 * p.val = r.val; rw [e0_0, hr]; omega
  | ⟨1, _⟩ => show win3_0.index t 1 * 128 + 1 * k.val = k.val; rw [e0_1]; omega

/-- Row p of window 1's block at point t is row 5000·t + p of its array. -/
theorem iblk3_1_apply (c : Dev nD) (t : Fin cfg3.N) (p : Fin 5000) (k : Fin 128) (r : Fin 50000)
    (hr : r.val = t.val * 5000 + p.val) :
    (iblk3 V c 1 t : Vec Ideal S5000x128 .f32) (ix2 p k)
      = (V c main_v52 : S50000x128.Idx → Elt Ideal .f32) (ix2 r k) := by
  obtain ⟨e0_0, e0_1, e1_0, e1_1, e2_0, e2_1, e3_0, e4_0, e4_1, e5_0, e6_0, e6_1⟩ := idx3 t
  unfold iblk3
  rw [View.read_apply]
  show V c main_v52 _ = V c main_v52 _
  congr 1
  funext a; apply Fin.ext
  match a with
  | ⟨0, _⟩ => show win3_1.index t 0 * 5000 + 1 * p.val = r.val; rw [e1_0, hr]; omega
  | ⟨1, _⟩ => show win3_1.index t 1 * 128 + 1 * k.val = k.val; rw [e1_1]; omega

/-- Window 2 holds its whole array at every point. -/
theorem iblk3_2_eq (c : Dev nD) (t : Fin cfg3.N) :
    (iblk3 V c 2 t : Vec Ideal S128x128 .f32) = (V c main_v54 : S128x128.Idx → Elt Ideal .f32) := by
  obtain ⟨e0_0, e0_1, e1_0, e1_1, e2_0, e2_1, e3_0, e4_0, e4_1, e5_0, e6_0, e6_1⟩ := idx3 t
  funext x
  unfold iblk3
  rw [View.read_apply]
  show V c main_v54 _ = V c main_v54 x
  congr 1
  funext a; apply Fin.ext
  match a with
  | ⟨0, _⟩ => show win3_2.index t 0 * 128 + 1 * (x 0).val = (x 0).val; rw [e2_0]; omega
  | ⟨1, _⟩ => show win3_2.index t 1 * 128 + 1 * (x 1).val = (x 1).val; rw [e2_1]; omega

/-- Window 3 holds its whole array at every point. -/
theorem iblk3_3_eq (c : Dev nD) (t : Fin cfg3.N) :
    (iblk3 V c 3 t : Vec Ideal S128 .f32) = (V c main_v56 : S128.Idx → Elt Ideal .f32) := by
  obtain ⟨e0_0, e0_1, e1_0, e1_1, e2_0, e2_1, e3_0, e4_0, e4_1, e5_0, e6_0, e6_1⟩ := idx3 t
  funext x
  unfold iblk3
  rw [View.read_apply]
  show V c main_v56 _ = V c main_v56 x
  congr 1
  funext a; apply Fin.ext
  match a with
  | ⟨0, _⟩ => show win3_3.index t 0 * 128 + 1 * (x 0).val = (x 0).val; rw [e3_0]; omega

/-- Window 4 holds its whole array at every point. -/
theorem iblk3_4_eq (c : Dev nD) (t : Fin cfg3.N) :
    (iblk3 V c 4 t : Vec Ideal S128x128 .f32) = (V c main_v58 : S128x128.Idx → Elt Ideal .f32) := by
  obtain ⟨e0_0, e0_1, e1_0, e1_1, e2_0, e2_1, e3_0, e4_0, e4_1, e5_0, e6_0, e6_1⟩ := idx3 t
  funext x
  unfold iblk3
  rw [View.read_apply]
  show V c main_v58 _ = V c main_v58 x
  congr 1
  funext a; apply Fin.ext
  match a with
  | ⟨0, _⟩ => show win3_4.index t 0 * 128 + 1 * (x 0).val = (x 0).val; rw [e4_0]; omega
  | ⟨1, _⟩ => show win3_4.index t 1 * 128 + 1 * (x 1).val = (x 1).val; rw [e4_1]; omega

/-- Window 5 holds its whole array at every point. -/
theorem iblk3_5_eq (c : Dev nD) (t : Fin cfg3.N) :
    (iblk3 V c 5 t : Vec Ideal S128 .f32) = (V c main_v60 : S128.Idx → Elt Ideal .f32) := by
  obtain ⟨e0_0, e0_1, e1_0, e1_1, e2_0, e2_1, e3_0, e4_0, e4_1, e5_0, e6_0, e6_1⟩ := idx3 t
  funext x
  unfold iblk3
  rw [View.read_apply]
  show V c main_v60 _ = V c main_v60 x
  congr 1
  funext a; apply Fin.ext
  match a with
  | ⟨0, _⟩ => show win3_5.index t 0 * 128 + 1 * (x 0).val = (x 0).val; rw [e5_0]; omega

/-- What point t writes back to window 6 is block t of the convolution without residual of the region's input arrays. -/
theorem flushed3_6 (c : Dev nD) (t : Fin cfg3.N) :
    (dat3 V c).flushed 6 t = ((cfg3.win 6).blk t).view.read (Elt Ideal)
      (Cert.Layers.ginPlain (V c main_v42_0) (V c main_v52) (V c main_v54) (V c main_v56) (V c main_v58) (V c main_v60)) := by
  show (cfg3.win 6).cut (grid3.coords t) ((dat3 V c).after 6 t) = _
  rw [after3_6]
  unfold out3_6
  rw [View.canon_unit_zero hz2]
  simp only [View.ld_unit_zero (S := S5000x128) hz2, View.ld_unit_zero (S := S128x128) hz2, View.ld_unit_zero (S := S128) hz1]
  rw [iblk3_2_eq, iblk3_3_eq, iblk3_4_eq, iblk3_5_eq]
  obtain ⟨e0_0, e0_1, e1_0, e1_1, e2_0, e2_1, e3_0, e4_0, e4_1, e5_0, e6_0, e6_1⟩ := idx3 t
  have ht : t.val < 10 := t.isLt
  funext j
  obtain ⟨p, q, rfl⟩ : ∃ (p : Fin 5000) (q : Fin 128), j = ix2 p q := ⟨j 0, j 1, eq_ix2 j⟩
  show k3_pay1 (iblk3 V c 1 t) (iblk3 V c 0 t) (V c main_v54) (V c main_v56) (V c main_v58) (V c main_v60) (ix2 p q)
    = Cert.Layers.ginPlain (V c main_v42_0) (V c main_v52) (V c main_v54) (V c main_v56) (V c main_v58) (V c main_v60) (((cfg3.win 6).blk t).view.emb (ix2 p q))
  have hrow : t.val * 5000 + p.val < 50000 := by have := p.isLt; omega
  have hr : ((cfg3.win 6).blk t).view.emb (ix2 p q)
      = ix2 (⟨t.val * 5000 + p.val, hrow⟩ : Fin 50000) q := by
    funext a; apply Fin.ext
    match a with
    | ⟨0, _⟩ => show win3_6.index t 0 * 5000 + 1 * p.val = t.val * 5000 + p.val; rw [e6_0]; omega
    | ⟨1, _⟩ => show win3_6.index t 1 * 128 + 1 * q.val = q.val; rw [e6_1]; omega
  rw [hr, Cert.LayerIdx.ginPlain_apply, Cert.PayIdx.plain3_apply]
  refine congrArg (fun z => max z 0) (congrArg (fun f => Cert.Dense.mlp f _ _ _ _ q) (funext fun k => ?_))
  rw [iblk3_1_apply V c t p k ⟨t.val * 5000 + p.val, hrow⟩ rfl, iblk3_0_apply V c t p k ⟨t.val * 5000 + p.val, hrow⟩ rfl]

/-- The 10 blocks of window 6 tile its array. -/
theorem cover3_6 (i : S50000x128.Idx) :
    ∃ t : Fin cfg3.N, (cfg3.win 6).flush t = true ∧ i ∈ ((cfg3.win 6).blk t).view.set := by
  have hi0 : (i 0).val < 50000 := (i 0).isLt
  have hi1 : (i 1).val < 128 := (i 1).isLt
  have hlt : (i 0).val / 5000 < 10 := by omega
  refine ⟨⟨(i 0).val / 5000, hlt⟩, flush3_6 _, ?_⟩
  obtain ⟨e0_0, e0_1, e1_0, e1_1, e2_0, e2_1, e3_0, e4_0, e4_1, e5_0, e6_0, e6_1⟩ := idx3 ⟨(i 0).val / 5000, hlt⟩
  show i ∈ ((View.whole main_v61).slice (win3_6.rect ⟨(i 0).val / 5000, hlt⟩)).set
  rw [View.set_slice_whole, Rect.mem_set_unit]
  intro a
  match a with
  | ⟨0, _⟩ =>
    show win3_6.index _ (0 : Fin 2) * 5000 ≤ (i 0).val ∧ (i 0).val < win3_6.index _ (0 : Fin 2) * 5000 + 5000
    rw [e6_0]; show (i 0).val / 5000 * 5000 ≤ (i 0).val ∧ (i 0).val < (i 0).val / 5000 * 5000 + 5000; omega
  | ⟨1, _⟩ =>
    show win3_6.index _ (1 : Fin 2) * 128 ≤ (i 1).val ∧ (i 1).val < win3_6.index _ (1 : Fin 2) * 128 + 128
    rw [e6_1]; omega

/-- Window 6's array after region 3 is the convolution without residual of the region's input arrays. -/
theorem arrAt3_6 (c : Dev nD) :
    (dat3 V c).arrAt 6 cfg3.N = Cert.Layers.ginPlain (V c main_v42_0) (V c main_v52) (V c main_v54) (V c main_v56) (V c main_v58) (V c main_v60) :=
  (dat3 V c).arrAt_eq_of_cover 6 (Cert.Layers.ginPlain (V c main_v42_0) (V c main_v52) (V c main_v54) (V c main_v56) (V c main_v58) (V c main_v60))
    (fun t _ => flushed3_6 V c t) (cover3_6)

end Cert.KernelIdeal.HandVal

end
-- ==== Proof.IVal4.lean ====
/-
  Region 4: each output array after the region is the reference's layer function of the region's input arrays. Each grid
  point's block of an output is the payload of the point's input blocks; row p of a row-tiled block at point t is row
  5000·t + p of its array, the weight and bias windows hold their whole arrays at every point, and the 10 blocks tile the array.
-/
import proofs.«106875_j87694642250037_1_alg».proof.Proof.IReg4
import proofs.«106875_j87694642250037_1_alg».proof.Proof.PayIdx
import proofs.«106875_j87694642250037_1_alg».proof.Proof.LayerIdx
import Idealize.ShloMosaic.Lib.Pipeline.Value

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

variable [Cert.ReferenceIdeal.Facts]

variable (V : (c : Dev nD) → (b : Ref sig .tc) → Buf (Elt Ideal) ((c : Thread nD τ).loc b))

private theorem hz2 : (![0, 0] : Fin 2 → Nat) = fun _ => 0 := funext fun a => by fin_cases a <;> rfl
private theorem hz1 : (![0] : Fin 1 → Nat) = fun _ => 0 := funext fun a => by fin_cases a <;> rfl

/-- The printed index maps over the grid: a row-tiled window's block index is (t, 0), a weight or bias window's is zero. -/
theorem idx4 : ∀ t : Fin cfg4.N, win4_0.index t (0 : Fin 2) = t.val
    ∧ win4_0.index t (1 : Fin 2) = 0
    ∧ win4_1.index t (0 : Fin 2) = t.val
    ∧ win4_1.index t (1 : Fin 2) = 0
    ∧ win4_2.index t (0 : Fin 2) = t.val
    ∧ win4_2.index t (1 : Fin 2) = 0
    ∧ win4_3.index t (0 : Fin 2) = 0
    ∧ win4_3.index t (1 : Fin 2) = 0
    ∧ win4_4.index t (0 : Fin 1) = 0
    ∧ win4_5.index t (0 : Fin 2) = 0
    ∧ win4_5.index t (1 : Fin 2) = 0
    ∧ win4_6.index t (0 : Fin 1) = 0
    ∧ win4_7.index t (0 : Fin 2) = t.val
    ∧ win4_7.index t (1 : Fin 2) = 0
    ∧ win4_8.index t (0 : Fin 2) = t.val
    ∧ win4_8.index t (1 : Fin 2) = 0 :=
  (by decide +kernel : ∀ t : Fin grid4.N, _)

/-- Row p of window 0's block at point t is row 5000·t + p of its array. -/
theorem iblk4_0_apply (c : Dev nD) (t : Fin cfg4.N) (p : Fin 5000) (k : Fin 128) (r : Fin 50000)
    (hr : r.val = t.val * 5000 + p.val) :
    (iblk4 V c 0 t : Vec Ideal S5000x128 .f32) (ix2 p k)
      = (V c main_v61 : S50000x128.Idx → Elt Ideal .f32) (ix2 r k) := by
  obtain ⟨e0_0, e0_1, e1_0, e1_1, e2_0, e2_1, e3_0, e3_1, e4_0, e5_0, e5_1, e6_0, e7_0, e7_1, e8_0, e8_1⟩ := idx4 t
  unfold iblk4
  rw [View.read_apply]
  show V c main_v61 _ = V c main_v61 _
  congr 1
  funext a; apply Fin.ext
  match a with
  | ⟨0, _⟩ => show win4_0.index t 0 * 5000 + 1 * p.val = r.val; rw [e0_0, hr]; omega
  | ⟨1, _⟩ => show win4_0.index t 1 * 128 + 1 * k.val = k.val; rw [e0_1]; omega

/-- Row p of window 1's block at point t is row 5000·t + p of its array. -/
theorem iblk4_1_apply (c : Dev nD) (t : Fin cfg4.N) (p : Fin 5000) (k : Fin 128) (r : Fin 50000)
    (hr : r.val = t.val * 5000 + p.val) :
    (iblk4 V c 1 t : Vec Ideal S5000x128 .f32) (ix2 p k)
      = (V c main_v71 : S50000x128.Idx → Elt Ideal .f32) (ix2 r k) := by
  obtain ⟨e0_0, e0_1, e1_0, e1_1, e2_0, e2_1, e3_0, e3_1, e4_0, e5_0, e5_1, e6_0, e7_0, e7_1, e8_0, e8_1⟩ := idx4 t
  unfold iblk4
  rw [View.read_apply]
  show V c main_v71 _ = V c main_v71 _
  congr 1
  funext a; apply Fin.ext
  match a with
  | ⟨0, _⟩ => show win4_1.index t 0 * 5000 + 1 * p.val = r.val; rw [e1_0, hr]; omega
  | ⟨1, _⟩ => show win4_1.index t 1 * 128 + 1 * k.val = k.val; rw [e1_1]; omega

/-- Row p of window 2's block at point t is row 5000·t + p of its array. -/
theorem iblk4_2_apply (c : Dev nD) (t : Fin cfg4.N) (p : Fin 5000) (k : Fin 128) (r : Fin 50000)
    (hr : r.val = t.val * 5000 + p.val) :
    (iblk4 V c 2 t : Vec Ideal S5000x128 .f32) (ix2 p k)
      = (V c main_v42_1 : S50000x128.Idx → Elt Ideal .f32) (ix2 r k) := by
  obtain ⟨e0_0, e0_1, e1_0, e1_1, e2_0, e2_1, e3_0, e3_1, e4_0, e5_0, e5_1, e6_0, e7_0, e7_1, e8_0, e8_1⟩ := idx4 t
  unfold iblk4
  rw [View.read_apply]
  show V c main_v42_1 _ = V c main_v42_1 _
  congr 1
  funext a; apply Fin.ext
  match a with
  | ⟨0, _⟩ => show win4_2.index t 0 * 5000 + 1 * p.val = r.val; rw [e2_0, hr]; omega
  | ⟨1, _⟩ => show win4_2.index t 1 * 128 + 1 * k.val = k.val; rw [e2_1]; omega

/-- Window 3 holds its whole array at every point. -/
theorem iblk4_3_eq (c : Dev nD) (t : Fin cfg4.N) :
    (iblk4 V c 3 t : Vec Ideal S128x128 .f32) = (V c main_v73 : S128x128.Idx → Elt Ideal .f32) := by
  obtain ⟨e0_0, e0_1, e1_0, e1_1, e2_0, e2_1, e3_0, e3_1, e4_0, e5_0, e5_1, e6_0, e7_0, e7_1, e8_0, e8_1⟩ := idx4 t
  funext x
  unfold iblk4
  rw [View.read_apply]
  show V c main_v73 _ = V c main_v73 x
  congr 1
  funext a; apply Fin.ext
  match a with
  | ⟨0, _⟩ => show win4_3.index t 0 * 128 + 1 * (x 0).val = (x 0).val; rw [e3_0]; omega
  | ⟨1, _⟩ => show win4_3.index t 1 * 128 + 1 * (x 1).val = (x 1).val; rw [e3_1]; omega

/-- Window 4 holds its whole array at every point. -/
theorem iblk4_4_eq (c : Dev nD) (t : Fin cfg4.N) :
    (iblk4 V c 4 t : Vec Ideal S128 .f32) = (V c main_v75 : S128.Idx → Elt Ideal .f32) := by
  obtain ⟨e0_0, e0_1, e1_0, e1_1, e2_0, e2_1, e3_0, e3_1, e4_0, e5_0, e5_1, e6_0, e7_0, e7_1, e8_0, e8_1⟩ := idx4 t
  funext x
  unfold iblk4
  rw [View.read_apply]
  show V c main_v75 _ = V c main_v75 x
  congr 1
  funext a; apply Fin.ext
  match a with
  | ⟨0, _⟩ => show win4_4.index t 0 * 128 + 1 * (x 0).val = (x 0).val; rw [e4_0]; omega

/-- Window 5 holds its whole array at every point. -/
theorem iblk4_5_eq (c : Dev nD) (t : Fin cfg4.N) :
    (iblk4 V c 5 t : Vec Ideal S128x128 .f32) = (V c main_v77 : S128x128.Idx → Elt Ideal .f32) := by
  obtain ⟨e0_0, e0_1, e1_0, e1_1, e2_0, e2_1, e3_0, e3_1, e4_0, e5_0, e5_1, e6_0, e7_0, e7_1, e8_0, e8_1⟩ := idx4 t
  funext x
  unfold iblk4
  rw [View.read_apply]
  show V c main_v77 _ = V c main_v77 x
  congr 1
  funext a; apply Fin.ext
  match a with
  | ⟨0, _⟩ => show win4_5.index t 0 * 128 + 1 * (x 0).val = (x 0).val; rw [e5_0]; omega
  | ⟨1, _⟩ => show win4_5.index t 1 * 128 + 1 * (x 1).val = (x 1).val; rw [e5_1]; omega

/-- Window 6 holds its whole array at every point. -/
theorem iblk4_6_eq (c : Dev nD) (t : Fin cfg4.N) :
    (iblk4 V c 6 t : Vec Ideal S128 .f32) = (V c main_v79 : S128.Idx → Elt Ideal .f32) := by
  obtain ⟨e0_0, e0_1, e1_0, e1_1, e2_0, e2_1, e3_0, e3_1, e4_0, e5_0, e5_1, e6_0, e7_0, e7_1, e8_0, e8_1⟩ := idx4 t
  funext x
  unfold iblk4
  rw [View.read_apply]
  show V c main_v79 _ = V c main_v79 x
  congr 1
  funext a; apply Fin.ext
  match a with
  | ⟨0, _⟩ => show win4_6.index t 0 * 128 + 1 * (x 0).val = (x 0).val; rw [e6_0]; omega

/-- What point t writes back to window 7 is block t of the convolution with residual of the region's input arrays. -/
theorem flushed4_7 (c : Dev nD) (t : Fin cfg4.N) :
    (dat4 V c).flushed 7 t = ((cfg4.win 7).blk t).view.read (Elt Ideal)
      (Cert.Layers.ginResid (V c main_v61) (V c main_v71) (V c main_v42_1) (V c main_v73) (V c main_v75) (V c main_v77) (V c main_v79)) := by
  show (cfg4.win 7).cut (grid4.coords t) ((dat4 V c).after 7 t) = _
  rw [after4_7]
  unfold out4_7
  rw [View.canon_unit_zero hz2]
  simp only [View.ld_unit_zero (S := S5000x128) hz2, View.ld_unit_zero (S := S128x128) hz2, View.ld_unit_zero (S := S128) hz1]
  rw [iblk4_3_eq, iblk4_4_eq, iblk4_5_eq, iblk4_6_eq]
  obtain ⟨e0_0, e0_1, e1_0, e1_1, e2_0, e2_1, e3_0, e3_1, e4_0, e5_0, e5_1, e6_0, e7_0, e7_1, e8_0, e8_1⟩ := idx4 t
  have ht : t.val < 10 := t.isLt
  funext j
  obtain ⟨p, q, rfl⟩ : ∃ (p : Fin 5000) (q : Fin 128), j = ix2 p q := ⟨j 0, j 1, eq_ix2 j⟩
  show k4_pay2 (iblk4 V c 1 t) (iblk4 V c 0 t) (V c main_v73) (V c main_v75) (V c main_v77) (V c main_v79) (iblk4 V c 2 t) (ix2 p q)
    = Cert.Layers.ginResid (V c main_v61) (V c main_v71) (V c main_v42_1) (V c main_v73) (V c main_v75) (V c main_v77) (V c main_v79) (((cfg4.win 7).blk t).view.emb (ix2 p q))
  have hrow : t.val * 5000 + p.val < 50000 := by have := p.isLt; omega
  have hr : ((cfg4.win 7).blk t).view.emb (ix2 p q)
      = ix2 (⟨t.val * 5000 + p.val, hrow⟩ : Fin 50000) q := by
    funext a; apply Fin.ext
    match a with
    | ⟨0, _⟩ => show win4_7.index t 0 * 5000 + 1 * p.val = t.val * 5000 + p.val; rw [e7_0]; omega
    | ⟨1, _⟩ => show win4_7.index t 1 * 128 + 1 * q.val = q.val; rw [e7_1]; omega
  rw [hr, Cert.LayerIdx.ginResid_apply, Cert.PayIdx.resid4_apply]
  refine congrArg (fun z => max z 0) (congrArg₂ (· + ·) (congrArg (fun f => Cert.Dense.mlp f _ _ _ _ q) (funext fun k => ?_)) (iblk4_2_apply V c t p q ⟨t.val * 5000 + p.val, hrow⟩ rfl))
  rw [iblk4_1_apply V c t p k ⟨t.val * 5000 + p.val, hrow⟩ rfl, iblk4_0_apply V c t p k ⟨t.val * 5000 + p.val, hrow⟩ rfl]

/-- The 10 blocks of window 7 tile its array. -/
theorem cover4_7 (i : S50000x128.Idx) :
    ∃ t : Fin cfg4.N, (cfg4.win 7).flush t = true ∧ i ∈ ((cfg4.win 7).blk t).view.set := by
  have hi0 : (i 0).val < 50000 := (i 0).isLt
  have hi1 : (i 1).val < 128 := (i 1).isLt
  have hlt : (i 0).val / 5000 < 10 := by omega
  refine ⟨⟨(i 0).val / 5000, hlt⟩, flush4_7 _, ?_⟩
  obtain ⟨e0_0, e0_1, e1_0, e1_1, e2_0, e2_1, e3_0, e3_1, e4_0, e5_0, e5_1, e6_0, e7_0, e7_1, e8_0, e8_1⟩ := idx4 ⟨(i 0).val / 5000, hlt⟩
  show i ∈ ((View.whole main_v80_0).slice (win4_7.rect ⟨(i 0).val / 5000, hlt⟩)).set
  rw [View.set_slice_whole, Rect.mem_set_unit]
  intro a
  match a with
  | ⟨0, _⟩ =>
    show win4_7.index _ (0 : Fin 2) * 5000 ≤ (i 0).val ∧ (i 0).val < win4_7.index _ (0 : Fin 2) * 5000 + 5000
    rw [e7_0]; show (i 0).val / 5000 * 5000 ≤ (i 0).val ∧ (i 0).val < (i 0).val / 5000 * 5000 + 5000; omega
  | ⟨1, _⟩ =>
    show win4_7.index _ (1 : Fin 2) * 128 ≤ (i 1).val ∧ (i 1).val < win4_7.index _ (1 : Fin 2) * 128 + 128
    rw [e7_1]; omega

/-- Window 7's array after region 4 is the convolution with residual of the region's input arrays. -/
theorem arrAt4_7 (c : Dev nD) :
    (dat4 V c).arrAt 7 cfg4.N = Cert.Layers.ginResid (V c main_v61) (V c main_v71) (V c main_v42_1) (V c main_v73) (V c main_v75) (V c main_v77) (V c main_v79) :=
  (dat4 V c).arrAt_eq_of_cover 7 (Cert.Layers.ginResid (V c main_v61) (V c main_v71) (V c main_v42_1) (V c main_v73) (V c main_v75) (V c main_v77) (V c main_v79))
    (fun t _ => flushed4_7 V c t) (cover4_7)

/-- What point t writes back to window 8 is block t of the convolution with residual before the rectifier (the next residual) of the region's input arrays. -/
theorem flushed4_8 (c : Dev nD) (t : Fin cfg4.N) :
    (dat4 V c).flushed 8 t = ((cfg4.win 8).blk t).view.read (Elt Ideal)
      (Cert.Layers.ginResidPre (V c main_v61) (V c main_v71) (V c main_v42_1) (V c main_v73) (V c main_v75) (V c main_v77) (V c main_v79)) := by
  show (cfg4.win 8).cut (grid4.coords t) ((dat4 V c).after 8 t) = _
  rw [after4_8]
  unfold out4_8
  rw [View.canon_unit_zero hz2]
  simp only [View.ld_unit_zero (S := S5000x128) hz2, View.ld_unit_zero (S := S128x128) hz2, View.ld_unit_zero (S := S128) hz1]
  rw [iblk4_3_eq, iblk4_4_eq, iblk4_5_eq, iblk4_6_eq]
  obtain ⟨e0_0, e0_1, e1_0, e1_1, e2_0, e2_1, e3_0, e3_1, e4_0, e5_0, e5_1, e6_0, e7_0, e7_1, e8_0, e8_1⟩ := idx4 t
  have ht : t.val < 10 := t.isLt
  funext j
  obtain ⟨p, q, rfl⟩ : ∃ (p : Fin 5000) (q : Fin 128), j = ix2 p q := ⟨j 0, j 1, eq_ix2 j⟩
  show k4_pay1 (iblk4 V c 1 t) (iblk4 V c 0 t) (V c main_v73) (V c main_v75) (V c main_v77) (V c main_v79) (iblk4 V c 2 t) (ix2 p q)
    = Cert.Layers.ginResidPre (V c main_v61) (V c main_v71) (V c main_v42_1) (V c main_v73) (V c main_v75) (V c main_v77) (V c main_v79) (((cfg4.win 8).blk t).view.emb (ix2 p q))
  have hrow : t.val * 5000 + p.val < 50000 := by have := p.isLt; omega
  have hr : ((cfg4.win 8).blk t).view.emb (ix2 p q)
      = ix2 (⟨t.val * 5000 + p.val, hrow⟩ : Fin 50000) q := by
    funext a; apply Fin.ext
    match a with
    | ⟨0, _⟩ => show win4_8.index t 0 * 5000 + 1 * p.val = t.val * 5000 + p.val; rw [e8_0]; omega
    | ⟨1, _⟩ => show win4_8.index t 1 * 128 + 1 * q.val = q.val; rw [e8_1]; omega
  rw [hr, Cert.LayerIdx.ginResidPre_apply, Cert.PayIdx.residPre4_apply]
  refine (congrArg₂ (· + ·) (congrArg (fun f => Cert.Dense.mlp f _ _ _ _ q) (funext fun k => ?_)) (iblk4_2_apply V c t p q ⟨t.val * 5000 + p.val, hrow⟩ rfl))
  rw [iblk4_1_apply V c t p k ⟨t.val * 5000 + p.val, hrow⟩ rfl, iblk4_0_apply V c t p k ⟨t.val * 5000 + p.val, hrow⟩ rfl]

/-- The 10 blocks of window 8 tile its array. -/
theorem cover4_8 (i : S50000x128.Idx) :
    ∃ t : Fin cfg4.N, (cfg4.win 8).flush t = true ∧ i ∈ ((cfg4.win 8).blk t).view.set := by
  have hi0 : (i 0).val < 50000 := (i 0).isLt
  have hi1 : (i 1).val < 128 := (i 1).isLt
  have hlt : (i 0).val / 5000 < 10 := by omega
  refine ⟨⟨(i 0).val / 5000, hlt⟩, flush4_8 _, ?_⟩
  obtain ⟨e0_0, e0_1, e1_0, e1_1, e2_0, e2_1, e3_0, e3_1, e4_0, e5_0, e5_1, e6_0, e7_0, e7_1, e8_0, e8_1⟩ := idx4 ⟨(i 0).val / 5000, hlt⟩
  show i ∈ ((View.whole main_v80_1).slice (win4_8.rect ⟨(i 0).val / 5000, hlt⟩)).set
  rw [View.set_slice_whole, Rect.mem_set_unit]
  intro a
  match a with
  | ⟨0, _⟩ =>
    show win4_8.index _ (0 : Fin 2) * 5000 ≤ (i 0).val ∧ (i 0).val < win4_8.index _ (0 : Fin 2) * 5000 + 5000
    rw [e8_0]; show (i 0).val / 5000 * 5000 ≤ (i 0).val ∧ (i 0).val < (i 0).val / 5000 * 5000 + 5000; omega
  | ⟨1, _⟩ =>
    show win4_8.index _ (1 : Fin 2) * 128 ≤ (i 1).val ∧ (i 1).val < win4_8.index _ (1 : Fin 2) * 128 + 128
    rw [e8_1]; omega

/-- Window 8's array after region 4 is the convolution with residual before the rectifier (the next residual) of the region's input arrays. -/
theorem arrAt4_8 (c : Dev nD) :
    (dat4 V c).arrAt 8 cfg4.N = Cert.Layers.ginResidPre (V c main_v61) (V c main_v71) (V c main_v42_1) (V c main_v73) (V c main_v75) (V c main_v77) (V c main_v79) :=
  (dat4 V c).arrAt_eq_of_cover 8 (Cert.Layers.ginResidPre (V c main_v61) (V c main_v71) (V c main_v42_1) (V c main_v73) (V c main_v75) (V c main_v77) (V c main_v79))
    (fun t _ => flushed4_8 V c t) (cover4_8)

end Cert.KernelIdeal.HandVal

end
-- ==== Proof.IVal5.lean ====
/-
  Region 5: each output array after the region is the reference's layer function of the region's input arrays. Each grid
  point's block of an output is the payload of the point's input blocks; row p of a row-tiled block at point t is row
  200·t + p of its array, the weight and bias windows hold their whole arrays at every point, and the 5 blocks tile the array.
-/
import proofs.«106875_j87694642250037_1_alg».proof.Proof.IReg5
import proofs.«106875_j87694642250037_1_alg».proof.Proof.PayIdx
import proofs.«106875_j87694642250037_1_alg».proof.Proof.LayerIdx
import Idealize.ShloMosaic.Lib.Pipeline.Value

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

variable [Cert.ReferenceIdeal.Facts]

variable (V : (c : Dev nD) → (b : Ref sig .tc) → Buf (Elt Ideal) ((c : Thread nD τ).loc b))

private theorem hz2 : (![0, 0] : Fin 2 → Nat) = fun _ => 0 := funext fun a => by fin_cases a <;> rfl
private theorem hz1 : (![0] : Fin 1 → Nat) = fun _ => 0 := funext fun a => by fin_cases a <;> rfl

/-- The printed index maps over the grid: a row-tiled window's block index is (t, 0), a weight or bias window's is zero. -/
theorem idx5 : ∀ t : Fin cfg5.N, win5_0.index t (0 : Fin 2) = t.val
    ∧ win5_0.index t (1 : Fin 2) = 0
    ∧ win5_1.index t (0 : Fin 2) = 0
    ∧ win5_1.index t (1 : Fin 2) = 0
    ∧ win5_2.index t (0 : Fin 1) = 0
    ∧ win5_3.index t (0 : Fin 2) = 0
    ∧ win5_3.index t (1 : Fin 2) = 0
    ∧ win5_4.index t (0 : Fin 1) = 0
    ∧ win5_5.index t (0 : Fin 2) = t.val
    ∧ win5_5.index t (1 : Fin 2) = 0 :=
  (by decide +kernel : ∀ t : Fin grid5.N, _)

/-- Row p of window 0's block at point t is row 200·t + p of its array. -/
theorem iblk5_0_apply (c : Dev nD) (t : Fin cfg5.N) (p : Fin 200) (k : Fin 640) (r : Fin 1000)
    (hr : r.val = t.val * 200 + p.val) :
    (iblk5 V c 0 t : Vec Ideal S200x640 .f32) (ix2 p k)
      = (V c main_v84 : S1000x640.Idx → Elt Ideal .f32) (ix2 r k) := by
  obtain ⟨e0_0, e0_1, e1_0, e1_1, e2_0, e3_0, e3_1, e4_0, e5_0, e5_1⟩ := idx5 t
  unfold iblk5
  rw [View.read_apply]
  show V c main_v84 _ = V c main_v84 _
  congr 1
  funext a; apply Fin.ext
  match a with
  | ⟨0, _⟩ => show win5_0.index t 0 * 200 + 1 * p.val = r.val; rw [e0_0, hr]; omega
  | ⟨1, _⟩ => show win5_0.index t 1 * 640 + 1 * k.val = k.val; rw [e0_1]; omega

/-- Window 1 holds its whole array at every point. -/
theorem iblk5_1_eq (c : Dev nD) (t : Fin cfg5.N) :
    (iblk5 V c 1 t : Vec Ideal S640x128 .f32) = (V c main_arg12 : S640x128.Idx → Elt Ideal .f32) := by
  obtain ⟨e0_0, e0_1, e1_0, e1_1, e2_0, e3_0, e3_1, e4_0, e5_0, e5_1⟩ := idx5 t
  funext x
  unfold iblk5
  rw [View.read_apply]
  show V c main_arg12 _ = V c main_arg12 x
  congr 1
  funext a; apply Fin.ext
  match a with
  | ⟨0, _⟩ => show win5_1.index t 0 * 640 + 1 * (x 0).val = (x 0).val; rw [e1_0]; omega
  | ⟨1, _⟩ => show win5_1.index t 1 * 128 + 1 * (x 1).val = (x 1).val; rw [e1_1]; omega

/-- Window 2 holds its whole array at every point. -/
theorem iblk5_2_eq (c : Dev nD) (t : Fin cfg5.N) :
    (iblk5 V c 2 t : Vec Ideal S128 .f32) = (V c main_arg13 : S128.Idx → Elt Ideal .f32) := by
  obtain ⟨e0_0, e0_1, e1_0, e1_1, e2_0, e3_0, e3_1, e4_0, e5_0, e5_1⟩ := idx5 t
  funext x
  unfold iblk5
  rw [View.read_apply]
  show V c main_arg13 _ = V c main_arg13 x
  congr 1
  funext a; apply Fin.ext
  match a with
  | ⟨0, _⟩ => show win5_2.index t 0 * 128 + 1 * (x 0).val = (x 0).val; rw [e2_0]; omega

/-- Window 3 holds its whole array at every point. -/
theorem iblk5_3_eq (c : Dev nD) (t : Fin cfg5.N) :
    (iblk5 V c 3 t : Vec Ideal S128x128 .f32) = (V c main_arg14 : S128x128.Idx → Elt Ideal .f32) := by
  obtain ⟨e0_0, e0_1, e1_0, e1_1, e2_0, e3_0, e3_1, e4_0, e5_0, e5_1⟩ := idx5 t
  funext x
  unfold iblk5
  rw [View.read_apply]
  show V c main_arg14 _ = V c main_arg14 x
  congr 1
  funext a; apply Fin.ext
  match a with
  | ⟨0, _⟩ => show win5_3.index t 0 * 128 + 1 * (x 0).val = (x 0).val; rw [e3_0]; omega
  | ⟨1, _⟩ => show win5_3.index t 1 * 128 + 1 * (x 1).val = (x 1).val; rw [e3_1]; omega

/-- Window 4 holds its whole array at every point. -/
theorem iblk5_4_eq (c : Dev nD) (t : Fin cfg5.N) :
    (iblk5 V c 4 t : Vec Ideal S128 .f32) = (V c main_arg15 : S128.Idx → Elt Ideal .f32) := by
  obtain ⟨e0_0, e0_1, e1_0, e1_1, e2_0, e3_0, e3_1, e4_0, e5_0, e5_1⟩ := idx5 t
  funext x
  unfold iblk5
  rw [View.read_apply]
  show V c main_arg15 _ = V c main_arg15 x
  congr 1
  funext a; apply Fin.ext
  match a with
  | ⟨0, _⟩ => show win5_4.index t 0 * 128 + 1 * (x 0).val = (x 0).val; rw [e4_0]; omega

/-- What point t writes back to window 5 is block t of the readout perceptron of the region's input arrays. -/
theorem flushed5_5 (c : Dev nD) (t : Fin cfg5.N) :
    (dat5 V c).flushed 5 t = ((cfg5.win 5).blk t).view.read (Elt Ideal)
      (Cert.Layers.post (V c main_v84) (V c main_arg12) (V c main_arg13) (V c main_arg14) (V c main_arg15)) := by
  show (cfg5.win 5).cut (grid5.coords t) ((dat5 V c).after 5 t) = _
  rw [after5_5]
  unfold out5_5
  rw [View.canon_unit_zero hz2]
  simp only [View.ld_unit_zero (S := S200x640) hz2, View.ld_unit_zero (S := S640x128) hz2, View.ld_unit_zero (S := S128) hz1, View.ld_unit_zero (S := S128x128) hz2]
  rw [iblk5_1_eq, iblk5_2_eq, iblk5_3_eq, iblk5_4_eq]
  obtain ⟨e0_0, e0_1, e1_0, e1_1, e2_0, e3_0, e3_1, e4_0, e5_0, e5_1⟩ := idx5 t
  have ht : t.val < 5 := t.isLt
  funext j
  obtain ⟨p, q, rfl⟩ : ∃ (p : Fin 200) (q : Fin 128), j = ix2 p q := ⟨j 0, j 1, eq_ix2 j⟩
  show k5_pay1 (iblk5 V c 0 t) (V c main_arg12) (V c main_arg13) (V c main_arg14) (V c main_arg15) (ix2 p q)
    = Cert.Layers.post (V c main_v84) (V c main_arg12) (V c main_arg13) (V c main_arg14) (V c main_arg15) (((cfg5.win 5).blk t).view.emb (ix2 p q))
  have hrow : t.val * 200 + p.val < 1000 := by have := p.isLt; omega
  have hr : ((cfg5.win 5).blk t).view.emb (ix2 p q)
      = ix2 (⟨t.val * 200 + p.val, hrow⟩ : Fin 1000) q := by
    funext a; apply Fin.ext
    match a with
    | ⟨0, _⟩ => show win5_5.index t 0 * 200 + 1 * p.val = t.val * 200 + p.val; rw [e5_0]; omega
    | ⟨1, _⟩ => show win5_5.index t 1 * 128 + 1 * q.val = q.val; rw [e5_1]; omega
  rw [hr, Cert.LayerIdx.post_apply, Cert.PayIdx.post5_apply]
  refine congrArg (fun f => Cert.Dense.mlp f _ _ _ _ q) (funext fun k => ?_)
  exact iblk5_0_apply V c t p k ⟨t.val * 200 + p.val, hrow⟩ rfl

/-- The 5 blocks of window 5 tile its array. -/
theorem cover5_5 (i : S1000x128.Idx) :
    ∃ t : Fin cfg5.N, (cfg5.win 5).flush t = true ∧ i ∈ ((cfg5.win 5).blk t).view.set := by
  have hi0 : (i 0).val < 1000 := (i 0).isLt
  have hi1 : (i 1).val < 128 := (i 1).isLt
  have hlt : (i 0).val / 200 < 5 := by omega
  refine ⟨⟨(i 0).val / 200, hlt⟩, flush5_5 _, ?_⟩
  obtain ⟨e0_0, e0_1, e1_0, e1_1, e2_0, e3_0, e3_1, e4_0, e5_0, e5_1⟩ := idx5 ⟨(i 0).val / 200, hlt⟩
  show i ∈ ((View.whole main_v85).slice (win5_5.rect ⟨(i 0).val / 200, hlt⟩)).set
  rw [View.set_slice_whole, Rect.mem_set_unit]
  intro a
  match a with
  | ⟨0, _⟩ =>
    show win5_5.index _ (0 : Fin 2) * 200 ≤ (i 0).val ∧ (i 0).val < win5_5.index _ (0 : Fin 2) * 200 + 200
    rw [e5_0]; show (i 0).val / 200 * 200 ≤ (i 0).val ∧ (i 0).val < (i 0).val / 200 * 200 + 200; omega
  | ⟨1, _⟩ =>
    show win5_5.index _ (1 : Fin 2) * 128 ≤ (i 1).val ∧ (i 1).val < win5_5.index _ (1 : Fin 2) * 128 + 128
    rw [e5_1]; omega

/-- Window 5's array after region 5 is the readout perceptron of the region's input arrays. -/
theorem arrAt5_5 (c : Dev nD) :
    (dat5 V c).arrAt 5 cfg5.N = Cert.Layers.post (V c main_v84) (V c main_arg12) (V c main_arg13) (V c main_arg14) (V c main_arg15) :=
  (dat5 V c).arrAt_eq_of_cover 5 (Cert.Layers.post (V c main_v84) (V c main_arg12) (V c main_arg13) (V c main_arg14) (V c main_arg15))
    (fun t _ => flushed5_5 V c t) (cover5_5)

end Cert.KernelIdeal.HandVal

end
-- ==== Proof.IVal6.lean ====
/-
  Region 6: each output array after the region is the reference's layer function of the region's input arrays. Each grid
  point's block of an output is the payload of the point's input blocks; row p of a row-tiled block at point t is row
  5000·t + p of its array, the weight and bias windows hold their whole arrays at every point, and the 10 blocks tile the array.
-/
import proofs.«106875_j87694642250037_1_alg».proof.Proof.IReg6
import proofs.«106875_j87694642250037_1_alg».proof.Proof.PayIdx
import proofs.«106875_j87694642250037_1_alg».proof.Proof.LayerIdx
import Idealize.ShloMosaic.Lib.Pipeline.Value

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

variable [Cert.ReferenceIdeal.Facts]

variable (V : (c : Dev nD) → (b : Ref sig .tc) → Buf (Elt Ideal) ((c : Thread nD τ).loc b))

private theorem hz2 : (![0, 0] : Fin 2 → Nat) = fun _ => 0 := funext fun a => by fin_cases a <;> rfl
private theorem hz1 : (![0] : Fin 1 → Nat) = fun _ => 0 := funext fun a => by fin_cases a <;> rfl

/-- The printed index maps over the grid: a row-tiled window's block index is (t, 0), a weight or bias window's is zero. -/
theorem idx6 : ∀ t : Fin cfg6.N, win6_0.index t (0 : Fin 2) = t.val
    ∧ win6_0.index t (1 : Fin 2) = 0
    ∧ win6_1.index t (0 : Fin 2) = 0
    ∧ win6_1.index t (1 : Fin 2) = 0
    ∧ win6_2.index t (0 : Fin 1) = 0
    ∧ win6_3.index t (0 : Fin 2) = t.val
    ∧ win6_3.index t (1 : Fin 2) = 0 :=
  (by decide +kernel : ∀ t : Fin grid6.N, _)

/-- Row p of window 0's block at point t is row 5000·t + p of its array. -/
theorem iblk6_0_apply (c : Dev nD) (t : Fin cfg6.N) (p : Fin 5000) (k : Fin 32) (r : Fin 50000)
    (hr : r.val = t.val * 5000 + p.val) :
    (iblk6 V c 0 t : Vec Ideal S5000x32 .f32) (ix2 p k)
      = (V c main_arg3 : S50000x32.Idx → Elt Ideal .f32) (ix2 r k) := by
  obtain ⟨e0_0, e0_1, e1_0, e1_1, e2_0, e3_0, e3_1⟩ := idx6 t
  unfold iblk6
  rw [View.read_apply]
  show V c main_arg3 _ = V c main_arg3 _
  congr 1
  funext a; apply Fin.ext
  match a with
  | ⟨0, _⟩ => show win6_0.index t 0 * 5000 + 1 * p.val = r.val; rw [e0_0, hr]; omega
  | ⟨1, _⟩ => show win6_0.index t 1 * 32 + 1 * k.val = k.val; rw [e0_1]; omega

/-- Window 1 holds its whole array at every point. -/
theorem iblk6_1_eq (c : Dev nD) (t : Fin cfg6.N) :
    (iblk6 V c 1 t : Vec Ideal S32x128 .f32) = (V c main_arg6 : S32x128.Idx → Elt Ideal .f32) := by
  obtain ⟨e0_0, e0_1, e1_0, e1_1, e2_0, e3_0, e3_1⟩ := idx6 t
  funext x
  unfold iblk6
  rw [View.read_apply]
  show V c main_arg6 _ = V c main_arg6 x
  congr 1
  funext a; apply Fin.ext
  match a with
  | ⟨0, _⟩ => show win6_1.index t 0 * 32 + 1 * (x 0).val = (x 0).val; rw [e1_0]; omega
  | ⟨1, _⟩ => show win6_1.index t 1 * 128 + 1 * (x 1).val = (x 1).val; rw [e1_1]; omega

/-- Window 2 holds its whole array at every point. -/
theorem iblk6_2_eq (c : Dev nD) (t : Fin cfg6.N) :
    (iblk6 V c 2 t : Vec Ideal S128 .f32) = (V c main_arg7 : S128.Idx → Elt Ideal .f32) := by
  obtain ⟨e0_0, e0_1, e1_0, e1_1, e2_0, e3_0, e3_1⟩ := idx6 t
  funext x
  unfold iblk6
  rw [View.read_apply]
  show V c main_arg7 _ = V c main_arg7 x
  congr 1
  funext a; apply Fin.ext
  match a with
  | ⟨0, _⟩ => show win6_2.index t 0 * 128 + 1 * (x 0).val = (x 0).val; rw [e2_0]; omega

/-- What point t writes back to window 3 is block t of the input projection of the region's input arrays. -/
theorem flushed6_3 (c : Dev nD) (t : Fin cfg6.N) :
    (dat6 V c).flushed 3 t = ((cfg6.win 3).blk t).view.read (Elt Ideal)
      (Cert.Layers.pre (V c main_arg3) (V c main_arg6) (V c main_arg7)) := by
  show (cfg6.win 3).cut (grid6.coords t) ((dat6 V c).after 3 t) = _
  rw [after6_3]
  unfold out6_3
  rw [View.canon_unit_zero hz2]
  simp only [View.ld_unit_zero (S := S5000x32) hz2, View.ld_unit_zero (S := S32x128) hz2, View.ld_unit_zero (S := S128) hz1]
  rw [iblk6_1_eq, iblk6_2_eq]
  obtain ⟨e0_0, e0_1, e1_0, e1_1, e2_0, e3_0, e3_1⟩ := idx6 t
  have ht : t.val < 10 := t.isLt
  funext j
  obtain ⟨p, q, rfl⟩ : ∃ (p : Fin 5000) (q : Fin 128), j = ix2 p q := ⟨j 0, j 1, eq_ix2 j⟩
  show k6_pay1 (iblk6 V c 0 t) (V c main_arg6) (V c main_arg7) (ix2 p q)
    = Cert.Layers.pre (V c main_arg3) (V c main_arg6) (V c main_arg7) (((cfg6.win 3).blk t).view.emb (ix2 p q))
  have hrow : t.val * 5000 + p.val < 50000 := by have := p.isLt; omega
  have hr : ((cfg6.win 3).blk t).view.emb (ix2 p q)
      = ix2 (⟨t.val * 5000 + p.val, hrow⟩ : Fin 50000) q := by
    funext a; apply Fin.ext
    match a with
    | ⟨0, _⟩ => show win6_3.index t 0 * 5000 + 1 * p.val = t.val * 5000 + p.val; rw [e3_0]; omega
    | ⟨1, _⟩ => show win6_3.index t 1 * 128 + 1 * q.val = q.val; rw [e3_1]; omega
  rw [hr, Cert.LayerIdx.pre_apply, Cert.PayIdx.pre6_apply]
  refine congrArg (fun f => Cert.Dense.lin f _ _ q) (funext fun k => ?_)
  exact iblk6_0_apply V c t p k ⟨t.val * 5000 + p.val, hrow⟩ rfl

/-- The 10 blocks of window 3 tile its array. -/
theorem cover6_3 (i : S50000x128.Idx) :
    ∃ t : Fin cfg6.N, (cfg6.win 3).flush t = true ∧ i ∈ ((cfg6.win 3).blk t).view.set := by
  have hi0 : (i 0).val < 50000 := (i 0).isLt
  have hi1 : (i 1).val < 128 := (i 1).isLt
  have hlt : (i 0).val / 5000 < 10 := by omega
  refine ⟨⟨(i 0).val / 5000, hlt⟩, flush6_3 _, ?_⟩
  obtain ⟨e0_0, e0_1, e1_0, e1_1, e2_0, e3_0, e3_1⟩ := idx6 ⟨(i 0).val / 5000, hlt⟩
  show i ∈ ((View.whole main_v90).slice (win6_3.rect ⟨(i 0).val / 5000, hlt⟩)).set
  rw [View.set_slice_whole, Rect.mem_set_unit]
  intro a
  match a with
  | ⟨0, _⟩ =>
    show win6_3.index _ (0 : Fin 2) * 5000 ≤ (i 0).val ∧ (i 0).val < win6_3.index _ (0 : Fin 2) * 5000 + 5000
    rw [e3_0]; show (i 0).val / 5000 * 5000 ≤ (i 0).val ∧ (i 0).val < (i 0).val / 5000 * 5000 + 5000; omega
  | ⟨1, _⟩ =>
    show win6_3.index _ (1 : Fin 2) * 128 ≤ (i 1).val ∧ (i 1).val < win6_3.index _ (1 : Fin 2) * 128 + 128
    rw [e3_1]; omega

/-- Window 3's array after region 6 is the input projection of the region's input arrays. -/
theorem arrAt6_3 (c : Dev nD) :
    (dat6 V c).arrAt 3 cfg6.N = Cert.Layers.pre (V c main_arg3) (V c main_arg6) (V c main_arg7) :=
  (dat6 V c).arrAt_eq_of_cover 3 (Cert.Layers.pre (V c main_arg3) (V c main_arg6) (V c main_arg7))
    (fun t _ => flushed6_3 V c t) (cover6_3)

end Cert.KernelIdeal.HandVal

end
-- ==== Proof.IVal7.lean ====
/-
  Region 7: each output array after the region is the reference's layer function of the region's input arrays. Each grid
  point's block of an output is the payload of the point's input blocks; row p of a row-tiled block at point t is row
  5000·t + p of its array, the weight and bias windows hold their whole arrays at every point, and the 10 blocks tile the array.
-/
import proofs.«106875_j87694642250037_1_alg».proof.Proof.IReg7
import proofs.«106875_j87694642250037_1_alg».proof.Proof.PayIdx
import proofs.«106875_j87694642250037_1_alg».proof.Proof.LayerIdx
import Idealize.ShloMosaic.Lib.Pipeline.Value

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

variable [Cert.ReferenceIdeal.Facts]

variable (V : (c : Dev nD) → (b : Ref sig .tc) → Buf (Elt Ideal) ((c : Thread nD τ).loc b))

private theorem hz2 : (![0, 0] : Fin 2 → Nat) = fun _ => 0 := funext fun a => by fin_cases a <;> rfl
private theorem hz1 : (![0] : Fin 1 → Nat) = fun _ => 0 := funext fun a => by fin_cases a <;> rfl

/-- The printed index maps over the grid: a row-tiled window's block index is (t, 0), a weight or bias window's is zero. -/
theorem idx7 : ∀ t : Fin cfg7.N, win7_0.index t (0 : Fin 2) = t.val
    ∧ win7_0.index t (1 : Fin 2) = 0
    ∧ win7_1.index t (0 : Fin 2) = t.val
    ∧ win7_1.index t (1 : Fin 2) = 0
    ∧ win7_2.index t (0 : Fin 2) = 0
    ∧ win7_2.index t (1 : Fin 2) = 0
    ∧ win7_3.index t (0 : Fin 1) = 0
    ∧ win7_4.index t (0 : Fin 2) = 0
    ∧ win7_4.index t (1 : Fin 2) = 0
    ∧ win7_5.index t (0 : Fin 1) = 0
    ∧ win7_6.index t (0 : Fin 2) = t.val
    ∧ win7_6.index t (1 : Fin 2) = 0 :=
  (by decide +kernel : ∀ t : Fin grid7.N, _)

/-- Row p of window 0's block at point t is row 5000·t + p of its array. -/
theorem iblk7_0_apply (c : Dev nD) (t : Fin cfg7.N) (p : Fin 5000) (k : Fin 128) (r : Fin 50000)
    (hr : r.val = t.val * 5000 + p.val) :
    (iblk7 V c 0 t : Vec Ideal S5000x128 .f32) (ix2 p k)
      = (V c main_v90 : S50000x128.Idx → Elt Ideal .f32) (ix2 r k) := by
  obtain ⟨e0_0, e0_1, e1_0, e1_1, e2_0, e2_1, e3_0, e4_0, e4_1, e5_0, e6_0, e6_1⟩ := idx7 t
  unfold iblk7
  rw [View.read_apply]
  show V c main_v90 _ = V c main_v90 _
  congr 1
  funext a; apply Fin.ext
  match a with
  | ⟨0, _⟩ => show win7_0.index t 0 * 5000 + 1 * p.val = r.val; rw [e0_0, hr]; omega
  | ⟨1, _⟩ => show win7_0.index t 1 * 128 + 1 * k.val = k.val; rw [e0_1]; omega

/-- Row p of window 1's block at point t is row 5000·t + p of its array. -/
theorem iblk7_1_apply (c : Dev nD) (t : Fin cfg7.N) (p : Fin 5000) (k : Fin 128) (r : Fin 50000)
    (hr : r.val = t.val * 5000 + p.val) :
    (iblk7 V c 1 t : Vec Ideal S5000x128 .f32) (ix2 p k)
      = (V c main_v100 : S50000x128.Idx → Elt Ideal .f32) (ix2 r k) := by
  obtain ⟨e0_0, e0_1, e1_0, e1_1, e2_0, e2_1, e3_0, e4_0, e4_1, e5_0, e6_0, e6_1⟩ := idx7 t
  unfold iblk7
  rw [View.read_apply]
  show V c main_v100 _ = V c main_v100 _
  congr 1
  funext a; apply Fin.ext
  match a with
  | ⟨0, _⟩ => show win7_1.index t 0 * 5000 + 1 * p.val = r.val; rw [e1_0, hr]; omega
  | ⟨1, _⟩ => show win7_1.index t 1 * 128 + 1 * k.val = k.val; rw [e1_1]; omega

/-- Window 2 holds its whole array at every point. -/
theorem iblk7_2_eq (c : Dev nD) (t : Fin cfg7.N) :
    (iblk7 V c 2 t : Vec Ideal S128x128 .f32) = (V c main_v102 : S128x128.Idx → Elt Ideal .f32) := by
  obtain ⟨e0_0, e0_1, e1_0, e1_1, e2_0, e2_1, e3_0, e4_0, e4_1, e5_0, e6_0, e6_1⟩ := idx7 t
  funext x
  unfold iblk7
  rw [View.read_apply]
  show V c main_v102 _ = V c main_v102 x
  congr 1
  funext a; apply Fin.ext
  match a with
  | ⟨0, _⟩ => show win7_2.index t 0 * 128 + 1 * (x 0).val = (x 0).val; rw [e2_0]; omega
  | ⟨1, _⟩ => show win7_2.index t 1 * 128 + 1 * (x 1).val = (x 1).val; rw [e2_1]; omega

/-- Window 3 holds its whole array at every point. -/
theorem iblk7_3_eq (c : Dev nD) (t : Fin cfg7.N) :
    (iblk7 V c 3 t : Vec Ideal S128 .f32) = (V c main_v104 : S128.Idx → Elt Ideal .f32) := by
  obtain ⟨e0_0, e0_1, e1_0, e1_1, e2_0, e2_1, e3_0, e4_0, e4_1, e5_0, e6_0, e6_1⟩ := idx7 t
  funext x
  unfold iblk7
  rw [View.read_apply]
  show V c main_v104 _ = V c main_v104 x
  congr 1
  funext a; apply Fin.ext
  match a with
  | ⟨0, _⟩ => show win7_3.index t 0 * 128 + 1 * (x 0).val = (x 0).val; rw [e3_0]; omega

/-- Window 4 holds its whole array at every point. -/
theorem iblk7_4_eq (c : Dev nD) (t : Fin cfg7.N) :
    (iblk7 V c 4 t : Vec Ideal S128x128 .f32) = (V c main_v106 : S128x128.Idx → Elt Ideal .f32) := by
  obtain ⟨e0_0, e0_1, e1_0, e1_1, e2_0, e2_1, e3_0, e4_0, e4_1, e5_0, e6_0, e6_1⟩ := idx7 t
  funext x
  unfold iblk7
  rw [View.read_apply]
  show V c main_v106 _ = V c main_v106 x
  congr 1
  funext a; apply Fin.ext
  match a with
  | ⟨0, _⟩ => show win7_4.index t 0 * 128 + 1 * (x 0).val = (x 0).val; rw [e4_0]; omega
  | ⟨1, _⟩ => show win7_4.index t 1 * 128 + 1 * (x 1).val = (x 1).val; rw [e4_1]; omega

/-- Window 5 holds its whole array at every point. -/
theorem iblk7_5_eq (c : Dev nD) (t : Fin cfg7.N) :
    (iblk7 V c 5 t : Vec Ideal S128 .f32) = (V c main_v108 : S128.Idx → Elt Ideal .f32) := by
  obtain ⟨e0_0, e0_1, e1_0, e1_1, e2_0, e2_1, e3_0, e4_0, e4_1, e5_0, e6_0, e6_1⟩ := idx7 t
  funext x
  unfold iblk7
  rw [View.read_apply]
  show V c main_v108 _ = V c main_v108 x
  congr 1
  funext a; apply Fin.ext
  match a with
  | ⟨0, _⟩ => show win7_5.index t 0 * 128 + 1 * (x 0).val = (x 0).val; rw [e5_0]; omega

/-- What point t writes back to window 6 is block t of the convolution without residual of the region's input arrays. -/
theorem flushed7_6 (c : Dev nD) (t : Fin cfg7.N) :
    (dat7 V c).flushed 6 t = ((cfg7.win 6).blk t).view.read (Elt Ideal)
      (Cert.Layers.ginPlain (V c main_v90) (V c main_v100) (V c main_v102) (V c main_v104) (V c main_v106) (V c main_v108)) := by
  show (cfg7.win 6).cut (grid7.coords t) ((dat7 V c).after 6 t) = _
  rw [after7_6]
  unfold out7_6
  rw [View.canon_unit_zero hz2]
  simp only [View.ld_unit_zero (S := S5000x128) hz2, View.ld_unit_zero (S := S128x128) hz2, View.ld_unit_zero (S := S128) hz1]
  rw [iblk7_2_eq, iblk7_3_eq, iblk7_4_eq, iblk7_5_eq]
  obtain ⟨e0_0, e0_1, e1_0, e1_1, e2_0, e2_1, e3_0, e4_0, e4_1, e5_0, e6_0, e6_1⟩ := idx7 t
  have ht : t.val < 10 := t.isLt
  funext j
  obtain ⟨p, q, rfl⟩ : ∃ (p : Fin 5000) (q : Fin 128), j = ix2 p q := ⟨j 0, j 1, eq_ix2 j⟩
  show k7_pay1 (iblk7 V c 1 t) (iblk7 V c 0 t) (V c main_v102) (V c main_v104) (V c main_v106) (V c main_v108) (ix2 p q)
    = Cert.Layers.ginPlain (V c main_v90) (V c main_v100) (V c main_v102) (V c main_v104) (V c main_v106) (V c main_v108) (((cfg7.win 6).blk t).view.emb (ix2 p q))
  have hrow : t.val * 5000 + p.val < 50000 := by have := p.isLt; omega
  have hr : ((cfg7.win 6).blk t).view.emb (ix2 p q)
      = ix2 (⟨t.val * 5000 + p.val, hrow⟩ : Fin 50000) q := by
    funext a; apply Fin.ext
    match a with
    | ⟨0, _⟩ => show win7_6.index t 0 * 5000 + 1 * p.val = t.val * 5000 + p.val; rw [e6_0]; omega
    | ⟨1, _⟩ => show win7_6.index t 1 * 128 + 1 * q.val = q.val; rw [e6_1]; omega
  rw [hr, Cert.LayerIdx.ginPlain_apply, Cert.PayIdx.plain7_apply]
  refine congrArg (fun z => max z 0) (congrArg (fun f => Cert.Dense.mlp f _ _ _ _ q) (funext fun k => ?_))
  rw [iblk7_1_apply V c t p k ⟨t.val * 5000 + p.val, hrow⟩ rfl, iblk7_0_apply V c t p k ⟨t.val * 5000 + p.val, hrow⟩ rfl]

/-- The 10 blocks of window 6 tile its array. -/
theorem cover7_6 (i : S50000x128.Idx) :
    ∃ t : Fin cfg7.N, (cfg7.win 6).flush t = true ∧ i ∈ ((cfg7.win 6).blk t).view.set := by
  have hi0 : (i 0).val < 50000 := (i 0).isLt
  have hi1 : (i 1).val < 128 := (i 1).isLt
  have hlt : (i 0).val / 5000 < 10 := by omega
  refine ⟨⟨(i 0).val / 5000, hlt⟩, flush7_6 _, ?_⟩
  obtain ⟨e0_0, e0_1, e1_0, e1_1, e2_0, e2_1, e3_0, e4_0, e4_1, e5_0, e6_0, e6_1⟩ := idx7 ⟨(i 0).val / 5000, hlt⟩
  show i ∈ ((View.whole main_v109).slice (win7_6.rect ⟨(i 0).val / 5000, hlt⟩)).set
  rw [View.set_slice_whole, Rect.mem_set_unit]
  intro a
  match a with
  | ⟨0, _⟩ =>
    show win7_6.index _ (0 : Fin 2) * 5000 ≤ (i 0).val ∧ (i 0).val < win7_6.index _ (0 : Fin 2) * 5000 + 5000
    rw [e6_0]; show (i 0).val / 5000 * 5000 ≤ (i 0).val ∧ (i 0).val < (i 0).val / 5000 * 5000 + 5000; omega
  | ⟨1, _⟩ =>
    show win7_6.index _ (1 : Fin 2) * 128 ≤ (i 1).val ∧ (i 1).val < win7_6.index _ (1 : Fin 2) * 128 + 128
    rw [e6_1]; omega

/-- Window 6's array after region 7 is the convolution without residual of the region's input arrays. -/
theorem arrAt7_6 (c : Dev nD) :
    (dat7 V c).arrAt 6 cfg7.N = Cert.Layers.ginPlain (V c main_v90) (V c main_v100) (V c main_v102) (V c main_v104) (V c main_v106) (V c main_v108) :=
  (dat7 V c).arrAt_eq_of_cover 6 (Cert.Layers.ginPlain (V c main_v90) (V c main_v100) (V c main_v102) (V c main_v104) (V c main_v106) (V c main_v108))
    (fun t _ => flushed7_6 V c t) (cover7_6)

end Cert.KernelIdeal.HandVal

end
-- ==== Proof.IVal8.lean ====
/-
  Region 8: each output array after the region is the reference's layer function of the region's input arrays. Each grid
  point's block of an output is the payload of the point's input blocks; row p of a row-tiled block at point t is row
  5000·t + p of its array, the weight and bias windows hold their whole arrays at every point, and the 10 blocks tile the array.
-/
import proofs.«106875_j87694642250037_1_alg».proof.Proof.IReg8
import proofs.«106875_j87694642250037_1_alg».proof.Proof.PayIdx
import proofs.«106875_j87694642250037_1_alg».proof.Proof.LayerIdx
import Idealize.ShloMosaic.Lib.Pipeline.Value

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

variable [Cert.ReferenceIdeal.Facts]

variable (V : (c : Dev nD) → (b : Ref sig .tc) → Buf (Elt Ideal) ((c : Thread nD τ).loc b))

private theorem hz2 : (![0, 0] : Fin 2 → Nat) = fun _ => 0 := funext fun a => by fin_cases a <;> rfl
private theorem hz1 : (![0] : Fin 1 → Nat) = fun _ => 0 := funext fun a => by fin_cases a <;> rfl

/-- The printed index maps over the grid: a row-tiled window's block index is (t, 0), a weight or bias window's is zero. -/
theorem idx8 : ∀ t : Fin cfg8.N, win8_0.index t (0 : Fin 2) = t.val
    ∧ win8_0.index t (1 : Fin 2) = 0
    ∧ win8_1.index t (0 : Fin 2) = t.val
    ∧ win8_1.index t (1 : Fin 2) = 0
    ∧ win8_2.index t (0 : Fin 2) = t.val
    ∧ win8_2.index t (1 : Fin 2) = 0
    ∧ win8_3.index t (0 : Fin 2) = 0
    ∧ win8_3.index t (1 : Fin 2) = 0
    ∧ win8_4.index t (0 : Fin 1) = 0
    ∧ win8_5.index t (0 : Fin 2) = 0
    ∧ win8_5.index t (1 : Fin 2) = 0
    ∧ win8_6.index t (0 : Fin 1) = 0
    ∧ win8_7.index t (0 : Fin 2) = t.val
    ∧ win8_7.index t (1 : Fin 2) = 0
    ∧ win8_8.index t (0 : Fin 2) = t.val
    ∧ win8_8.index t (1 : Fin 2) = 0 :=
  (by decide +kernel : ∀ t : Fin grid8.N, _)

/-- Row p of window 0's block at point t is row 5000·t + p of its array. -/
theorem iblk8_0_apply (c : Dev nD) (t : Fin cfg8.N) (p : Fin 5000) (k : Fin 128) (r : Fin 50000)
    (hr : r.val = t.val * 5000 + p.val) :
    (iblk8 V c 0 t : Vec Ideal S5000x128 .f32) (ix2 p k)
      = (V c main_v109 : S50000x128.Idx → Elt Ideal .f32) (ix2 r k) := by
  obtain ⟨e0_0, e0_1, e1_0, e1_1, e2_0, e2_1, e3_0, e3_1, e4_0, e5_0, e5_1, e6_0, e7_0, e7_1, e8_0, e8_1⟩ := idx8 t
  unfold iblk8
  rw [View.read_apply]
  show V c main_v109 _ = V c main_v109 _
  congr 1
  funext a; apply Fin.ext
  match a with
  | ⟨0, _⟩ => show win8_0.index t 0 * 5000 + 1 * p.val = r.val; rw [e0_0, hr]; omega
  | ⟨1, _⟩ => show win8_0.index t 1 * 128 + 1 * k.val = k.val; rw [e0_1]; omega

/-- Row p of window 1's block at point t is row 5000·t + p of its array. -/
theorem iblk8_1_apply (c : Dev nD) (t : Fin cfg8.N) (p : Fin 5000) (k : Fin 128) (r : Fin 50000)
    (hr : r.val = t.val * 5000 + p.val) :
    (iblk8 V c 1 t : Vec Ideal S5000x128 .f32) (ix2 p k)
      = (V c main_v119 : S50000x128.Idx → Elt Ideal .f32) (ix2 r k) := by
  obtain ⟨e0_0, e0_1, e1_0, e1_1, e2_0, e2_1, e3_0, e3_1, e4_0, e5_0, e5_1, e6_0, e7_0, e7_1, e8_0, e8_1⟩ := idx8 t
  unfold iblk8
  rw [View.read_apply]
  show V c main_v119 _ = V c main_v119 _
  congr 1
  funext a; apply Fin.ext
  match a with
  | ⟨0, _⟩ => show win8_1.index t 0 * 5000 + 1 * p.val = r.val; rw [e1_0, hr]; omega
  | ⟨1, _⟩ => show win8_1.index t 1 * 128 + 1 * k.val = k.val; rw [e1_1]; omega

/-- Row p of window 2's block at point t is row 5000·t + p of its array. -/
theorem iblk8_2_apply (c : Dev nD) (t : Fin cfg8.N) (p : Fin 5000) (k : Fin 128) (r : Fin 50000)
    (hr : r.val = t.val * 5000 + p.val) :
    (iblk8 V c 2 t : Vec Ideal S5000x128 .f32) (ix2 p k)
      = (V c main_v90 : S50000x128.Idx → Elt Ideal .f32) (ix2 r k) := by
  obtain ⟨e0_0, e0_1, e1_0, e1_1, e2_0, e2_1, e3_0, e3_1, e4_0, e5_0, e5_1, e6_0, e7_0, e7_1, e8_0, e8_1⟩ := idx8 t
  unfold iblk8
  rw [View.read_apply]
  show V c main_v90 _ = V c main_v90 _
  congr 1
  funext a; apply Fin.ext
  match a with
  | ⟨0, _⟩ => show win8_2.index t 0 * 5000 + 1 * p.val = r.val; rw [e2_0, hr]; omega
  | ⟨1, _⟩ => show win8_2.index t 1 * 128 + 1 * k.val = k.val; rw [e2_1]; omega

/-- Window 3 holds its whole array at every point. -/
theorem iblk8_3_eq (c : Dev nD) (t : Fin cfg8.N) :
    (iblk8 V c 3 t : Vec Ideal S128x128 .f32) = (V c main_v121 : S128x128.Idx → Elt Ideal .f32) := by
  obtain ⟨e0_0, e0_1, e1_0, e1_1, e2_0, e2_1, e3_0, e3_1, e4_0, e5_0, e5_1, e6_0, e7_0, e7_1, e8_0, e8_1⟩ := idx8 t
  funext x
  unfold iblk8
  rw [View.read_apply]
  show V c main_v121 _ = V c main_v121 x
  congr 1
  funext a; apply Fin.ext
  match a with
  | ⟨0, _⟩ => show win8_3.index t 0 * 128 + 1 * (x 0).val = (x 0).val; rw [e3_0]; omega
  | ⟨1, _⟩ => show win8_3.index t 1 * 128 + 1 * (x 1).val = (x 1).val; rw [e3_1]; omega

/-- Window 4 holds its whole array at every point. -/
theorem iblk8_4_eq (c : Dev nD) (t : Fin cfg8.N) :
    (iblk8 V c 4 t : Vec Ideal S128 .f32) = (V c main_v123 : S128.Idx → Elt Ideal .f32) := by
  obtain ⟨e0_0, e0_1, e1_0, e1_1, e2_0, e2_1, e3_0, e3_1, e4_0, e5_0, e5_1, e6_0, e7_0, e7_1, e8_0, e8_1⟩ := idx8 t
  funext x
  unfold iblk8
  rw [View.read_apply]
  show V c main_v123 _ = V c main_v123 x
  congr 1
  funext a; apply Fin.ext
  match a with
  | ⟨0, _⟩ => show win8_4.index t 0 * 128 + 1 * (x 0).val = (x 0).val; rw [e4_0]; omega

/-- Window 5 holds its whole array at every point. -/
theorem iblk8_5_eq (c : Dev nD) (t : Fin cfg8.N) :
    (iblk8 V c 5 t : Vec Ideal S128x128 .f32) = (V c main_v125 : S128x128.Idx → Elt Ideal .f32) := by
  obtain ⟨e0_0, e0_1, e1_0, e1_1, e2_0, e2_1, e3_0, e3_1, e4_0, e5_0, e5_1, e6_0, e7_0, e7_1, e8_0, e8_1⟩ := idx8 t
  funext x
  unfold iblk8
  rw [View.read_apply]
  show V c main_v125 _ = V c main_v125 x
  congr 1
  funext a; apply Fin.ext
  match a with
  | ⟨0, _⟩ => show win8_5.index t 0 * 128 + 1 * (x 0).val = (x 0).val; rw [e5_0]; omega
  | ⟨1, _⟩ => show win8_5.index t 1 * 128 + 1 * (x 1).val = (x 1).val; rw [e5_1]; omega

/-- Window 6 holds its whole array at every point. -/
theorem iblk8_6_eq (c : Dev nD) (t : Fin cfg8.N) :
    (iblk8 V c 6 t : Vec Ideal S128 .f32) = (V c main_v127 : S128.Idx → Elt Ideal .f32) := by
  obtain ⟨e0_0, e0_1, e1_0, e1_1, e2_0, e2_1, e3_0, e3_1, e4_0, e5_0, e5_1, e6_0, e7_0, e7_1, e8_0, e8_1⟩ := idx8 t
  funext x
  unfold iblk8
  rw [View.read_apply]
  show V c main_v127 _ = V c main_v127 x
  congr 1
  funext a; apply Fin.ext
  match a with
  | ⟨0, _⟩ => show win8_6.index t 0 * 128 + 1 * (x 0).val = (x 0).val; rw [e6_0]; omega

/-- What point t writes back to window 7 is block t of the convolution with residual of the region's input arrays. -/
theorem flushed8_7 (c : Dev nD) (t : Fin cfg8.N) :
    (dat8 V c).flushed 7 t = ((cfg8.win 7).blk t).view.read (Elt Ideal)
      (Cert.Layers.ginResid (V c main_v109) (V c main_v119) (V c main_v90) (V c main_v121) (V c main_v123) (V c main_v125) (V c main_v127)) := by
  show (cfg8.win 7).cut (grid8.coords t) ((dat8 V c).after 7 t) = _
  rw [after8_7]
  unfold out8_7
  rw [View.canon_unit_zero hz2]
  simp only [View.ld_unit_zero (S := S5000x128) hz2, View.ld_unit_zero (S := S128x128) hz2, View.ld_unit_zero (S := S128) hz1]
  rw [iblk8_3_eq, iblk8_4_eq, iblk8_5_eq, iblk8_6_eq]
  obtain ⟨e0_0, e0_1, e1_0, e1_1, e2_0, e2_1, e3_0, e3_1, e4_0, e5_0, e5_1, e6_0, e7_0, e7_1, e8_0, e8_1⟩ := idx8 t
  have ht : t.val < 10 := t.isLt
  funext j
  obtain ⟨p, q, rfl⟩ : ∃ (p : Fin 5000) (q : Fin 128), j = ix2 p q := ⟨j 0, j 1, eq_ix2 j⟩
  show k8_pay2 (iblk8 V c 1 t) (iblk8 V c 0 t) (V c main_v121) (V c main_v123) (V c main_v125) (V c main_v127) (iblk8 V c 2 t) (ix2 p q)
    = Cert.Layers.ginResid (V c main_v109) (V c main_v119) (V c main_v90) (V c main_v121) (V c main_v123) (V c main_v125) (V c main_v127) (((cfg8.win 7).blk t).view.emb (ix2 p q))
  have hrow : t.val * 5000 + p.val < 50000 := by have := p.isLt; omega
  have hr : ((cfg8.win 7).blk t).view.emb (ix2 p q)
      = ix2 (⟨t.val * 5000 + p.val, hrow⟩ : Fin 50000) q := by
    funext a; apply Fin.ext
    match a with
    | ⟨0, _⟩ => show win8_7.index t 0 * 5000 + 1 * p.val = t.val * 5000 + p.val; rw [e7_0]; omega
    | ⟨1, _⟩ => show win8_7.index t 1 * 128 + 1 * q.val = q.val; rw [e7_1]; omega
  rw [hr, Cert.LayerIdx.ginResid_apply, Cert.PayIdx.resid8_apply]
  refine congrArg (fun z => max z 0) (congrArg₂ (· + ·) (congrArg (fun f => Cert.Dense.mlp f _ _ _ _ q) (funext fun k => ?_)) (iblk8_2_apply V c t p q ⟨t.val * 5000 + p.val, hrow⟩ rfl))
  rw [iblk8_1_apply V c t p k ⟨t.val * 5000 + p.val, hrow⟩ rfl, iblk8_0_apply V c t p k ⟨t.val * 5000 + p.val, hrow⟩ rfl]

/-- The 10 blocks of window 7 tile its array. -/
theorem cover8_7 (i : S50000x128.Idx) :
    ∃ t : Fin cfg8.N, (cfg8.win 7).flush t = true ∧ i ∈ ((cfg8.win 7).blk t).view.set := by
  have hi0 : (i 0).val < 50000 := (i 0).isLt
  have hi1 : (i 1).val < 128 := (i 1).isLt
  have hlt : (i 0).val / 5000 < 10 := by omega
  refine ⟨⟨(i 0).val / 5000, hlt⟩, flush8_7 _, ?_⟩
  obtain ⟨e0_0, e0_1, e1_0, e1_1, e2_0, e2_1, e3_0, e3_1, e4_0, e5_0, e5_1, e6_0, e7_0, e7_1, e8_0, e8_1⟩ := idx8 ⟨(i 0).val / 5000, hlt⟩
  show i ∈ ((View.whole main_v128_0).slice (win8_7.rect ⟨(i 0).val / 5000, hlt⟩)).set
  rw [View.set_slice_whole, Rect.mem_set_unit]
  intro a
  match a with
  | ⟨0, _⟩ =>
    show win8_7.index _ (0 : Fin 2) * 5000 ≤ (i 0).val ∧ (i 0).val < win8_7.index _ (0 : Fin 2) * 5000 + 5000
    rw [e7_0]; show (i 0).val / 5000 * 5000 ≤ (i 0).val ∧ (i 0).val < (i 0).val / 5000 * 5000 + 5000; omega
  | ⟨1, _⟩ =>
    show win8_7.index _ (1 : Fin 2) * 128 ≤ (i 1).val ∧ (i 1).val < win8_7.index _ (1 : Fin 2) * 128 + 128
    rw [e7_1]; omega

/-- Window 7's array after region 8 is the convolution with residual of the region's input arrays. -/
theorem arrAt8_7 (c : Dev nD) :
    (dat8 V c).arrAt 7 cfg8.N = Cert.Layers.ginResid (V c main_v109) (V c main_v119) (V c main_v90) (V c main_v121) (V c main_v123) (V c main_v125) (V c main_v127) :=
  (dat8 V c).arrAt_eq_of_cover 7 (Cert.Layers.ginResid (V c main_v109) (V c main_v119) (V c main_v90) (V c main_v121) (V c main_v123) (V c main_v125) (V c main_v127))
    (fun t _ => flushed8_7 V c t) (cover8_7)

/-- What point t writes back to window 8 is block t of the convolution with residual before the rectifier (the next residual) of the region's input arrays. -/
theorem flushed8_8 (c : Dev nD) (t : Fin cfg8.N) :
    (dat8 V c).flushed 8 t = ((cfg8.win 8).blk t).view.read (Elt Ideal)
      (Cert.Layers.ginResidPre (V c main_v109) (V c main_v119) (V c main_v90) (V c main_v121) (V c main_v123) (V c main_v125) (V c main_v127)) := by
  show (cfg8.win 8).cut (grid8.coords t) ((dat8 V c).after 8 t) = _
  rw [after8_8]
  unfold out8_8
  rw [View.canon_unit_zero hz2]
  simp only [View.ld_unit_zero (S := S5000x128) hz2, View.ld_unit_zero (S := S128x128) hz2, View.ld_unit_zero (S := S128) hz1]
  rw [iblk8_3_eq, iblk8_4_eq, iblk8_5_eq, iblk8_6_eq]
  obtain ⟨e0_0, e0_1, e1_0, e1_1, e2_0, e2_1, e3_0, e3_1, e4_0, e5_0, e5_1, e6_0, e7_0, e7_1, e8_0, e8_1⟩ := idx8 t
  have ht : t.val < 10 := t.isLt
  funext j
  obtain ⟨p, q, rfl⟩ : ∃ (p : Fin 5000) (q : Fin 128), j = ix2 p q := ⟨j 0, j 1, eq_ix2 j⟩
  show k8_pay1 (iblk8 V c 1 t) (iblk8 V c 0 t) (V c main_v121) (V c main_v123) (V c main_v125) (V c main_v127) (iblk8 V c 2 t) (ix2 p q)
    = Cert.Layers.ginResidPre (V c main_v109) (V c main_v119) (V c main_v90) (V c main_v121) (V c main_v123) (V c main_v125) (V c main_v127) (((cfg8.win 8).blk t).view.emb (ix2 p q))
  have hrow : t.val * 5000 + p.val < 50000 := by have := p.isLt; omega
  have hr : ((cfg8.win 8).blk t).view.emb (ix2 p q)
      = ix2 (⟨t.val * 5000 + p.val, hrow⟩ : Fin 50000) q := by
    funext a; apply Fin.ext
    match a with
    | ⟨0, _⟩ => show win8_8.index t 0 * 5000 + 1 * p.val = t.val * 5000 + p.val; rw [e8_0]; omega
    | ⟨1, _⟩ => show win8_8.index t 1 * 128 + 1 * q.val = q.val; rw [e8_1]; omega
  rw [hr, Cert.LayerIdx.ginResidPre_apply, Cert.PayIdx.residPre8_apply]
  refine (congrArg₂ (· + ·) (congrArg (fun f => Cert.Dense.mlp f _ _ _ _ q) (funext fun k => ?_)) (iblk8_2_apply V c t p q ⟨t.val * 5000 + p.val, hrow⟩ rfl))
  rw [iblk8_1_apply V c t p k ⟨t.val * 5000 + p.val, hrow⟩ rfl, iblk8_0_apply V c t p k ⟨t.val * 5000 + p.val, hrow⟩ rfl]

/-- The 10 blocks of window 8 tile its array. -/
theorem cover8_8 (i : S50000x128.Idx) :
    ∃ t : Fin cfg8.N, (cfg8.win 8).flush t = true ∧ i ∈ ((cfg8.win 8).blk t).view.set := by
  have hi0 : (i 0).val < 50000 := (i 0).isLt
  have hi1 : (i 1).val < 128 := (i 1).isLt
  have hlt : (i 0).val / 5000 < 10 := by omega
  refine ⟨⟨(i 0).val / 5000, hlt⟩, flush8_8 _, ?_⟩
  obtain ⟨e0_0, e0_1, e1_0, e1_1, e2_0, e2_1, e3_0, e3_1, e4_0, e5_0, e5_1, e6_0, e7_0, e7_1, e8_0, e8_1⟩ := idx8 ⟨(i 0).val / 5000, hlt⟩
  show i ∈ ((View.whole main_v128_1).slice (win8_8.rect ⟨(i 0).val / 5000, hlt⟩)).set
  rw [View.set_slice_whole, Rect.mem_set_unit]
  intro a
  match a with
  | ⟨0, _⟩ =>
    show win8_8.index _ (0 : Fin 2) * 5000 ≤ (i 0).val ∧ (i 0).val < win8_8.index _ (0 : Fin 2) * 5000 + 5000
    rw [e8_0]; show (i 0).val / 5000 * 5000 ≤ (i 0).val ∧ (i 0).val < (i 0).val / 5000 * 5000 + 5000; omega
  | ⟨1, _⟩ =>
    show win8_8.index _ (1 : Fin 2) * 128 ≤ (i 1).val ∧ (i 1).val < win8_8.index _ (1 : Fin 2) * 128 + 128
    rw [e8_1]; omega

/-- Window 8's array after region 8 is the convolution with residual before the rectifier (the next residual) of the region's input arrays. -/
theorem arrAt8_8 (c : Dev nD) :
    (dat8 V c).arrAt 8 cfg8.N = Cert.Layers.ginResidPre (V c main_v109) (V c main_v119) (V c main_v90) (V c main_v121) (V c main_v123) (V c main_v125) (V c main_v127) :=
  (dat8 V c).arrAt_eq_of_cover 8 (Cert.Layers.ginResidPre (V c main_v109) (V c main_v119) (V c main_v90) (V c main_v121) (V c main_v123) (V c main_v125) (V c main_v127))
    (fun t _ => flushed8_8 V c t) (cover8_8)

end Cert.KernelIdeal.HandVal

end
-- ==== Proof.IVal9.lean ====
/-
  Region 9: each output array after the region is the reference's layer function of the region's input arrays. Each grid
  point's block of an output is the payload of the point's input blocks; row p of a row-tiled block at point t is row
  5000·t + p of its array, the weight and bias windows hold their whole arrays at every point, and the 10 blocks tile the array.
-/
import proofs.«106875_j87694642250037_1_alg».proof.Proof.IReg9
import proofs.«106875_j87694642250037_1_alg».proof.Proof.PayIdx
import proofs.«106875_j87694642250037_1_alg».proof.Proof.LayerIdx
import Idealize.ShloMosaic.Lib.Pipeline.Value

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

variable [Cert.ReferenceIdeal.Facts]

variable (V : (c : Dev nD) → (b : Ref sig .tc) → Buf (Elt Ideal) ((c : Thread nD τ).loc b))

private theorem hz2 : (![0, 0] : Fin 2 → Nat) = fun _ => 0 := funext fun a => by fin_cases a <;> rfl
private theorem hz1 : (![0] : Fin 1 → Nat) = fun _ => 0 := funext fun a => by fin_cases a <;> rfl

/-- The printed index maps over the grid: a row-tiled window's block index is (t, 0), a weight or bias window's is zero. -/
theorem idx9 : ∀ t : Fin cfg9.N, win9_0.index t (0 : Fin 2) = t.val
    ∧ win9_0.index t (1 : Fin 2) = 0
    ∧ win9_1.index t (0 : Fin 2) = t.val
    ∧ win9_1.index t (1 : Fin 2) = 0
    ∧ win9_2.index t (0 : Fin 2) = 0
    ∧ win9_2.index t (1 : Fin 2) = 0
    ∧ win9_3.index t (0 : Fin 1) = 0
    ∧ win9_4.index t (0 : Fin 2) = 0
    ∧ win9_4.index t (1 : Fin 2) = 0
    ∧ win9_5.index t (0 : Fin 1) = 0
    ∧ win9_6.index t (0 : Fin 2) = t.val
    ∧ win9_6.index t (1 : Fin 2) = 0 :=
  (by decide +kernel : ∀ t : Fin grid9.N, _)

/-- Row p of window 0's block at point t is row 5000·t + p of its array. -/
theorem iblk9_0_apply (c : Dev nD) (t : Fin cfg9.N) (p : Fin 5000) (k : Fin 128) (r : Fin 50000)
    (hr : r.val = t.val * 5000 + p.val) :
    (iblk9 V c 0 t : Vec Ideal S5000x128 .f32) (ix2 p k)
      = (V c main_v128_0 : S50000x128.Idx → Elt Ideal .f32) (ix2 r k) := by
  obtain ⟨e0_0, e0_1, e1_0, e1_1, e2_0, e2_1, e3_0, e4_0, e4_1, e5_0, e6_0, e6_1⟩ := idx9 t
  unfold iblk9
  rw [View.read_apply]
  show V c main_v128_0 _ = V c main_v128_0 _
  congr 1
  funext a; apply Fin.ext
  match a with
  | ⟨0, _⟩ => show win9_0.index t 0 * 5000 + 1 * p.val = r.val; rw [e0_0, hr]; omega
  | ⟨1, _⟩ => show win9_0.index t 1 * 128 + 1 * k.val = k.val; rw [e0_1]; omega

/-- Row p of window 1's block at point t is row 5000·t + p of its array. -/
theorem iblk9_1_apply (c : Dev nD) (t : Fin cfg9.N) (p : Fin 5000) (k : Fin 128) (r : Fin 50000)
    (hr : r.val = t.val * 5000 + p.val) :
    (iblk9 V c 1 t : Vec Ideal S5000x128 .f32) (ix2 p k)
      = (V c main_v138 : S50000x128.Idx → Elt Ideal .f32) (ix2 r k) := by
  obtain ⟨e0_0, e0_1, e1_0, e1_1, e2_0, e2_1, e3_0, e4_0, e4_1, e5_0, e6_0, e6_1⟩ := idx9 t
  unfold iblk9
  rw [View.read_apply]
  show V c main_v138 _ = V c main_v138 _
  congr 1
  funext a; apply Fin.ext
  match a with
  | ⟨0, _⟩ => show win9_1.index t 0 * 5000 + 1 * p.val = r.val; rw [e1_0, hr]; omega
  | ⟨1, _⟩ => show win9_1.index t 1 * 128 + 1 * k.val = k.val; rw [e1_1]; omega

/-- Window 2 holds its whole array at every point. -/
theorem iblk9_2_eq (c : Dev nD) (t : Fin cfg9.N) :
    (iblk9 V c 2 t : Vec Ideal S128x128 .f32) = (V c main_v140 : S128x128.Idx → Elt Ideal .f32) := by
  obtain ⟨e0_0, e0_1, e1_0, e1_1, e2_0, e2_1, e3_0, e4_0, e4_1, e5_0, e6_0, e6_1⟩ := idx9 t
  funext x
  unfold iblk9
  rw [View.read_apply]
  show V c main_v140 _ = V c main_v140 x
  congr 1
  funext a; apply Fin.ext
  match a with
  | ⟨0, _⟩ => show win9_2.index t 0 * 128 + 1 * (x 0).val = (x 0).val; rw [e2_0]; omega
  | ⟨1, _⟩ => show win9_2.index t 1 * 128 + 1 * (x 1).val = (x 1).val; rw [e2_1]; omega

/-- Window 3 holds its whole array at every point. -/
theorem iblk9_3_eq (c : Dev nD) (t : Fin cfg9.N) :
    (iblk9 V c 3 t : Vec Ideal S128 .f32) = (V c main_v142 : S128.Idx → Elt Ideal .f32) := by
  obtain ⟨e0_0, e0_1, e1_0, e1_1, e2_0, e2_1, e3_0, e4_0, e4_1, e5_0, e6_0, e6_1⟩ := idx9 t
  funext x
  unfold iblk9
  rw [View.read_apply]
  show V c main_v142 _ = V c main_v142 x
  congr 1
  funext a; apply Fin.ext
  match a with
  | ⟨0, _⟩ => show win9_3.index t 0 * 128 + 1 * (x 0).val = (x 0).val; rw [e3_0]; omega

/-- Window 4 holds its whole array at every point. -/
theorem iblk9_4_eq (c : Dev nD) (t : Fin cfg9.N) :
    (iblk9 V c 4 t : Vec Ideal S128x128 .f32) = (V c main_v144 : S128x128.Idx → Elt Ideal .f32) := by
  obtain ⟨e0_0, e0_1, e1_0, e1_1, e2_0, e2_1, e3_0, e4_0, e4_1, e5_0, e6_0, e6_1⟩ := idx9 t
  funext x
  unfold iblk9
  rw [View.read_apply]
  show V c main_v144 _ = V c main_v144 x
  congr 1
  funext a; apply Fin.ext
  match a with
  | ⟨0, _⟩ => show win9_4.index t 0 * 128 + 1 * (x 0).val = (x 0).val; rw [e4_0]; omega
  | ⟨1, _⟩ => show win9_4.index t 1 * 128 + 1 * (x 1).val = (x 1).val; rw [e4_1]; omega

/-- Window 5 holds its whole array at every point. -/
theorem iblk9_5_eq (c : Dev nD) (t : Fin cfg9.N) :
    (iblk9 V c 5 t : Vec Ideal S128 .f32) = (V c main_v146 : S128.Idx → Elt Ideal .f32) := by
  obtain ⟨e0_0, e0_1, e1_0, e1_1, e2_0, e2_1, e3_0, e4_0, e4_1, e5_0, e6_0, e6_1⟩ := idx9 t
  funext x
  unfold iblk9
  rw [View.read_apply]
  show V c main_v146 _ = V c main_v146 x
  congr 1
  funext a; apply Fin.ext
  match a with
  | ⟨0, _⟩ => show win9_5.index t 0 * 128 + 1 * (x 0).val = (x 0).val; rw [e5_0]; omega

/-- What point t writes back to window 6 is block t of the convolution without residual of the region's input arrays. -/
theorem flushed9_6 (c : Dev nD) (t : Fin cfg9.N) :
    (dat9 V c).flushed 6 t = ((cfg9.win 6).blk t).view.read (Elt Ideal)
      (Cert.Layers.ginPlain (V c main_v128_0) (V c main_v138) (V c main_v140) (V c main_v142) (V c main_v144) (V c main_v146)) := by
  show (cfg9.win 6).cut (grid9.coords t) ((dat9 V c).after 6 t) = _
  rw [after9_6]
  unfold out9_6
  rw [View.canon_unit_zero hz2]
  simp only [View.ld_unit_zero (S := S5000x128) hz2, View.ld_unit_zero (S := S128x128) hz2, View.ld_unit_zero (S := S128) hz1]
  rw [iblk9_2_eq, iblk9_3_eq, iblk9_4_eq, iblk9_5_eq]
  obtain ⟨e0_0, e0_1, e1_0, e1_1, e2_0, e2_1, e3_0, e4_0, e4_1, e5_0, e6_0, e6_1⟩ := idx9 t
  have ht : t.val < 10 := t.isLt
  funext j
  obtain ⟨p, q, rfl⟩ : ∃ (p : Fin 5000) (q : Fin 128), j = ix2 p q := ⟨j 0, j 1, eq_ix2 j⟩
  show k9_pay1 (iblk9 V c 1 t) (iblk9 V c 0 t) (V c main_v140) (V c main_v142) (V c main_v144) (V c main_v146) (ix2 p q)
    = Cert.Layers.ginPlain (V c main_v128_0) (V c main_v138) (V c main_v140) (V c main_v142) (V c main_v144) (V c main_v146) (((cfg9.win 6).blk t).view.emb (ix2 p q))
  have hrow : t.val * 5000 + p.val < 50000 := by have := p.isLt; omega
  have hr : ((cfg9.win 6).blk t).view.emb (ix2 p q)
      = ix2 (⟨t.val * 5000 + p.val, hrow⟩ : Fin 50000) q := by
    funext a; apply Fin.ext
    match a with
    | ⟨0, _⟩ => show win9_6.index t 0 * 5000 + 1 * p.val = t.val * 5000 + p.val; rw [e6_0]; omega
    | ⟨1, _⟩ => show win9_6.index t 1 * 128 + 1 * q.val = q.val; rw [e6_1]; omega
  rw [hr, Cert.LayerIdx.ginPlain_apply, Cert.PayIdx.plain9_apply]
  refine congrArg (fun z => max z 0) (congrArg (fun f => Cert.Dense.mlp f _ _ _ _ q) (funext fun k => ?_))
  rw [iblk9_1_apply V c t p k ⟨t.val * 5000 + p.val, hrow⟩ rfl, iblk9_0_apply V c t p k ⟨t.val * 5000 + p.val, hrow⟩ rfl]

/-- The 10 blocks of window 6 tile its array. -/
theorem cover9_6 (i : S50000x128.Idx) :
    ∃ t : Fin cfg9.N, (cfg9.win 6).flush t = true ∧ i ∈ ((cfg9.win 6).blk t).view.set := by
  have hi0 : (i 0).val < 50000 := (i 0).isLt
  have hi1 : (i 1).val < 128 := (i 1).isLt
  have hlt : (i 0).val / 5000 < 10 := by omega
  refine ⟨⟨(i 0).val / 5000, hlt⟩, flush9_6 _, ?_⟩
  obtain ⟨e0_0, e0_1, e1_0, e1_1, e2_0, e2_1, e3_0, e4_0, e4_1, e5_0, e6_0, e6_1⟩ := idx9 ⟨(i 0).val / 5000, hlt⟩
  show i ∈ ((View.whole main_v147).slice (win9_6.rect ⟨(i 0).val / 5000, hlt⟩)).set
  rw [View.set_slice_whole, Rect.mem_set_unit]
  intro a
  match a with
  | ⟨0, _⟩ =>
    show win9_6.index _ (0 : Fin 2) * 5000 ≤ (i 0).val ∧ (i 0).val < win9_6.index _ (0 : Fin 2) * 5000 + 5000
    rw [e6_0]; show (i 0).val / 5000 * 5000 ≤ (i 0).val ∧ (i 0).val < (i 0).val / 5000 * 5000 + 5000; omega
  | ⟨1, _⟩ =>
    show win9_6.index _ (1 : Fin 2) * 128 ≤ (i 1).val ∧ (i 1).val < win9_6.index _ (1 : Fin 2) * 128 + 128
    rw [e6_1]; omega

/-- Window 6's array after region 9 is the convolution without residual of the region's input arrays. -/
theorem arrAt9_6 (c : Dev nD) :
    (dat9 V c).arrAt 6 cfg9.N = Cert.Layers.ginPlain (V c main_v128_0) (V c main_v138) (V c main_v140) (V c main_v142) (V c main_v144) (V c main_v146) :=
  (dat9 V c).arrAt_eq_of_cover 6 (Cert.Layers.ginPlain (V c main_v128_0) (V c main_v138) (V c main_v140) (V c main_v142) (V c main_v144) (V c main_v146))
    (fun t _ => flushed9_6 V c t) (cover9_6)

end Cert.KernelIdeal.HandVal

end
-- ==== Proof.IVal10.lean ====
/-
  Region 10: each output array after the region is the reference's layer function of the region's input arrays. Each grid
  point's block of an output is the payload of the point's input blocks; row p of a row-tiled block at point t is row
  5000·t + p of its array, the weight and bias windows hold their whole arrays at every point, and the 10 blocks tile the array.
-/
import proofs.«106875_j87694642250037_1_alg».proof.Proof.IReg10
import proofs.«106875_j87694642250037_1_alg».proof.Proof.PayIdx
import proofs.«106875_j87694642250037_1_alg».proof.Proof.LayerIdx
import Idealize.ShloMosaic.Lib.Pipeline.Value

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

variable [Cert.ReferenceIdeal.Facts]

variable (V : (c : Dev nD) → (b : Ref sig .tc) → Buf (Elt Ideal) ((c : Thread nD τ).loc b))

private theorem hz2 : (![0, 0] : Fin 2 → Nat) = fun _ => 0 := funext fun a => by fin_cases a <;> rfl
private theorem hz1 : (![0] : Fin 1 → Nat) = fun _ => 0 := funext fun a => by fin_cases a <;> rfl

/-- The printed index maps over the grid: a row-tiled window's block index is (t, 0), a weight or bias window's is zero. -/
theorem idx10 : ∀ t : Fin cfg10.N, win10_0.index t (0 : Fin 2) = t.val
    ∧ win10_0.index t (1 : Fin 2) = 0
    ∧ win10_1.index t (0 : Fin 2) = t.val
    ∧ win10_1.index t (1 : Fin 2) = 0
    ∧ win10_2.index t (0 : Fin 2) = t.val
    ∧ win10_2.index t (1 : Fin 2) = 0
    ∧ win10_3.index t (0 : Fin 2) = 0
    ∧ win10_3.index t (1 : Fin 2) = 0
    ∧ win10_4.index t (0 : Fin 1) = 0
    ∧ win10_5.index t (0 : Fin 2) = 0
    ∧ win10_5.index t (1 : Fin 2) = 0
    ∧ win10_6.index t (0 : Fin 1) = 0
    ∧ win10_7.index t (0 : Fin 2) = t.val
    ∧ win10_7.index t (1 : Fin 2) = 0
    ∧ win10_8.index t (0 : Fin 2) = t.val
    ∧ win10_8.index t (1 : Fin 2) = 0 :=
  (by decide +kernel : ∀ t : Fin grid10.N, _)

/-- Row p of window 0's block at point t is row 5000·t + p of its array. -/
theorem iblk10_0_apply (c : Dev nD) (t : Fin cfg10.N) (p : Fin 5000) (k : Fin 128) (r : Fin 50000)
    (hr : r.val = t.val * 5000 + p.val) :
    (iblk10 V c 0 t : Vec Ideal S5000x128 .f32) (ix2 p k)
      = (V c main_v147 : S50000x128.Idx → Elt Ideal .f32) (ix2 r k) := by
  obtain ⟨e0_0, e0_1, e1_0, e1_1, e2_0, e2_1, e3_0, e3_1, e4_0, e5_0, e5_1, e6_0, e7_0, e7_1, e8_0, e8_1⟩ := idx10 t
  unfold iblk10
  rw [View.read_apply]
  show V c main_v147 _ = V c main_v147 _
  congr 1
  funext a; apply Fin.ext
  match a with
  | ⟨0, _⟩ => show win10_0.index t 0 * 5000 + 1 * p.val = r.val; rw [e0_0, hr]; omega
  | ⟨1, _⟩ => show win10_0.index t 1 * 128 + 1 * k.val = k.val; rw [e0_1]; omega

/-- Row p of window 1's block at point t is row 5000·t + p of its array. -/
theorem iblk10_1_apply (c : Dev nD) (t : Fin cfg10.N) (p : Fin 5000) (k : Fin 128) (r : Fin 50000)
    (hr : r.val = t.val * 5000 + p.val) :
    (iblk10 V c 1 t : Vec Ideal S5000x128 .f32) (ix2 p k)
      = (V c main_v157 : S50000x128.Idx → Elt Ideal .f32) (ix2 r k) := by
  obtain ⟨e0_0, e0_1, e1_0, e1_1, e2_0, e2_1, e3_0, e3_1, e4_0, e5_0, e5_1, e6_0, e7_0, e7_1, e8_0, e8_1⟩ := idx10 t
  unfold iblk10
  rw [View.read_apply]
  show V c main_v157 _ = V c main_v157 _
  congr 1
  funext a; apply Fin.ext
  match a with
  | ⟨0, _⟩ => show win10_1.index t 0 * 5000 + 1 * p.val = r.val; rw [e1_0, hr]; omega
  | ⟨1, _⟩ => show win10_1.index t 1 * 128 + 1 * k.val = k.val; rw [e1_1]; omega

/-- Row p of window 2's block at point t is row 5000·t + p of its array. -/
theorem iblk10_2_apply (c : Dev nD) (t : Fin cfg10.N) (p : Fin 5000) (k : Fin 128) (r : Fin 50000)
    (hr : r.val = t.val * 5000 + p.val) :
    (iblk10 V c 2 t : Vec Ideal S5000x128 .f32) (ix2 p k)
      = (V c main_v128_1 : S50000x128.Idx → Elt Ideal .f32) (ix2 r k) := by
  obtain ⟨e0_0, e0_1, e1_0, e1_1, e2_0, e2_1, e3_0, e3_1, e4_0, e5_0, e5_1, e6_0, e7_0, e7_1, e8_0, e8_1⟩ := idx10 t
  unfold iblk10
  rw [View.read_apply]
  show V c main_v128_1 _ = V c main_v128_1 _
  congr 1
  funext a; apply Fin.ext
  match a with
  | ⟨0, _⟩ => show win10_2.index t 0 * 5000 + 1 * p.val = r.val; rw [e2_0, hr]; omega
  | ⟨1, _⟩ => show win10_2.index t 1 * 128 + 1 * k.val = k.val; rw [e2_1]; omega

/-- Window 3 holds its whole array at every point. -/
theorem iblk10_3_eq (c : Dev nD) (t : Fin cfg10.N) :
    (iblk10 V c 3 t : Vec Ideal S128x128 .f32) = (V c main_v159 : S128x128.Idx → Elt Ideal .f32) := by
  obtain ⟨e0_0, e0_1, e1_0, e1_1, e2_0, e2_1, e3_0, e3_1, e4_0, e5_0, e5_1, e6_0, e7_0, e7_1, e8_0, e8_1⟩ := idx10 t
  funext x
  unfold iblk10
  rw [View.read_apply]
  show V c main_v159 _ = V c main_v159 x
  congr 1
  funext a; apply Fin.ext
  match a with
  | ⟨0, _⟩ => show win10_3.index t 0 * 128 + 1 * (x 0).val = (x 0).val; rw [e3_0]; omega
  | ⟨1, _⟩ => show win10_3.index t 1 * 128 + 1 * (x 1).val = (x 1).val; rw [e3_1]; omega

/-- Window 4 holds its whole array at every point. -/
theorem iblk10_4_eq (c : Dev nD) (t : Fin cfg10.N) :
    (iblk10 V c 4 t : Vec Ideal S128 .f32) = (V c main_v161 : S128.Idx → Elt Ideal .f32) := by
  obtain ⟨e0_0, e0_1, e1_0, e1_1, e2_0, e2_1, e3_0, e3_1, e4_0, e5_0, e5_1, e6_0, e7_0, e7_1, e8_0, e8_1⟩ := idx10 t
  funext x
  unfold iblk10
  rw [View.read_apply]
  show V c main_v161 _ = V c main_v161 x
  congr 1
  funext a; apply Fin.ext
  match a with
  | ⟨0, _⟩ => show win10_4.index t 0 * 128 + 1 * (x 0).val = (x 0).val; rw [e4_0]; omega

/-- Window 5 holds its whole array at every point. -/
theorem iblk10_5_eq (c : Dev nD) (t : Fin cfg10.N) :
    (iblk10 V c 5 t : Vec Ideal S128x128 .f32) = (V c main_v163 : S128x128.Idx → Elt Ideal .f32) := by
  obtain ⟨e0_0, e0_1, e1_0, e1_1, e2_0, e2_1, e3_0, e3_1, e4_0, e5_0, e5_1, e6_0, e7_0, e7_1, e8_0, e8_1⟩ := idx10 t
  funext x
  unfold iblk10
  rw [View.read_apply]
  show V c main_v163 _ = V c main_v163 x
  congr 1
  funext a; apply Fin.ext
  match a with
  | ⟨0, _⟩ => show win10_5.index t 0 * 128 + 1 * (x 0).val = (x 0).val; rw [e5_0]; omega
  | ⟨1, _⟩ => show win10_5.index t 1 * 128 + 1 * (x 1).val = (x 1).val; rw [e5_1]; omega

/-- Window 6 holds its whole array at every point. -/
theorem iblk10_6_eq (c : Dev nD) (t : Fin cfg10.N) :
    (iblk10 V c 6 t : Vec Ideal S128 .f32) = (V c main_v165 : S128.Idx → Elt Ideal .f32) := by
  obtain ⟨e0_0, e0_1, e1_0, e1_1, e2_0, e2_1, e3_0, e3_1, e4_0, e5_0, e5_1, e6_0, e7_0, e7_1, e8_0, e8_1⟩ := idx10 t
  funext x
  unfold iblk10
  rw [View.read_apply]
  show V c main_v165 _ = V c main_v165 x
  congr 1
  funext a; apply Fin.ext
  match a with
  | ⟨0, _⟩ => show win10_6.index t 0 * 128 + 1 * (x 0).val = (x 0).val; rw [e6_0]; omega

/-- What point t writes back to window 7 is block t of the convolution with residual of the region's input arrays. -/
theorem flushed10_7 (c : Dev nD) (t : Fin cfg10.N) :
    (dat10 V c).flushed 7 t = ((cfg10.win 7).blk t).view.read (Elt Ideal)
      (Cert.Layers.ginResid (V c main_v147) (V c main_v157) (V c main_v128_1) (V c main_v159) (V c main_v161) (V c main_v163) (V c main_v165)) := by
  show (cfg10.win 7).cut (grid10.coords t) ((dat10 V c).after 7 t) = _
  rw [after10_7]
  unfold out10_7
  rw [View.canon_unit_zero hz2]
  simp only [View.ld_unit_zero (S := S5000x128) hz2, View.ld_unit_zero (S := S128x128) hz2, View.ld_unit_zero (S := S128) hz1]
  rw [iblk10_3_eq, iblk10_4_eq, iblk10_5_eq, iblk10_6_eq]
  obtain ⟨e0_0, e0_1, e1_0, e1_1, e2_0, e2_1, e3_0, e3_1, e4_0, e5_0, e5_1, e6_0, e7_0, e7_1, e8_0, e8_1⟩ := idx10 t
  have ht : t.val < 10 := t.isLt
  funext j
  obtain ⟨p, q, rfl⟩ : ∃ (p : Fin 5000) (q : Fin 128), j = ix2 p q := ⟨j 0, j 1, eq_ix2 j⟩
  show k10_pay2 (iblk10 V c 1 t) (iblk10 V c 0 t) (V c main_v159) (V c main_v161) (V c main_v163) (V c main_v165) (iblk10 V c 2 t) (ix2 p q)
    = Cert.Layers.ginResid (V c main_v147) (V c main_v157) (V c main_v128_1) (V c main_v159) (V c main_v161) (V c main_v163) (V c main_v165) (((cfg10.win 7).blk t).view.emb (ix2 p q))
  have hrow : t.val * 5000 + p.val < 50000 := by have := p.isLt; omega
  have hr : ((cfg10.win 7).blk t).view.emb (ix2 p q)
      = ix2 (⟨t.val * 5000 + p.val, hrow⟩ : Fin 50000) q := by
    funext a; apply Fin.ext
    match a with
    | ⟨0, _⟩ => show win10_7.index t 0 * 5000 + 1 * p.val = t.val * 5000 + p.val; rw [e7_0]; omega
    | ⟨1, _⟩ => show win10_7.index t 1 * 128 + 1 * q.val = q.val; rw [e7_1]; omega
  rw [hr, Cert.LayerIdx.ginResid_apply, Cert.PayIdx.resid10_apply]
  refine congrArg (fun z => max z 0) (congrArg₂ (· + ·) (congrArg (fun f => Cert.Dense.mlp f _ _ _ _ q) (funext fun k => ?_)) (iblk10_2_apply V c t p q ⟨t.val * 5000 + p.val, hrow⟩ rfl))
  rw [iblk10_1_apply V c t p k ⟨t.val * 5000 + p.val, hrow⟩ rfl, iblk10_0_apply V c t p k ⟨t.val * 5000 + p.val, hrow⟩ rfl]

/-- The 10 blocks of window 7 tile its array. -/
theorem cover10_7 (i : S50000x128.Idx) :
    ∃ t : Fin cfg10.N, (cfg10.win 7).flush t = true ∧ i ∈ ((cfg10.win 7).blk t).view.set := by
  have hi0 : (i 0).val < 50000 := (i 0).isLt
  have hi1 : (i 1).val < 128 := (i 1).isLt
  have hlt : (i 0).val / 5000 < 10 := by omega
  refine ⟨⟨(i 0).val / 5000, hlt⟩, flush10_7 _, ?_⟩
  obtain ⟨e0_0, e0_1, e1_0, e1_1, e2_0, e2_1, e3_0, e3_1, e4_0, e5_0, e5_1, e6_0, e7_0, e7_1, e8_0, e8_1⟩ := idx10 ⟨(i 0).val / 5000, hlt⟩
  show i ∈ ((View.whole main_v166_0).slice (win10_7.rect ⟨(i 0).val / 5000, hlt⟩)).set
  rw [View.set_slice_whole, Rect.mem_set_unit]
  intro a
  match a with
  | ⟨0, _⟩ =>
    show win10_7.index _ (0 : Fin 2) * 5000 ≤ (i 0).val ∧ (i 0).val < win10_7.index _ (0 : Fin 2) * 5000 + 5000
    rw [e7_0]; show (i 0).val / 5000 * 5000 ≤ (i 0).val ∧ (i 0).val < (i 0).val / 5000 * 5000 + 5000; omega
  | ⟨1, _⟩ =>
    show win10_7.index _ (1 : Fin 2) * 128 ≤ (i 1).val ∧ (i 1).val < win10_7.index _ (1 : Fin 2) * 128 + 128
    rw [e7_1]; omega

/-- Window 7's array after region 10 is the convolution with residual of the region's input arrays. -/
theorem arrAt10_7 (c : Dev nD) :
    (dat10 V c).arrAt 7 cfg10.N = Cert.Layers.ginResid (V c main_v147) (V c main_v157) (V c main_v128_1) (V c main_v159) (V c main_v161) (V c main_v163) (V c main_v165) :=
  (dat10 V c).arrAt_eq_of_cover 7 (Cert.Layers.ginResid (V c main_v147) (V c main_v157) (V c main_v128_1) (V c main_v159) (V c main_v161) (V c main_v163) (V c main_v165))
    (fun t _ => flushed10_7 V c t) (cover10_7)

/-- What point t writes back to window 8 is block t of the convolution with residual before the rectifier (the next residual) of the region's input arrays. -/
theorem flushed10_8 (c : Dev nD) (t : Fin cfg10.N) :
    (dat10 V c).flushed 8 t = ((cfg10.win 8).blk t).view.read (Elt Ideal)
      (Cert.Layers.ginResidPre (V c main_v147) (V c main_v157) (V c main_v128_1) (V c main_v159) (V c main_v161) (V c main_v163) (V c main_v165)) := by
  show (cfg10.win 8).cut (grid10.coords t) ((dat10 V c).after 8 t) = _
  rw [after10_8]
  unfold out10_8
  rw [View.canon_unit_zero hz2]
  simp only [View.ld_unit_zero (S := S5000x128) hz2, View.ld_unit_zero (S := S128x128) hz2, View.ld_unit_zero (S := S128) hz1]
  rw [iblk10_3_eq, iblk10_4_eq, iblk10_5_eq, iblk10_6_eq]
  obtain ⟨e0_0, e0_1, e1_0, e1_1, e2_0, e2_1, e3_0, e3_1, e4_0, e5_0, e5_1, e6_0, e7_0, e7_1, e8_0, e8_1⟩ := idx10 t
  have ht : t.val < 10 := t.isLt
  funext j
  obtain ⟨p, q, rfl⟩ : ∃ (p : Fin 5000) (q : Fin 128), j = ix2 p q := ⟨j 0, j 1, eq_ix2 j⟩
  show k10_pay1 (iblk10 V c 1 t) (iblk10 V c 0 t) (V c main_v159) (V c main_v161) (V c main_v163) (V c main_v165) (iblk10 V c 2 t) (ix2 p q)
    = Cert.Layers.ginResidPre (V c main_v147) (V c main_v157) (V c main_v128_1) (V c main_v159) (V c main_v161) (V c main_v163) (V c main_v165) (((cfg10.win 8).blk t).view.emb (ix2 p q))
  have hrow : t.val * 5000 + p.val < 50000 := by have := p.isLt; omega
  have hr : ((cfg10.win 8).blk t).view.emb (ix2 p q)
      = ix2 (⟨t.val * 5000 + p.val, hrow⟩ : Fin 50000) q := by
    funext a; apply Fin.ext
    match a with
    | ⟨0, _⟩ => show win10_8.index t 0 * 5000 + 1 * p.val = t.val * 5000 + p.val; rw [e8_0]; omega
    | ⟨1, _⟩ => show win10_8.index t 1 * 128 + 1 * q.val = q.val; rw [e8_1]; omega
  rw [hr, Cert.LayerIdx.ginResidPre_apply, Cert.PayIdx.residPre10_apply]
  refine (congrArg₂ (· + ·) (congrArg (fun f => Cert.Dense.mlp f _ _ _ _ q) (funext fun k => ?_)) (iblk10_2_apply V c t p q ⟨t.val * 5000 + p.val, hrow⟩ rfl))
  rw [iblk10_1_apply V c t p k ⟨t.val * 5000 + p.val, hrow⟩ rfl, iblk10_0_apply V c t p k ⟨t.val * 5000 + p.val, hrow⟩ rfl]

/-- The 10 blocks of window 8 tile its array. -/
theorem cover10_8 (i : S50000x128.Idx) :
    ∃ t : Fin cfg10.N, (cfg10.win 8).flush t = true ∧ i ∈ ((cfg10.win 8).blk t).view.set := by
  have hi0 : (i 0).val < 50000 := (i 0).isLt
  have hi1 : (i 1).val < 128 := (i 1).isLt
  have hlt : (i 0).val / 5000 < 10 := by omega
  refine ⟨⟨(i 0).val / 5000, hlt⟩, flush10_8 _, ?_⟩
  obtain ⟨e0_0, e0_1, e1_0, e1_1, e2_0, e2_1, e3_0, e3_1, e4_0, e5_0, e5_1, e6_0, e7_0, e7_1, e8_0, e8_1⟩ := idx10 ⟨(i 0).val / 5000, hlt⟩
  show i ∈ ((View.whole main_v166_1).slice (win10_8.rect ⟨(i 0).val / 5000, hlt⟩)).set
  rw [View.set_slice_whole, Rect.mem_set_unit]
  intro a
  match a with
  | ⟨0, _⟩ =>
    show win10_8.index _ (0 : Fin 2) * 5000 ≤ (i 0).val ∧ (i 0).val < win10_8.index _ (0 : Fin 2) * 5000 + 5000
    rw [e8_0]; show (i 0).val / 5000 * 5000 ≤ (i 0).val ∧ (i 0).val < (i 0).val / 5000 * 5000 + 5000; omega
  | ⟨1, _⟩ =>
    show win10_8.index _ (1 : Fin 2) * 128 ≤ (i 1).val ∧ (i 1).val < win10_8.index _ (1 : Fin 2) * 128 + 128
    rw [e8_1]; omega

/-- Window 8's array after region 10 is the convolution with residual before the rectifier (the next residual) of the region's input arrays. -/
theorem arrAt10_8 (c : Dev nD) :
    (dat10 V c).arrAt 8 cfg10.N = Cert.Layers.ginResidPre (V c main_v147) (V c main_v157) (V c main_v128_1) (V c main_v159) (V c main_v161) (V c main_v163) (V c main_v165) :=
  (dat10 V c).arrAt_eq_of_cover 8 (Cert.Layers.ginResidPre (V c main_v147) (V c main_v157) (V c main_v128_1) (V c main_v159) (V c main_v161) (V c main_v163) (V c main_v165))
    (fun t _ => flushed10_8 V c t) (cover10_8)

end Cert.KernelIdeal.HandVal

end
-- ==== Proof.IVal11.lean ====
/-
  Region 11: each output array after the region is the reference's layer function of the region's input arrays. Each grid
  point's block of an output is the payload of the point's input blocks; row p of a row-tiled block at point t is row
  200·t + p of its array, the weight and bias windows hold their whole arrays at every point, and the 5 blocks tile the array.
-/
import proofs.«106875_j87694642250037_1_alg».proof.Proof.IReg11
import proofs.«106875_j87694642250037_1_alg».proof.Proof.PayIdx
import proofs.«106875_j87694642250037_1_alg».proof.Proof.LayerIdx
import Idealize.ShloMosaic.Lib.Pipeline.Value

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

variable [Cert.ReferenceIdeal.Facts]

variable (V : (c : Dev nD) → (b : Ref sig .tc) → Buf (Elt Ideal) ((c : Thread nD τ).loc b))

private theorem hz2 : (![0, 0] : Fin 2 → Nat) = fun _ => 0 := funext fun a => by fin_cases a <;> rfl
private theorem hz1 : (![0] : Fin 1 → Nat) = fun _ => 0 := funext fun a => by fin_cases a <;> rfl

/-- The printed index maps over the grid: a row-tiled window's block index is (t, 0), a weight or bias window's is zero. -/
theorem idx11 : ∀ t : Fin cfg11.N, win11_0.index t (0 : Fin 2) = t.val
    ∧ win11_0.index t (1 : Fin 2) = 0
    ∧ win11_1.index t (0 : Fin 2) = 0
    ∧ win11_1.index t (1 : Fin 2) = 0
    ∧ win11_2.index t (0 : Fin 1) = 0
    ∧ win11_3.index t (0 : Fin 2) = 0
    ∧ win11_3.index t (1 : Fin 2) = 0
    ∧ win11_4.index t (0 : Fin 1) = 0
    ∧ win11_5.index t (0 : Fin 2) = t.val
    ∧ win11_5.index t (1 : Fin 2) = 0 :=
  (by decide +kernel : ∀ t : Fin grid11.N, _)

/-- Row p of window 0's block at point t is row 200·t + p of its array. -/
theorem iblk11_0_apply (c : Dev nD) (t : Fin cfg11.N) (p : Fin 200) (k : Fin 640) (r : Fin 1000)
    (hr : r.val = t.val * 200 + p.val) :
    (iblk11 V c 0 t : Vec Ideal S200x640 .f32) (ix2 p k)
      = (V c main_v170 : S1000x640.Idx → Elt Ideal .f32) (ix2 r k) := by
  obtain ⟨e0_0, e0_1, e1_0, e1_1, e2_0, e3_0, e3_1, e4_0, e5_0, e5_1⟩ := idx11 t
  unfold iblk11
  rw [View.read_apply]
  show V c main_v170 _ = V c main_v170 _
  congr 1
  funext a; apply Fin.ext
  match a with
  | ⟨0, _⟩ => show win11_0.index t 0 * 200 + 1 * p.val = r.val; rw [e0_0, hr]; omega
  | ⟨1, _⟩ => show win11_0.index t 1 * 640 + 1 * k.val = k.val; rw [e0_1]; omega

/-- Window 1 holds its whole array at every point. -/
theorem iblk11_1_eq (c : Dev nD) (t : Fin cfg11.N) :
    (iblk11 V c 1 t : Vec Ideal S640x128 .f32) = (V c main_arg12 : S640x128.Idx → Elt Ideal .f32) := by
  obtain ⟨e0_0, e0_1, e1_0, e1_1, e2_0, e3_0, e3_1, e4_0, e5_0, e5_1⟩ := idx11 t
  funext x
  unfold iblk11
  rw [View.read_apply]
  show V c main_arg12 _ = V c main_arg12 x
  congr 1
  funext a; apply Fin.ext
  match a with
  | ⟨0, _⟩ => show win11_1.index t 0 * 640 + 1 * (x 0).val = (x 0).val; rw [e1_0]; omega
  | ⟨1, _⟩ => show win11_1.index t 1 * 128 + 1 * (x 1).val = (x 1).val; rw [e1_1]; omega

/-- Window 2 holds its whole array at every point. -/
theorem iblk11_2_eq (c : Dev nD) (t : Fin cfg11.N) :
    (iblk11 V c 2 t : Vec Ideal S128 .f32) = (V c main_arg13 : S128.Idx → Elt Ideal .f32) := by
  obtain ⟨e0_0, e0_1, e1_0, e1_1, e2_0, e3_0, e3_1, e4_0, e5_0, e5_1⟩ := idx11 t
  funext x
  unfold iblk11
  rw [View.read_apply]
  show V c main_arg13 _ = V c main_arg13 x
  congr 1
  funext a; apply Fin.ext
  match a with
  | ⟨0, _⟩ => show win11_2.index t 0 * 128 + 1 * (x 0).val = (x 0).val; rw [e2_0]; omega

/-- Window 3 holds its whole array at every point. -/
theorem iblk11_3_eq (c : Dev nD) (t : Fin cfg11.N) :
    (iblk11 V c 3 t : Vec Ideal S128x128 .f32) = (V c main_arg14 : S128x128.Idx → Elt Ideal .f32) := by
  obtain ⟨e0_0, e0_1, e1_0, e1_1, e2_0, e3_0, e3_1, e4_0, e5_0, e5_1⟩ := idx11 t
  funext x
  unfold iblk11
  rw [View.read_apply]
  show V c main_arg14 _ = V c main_arg14 x
  congr 1
  funext a; apply Fin.ext
  match a with
  | ⟨0, _⟩ => show win11_3.index t 0 * 128 + 1 * (x 0).val = (x 0).val; rw [e3_0]; omega
  | ⟨1, _⟩ => show win11_3.index t 1 * 128 + 1 * (x 1).val = (x 1).val; rw [e3_1]; omega

/-- Window 4 holds its whole array at every point. -/
theorem iblk11_4_eq (c : Dev nD) (t : Fin cfg11.N) :
    (iblk11 V c 4 t : Vec Ideal S128 .f32) = (V c main_arg15 : S128.Idx → Elt Ideal .f32) := by
  obtain ⟨e0_0, e0_1, e1_0, e1_1, e2_0, e3_0, e3_1, e4_0, e5_0, e5_1⟩ := idx11 t
  funext x
  unfold iblk11
  rw [View.read_apply]
  show V c main_arg15 _ = V c main_arg15 x
  congr 1
  funext a; apply Fin.ext
  match a with
  | ⟨0, _⟩ => show win11_4.index t 0 * 128 + 1 * (x 0).val = (x 0).val; rw [e4_0]; omega

/-- What point t writes back to window 5 is block t of the readout perceptron of the region's input arrays. -/
theorem flushed11_5 (c : Dev nD) (t : Fin cfg11.N) :
    (dat11 V c).flushed 5 t = ((cfg11.win 5).blk t).view.read (Elt Ideal)
      (Cert.Layers.post (V c main_v170) (V c main_arg12) (V c main_arg13) (V c main_arg14) (V c main_arg15)) := by
  show (cfg11.win 5).cut (grid11.coords t) ((dat11 V c).after 5 t) = _
  rw [after11_5]
  unfold out11_5
  rw [View.canon_unit_zero hz2]
  simp only [View.ld_unit_zero (S := S200x640) hz2, View.ld_unit_zero (S := S640x128) hz2, View.ld_unit_zero (S := S128) hz1, View.ld_unit_zero (S := S128x128) hz2]
  rw [iblk11_1_eq, iblk11_2_eq, iblk11_3_eq, iblk11_4_eq]
  obtain ⟨e0_0, e0_1, e1_0, e1_1, e2_0, e3_0, e3_1, e4_0, e5_0, e5_1⟩ := idx11 t
  have ht : t.val < 5 := t.isLt
  funext j
  obtain ⟨p, q, rfl⟩ : ∃ (p : Fin 200) (q : Fin 128), j = ix2 p q := ⟨j 0, j 1, eq_ix2 j⟩
  show k11_pay1 (iblk11 V c 0 t) (V c main_arg12) (V c main_arg13) (V c main_arg14) (V c main_arg15) (ix2 p q)
    = Cert.Layers.post (V c main_v170) (V c main_arg12) (V c main_arg13) (V c main_arg14) (V c main_arg15) (((cfg11.win 5).blk t).view.emb (ix2 p q))
  have hrow : t.val * 200 + p.val < 1000 := by have := p.isLt; omega
  have hr : ((cfg11.win 5).blk t).view.emb (ix2 p q)
      = ix2 (⟨t.val * 200 + p.val, hrow⟩ : Fin 1000) q := by
    funext a; apply Fin.ext
    match a with
    | ⟨0, _⟩ => show win11_5.index t 0 * 200 + 1 * p.val = t.val * 200 + p.val; rw [e5_0]; omega
    | ⟨1, _⟩ => show win11_5.index t 1 * 128 + 1 * q.val = q.val; rw [e5_1]; omega
  rw [hr, Cert.LayerIdx.post_apply, Cert.PayIdx.post11_apply]
  refine congrArg (fun f => Cert.Dense.mlp f _ _ _ _ q) (funext fun k => ?_)
  exact iblk11_0_apply V c t p k ⟨t.val * 200 + p.val, hrow⟩ rfl

/-- The 5 blocks of window 5 tile its array. -/
theorem cover11_5 (i : S1000x128.Idx) :
    ∃ t : Fin cfg11.N, (cfg11.win 5).flush t = true ∧ i ∈ ((cfg11.win 5).blk t).view.set := by
  have hi0 : (i 0).val < 1000 := (i 0).isLt
  have hi1 : (i 1).val < 128 := (i 1).isLt
  have hlt : (i 0).val / 200 < 5 := by omega
  refine ⟨⟨(i 0).val / 200, hlt⟩, flush11_5 _, ?_⟩
  obtain ⟨e0_0, e0_1, e1_0, e1_1, e2_0, e3_0, e3_1, e4_0, e5_0, e5_1⟩ := idx11 ⟨(i 0).val / 200, hlt⟩
  show i ∈ ((View.whole main_v171).slice (win11_5.rect ⟨(i 0).val / 200, hlt⟩)).set
  rw [View.set_slice_whole, Rect.mem_set_unit]
  intro a
  match a with
  | ⟨0, _⟩ =>
    show win11_5.index _ (0 : Fin 2) * 200 ≤ (i 0).val ∧ (i 0).val < win11_5.index _ (0 : Fin 2) * 200 + 200
    rw [e5_0]; show (i 0).val / 200 * 200 ≤ (i 0).val ∧ (i 0).val < (i 0).val / 200 * 200 + 200; omega
  | ⟨1, _⟩ =>
    show win11_5.index _ (1 : Fin 2) * 128 ≤ (i 1).val ∧ (i 1).val < win11_5.index _ (1 : Fin 2) * 128 + 128
    rw [e5_1]; omega

/-- Window 5's array after region 11 is the readout perceptron of the region's input arrays. -/
theorem arrAt11_5 (c : Dev nD) :
    (dat11 V c).arrAt 5 cfg11.N = Cert.Layers.post (V c main_v170) (V c main_arg12) (V c main_arg13) (V c main_arg14) (V c main_arg15) :=
  (dat11 V c).arrAt_eq_of_cover 5 (Cert.Layers.post (V c main_v170) (V c main_arg12) (V c main_arg13) (V c main_arg14) (V c main_arg15))
    (fun t _ => flushed11_5 V c t) (cover11_5)

end Cert.KernelIdeal.HandVal

end
-- ==== Proof.LibSqrtPow.lean ====
/- General facts about the extended reals used to compare a square root with a power of exponent
   one half, and to see that a sum of squares is never negative. Nothing here depends on a particular
   program. -/
import Idealize.ShloMosaic.PureOps.Ideal

noncomputable section

namespace Cert.SqrtPow

open Idealize.ShloMosaic

/-- The single-precision pattern `0x3F000000` denotes the real number one half. -/
theorem ofBits_half : Ideal.ofBits .f32 0x3F000000#32 = ((1 / 2 : ℝ) : EReal) := by
  simp [Ideal.ofBits, Ideal.ieee, -EReal.coe_mul]; norm_num

/-- The single-precision pattern `0x3F800000` denotes the number one. -/
theorem ofBits_one : Ideal.ofBits .f32 0x3F800000#32 = 1 := by
  simp [Ideal.ofBits, Ideal.ieee, -EReal.coe_mul]; norm_num

/-- The single-precision pattern of all zero bits denotes the number zero. -/
theorem ofBits_zero : Ideal.ofBits .f32 0x00000000#32 = 0 := by
  simp [Ideal.ofBits, Ideal.ieee]

/-- On a non-negative extended real the square root is the power of exponent one half: at `⊤` both
    are `⊤` (the exponent is positive), at a real `r ≥ 0` it is `Real.sqrt r = r ^ (1/2)`, and `⊥`
    is excluded by the hypothesis. -/
theorem sqrt_eq_pow_half (v : EReal) (hv : 0 ≤ v) :
    Ideal.sqrt v = Ideal.pow v ((1 / 2 : ℝ) : EReal) := by
  induction v using EReal.rec with
  | bot => exact absurd hv (by simp)
  | top =>
    have h : (0 : EReal) < ((1 / 2 : ℝ) : EReal) := by exact_mod_cast (by norm_num : (0 : ℝ) < 1 / 2)
    rw [Ideal.sqrt_top, Ideal.pow_top, if_pos h]
  | coe r =>
    have hr : 0 ≤ r := by exact_mod_cast hv
    rw [Ideal.sqrt_coe, Ideal.pow_coe_coe, if_neg (not_lt.mpr hr)]
    congr 1
    exact Real.sqrt_eq_rpow r

/-- The square of an extended real is never negative (for `⊥` and for negative reals the product
    of two non-positive factors is non-negative). -/
theorem mul_self_nonneg (x : EReal) : 0 ≤ x * x := by
  rcases le_total 0 x with h | h
  · exact EReal.mul_nonneg_iff.mpr (.inl ⟨h, h⟩)
  · exact EReal.mul_nonneg_iff.mpr (.inr ⟨h, h⟩)

/-- A finite sum of squares of extended reals is never negative. -/
theorem sum_mul_self_nonneg {ι : Type*} (s : Finset ι) (f : ι → EReal) :
    0 ≤ ∑ k ∈ s, f k * f k :=
  Finset.sum_nonneg fun k _ => mul_self_nonneg (f k)

/-- Hence the square root of a finite sum of squares is its power of exponent one half. -/
theorem sqrt_sum_mul_self {ι : Type*} (s : Finset ι) (f : ι → EReal) :
    Ideal.sqrt (∑ k ∈ s, f k * f k) = Ideal.pow (∑ k ∈ s, f k * f k) ((1 / 2 : ℝ) : EReal) :=
  sqrt_eq_pow_half _ (sum_mul_self_nonneg s f)

end Cert.SqrtPow

end
-- ==== Proof.AsymmPay.lean ====
/- The distance region's stored value read at one row: a sum of four one-sided distances, each the
   square root of a sum over 64 columns of squared positive parts of differences. -/
import proofs.«106875_j87694642250037_1_alg».proof.Proof.Gen.KernelIdeal.Skeleton
import proofs.«106875_j87694642250037_1_alg».proof.Proof.LibSqrtPow
import Idealize.ShloMosaic.PureOps.Ideal.Laws
import Idealize.ShloMosaic.Lib.ValueIdx
import Idealize.ShloMosaic.Lib.Pipeline.Value

noncomputable section

namespace Cert.AsymmPay

open Idealize.ShloMosaic Idealize.ShloMosaic.ValueIdx
open Cert.KernelIdeal Cert.KernelIdeal.Gen

/-- The word of `+0.0`, read as an extended real (kept as the word: both programs spell the same one). -/
abbrev Z : EReal := Ideal.ofBits .f32 0x00000000#32
/-- The word of `1.0`, read as an extended real. -/
abbrev O : EReal := Ideal.ofBits .f32 0x3F800000#32

/-- The sum over the 64 columns of row `p` of the squared positive part of `a - b`. -/
def ssq (a b : S1000x64.Idx → EReal) (p : Fin 1000) : EReal :=
  ∑ k : Fin 64, max (a (ix2 p k) - b (ix2 p k)) Z * max (a (ix2 p k) - b (ix2 p k)) Z

/-- A lane sum of the kernel over the 64 columns, read at row `p`: the sum over the columns. -/
theorem lane_sum (src : FVec Ideal S1000x64 .f32) (p : Fin 1000)
    (hφ : FKind.Formats .f32) (hacc : (0x00000000#32 : BitVec 32) = 0x00000000#32) :
    multiReduction (F := Ideal) .add [1] S1000 src 0x00000000#32 Facts₀.reduces_S1000x64_S1000 hφ hacc (ix1 p)
      = ∑ k : Fin 64, src (ix2 p k) := by
  refine (Ideal.multiReduction_add_single src 0x00000000#32 Facts₀.reduces_S1000x64_S1000 hφ hacc (ix1 p)).trans ?_
  refine Finset.sum_congr rfl fun k _ => congrArg src ?_
  funext a; match a with | ⟨0, _⟩ => rfl | ⟨1, _⟩ => rfl

/-- The kernel's one-sided term: the square root of the lane sum of squared positive parts. -/
theorem side (a b : FVec Ideal S1000x64 .f32) (p : Fin 1000)
    (hφ : FKind.Formats .f32) (hacc : (0x00000000#32 : BitVec 32) = 0x00000000#32) :
    sqrt (F := Ideal) (multiReduction (F := Ideal) .add [1] S1000
        (mulf (maximumf (subf a b) (broadcast S1000x64 (Scalar.ofBits (F := Ideal) .f32 0x00000000#32)))
              (maximumf (subf a b) (broadcast S1000x64 (Scalar.ofBits (F := Ideal) .f32 0x00000000#32))))
        0x00000000#32 Facts₀.reduces_S1000x64_S1000 hφ hacc) (ix1 p)
      = Ideal.sqrt (ssq a b p) := by
  show Ideal.sqrt (multiReduction (F := Ideal) .add [1] S1000 _ 0x00000000#32 Facts₀.reduces_S1000x64_S1000 hφ hacc (ix1 p)) = _
  rw [lane_sum]
  rfl

/-- The first column half's two terms at row `p`. -/
theorem pay4_apply (v0 v4 : Vec Ideal S1000x64 .f32) (p : Fin 1000) :
    k12_pay4 (F := Ideal) v0 v4 (ix1 p)
      = O * Ideal.sqrt (ssq v0 v4 p) + O * Ideal.sqrt (ssq v4 v0 p) := by
  unfold k12_pay4
  simp only [shapeCast_self]
  rw [addf_apply, mulf_apply, mulf_apply, broadcast_apply, side, side]
  rfl

/-- The second column half's first term at row `p`. -/
theorem pay5_apply (v2 v6 : Vec Ideal S1000x64 .f32) (p : Fin 1000) :
    k12_pay5 (F := Ideal) v2 v6 (ix1 p) = O * Ideal.sqrt (ssq v2 v6 p) := by
  unfold k12_pay5 k12_pay2 k12_pay3
  simp only [shapeCast_self]
  rw [mulf_apply, broadcast_apply, side]
  rfl

/-- The second column half's second term at row `p` (before its factor one). -/
theorem pay6_apply (v2 v6 : Vec Ideal S1000x64 .f32) (p : Fin 1000) :
    k12_pay6 (F := Ideal) v2 v6 (ix1 p) = Ideal.sqrt (ssq v6 v2 p) := by
  unfold k12_pay6 k12_pay2 k12_pay3
  simp only [shapeCast_self]
  rw [side]

/-- The stored value at row `p`: the four terms in the kernel's order of additions. -/
theorem pay1_apply (v0 v2 v4 v6 : Vec Ideal S1000x64 .f32) (p : Fin 1000) :
    k12_pay1 (F := Ideal) (k12_pay4 v0 v4) (k12_pay5 v2 v6) (k12_pay6 v2 v6) (Scalar.ofBits (F := Ideal) .f32 0x3F800000#32) (ix1 p)
      = (O * Ideal.sqrt (ssq v0 v4 p) + O * Ideal.sqrt (ssq v4 v0 p))
        + (O * Ideal.sqrt (ssq v2 v6 p) + O * Ideal.sqrt (ssq v6 v2 p)) := by
  unfold k12_pay1
  rw [addf_apply, addf_apply, mulf_apply, broadcast_apply, pay4_apply, pay5_apply, pay6_apply]
  rfl

end Cert.AsymmPay

end
-- ==== Proof.AsymmRef.lean ====
/- The reference's distance read at one row: the same four one-sided terms as the kernel's, each a
   power of exponent one half of a sum of squared positive parts. -/
import proofs.«106875_j87694642250037_1_alg».proof.Proof.Layers
import proofs.«106875_j87694642250037_1_alg».proof.Proof.Gen.ReferenceIdeal
import proofs.«106875_j87694642250037_1_alg».proof.Proof.LibSqrtPow
import Idealize.ShloMosaic.PureOps.Ideal.Laws
import Idealize.ShloMosaic.Lib.ValueIdx
import Idealize.ShloMosaic.Lib.IdealHost
import Idealize.ShloMosaic.Lib.Pipeline.Value

noncomputable section

namespace Cert.AsymmRef

open Idealize.ShloMosaic Idealize.ShloMosaic.ValueIdx
open Cert.ReferenceIdeal Cert.ReferenceIdeal.Gen Cert.Layers

/-- The word of `+0.0`, read as an extended real. -/
abbrev Z : EReal := Ideal.ofBits .f32 0x00000000#32
/-- The word of `1.0`, read as an extended real. -/
abbrev O : EReal := Ideal.ofBits .f32 0x3F800000#32
/-- The word of `0.5`, read as an extended real. -/
abbrev H : EReal := Ideal.ofBits .f32 0x3F000000#32

/-- The sum over the 64 columns of row `p` of the squared positive part of `d`. -/
def ssqd (d : S1000x64.Idx → EReal) (p : Fin 1000) : EReal :=
  ∑ k : Fin 64, max (d (ix2 p k)) Z * max (d (ix2 p k)) Z

/-- The host's sum over the 64 columns, read at row `p`: the initial value plus the sum over the columns. -/
theorem host_lane_sum (x : T S1000x64) (init : EReal) (h' : S1000x64.ReducesTo [1] S1000) (p : Fin 1000) :
    Ideal.hostReduceAdd h' x init (ix1 p) = init + ∑ k : Fin 64, x (ix2 p k) := by
  refine (Ideal.hostReduceAdd_single h' (by decide : S1000x64.Reduces [1] S1000) x init (ix1 p)).trans ?_
  refine congrArg (init + ·) (Finset.sum_congr rfl fun k _ => congrArg x ?_)
  funext a; match a with | ⟨0, _⟩ => rfl | ⟨1, _⟩ => rfl

/-- One one-sided term of the reference at row `p`. -/
theorem pn_apply (d : T S1000x64) (p : Fin 1000) :
    pn d (ix1 p) = O * Ideal.pow (Z + ssqd d p) H := by
  unfold pn reluH
  rw [mulf_apply, broadcastInDim_scalar_apply]
  show O * Ideal.pow (Host.reduceAdd (F := Ideal) _ _ _ _ (ix1 p)) (broadcastInDim S1000 _ _ _ (ix1 p)) = _
  rw [broadcastInDim_scalar_apply, hostReduceAdd_apply, host_lane_sum]
  refine congrArg (fun s => O * Ideal.pow (Z + s) H) (Finset.sum_congr rfl fun k _ => ?_)
  rw [mulf_apply, maximumf_apply, broadcastInDim_scalar_apply]
  rfl

/-- The low column half at row `p`, column `k`. -/
theorem lo_apply (v : T S1000x128) (p : Fin 1000) (k : Fin 64) :
    lo v (ix2 p k) = v (ix2 p ⟨k.val, by omega⟩) := by
  unfold lo extractStridedSlice
  refine congrArg v ?_
  funext a; match a with | ⟨0, _⟩ => exact Fin.ext (by simp) | ⟨1, _⟩ => exact Fin.ext (by simp)

/-- The high column half at row `p`, column `k`. -/
theorem hi_apply (v : T S1000x128) (p : Fin 1000) (k : Fin 64) :
    hi v (ix2 p k) = v (ix2 p ⟨64 + k.val, by omega⟩) := by
  unfold hi extractStridedSlice
  refine congrArg v ?_
  funext a; match a with | ⟨0, _⟩ => exact Fin.ext (by simp) | ⟨1, _⟩ => exact Fin.ext (by simp)

/-- The reference's distance at row `p`: four one-sided terms in its order of additions. -/
theorem asymm_apply (gx hx : T S1000x128) (p : Fin 1000) :
    Layers.asymm gx hx (ix1 p)
      = (O * Ideal.pow (Z + ssqd (subf (lo gx) (lo hx)) p) H + O * Ideal.pow (Z + ssqd (subf (lo hx) (lo gx)) p) H)
        + (O * Ideal.pow (Z + ssqd (subf (hi gx) (hi hx)) p) H + O * Ideal.pow (Z + ssqd (subf (hi hx) (hi gx)) p) H) := by
  unfold Layers.asymm
  rw [addf_apply, addf_apply, addf_apply, pn_apply, pn_apply, pn_apply, pn_apply]

end Cert.AsymmRef

end
-- ==== Proof.AsymmEq.lean ====
/- The distance region's stored value and the reference's distance agree at every row: term by
   term the same sums of squares, a square root on one side and a power of exponent one half on the
   other, which agree because a sum of squares is never negative. -/
import proofs.«106875_j87694642250037_1_alg».proof.Proof.AsymmPay
import proofs.«106875_j87694642250037_1_alg».proof.Proof.AsymmRef

noncomputable section

namespace Cert.AsymmEq

open Idealize.ShloMosaic Idealize.ShloMosaic.ValueIdx
open Cert.KernelIdeal.Gen

/-- One one-sided term: the kernel's square root of the sum of squared positive parts of `a - b` is the
    reference's power of exponent one half of zero plus the same sum, when `d` is `a - b` on row `p`. -/
theorem term_eq (a b d : Cert.KernelIdeal.S1000x64.Idx → EReal) (p : Fin 1000)
    (hd : ∀ k : Fin 64, a (ix2 p k) - b (ix2 p k) = d (ix2 p k)) :
    Ideal.sqrt (Cert.AsymmPay.ssq a b p)
      = Ideal.pow (Cert.AsymmRef.Z + Cert.AsymmRef.ssqd d p) Cert.AsymmRef.H := by
  have e : Cert.AsymmPay.ssq a b p = Cert.AsymmRef.ssqd d p := by
    unfold Cert.AsymmPay.ssq Cert.AsymmRef.ssqd
    exact Finset.sum_congr rfl fun k _ => by rw [hd k]
  have hz : (Cert.AsymmRef.Z : EReal) = 0 := Cert.SqrtPow.ofBits_zero
  have hh : (Cert.AsymmRef.H : EReal) = ((1 / 2 : ℝ) : EReal) := Cert.SqrtPow.ofBits_half
  rw [e, hh, hz, zero_add]
  exact Cert.SqrtPow.sqrt_sum_mul_self Finset.univ (fun k => max (d (ix2 p k)) Cert.AsymmRef.Z)

/-- The stored value of the distance region at row `p` is the reference's distance of the two
    embeddings `gx`, `hx` there, when the four loaded column halves read `gx` and `hx`. -/
theorem pay_eq_asymm (gx hx : Cert.Layers.T Cert.ReferenceIdeal.S1000x128)
    (v0 v2 v4 v6 : Vec Ideal Cert.KernelIdeal.S1000x64 .f32)
    (h0 : ∀ (p : Fin 1000) (k : Fin 64), v0 (ix2 p k) = gx (ix2 p ⟨k.val, by omega⟩))
    (h2 : ∀ (p : Fin 1000) (k : Fin 64), v2 (ix2 p k) = gx (ix2 p ⟨64 + k.val, by omega⟩))
    (h4 : ∀ (p : Fin 1000) (k : Fin 64), v4 (ix2 p k) = hx (ix2 p ⟨k.val, by omega⟩))
    (h6 : ∀ (p : Fin 1000) (k : Fin 64), v6 (ix2 p k) = hx (ix2 p ⟨64 + k.val, by omega⟩))
    (p : Fin 1000) :
    k12_pay1 (F := Ideal) (k12_pay4 v0 v4) (k12_pay5 v2 v6) (k12_pay6 v2 v6)
        (Scalar.ofBits (F := Ideal) .f32 0x3F800000#32) (ix1 p)
      = Cert.Layers.asymm gx hx (ix1 p) := by
  rw [Cert.AsymmPay.pay1_apply, Cert.AsymmRef.asymm_apply,
    term_eq v0 v4 (subf (Cert.Layers.lo gx) (Cert.Layers.lo hx)) p (fun k => by
      rw [subf_apply, Cert.AsymmRef.lo_apply, Cert.AsymmRef.lo_apply, h0, h4]),
    term_eq v4 v0 (subf (Cert.Layers.lo hx) (Cert.Layers.lo gx)) p (fun k => by
      rw [subf_apply, Cert.AsymmRef.lo_apply, Cert.AsymmRef.lo_apply, h0, h4]),
    term_eq v2 v6 (subf (Cert.Layers.hi gx) (Cert.Layers.hi hx)) p (fun k => by
      rw [subf_apply, Cert.AsymmRef.hi_apply, Cert.AsymmRef.hi_apply, h2, h6]),
    term_eq v6 v2 (subf (Cert.Layers.hi hx) (Cert.Layers.hi gx)) p (fun k => by
      rw [subf_apply, Cert.AsymmRef.hi_apply, Cert.AsymmRef.hi_apply, h2, h6])]

end Cert.AsymmEq

end
-- ==== Proof.IVal12.lean ====
/- The distance region's output array after the region: the reference's distance of the two
   embeddings the region reads. The region's grid has one point, so its one block is the array. -/
import proofs.«106875_j87694642250037_1_alg».proof.Proof.IReg12
import proofs.«106875_j87694642250037_1_alg».proof.Proof.AsymmEq
import Idealize.ShloMosaic.Lib.Pipeline.Value

noncomputable section

namespace Cert.KernelIdeal.HandVal

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

variable [Cert.ReferenceIdeal.Facts]
variable (V : (c : Dev nD) → (b : Ref sig .tc) → Buf (Elt Ideal) ((c : Thread nD τ).loc b))

/-- The offset of a whole-buffer rectangle of rank one. -/
theorem hz12 : (![0] : Fin 1 → Nat) = fun _ => 0 := funext fun a => by fin_cases a; rfl

/-- The one grid point's block indices are all zero. -/
theorem idx_facts12 : ∀ t : Fin cfg12.N, win12_0.index t (0 : Fin 2) = 0 ∧ win12_0.index t (1 : Fin 2) = 0
    ∧ win12_1.index t (0 : Fin 2) = 0 ∧ win12_1.index t (1 : Fin 2) = 0
    ∧ win12_2.index t (0 : Fin 1) = 0 :=
  (by decide +kernel : ∀ t : Fin grid12.N, _)

/-- What the one point writes back is the block of the reference's distance. -/
theorem flushed12_2_eq (c : Dev nD) (t : Fin cfg12.N) :
    (dat12 V c).flushed 2 t
      = ((cfg12.win 2).blk t).view.read (Elt Ideal) (Cert.Layers.asymm (V c main_v85) (V c main_v171)) := by
  show (cfg12.win 2).cut (grid12.coords t) ((dat12 V c).after 2 t) = _
  rw [after12_2]
  unfold out12_2
  rw [View.canon_unit_zero hz12]
  obtain ⟨e0, e1, e2, e3, e4⟩ := idx_facts12 t
  funext j
  obtain ⟨p, rfl⟩ : ∃ p : Fin 1000, j = ix1 p := ⟨j 0, eq_ix1 j⟩
  show k12_pay1 (F := Ideal) (k12_pay4 _ _) (k12_pay5 _ _) (k12_pay6 _ _) _ (ix1 p)
      = Cert.Layers.asymm (V c main_v85) (V c main_v171) (((cfg12.win 2).blk t).view.emb (ix1 p))
  have hemb : ((cfg12.win 2).blk t).view.emb (ix1 p) = ix1 p := by
    funext a; apply Fin.ext
    match a with
    | ⟨0, _⟩ => show win12_2.index t (0 : Fin 1) * 1000 + 1 * p.val = p.val; omega
  refine Eq.trans ?_ (congrArg (Cert.Layers.asymm (V c main_v85) (V c main_v171)) hemb).symm
  refine Cert.AsymmEq.pay_eq_asymm (V c main_v85) (V c main_v171) _ _ _ _ ?_ ?_ ?_ ?_ p
  · intro q k
    show V c main_v85 (((cfg12.win 0).blk t).view.emb ((Rect.unit (s := S1000x128) ![0, 0] S1000x64.size inb_S1000x128_S1000x64_0_0).emb (ix2 q k))) = V c main_v85 (ix2 q ⟨k.val, by omega⟩)
    refine congrArg (V c main_v85) ?_
    funext a; apply Fin.ext
    match a with
    | ⟨0, _⟩ => show win12_0.index t (0 : Fin 2) * 1000 + 1 * (0 + 1 * q.val) = q.val; omega
    | ⟨1, _⟩ => show win12_0.index t (1 : Fin 2) * 128 + 1 * (0 + 1 * k.val) = k.val; omega
  · intro q k
    show V c main_v85 (((cfg12.win 0).blk t).view.emb ((Rect.unit (s := S1000x128) ![0, 64] S1000x64.size inb_S1000x128_S1000x64_0_64).emb (ix2 q k))) = V c main_v85 (ix2 q ⟨64 + k.val, by omega⟩)
    refine congrArg (V c main_v85) ?_
    funext a; apply Fin.ext
    match a with
    | ⟨0, _⟩ => show win12_0.index t (0 : Fin 2) * 1000 + 1 * (0 + 1 * q.val) = q.val; omega
    | ⟨1, _⟩ => show win12_0.index t (1 : Fin 2) * 128 + 1 * (64 + 1 * k.val) = 64 + k.val; omega
  · intro q k
    show V c main_v171 (((cfg12.win 1).blk t).view.emb ((Rect.unit (s := S1000x128) ![0, 0] S1000x64.size inb_S1000x128_S1000x64_0_0).emb (ix2 q k))) = V c main_v171 (ix2 q ⟨k.val, by omega⟩)
    refine congrArg (V c main_v171) ?_
    funext a; apply Fin.ext
    match a with
    | ⟨0, _⟩ => show win12_1.index t (0 : Fin 2) * 1000 + 1 * (0 + 1 * q.val) = q.val; omega
    | ⟨1, _⟩ => show win12_1.index t (1 : Fin 2) * 128 + 1 * (0 + 1 * k.val) = k.val; omega
  · intro q k
    show V c main_v171 (((cfg12.win 1).blk t).view.emb ((Rect.unit (s := S1000x128) ![0, 64] S1000x64.size inb_S1000x128_S1000x64_0_64).emb (ix2 q k))) = V c main_v171 (ix2 q ⟨64 + k.val, by omega⟩)
    refine congrArg (V c main_v171) ?_
    funext a; apply Fin.ext
    match a with
    | ⟨0, _⟩ => show win12_1.index t (0 : Fin 2) * 1000 + 1 * (0 + 1 * q.val) = q.val; omega
    | ⟨1, _⟩ => show win12_1.index t (1 : Fin 2) * 128 + 1 * (64 + 1 * k.val) = 64 + k.val; omega

/-- An index of the output array is in the one point's block iff its coordinate is in the block's range. -/
theorem mem_blk12_2 (t : Fin cfg12.N) (i : S1000.Idx) :
    i ∈ ((cfg12.win 2).blk t).view.set ↔ ∀ a : Fin 1, win12_2.index t a * S1000.size a ≤ (i a).val ∧ (i a).val < win12_2.index t a * S1000.size a + S1000.size a := by
  show i ∈ ((View.whole main_v172).slice (win12_2.rect t)).set ↔ _
  rw [View.set_slice_whole, Rect.mem_set_unit]
  exact Iff.rfl

/-- The one point's block covers the output array. -/
theorem cover12_2 (i : S1000.Idx) :
    ∃ t : Fin cfg12.N, (cfg12.win 2).flush t = true ∧ i ∈ ((cfg12.win 2).blk t).view.set := by
  refine ⟨t12_0, flush12_2 _, ?_⟩
  rw [mem_blk12_2]
  intro a
  obtain ⟨-, -, -, -, e4⟩ := idx_facts12 t12_0
  have hi : (i 0).val < 1000 := (i 0).isLt
  match a with
  | ⟨0, _⟩ => show win12_2.index t12_0 (0 : Fin 1) * 1000 ≤ (i 0).val ∧ (i 0).val < win12_2.index t12_0 (0 : Fin 1) * 1000 + 1000; omega

/-- The output array after the region is the reference's distance of the two embeddings the region reads. -/
theorem arrAt12_2 (c : Dev nD) :
    (dat12 V c).arrAt 2 cfg12.N = Cert.Layers.asymm (V c main_v85) (V c main_v171) :=
  (dat12 V c).arrAt_eq_of_cover 2 _ (fun t _ => flushed12_2_eq V c t) cover12_2

end Cert.KernelIdeal.HandVal

end
-- ==== Proof.IChain.lean ====
/-
  The value of every intermediate array of the program, at the ideal instance, as a composition of the network's layers applied to
  the sixteen argument arrays: stage by stage along the program's main function.  A host stretch's results are the layer functions
  (neighbour aggregation, a layer's weight and bias out of their stacks, concatenation and pooling) of what the buffers held before
  it; a kernel region's output arrays are the layer functions (input projection, graph convolution with or without residual,
  readout perceptron, asymmetric distance) of its operand arrays; every other buffer is carried along unchanged.  The last stage's
  result buffer therefore holds the whole network's value of the arguments.
-/
import proofs.«106875_j87694642250037_1_alg».proof.Proof.IRun
import proofs.«106875_j87694642250037_1_alg».proof.Proof.IHost
import proofs.«106875_j87694642250037_1_alg».proof.Proof.IVal0
import proofs.«106875_j87694642250037_1_alg».proof.Proof.IVal1
import proofs.«106875_j87694642250037_1_alg».proof.Proof.IVal2
import proofs.«106875_j87694642250037_1_alg».proof.Proof.IVal3
import proofs.«106875_j87694642250037_1_alg».proof.Proof.IVal4
import proofs.«106875_j87694642250037_1_alg».proof.Proof.IVal5
import proofs.«106875_j87694642250037_1_alg».proof.Proof.IVal6
import proofs.«106875_j87694642250037_1_alg».proof.Proof.IVal7
import proofs.«106875_j87694642250037_1_alg».proof.Proof.IVal8
import proofs.«106875_j87694642250037_1_alg».proof.Proof.IVal9
import proofs.«106875_j87694642250037_1_alg».proof.Proof.IVal10
import proofs.«106875_j87694642250037_1_alg».proof.Proof.IVal11
import proofs.«106875_j87694642250037_1_alg».proof.Proof.IVal12

set_option maxRecDepth 16384

noncomputable section

namespace Cert.KernelIdeal.HandChain

open Cert.KernelIdeal Cert.KernelIdeal.Gen Cert.KernelIdeal.Hand Cert.KernelIdeal.HandVal Cert.KernelIdeal.HandHost
open Idealize.ShloMosaic Idealize.ShloMosaic.TcCoe Idealize.SL.Sem

variable [Cert.ReferenceIdeal.Facts]
variable (m : (ℓ : Loc nD τ sig) → Buf (Elt Ideal) ℓ) (c : Dev nD)

/-- Argument 0 as launched. -/
abbrev A0 : Cert.Layers.T Cert.ReferenceIdeal.S50000x32 := m ((c : Thread nD τ).loc main_arg0)
/-- Argument 1 as launched. -/
abbrev A1 : Cert.Layers.TI Cert.ReferenceIdeal.S2x640000 := m ((c : Thread nD τ).loc main_arg1)
/-- Argument 2 as launched. -/
abbrev A2 : Cert.Layers.TI Cert.ReferenceIdeal.S50000 := m ((c : Thread nD τ).loc main_arg2)
/-- Argument 3 as launched. -/
abbrev A3 : Cert.Layers.T Cert.ReferenceIdeal.S50000x32 := m ((c : Thread nD τ).loc main_arg3)
/-- Argument 4 as launched. -/
abbrev A4 : Cert.Layers.TI Cert.ReferenceIdeal.S2x640000 := m ((c : Thread nD τ).loc main_arg4)
/-- Argument 5 as launched. -/
abbrev A5 : Cert.Layers.TI Cert.ReferenceIdeal.S50000 := m ((c : Thread nD τ).loc main_arg5)
/-- Argument 6 as launched. -/
abbrev A6 : Cert.Layers.T Cert.ReferenceIdeal.S32x128 := m ((c : Thread nD τ).loc main_arg6)
/-- Argument 7 as launched. -/
abbrev A7 : Cert.Layers.T Cert.ReferenceIdeal.S128 := m ((c : Thread nD τ).loc main_arg7)
/-- Argument 8 as launched. -/
abbrev A8 : Cert.Layers.T Cert.ReferenceIdeal.S4x128x128 := m ((c : Thread nD τ).loc main_arg8)
/-- Argument 9 as launched. -/
abbrev A9 : Cert.Layers.T Cert.ReferenceIdeal.S4x128 := m ((c : Thread nD τ).loc main_arg9)
/-- Argument 10 as launched. -/
abbrev A10 : Cert.Layers.T Cert.ReferenceIdeal.S4x128x128 := m ((c : Thread nD τ).loc main_arg10)
/-- Argument 11 as launched. -/
abbrev A11 : Cert.Layers.T Cert.ReferenceIdeal.S4x128 := m ((c : Thread nD τ).loc main_arg11)
/-- Argument 12 as launched. -/
abbrev A12 : Cert.Layers.T Cert.ReferenceIdeal.S640x128 := m ((c : Thread nD τ).loc main_arg12)
/-- Argument 13 as launched. -/
abbrev A13 : Cert.Layers.T Cert.ReferenceIdeal.S128 := m ((c : Thread nD τ).loc main_arg13)
/-- Argument 14 as launched. -/
abbrev A14 : Cert.Layers.T Cert.ReferenceIdeal.S128x128 := m ((c : Thread nD τ).loc main_arg14)
/-- Argument 15 as launched. -/
abbrev A15 : Cert.Layers.T Cert.ReferenceIdeal.S128 := m ((c : Thread nD τ).loc main_arg15)

theorem arg1_at0 : Y0 m c (Proc.devRef .tc main_arg1) = A1 m c :=
   rfl
theorem arg0_at1 : Y1 m c (Proc.devRef .tc main_arg0) = A0 m c :=
  (Y1_keep m c main_arg0 (by decide)).trans <| rfl
theorem arg6_at1 : Y1 m c (Proc.devRef .tc main_arg6) = A6 m c :=
  (Y1_keep m c main_arg6 (by decide)).trans <| rfl
theorem arg7_at1 : Y1 m c (Proc.devRef .tc main_arg7) = A7 m c :=
  (Y1_keep m c main_arg7 (by decide)).trans <| rfl
theorem arg8_at2 : Y2 m c (Proc.devRef .tc main_arg8) = A8 m c :=
  (Y2_of_ne m c main_arg8 (by decide)).trans <| (Y1_keep m c main_arg8 (by decide)).trans <| rfl
theorem arg9_at2 : Y2 m c (Proc.devRef .tc main_arg9) = A9 m c :=
  (Y2_of_ne m c main_arg9 (by decide)).trans <| (Y1_keep m c main_arg9 (by decide)).trans <| rfl
theorem arg10_at2 : Y2 m c (Proc.devRef .tc main_arg10) = A10 m c :=
  (Y2_of_ne m c main_arg10 (by decide)).trans <| (Y1_keep m c main_arg10 (by decide)).trans <| rfl
theorem arg11_at2 : Y2 m c (Proc.devRef .tc main_arg11) = A11 m c :=
  (Y2_of_ne m c main_arg11 (by decide)).trans <| (Y1_keep m c main_arg11 (by decide)).trans <| rfl
theorem arg8_at4 : Y4 m c (Proc.devRef .tc main_arg8) = A8 m c :=
  (Y4_of_ne m c main_arg8 (by decide)).trans <| (Y3_keep m c main_arg8 (by decide)).trans <| (Y2_of_ne m c main_arg8 (by decide)).trans <| (Y1_keep m c main_arg8 (by decide)).trans <| rfl
theorem arg9_at4 : Y4 m c (Proc.devRef .tc main_arg9) = A9 m c :=
  (Y4_of_ne m c main_arg9 (by decide)).trans <| (Y3_keep m c main_arg9 (by decide)).trans <| (Y2_of_ne m c main_arg9 (by decide)).trans <| (Y1_keep m c main_arg9 (by decide)).trans <| rfl
theorem arg10_at4 : Y4 m c (Proc.devRef .tc main_arg10) = A10 m c :=
  (Y4_of_ne m c main_arg10 (by decide)).trans <| (Y3_keep m c main_arg10 (by decide)).trans <| (Y2_of_ne m c main_arg10 (by decide)).trans <| (Y1_keep m c main_arg10 (by decide)).trans <| rfl
theorem arg11_at4 : Y4 m c (Proc.devRef .tc main_arg11) = A11 m c :=
  (Y4_of_ne m c main_arg11 (by decide)).trans <| (Y3_keep m c main_arg11 (by decide)).trans <| (Y2_of_ne m c main_arg11 (by decide)).trans <| (Y1_keep m c main_arg11 (by decide)).trans <| rfl
theorem arg8_at6 : Y6 m c (Proc.devRef .tc main_arg8) = A8 m c :=
  (Y6_of_ne m c main_arg8 (by decide)).trans <| (Y5_keep m c main_arg8 (by decide)).trans <| (Y4_of_ne m c main_arg8 (by decide)).trans <| (Y3_keep m c main_arg8 (by decide)).trans <| (Y2_of_ne m c main_arg8 (by decide)).trans <| (Y1_keep m c main_arg8 (by decide)).trans <| rfl
theorem arg9_at6 : Y6 m c (Proc.devRef .tc main_arg9) = A9 m c :=
  (Y6_of_ne m c main_arg9 (by decide)).trans <| (Y5_keep m c main_arg9 (by decide)).trans <| (Y4_of_ne m c main_arg9 (by decide)).trans <| (Y3_keep m c main_arg9 (by decide)).trans <| (Y2_of_ne m c main_arg9 (by decide)).trans <| (Y1_keep m c main_arg9 (by decide)).trans <| rfl
theorem arg10_at6 : Y6 m c (Proc.devRef .tc main_arg10) = A10 m c :=
  (Y6_of_ne m c main_arg10 (by decide)).trans <| (Y5_keep m c main_arg10 (by decide)).trans <| (Y4_of_ne m c main_arg10 (by decide)).trans <| (Y3_keep m c main_arg10 (by decide)).trans <| (Y2_of_ne m c main_arg10 (by decide)).trans <| (Y1_keep m c main_arg10 (by decide)).trans <| rfl
theorem arg11_at6 : Y6 m c (Proc.devRef .tc main_arg11) = A11 m c :=
  (Y6_of_ne m c main_arg11 (by decide)).trans <| (Y5_keep m c main_arg11 (by decide)).trans <| (Y4_of_ne m c main_arg11 (by decide)).trans <| (Y3_keep m c main_arg11 (by decide)).trans <| (Y2_of_ne m c main_arg11 (by decide)).trans <| (Y1_keep m c main_arg11 (by decide)).trans <| rfl
theorem arg8_at8 : Y8 m c (Proc.devRef .tc main_arg8) = A8 m c :=
  (Y8_of_ne m c main_arg8 (by decide)).trans <| (Y7_keep m c main_arg8 (by decide)).trans <| (Y6_of_ne m c main_arg8 (by decide)).trans <| (Y5_keep m c main_arg8 (by decide)).trans <| (Y4_of_ne m c main_arg8 (by decide)).trans <| (Y3_keep m c main_arg8 (by decide)).trans <| (Y2_of_ne m c main_arg8 (by decide)).trans <| (Y1_keep m c main_arg8 (by decide)).trans <| rfl
theorem arg9_at8 : Y8 m c (Proc.devRef .tc main_arg9) = A9 m c :=
  (Y8_of_ne m c main_arg9 (by decide)).trans <| (Y7_keep m c main_arg9 (by decide)).trans <| (Y6_of_ne m c main_arg9 (by decide)).trans <| (Y5_keep m c main_arg9 (by decide)).trans <| (Y4_of_ne m c main_arg9 (by decide)).trans <| (Y3_keep m c main_arg9 (by decide)).trans <| (Y2_of_ne m c main_arg9 (by decide)).trans <| (Y1_keep m c main_arg9 (by decide)).trans <| rfl
theorem arg10_at8 : Y8 m c (Proc.devRef .tc main_arg10) = A10 m c :=
  (Y8_of_ne m c main_arg10 (by decide)).trans <| (Y7_keep m c main_arg10 (by decide)).trans <| (Y6_of_ne m c main_arg10 (by decide)).trans <| (Y5_keep m c main_arg10 (by decide)).trans <| (Y4_of_ne m c main_arg10 (by decide)).trans <| (Y3_keep m c main_arg10 (by decide)).trans <| (Y2_of_ne m c main_arg10 (by decide)).trans <| (Y1_keep m c main_arg10 (by decide)).trans <| rfl
theorem arg11_at8 : Y8 m c (Proc.devRef .tc main_arg11) = A11 m c :=
  (Y8_of_ne m c main_arg11 (by decide)).trans <| (Y7_keep m c main_arg11 (by decide)).trans <| (Y6_of_ne m c main_arg11 (by decide)).trans <| (Y5_keep m c main_arg11 (by decide)).trans <| (Y4_of_ne m c main_arg11 (by decide)).trans <| (Y3_keep m c main_arg11 (by decide)).trans <| (Y2_of_ne m c main_arg11 (by decide)).trans <| (Y1_keep m c main_arg11 (by decide)).trans <| rfl
theorem arg2_at10 : Y10 m c (Proc.devRef .tc main_arg2) = A2 m c :=
  (Y10_of_ne m c main_arg2 (by decide)).trans <| (Y9_keep m c main_arg2 (by decide)).trans <| (Y8_of_ne m c main_arg2 (by decide)).trans <| (Y7_keep m c main_arg2 (by decide)).trans <| (Y6_of_ne m c main_arg2 (by decide)).trans <| (Y5_keep m c main_arg2 (by decide)).trans <| (Y4_of_ne m c main_arg2 (by decide)).trans <| (Y3_keep m c main_arg2 (by decide)).trans <| (Y2_of_ne m c main_arg2 (by decide)).trans <| (Y1_keep m c main_arg2 (by decide)).trans <| rfl
theorem arg12_at11 : Y11 m c (Proc.devRef .tc main_arg12) = A12 m c :=
  (Y11_keep m c main_arg12 (by decide)).trans <| (Y10_of_ne m c main_arg12 (by decide)).trans <| (Y9_keep m c main_arg12 (by decide)).trans <| (Y8_of_ne m c main_arg12 (by decide)).trans <| (Y7_keep m c main_arg12 (by decide)).trans <| (Y6_of_ne m c main_arg12 (by decide)).trans <| (Y5_keep m c main_arg12 (by decide)).trans <| (Y4_of_ne m c main_arg12 (by decide)).trans <| (Y3_keep m c main_arg12 (by decide)).trans <| (Y2_of_ne m c main_arg12 (by decide)).trans <| (Y1_keep m c main_arg12 (by decide)).trans <| rfl
theorem arg13_at11 : Y11 m c (Proc.devRef .tc main_arg13) = A13 m c :=
  (Y11_keep m c main_arg13 (by decide)).trans <| (Y10_of_ne m c main_arg13 (by decide)).trans <| (Y9_keep m c main_arg13 (by decide)).trans <| (Y8_of_ne m c main_arg13 (by decide)).trans <| (Y7_keep m c main_arg13 (by decide)).trans <| (Y6_of_ne m c main_arg13 (by decide)).trans <| (Y5_keep m c main_arg13 (by decide)).trans <| (Y4_of_ne m c main_arg13 (by decide)).trans <| (Y3_keep m c main_arg13 (by decide)).trans <| (Y2_of_ne m c main_arg13 (by decide)).trans <| (Y1_keep m c main_arg13 (by decide)).trans <| rfl
theorem arg14_at11 : Y11 m c (Proc.devRef .tc main_arg14) = A14 m c :=
  (Y11_keep m c main_arg14 (by decide)).trans <| (Y10_of_ne m c main_arg14 (by decide)).trans <| (Y9_keep m c main_arg14 (by decide)).trans <| (Y8_of_ne m c main_arg14 (by decide)).trans <| (Y7_keep m c main_arg14 (by decide)).trans <| (Y6_of_ne m c main_arg14 (by decide)).trans <| (Y5_keep m c main_arg14 (by decide)).trans <| (Y4_of_ne m c main_arg14 (by decide)).trans <| (Y3_keep m c main_arg14 (by decide)).trans <| (Y2_of_ne m c main_arg14 (by decide)).trans <| (Y1_keep m c main_arg14 (by decide)).trans <| rfl
theorem arg15_at11 : Y11 m c (Proc.devRef .tc main_arg15) = A15 m c :=
  (Y11_keep m c main_arg15 (by decide)).trans <| (Y10_of_ne m c main_arg15 (by decide)).trans <| (Y9_keep m c main_arg15 (by decide)).trans <| (Y8_of_ne m c main_arg15 (by decide)).trans <| (Y7_keep m c main_arg15 (by decide)).trans <| (Y6_of_ne m c main_arg15 (by decide)).trans <| (Y5_keep m c main_arg15 (by decide)).trans <| (Y4_of_ne m c main_arg15 (by decide)).trans <| (Y3_keep m c main_arg15 (by decide)).trans <| (Y2_of_ne m c main_arg15 (by decide)).trans <| (Y1_keep m c main_arg15 (by decide)).trans <| rfl
theorem arg4_at12 : Y12 m c (Proc.devRef .tc main_arg4) = A4 m c :=
  (Y12_of_ne m c main_arg4 (by decide)).trans <| (Y11_keep m c main_arg4 (by decide)).trans <| (Y10_of_ne m c main_arg4 (by decide)).trans <| (Y9_keep m c main_arg4 (by decide)).trans <| (Y8_of_ne m c main_arg4 (by decide)).trans <| (Y7_keep m c main_arg4 (by decide)).trans <| (Y6_of_ne m c main_arg4 (by decide)).trans <| (Y5_keep m c main_arg4 (by decide)).trans <| (Y4_of_ne m c main_arg4 (by decide)).trans <| (Y3_keep m c main_arg4 (by decide)).trans <| (Y2_of_ne m c main_arg4 (by decide)).trans <| (Y1_keep m c main_arg4 (by decide)).trans <| rfl
theorem arg3_at13 : Y13 m c (Proc.devRef .tc main_arg3) = A3 m c :=
  (Y13_keep m c main_arg3 (by decide)).trans <| (Y12_of_ne m c main_arg3 (by decide)).trans <| (Y11_keep m c main_arg3 (by decide)).trans <| (Y10_of_ne m c main_arg3 (by decide)).trans <| (Y9_keep m c main_arg3 (by decide)).trans <| (Y8_of_ne m c main_arg3 (by decide)).trans <| (Y7_keep m c main_arg3 (by decide)).trans <| (Y6_of_ne m c main_arg3 (by decide)).trans <| (Y5_keep m c main_arg3 (by decide)).trans <| (Y4_of_ne m c main_arg3 (by decide)).trans <| (Y3_keep m c main_arg3 (by decide)).trans <| (Y2_of_ne m c main_arg3 (by decide)).trans <| (Y1_keep m c main_arg3 (by decide)).trans <| rfl
theorem arg6_at13 : Y13 m c (Proc.devRef .tc main_arg6) = A6 m c :=
  (Y13_keep m c main_arg6 (by decide)).trans <| (Y12_of_ne m c main_arg6 (by decide)).trans <| (Y11_keep m c main_arg6 (by decide)).trans <| (Y10_of_ne m c main_arg6 (by decide)).trans <| (Y9_keep m c main_arg6 (by decide)).trans <| (Y8_of_ne m c main_arg6 (by decide)).trans <| (Y7_keep m c main_arg6 (by decide)).trans <| (Y6_of_ne m c main_arg6 (by decide)).trans <| (Y5_keep m c main_arg6 (by decide)).trans <| (Y4_of_ne m c main_arg6 (by decide)).trans <| (Y3_keep m c main_arg6 (by decide)).trans <| (Y2_in m c 1 rfl).trans <| (Y1_keep m c main_arg6 (by decide)).trans <| rfl
theorem arg7_at13 : Y13 m c (Proc.devRef .tc main_arg7) = A7 m c :=
  (Y13_keep m c main_arg7 (by decide)).trans <| (Y12_of_ne m c main_arg7 (by decide)).trans <| (Y11_keep m c main_arg7 (by decide)).trans <| (Y10_of_ne m c main_arg7 (by decide)).trans <| (Y9_keep m c main_arg7 (by decide)).trans <| (Y8_of_ne m c main_arg7 (by decide)).trans <| (Y7_keep m c main_arg7 (by decide)).trans <| (Y6_of_ne m c main_arg7 (by decide)).trans <| (Y5_keep m c main_arg7 (by decide)).trans <| (Y4_of_ne m c main_arg7 (by decide)).trans <| (Y3_keep m c main_arg7 (by decide)).trans <| (Y2_in m c 2 rfl).trans <| (Y1_keep m c main_arg7 (by decide)).trans <| rfl
theorem arg8_at14 : Y14 m c (Proc.devRef .tc main_arg8) = A8 m c :=
  (Y14_of_ne m c main_arg8 (by decide)).trans <| (Y13_keep m c main_arg8 (by decide)).trans <| (Y12_of_ne m c main_arg8 (by decide)).trans <| (Y11_keep m c main_arg8 (by decide)).trans <| (Y10_of_ne m c main_arg8 (by decide)).trans <| (Y9_keep m c main_arg8 (by decide)).trans <| (Y8_of_ne m c main_arg8 (by decide)).trans <| (Y7_keep m c main_arg8 (by decide)).trans <| (Y6_of_ne m c main_arg8 (by decide)).trans <| (Y5_keep m c main_arg8 (by decide)).trans <| (Y4_of_ne m c main_arg8 (by decide)).trans <| (Y3_keep m c main_arg8 (by decide)).trans <| (Y2_of_ne m c main_arg8 (by decide)).trans <| (Y1_keep m c main_arg8 (by decide)).trans <| rfl
theorem arg9_at14 : Y14 m c (Proc.devRef .tc main_arg9) = A9 m c :=
  (Y14_of_ne m c main_arg9 (by decide)).trans <| (Y13_keep m c main_arg9 (by decide)).trans <| (Y12_of_ne m c main_arg9 (by decide)).trans <| (Y11_keep m c main_arg9 (by decide)).trans <| (Y10_of_ne m c main_arg9 (by decide)).trans <| (Y9_keep m c main_arg9 (by decide)).trans <| (Y8_of_ne m c main_arg9 (by decide)).trans <| (Y7_keep m c main_arg9 (by decide)).trans <| (Y6_of_ne m c main_arg9 (by decide)).trans <| (Y5_keep m c main_arg9 (by decide)).trans <| (Y4_of_ne m c main_arg9 (by decide)).trans <| (Y3_keep m c main_arg9 (by decide)).trans <| (Y2_of_ne m c main_arg9 (by decide)).trans <| (Y1_keep m c main_arg9 (by decide)).trans <| rfl
theorem arg10_at14 : Y14 m c (Proc.devRef .tc main_arg10) = A10 m c :=
  (Y14_of_ne m c main_arg10 (by decide)).trans <| (Y13_keep m c main_arg10 (by decide)).trans <| (Y12_of_ne m c main_arg10 (by decide)).trans <| (Y11_keep m c main_arg10 (by decide)).trans <| (Y10_of_ne m c main_arg10 (by decide)).trans <| (Y9_keep m c main_arg10 (by decide)).trans <| (Y8_of_ne m c main_arg10 (by decide)).trans <| (Y7_keep m c main_arg10 (by decide)).trans <| (Y6_of_ne m c main_arg10 (by decide)).trans <| (Y5_keep m c main_arg10 (by decide)).trans <| (Y4_of_ne m c main_arg10 (by decide)).trans <| (Y3_keep m c main_arg10 (by decide)).trans <| (Y2_of_ne m c main_arg10 (by decide)).trans <| (Y1_keep m c main_arg10 (by decide)).trans <| rfl
theorem arg11_at14 : Y14 m c (Proc.devRef .tc main_arg11) = A11 m c :=
  (Y14_of_ne m c main_arg11 (by decide)).trans <| (Y13_keep m c main_arg11 (by decide)).trans <| (Y12_of_ne m c main_arg11 (by decide)).trans <| (Y11_keep m c main_arg11 (by decide)).trans <| (Y10_of_ne m c main_arg11 (by decide)).trans <| (Y9_keep m c main_arg11 (by decide)).trans <| (Y8_of_ne m c main_arg11 (by decide)).trans <| (Y7_keep m c main_arg11 (by decide)).trans <| (Y6_of_ne m c main_arg11 (by decide)).trans <| (Y5_keep m c main_arg11 (by decide)).trans <| (Y4_of_ne m c main_arg11 (by decide)).trans <| (Y3_keep m c main_arg11 (by decide)).trans <| (Y2_of_ne m c main_arg11 (by decide)).trans <| (Y1_keep m c main_arg11 (by decide)).trans <| rfl
theorem arg8_at16 : Y16 m c (Proc.devRef .tc main_arg8) = A8 m c :=
  (Y16_of_ne m c main_arg8 (by decide)).trans <| (Y15_keep m c main_arg8 (by decide)).trans <| (Y14_of_ne m c main_arg8 (by decide)).trans <| (Y13_keep m c main_arg8 (by decide)).trans <| (Y12_of_ne m c main_arg8 (by decide)).trans <| (Y11_keep m c main_arg8 (by decide)).trans <| (Y10_of_ne m c main_arg8 (by decide)).trans <| (Y9_keep m c main_arg8 (by decide)).trans <| (Y8_of_ne m c main_arg8 (by decide)).trans <| (Y7_keep m c main_arg8 (by decide)).trans <| (Y6_of_ne m c main_arg8 (by decide)).trans <| (Y5_keep m c main_arg8 (by decide)).trans <| (Y4_of_ne m c main_arg8 (by decide)).trans <| (Y3_keep m c main_arg8 (by decide)).trans <| (Y2_of_ne m c main_arg8 (by decide)).trans <| (Y1_keep m c main_arg8 (by decide)).trans <| rfl
theorem arg9_at16 : Y16 m c (Proc.devRef .tc main_arg9) = A9 m c :=
  (Y16_of_ne m c main_arg9 (by decide)).trans <| (Y15_keep m c main_arg9 (by decide)).trans <| (Y14_of_ne m c main_arg9 (by decide)).trans <| (Y13_keep m c main_arg9 (by decide)).trans <| (Y12_of_ne m c main_arg9 (by decide)).trans <| (Y11_keep m c main_arg9 (by decide)).trans <| (Y10_of_ne m c main_arg9 (by decide)).trans <| (Y9_keep m c main_arg9 (by decide)).trans <| (Y8_of_ne m c main_arg9 (by decide)).trans <| (Y7_keep m c main_arg9 (by decide)).trans <| (Y6_of_ne m c main_arg9 (by decide)).trans <| (Y5_keep m c main_arg9 (by decide)).trans <| (Y4_of_ne m c main_arg9 (by decide)).trans <| (Y3_keep m c main_arg9 (by decide)).trans <| (Y2_of_ne m c main_arg9 (by decide)).trans <| (Y1_keep m c main_arg9 (by decide)).trans <| rfl
theorem arg10_at16 : Y16 m c (Proc.devRef .tc main_arg10) = A10 m c :=
  (Y16_of_ne m c main_arg10 (by decide)).trans <| (Y15_keep m c main_arg10 (by decide)).trans <| (Y14_of_ne m c main_arg10 (by decide)).trans <| (Y13_keep m c main_arg10 (by decide)).trans <| (Y12_of_ne m c main_arg10 (by decide)).trans <| (Y11_keep m c main_arg10 (by decide)).trans <| (Y10_of_ne m c main_arg10 (by decide)).trans <| (Y9_keep m c main_arg10 (by decide)).trans <| (Y8_of_ne m c main_arg10 (by decide)).trans <| (Y7_keep m c main_arg10 (by decide)).trans <| (Y6_of_ne m c main_arg10 (by decide)).trans <| (Y5_keep m c main_arg10 (by decide)).trans <| (Y4_of_ne m c main_arg10 (by decide)).trans <| (Y3_keep m c main_arg10 (by decide)).trans <| (Y2_of_ne m c main_arg10 (by decide)).trans <| (Y1_keep m c main_arg10 (by decide)).trans <| rfl
theorem arg11_at16 : Y16 m c (Proc.devRef .tc main_arg11) = A11 m c :=
  (Y16_of_ne m c main_arg11 (by decide)).trans <| (Y15_keep m c main_arg11 (by decide)).trans <| (Y14_of_ne m c main_arg11 (by decide)).trans <| (Y13_keep m c main_arg11 (by decide)).trans <| (Y12_of_ne m c main_arg11 (by decide)).trans <| (Y11_keep m c main_arg11 (by decide)).trans <| (Y10_of_ne m c main_arg11 (by decide)).trans <| (Y9_keep m c main_arg11 (by decide)).trans <| (Y8_of_ne m c main_arg11 (by decide)).trans <| (Y7_keep m c main_arg11 (by decide)).trans <| (Y6_of_ne m c main_arg11 (by decide)).trans <| (Y5_keep m c main_arg11 (by decide)).trans <| (Y4_of_ne m c main_arg11 (by decide)).trans <| (Y3_keep m c main_arg11 (by decide)).trans <| (Y2_of_ne m c main_arg11 (by decide)).trans <| (Y1_keep m c main_arg11 (by decide)).trans <| rfl
theorem arg8_at18 : Y18 m c (Proc.devRef .tc main_arg8) = A8 m c :=
  (Y18_of_ne m c main_arg8 (by decide)).trans <| (Y17_keep m c main_arg8 (by decide)).trans <| (Y16_of_ne m c main_arg8 (by decide)).trans <| (Y15_keep m c main_arg8 (by decide)).trans <| (Y14_of_ne m c main_arg8 (by decide)).trans <| (Y13_keep m c main_arg8 (by decide)).trans <| (Y12_of_ne m c main_arg8 (by decide)).trans <| (Y11_keep m c main_arg8 (by decide)).trans <| (Y10_of_ne m c main_arg8 (by decide)).trans <| (Y9_keep m c main_arg8 (by decide)).trans <| (Y8_of_ne m c main_arg8 (by decide)).trans <| (Y7_keep m c main_arg8 (by decide)).trans <| (Y6_of_ne m c main_arg8 (by decide)).trans <| (Y5_keep m c main_arg8 (by decide)).trans <| (Y4_of_ne m c main_arg8 (by decide)).trans <| (Y3_keep m c main_arg8 (by decide)).trans <| (Y2_of_ne m c main_arg8 (by decide)).trans <| (Y1_keep m c main_arg8 (by decide)).trans <| rfl
theorem arg9_at18 : Y18 m c (Proc.devRef .tc main_arg9) = A9 m c :=
  (Y18_of_ne m c main_arg9 (by decide)).trans <| (Y17_keep m c main_arg9 (by decide)).trans <| (Y16_of_ne m c main_arg9 (by decide)).trans <| (Y15_keep m c main_arg9 (by decide)).trans <| (Y14_of_ne m c main_arg9 (by decide)).trans <| (Y13_keep m c main_arg9 (by decide)).trans <| (Y12_of_ne m c main_arg9 (by decide)).trans <| (Y11_keep m c main_arg9 (by decide)).trans <| (Y10_of_ne m c main_arg9 (by decide)).trans <| (Y9_keep m c main_arg9 (by decide)).trans <| (Y8_of_ne m c main_arg9 (by decide)).trans <| (Y7_keep m c main_arg9 (by decide)).trans <| (Y6_of_ne m c main_arg9 (by decide)).trans <| (Y5_keep m c main_arg9 (by decide)).trans <| (Y4_of_ne m c main_arg9 (by decide)).trans <| (Y3_keep m c main_arg9 (by decide)).trans <| (Y2_of_ne m c main_arg9 (by decide)).trans <| (Y1_keep m c main_arg9 (by decide)).trans <| rfl
theorem arg10_at18 : Y18 m c (Proc.devRef .tc main_arg10) = A10 m c :=
  (Y18_of_ne m c main_arg10 (by decide)).trans <| (Y17_keep m c main_arg10 (by decide)).trans <| (Y16_of_ne m c main_arg10 (by decide)).trans <| (Y15_keep m c main_arg10 (by decide)).trans <| (Y14_of_ne m c main_arg10 (by decide)).trans <| (Y13_keep m c main_arg10 (by decide)).trans <| (Y12_of_ne m c main_arg10 (by decide)).trans <| (Y11_keep m c main_arg10 (by decide)).trans <| (Y10_of_ne m c main_arg10 (by decide)).trans <| (Y9_keep m c main_arg10 (by decide)).trans <| (Y8_of_ne m c main_arg10 (by decide)).trans <| (Y7_keep m c main_arg10 (by decide)).trans <| (Y6_of_ne m c main_arg10 (by decide)).trans <| (Y5_keep m c main_arg10 (by decide)).trans <| (Y4_of_ne m c main_arg10 (by decide)).trans <| (Y3_keep m c main_arg10 (by decide)).trans <| (Y2_of_ne m c main_arg10 (by decide)).trans <| (Y1_keep m c main_arg10 (by decide)).trans <| rfl
theorem arg11_at18 : Y18 m c (Proc.devRef .tc main_arg11) = A11 m c :=
  (Y18_of_ne m c main_arg11 (by decide)).trans <| (Y17_keep m c main_arg11 (by decide)).trans <| (Y16_of_ne m c main_arg11 (by decide)).trans <| (Y15_keep m c main_arg11 (by decide)).trans <| (Y14_of_ne m c main_arg11 (by decide)).trans <| (Y13_keep m c main_arg11 (by decide)).trans <| (Y12_of_ne m c main_arg11 (by decide)).trans <| (Y11_keep m c main_arg11 (by decide)).trans <| (Y10_of_ne m c main_arg11 (by decide)).trans <| (Y9_keep m c main_arg11 (by decide)).trans <| (Y8_of_ne m c main_arg11 (by decide)).trans <| (Y7_keep m c main_arg11 (by decide)).trans <| (Y6_of_ne m c main_arg11 (by decide)).trans <| (Y5_keep m c main_arg11 (by decide)).trans <| (Y4_of_ne m c main_arg11 (by decide)).trans <| (Y3_keep m c main_arg11 (by decide)).trans <| (Y2_of_ne m c main_arg11 (by decide)).trans <| (Y1_keep m c main_arg11 (by decide)).trans <| rfl
theorem arg8_at20 : Y20 m c (Proc.devRef .tc main_arg8) = A8 m c :=
  (Y20_of_ne m c main_arg8 (by decide)).trans <| (Y19_keep m c main_arg8 (by decide)).trans <| (Y18_of_ne m c main_arg8 (by decide)).trans <| (Y17_keep m c main_arg8 (by decide)).trans <| (Y16_of_ne m c main_arg8 (by decide)).trans <| (Y15_keep m c main_arg8 (by decide)).trans <| (Y14_of_ne m c main_arg8 (by decide)).trans <| (Y13_keep m c main_arg8 (by decide)).trans <| (Y12_of_ne m c main_arg8 (by decide)).trans <| (Y11_keep m c main_arg8 (by decide)).trans <| (Y10_of_ne m c main_arg8 (by decide)).trans <| (Y9_keep m c main_arg8 (by decide)).trans <| (Y8_of_ne m c main_arg8 (by decide)).trans <| (Y7_keep m c main_arg8 (by decide)).trans <| (Y6_of_ne m c main_arg8 (by decide)).trans <| (Y5_keep m c main_arg8 (by decide)).trans <| (Y4_of_ne m c main_arg8 (by decide)).trans <| (Y3_keep m c main_arg8 (by decide)).trans <| (Y2_of_ne m c main_arg8 (by decide)).trans <| (Y1_keep m c main_arg8 (by decide)).trans <| rfl
theorem arg9_at20 : Y20 m c (Proc.devRef .tc main_arg9) = A9 m c :=
  (Y20_of_ne m c main_arg9 (by decide)).trans <| (Y19_keep m c main_arg9 (by decide)).trans <| (Y18_of_ne m c main_arg9 (by decide)).trans <| (Y17_keep m c main_arg9 (by decide)).trans <| (Y16_of_ne m c main_arg9 (by decide)).trans <| (Y15_keep m c main_arg9 (by decide)).trans <| (Y14_of_ne m c main_arg9 (by decide)).trans <| (Y13_keep m c main_arg9 (by decide)).trans <| (Y12_of_ne m c main_arg9 (by decide)).trans <| (Y11_keep m c main_arg9 (by decide)).trans <| (Y10_of_ne m c main_arg9 (by decide)).trans <| (Y9_keep m c main_arg9 (by decide)).trans <| (Y8_of_ne m c main_arg9 (by decide)).trans <| (Y7_keep m c main_arg9 (by decide)).trans <| (Y6_of_ne m c main_arg9 (by decide)).trans <| (Y5_keep m c main_arg9 (by decide)).trans <| (Y4_of_ne m c main_arg9 (by decide)).trans <| (Y3_keep m c main_arg9 (by decide)).trans <| (Y2_of_ne m c main_arg9 (by decide)).trans <| (Y1_keep m c main_arg9 (by decide)).trans <| rfl
theorem arg10_at20 : Y20 m c (Proc.devRef .tc main_arg10) = A10 m c :=
  (Y20_of_ne m c main_arg10 (by decide)).trans <| (Y19_keep m c main_arg10 (by decide)).trans <| (Y18_of_ne m c main_arg10 (by decide)).trans <| (Y17_keep m c main_arg10 (by decide)).trans <| (Y16_of_ne m c main_arg10 (by decide)).trans <| (Y15_keep m c main_arg10 (by decide)).trans <| (Y14_of_ne m c main_arg10 (by decide)).trans <| (Y13_keep m c main_arg10 (by decide)).trans <| (Y12_of_ne m c main_arg10 (by decide)).trans <| (Y11_keep m c main_arg10 (by decide)).trans <| (Y10_of_ne m c main_arg10 (by decide)).trans <| (Y9_keep m c main_arg10 (by decide)).trans <| (Y8_of_ne m c main_arg10 (by decide)).trans <| (Y7_keep m c main_arg10 (by decide)).trans <| (Y6_of_ne m c main_arg10 (by decide)).trans <| (Y5_keep m c main_arg10 (by decide)).trans <| (Y4_of_ne m c main_arg10 (by decide)).trans <| (Y3_keep m c main_arg10 (by decide)).trans <| (Y2_of_ne m c main_arg10 (by decide)).trans <| (Y1_keep m c main_arg10 (by decide)).trans <| rfl
theorem arg11_at20 : Y20 m c (Proc.devRef .tc main_arg11) = A11 m c :=
  (Y20_of_ne m c main_arg11 (by decide)).trans <| (Y19_keep m c main_arg11 (by decide)).trans <| (Y18_of_ne m c main_arg11 (by decide)).trans <| (Y17_keep m c main_arg11 (by decide)).trans <| (Y16_of_ne m c main_arg11 (by decide)).trans <| (Y15_keep m c main_arg11 (by decide)).trans <| (Y14_of_ne m c main_arg11 (by decide)).trans <| (Y13_keep m c main_arg11 (by decide)).trans <| (Y12_of_ne m c main_arg11 (by decide)).trans <| (Y11_keep m c main_arg11 (by decide)).trans <| (Y10_of_ne m c main_arg11 (by decide)).trans <| (Y9_keep m c main_arg11 (by decide)).trans <| (Y8_of_ne m c main_arg11 (by decide)).trans <| (Y7_keep m c main_arg11 (by decide)).trans <| (Y6_of_ne m c main_arg11 (by decide)).trans <| (Y5_keep m c main_arg11 (by decide)).trans <| (Y4_of_ne m c main_arg11 (by decide)).trans <| (Y3_keep m c main_arg11 (by decide)).trans <| (Y2_of_ne m c main_arg11 (by decide)).trans <| (Y1_keep m c main_arg11 (by decide)).trans <| rfl
theorem arg5_at22 : Y22 m c (Proc.devRef .tc main_arg5) = A5 m c :=
  (Y22_of_ne m c main_arg5 (by decide)).trans <| (Y21_keep m c main_arg5 (by decide)).trans <| (Y20_of_ne m c main_arg5 (by decide)).trans <| (Y19_keep m c main_arg5 (by decide)).trans <| (Y18_of_ne m c main_arg5 (by decide)).trans <| (Y17_keep m c main_arg5 (by decide)).trans <| (Y16_of_ne m c main_arg5 (by decide)).trans <| (Y15_keep m c main_arg5 (by decide)).trans <| (Y14_of_ne m c main_arg5 (by decide)).trans <| (Y13_keep m c main_arg5 (by decide)).trans <| (Y12_of_ne m c main_arg5 (by decide)).trans <| (Y11_keep m c main_arg5 (by decide)).trans <| (Y10_of_ne m c main_arg5 (by decide)).trans <| (Y9_keep m c main_arg5 (by decide)).trans <| (Y8_of_ne m c main_arg5 (by decide)).trans <| (Y7_keep m c main_arg5 (by decide)).trans <| (Y6_of_ne m c main_arg5 (by decide)).trans <| (Y5_keep m c main_arg5 (by decide)).trans <| (Y4_of_ne m c main_arg5 (by decide)).trans <| (Y3_keep m c main_arg5 (by decide)).trans <| (Y2_of_ne m c main_arg5 (by decide)).trans <| (Y1_keep m c main_arg5 (by decide)).trans <| rfl
theorem arg12_at23 : Y23 m c (Proc.devRef .tc main_arg12) = A12 m c :=
  (Y23_keep m c main_arg12 (by decide)).trans <| (Y22_of_ne m c main_arg12 (by decide)).trans <| (Y21_keep m c main_arg12 (by decide)).trans <| (Y20_of_ne m c main_arg12 (by decide)).trans <| (Y19_keep m c main_arg12 (by decide)).trans <| (Y18_of_ne m c main_arg12 (by decide)).trans <| (Y17_keep m c main_arg12 (by decide)).trans <| (Y16_of_ne m c main_arg12 (by decide)).trans <| (Y15_keep m c main_arg12 (by decide)).trans <| (Y14_of_ne m c main_arg12 (by decide)).trans <| (Y13_keep m c main_arg12 (by decide)).trans <| (Y12_in m c 1 rfl).trans <| (Y11_keep m c main_arg12 (by decide)).trans <| (Y10_of_ne m c main_arg12 (by decide)).trans <| (Y9_keep m c main_arg12 (by decide)).trans <| (Y8_of_ne m c main_arg12 (by decide)).trans <| (Y7_keep m c main_arg12 (by decide)).trans <| (Y6_of_ne m c main_arg12 (by decide)).trans <| (Y5_keep m c main_arg12 (by decide)).trans <| (Y4_of_ne m c main_arg12 (by decide)).trans <| (Y3_keep m c main_arg12 (by decide)).trans <| (Y2_of_ne m c main_arg12 (by decide)).trans <| (Y1_keep m c main_arg12 (by decide)).trans <| rfl
theorem arg13_at23 : Y23 m c (Proc.devRef .tc main_arg13) = A13 m c :=
  (Y23_keep m c main_arg13 (by decide)).trans <| (Y22_of_ne m c main_arg13 (by decide)).trans <| (Y21_keep m c main_arg13 (by decide)).trans <| (Y20_of_ne m c main_arg13 (by decide)).trans <| (Y19_keep m c main_arg13 (by decide)).trans <| (Y18_of_ne m c main_arg13 (by decide)).trans <| (Y17_keep m c main_arg13 (by decide)).trans <| (Y16_of_ne m c main_arg13 (by decide)).trans <| (Y15_keep m c main_arg13 (by decide)).trans <| (Y14_of_ne m c main_arg13 (by decide)).trans <| (Y13_keep m c main_arg13 (by decide)).trans <| (Y12_in m c 2 rfl).trans <| (Y11_keep m c main_arg13 (by decide)).trans <| (Y10_of_ne m c main_arg13 (by decide)).trans <| (Y9_keep m c main_arg13 (by decide)).trans <| (Y8_of_ne m c main_arg13 (by decide)).trans <| (Y7_keep m c main_arg13 (by decide)).trans <| (Y6_of_ne m c main_arg13 (by decide)).trans <| (Y5_keep m c main_arg13 (by decide)).trans <| (Y4_of_ne m c main_arg13 (by decide)).trans <| (Y3_keep m c main_arg13 (by decide)).trans <| (Y2_of_ne m c main_arg13 (by decide)).trans <| (Y1_keep m c main_arg13 (by decide)).trans <| rfl
theorem arg14_at23 : Y23 m c (Proc.devRef .tc main_arg14) = A14 m c :=
  (Y23_keep m c main_arg14 (by decide)).trans <| (Y22_of_ne m c main_arg14 (by decide)).trans <| (Y21_keep m c main_arg14 (by decide)).trans <| (Y20_of_ne m c main_arg14 (by decide)).trans <| (Y19_keep m c main_arg14 (by decide)).trans <| (Y18_of_ne m c main_arg14 (by decide)).trans <| (Y17_keep m c main_arg14 (by decide)).trans <| (Y16_of_ne m c main_arg14 (by decide)).trans <| (Y15_keep m c main_arg14 (by decide)).trans <| (Y14_of_ne m c main_arg14 (by decide)).trans <| (Y13_keep m c main_arg14 (by decide)).trans <| (Y12_in m c 3 rfl).trans <| (Y11_keep m c main_arg14 (by decide)).trans <| (Y10_of_ne m c main_arg14 (by decide)).trans <| (Y9_keep m c main_arg14 (by decide)).trans <| (Y8_of_ne m c main_arg14 (by decide)).trans <| (Y7_keep m c main_arg14 (by decide)).trans <| (Y6_of_ne m c main_arg14 (by decide)).trans <| (Y5_keep m c main_arg14 (by decide)).trans <| (Y4_of_ne m c main_arg14 (by decide)).trans <| (Y3_keep m c main_arg14 (by decide)).trans <| (Y2_of_ne m c main_arg14 (by decide)).trans <| (Y1_keep m c main_arg14 (by decide)).trans <| rfl
theorem arg15_at23 : Y23 m c (Proc.devRef .tc main_arg15) = A15 m c :=
  (Y23_keep m c main_arg15 (by decide)).trans <| (Y22_of_ne m c main_arg15 (by decide)).trans <| (Y21_keep m c main_arg15 (by decide)).trans <| (Y20_of_ne m c main_arg15 (by decide)).trans <| (Y19_keep m c main_arg15 (by decide)).trans <| (Y18_of_ne m c main_arg15 (by decide)).trans <| (Y17_keep m c main_arg15 (by decide)).trans <| (Y16_of_ne m c main_arg15 (by decide)).trans <| (Y15_keep m c main_arg15 (by decide)).trans <| (Y14_of_ne m c main_arg15 (by decide)).trans <| (Y13_keep m c main_arg15 (by decide)).trans <| (Y12_in m c 4 rfl).trans <| (Y11_keep m c main_arg15 (by decide)).trans <| (Y10_of_ne m c main_arg15 (by decide)).trans <| (Y9_keep m c main_arg15 (by decide)).trans <| (Y8_of_ne m c main_arg15 (by decide)).trans <| (Y7_keep m c main_arg15 (by decide)).trans <| (Y6_of_ne m c main_arg15 (by decide)).trans <| (Y5_keep m c main_arg15 (by decide)).trans <| (Y4_of_ne m c main_arg15 (by decide)).trans <| (Y3_keep m c main_arg15 (by decide)).trans <| (Y2_of_ne m c main_arg15 (by decide)).trans <| (Y1_keep m c main_arg15 (by decide)).trans <| rfl

/-- `main_v1`, written by host stretch 0. -/
theorem v1_val : Y1 m c (Proc.devRef .tc main_v1) = (Cert.Layers.row0 (A1 m c)) := by
  refine (host0_v1 (Y0 m c)).trans ?_
  show Cert.Layers.row0 (Y0 m c (Proc.devRef .tc main_arg1)) = _
  rw [arg1_at0 m c]
  try rfl
/-- `main_v3`, written by host stretch 0. -/
theorem v3_val : Y1 m c (Proc.devRef .tc main_v3) = (Cert.Layers.row1 (A1 m c)) := by
  refine (host0_v3 (Y0 m c)).trans ?_
  show Cert.Layers.row1 (Y0 m c (Proc.devRef .tc main_arg1)) = _
  rw [arg1_at0 m c]
  try rfl
/-- `main_v4`, output window 3 of region 0. -/
theorem v4_val : Y2 m c (Proc.devRef .tc main_v4) = (Cert.Layers.emb0 (A0 m c) (A6 m c) (A7 m c)) := by
  refine (Y2_arr m c 3).trans ((arrAt0_3 (R1v m) c).trans ?_)
  show Cert.Layers.pre (Y1 m c (Proc.devRef .tc main_arg0)) (Y1 m c (Proc.devRef .tc main_arg6)) (Y1 m c (Proc.devRef .tc main_arg7)) = _
  rw [arg0_at1 m c, arg6_at1 m c, arg7_at1 m c]
  try rfl
theorem v4_at2 : Y2 m c (Proc.devRef .tc main_v4) = (Cert.Layers.emb0 (A0 m c) (A6 m c) (A7 m c)) :=
   v4_val m c
theorem v1_at2 : Y2 m c (Proc.devRef .tc main_v1) = (Cert.Layers.row0 (A1 m c)) :=
  (Y2_of_ne m c main_v1 (by decide)).trans <| v1_val m c
theorem v3_at2 : Y2 m c (Proc.devRef .tc main_v3) = (Cert.Layers.row1 (A1 m c)) :=
  (Y2_of_ne m c main_v3 (by decide)).trans <| v3_val m c
/-- `main_v14`, written by host stretch 1. -/
theorem v14_val : Y3 m c (Proc.devRef .tc main_v14) = (Cert.Layers.agg (Cert.Layers.emb0 (A0 m c) (A6 m c) (A7 m c)) (A1 m c)) := by
  refine (host1_v14 (Y2 m c)).trans ?_
  show Cert.Layers.aggOf (Y2 m c (Proc.devRef .tc main_v4)) (Y2 m c (Proc.devRef .tc main_v1)) (Y2 m c (Proc.devRef .tc main_v3)) = _
  rw [Cert.Layers.agg_eq]
  rw [v4_at2 m c, v1_at2 m c, v3_at2 m c]
  try rfl
/-- `main_v16`, written by host stretch 1. -/
theorem v16_val : Y3 m c (Proc.devRef .tc main_v16) = (Cert.Layers.wAt0 (A8 m c)) := by
  refine (host1_v16 (Y2 m c)).trans ?_
  show Cert.Layers.wAt0 (Y2 m c (Proc.devRef .tc main_arg8)) = _
  rw [arg8_at2 m c]
  try rfl
/-- `main_v18`, written by host stretch 1. -/
theorem v18_val : Y3 m c (Proc.devRef .tc main_v18) = (Cert.Layers.bAt0 (A9 m c)) := by
  refine (host1_v18 (Y2 m c)).trans ?_
  show Cert.Layers.bAt0 (Y2 m c (Proc.devRef .tc main_arg9)) = _
  rw [arg9_at2 m c]
  try rfl
/-- `main_v20`, written by host stretch 1. -/
theorem v20_val : Y3 m c (Proc.devRef .tc main_v20) = (Cert.Layers.wAt0 (A10 m c)) := by
  refine (host1_v20 (Y2 m c)).trans ?_
  show Cert.Layers.wAt0 (Y2 m c (Proc.devRef .tc main_arg10)) = _
  rw [arg10_at2 m c]
  try rfl
/-- `main_v22`, written by host stretch 1. -/
theorem v22_val : Y3 m c (Proc.devRef .tc main_v22) = (Cert.Layers.bAt0 (A11 m c)) := by
  refine (host1_v22 (Y2 m c)).trans ?_
  show Cert.Layers.bAt0 (Y2 m c (Proc.devRef .tc main_arg11)) = _
  rw [arg11_at2 m c]
  try rfl
theorem v4_at3 : Y3 m c (Proc.devRef .tc main_v4) = (Cert.Layers.emb0 (A0 m c) (A6 m c) (A7 m c)) :=
  (Y3_keep m c main_v4 (by decide)).trans <| v4_val m c
theorem v14_at3 : Y3 m c (Proc.devRef .tc main_v14) = (Cert.Layers.agg (Cert.Layers.emb0 (A0 m c) (A6 m c) (A7 m c)) (A1 m c)) :=
   v14_val m c
theorem v16_at3 : Y3 m c (Proc.devRef .tc main_v16) = (Cert.Layers.wAt0 (A8 m c)) :=
   v16_val m c
theorem v18_at3 : Y3 m c (Proc.devRef .tc main_v18) = (Cert.Layers.bAt0 (A9 m c)) :=
   v18_val m c
theorem v20_at3 : Y3 m c (Proc.devRef .tc main_v20) = (Cert.Layers.wAt0 (A10 m c)) :=
   v20_val m c
theorem v22_at3 : Y3 m c (Proc.devRef .tc main_v22) = (Cert.Layers.bAt0 (A11 m c)) :=
   v22_val m c
/-- `main_v23`, output window 6 of region 1. -/
theorem v23_val : Y4 m c (Proc.devRef .tc main_v23) = (Cert.Layers.emb1 (A0 m c) (A1 m c) (A6 m c) (A7 m c) (A8 m c) (A9 m c) (A10 m c) (A11 m c)) := by
  refine (Y4_arr m c 6).trans ((arrAt1_6 (R3v m) c).trans ?_)
  show Cert.Layers.ginPlain (Y3 m c (Proc.devRef .tc main_v4)) (Y3 m c (Proc.devRef .tc main_v14)) (Y3 m c (Proc.devRef .tc main_v16)) (Y3 m c (Proc.devRef .tc main_v18)) (Y3 m c (Proc.devRef .tc main_v20)) (Y3 m c (Proc.devRef .tc main_v22)) = _
  rw [v4_at3 m c, v14_at3 m c, v16_at3 m c, v18_at3 m c, v20_at3 m c, v22_at3 m c]
  try rfl
theorem v23_at4 : Y4 m c (Proc.devRef .tc main_v23) = (Cert.Layers.emb1 (A0 m c) (A1 m c) (A6 m c) (A7 m c) (A8 m c) (A9 m c) (A10 m c) (A11 m c)) :=
   v23_val m c
theorem v1_at4 : Y4 m c (Proc.devRef .tc main_v1) = (Cert.Layers.row0 (A1 m c)) :=
  (Y4_of_ne m c main_v1 (by decide)).trans <| (Y3_keep m c main_v1 (by decide)).trans <| (Y2_of_ne m c main_v1 (by decide)).trans <| v1_val m c
theorem v3_at4 : Y4 m c (Proc.devRef .tc main_v3) = (Cert.Layers.row1 (A1 m c)) :=
  (Y4_of_ne m c main_v3 (by decide)).trans <| (Y3_keep m c main_v3 (by decide)).trans <| (Y2_of_ne m c main_v3 (by decide)).trans <| v3_val m c
/-- `main_v33`, written by host stretch 2. -/
theorem v33_val : Y5 m c (Proc.devRef .tc main_v33) = (Cert.Layers.agg (Cert.Layers.emb1 (A0 m c) (A1 m c) (A6 m c) (A7 m c) (A8 m c) (A9 m c) (A10 m c) (A11 m c)) (A1 m c)) := by
  refine (host2_v33 (Y4 m c)).trans ?_
  show Cert.Layers.aggOf (Y4 m c (Proc.devRef .tc main_v23)) (Y4 m c (Proc.devRef .tc main_v1)) (Y4 m c (Proc.devRef .tc main_v3)) = _
  rw [Cert.Layers.agg_eq]
  rw [v23_at4 m c, v1_at4 m c, v3_at4 m c]
  try rfl
/-- `main_v35`, written by host stretch 2. -/
theorem v35_val : Y5 m c (Proc.devRef .tc main_v35) = (Cert.Layers.wAt1 (A8 m c)) := by
  refine (host2_v35 (Y4 m c)).trans ?_
  show Cert.Layers.wAt1 (Y4 m c (Proc.devRef .tc main_arg8)) = _
  rw [arg8_at4 m c]
  try rfl
/-- `main_v37`, written by host stretch 2. -/
theorem v37_val : Y5 m c (Proc.devRef .tc main_v37) = (Cert.Layers.bAt1 (A9 m c)) := by
  refine (host2_v37 (Y4 m c)).trans ?_
  show Cert.Layers.bAt1 (Y4 m c (Proc.devRef .tc main_arg9)) = _
  rw [arg9_at4 m c]
  try rfl
/-- `main_v39`, written by host stretch 2. -/
theorem v39_val : Y5 m c (Proc.devRef .tc main_v39) = (Cert.Layers.wAt1 (A10 m c)) := by
  refine (host2_v39 (Y4 m c)).trans ?_
  show Cert.Layers.wAt1 (Y4 m c (Proc.devRef .tc main_arg10)) = _
  rw [arg10_at4 m c]
  try rfl
/-- `main_v41`, written by host stretch 2. -/
theorem v41_val : Y5 m c (Proc.devRef .tc main_v41) = (Cert.Layers.bAt1 (A11 m c)) := by
  refine (host2_v41 (Y4 m c)).trans ?_
  show Cert.Layers.bAt1 (Y4 m c (Proc.devRef .tc main_arg11)) = _
  rw [arg11_at4 m c]
  try rfl
theorem v23_at5 : Y5 m c (Proc.devRef .tc main_v23) = (Cert.Layers.emb1 (A0 m c) (A1 m c) (A6 m c) (A7 m c) (A8 m c) (A9 m c) (A10 m c) (A11 m c)) :=
  (Y5_keep m c main_v23 (by decide)).trans <| v23_val m c
theorem v33_at5 : Y5 m c (Proc.devRef .tc main_v33) = (Cert.Layers.agg (Cert.Layers.emb1 (A0 m c) (A1 m c) (A6 m c) (A7 m c) (A8 m c) (A9 m c) (A10 m c) (A11 m c)) (A1 m c)) :=
   v33_val m c
theorem v4_at5 : Y5 m c (Proc.devRef .tc main_v4) = (Cert.Layers.emb0 (A0 m c) (A6 m c) (A7 m c)) :=
  (Y5_keep m c main_v4 (by decide)).trans <| (Y4_in m c 0 rfl).trans <| (Y3_keep m c main_v4 (by decide)).trans <| v4_val m c
theorem v35_at5 : Y5 m c (Proc.devRef .tc main_v35) = (Cert.Layers.wAt1 (A8 m c)) :=
   v35_val m c
theorem v37_at5 : Y5 m c (Proc.devRef .tc main_v37) = (Cert.Layers.bAt1 (A9 m c)) :=
   v37_val m c
theorem v39_at5 : Y5 m c (Proc.devRef .tc main_v39) = (Cert.Layers.wAt1 (A10 m c)) :=
   v39_val m c
theorem v41_at5 : Y5 m c (Proc.devRef .tc main_v41) = (Cert.Layers.bAt1 (A11 m c)) :=
   v41_val m c
/-- `main_v42_0`, output window 7 of region 2. -/
theorem v42_0_val : Y6 m c (Proc.devRef .tc main_v42_0) = (Cert.Layers.emb2 (A0 m c) (A1 m c) (A6 m c) (A7 m c) (A8 m c) (A9 m c) (A10 m c) (A11 m c)) := by
  refine (Y6_arr m c 7).trans ((arrAt2_7 (R5v m) c).trans ?_)
  show Cert.Layers.ginResid (Y5 m c (Proc.devRef .tc main_v23)) (Y5 m c (Proc.devRef .tc main_v33)) (Y5 m c (Proc.devRef .tc main_v4)) (Y5 m c (Proc.devRef .tc main_v35)) (Y5 m c (Proc.devRef .tc main_v37)) (Y5 m c (Proc.devRef .tc main_v39)) (Y5 m c (Proc.devRef .tc main_v41)) = _
  rw [v23_at5 m c, v33_at5 m c, v4_at5 m c, v35_at5 m c, v37_at5 m c, v39_at5 m c, v41_at5 m c]
  try rfl
/-- `main_v42_1`, output window 8 of region 2. -/
theorem v42_1_val : Y6 m c (Proc.devRef .tc main_v42_1) = (Cert.Layers.res2 (A0 m c) (A1 m c) (A6 m c) (A7 m c) (A8 m c) (A9 m c) (A10 m c) (A11 m c)) := by
  refine (Y6_arr m c 8).trans ((arrAt2_8 (R5v m) c).trans ?_)
  show Cert.Layers.ginResidPre (Y5 m c (Proc.devRef .tc main_v23)) (Y5 m c (Proc.devRef .tc main_v33)) (Y5 m c (Proc.devRef .tc main_v4)) (Y5 m c (Proc.devRef .tc main_v35)) (Y5 m c (Proc.devRef .tc main_v37)) (Y5 m c (Proc.devRef .tc main_v39)) (Y5 m c (Proc.devRef .tc main_v41)) = _
  rw [v23_at5 m c, v33_at5 m c, v4_at5 m c, v35_at5 m c, v37_at5 m c, v39_at5 m c, v41_at5 m c]
  try rfl
theorem v42_0_at6 : Y6 m c (Proc.devRef .tc main_v42_0) = (Cert.Layers.emb2 (A0 m c) (A1 m c) (A6 m c) (A7 m c) (A8 m c) (A9 m c) (A10 m c) (A11 m c)) :=
   v42_0_val m c
theorem v1_at6 : Y6 m c (Proc.devRef .tc main_v1) = (Cert.Layers.row0 (A1 m c)) :=
  (Y6_of_ne m c main_v1 (by decide)).trans <| (Y5_keep m c main_v1 (by decide)).trans <| (Y4_of_ne m c main_v1 (by decide)).trans <| (Y3_keep m c main_v1 (by decide)).trans <| (Y2_of_ne m c main_v1 (by decide)).trans <| v1_val m c
theorem v3_at6 : Y6 m c (Proc.devRef .tc main_v3) = (Cert.Layers.row1 (A1 m c)) :=
  (Y6_of_ne m c main_v3 (by decide)).trans <| (Y5_keep m c main_v3 (by decide)).trans <| (Y4_of_ne m c main_v3 (by decide)).trans <| (Y3_keep m c main_v3 (by decide)).trans <| (Y2_of_ne m c main_v3 (by decide)).trans <| v3_val m c
/-- `main_v52`, written by host stretch 3. -/
theorem v52_val : Y7 m c (Proc.devRef .tc main_v52) = (Cert.Layers.agg (Cert.Layers.emb2 (A0 m c) (A1 m c) (A6 m c) (A7 m c) (A8 m c) (A9 m c) (A10 m c) (A11 m c)) (A1 m c)) := by
  refine (host3_v52 (Y6 m c)).trans ?_
  show Cert.Layers.aggOf (Y6 m c (Proc.devRef .tc main_v42_0)) (Y6 m c (Proc.devRef .tc main_v1)) (Y6 m c (Proc.devRef .tc main_v3)) = _
  rw [Cert.Layers.agg_eq]
  rw [v42_0_at6 m c, v1_at6 m c, v3_at6 m c]
  try rfl
/-- `main_v54`, written by host stretch 3. -/
theorem v54_val : Y7 m c (Proc.devRef .tc main_v54) = (Cert.Layers.wAt2 (A8 m c)) := by
  refine (host3_v54 (Y6 m c)).trans ?_
  show Cert.Layers.wAt2 (Y6 m c (Proc.devRef .tc main_arg8)) = _
  rw [arg8_at6 m c]
  try rfl
/-- `main_v56`, written by host stretch 3. -/
theorem v56_val : Y7 m c (Proc.devRef .tc main_v56) = (Cert.Layers.bAt2 (A9 m c)) := by
  refine (host3_v56 (Y6 m c)).trans ?_
  show Cert.Layers.bAt2 (Y6 m c (Proc.devRef .tc main_arg9)) = _
  rw [arg9_at6 m c]
  try rfl
/-- `main_v58`, written by host stretch 3. -/
theorem v58_val : Y7 m c (Proc.devRef .tc main_v58) = (Cert.Layers.wAt2 (A10 m c)) := by
  refine (host3_v58 (Y6 m c)).trans ?_
  show Cert.Layers.wAt2 (Y6 m c (Proc.devRef .tc main_arg10)) = _
  rw [arg10_at6 m c]
  try rfl
/-- `main_v60`, written by host stretch 3. -/
theorem v60_val : Y7 m c (Proc.devRef .tc main_v60) = (Cert.Layers.bAt2 (A11 m c)) := by
  refine (host3_v60 (Y6 m c)).trans ?_
  show Cert.Layers.bAt2 (Y6 m c (Proc.devRef .tc main_arg11)) = _
  rw [arg11_at6 m c]
  try rfl
theorem v42_0_at7 : Y7 m c (Proc.devRef .tc main_v42_0) = (Cert.Layers.emb2 (A0 m c) (A1 m c) (A6 m c) (A7 m c) (A8 m c) (A9 m c) (A10 m c) (A11 m c)) :=
  (Y7_keep m c main_v42_0 (by decide)).trans <| v42_0_val m c
theorem v52_at7 : Y7 m c (Proc.devRef .tc main_v52) = (Cert.Layers.agg (Cert.Layers.emb2 (A0 m c) (A1 m c) (A6 m c) (A7 m c) (A8 m c) (A9 m c) (A10 m c) (A11 m c)) (A1 m c)) :=
   v52_val m c
theorem v54_at7 : Y7 m c (Proc.devRef .tc main_v54) = (Cert.Layers.wAt2 (A8 m c)) :=
   v54_val m c
theorem v56_at7 : Y7 m c (Proc.devRef .tc main_v56) = (Cert.Layers.bAt2 (A9 m c)) :=
   v56_val m c
theorem v58_at7 : Y7 m c (Proc.devRef .tc main_v58) = (Cert.Layers.wAt2 (A10 m c)) :=
   v58_val m c
theorem v60_at7 : Y7 m c (Proc.devRef .tc main_v60) = (Cert.Layers.bAt2 (A11 m c)) :=
   v60_val m c
/-- `main_v61`, output window 6 of region 3. -/
theorem v61_val : Y8 m c (Proc.devRef .tc main_v61) = (Cert.Layers.emb3 (A0 m c) (A1 m c) (A6 m c) (A7 m c) (A8 m c) (A9 m c) (A10 m c) (A11 m c)) := by
  refine (Y8_arr m c 6).trans ((arrAt3_6 (R7v m) c).trans ?_)
  show Cert.Layers.ginPlain (Y7 m c (Proc.devRef .tc main_v42_0)) (Y7 m c (Proc.devRef .tc main_v52)) (Y7 m c (Proc.devRef .tc main_v54)) (Y7 m c (Proc.devRef .tc main_v56)) (Y7 m c (Proc.devRef .tc main_v58)) (Y7 m c (Proc.devRef .tc main_v60)) = _
  rw [v42_0_at7 m c, v52_at7 m c, v54_at7 m c, v56_at7 m c, v58_at7 m c, v60_at7 m c]
  try rfl
theorem v61_at8 : Y8 m c (Proc.devRef .tc main_v61) = (Cert.Layers.emb3 (A0 m c) (A1 m c) (A6 m c) (A7 m c) (A8 m c) (A9 m c) (A10 m c) (A11 m c)) :=
   v61_val m c
theorem v1_at8 : Y8 m c (Proc.devRef .tc main_v1) = (Cert.Layers.row0 (A1 m c)) :=
  (Y8_of_ne m c main_v1 (by decide)).trans <| (Y7_keep m c main_v1 (by decide)).trans <| (Y6_of_ne m c main_v1 (by decide)).trans <| (Y5_keep m c main_v1 (by decide)).trans <| (Y4_of_ne m c main_v1 (by decide)).trans <| (Y3_keep m c main_v1 (by decide)).trans <| (Y2_of_ne m c main_v1 (by decide)).trans <| v1_val m c
theorem v3_at8 : Y8 m c (Proc.devRef .tc main_v3) = (Cert.Layers.row1 (A1 m c)) :=
  (Y8_of_ne m c main_v3 (by decide)).trans <| (Y7_keep m c main_v3 (by decide)).trans <| (Y6_of_ne m c main_v3 (by decide)).trans <| (Y5_keep m c main_v3 (by decide)).trans <| (Y4_of_ne m c main_v3 (by decide)).trans <| (Y3_keep m c main_v3 (by decide)).trans <| (Y2_of_ne m c main_v3 (by decide)).trans <| v3_val m c
/-- `main_v71`, written by host stretch 4. -/
theorem v71_val : Y9 m c (Proc.devRef .tc main_v71) = (Cert.Layers.agg (Cert.Layers.emb3 (A0 m c) (A1 m c) (A6 m c) (A7 m c) (A8 m c) (A9 m c) (A10 m c) (A11 m c)) (A1 m c)) := by
  refine (host4_v71 (Y8 m c)).trans ?_
  show Cert.Layers.aggOf (Y8 m c (Proc.devRef .tc main_v61)) (Y8 m c (Proc.devRef .tc main_v1)) (Y8 m c (Proc.devRef .tc main_v3)) = _
  rw [Cert.Layers.agg_eq]
  rw [v61_at8 m c, v1_at8 m c, v3_at8 m c]
  try rfl
/-- `main_v73`, written by host stretch 4. -/
theorem v73_val : Y9 m c (Proc.devRef .tc main_v73) = (Cert.Layers.wAt3 (A8 m c)) := by
  refine (host4_v73 (Y8 m c)).trans ?_
  show Cert.Layers.wAt3 (Y8 m c (Proc.devRef .tc main_arg8)) = _
  rw [arg8_at8 m c]
  try rfl
/-- `main_v75`, written by host stretch 4. -/
theorem v75_val : Y9 m c (Proc.devRef .tc main_v75) = (Cert.Layers.bAt3 (A9 m c)) := by
  refine (host4_v75 (Y8 m c)).trans ?_
  show Cert.Layers.bAt3 (Y8 m c (Proc.devRef .tc main_arg9)) = _
  rw [arg9_at8 m c]
  try rfl
/-- `main_v77`, written by host stretch 4. -/
theorem v77_val : Y9 m c (Proc.devRef .tc main_v77) = (Cert.Layers.wAt3 (A10 m c)) := by
  refine (host4_v77 (Y8 m c)).trans ?_
  show Cert.Layers.wAt3 (Y8 m c (Proc.devRef .tc main_arg10)) = _
  rw [arg10_at8 m c]
  try rfl
/-- `main_v79`, written by host stretch 4. -/
theorem v79_val : Y9 m c (Proc.devRef .tc main_v79) = (Cert.Layers.bAt3 (A11 m c)) := by
  refine (host4_v79 (Y8 m c)).trans ?_
  show Cert.Layers.bAt3 (Y8 m c (Proc.devRef .tc main_arg11)) = _
  rw [arg11_at8 m c]
  try rfl
theorem v61_at9 : Y9 m c (Proc.devRef .tc main_v61) = (Cert.Layers.emb3 (A0 m c) (A1 m c) (A6 m c) (A7 m c) (A8 m c) (A9 m c) (A10 m c) (A11 m c)) :=
  (Y9_keep m c main_v61 (by decide)).trans <| v61_val m c
theorem v71_at9 : Y9 m c (Proc.devRef .tc main_v71) = (Cert.Layers.agg (Cert.Layers.emb3 (A0 m c) (A1 m c) (A6 m c) (A7 m c) (A8 m c) (A9 m c) (A10 m c) (A11 m c)) (A1 m c)) :=
   v71_val m c
theorem v42_1_at9 : Y9 m c (Proc.devRef .tc main_v42_1) = (Cert.Layers.res2 (A0 m c) (A1 m c) (A6 m c) (A7 m c) (A8 m c) (A9 m c) (A10 m c) (A11 m c)) :=
  (Y9_keep m c main_v42_1 (by decide)).trans <| (Y8_of_ne m c main_v42_1 (by decide)).trans <| (Y7_keep m c main_v42_1 (by decide)).trans <| v42_1_val m c
theorem v73_at9 : Y9 m c (Proc.devRef .tc main_v73) = (Cert.Layers.wAt3 (A8 m c)) :=
   v73_val m c
theorem v75_at9 : Y9 m c (Proc.devRef .tc main_v75) = (Cert.Layers.bAt3 (A9 m c)) :=
   v75_val m c
theorem v77_at9 : Y9 m c (Proc.devRef .tc main_v77) = (Cert.Layers.wAt3 (A10 m c)) :=
   v77_val m c
theorem v79_at9 : Y9 m c (Proc.devRef .tc main_v79) = (Cert.Layers.bAt3 (A11 m c)) :=
   v79_val m c
/-- `main_v80_0`, output window 7 of region 4. -/
theorem v80_0_val : Y10 m c (Proc.devRef .tc main_v80_0) = (Cert.Layers.emb4 (A0 m c) (A1 m c) (A6 m c) (A7 m c) (A8 m c) (A9 m c) (A10 m c) (A11 m c)) := by
  refine (Y10_arr m c 7).trans ((arrAt4_7 (R9v m) c).trans ?_)
  show Cert.Layers.ginResid (Y9 m c (Proc.devRef .tc main_v61)) (Y9 m c (Proc.devRef .tc main_v71)) (Y9 m c (Proc.devRef .tc main_v42_1)) (Y9 m c (Proc.devRef .tc main_v73)) (Y9 m c (Proc.devRef .tc main_v75)) (Y9 m c (Proc.devRef .tc main_v77)) (Y9 m c (Proc.devRef .tc main_v79)) = _
  rw [v61_at9 m c, v71_at9 m c, v42_1_at9 m c, v73_at9 m c, v75_at9 m c, v77_at9 m c, v79_at9 m c]
  try rfl
/-- `main_v80_1`, output window 8 of region 4. -/
theorem v80_1_val : Y10 m c (Proc.devRef .tc main_v80_1) = (Cert.Layers.res4 (A0 m c) (A1 m c) (A6 m c) (A7 m c) (A8 m c) (A9 m c) (A10 m c) (A11 m c)) := by
  refine (Y10_arr m c 8).trans ((arrAt4_8 (R9v m) c).trans ?_)
  show Cert.Layers.ginResidPre (Y9 m c (Proc.devRef .tc main_v61)) (Y9 m c (Proc.devRef .tc main_v71)) (Y9 m c (Proc.devRef .tc main_v42_1)) (Y9 m c (Proc.devRef .tc main_v73)) (Y9 m c (Proc.devRef .tc main_v75)) (Y9 m c (Proc.devRef .tc main_v77)) (Y9 m c (Proc.devRef .tc main_v79)) = _
  rw [v61_at9 m c, v71_at9 m c, v42_1_at9 m c, v73_at9 m c, v75_at9 m c, v77_at9 m c, v79_at9 m c]
  try rfl
theorem v4_at10 : Y10 m c (Proc.devRef .tc main_v4) = (Cert.Layers.emb0 (A0 m c) (A6 m c) (A7 m c)) :=
  (Y10_of_ne m c main_v4 (by decide)).trans <| (Y9_keep m c main_v4 (by decide)).trans <| (Y8_of_ne m c main_v4 (by decide)).trans <| (Y7_keep m c main_v4 (by decide)).trans <| (Y6_in m c 2 rfl).trans <| (Y5_keep m c main_v4 (by decide)).trans <| (Y4_in m c 0 rfl).trans <| (Y3_keep m c main_v4 (by decide)).trans <| v4_val m c
theorem v23_at10 : Y10 m c (Proc.devRef .tc main_v23) = (Cert.Layers.emb1 (A0 m c) (A1 m c) (A6 m c) (A7 m c) (A8 m c) (A9 m c) (A10 m c) (A11 m c)) :=
  (Y10_of_ne m c main_v23 (by decide)).trans <| (Y9_keep m c main_v23 (by decide)).trans <| (Y8_of_ne m c main_v23 (by decide)).trans <| (Y7_keep m c main_v23 (by decide)).trans <| (Y6_in m c 0 rfl).trans <| (Y5_keep m c main_v23 (by decide)).trans <| v23_val m c
theorem v42_0_at10 : Y10 m c (Proc.devRef .tc main_v42_0) = (Cert.Layers.emb2 (A0 m c) (A1 m c) (A6 m c) (A7 m c) (A8 m c) (A9 m c) (A10 m c) (A11 m c)) :=
  (Y10_of_ne m c main_v42_0 (by decide)).trans <| (Y9_keep m c main_v42_0 (by decide)).trans <| (Y8_in m c 0 rfl).trans <| (Y7_keep m c main_v42_0 (by decide)).trans <| v42_0_val m c
theorem v61_at10 : Y10 m c (Proc.devRef .tc main_v61) = (Cert.Layers.emb3 (A0 m c) (A1 m c) (A6 m c) (A7 m c) (A8 m c) (A9 m c) (A10 m c) (A11 m c)) :=
  (Y10_in m c 0 rfl).trans <| (Y9_keep m c main_v61 (by decide)).trans <| v61_val m c
theorem v80_0_at10 : Y10 m c (Proc.devRef .tc main_v80_0) = (Cert.Layers.emb4 (A0 m c) (A1 m c) (A6 m c) (A7 m c) (A8 m c) (A9 m c) (A10 m c) (A11 m c)) :=
   v80_0_val m c
/-- `main_v84`, written by host stretch 5. -/
theorem v84_val : Y11 m c (Proc.devRef .tc main_v84) = (Cert.Layers.pool (Cert.Layers.cat5 (Cert.Layers.emb0 (A0 m c) (A6 m c) (A7 m c)) (Cert.Layers.emb1 (A0 m c) (A1 m c) (A6 m c) (A7 m c) (A8 m c) (A9 m c) (A10 m c) (A11 m c)) (Cert.Layers.emb2 (A0 m c) (A1 m c) (A6 m c) (A7 m c) (A8 m c) (A9 m c) (A10 m c) (A11 m c)) (Cert.Layers.emb3 (A0 m c) (A1 m c) (A6 m c) (A7 m c) (A8 m c) (A9 m c) (A10 m c) (A11 m c)) (Cert.Layers.emb4 (A0 m c) (A1 m c) (A6 m c) (A7 m c) (A8 m c) (A9 m c) (A10 m c) (A11 m c))) (A2 m c)) := by
  refine (host5_v84 (Y10 m c)).trans ?_
  show Cert.Layers.pool (Cert.Layers.cat5 (Y10 m c (Proc.devRef .tc main_v4)) (Y10 m c (Proc.devRef .tc main_v23)) (Y10 m c (Proc.devRef .tc main_v42_0)) (Y10 m c (Proc.devRef .tc main_v61)) (Y10 m c (Proc.devRef .tc main_v80_0))) (Y10 m c (Proc.devRef .tc main_arg2)) = _
  rw [v4_at10 m c, v23_at10 m c, v42_0_at10 m c, v61_at10 m c, v80_0_at10 m c, arg2_at10 m c]
  try rfl
theorem v84_at11 : Y11 m c (Proc.devRef .tc main_v84) = (Cert.Layers.pool (Cert.Layers.cat5 (Cert.Layers.emb0 (A0 m c) (A6 m c) (A7 m c)) (Cert.Layers.emb1 (A0 m c) (A1 m c) (A6 m c) (A7 m c) (A8 m c) (A9 m c) (A10 m c) (A11 m c)) (Cert.Layers.emb2 (A0 m c) (A1 m c) (A6 m c) (A7 m c) (A8 m c) (A9 m c) (A10 m c) (A11 m c)) (Cert.Layers.emb3 (A0 m c) (A1 m c) (A6 m c) (A7 m c) (A8 m c) (A9 m c) (A10 m c) (A11 m c)) (Cert.Layers.emb4 (A0 m c) (A1 m c) (A6 m c) (A7 m c) (A8 m c) (A9 m c) (A10 m c) (A11 m c))) (A2 m c)) :=
   v84_val m c
/-- `main_v85`, output window 5 of region 5. -/
theorem v85_val : Y12 m c (Proc.devRef .tc main_v85) = (Cert.Layers.embed (A0 m c) (A1 m c) (A2 m c) (A6 m c) (A7 m c) (A8 m c) (A9 m c) (A10 m c) (A11 m c) (A12 m c) (A13 m c) (A14 m c) (A15 m c)) := by
  refine (Y12_arr m c 5).trans ((arrAt5_5 (R11v m) c).trans ?_)
  show Cert.Layers.post (Y11 m c (Proc.devRef .tc main_v84)) (Y11 m c (Proc.devRef .tc main_arg12)) (Y11 m c (Proc.devRef .tc main_arg13)) (Y11 m c (Proc.devRef .tc main_arg14)) (Y11 m c (Proc.devRef .tc main_arg15)) = _
  rw [v84_at11 m c, arg12_at11 m c, arg13_at11 m c, arg14_at11 m c, arg15_at11 m c]
  try rfl
/-- `main_v87`, written by host stretch 6. -/
theorem v87_val : Y13 m c (Proc.devRef .tc main_v87) = (Cert.Layers.row0 (A4 m c)) := by
  refine (host6_v87 (Y12 m c)).trans ?_
  show Cert.Layers.row0 (Y12 m c (Proc.devRef .tc main_arg4)) = _
  rw [arg4_at12 m c]
  try rfl
/-- `main_v89`, written by host stretch 6. -/
theorem v89_val : Y13 m c (Proc.devRef .tc main_v89) = (Cert.Layers.row1 (A4 m c)) := by
  refine (host6_v89 (Y12 m c)).trans ?_
  show Cert.Layers.row1 (Y12 m c (Proc.devRef .tc main_arg4)) = _
  rw [arg4_at12 m c]
  try rfl
/-- `main_v90`, output window 3 of region 6. -/
theorem v90_val : Y14 m c (Proc.devRef .tc main_v90) = (Cert.Layers.emb0 (A3 m c) (A6 m c) (A7 m c)) := by
  refine (Y14_arr m c 3).trans ((arrAt6_3 (R13v m) c).trans ?_)
  show Cert.Layers.pre (Y13 m c (Proc.devRef .tc main_arg3)) (Y13 m c (Proc.devRef .tc main_arg6)) (Y13 m c (Proc.devRef .tc main_arg7)) = _
  rw [arg3_at13 m c, arg6_at13 m c, arg7_at13 m c]
  try rfl
theorem v90_at14 : Y14 m c (Proc.devRef .tc main_v90) = (Cert.Layers.emb0 (A3 m c) (A6 m c) (A7 m c)) :=
   v90_val m c
theorem v87_at14 : Y14 m c (Proc.devRef .tc main_v87) = (Cert.Layers.row0 (A4 m c)) :=
  (Y14_of_ne m c main_v87 (by decide)).trans <| v87_val m c
theorem v89_at14 : Y14 m c (Proc.devRef .tc main_v89) = (Cert.Layers.row1 (A4 m c)) :=
  (Y14_of_ne m c main_v89 (by decide)).trans <| v89_val m c
/-- `main_v100`, written by host stretch 7. -/
theorem v100_val : Y15 m c (Proc.devRef .tc main_v100) = (Cert.Layers.agg (Cert.Layers.emb0 (A3 m c) (A6 m c) (A7 m c)) (A4 m c)) := by
  refine (host7_v100 (Y14 m c)).trans ?_
  show Cert.Layers.aggOf (Y14 m c (Proc.devRef .tc main_v90)) (Y14 m c (Proc.devRef .tc main_v87)) (Y14 m c (Proc.devRef .tc main_v89)) = _
  rw [Cert.Layers.agg_eq]
  rw [v90_at14 m c, v87_at14 m c, v89_at14 m c]
  try rfl
/-- `main_v102`, written by host stretch 7. -/
theorem v102_val : Y15 m c (Proc.devRef .tc main_v102) = (Cert.Layers.wAt0 (A8 m c)) := by
  refine (host7_v102 (Y14 m c)).trans ?_
  show Cert.Layers.wAt0 (Y14 m c (Proc.devRef .tc main_arg8)) = _
  rw [arg8_at14 m c]
  try rfl
/-- `main_v104`, written by host stretch 7. -/
theorem v104_val : Y15 m c (Proc.devRef .tc main_v104) = (Cert.Layers.bAt0 (A9 m c)) := by
  refine (host7_v104 (Y14 m c)).trans ?_
  show Cert.Layers.bAt0 (Y14 m c (Proc.devRef .tc main_arg9)) = _
  rw [arg9_at14 m c]
  try rfl
/-- `main_v106`, written by host stretch 7. -/
theorem v106_val : Y15 m c (Proc.devRef .tc main_v106) = (Cert.Layers.wAt0 (A10 m c)) := by
  refine (host7_v106 (Y14 m c)).trans ?_
  show Cert.Layers.wAt0 (Y14 m c (Proc.devRef .tc main_arg10)) = _
  rw [arg10_at14 m c]
  try rfl
/-- `main_v108`, written by host stretch 7. -/
theorem v108_val : Y15 m c (Proc.devRef .tc main_v108) = (Cert.Layers.bAt0 (A11 m c)) := by
  refine (host7_v108 (Y14 m c)).trans ?_
  show Cert.Layers.bAt0 (Y14 m c (Proc.devRef .tc main_arg11)) = _
  rw [arg11_at14 m c]
  try rfl
theorem v90_at15 : Y15 m c (Proc.devRef .tc main_v90) = (Cert.Layers.emb0 (A3 m c) (A6 m c) (A7 m c)) :=
  (Y15_keep m c main_v90 (by decide)).trans <| v90_val m c
theorem v100_at15 : Y15 m c (Proc.devRef .tc main_v100) = (Cert.Layers.agg (Cert.Layers.emb0 (A3 m c) (A6 m c) (A7 m c)) (A4 m c)) :=
   v100_val m c
theorem v102_at15 : Y15 m c (Proc.devRef .tc main_v102) = (Cert.Layers.wAt0 (A8 m c)) :=
   v102_val m c
theorem v104_at15 : Y15 m c (Proc.devRef .tc main_v104) = (Cert.Layers.bAt0 (A9 m c)) :=
   v104_val m c
theorem v106_at15 : Y15 m c (Proc.devRef .tc main_v106) = (Cert.Layers.wAt0 (A10 m c)) :=
   v106_val m c
theorem v108_at15 : Y15 m c (Proc.devRef .tc main_v108) = (Cert.Layers.bAt0 (A11 m c)) :=
   v108_val m c
/-- `main_v109`, output window 6 of region 7. -/
theorem v109_val : Y16 m c (Proc.devRef .tc main_v109) = (Cert.Layers.emb1 (A3 m c) (A4 m c) (A6 m c) (A7 m c) (A8 m c) (A9 m c) (A10 m c) (A11 m c)) := by
  refine (Y16_arr m c 6).trans ((arrAt7_6 (R15v m) c).trans ?_)
  show Cert.Layers.ginPlain (Y15 m c (Proc.devRef .tc main_v90)) (Y15 m c (Proc.devRef .tc main_v100)) (Y15 m c (Proc.devRef .tc main_v102)) (Y15 m c (Proc.devRef .tc main_v104)) (Y15 m c (Proc.devRef .tc main_v106)) (Y15 m c (Proc.devRef .tc main_v108)) = _
  rw [v90_at15 m c, v100_at15 m c, v102_at15 m c, v104_at15 m c, v106_at15 m c, v108_at15 m c]
  try rfl
theorem v109_at16 : Y16 m c (Proc.devRef .tc main_v109) = (Cert.Layers.emb1 (A3 m c) (A4 m c) (A6 m c) (A7 m c) (A8 m c) (A9 m c) (A10 m c) (A11 m c)) :=
   v109_val m c
theorem v87_at16 : Y16 m c (Proc.devRef .tc main_v87) = (Cert.Layers.row0 (A4 m c)) :=
  (Y16_of_ne m c main_v87 (by decide)).trans <| (Y15_keep m c main_v87 (by decide)).trans <| (Y14_of_ne m c main_v87 (by decide)).trans <| v87_val m c
theorem v89_at16 : Y16 m c (Proc.devRef .tc main_v89) = (Cert.Layers.row1 (A4 m c)) :=
  (Y16_of_ne m c main_v89 (by decide)).trans <| (Y15_keep m c main_v89 (by decide)).trans <| (Y14_of_ne m c main_v89 (by decide)).trans <| v89_val m c
/-- `main_v119`, written by host stretch 8. -/
theorem v119_val : Y17 m c (Proc.devRef .tc main_v119) = (Cert.Layers.agg (Cert.Layers.emb1 (A3 m c) (A4 m c) (A6 m c) (A7 m c) (A8 m c) (A9 m c) (A10 m c) (A11 m c)) (A4 m c)) := by
  refine (host8_v119 (Y16 m c)).trans ?_
  show Cert.Layers.aggOf (Y16 m c (Proc.devRef .tc main_v109)) (Y16 m c (Proc.devRef .tc main_v87)) (Y16 m c (Proc.devRef .tc main_v89)) = _
  rw [Cert.Layers.agg_eq]
  rw [v109_at16 m c, v87_at16 m c, v89_at16 m c]
  try rfl
/-- `main_v121`, written by host stretch 8. -/
theorem v121_val : Y17 m c (Proc.devRef .tc main_v121) = (Cert.Layers.wAt1 (A8 m c)) := by
  refine (host8_v121 (Y16 m c)).trans ?_
  show Cert.Layers.wAt1 (Y16 m c (Proc.devRef .tc main_arg8)) = _
  rw [arg8_at16 m c]
  try rfl
/-- `main_v123`, written by host stretch 8. -/
theorem v123_val : Y17 m c (Proc.devRef .tc main_v123) = (Cert.Layers.bAt1 (A9 m c)) := by
  refine (host8_v123 (Y16 m c)).trans ?_
  show Cert.Layers.bAt1 (Y16 m c (Proc.devRef .tc main_arg9)) = _
  rw [arg9_at16 m c]
  try rfl
/-- `main_v125`, written by host stretch 8. -/
theorem v125_val : Y17 m c (Proc.devRef .tc main_v125) = (Cert.Layers.wAt1 (A10 m c)) := by
  refine (host8_v125 (Y16 m c)).trans ?_
  show Cert.Layers.wAt1 (Y16 m c (Proc.devRef .tc main_arg10)) = _
  rw [arg10_at16 m c]
  try rfl
/-- `main_v127`, written by host stretch 8. -/
theorem v127_val : Y17 m c (Proc.devRef .tc main_v127) = (Cert.Layers.bAt1 (A11 m c)) := by
  refine (host8_v127 (Y16 m c)).trans ?_
  show Cert.Layers.bAt1 (Y16 m c (Proc.devRef .tc main_arg11)) = _
  rw [arg11_at16 m c]
  try rfl
theorem v109_at17 : Y17 m c (Proc.devRef .tc main_v109) = (Cert.Layers.emb1 (A3 m c) (A4 m c) (A6 m c) (A7 m c) (A8 m c) (A9 m c) (A10 m c) (A11 m c)) :=
  (Y17_keep m c main_v109 (by decide)).trans <| v109_val m c
theorem v119_at17 : Y17 m c (Proc.devRef .tc main_v119) = (Cert.Layers.agg (Cert.Layers.emb1 (A3 m c) (A4 m c) (A6 m c) (A7 m c) (A8 m c) (A9 m c) (A10 m c) (A11 m c)) (A4 m c)) :=
   v119_val m c
theorem v90_at17 : Y17 m c (Proc.devRef .tc main_v90) = (Cert.Layers.emb0 (A3 m c) (A6 m c) (A7 m c)) :=
  (Y17_keep m c main_v90 (by decide)).trans <| (Y16_in m c 0 rfl).trans <| (Y15_keep m c main_v90 (by decide)).trans <| v90_val m c
theorem v121_at17 : Y17 m c (Proc.devRef .tc main_v121) = (Cert.Layers.wAt1 (A8 m c)) :=
   v121_val m c
theorem v123_at17 : Y17 m c (Proc.devRef .tc main_v123) = (Cert.Layers.bAt1 (A9 m c)) :=
   v123_val m c
theorem v125_at17 : Y17 m c (Proc.devRef .tc main_v125) = (Cert.Layers.wAt1 (A10 m c)) :=
   v125_val m c
theorem v127_at17 : Y17 m c (Proc.devRef .tc main_v127) = (Cert.Layers.bAt1 (A11 m c)) :=
   v127_val m c
/-- `main_v128_0`, output window 7 of region 8. -/
theorem v128_0_val : Y18 m c (Proc.devRef .tc main_v128_0) = (Cert.Layers.emb2 (A3 m c) (A4 m c) (A6 m c) (A7 m c) (A8 m c) (A9 m c) (A10 m c) (A11 m c)) := by
  refine (Y18_arr m c 7).trans ((arrAt8_7 (R17v m) c).trans ?_)
  show Cert.Layers.ginResid (Y17 m c (Proc.devRef .tc main_v109)) (Y17 m c (Proc.devRef .tc main_v119)) (Y17 m c (Proc.devRef .tc main_v90)) (Y17 m c (Proc.devRef .tc main_v121)) (Y17 m c (Proc.devRef .tc main_v123)) (Y17 m c (Proc.devRef .tc main_v125)) (Y17 m c (Proc.devRef .tc main_v127)) = _
  rw [v109_at17 m c, v119_at17 m c, v90_at17 m c, v121_at17 m c, v123_at17 m c, v125_at17 m c, v127_at17 m c]
  try rfl
/-- `main_v128_1`, output window 8 of region 8. -/
theorem v128_1_val : Y18 m c (Proc.devRef .tc main_v128_1) = (Cert.Layers.res2 (A3 m c) (A4 m c) (A6 m c) (A7 m c) (A8 m c) (A9 m c) (A10 m c) (A11 m c)) := by
  refine (Y18_arr m c 8).trans ((arrAt8_8 (R17v m) c).trans ?_)
  show Cert.Layers.ginResidPre (Y17 m c (Proc.devRef .tc main_v109)) (Y17 m c (Proc.devRef .tc main_v119)) (Y17 m c (Proc.devRef .tc main_v90)) (Y17 m c (Proc.devRef .tc main_v121)) (Y17 m c (Proc.devRef .tc main_v123)) (Y17 m c (Proc.devRef .tc main_v125)) (Y17 m c (Proc.devRef .tc main_v127)) = _
  rw [v109_at17 m c, v119_at17 m c, v90_at17 m c, v121_at17 m c, v123_at17 m c, v125_at17 m c, v127_at17 m c]
  try rfl
theorem v128_0_at18 : Y18 m c (Proc.devRef .tc main_v128_0) = (Cert.Layers.emb2 (A3 m c) (A4 m c) (A6 m c) (A7 m c) (A8 m c) (A9 m c) (A10 m c) (A11 m c)) :=
   v128_0_val m c
theorem v87_at18 : Y18 m c (Proc.devRef .tc main_v87) = (Cert.Layers.row0 (A4 m c)) :=
  (Y18_of_ne m c main_v87 (by decide)).trans <| (Y17_keep m c main_v87 (by decide)).trans <| (Y16_of_ne m c main_v87 (by decide)).trans <| (Y15_keep m c main_v87 (by decide)).trans <| (Y14_of_ne m c main_v87 (by decide)).trans <| v87_val m c
theorem v89_at18 : Y18 m c (Proc.devRef .tc main_v89) = (Cert.Layers.row1 (A4 m c)) :=
  (Y18_of_ne m c main_v89 (by decide)).trans <| (Y17_keep m c main_v89 (by decide)).trans <| (Y16_of_ne m c main_v89 (by decide)).trans <| (Y15_keep m c main_v89 (by decide)).trans <| (Y14_of_ne m c main_v89 (by decide)).trans <| v89_val m c
/-- `main_v138`, written by host stretch 9. -/
theorem v138_val : Y19 m c (Proc.devRef .tc main_v138) = (Cert.Layers.agg (Cert.Layers.emb2 (A3 m c) (A4 m c) (A6 m c) (A7 m c) (A8 m c) (A9 m c) (A10 m c) (A11 m c)) (A4 m c)) := by
  refine (host9_v138 (Y18 m c)).trans ?_
  show Cert.Layers.aggOf (Y18 m c (Proc.devRef .tc main_v128_0)) (Y18 m c (Proc.devRef .tc main_v87)) (Y18 m c (Proc.devRef .tc main_v89)) = _
  rw [Cert.Layers.agg_eq]
  rw [v128_0_at18 m c, v87_at18 m c, v89_at18 m c]
  try rfl
/-- `main_v140`, written by host stretch 9. -/
theorem v140_val : Y19 m c (Proc.devRef .tc main_v140) = (Cert.Layers.wAt2 (A8 m c)) := by
  refine (host9_v140 (Y18 m c)).trans ?_
  show Cert.Layers.wAt2 (Y18 m c (Proc.devRef .tc main_arg8)) = _
  rw [arg8_at18 m c]
  try rfl
/-- `main_v142`, written by host stretch 9. -/
theorem v142_val : Y19 m c (Proc.devRef .tc main_v142) = (Cert.Layers.bAt2 (A9 m c)) := by
  refine (host9_v142 (Y18 m c)).trans ?_
  show Cert.Layers.bAt2 (Y18 m c (Proc.devRef .tc main_arg9)) = _
  rw [arg9_at18 m c]
  try rfl
/-- `main_v144`, written by host stretch 9. -/
theorem v144_val : Y19 m c (Proc.devRef .tc main_v144) = (Cert.Layers.wAt2 (A10 m c)) := by
  refine (host9_v144 (Y18 m c)).trans ?_
  show Cert.Layers.wAt2 (Y18 m c (Proc.devRef .tc main_arg10)) = _
  rw [arg10_at18 m c]
  try rfl
/-- `main_v146`, written by host stretch 9. -/
theorem v146_val : Y19 m c (Proc.devRef .tc main_v146) = (Cert.Layers.bAt2 (A11 m c)) := by
  refine (host9_v146 (Y18 m c)).trans ?_
  show Cert.Layers.bAt2 (Y18 m c (Proc.devRef .tc main_arg11)) = _
  rw [arg11_at18 m c]
  try rfl
theorem v128_0_at19 : Y19 m c (Proc.devRef .tc main_v128_0) = (Cert.Layers.emb2 (A3 m c) (A4 m c) (A6 m c) (A7 m c) (A8 m c) (A9 m c) (A10 m c) (A11 m c)) :=
  (Y19_keep m c main_v128_0 (by decide)).trans <| v128_0_val m c
theorem v138_at19 : Y19 m c (Proc.devRef .tc main_v138) = (Cert.Layers.agg (Cert.Layers.emb2 (A3 m c) (A4 m c) (A6 m c) (A7 m c) (A8 m c) (A9 m c) (A10 m c) (A11 m c)) (A4 m c)) :=
   v138_val m c
theorem v140_at19 : Y19 m c (Proc.devRef .tc main_v140) = (Cert.Layers.wAt2 (A8 m c)) :=
   v140_val m c
theorem v142_at19 : Y19 m c (Proc.devRef .tc main_v142) = (Cert.Layers.bAt2 (A9 m c)) :=
   v142_val m c
theorem v144_at19 : Y19 m c (Proc.devRef .tc main_v144) = (Cert.Layers.wAt2 (A10 m c)) :=
   v144_val m c
theorem v146_at19 : Y19 m c (Proc.devRef .tc main_v146) = (Cert.Layers.bAt2 (A11 m c)) :=
   v146_val m c
/-- `main_v147`, output window 6 of region 9. -/
theorem v147_val : Y20 m c (Proc.devRef .tc main_v147) = (Cert.Layers.emb3 (A3 m c) (A4 m c) (A6 m c) (A7 m c) (A8 m c) (A9 m c) (A10 m c) (A11 m c)) := by
  refine (Y20_arr m c 6).trans ((arrAt9_6 (R19v m) c).trans ?_)
  show Cert.Layers.ginPlain (Y19 m c (Proc.devRef .tc main_v128_0)) (Y19 m c (Proc.devRef .tc main_v138)) (Y19 m c (Proc.devRef .tc main_v140)) (Y19 m c (Proc.devRef .tc main_v142)) (Y19 m c (Proc.devRef .tc main_v144)) (Y19 m c (Proc.devRef .tc main_v146)) = _
  rw [v128_0_at19 m c, v138_at19 m c, v140_at19 m c, v142_at19 m c, v144_at19 m c, v146_at19 m c]
  try rfl
theorem v147_at20 : Y20 m c (Proc.devRef .tc main_v147) = (Cert.Layers.emb3 (A3 m c) (A4 m c) (A6 m c) (A7 m c) (A8 m c) (A9 m c) (A10 m c) (A11 m c)) :=
   v147_val m c
theorem v87_at20 : Y20 m c (Proc.devRef .tc main_v87) = (Cert.Layers.row0 (A4 m c)) :=
  (Y20_of_ne m c main_v87 (by decide)).trans <| (Y19_keep m c main_v87 (by decide)).trans <| (Y18_of_ne m c main_v87 (by decide)).trans <| (Y17_keep m c main_v87 (by decide)).trans <| (Y16_of_ne m c main_v87 (by decide)).trans <| (Y15_keep m c main_v87 (by decide)).trans <| (Y14_of_ne m c main_v87 (by decide)).trans <| v87_val m c
theorem v89_at20 : Y20 m c (Proc.devRef .tc main_v89) = (Cert.Layers.row1 (A4 m c)) :=
  (Y20_of_ne m c main_v89 (by decide)).trans <| (Y19_keep m c main_v89 (by decide)).trans <| (Y18_of_ne m c main_v89 (by decide)).trans <| (Y17_keep m c main_v89 (by decide)).trans <| (Y16_of_ne m c main_v89 (by decide)).trans <| (Y15_keep m c main_v89 (by decide)).trans <| (Y14_of_ne m c main_v89 (by decide)).trans <| v89_val m c
/-- `main_v157`, written by host stretch 10. -/
theorem v157_val : Y21 m c (Proc.devRef .tc main_v157) = (Cert.Layers.agg (Cert.Layers.emb3 (A3 m c) (A4 m c) (A6 m c) (A7 m c) (A8 m c) (A9 m c) (A10 m c) (A11 m c)) (A4 m c)) := by
  refine (host10_v157 (Y20 m c)).trans ?_
  show Cert.Layers.aggOf (Y20 m c (Proc.devRef .tc main_v147)) (Y20 m c (Proc.devRef .tc main_v87)) (Y20 m c (Proc.devRef .tc main_v89)) = _
  rw [Cert.Layers.agg_eq]
  rw [v147_at20 m c, v87_at20 m c, v89_at20 m c]
  try rfl
/-- `main_v159`, written by host stretch 10. -/
theorem v159_val : Y21 m c (Proc.devRef .tc main_v159) = (Cert.Layers.wAt3 (A8 m c)) := by
  refine (host10_v159 (Y20 m c)).trans ?_
  show Cert.Layers.wAt3 (Y20 m c (Proc.devRef .tc main_arg8)) = _
  rw [arg8_at20 m c]
  try rfl
/-- `main_v161`, written by host stretch 10. -/
theorem v161_val : Y21 m c (Proc.devRef .tc main_v161) = (Cert.Layers.bAt3 (A9 m c)) := by
  refine (host10_v161 (Y20 m c)).trans ?_
  show Cert.Layers.bAt3 (Y20 m c (Proc.devRef .tc main_arg9)) = _
  rw [arg9_at20 m c]
  try rfl
/-- `main_v163`, written by host stretch 10. -/
theorem v163_val : Y21 m c (Proc.devRef .tc main_v163) = (Cert.Layers.wAt3 (A10 m c)) := by
  refine (host10_v163 (Y20 m c)).trans ?_
  show Cert.Layers.wAt3 (Y20 m c (Proc.devRef .tc main_arg10)) = _
  rw [arg10_at20 m c]
  try rfl
/-- `main_v165`, written by host stretch 10. -/
theorem v165_val : Y21 m c (Proc.devRef .tc main_v165) = (Cert.Layers.bAt3 (A11 m c)) := by
  refine (host10_v165 (Y20 m c)).trans ?_
  show Cert.Layers.bAt3 (Y20 m c (Proc.devRef .tc main_arg11)) = _
  rw [arg11_at20 m c]
  try rfl
theorem v147_at21 : Y21 m c (Proc.devRef .tc main_v147) = (Cert.Layers.emb3 (A3 m c) (A4 m c) (A6 m c) (A7 m c) (A8 m c) (A9 m c) (A10 m c) (A11 m c)) :=
  (Y21_keep m c main_v147 (by decide)).trans <| v147_val m c
theorem v157_at21 : Y21 m c (Proc.devRef .tc main_v157) = (Cert.Layers.agg (Cert.Layers.emb3 (A3 m c) (A4 m c) (A6 m c) (A7 m c) (A8 m c) (A9 m c) (A10 m c) (A11 m c)) (A4 m c)) :=
   v157_val m c
theorem v128_1_at21 : Y21 m c (Proc.devRef .tc main_v128_1) = (Cert.Layers.res2 (A3 m c) (A4 m c) (A6 m c) (A7 m c) (A8 m c) (A9 m c) (A10 m c) (A11 m c)) :=
  (Y21_keep m c main_v128_1 (by decide)).trans <| (Y20_of_ne m c main_v128_1 (by decide)).trans <| (Y19_keep m c main_v128_1 (by decide)).trans <| v128_1_val m c
theorem v159_at21 : Y21 m c (Proc.devRef .tc main_v159) = (Cert.Layers.wAt3 (A8 m c)) :=
   v159_val m c
theorem v161_at21 : Y21 m c (Proc.devRef .tc main_v161) = (Cert.Layers.bAt3 (A9 m c)) :=
   v161_val m c
theorem v163_at21 : Y21 m c (Proc.devRef .tc main_v163) = (Cert.Layers.wAt3 (A10 m c)) :=
   v163_val m c
theorem v165_at21 : Y21 m c (Proc.devRef .tc main_v165) = (Cert.Layers.bAt3 (A11 m c)) :=
   v165_val m c
/-- `main_v166_0`, output window 7 of region 10. -/
theorem v166_0_val : Y22 m c (Proc.devRef .tc main_v166_0) = (Cert.Layers.emb4 (A3 m c) (A4 m c) (A6 m c) (A7 m c) (A8 m c) (A9 m c) (A10 m c) (A11 m c)) := by
  refine (Y22_arr m c 7).trans ((arrAt10_7 (R21v m) c).trans ?_)
  show Cert.Layers.ginResid (Y21 m c (Proc.devRef .tc main_v147)) (Y21 m c (Proc.devRef .tc main_v157)) (Y21 m c (Proc.devRef .tc main_v128_1)) (Y21 m c (Proc.devRef .tc main_v159)) (Y21 m c (Proc.devRef .tc main_v161)) (Y21 m c (Proc.devRef .tc main_v163)) (Y21 m c (Proc.devRef .tc main_v165)) = _
  rw [v147_at21 m c, v157_at21 m c, v128_1_at21 m c, v159_at21 m c, v161_at21 m c, v163_at21 m c, v165_at21 m c]
  try rfl
/-- `main_v166_1`, output window 8 of region 10. -/
theorem v166_1_val : Y22 m c (Proc.devRef .tc main_v166_1) = (Cert.Layers.res4 (A3 m c) (A4 m c) (A6 m c) (A7 m c) (A8 m c) (A9 m c) (A10 m c) (A11 m c)) := by
  refine (Y22_arr m c 8).trans ((arrAt10_8 (R21v m) c).trans ?_)
  show Cert.Layers.ginResidPre (Y21 m c (Proc.devRef .tc main_v147)) (Y21 m c (Proc.devRef .tc main_v157)) (Y21 m c (Proc.devRef .tc main_v128_1)) (Y21 m c (Proc.devRef .tc main_v159)) (Y21 m c (Proc.devRef .tc main_v161)) (Y21 m c (Proc.devRef .tc main_v163)) (Y21 m c (Proc.devRef .tc main_v165)) = _
  rw [v147_at21 m c, v157_at21 m c, v128_1_at21 m c, v159_at21 m c, v161_at21 m c, v163_at21 m c, v165_at21 m c]
  try rfl
theorem v90_at22 : Y22 m c (Proc.devRef .tc main_v90) = (Cert.Layers.emb0 (A3 m c) (A6 m c) (A7 m c)) :=
  (Y22_of_ne m c main_v90 (by decide)).trans <| (Y21_keep m c main_v90 (by decide)).trans <| (Y20_of_ne m c main_v90 (by decide)).trans <| (Y19_keep m c main_v90 (by decide)).trans <| (Y18_in m c 2 rfl).trans <| (Y17_keep m c main_v90 (by decide)).trans <| (Y16_in m c 0 rfl).trans <| (Y15_keep m c main_v90 (by decide)).trans <| v90_val m c
theorem v109_at22 : Y22 m c (Proc.devRef .tc main_v109) = (Cert.Layers.emb1 (A3 m c) (A4 m c) (A6 m c) (A7 m c) (A8 m c) (A9 m c) (A10 m c) (A11 m c)) :=
  (Y22_of_ne m c main_v109 (by decide)).trans <| (Y21_keep m c main_v109 (by decide)).trans <| (Y20_of_ne m c main_v109 (by decide)).trans <| (Y19_keep m c main_v109 (by decide)).trans <| (Y18_in m c 0 rfl).trans <| (Y17_keep m c main_v109 (by decide)).trans <| v109_val m c
theorem v128_0_at22 : Y22 m c (Proc.devRef .tc main_v128_0) = (Cert.Layers.emb2 (A3 m c) (A4 m c) (A6 m c) (A7 m c) (A8 m c) (A9 m c) (A10 m c) (A11 m c)) :=
  (Y22_of_ne m c main_v128_0 (by decide)).trans <| (Y21_keep m c main_v128_0 (by decide)).trans <| (Y20_in m c 0 rfl).trans <| (Y19_keep m c main_v128_0 (by decide)).trans <| v128_0_val m c
theorem v147_at22 : Y22 m c (Proc.devRef .tc main_v147) = (Cert.Layers.emb3 (A3 m c) (A4 m c) (A6 m c) (A7 m c) (A8 m c) (A9 m c) (A10 m c) (A11 m c)) :=
  (Y22_in m c 0 rfl).trans <| (Y21_keep m c main_v147 (by decide)).trans <| v147_val m c
theorem v166_0_at22 : Y22 m c (Proc.devRef .tc main_v166_0) = (Cert.Layers.emb4 (A3 m c) (A4 m c) (A6 m c) (A7 m c) (A8 m c) (A9 m c) (A10 m c) (A11 m c)) :=
   v166_0_val m c
/-- `main_v170`, written by host stretch 11. -/
theorem v170_val : Y23 m c (Proc.devRef .tc main_v170) = (Cert.Layers.pool (Cert.Layers.cat5 (Cert.Layers.emb0 (A3 m c) (A6 m c) (A7 m c)) (Cert.Layers.emb1 (A3 m c) (A4 m c) (A6 m c) (A7 m c) (A8 m c) (A9 m c) (A10 m c) (A11 m c)) (Cert.Layers.emb2 (A3 m c) (A4 m c) (A6 m c) (A7 m c) (A8 m c) (A9 m c) (A10 m c) (A11 m c)) (Cert.Layers.emb3 (A3 m c) (A4 m c) (A6 m c) (A7 m c) (A8 m c) (A9 m c) (A10 m c) (A11 m c)) (Cert.Layers.emb4 (A3 m c) (A4 m c) (A6 m c) (A7 m c) (A8 m c) (A9 m c) (A10 m c) (A11 m c))) (A5 m c)) := by
  refine (host11_v170 (Y22 m c)).trans ?_
  show Cert.Layers.pool (Cert.Layers.cat5 (Y22 m c (Proc.devRef .tc main_v90)) (Y22 m c (Proc.devRef .tc main_v109)) (Y22 m c (Proc.devRef .tc main_v128_0)) (Y22 m c (Proc.devRef .tc main_v147)) (Y22 m c (Proc.devRef .tc main_v166_0))) (Y22 m c (Proc.devRef .tc main_arg5)) = _
  rw [v90_at22 m c, v109_at22 m c, v128_0_at22 m c, v147_at22 m c, v166_0_at22 m c, arg5_at22 m c]
  try rfl
theorem v170_at23 : Y23 m c (Proc.devRef .tc main_v170) = (Cert.Layers.pool (Cert.Layers.cat5 (Cert.Layers.emb0 (A3 m c) (A6 m c) (A7 m c)) (Cert.Layers.emb1 (A3 m c) (A4 m c) (A6 m c) (A7 m c) (A8 m c) (A9 m c) (A10 m c) (A11 m c)) (Cert.Layers.emb2 (A3 m c) (A4 m c) (A6 m c) (A7 m c) (A8 m c) (A9 m c) (A10 m c) (A11 m c)) (Cert.Layers.emb3 (A3 m c) (A4 m c) (A6 m c) (A7 m c) (A8 m c) (A9 m c) (A10 m c) (A11 m c)) (Cert.Layers.emb4 (A3 m c) (A4 m c) (A6 m c) (A7 m c) (A8 m c) (A9 m c) (A10 m c) (A11 m c))) (A5 m c)) :=
   v170_val m c
/-- `main_v171`, output window 5 of region 11. -/
theorem v171_val : Y24 m c (Proc.devRef .tc main_v171) = (Cert.Layers.embed (A3 m c) (A4 m c) (A5 m c) (A6 m c) (A7 m c) (A8 m c) (A9 m c) (A10 m c) (A11 m c) (A12 m c) (A13 m c) (A14 m c) (A15 m c)) := by
  refine (Y24_arr m c 5).trans ((arrAt11_5 (R23v m) c).trans ?_)
  show Cert.Layers.post (Y23 m c (Proc.devRef .tc main_v170)) (Y23 m c (Proc.devRef .tc main_arg12)) (Y23 m c (Proc.devRef .tc main_arg13)) (Y23 m c (Proc.devRef .tc main_arg14)) (Y23 m c (Proc.devRef .tc main_arg15)) = _
  rw [v170_at23 m c, arg12_at23 m c, arg13_at23 m c, arg14_at23 m c, arg15_at23 m c]
  try rfl
theorem v85_at24 : Y24 m c (Proc.devRef .tc main_v85) = (Cert.Layers.embed (A0 m c) (A1 m c) (A2 m c) (A6 m c) (A7 m c) (A8 m c) (A9 m c) (A10 m c) (A11 m c) (A12 m c) (A13 m c) (A14 m c) (A15 m c)) :=
  (Y24_of_ne m c main_v85 (by decide)).trans <| (Y23_keep m c main_v85 (by decide)).trans <| (Y22_of_ne m c main_v85 (by decide)).trans <| (Y21_keep m c main_v85 (by decide)).trans <| (Y20_of_ne m c main_v85 (by decide)).trans <| (Y19_keep m c main_v85 (by decide)).trans <| (Y18_of_ne m c main_v85 (by decide)).trans <| (Y17_keep m c main_v85 (by decide)).trans <| (Y16_of_ne m c main_v85 (by decide)).trans <| (Y15_keep m c main_v85 (by decide)).trans <| (Y14_of_ne m c main_v85 (by decide)).trans <| (Y13_keep m c main_v85 (by decide)).trans <| v85_val m c
theorem v171_at24 : Y24 m c (Proc.devRef .tc main_v171) = (Cert.Layers.embed (A3 m c) (A4 m c) (A5 m c) (A6 m c) (A7 m c) (A8 m c) (A9 m c) (A10 m c) (A11 m c) (A12 m c) (A13 m c) (A14 m c) (A15 m c)) :=
   v171_val m c
/-- `main_v172`, output window 2 of region 12. -/
theorem v172_val : Y25 m c (Proc.devRef .tc main_v172) = (Cert.Layers.result (A0 m c) (A1 m c) (A2 m c) (A3 m c) (A4 m c) (A5 m c) (A6 m c) (A7 m c) (A8 m c) (A9 m c) (A10 m c) (A11 m c) (A12 m c) (A13 m c) (A14 m c) (A15 m c)) := by
  refine (Y25_arr m c 2).trans ((arrAt12_2 (R24v m) c).trans ?_)
  show Cert.Layers.asymm (Y24 m c (Proc.devRef .tc main_v85)) (Y24 m c (Proc.devRef .tc main_v171)) = _
  rw [v85_at24 m c, v171_at24 m c]
  try rfl

end Cert.KernelIdeal.HandChain

end
-- ==== Proof.LibLineRead.lean ====
import Idealize.ShloMosaic.Lib.StableHlo.Run

/-! # Reading a long straight line of host operations one operation at a time

A host program is a line of operations, each writing its own result buffer; the contents the line leaves are the fold
`StableHlo.after ops V` of the operations over the launch contents `V`.  Evaluating that fold at the last buffer
substitutes every operand into every use, and a value used several times (an activation read by three projections and
a residual sum) is copied at each use: the term grows exponentially with the program's depth.

The facts below read the fold ONE operation at a time instead.  When every operation writes exactly its own buffer of a
list `ws` (position by position) and no buffer is written twice, the line's final value at the buffer of operation `k`
is that operation's function applied to the line's FINAL values of its operands — an operand being either an argument
(written by nobody) or the result of an earlier operation (written by nobody later).  So every intermediate value can
be named once (`val y = after ops V y`) and each operation becomes one small equation between names.  Nothing here
depends on what the operations compute.

How to use it on a literal line `ops` with its literal list `ws` of written references (both `abbrev`s):
`WritesAt ops ws` is the chain `.cons (unary_writes ..) <| .cons (reshape_writes ..) <| … <| .nil`, one library lemma
per operation by its shape; then, for the operation at position `k`,
`unary_final hw V k hk (x := …) (y := …) f ⟨by decide, rfl⟩ ⟨by decide, rfl⟩ rfl (by decide) (by decide)` with the
references and the function `f` copied from the line (they cannot be inferred backwards through `rfl`), `hk` from
`ops.length = n := rfl`. -/

namespace Cert.LineRead

open Idealize.ShloMosaic Idealize.ShloMosaic.StableHlo

variable {τ : Topo} {sig : RefSig} {Val : EltTy → Type}

/-- Two lines run one after the other: the second folds over what the first leaves. -/
theorem after_append (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- A buffer that no operation from position `k` on writes holds what the first `k` operations leave. -/
theorem after_eq_take (ops : List (HloOp τ sig Val)) (V : Valuation τ sig Val) (k : Nat) (b : DevRef τ sig)
    (h : ∀ op ∈ ops.drop k, b ∉ op.writes) : after ops V b = after (ops.take k) V b := by
  conv_lhs => rw [← List.take_append_drop k ops, after_append]
  exact after_of_forall_not_mem _ _ h

/-- The buffer of operation `k`, written by nobody later, holds that operation's result over what the first `k`
    operations leave. -/
theorem after_eq_result (ops : List (HloOp τ sig Val)) (V : Valuation τ sig Val) (k : Nat) (hk : k < ops.length)
    (b : DevRef τ sig) (h : ∀ op ∈ ops.drop (k + 1), b ∉ op.writes) :
    after ops V b = (ops[k]).result (after (ops.take k) V) b := by
  rw [after_eq_take ops V (k + 1) b h, List.take_succ_eq_append_getElem hk, after_append]
  rfl

/-! ## Which operation writes which buffer -/

/-- Position by position, each operation writes exactly the buffer of the reference listed for it. -/
abbrev WritesAt (ops : List (HloOp τ sig Val)) (ws : List (Ref sig .tc)) : Prop :=
  List.Forall₂ (fun op w => op.writes = {Proc.devRef (τ := τ) .tc w}) ops ws

/-- A reference outside the list is written by no operation. -/
theorem not_written {ops : List (HloOp τ sig Val)} {ws : List (Ref sig .tc)} (hw : WritesAt ops ws)
    (r : Ref sig .tc) (hr : r ∉ ws) : ∀ op ∈ ops, Proc.devRef (τ := τ) .tc r ∉ op.writes := by
  induction hw with
  | nil => intro op h; cases h
  | @cons op w ops' ws' hab _ ih =>
    intro o ho hmem
    rcases List.mem_cons.mp ho with rfl | h'
    · rw [hab, Finset.mem_singleton] at hmem
      exact hr (by rw [Proc.devRef_injective _ hmem]; exact List.mem_cons_self)
    · exact ih (fun h => hr (List.mem_cons_of_mem _ h)) o h' hmem

/-- The same from a position on: a reference outside `ws.drop k` is written by no operation from position `k` on. -/
theorem not_written_from {ops : List (HloOp τ sig Val)} {ws : List (Ref sig .tc)} (hw : WritesAt ops ws) (k : Nat)
    (r : Ref sig .tc) (hr : r ∉ ws.drop k) : ∀ op ∈ ops.drop k, Proc.devRef (τ := τ) .tc r ∉ op.writes :=
  not_written (List.forall₂_drop k hw) r hr

/-- An argument (a reference no operation writes) ends as launched. -/
theorem after_arg {ops : List (HloOp τ sig Val)} {ws : List (Ref sig .tc)} (hw : WritesAt ops ws)
    (V : Valuation τ sig Val) (r : Ref sig .tc) (hr : r ∉ ws) :
    after ops V (Proc.devRef .tc r) = V (Proc.devRef .tc r) :=
  after_of_forall_not_mem ops V (not_written hw r hr)

/-- An operand of operation `k` that nothing from position `k` on writes: the first `k` operations leave it at the
    line's final value. -/
theorem take_eq_final {ops : List (HloOp τ sig Val)} {ws : List (Ref sig .tc)} (hw : WritesAt ops ws)
    (V : Valuation τ sig Val) (k : Nat) (x : Ref sig .tc) (hx : x ∉ ws.drop k) :
    after (ops.take k) V (Proc.devRef .tc x) = after ops V (Proc.devRef .tc x) :=
  (after_eq_take ops V k _ (not_written_from hw k x hx)).symm

/-! ## One operation, read over the line's final values

`hop` names the operation at position `k` (by `rfl` on a literal list); `hy`: its result is written by nobody later;
`hx`, `ha`, …: its operands are written by nobody from position `k` on (each by `decide` on the literal list `ws`). -/

section Builders

variable {ops : List (HloOp τ sig Val)} {ws : List (Ref sig .tc)} (hw : WritesAt ops ws) (V : Valuation τ sig Val)
  (k : Nat) (hk : k < ops.length)

include hw

theorem nullary_final {y : Ref sig .tc} (v : y.ty.Contents Val) (hy')
    (hop : ops[k] = nullary (τ := τ) y v hy') (hy : y ∉ ws.drop (k + 1)) :
    after ops V (Proc.devRef .tc y) = v := by
  rw [after_eq_result ops V k hk _ (not_written_from hw (k + 1) y hy), hop, nullary_result]

theorem unary_final {x y : Ref sig .tc} (f : x.ty.Contents Val → y.ty.Contents Val) (hx' hy')
    (hop : ops[k] = unary (τ := τ) x y f hx' hy') (hy : y ∉ ws.drop (k + 1)) (hx : x ∉ ws.drop k) :
    after ops V (Proc.devRef .tc y) = f (after ops V (Proc.devRef .tc x)) := by
  rw [after_eq_result ops V k hk _ (not_written_from hw (k + 1) y hy), hop, unary_result,
    take_eq_final hw V k x hx]

theorem binary_final {a b y : Ref sig .tc} (f : a.ty.Contents Val → b.ty.Contents Val → y.ty.Contents Val) (ha' hb' hy')
    (hop : ops[k] = binary (τ := τ) a b y f ha' hb' hy') (hy : y ∉ ws.drop (k + 1))
    (ha : a ∉ ws.drop k) (hb : b ∉ ws.drop k) :
    after ops V (Proc.devRef .tc y) = f (after ops V (Proc.devRef .tc a)) (after ops V (Proc.devRef .tc b)) := by
  rw [after_eq_result ops V k hk _ (not_written_from hw (k + 1) y hy), hop, binary_result,
    take_eq_final hw V k a ha, take_eq_final hw V k b hb]

theorem ternary_final {c a b y : Ref sig .tc}
    (f : c.ty.Contents Val → a.ty.Contents Val → b.ty.Contents Val → y.ty.Contents Val) (hc' ha' hb' hy')
    (hop : ops[k] = ternary (τ := τ) c a b y f hc' ha' hb' hy') (hy : y ∉ ws.drop (k + 1))
    (hc : c ∉ ws.drop k) (ha : a ∉ ws.drop k) (hb : b ∉ ws.drop k) :
    after ops V (Proc.devRef .tc y)
      = f (after ops V (Proc.devRef .tc c)) (after ops V (Proc.devRef .tc a)) (after ops V (Proc.devRef .tc b)) := by
  rw [after_eq_result ops V k hk _ (not_written_from hw (k + 1) y hy), hop, ternary_result,
    take_eq_final hw V k c hc, take_eq_final hw V k a ha, take_eq_final hw V k b hb]

theorem reshape_final {x y : Ref sig .tc} (he : x.ty.elt = y.ty.elt) (hn : x.ty.shape.ShapeCasts y.ty.shape) (hx' hy')
    (hop : ops[k] = reshape (τ := τ) (Val := Val) x y he hn hx' hy') (hy : y ∉ ws.drop (k + 1)) (hx : x ∉ ws.drop k) :
    after ops V (Proc.devRef .tc y) = fun i => he ▸ shapeCast y.ty.shape (after ops V (Proc.devRef .tc x)) hn i := by
  rw [after_eq_result ops V k hk _ (not_written_from hw (k + 1) y hy), hop, reshape_result,
    take_eq_final hw V k x hx]

end Builders

end Cert.LineRead
-- ==== Proof.RefLine.lean ====
import proofs.«106875_j87694642250037_1_alg».proof.Proof.RefOps
import proofs.«106875_j87694642250037_1_alg».proof.Proof.LibLineRead
import Idealize.ShloMosaic.PureOps.Ideal

/-!
# The reference's line of operations: which buffer each writes

The reference's entry function is a line of host operations, each writing its own result buffer and no
buffer written twice. Listed here, position by position, are the references written; with that, the line's
final contents at an argument are the launch contents, and at an operation's result buffer they are the
operation's function of the final contents of its operands (the lemmas of the line-reading library).
-/

noncomputable section

namespace Cert.RefLine

open Cert.ReferenceIdeal Cert.ReferenceIdeal.Gen Cert.RefOps Cert.LineRead Idealize.ShloMosaic Idealize.ShloMosaic.TcCoe Idealize.SL.Sem Idealize.ShloMosaic.StableHlo

/-- An operation with a family of operands, read over the line's final values. -/
theorem nary_final {ops : List (HloOp τ sig (Elt Ideal))} {ws : List (Ref sig .tc)} (hw : WritesAt ops ws)
    (V : Valuation τ sig (Elt Ideal)) (k : Nat) (hk : k < ops.length) {n : Nat} {xs : Fin n → Ref sig .tc} {y : Ref sig .tc}
    (f : ((j : Fin n) → (xs j).ty.Contents (Elt Ideal)) → y.ty.Contents (Elt Ideal)) (hxs' hy')
    (hop : ops[k] = nary (τ := τ) xs y f hxs' hy') (hy : y ∉ ws.drop (k + 1)) (hx : ∀ j, xs j ∉ ws.drop k) :
    after ops V (Proc.devRef .tc y) = f (fun j => after ops V (Proc.devRef .tc (xs j))) := by
  rw [after_eq_result ops V k hk _ (not_written_from hw (k + 1) y hy), hop, nary_result]
  congr 1; funext j; exact take_eq_final hw V k (xs j) (hx j)

/-- Two lines one after the other write, position by position, the two lists of references one after the other. -/
theorem writesAt_append {l₁ l₂ : List (HloOp τ sig (Elt Ideal))} {ws₁ ws₂ : List (Ref sig .tc)}
    (h₁ : WritesAt l₁ ws₁) (h₂ : WritesAt l₂ ws₂) : WritesAt (l₁ ++ l₂) (ws₁ ++ ws₂) := by
  induction h₁ with
  | nil => exact h₂
  | cons hab _ ih => exact .cons hab ih

/-- The references written by window 0's operations, in order. -/
abbrev wsP0 : List (Ref sig .tc) := [main_v0, main_v1, main_v2, main_v3, main_v4, main_v5, main_v6, main_v7, main_c, main_v8, main_v9, main_c_0, main_v10, main_v11, main_v12, main_v13, main_v14, main_cst, main_v15, main_v16, main_v17, main_v18, main_v19, main_v20, main_v21, main_v22, main_v23, main_v24, main_v25, main_v26, main_call0_cst, main_call0_v0, main_v27, main_v28, main_v29, main_v30, main_v31, main_v32, main_v33, main_v34, main_v35, main_call1_cst, main_call1_v0, main_v36, main_c_1, main_v37, main_v38, main_c_2, main_v39, main_v40, main_v41, main_v42, main_v43, main_cst_3, main_v44, main_v45, main_v46, main_v47, main_v48, main_v49, main_v50, main_v51, main_v52, main_v53]
set_option maxRecDepth 8192 in
theorem hwP0 : WritesAt (opsP0 (F := Ideal)) wsP0 :=
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .nil

/-- The references written by window 1's operations, in order. -/
abbrev wsP1 : List (Ref sig .tc) := [main_v54, main_v55, main_call2_cst, main_call2_v0, main_v56, main_v57, main_v58, main_v59, main_v60, main_v61, main_v62, main_v63, main_v64, main_v65, main_call3_cst, main_call3_v0, main_v66, main_c_4, main_v67, main_v68, main_c_5, main_v69, main_v70, main_v71, main_v72, main_v73, main_cst_6, main_v74, main_v75, main_v76, main_v77, main_v78, main_v79, main_v80, main_v81, main_v82, main_v83, main_v84, main_v85, main_call4_cst, main_call4_v0, main_v86, main_v87, main_v88, main_v89, main_v90, main_v91, main_v92, main_v93, main_v94, main_call5_cst, main_call5_v0, main_v95, main_c_7, main_v96, main_v97, main_c_8, main_v98, main_v99, main_v100, main_v101, main_v102, main_cst_9, main_v103, main_v104, main_v105, main_v106, main_v107]
set_option maxRecDepth 8192 in
theorem hwP1 : WritesAt (opsP1 (F := Ideal)) wsP1 :=
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .nil

/-- The references written by window 2's operations, in order. -/
abbrev wsP2 : List (Ref sig .tc) := [main_v108, main_v109, main_v110, main_v111, main_v112, main_v113, main_v114, main_call6_cst, main_call6_v0, main_v115, main_v116, main_v117, main_v118, main_v119, main_v120, main_v121, main_v122, main_v123, main_v124, main_call7_cst, main_call7_v0, main_v125, main_v126, main_cst_10, main_v127, main_v128, main_v129, main_v130, main_v131, main_v132, main_v133, main_call8_cst, main_call8_v0, main_v134, main_v135, main_v136, main_v137, main_v138, main_v139, main_v140, main_v141, main_v142, main_v143, main_v144, main_v145, main_v146, main_c_11, main_v147, main_v148, main_c_12, main_v149, main_v150, main_v151, main_v152, main_v153, main_cst_13, main_v154, main_v155, main_v156, main_v157, main_v158, main_v159, main_v160, main_v161, main_v162, main_v163]
set_option maxRecDepth 8192 in
theorem hwP2 : WritesAt (opsP2 (F := Ideal)) wsP2 :=
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .nil

/-- The references written by window 3's operations, in order. -/
abbrev wsP3 : List (Ref sig .tc) := [main_v164, main_v165, main_call9_cst, main_call9_v0, main_v166, main_v167, main_v168, main_v169, main_v170, main_v171, main_v172, main_v173, main_v174, main_call10_cst, main_call10_v0, main_v175, main_c_14, main_v176, main_v177, main_c_15, main_v178, main_v179, main_v180, main_v181, main_v182, main_cst_16, main_v183, main_v184, main_v185, main_v186, main_v187, main_v188, main_v189, main_v190, main_v191, main_v192, main_v193, main_v194, main_call11_cst, main_call11_v0, main_v195, main_v196, main_v197, main_v198, main_v199, main_v200, main_v201, main_v202, main_v203, main_v204, main_call12_cst, main_call12_v0, main_v205, main_c_17, main_v206, main_v207, main_c_18, main_v208, main_v209, main_v210, main_v211, main_v212, main_cst_19, main_v213, main_v214, main_v215, main_v216, main_v217]
set_option maxRecDepth 8192 in
theorem hwP3 : WritesAt (opsP3 (F := Ideal)) wsP3 :=
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .nil

/-- The references written by window 4's operations, in order. -/
abbrev wsP4 : List (Ref sig .tc) := [main_v218, main_v219, main_v220, main_v221, main_v222, main_v223, main_v224, main_call13_cst, main_call13_v0, main_v225, main_v226, main_v227, main_v228, main_v229, main_v230, main_v231, main_v232, main_v233, main_call14_cst, main_call14_v0, main_v234, main_c_20, main_v235, main_v236, main_c_21, main_v237, main_v238, main_v239, main_v240, main_v241, main_cst_22, main_v242, main_v243, main_v244, main_v245, main_v246, main_v247, main_v248, main_v249, main_v250, main_v251, main_v252, main_v253, main_call15_cst, main_call15_v0, main_v254, main_v255, main_v256, main_v257, main_v258, main_v259, main_v260, main_v261, main_v262, main_v263, main_call16_cst, main_call16_v0, main_v264, main_v265, main_cst_23, main_v266, main_v267, main_v268, main_v269, main_v270, main_v271, main_v272, main_call17_cst, main_call17_v0, main_v273]
set_option maxRecDepth 8192 in
theorem hwP4 : WritesAt (opsP4 (F := Ideal)) wsP4 :=
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .nil

/-- The references written by window 5's operations, in order. -/
abbrev wsP5 : List (Ref sig .tc) := [main_v274, main_v275, main_v276, main_v277, main_v278, main_v279, main_v280, main_v281, main_v282, main_call18_cst, main_call18_v0, main_v283, main_v284, main_cst_24, main_v285, main_cst_25, main_v286, main_v287, main_cst_26, main_v288, main_v289, main_v290, main_call19_cst, main_call19_v0, main_v291, main_v292, main_cst_27, main_v293, main_cst_28, main_v294, main_v295, main_cst_29, main_v296, main_v297, main_v298, main_v299, main_call20_cst, main_call20_v0, main_v300, main_v301, main_cst_30, main_v302, main_cst_31, main_v303, main_v304, main_cst_32, main_v305, main_v306, main_v307, main_call21_cst, main_call21_v0, main_v308, main_v309, main_cst_33, main_v310, main_cst_34, main_v311, main_v312, main_cst_35, main_v313, main_v314, main_v315, main_v316]
set_option maxRecDepth 8192 in
theorem hwP5 : WritesAt (opsP5 (F := Ideal)) wsP5 :=
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .nil

/-- The references written by the line's operations, in order. -/
abbrev ws : List (Ref sig .tc) := wsP0 ++ (wsP1 ++ (wsP2 ++ (wsP3 ++ (wsP4 ++ wsP5))))

/-- The line at the ideal instance (a definition, not an abbreviation: equations about its final contents are
    then stated about one constant). -/
def line : List (HloOp τ sig (Elt Ideal)) := ops (F := Ideal)

theorem hw : WritesAt line ws :=
  writesAt_append hwP0 (writesAt_append hwP1 (writesAt_append hwP2 (writesAt_append hwP3 (writesAt_append hwP4 hwP5))))

theorem len : line.length = 399 := rfl
theorem lt_len {k : Nat} (h : k < 399) : k < line.length := len ▸ h

theorem arg_0 (V : Valuation τ sig (Elt Ideal)) : after line V (Proc.devRef .tc main_arg0) = V (Proc.devRef .tc main_arg0) :=
  after_arg hw V main_arg0 (by decide +kernel)
theorem arg_1 (V : Valuation τ sig (Elt Ideal)) : after line V (Proc.devRef .tc main_arg1) = V (Proc.devRef .tc main_arg1) :=
  after_arg hw V main_arg1 (by decide +kernel)
theorem arg_2 (V : Valuation τ sig (Elt Ideal)) : after line V (Proc.devRef .tc main_arg2) = V (Proc.devRef .tc main_arg2) :=
  after_arg hw V main_arg2 (by decide +kernel)
theorem arg_3 (V : Valuation τ sig (Elt Ideal)) : after line V (Proc.devRef .tc main_arg3) = V (Proc.devRef .tc main_arg3) :=
  after_arg hw V main_arg3 (by decide +kernel)
theorem arg_4 (V : Valuation τ sig (Elt Ideal)) : after line V (Proc.devRef .tc main_arg4) = V (Proc.devRef .tc main_arg4) :=
  after_arg hw V main_arg4 (by decide +kernel)
theorem arg_5 (V : Valuation τ sig (Elt Ideal)) : after line V (Proc.devRef .tc main_arg5) = V (Proc.devRef .tc main_arg5) :=
  after_arg hw V main_arg5 (by decide +kernel)
theorem arg_6 (V : Valuation τ sig (Elt Ideal)) : after line V (Proc.devRef .tc main_arg6) = V (Proc.devRef .tc main_arg6) :=
  after_arg hw V main_arg6 (by decide +kernel)
theorem arg_7 (V : Valuation τ sig (Elt Ideal)) : after line V (Proc.devRef .tc main_arg7) = V (Proc.devRef .tc main_arg7) :=
  after_arg hw V main_arg7 (by decide +kernel)
theorem arg_8 (V : Valuation τ sig (Elt Ideal)) : after line V (Proc.devRef .tc main_arg8) = V (Proc.devRef .tc main_arg8) :=
  after_arg hw V main_arg8 (by decide +kernel)
theorem arg_9 (V : Valuation τ sig (Elt Ideal)) : after line V (Proc.devRef .tc main_arg9) = V (Proc.devRef .tc main_arg9) :=
  after_arg hw V main_arg9 (by decide +kernel)
theorem arg_10 (V : Valuation τ sig (Elt Ideal)) : after line V (Proc.devRef .tc main_arg10) = V (Proc.devRef .tc main_arg10) :=
  after_arg hw V main_arg10 (by decide +kernel)
theorem arg_11 (V : Valuation τ sig (Elt Ideal)) : after line V (Proc.devRef .tc main_arg11) = V (Proc.devRef .tc main_arg11) :=
  after_arg hw V main_arg11 (by decide +kernel)
theorem arg_12 (V : Valuation τ sig (Elt Ideal)) : after line V (Proc.devRef .tc main_arg12) = V (Proc.devRef .tc main_arg12) :=
  after_arg hw V main_arg12 (by decide +kernel)
theorem arg_13 (V : Valuation τ sig (Elt Ideal)) : after line V (Proc.devRef .tc main_arg13) = V (Proc.devRef .tc main_arg13) :=
  after_arg hw V main_arg13 (by decide +kernel)
theorem arg_14 (V : Valuation τ sig (Elt Ideal)) : after line V (Proc.devRef .tc main_arg14) = V (Proc.devRef .tc main_arg14) :=
  after_arg hw V main_arg14 (by decide +kernel)
theorem arg_15 (V : Valuation τ sig (Elt Ideal)) : after line V (Proc.devRef .tc main_arg15) = V (Proc.devRef .tc main_arg15) :=
  after_arg hw V main_arg15 (by decide +kernel)

end Cert.RefLine

end
-- ==== Proof.RefVal0.lean ====
import proofs.«106875_j87694642250037_1_alg».proof.Proof.RefLine

/-!
# The reference's operations 0 … 79, each read over the line's final values

One equation per operation: the line's final contents at the operation's result buffer are its function of the
final contents at its operand buffers.
-/

noncomputable section

namespace Cert.RefVal

open Cert.ReferenceIdeal Cert.ReferenceIdeal.Gen Cert.RefOps Cert.LineRead Idealize.ShloMosaic Idealize.ShloMosaic.TcCoe Idealize.SL.Sem Idealize.ShloMosaic.StableHlo Cert.RefLine

theorem val_0 (V : Valuation τ sig (Elt Ideal)) :
    after line V (Proc.devRef .tc main_v0) = extractStridedSlice S1x640000 ![0, 0] (after line V (Proc.devRef .tc main_arg1) : IVec S2x640000 32) slices_S2x640000_S1x640000_0_0 :=
  unary_final hw V 0 (lt_len (by decide)) (x := main_arg1) (y := main_v0) ((extractStridedSlice S1x640000 ![0, 0] · slices_S2x640000_S1x640000_0_0) : IVec S2x640000 32 → IVec S1x640000 32) ⟨by decide, rfl⟩ ⟨by decide, rfl⟩ rfl (by decide +kernel) (by decide +kernel)
theorem val_1 (V : Valuation τ sig (Elt Ideal)) :
    after line V (Proc.devRef .tc main_v1) = shapeCast S640000 (after line V (Proc.devRef .tc main_v0) : IVec S1x640000 32) shapeCasts_S1x640000_S640000 :=
  reshape_final hw V 1 (lt_len (by decide)) (x := main_v0) (y := main_v1) rfl shapeCasts_S1x640000_S640000 ⟨by decide, rfl⟩ ⟨by decide, rfl⟩ rfl (by decide +kernel) (by decide +kernel)
theorem val_2 (V : Valuation τ sig (Elt Ideal)) :
    after line V (Proc.devRef .tc main_v2) = extractStridedSlice S1x640000 ![1, 0] (after line V (Proc.devRef .tc main_arg1) : IVec S2x640000 32) slices_S2x640000_S1x640000_1_0 :=
  unary_final hw V 2 (lt_len (by decide)) (x := main_arg1) (y := main_v2) ((extractStridedSlice S1x640000 ![1, 0] · slices_S2x640000_S1x640000_1_0) : IVec S2x640000 32 → IVec S1x640000 32) ⟨by decide, rfl⟩ ⟨by decide, rfl⟩ rfl (by decide +kernel) (by decide +kernel)
theorem val_3 (V : Valuation τ sig (Elt Ideal)) :
    after line V (Proc.devRef .tc main_v3) = shapeCast S640000 (after line V (Proc.devRef .tc main_v2) : IVec S1x640000 32) shapeCasts_S1x640000_S640000 :=
  reshape_final hw V 3 (lt_len (by decide)) (x := main_v2) (y := main_v3) rfl shapeCasts_S1x640000_S640000 ⟨by decide, rfl⟩ ⟨by decide, rfl⟩ rfl (by decide +kernel) (by decide +kernel)
theorem val_4 (V : Valuation τ sig (Elt Ideal)) :
    after line V (Proc.devRef .tc main_v4) = Host.dotGeneral (F := Ideal) (φ₁ := .f32) (φ₂ := .f32) dot_S50000x32_S32x128_S50000x128_1_0_0_1_n_n none (after line V (Proc.devRef .tc main_arg0) : FVec Ideal S50000x32 .f32) (after line V (Proc.devRef .tc main_arg6) : FVec Ideal S32x128 .f32) :=
  binary_final hw V 4 (lt_len (by decide)) (a := main_arg0) (b := main_arg6) (y := main_v4) ((fun l r => Host.dotGeneral (F := Ideal) dot_S50000x32_S32x128_S50000x128_1_0_0_1_n_n none l r) : FVec Ideal S50000x32 .f32 → FVec Ideal S32x128 .f32 → FVec Ideal S50000x128 .f32) ⟨by decide, rfl⟩ ⟨by decide, rfl⟩ ⟨by decide, rfl⟩ rfl (by decide +kernel) (by decide +kernel) (by decide +kernel)
theorem val_5 (V : Valuation τ sig (Elt Ideal)) :
    after line V (Proc.devRef .tc main_v5) = broadcastInDim S1x128 ![1] bcast_S128_S1x128_1 (after line V (Proc.devRef .tc main_arg7) : FVec Ideal S128 .f32) :=
  unary_final hw V 5 (lt_len (by decide)) (x := main_arg7) (y := main_v5) (broadcastInDim S1x128 ![1] bcast_S128_S1x128_1 : FVec Ideal S128 .f32 → FVec Ideal S1x128 .f32) ⟨by decide, rfl⟩ ⟨by decide, rfl⟩ rfl (by decide +kernel) (by decide +kernel)
theorem val_6 (V : Valuation τ sig (Elt Ideal)) :
    after line V (Proc.devRef .tc main_v6) = broadcastInDim S50000x128 ![0, 1] bcast_S1x128_S50000x128_0_1 (after line V (Proc.devRef .tc main_v5) : FVec Ideal S1x128 .f32) :=
  unary_final hw V 6 (lt_len (by decide)) (x := main_v5) (y := main_v6) (broadcastInDim S50000x128 ![0, 1] bcast_S1x128_S50000x128_0_1 : FVec Ideal S1x128 .f32 → FVec Ideal S50000x128 .f32) ⟨by decide, rfl⟩ ⟨by decide, rfl⟩ rfl (by decide +kernel) (by decide +kernel)
theorem val_7 (V : Valuation τ sig (Elt Ideal)) :
    after line V (Proc.devRef .tc main_v7) = addf (F := Ideal) (φ := .f32) (after line V (Proc.devRef .tc main_v4) : FVec Ideal S50000x128 .f32) (after line V (Proc.devRef .tc main_v6) : FVec Ideal S50000x128 .f32) :=
  binary_final hw V 7 (lt_len (by decide)) (a := main_v4) (b := main_v6) (y := main_v7) (addf (F := Ideal) : FVec Ideal S50000x128 .f32 → FVec Ideal S50000x128 .f32 → FVec Ideal S50000x128 .f32) ⟨by decide, rfl⟩ ⟨by decide, rfl⟩ ⟨by decide, rfl⟩ rfl (by decide +kernel) (by decide +kernel) (by decide +kernel)
theorem val_8 (V : Valuation τ sig (Elt Ideal)) :
    after line V (Proc.devRef .tc main_c) = constantI S_ 32 0#32 :=
  nullary_final hw V 8 (lt_len (by decide)) (y := main_c) (constantI S_ 32 0#32 : IVec S_ 32) ⟨by decide, rfl⟩ rfl (by decide +kernel)
theorem val_9 (V : Valuation τ sig (Elt Ideal)) :
    after line V (Proc.devRef .tc main_v8) = broadcastInDim S640000 ![] bcast_S_S640000 (after line V (Proc.devRef .tc main_c) : IVec S_ 32) :=
  unary_final hw V 9 (lt_len (by decide)) (x := main_c) (y := main_v8) (broadcastInDim S640000 ![] bcast_S_S640000 : IVec S_ 32 → IVec S640000 32) ⟨by decide, rfl⟩ ⟨by decide, rfl⟩ rfl (by decide +kernel) (by decide +kernel)
theorem val_10 (V : Valuation τ sig (Elt Ideal)) :
    after line V (Proc.devRef .tc main_v9) = cmpi .slt (after line V (Proc.devRef .tc main_v1) : IVec S640000 32) (after line V (Proc.devRef .tc main_v8) : IVec S640000 32) :=
  binary_final hw V 10 (lt_len (by decide)) (a := main_v1) (b := main_v8) (y := main_v9) (cmpi .slt : IVec S640000 32 → IVec S640000 32 → IVec S640000 1) ⟨by decide, rfl⟩ ⟨by decide, rfl⟩ ⟨by decide, rfl⟩ rfl (by decide +kernel) (by decide +kernel) (by decide +kernel)
theorem val_11 (V : Valuation τ sig (Elt Ideal)) :
    after line V (Proc.devRef .tc main_c_0) = constantI S_ 32 50000#32 :=
  nullary_final hw V 11 (lt_len (by decide)) (y := main_c_0) (constantI S_ 32 50000#32 : IVec S_ 32) ⟨by decide, rfl⟩ rfl (by decide +kernel)
theorem val_12 (V : Valuation τ sig (Elt Ideal)) :
    after line V (Proc.devRef .tc main_v10) = broadcastInDim S640000 ![] bcast_S_S640000 (after line V (Proc.devRef .tc main_c_0) : IVec S_ 32) :=
  unary_final hw V 12 (lt_len (by decide)) (x := main_c_0) (y := main_v10) (broadcastInDim S640000 ![] bcast_S_S640000 : IVec S_ 32 → IVec S640000 32) ⟨by decide, rfl⟩ ⟨by decide, rfl⟩ rfl (by decide +kernel) (by decide +kernel)
theorem val_13 (V : Valuation τ sig (Elt Ideal)) :
    after line V (Proc.devRef .tc main_v11) = addi (after line V (Proc.devRef .tc main_v1) : IVec S640000 32) (after line V (Proc.devRef .tc main_v10) : IVec S640000 32) :=
  binary_final hw V 13 (lt_len (by decide)) (a := main_v1) (b := main_v10) (y := main_v11) (addi : IVec S640000 32 → IVec S640000 32 → IVec S640000 32) ⟨by decide, rfl⟩ ⟨by decide, rfl⟩ ⟨by decide, rfl⟩ rfl (by decide +kernel) (by decide +kernel) (by decide +kernel)
theorem val_14 (V : Valuation τ sig (Elt Ideal)) :
    after line V (Proc.devRef .tc main_v12) = select (after line V (Proc.devRef .tc main_v9) : IVec S640000 1) (after line V (Proc.devRef .tc main_v11) : IVec S640000 32) (after line V (Proc.devRef .tc main_v1) : IVec S640000 32) :=
  ternary_final hw V 14 (lt_len (by decide)) (c := main_v9) (a := main_v11) (b := main_v1) (y := main_v12) (select : IVec S640000 1 → IVec S640000 32 → IVec S640000 32 → IVec S640000 32) ⟨by decide, rfl⟩ ⟨by decide, rfl⟩ ⟨by decide, rfl⟩ ⟨by decide, rfl⟩ rfl (by decide +kernel) (by decide +kernel) (by decide +kernel) (by decide +kernel)
theorem val_15 (V : Valuation τ sig (Elt Ideal)) :
    after line V (Proc.devRef .tc main_v13) = broadcastInDim S640000x1 ![0] bcast_S640000_S640000x1_0 (after line V (Proc.devRef .tc main_v12) : IVec S640000 32) :=
  unary_final hw V 15 (lt_len (by decide)) (x := main_v12) (y := main_v13) (broadcastInDim S640000x1 ![0] bcast_S640000_S640000x1_0 : IVec S640000 32 → IVec S640000x1 32) ⟨by decide, rfl⟩ ⟨by decide, rfl⟩ rfl (by decide +kernel) (by decide +kernel)
theorem val_16 (V : Valuation τ sig (Elt Ideal)) :
    after line V (Proc.devRef .tc main_v14) = Host.gather gather_S50000x128_S640000x1_S640000x128_1_0_n_n_0_1_1128 (after line V (Proc.devRef .tc main_v7) : FVec Ideal S50000x128 .f32) (after line V (Proc.devRef .tc main_v13) : IVec S640000x1 32) :=
  binary_final hw V 16 (lt_len (by decide)) (a := main_v7) (b := main_v13) (y := main_v14) ((fun x i => Host.gather gather_S50000x128_S640000x1_S640000x128_1_0_n_n_0_1_1128 x i) : FVec Ideal S50000x128 .f32 → IVec S640000x1 32 → FVec Ideal S640000x128 .f32) ⟨by decide, rfl⟩ ⟨by decide, rfl⟩ ⟨by decide, rfl⟩ rfl (by decide +kernel) (by decide +kernel) (by decide +kernel)
theorem val_17 (V : Valuation τ sig (Elt Ideal)) :
    after line V (Proc.devRef .tc main_cst) = constant (F := Ideal) S_ .f32 0x00000000#32 :=
  nullary_final hw V 17 (lt_len (by decide)) (y := main_cst) (constant (F := Ideal) S_ .f32 0x00000000#32 : FVec Ideal S_ .f32) ⟨by decide, rfl⟩ rfl (by decide +kernel)
theorem val_18 (V : Valuation τ sig (Elt Ideal)) :
    after line V (Proc.devRef .tc main_v15) = broadcastInDim S50000x128 ![] bcast_S_S50000x128 (after line V (Proc.devRef .tc main_cst) : FVec Ideal S_ .f32) :=
  unary_final hw V 18 (lt_len (by decide)) (x := main_cst) (y := main_v15) (broadcastInDim S50000x128 ![] bcast_S_S50000x128 : FVec Ideal S_ .f32 → FVec Ideal S50000x128 .f32) ⟨by decide, rfl⟩ ⟨by decide, rfl⟩ rfl (by decide +kernel) (by decide +kernel)
theorem val_19 (V : Valuation τ sig (Elt Ideal)) :
    after line V (Proc.devRef .tc main_v16) = broadcastInDim S640000x1 ![0] bcast_S640000_S640000x1_0 (after line V (Proc.devRef .tc main_v3) : IVec S640000 32) :=
  unary_final hw V 19 (lt_len (by decide)) (x := main_v3) (y := main_v16) (broadcastInDim S640000x1 ![0] bcast_S640000_S640000x1_0 : IVec S640000 32 → IVec S640000x1 32) ⟨by decide, rfl⟩ ⟨by decide, rfl⟩ rfl (by decide +kernel) (by decide +kernel)
theorem val_20 (V : Valuation τ sig (Elt Ideal)) :
    after line V (Proc.devRef .tc main_v17) = Host.scatterAdd (F := Ideal) (φ := .f32) scatter_S50000x128_S640000x1_S640000x128_1_0_0_1 (after line V (Proc.devRef .tc main_v15) : FVec Ideal S50000x128 .f32) (after line V (Proc.devRef .tc main_v16) : IVec S640000x1 32) (after line V (Proc.devRef .tc main_v14) : FVec Ideal S640000x128 .f32) :=
  ternary_final hw V 20 (lt_len (by decide)) (c := main_v15) (a := main_v16) (b := main_v14) (y := main_v17) ((fun x i u => Host.scatterAdd (F := Ideal) scatter_S50000x128_S640000x1_S640000x128_1_0_0_1 x i u) : FVec Ideal S50000x128 .f32 → IVec S640000x1 32 → FVec Ideal S640000x128 .f32 → FVec Ideal S50000x128 .f32) ⟨by decide, rfl⟩ ⟨by decide, rfl⟩ ⟨by decide, rfl⟩ ⟨by decide, rfl⟩ rfl (by decide +kernel) (by decide +kernel) (by decide +kernel) (by decide +kernel)
theorem val_21 (V : Valuation τ sig (Elt Ideal)) :
    after line V (Proc.devRef .tc main_v18) = addf (F := Ideal) (φ := .f32) (after line V (Proc.devRef .tc main_v17) : FVec Ideal S50000x128 .f32) (after line V (Proc.devRef .tc main_v7) : FVec Ideal S50000x128 .f32) :=
  binary_final hw V 21 (lt_len (by decide)) (a := main_v17) (b := main_v7) (y := main_v18) (addf (F := Ideal) : FVec Ideal S50000x128 .f32 → FVec Ideal S50000x128 .f32 → FVec Ideal S50000x128 .f32) ⟨by decide, rfl⟩ ⟨by decide, rfl⟩ ⟨by decide, rfl⟩ rfl (by decide +kernel) (by decide +kernel) (by decide +kernel)
theorem val_22 (V : Valuation τ sig (Elt Ideal)) :
    after line V (Proc.devRef .tc main_v19) = extractStridedSlice S1x128x128 ![0, 0, 0] (after line V (Proc.devRef .tc main_arg8) : FVec Ideal S4x128x128 .f32) slices_S4x128x128_S1x128x128_0_0_0 :=
  unary_final hw V 22 (lt_len (by decide)) (x := main_arg8) (y := main_v19) ((extractStridedSlice S1x128x128 ![0, 0, 0] · slices_S4x128x128_S1x128x128_0_0_0) : FVec Ideal S4x128x128 .f32 → FVec Ideal S1x128x128 .f32) ⟨by decide, rfl⟩ ⟨by decide, rfl⟩ rfl (by decide +kernel) (by decide +kernel)
theorem val_23 (V : Valuation τ sig (Elt Ideal)) :
    after line V (Proc.devRef .tc main_v20) = shapeCast S128x128 (after line V (Proc.devRef .tc main_v19) : FVec Ideal S1x128x128 .f32) shapeCasts_S1x128x128_S128x128 :=
  reshape_final hw V 23 (lt_len (by decide)) (x := main_v19) (y := main_v20) rfl shapeCasts_S1x128x128_S128x128 ⟨by decide, rfl⟩ ⟨by decide, rfl⟩ rfl (by decide +kernel) (by decide +kernel)
theorem val_24 (V : Valuation τ sig (Elt Ideal)) :
    after line V (Proc.devRef .tc main_v21) = Host.dotGeneral (F := Ideal) (φ₁ := .f32) (φ₂ := .f32) dot_S50000x128_S128x128_S50000x128_1_0_0_1_n_n none (after line V (Proc.devRef .tc main_v18) : FVec Ideal S50000x128 .f32) (after line V (Proc.devRef .tc main_v20) : FVec Ideal S128x128 .f32) :=
  binary_final hw V 24 (lt_len (by decide)) (a := main_v18) (b := main_v20) (y := main_v21) ((fun l r => Host.dotGeneral (F := Ideal) dot_S50000x128_S128x128_S50000x128_1_0_0_1_n_n none l r) : FVec Ideal S50000x128 .f32 → FVec Ideal S128x128 .f32 → FVec Ideal S50000x128 .f32) ⟨by decide, rfl⟩ ⟨by decide, rfl⟩ ⟨by decide, rfl⟩ rfl (by decide +kernel) (by decide +kernel) (by decide +kernel)
theorem val_25 (V : Valuation τ sig (Elt Ideal)) :
    after line V (Proc.devRef .tc main_v22) = extractStridedSlice S1x128 ![0, 0] (after line V (Proc.devRef .tc main_arg9) : FVec Ideal S4x128 .f32) slices_S4x128_S1x128_0_0 :=
  unary_final hw V 25 (lt_len (by decide)) (x := main_arg9) (y := main_v22) ((extractStridedSlice S1x128 ![0, 0] · slices_S4x128_S1x128_0_0) : FVec Ideal S4x128 .f32 → FVec Ideal S1x128 .f32) ⟨by decide, rfl⟩ ⟨by decide, rfl⟩ rfl (by decide +kernel) (by decide +kernel)
theorem val_26 (V : Valuation τ sig (Elt Ideal)) :
    after line V (Proc.devRef .tc main_v23) = shapeCast S128 (after line V (Proc.devRef .tc main_v22) : FVec Ideal S1x128 .f32) shapeCasts_S1x128_S128 :=
  reshape_final hw V 26 (lt_len (by decide)) (x := main_v22) (y := main_v23) rfl shapeCasts_S1x128_S128 ⟨by decide, rfl⟩ ⟨by decide, rfl⟩ rfl (by decide +kernel) (by decide +kernel)
theorem val_27 (V : Valuation τ sig (Elt Ideal)) :
    after line V (Proc.devRef .tc main_v24) = broadcastInDim S1x128 ![1] bcast_S128_S1x128_1 (after line V (Proc.devRef .tc main_v23) : FVec Ideal S128 .f32) :=
  unary_final hw V 27 (lt_len (by decide)) (x := main_v23) (y := main_v24) (broadcastInDim S1x128 ![1] bcast_S128_S1x128_1 : FVec Ideal S128 .f32 → FVec Ideal S1x128 .f32) ⟨by decide, rfl⟩ ⟨by decide, rfl⟩ rfl (by decide +kernel) (by decide +kernel)
theorem val_28 (V : Valuation τ sig (Elt Ideal)) :
    after line V (Proc.devRef .tc main_v25) = broadcastInDim S50000x128 ![0, 1] bcast_S1x128_S50000x128_0_1 (after line V (Proc.devRef .tc main_v24) : FVec Ideal S1x128 .f32) :=
  unary_final hw V 28 (lt_len (by decide)) (x := main_v24) (y := main_v25) (broadcastInDim S50000x128 ![0, 1] bcast_S1x128_S50000x128_0_1 : FVec Ideal S1x128 .f32 → FVec Ideal S50000x128 .f32) ⟨by decide, rfl⟩ ⟨by decide, rfl⟩ rfl (by decide +kernel) (by decide +kernel)
theorem val_29 (V : Valuation τ sig (Elt Ideal)) :
    after line V (Proc.devRef .tc main_v26) = addf (F := Ideal) (φ := .f32) (after line V (Proc.devRef .tc main_v21) : FVec Ideal S50000x128 .f32) (after line V (Proc.devRef .tc main_v25) : FVec Ideal S50000x128 .f32) :=
  binary_final hw V 29 (lt_len (by decide)) (a := main_v21) (b := main_v25) (y := main_v26) (addf (F := Ideal) : FVec Ideal S50000x128 .f32 → FVec Ideal S50000x128 .f32 → FVec Ideal S50000x128 .f32) ⟨by decide, rfl⟩ ⟨by decide, rfl⟩ ⟨by decide, rfl⟩ rfl (by decide +kernel) (by decide +kernel) (by decide +kernel)
theorem val_30 (V : Valuation τ sig (Elt Ideal)) :
    after line V (Proc.devRef .tc main_call0_cst) = constant (F := Ideal) S_ .f32 0x00000000#32 :=
  nullary_final hw V 30 (lt_len (by decide)) (y := main_call0_cst) (constant (F := Ideal) S_ .f32 0x00000000#32 : FVec Ideal S_ .f32) ⟨by decide, rfl⟩ rfl (by decide +kernel)
theorem val_31 (V : Valuation τ sig (Elt Ideal)) :
    after line V (Proc.devRef .tc main_call0_v0) = broadcastInDim S50000x128 ![] bcast_S_S50000x128 (after line V (Proc.devRef .tc main_call0_cst) : FVec Ideal S_ .f32) :=
  unary_final hw V 31 (lt_len (by decide)) (x := main_call0_cst) (y := main_call0_v0) (broadcastInDim S50000x128 ![] bcast_S_S50000x128 : FVec Ideal S_ .f32 → FVec Ideal S50000x128 .f32) ⟨by decide, rfl⟩ ⟨by decide, rfl⟩ rfl (by decide +kernel) (by decide +kernel)
theorem val_32 (V : Valuation τ sig (Elt Ideal)) :
    after line V (Proc.devRef .tc main_v27) = maximumf (F := Ideal) (φ := .f32) (after line V (Proc.devRef .tc main_v26) : FVec Ideal S50000x128 .f32) (after line V (Proc.devRef .tc main_call0_v0) : FVec Ideal S50000x128 .f32) :=
  binary_final hw V 32 (lt_len (by decide)) (a := main_v26) (b := main_call0_v0) (y := main_v27) (maximumf (F := Ideal) : FVec Ideal S50000x128 .f32 → FVec Ideal S50000x128 .f32 → FVec Ideal S50000x128 .f32) ⟨by decide, rfl⟩ ⟨by decide, rfl⟩ ⟨by decide, rfl⟩ rfl (by decide +kernel) (by decide +kernel) (by decide +kernel)
theorem val_33 (V : Valuation τ sig (Elt Ideal)) :
    after line V (Proc.devRef .tc main_v28) = extractStridedSlice S1x128x128 ![0, 0, 0] (after line V (Proc.devRef .tc main_arg10) : FVec Ideal S4x128x128 .f32) slices_S4x128x128_S1x128x128_0_0_0 :=
  unary_final hw V 33 (lt_len (by decide)) (x := main_arg10) (y := main_v28) ((extractStridedSlice S1x128x128 ![0, 0, 0] · slices_S4x128x128_S1x128x128_0_0_0) : FVec Ideal S4x128x128 .f32 → FVec Ideal S1x128x128 .f32) ⟨by decide, rfl⟩ ⟨by decide, rfl⟩ rfl (by decide +kernel) (by decide +kernel)
theorem val_34 (V : Valuation τ sig (Elt Ideal)) :
    after line V (Proc.devRef .tc main_v29) = shapeCast S128x128 (after line V (Proc.devRef .tc main_v28) : FVec Ideal S1x128x128 .f32) shapeCasts_S1x128x128_S128x128 :=
  reshape_final hw V 34 (lt_len (by decide)) (x := main_v28) (y := main_v29) rfl shapeCasts_S1x128x128_S128x128 ⟨by decide, rfl⟩ ⟨by decide, rfl⟩ rfl (by decide +kernel) (by decide +kernel)
theorem val_35 (V : Valuation τ sig (Elt Ideal)) :
    after line V (Proc.devRef .tc main_v30) = Host.dotGeneral (F := Ideal) (φ₁ := .f32) (φ₂ := .f32) dot_S50000x128_S128x128_S50000x128_1_0_0_1_n_n none (after line V (Proc.devRef .tc main_v27) : FVec Ideal S50000x128 .f32) (after line V (Proc.devRef .tc main_v29) : FVec Ideal S128x128 .f32) :=
  binary_final hw V 35 (lt_len (by decide)) (a := main_v27) (b := main_v29) (y := main_v30) ((fun l r => Host.dotGeneral (F := Ideal) dot_S50000x128_S128x128_S50000x128_1_0_0_1_n_n none l r) : FVec Ideal S50000x128 .f32 → FVec Ideal S128x128 .f32 → FVec Ideal S50000x128 .f32) ⟨by decide, rfl⟩ ⟨by decide, rfl⟩ ⟨by decide, rfl⟩ rfl (by decide +kernel) (by decide +kernel) (by decide +kernel)
theorem val_36 (V : Valuation τ sig (Elt Ideal)) :
    after line V (Proc.devRef .tc main_v31) = extractStridedSlice S1x128 ![0, 0] (after line V (Proc.devRef .tc main_arg11) : FVec Ideal S4x128 .f32) slices_S4x128_S1x128_0_0 :=
  unary_final hw V 36 (lt_len (by decide)) (x := main_arg11) (y := main_v31) ((extractStridedSlice S1x128 ![0, 0] · slices_S4x128_S1x128_0_0) : FVec Ideal S4x128 .f32 → FVec Ideal S1x128 .f32) ⟨by decide, rfl⟩ ⟨by decide, rfl⟩ rfl (by decide +kernel) (by decide +kernel)
theorem val_37 (V : Valuation τ sig (Elt Ideal)) :
    after line V (Proc.devRef .tc main_v32) = shapeCast S128 (after line V (Proc.devRef .tc main_v31) : FVec Ideal S1x128 .f32) shapeCasts_S1x128_S128 :=
  reshape_final hw V 37 (lt_len (by decide)) (x := main_v31) (y := main_v32) rfl shapeCasts_S1x128_S128 ⟨by decide, rfl⟩ ⟨by decide, rfl⟩ rfl (by decide +kernel) (by decide +kernel)
theorem val_38 (V : Valuation τ sig (Elt Ideal)) :
    after line V (Proc.devRef .tc main_v33) = broadcastInDim S1x128 ![1] bcast_S128_S1x128_1 (after line V (Proc.devRef .tc main_v32) : FVec Ideal S128 .f32) :=
  unary_final hw V 38 (lt_len (by decide)) (x := main_v32) (y := main_v33) (broadcastInDim S1x128 ![1] bcast_S128_S1x128_1 : FVec Ideal S128 .f32 → FVec Ideal S1x128 .f32) ⟨by decide, rfl⟩ ⟨by decide, rfl⟩ rfl (by decide +kernel) (by decide +kernel)
theorem val_39 (V : Valuation τ sig (Elt Ideal)) :
    after line V (Proc.devRef .tc main_v34) = broadcastInDim S50000x128 ![0, 1] bcast_S1x128_S50000x128_0_1 (after line V (Proc.devRef .tc main_v33) : FVec Ideal S1x128 .f32) :=
  unary_final hw V 39 (lt_len (by decide)) (x := main_v33) (y := main_v34) (broadcastInDim S50000x128 ![0, 1] bcast_S1x128_S50000x128_0_1 : FVec Ideal S1x128 .f32 → FVec Ideal S50000x128 .f32) ⟨by decide, rfl⟩ ⟨by decide, rfl⟩ rfl (by decide +kernel) (by decide +kernel)
theorem val_40 (V : Valuation τ sig (Elt Ideal)) :
    after line V (Proc.devRef .tc main_v35) = addf (F := Ideal) (φ := .f32) (after line V (Proc.devRef .tc main_v30) : FVec Ideal S50000x128 .f32) (after line V (Proc.devRef .tc main_v34) : FVec Ideal S50000x128 .f32) :=
  binary_final hw V 40 (lt_len (by decide)) (a := main_v30) (b := main_v34) (y := main_v35) (addf (F := Ideal) : FVec Ideal S50000x128 .f32 → FVec Ideal S50000x128 .f32 → FVec Ideal S50000x128 .f32) ⟨by decide, rfl⟩ ⟨by decide, rfl⟩ ⟨by decide, rfl⟩ rfl (by decide +kernel) (by decide +kernel) (by decide +kernel)
theorem val_41 (V : Valuation τ sig (Elt Ideal)) :
    after line V (Proc.devRef .tc main_call1_cst) = constant (F := Ideal) S_ .f32 0x00000000#32 :=
  nullary_final hw V 41 (lt_len (by decide)) (y := main_call1_cst) (constant (F := Ideal) S_ .f32 0x00000000#32 : FVec Ideal S_ .f32) ⟨by decide, rfl⟩ rfl (by decide +kernel)
theorem val_42 (V : Valuation τ sig (Elt Ideal)) :
    after line V (Proc.devRef .tc main_call1_v0) = broadcastInDim S50000x128 ![] bcast_S_S50000x128 (after line V (Proc.devRef .tc main_call1_cst) : FVec Ideal S_ .f32) :=
  unary_final hw V 42 (lt_len (by decide)) (x := main_call1_cst) (y := main_call1_v0) (broadcastInDim S50000x128 ![] bcast_S_S50000x128 : FVec Ideal S_ .f32 → FVec Ideal S50000x128 .f32) ⟨by decide, rfl⟩ ⟨by decide, rfl⟩ rfl (by decide +kernel) (by decide +kernel)
theorem val_43 (V : Valuation τ sig (Elt Ideal)) :
    after line V (Proc.devRef .tc main_v36) = maximumf (F := Ideal) (φ := .f32) (after line V (Proc.devRef .tc main_v35) : FVec Ideal S50000x128 .f32) (after line V (Proc.devRef .tc main_call1_v0) : FVec Ideal S50000x128 .f32) :=
  binary_final hw V 43 (lt_len (by decide)) (a := main_v35) (b := main_call1_v0) (y := main_v36) (maximumf (F := Ideal) : FVec Ideal S50000x128 .f32 → FVec Ideal S50000x128 .f32 → FVec Ideal S50000x128 .f32) ⟨by decide, rfl⟩ ⟨by decide, rfl⟩ ⟨by decide, rfl⟩ rfl (by decide +kernel) (by decide +kernel) (by decide +kernel)
theorem val_44 (V : Valuation τ sig (Elt Ideal)) :
    after line V (Proc.devRef .tc main_c_1) = constantI S_ 32 0#32 :=
  nullary_final hw V 44 (lt_len (by decide)) (y := main_c_1) (constantI S_ 32 0#32 : IVec S_ 32) ⟨by decide, rfl⟩ rfl (by decide +kernel)
theorem val_45 (V : Valuation τ sig (Elt Ideal)) :
    after line V (Proc.devRef .tc main_v37) = broadcastInDim S640000 ![] bcast_S_S640000 (after line V (Proc.devRef .tc main_c_1) : IVec S_ 32) :=
  unary_final hw V 45 (lt_len (by decide)) (x := main_c_1) (y := main_v37) (broadcastInDim S640000 ![] bcast_S_S640000 : IVec S_ 32 → IVec S640000 32) ⟨by decide, rfl⟩ ⟨by decide, rfl⟩ rfl (by decide +kernel) (by decide +kernel)
theorem val_46 (V : Valuation τ sig (Elt Ideal)) :
    after line V (Proc.devRef .tc main_v38) = cmpi .slt (after line V (Proc.devRef .tc main_v1) : IVec S640000 32) (after line V (Proc.devRef .tc main_v37) : IVec S640000 32) :=
  binary_final hw V 46 (lt_len (by decide)) (a := main_v1) (b := main_v37) (y := main_v38) (cmpi .slt : IVec S640000 32 → IVec S640000 32 → IVec S640000 1) ⟨by decide, rfl⟩ ⟨by decide, rfl⟩ ⟨by decide, rfl⟩ rfl (by decide +kernel) (by decide +kernel) (by decide +kernel)
theorem val_47 (V : Valuation τ sig (Elt Ideal)) :
    after line V (Proc.devRef .tc main_c_2) = constantI S_ 32 50000#32 :=
  nullary_final hw V 47 (lt_len (by decide)) (y := main_c_2) (constantI S_ 32 50000#32 : IVec S_ 32) ⟨by decide, rfl⟩ rfl (by decide +kernel)
theorem val_48 (V : Valuation τ sig (Elt Ideal)) :
    after line V (Proc.devRef .tc main_v39) = broadcastInDim S640000 ![] bcast_S_S640000 (after line V (Proc.devRef .tc main_c_2) : IVec S_ 32) :=
  unary_final hw V 48 (lt_len (by decide)) (x := main_c_2) (y := main_v39) (broadcastInDim S640000 ![] bcast_S_S640000 : IVec S_ 32 → IVec S640000 32) ⟨by decide, rfl⟩ ⟨by decide, rfl⟩ rfl (by decide +kernel) (by decide +kernel)
theorem val_49 (V : Valuation τ sig (Elt Ideal)) :
    after line V (Proc.devRef .tc main_v40) = addi (after line V (Proc.devRef .tc main_v1) : IVec S640000 32) (after line V (Proc.devRef .tc main_v39) : IVec S640000 32) :=
  binary_final hw V 49 (lt_len (by decide)) (a := main_v1) (b := main_v39) (y := main_v40) (addi : IVec S640000 32 → IVec S640000 32 → IVec S640000 32) ⟨by decide, rfl⟩ ⟨by decide, rfl⟩ ⟨by decide, rfl⟩ rfl (by decide +kernel) (by decide +kernel) (by decide +kernel)
theorem val_50 (V : Valuation τ sig (Elt Ideal)) :
    after line V (Proc.devRef .tc main_v41) = select (after line V (Proc.devRef .tc main_v38) : IVec S640000 1) (after line V (Proc.devRef .tc main_v40) : IVec S640000 32) (after line V (Proc.devRef .tc main_v1) : IVec S640000 32) :=
  ternary_final hw V 50 (lt_len (by decide)) (c := main_v38) (a := main_v40) (b := main_v1) (y := main_v41) (select : IVec S640000 1 → IVec S640000 32 → IVec S640000 32 → IVec S640000 32) ⟨by decide, rfl⟩ ⟨by decide, rfl⟩ ⟨by decide, rfl⟩ ⟨by decide, rfl⟩ rfl (by decide +kernel) (by decide +kernel) (by decide +kernel) (by decide +kernel)
theorem val_51 (V : Valuation τ sig (Elt Ideal)) :
    after line V (Proc.devRef .tc main_v42) = broadcastInDim S640000x1 ![0] bcast_S640000_S640000x1_0 (after line V (Proc.devRef .tc main_v41) : IVec S640000 32) :=
  unary_final hw V 51 (lt_len (by decide)) (x := main_v41) (y := main_v42) (broadcastInDim S640000x1 ![0] bcast_S640000_S640000x1_0 : IVec S640000 32 → IVec S640000x1 32) ⟨by decide, rfl⟩ ⟨by decide, rfl⟩ rfl (by decide +kernel) (by decide +kernel)
theorem val_52 (V : Valuation τ sig (Elt Ideal)) :
    after line V (Proc.devRef .tc main_v43) = Host.gather gather_S50000x128_S640000x1_S640000x128_1_0_n_n_0_1_1128 (after line V (Proc.devRef .tc main_v36) : FVec Ideal S50000x128 .f32) (after line V (Proc.devRef .tc main_v42) : IVec S640000x1 32) :=
  binary_final hw V 52 (lt_len (by decide)) (a := main_v36) (b := main_v42) (y := main_v43) ((fun x i => Host.gather gather_S50000x128_S640000x1_S640000x128_1_0_n_n_0_1_1128 x i) : FVec Ideal S50000x128 .f32 → IVec S640000x1 32 → FVec Ideal S640000x128 .f32) ⟨by decide, rfl⟩ ⟨by decide, rfl⟩ ⟨by decide, rfl⟩ rfl (by decide +kernel) (by decide +kernel) (by decide +kernel)
theorem val_53 (V : Valuation τ sig (Elt Ideal)) :
    after line V (Proc.devRef .tc main_cst_3) = constant (F := Ideal) S_ .f32 0x00000000#32 :=
  nullary_final hw V 53 (lt_len (by decide)) (y := main_cst_3) (constant (F := Ideal) S_ .f32 0x00000000#32 : FVec Ideal S_ .f32) ⟨by decide, rfl⟩ rfl (by decide +kernel)
theorem val_54 (V : Valuation τ sig (Elt Ideal)) :
    after line V (Proc.devRef .tc main_v44) = broadcastInDim S50000x128 ![] bcast_S_S50000x128 (after line V (Proc.devRef .tc main_cst_3) : FVec Ideal S_ .f32) :=
  unary_final hw V 54 (lt_len (by decide)) (x := main_cst_3) (y := main_v44) (broadcastInDim S50000x128 ![] bcast_S_S50000x128 : FVec Ideal S_ .f32 → FVec Ideal S50000x128 .f32) ⟨by decide, rfl⟩ ⟨by decide, rfl⟩ rfl (by decide +kernel) (by decide +kernel)
theorem val_55 (V : Valuation τ sig (Elt Ideal)) :
    after line V (Proc.devRef .tc main_v45) = broadcastInDim S640000x1 ![0] bcast_S640000_S640000x1_0 (after line V (Proc.devRef .tc main_v3) : IVec S640000 32) :=
  unary_final hw V 55 (lt_len (by decide)) (x := main_v3) (y := main_v45) (broadcastInDim S640000x1 ![0] bcast_S640000_S640000x1_0 : IVec S640000 32 → IVec S640000x1 32) ⟨by decide, rfl⟩ ⟨by decide, rfl⟩ rfl (by decide +kernel) (by decide +kernel)
theorem val_56 (V : Valuation τ sig (Elt Ideal)) :
    after line V (Proc.devRef .tc main_v46) = Host.scatterAdd (F := Ideal) (φ := .f32) scatter_S50000x128_S640000x1_S640000x128_1_0_0_1 (after line V (Proc.devRef .tc main_v44) : FVec Ideal S50000x128 .f32) (after line V (Proc.devRef .tc main_v45) : IVec S640000x1 32) (after line V (Proc.devRef .tc main_v43) : FVec Ideal S640000x128 .f32) :=
  ternary_final hw V 56 (lt_len (by decide)) (c := main_v44) (a := main_v45) (b := main_v43) (y := main_v46) ((fun x i u => Host.scatterAdd (F := Ideal) scatter_S50000x128_S640000x1_S640000x128_1_0_0_1 x i u) : FVec Ideal S50000x128 .f32 → IVec S640000x1 32 → FVec Ideal S640000x128 .f32 → FVec Ideal S50000x128 .f32) ⟨by decide, rfl⟩ ⟨by decide, rfl⟩ ⟨by decide, rfl⟩ ⟨by decide, rfl⟩ rfl (by decide +kernel) (by decide +kernel) (by decide +kernel) (by decide +kernel)
theorem val_57 (V : Valuation τ sig (Elt Ideal)) :
    after line V (Proc.devRef .tc main_v47) = addf (F := Ideal) (φ := .f32) (after line V (Proc.devRef .tc main_v46) : FVec Ideal S50000x128 .f32) (after line V (Proc.devRef .tc main_v36) : FVec Ideal S50000x128 .f32) :=
  binary_final hw V 57 (lt_len (by decide)) (a := main_v46) (b := main_v36) (y := main_v47) (addf (F := Ideal) : FVec Ideal S50000x128 .f32 → FVec Ideal S50000x128 .f32 → FVec Ideal S50000x128 .f32) ⟨by decide, rfl⟩ ⟨by decide, rfl⟩ ⟨by decide, rfl⟩ rfl (by decide +kernel) (by decide +kernel) (by decide +kernel)
theorem val_58 (V : Valuation τ sig (Elt Ideal)) :
    after line V (Proc.devRef .tc main_v48) = extractStridedSlice S1x128x128 ![1, 0, 0] (after line V (Proc.devRef .tc main_arg8) : FVec Ideal S4x128x128 .f32) slices_S4x128x128_S1x128x128_1_0_0 :=
  unary_final hw V 58 (lt_len (by decide)) (x := main_arg8) (y := main_v48) ((extractStridedSlice S1x128x128 ![1, 0, 0] · slices_S4x128x128_S1x128x128_1_0_0) : FVec Ideal S4x128x128 .f32 → FVec Ideal S1x128x128 .f32) ⟨by decide, rfl⟩ ⟨by decide, rfl⟩ rfl (by decide +kernel) (by decide +kernel)
theorem val_59 (V : Valuation τ sig (Elt Ideal)) :
    after line V (Proc.devRef .tc main_v49) = shapeCast S128x128 (after line V (Proc.devRef .tc main_v48) : FVec Ideal S1x128x128 .f32) shapeCasts_S1x128x128_S128x128 :=
  reshape_final hw V 59 (lt_len (by decide)) (x := main_v48) (y := main_v49) rfl shapeCasts_S1x128x128_S128x128 ⟨by decide, rfl⟩ ⟨by decide, rfl⟩ rfl (by decide +kernel) (by decide +kernel)
theorem val_60 (V : Valuation τ sig (Elt Ideal)) :
    after line V (Proc.devRef .tc main_v50) = Host.dotGeneral (F := Ideal) (φ₁ := .f32) (φ₂ := .f32) dot_S50000x128_S128x128_S50000x128_1_0_0_1_n_n none (after line V (Proc.devRef .tc main_v47) : FVec Ideal S50000x128 .f32) (after line V (Proc.devRef .tc main_v49) : FVec Ideal S128x128 .f32) :=
  binary_final hw V 60 (lt_len (by decide)) (a := main_v47) (b := main_v49) (y := main_v50) ((fun l r => Host.dotGeneral (F := Ideal) dot_S50000x128_S128x128_S50000x128_1_0_0_1_n_n none l r) : FVec Ideal S50000x128 .f32 → FVec Ideal S128x128 .f32 → FVec Ideal S50000x128 .f32) ⟨by decide, rfl⟩ ⟨by decide, rfl⟩ ⟨by decide, rfl⟩ rfl (by decide +kernel) (by decide +kernel) (by decide +kernel)
theorem val_61 (V : Valuation τ sig (Elt Ideal)) :
    after line V (Proc.devRef .tc main_v51) = extractStridedSlice S1x128 ![1, 0] (after line V (Proc.devRef .tc main_arg9) : FVec Ideal S4x128 .f32) slices_S4x128_S1x128_1_0 :=
  unary_final hw V 61 (lt_len (by decide)) (x := main_arg9) (y := main_v51) ((extractStridedSlice S1x128 ![1, 0] · slices_S4x128_S1x128_1_0) : FVec Ideal S4x128 .f32 → FVec Ideal S1x128 .f32) ⟨by decide, rfl⟩ ⟨by decide, rfl⟩ rfl (by decide +kernel) (by decide +kernel)
theorem val_62 (V : Valuation τ sig (Elt Ideal)) :
    after line V (Proc.devRef .tc main_v52) = shapeCast S128 (after line V (Proc.devRef .tc main_v51) : FVec Ideal S1x128 .f32) shapeCasts_S1x128_S128 :=
  reshape_final hw V 62 (lt_len (by decide)) (x := main_v51) (y := main_v52) rfl shapeCasts_S1x128_S128 ⟨by decide, rfl⟩ ⟨by decide, rfl⟩ rfl (by decide +kernel) (by decide +kernel)
theorem val_63 (V : Valuation τ sig (Elt Ideal)) :
    after line V (Proc.devRef .tc main_v53) = broadcastInDim S1x128 ![1] bcast_S128_S1x128_1 (after line V (Proc.devRef .tc main_v52) : FVec Ideal S128 .f32) :=
  unary_final hw V 63 (lt_len (by decide)) (x := main_v52) (y := main_v53) (broadcastInDim S1x128 ![1] bcast_S128_S1x128_1 : FVec Ideal S128 .f32 → FVec Ideal S1x128 .f32) ⟨by decide, rfl⟩ ⟨by decide, rfl⟩ rfl (by decide +kernel) (by decide +kernel)
theorem val_64 (V : Valuation τ sig (Elt Ideal)) :
    after line V (Proc.devRef .tc main_v54) = broadcastInDim S50000x128 ![0, 1] bcast_S1x128_S50000x128_0_1 (after line V (Proc.devRef .tc main_v53) : FVec Ideal S1x128 .f32) :=
  unary_final hw V 64 (lt_len (by decide)) (x := main_v53) (y := main_v54) (broadcastInDim S50000x128 ![0, 1] bcast_S1x128_S50000x128_0_1 : FVec Ideal S1x128 .f32 → FVec Ideal S50000x128 .f32) ⟨by decide, rfl⟩ ⟨by decide, rfl⟩ rfl (by decide +kernel) (by decide +kernel)
theorem val_65 (V : Valuation τ sig (Elt Ideal)) :
    after line V (Proc.devRef .tc main_v55) = addf (F := Ideal) (φ := .f32) (after line V (Proc.devRef .tc main_v50) : FVec Ideal S50000x128 .f32) (after line V (Proc.devRef .tc main_v54) : FVec Ideal S50000x128 .f32) :=
  binary_final hw V 65 (lt_len (by decide)) (a := main_v50) (b := main_v54) (y := main_v55) (addf (F := Ideal) : FVec Ideal S50000x128 .f32 → FVec Ideal S50000x128 .f32 → FVec Ideal S50000x128 .f32) ⟨by decide, rfl⟩ ⟨by decide, rfl⟩ ⟨by decide, rfl⟩ rfl (by decide +kernel) (by decide +kernel) (by decide +kernel)
theorem val_66 (V : Valuation τ sig (Elt Ideal)) :
    after line V (Proc.devRef .tc main_call2_cst) = constant (F := Ideal) S_ .f32 0x00000000#32 :=
  nullary_final hw V 66 (lt_len (by decide)) (y := main_call2_cst) (constant (F := Ideal) S_ .f32 0x00000000#32 : FVec Ideal S_ .f32) ⟨by decide, rfl⟩ rfl (by decide +kernel)
theorem val_67 (V : Valuation τ sig (Elt Ideal)) :
    after line V (Proc.devRef .tc main_call2_v0) = broadcastInDim S50000x128 ![] bcast_S_S50000x128 (after line V (Proc.devRef .tc main_call2_cst) : FVec Ideal S_ .f32) :=
  unary_final hw V 67 (lt_len (by decide)) (x := main_call2_cst) (y := main_call2_v0) (broadcastInDim S50000x128 ![] bcast_S_S50000x128 : FVec Ideal S_ .f32 → FVec Ideal S50000x128 .f32) ⟨by decide, rfl⟩ ⟨by decide, rfl⟩ rfl (by decide +kernel) (by decide +kernel)
theorem val_68 (V : Valuation τ sig (Elt Ideal)) :
    after line V (Proc.devRef .tc main_v56) = maximumf (F := Ideal) (φ := .f32) (after line V (Proc.devRef .tc main_v55) : FVec Ideal S50000x128 .f32) (after line V (Proc.devRef .tc main_call2_v0) : FVec Ideal S50000x128 .f32) :=
  binary_final hw V 68 (lt_len (by decide)) (a := main_v55) (b := main_call2_v0) (y := main_v56) (maximumf (F := Ideal) : FVec Ideal S50000x128 .f32 → FVec Ideal S50000x128 .f32 → FVec Ideal S50000x128 .f32) ⟨by decide, rfl⟩ ⟨by decide, rfl⟩ ⟨by decide, rfl⟩ rfl (by decide +kernel) (by decide +kernel) (by decide +kernel)
theorem val_69 (V : Valuation τ sig (Elt Ideal)) :
    after line V (Proc.devRef .tc main_v57) = extractStridedSlice S1x128x128 ![1, 0, 0] (after line V (Proc.devRef .tc main_arg10) : FVec Ideal S4x128x128 .f32) slices_S4x128x128_S1x128x128_1_0_0 :=
  unary_final hw V 69 (lt_len (by decide)) (x := main_arg10) (y := main_v57) ((extractStridedSlice S1x128x128 ![1, 0, 0] · slices_S4x128x128_S1x128x128_1_0_0) : FVec Ideal S4x128x128 .f32 → FVec Ideal S1x128x128 .f32) ⟨by decide, rfl⟩ ⟨by decide, rfl⟩ rfl (by decide +kernel) (by decide +kernel)
theorem val_70 (V : Valuation τ sig (Elt Ideal)) :
    after line V (Proc.devRef .tc main_v58) = shapeCast S128x128 (after line V (Proc.devRef .tc main_v57) : FVec Ideal S1x128x128 .f32) shapeCasts_S1x128x128_S128x128 :=
  reshape_final hw V 70 (lt_len (by decide)) (x := main_v57) (y := main_v58) rfl shapeCasts_S1x128x128_S128x128 ⟨by decide, rfl⟩ ⟨by decide, rfl⟩ rfl (by decide +kernel) (by decide +kernel)
theorem val_71 (V : Valuation τ sig (Elt Ideal)) :
    after line V (Proc.devRef .tc main_v59) = Host.dotGeneral (F := Ideal) (φ₁ := .f32) (φ₂ := .f32) dot_S50000x128_S128x128_S50000x128_1_0_0_1_n_n none (after line V (Proc.devRef .tc main_v56) : FVec Ideal S50000x128 .f32) (after line V (Proc.devRef .tc main_v58) : FVec Ideal S128x128 .f32) :=
  binary_final hw V 71 (lt_len (by decide)) (a := main_v56) (b := main_v58) (y := main_v59) ((fun l r => Host.dotGeneral (F := Ideal) dot_S50000x128_S128x128_S50000x128_1_0_0_1_n_n none l r) : FVec Ideal S50000x128 .f32 → FVec Ideal S128x128 .f32 → FVec Ideal S50000x128 .f32) ⟨by decide, rfl⟩ ⟨by decide, rfl⟩ ⟨by decide, rfl⟩ rfl (by decide +kernel) (by decide +kernel) (by decide +kernel)
theorem val_72 (V : Valuation τ sig (Elt Ideal)) :
    after line V (Proc.devRef .tc main_v60) = extractStridedSlice S1x128 ![1, 0] (after line V (Proc.devRef .tc main_arg11) : FVec Ideal S4x128 .f32) slices_S4x128_S1x128_1_0 :=
  unary_final hw V 72 (lt_len (by decide)) (x := main_arg11) (y := main_v60) ((extractStridedSlice S1x128 ![1, 0] · slices_S4x128_S1x128_1_0) : FVec Ideal S4x128 .f32 → FVec Ideal S1x128 .f32) ⟨by decide, rfl⟩ ⟨by decide, rfl⟩ rfl (by decide +kernel) (by decide +kernel)
theorem val_73 (V : Valuation τ sig (Elt Ideal)) :
    after line V (Proc.devRef .tc main_v61) = shapeCast S128 (after line V (Proc.devRef .tc main_v60) : FVec Ideal S1x128 .f32) shapeCasts_S1x128_S128 :=
  reshape_final hw V 73 (lt_len (by decide)) (x := main_v60) (y := main_v61) rfl shapeCasts_S1x128_S128 ⟨by decide, rfl⟩ ⟨by decide, rfl⟩ rfl (by decide +kernel) (by decide +kernel)
theorem val_74 (V : Valuation τ sig (Elt Ideal)) :
    after line V (Proc.devRef .tc main_v62) = broadcastInDim S1x128 ![1] bcast_S128_S1x128_1 (after line V (Proc.devRef .tc main_v61) : FVec Ideal S128 .f32) :=
  unary_final hw V 74 (lt_len (by decide)) (x := main_v61) (y := main_v62) (broadcastInDim S1x128 ![1] bcast_S128_S1x128_1 : FVec Ideal S128 .f32 → FVec Ideal S1x128 .f32) ⟨by decide, rfl⟩ ⟨by decide, rfl⟩ rfl (by decide +kernel) (by decide +kernel)
theorem val_75 (V : Valuation τ sig (Elt Ideal)) :
    after line V (Proc.devRef .tc main_v63) = broadcastInDim S50000x128 ![0, 1] bcast_S1x128_S50000x128_0_1 (after line V (Proc.devRef .tc main_v62) : FVec Ideal S1x128 .f32) :=
  unary_final hw V 75 (lt_len (by decide)) (x := main_v62) (y := main_v63) (broadcastInDim S50000x128 ![0, 1] bcast_S1x128_S50000x128_0_1 : FVec Ideal S1x128 .f32 → FVec Ideal S50000x128 .f32) ⟨by decide, rfl⟩ ⟨by decide, rfl⟩ rfl (by decide +kernel) (by decide +kernel)
theorem val_76 (V : Valuation τ sig (Elt Ideal)) :
    after line V (Proc.devRef .tc main_v64) = addf (F := Ideal) (φ := .f32) (after line V (Proc.devRef .tc main_v59) : FVec Ideal S50000x128 .f32) (after line V (Proc.devRef .tc main_v63) : FVec Ideal S50000x128 .f32) :=
  binary_final hw V 76 (lt_len (by decide)) (a := main_v59) (b := main_v63) (y := main_v64) (addf (F := Ideal) : FVec Ideal S50000x128 .f32 → FVec Ideal S50000x128 .f32 → FVec Ideal S50000x128 .f32) ⟨by decide, rfl⟩ ⟨by decide, rfl⟩ ⟨by decide, rfl⟩ rfl (by decide +kernel) (by decide +kernel) (by decide +kernel)
theorem val_77 (V : Valuation τ sig (Elt Ideal)) :
    after line V (Proc.devRef .tc main_v65) = addf (F := Ideal) (φ := .f32) (after line V (Proc.devRef .tc main_v64) : FVec Ideal S50000x128 .f32) (after line V (Proc.devRef .tc main_v7) : FVec Ideal S50000x128 .f32) :=
  binary_final hw V 77 (lt_len (by decide)) (a := main_v64) (b := main_v7) (y := main_v65) (addf (F := Ideal) : FVec Ideal S50000x128 .f32 → FVec Ideal S50000x128 .f32 → FVec Ideal S50000x128 .f32) ⟨by decide, rfl⟩ ⟨by decide, rfl⟩ ⟨by decide, rfl⟩ rfl (by decide +kernel) (by decide +kernel) (by decide +kernel)
theorem val_78 (V : Valuation τ sig (Elt Ideal)) :
    after line V (Proc.devRef .tc main_call3_cst) = constant (F := Ideal) S_ .f32 0x00000000#32 :=
  nullary_final hw V 78 (lt_len (by decide)) (y := main_call3_cst) (constant (F := Ideal) S_ .f32 0x00000000#32 : FVec Ideal S_ .f32) ⟨by decide, rfl⟩ rfl (by decide +kernel)
theorem val_79 (V : Valuation τ sig (Elt Ideal)) :
    after line V (Proc.devRef .tc main_call3_v0) = broadcastInDim S50000x128 ![] bcast_S_S50000x128 (after line V (Proc.devRef .tc main_call3_cst) : FVec Ideal S_ .f32) :=
  unary_final hw V 79 (lt_len (by decide)) (x := main_call3_cst) (y := main_call3_v0) (broadcastInDim S50000x128 ![] bcast_S_S50000x128 : FVec Ideal S_ .f32 → FVec Ideal S50000x128 .f32) ⟨by decide, rfl⟩ ⟨by decide, rfl⟩ rfl (by decide +kernel) (by decide +kernel)

end Cert.RefVal

end
-- ==== Proof.RefVal1.lean ====
import proofs.«106875_j87694642250037_1_alg».proof.Proof.RefLine

/-!
# The reference's operations 80 … 159, each read over the line's final values

One equation per operation: the line's final contents at the operation's result buffer are its function of the
final contents at its operand buffers.
-/

noncomputable section

namespace Cert.RefVal

open Cert.ReferenceIdeal Cert.ReferenceIdeal.Gen Cert.RefOps Cert.LineRead Idealize.ShloMosaic Idealize.ShloMosaic.TcCoe Idealize.SL.Sem Idealize.ShloMosaic.StableHlo Cert.RefLine

theorem val_80 (V : Valuation τ sig (Elt Ideal)) :
    after line V (Proc.devRef .tc main_v66) = maximumf (F := Ideal) (φ := .f32) (after line V (Proc.devRef .tc main_v65) : FVec Ideal S50000x128 .f32) (after line V (Proc.devRef .tc main_call3_v0) : FVec Ideal S50000x128 .f32) :=
  binary_final hw V 80 (lt_len (by decide)) (a := main_v65) (b := main_call3_v0) (y := main_v66) (maximumf (F := Ideal) : FVec Ideal S50000x128 .f32 → FVec Ideal S50000x128 .f32 → FVec Ideal S50000x128 .f32) ⟨by decide, rfl⟩ ⟨by decide, rfl⟩ ⟨by decide, rfl⟩ rfl (by decide +kernel) (by decide +kernel) (by decide +kernel)
theorem val_81 (V : Valuation τ sig (Elt Ideal)) :
    after line V (Proc.devRef .tc main_c_4) = constantI S_ 32 0#32 :=
  nullary_final hw V 81 (lt_len (by decide)) (y := main_c_4) (constantI S_ 32 0#32 : IVec S_ 32) ⟨by decide, rfl⟩ rfl (by decide +kernel)
theorem val_82 (V : Valuation τ sig (Elt Ideal)) :
    after line V (Proc.devRef .tc main_v67) = broadcastInDim S640000 ![] bcast_S_S640000 (after line V (Proc.devRef .tc main_c_4) : IVec S_ 32) :=
  unary_final hw V 82 (lt_len (by decide)) (x := main_c_4) (y := main_v67) (broadcastInDim S640000 ![] bcast_S_S640000 : IVec S_ 32 → IVec S640000 32) ⟨by decide, rfl⟩ ⟨by decide, rfl⟩ rfl (by decide +kernel) (by decide +kernel)
theorem val_83 (V : Valuation τ sig (Elt Ideal)) :
    after line V (Proc.devRef .tc main_v68) = cmpi .slt (after line V (Proc.devRef .tc main_v1) : IVec S640000 32) (after line V (Proc.devRef .tc main_v67) : IVec S640000 32) :=
  binary_final hw V 83 (lt_len (by decide)) (a := main_v1) (b := main_v67) (y := main_v68) (cmpi .slt : IVec S640000 32 → IVec S640000 32 → IVec S640000 1) ⟨by decide, rfl⟩ ⟨by decide, rfl⟩ ⟨by decide, rfl⟩ rfl (by decide +kernel) (by decide +kernel) (by decide +kernel)
theorem val_84 (V : Valuation τ sig (Elt Ideal)) :
    after line V (Proc.devRef .tc main_c_5) = constantI S_ 32 50000#32 :=
  nullary_final hw V 84 (lt_len (by decide)) (y := main_c_5) (constantI S_ 32 50000#32 : IVec S_ 32) ⟨by decide, rfl⟩ rfl (by decide +kernel)
theorem val_85 (V : Valuation τ sig (Elt Ideal)) :
    after line V (Proc.devRef .tc main_v69) = broadcastInDim S640000 ![] bcast_S_S640000 (after line V (Proc.devRef .tc main_c_5) : IVec S_ 32) :=
  unary_final hw V 85 (lt_len (by decide)) (x := main_c_5) (y := main_v69) (broadcastInDim S640000 ![] bcast_S_S640000 : IVec S_ 32 → IVec S640000 32) ⟨by decide, rfl⟩ ⟨by decide, rfl⟩ rfl (by decide +kernel) (by decide +kernel)
theorem val_86 (V : Valuation τ sig (Elt Ideal)) :
    after line V (Proc.devRef .tc main_v70) = addi (after line V (Proc.devRef .tc main_v1) : IVec S640000 32) (after line V (Proc.devRef .tc main_v69) : IVec S640000 32) :=
  binary_final hw V 86 (lt_len (by decide)) (a := main_v1) (b := main_v69) (y := main_v70) (addi : IVec S640000 32 → IVec S640000 32 → IVec S640000 32) ⟨by decide, rfl⟩ ⟨by decide, rfl⟩ ⟨by decide, rfl⟩ rfl (by decide +kernel) (by decide +kernel) (by decide +kernel)
theorem val_87 (V : Valuation τ sig (Elt Ideal)) :
    after line V (Proc.devRef .tc main_v71) = select (after line V (Proc.devRef .tc main_v68) : IVec S640000 1) (after line V (Proc.devRef .tc main_v70) : IVec S640000 32) (after line V (Proc.devRef .tc main_v1) : IVec S640000 32) :=
  ternary_final hw V 87 (lt_len (by decide)) (c := main_v68) (a := main_v70) (b := main_v1) (y := main_v71) (select : IVec S640000 1 → IVec S640000 32 → IVec S640000 32 → IVec S640000 32) ⟨by decide, rfl⟩ ⟨by decide, rfl⟩ ⟨by decide, rfl⟩ ⟨by decide, rfl⟩ rfl (by decide +kernel) (by decide +kernel) (by decide +kernel) (by decide +kernel)
theorem val_88 (V : Valuation τ sig (Elt Ideal)) :
    after line V (Proc.devRef .tc main_v72) = broadcastInDim S640000x1 ![0] bcast_S640000_S640000x1_0 (after line V (Proc.devRef .tc main_v71) : IVec S640000 32) :=
  unary_final hw V 88 (lt_len (by decide)) (x := main_v71) (y := main_v72) (broadcastInDim S640000x1 ![0] bcast_S640000_S640000x1_0 : IVec S640000 32 → IVec S640000x1 32) ⟨by decide, rfl⟩ ⟨by decide, rfl⟩ rfl (by decide +kernel) (by decide +kernel)
theorem val_89 (V : Valuation τ sig (Elt Ideal)) :
    after line V (Proc.devRef .tc main_v73) = Host.gather gather_S50000x128_S640000x1_S640000x128_1_0_n_n_0_1_1128 (after line V (Proc.devRef .tc main_v66) : FVec Ideal S50000x128 .f32) (after line V (Proc.devRef .tc main_v72) : IVec S640000x1 32) :=
  binary_final hw V 89 (lt_len (by decide)) (a := main_v66) (b := main_v72) (y := main_v73) ((fun x i => Host.gather gather_S50000x128_S640000x1_S640000x128_1_0_n_n_0_1_1128 x i) : FVec Ideal S50000x128 .f32 → IVec S640000x1 32 → FVec Ideal S640000x128 .f32) ⟨by decide, rfl⟩ ⟨by decide, rfl⟩ ⟨by decide, rfl⟩ rfl (by decide +kernel) (by decide +kernel) (by decide +kernel)
theorem val_90 (V : Valuation τ sig (Elt Ideal)) :
    after line V (Proc.devRef .tc main_cst_6) = constant (F := Ideal) S_ .f32 0x00000000#32 :=
  nullary_final hw V 90 (lt_len (by decide)) (y := main_cst_6) (constant (F := Ideal) S_ .f32 0x00000000#32 : FVec Ideal S_ .f32) ⟨by decide, rfl⟩ rfl (by decide +kernel)
theorem val_91 (V : Valuation τ sig (Elt Ideal)) :
    after line V (Proc.devRef .tc main_v74) = broadcastInDim S50000x128 ![] bcast_S_S50000x128 (after line V (Proc.devRef .tc main_cst_6) : FVec Ideal S_ .f32) :=
  unary_final hw V 91 (lt_len (by decide)) (x := main_cst_6) (y := main_v74) (broadcastInDim S50000x128 ![] bcast_S_S50000x128 : FVec Ideal S_ .f32 → FVec Ideal S50000x128 .f32) ⟨by decide, rfl⟩ ⟨by decide, rfl⟩ rfl (by decide +kernel) (by decide +kernel)
theorem val_92 (V : Valuation τ sig (Elt Ideal)) :
    after line V (Proc.devRef .tc main_v75) = broadcastInDim S640000x1 ![0] bcast_S640000_S640000x1_0 (after line V (Proc.devRef .tc main_v3) : IVec S640000 32) :=
  unary_final hw V 92 (lt_len (by decide)) (x := main_v3) (y := main_v75) (broadcastInDim S640000x1 ![0] bcast_S640000_S640000x1_0 : IVec S640000 32 → IVec S640000x1 32) ⟨by decide, rfl⟩ ⟨by decide, rfl⟩ rfl (by decide +kernel) (by decide +kernel)
theorem val_93 (V : Valuation τ sig (Elt Ideal)) :
    after line V (Proc.devRef .tc main_v76) = Host.scatterAdd (F := Ideal) (φ := .f32) scatter_S50000x128_S640000x1_S640000x128_1_0_0_1 (after line V (Proc.devRef .tc main_v74) : FVec Ideal S50000x128 .f32) (after line V (Proc.devRef .tc main_v75) : IVec S640000x1 32) (after line V (Proc.devRef .tc main_v73) : FVec Ideal S640000x128 .f32) :=
  ternary_final hw V 93 (lt_len (by decide)) (c := main_v74) (a := main_v75) (b := main_v73) (y := main_v76) ((fun x i u => Host.scatterAdd (F := Ideal) scatter_S50000x128_S640000x1_S640000x128_1_0_0_1 x i u) : FVec Ideal S50000x128 .f32 → IVec S640000x1 32 → FVec Ideal S640000x128 .f32 → FVec Ideal S50000x128 .f32) ⟨by decide, rfl⟩ ⟨by decide, rfl⟩ ⟨by decide, rfl⟩ ⟨by decide, rfl⟩ rfl (by decide +kernel) (by decide +kernel) (by decide +kernel) (by decide +kernel)
theorem val_94 (V : Valuation τ sig (Elt Ideal)) :
    after line V (Proc.devRef .tc main_v77) = addf (F := Ideal) (φ := .f32) (after line V (Proc.devRef .tc main_v76) : FVec Ideal S50000x128 .f32) (after line V (Proc.devRef .tc main_v66) : FVec Ideal S50000x128 .f32) :=
  binary_final hw V 94 (lt_len (by decide)) (a := main_v76) (b := main_v66) (y := main_v77) (addf (F := Ideal) : FVec Ideal S50000x128 .f32 → FVec Ideal S50000x128 .f32 → FVec Ideal S50000x128 .f32) ⟨by decide, rfl⟩ ⟨by decide, rfl⟩ ⟨by decide, rfl⟩ rfl (by decide +kernel) (by decide +kernel) (by decide +kernel)
theorem val_95 (V : Valuation τ sig (Elt Ideal)) :
    after line V (Proc.devRef .tc main_v78) = extractStridedSlice S1x128x128 ![2, 0, 0] (after line V (Proc.devRef .tc main_arg8) : FVec Ideal S4x128x128 .f32) slices_S4x128x128_S1x128x128_2_0_0 :=
  unary_final hw V 95 (lt_len (by decide)) (x := main_arg8) (y := main_v78) ((extractStridedSlice S1x128x128 ![2, 0, 0] · slices_S4x128x128_S1x128x128_2_0_0) : FVec Ideal S4x128x128 .f32 → FVec Ideal S1x128x128 .f32) ⟨by decide, rfl⟩ ⟨by decide, rfl⟩ rfl (by decide +kernel) (by decide +kernel)
theorem val_96 (V : Valuation τ sig (Elt Ideal)) :
    after line V (Proc.devRef .tc main_v79) = shapeCast S128x128 (after line V (Proc.devRef .tc main_v78) : FVec Ideal S1x128x128 .f32) shapeCasts_S1x128x128_S128x128 :=
  reshape_final hw V 96 (lt_len (by decide)) (x := main_v78) (y := main_v79) rfl shapeCasts_S1x128x128_S128x128 ⟨by decide, rfl⟩ ⟨by decide, rfl⟩ rfl (by decide +kernel) (by decide +kernel)
theorem val_97 (V : Valuation τ sig (Elt Ideal)) :
    after line V (Proc.devRef .tc main_v80) = Host.dotGeneral (F := Ideal) (φ₁ := .f32) (φ₂ := .f32) dot_S50000x128_S128x128_S50000x128_1_0_0_1_n_n none (after line V (Proc.devRef .tc main_v77) : FVec Ideal S50000x128 .f32) (after line V (Proc.devRef .tc main_v79) : FVec Ideal S128x128 .f32) :=
  binary_final hw V 97 (lt_len (by decide)) (a := main_v77) (b := main_v79) (y := main_v80) ((fun l r => Host.dotGeneral (F := Ideal) dot_S50000x128_S128x128_S50000x128_1_0_0_1_n_n none l r) : FVec Ideal S50000x128 .f32 → FVec Ideal S128x128 .f32 → FVec Ideal S50000x128 .f32) ⟨by decide, rfl⟩ ⟨by decide, rfl⟩ ⟨by decide, rfl⟩ rfl (by decide +kernel) (by decide +kernel) (by decide +kernel)
theorem val_98 (V : Valuation τ sig (Elt Ideal)) :
    after line V (Proc.devRef .tc main_v81) = extractStridedSlice S1x128 ![2, 0] (after line V (Proc.devRef .tc main_arg9) : FVec Ideal S4x128 .f32) slices_S4x128_S1x128_2_0 :=
  unary_final hw V 98 (lt_len (by decide)) (x := main_arg9) (y := main_v81) ((extractStridedSlice S1x128 ![2, 0] · slices_S4x128_S1x128_2_0) : FVec Ideal S4x128 .f32 → FVec Ideal S1x128 .f32) ⟨by decide, rfl⟩ ⟨by decide, rfl⟩ rfl (by decide +kernel) (by decide +kernel)
theorem val_99 (V : Valuation τ sig (Elt Ideal)) :
    after line V (Proc.devRef .tc main_v82) = shapeCast S128 (after line V (Proc.devRef .tc main_v81) : FVec Ideal S1x128 .f32) shapeCasts_S1x128_S128 :=
  reshape_final hw V 99 (lt_len (by decide)) (x := main_v81) (y := main_v82) rfl shapeCasts_S1x128_S128 ⟨by decide, rfl⟩ ⟨by decide, rfl⟩ rfl (by decide +kernel) (by decide +kernel)
theorem val_100 (V : Valuation τ sig (Elt Ideal)) :
    after line V (Proc.devRef .tc main_v83) = broadcastInDim S1x128 ![1] bcast_S128_S1x128_1 (after line V (Proc.devRef .tc main_v82) : FVec Ideal S128 .f32) :=
  unary_final hw V 100 (lt_len (by decide)) (x := main_v82) (y := main_v83) (broadcastInDim S1x128 ![1] bcast_S128_S1x128_1 : FVec Ideal S128 .f32 → FVec Ideal S1x128 .f32) ⟨by decide, rfl⟩ ⟨by decide, rfl⟩ rfl (by decide +kernel) (by decide +kernel)
theorem val_101 (V : Valuation τ sig (Elt Ideal)) :
    after line V (Proc.devRef .tc main_v84) = broadcastInDim S50000x128 ![0, 1] bcast_S1x128_S50000x128_0_1 (after line V (Proc.devRef .tc main_v83) : FVec Ideal S1x128 .f32) :=
  unary_final hw V 101 (lt_len (by decide)) (x := main_v83) (y := main_v84) (broadcastInDim S50000x128 ![0, 1] bcast_S1x128_S50000x128_0_1 : FVec Ideal S1x128 .f32 → FVec Ideal S50000x128 .f32) ⟨by decide, rfl⟩ ⟨by decide, rfl⟩ rfl (by decide +kernel) (by decide +kernel)
theorem val_102 (V : Valuation τ sig (Elt Ideal)) :
    after line V (Proc.devRef .tc main_v85) = addf (F := Ideal) (φ := .f32) (after line V (Proc.devRef .tc main_v80) : FVec Ideal S50000x128 .f32) (after line V (Proc.devRef .tc main_v84) : FVec Ideal S50000x128 .f32) :=
  binary_final hw V 102 (lt_len (by decide)) (a := main_v80) (b := main_v84) (y := main_v85) (addf (F := Ideal) : FVec Ideal S50000x128 .f32 → FVec Ideal S50000x128 .f32 → FVec Ideal S50000x128 .f32) ⟨by decide, rfl⟩ ⟨by decide, rfl⟩ ⟨by decide, rfl⟩ rfl (by decide +kernel) (by decide +kernel) (by decide +kernel)
theorem val_103 (V : Valuation τ sig (Elt Ideal)) :
    after line V (Proc.devRef .tc main_call4_cst) = constant (F := Ideal) S_ .f32 0x00000000#32 :=
  nullary_final hw V 103 (lt_len (by decide)) (y := main_call4_cst) (constant (F := Ideal) S_ .f32 0x00000000#32 : FVec Ideal S_ .f32) ⟨by decide, rfl⟩ rfl (by decide +kernel)
theorem val_104 (V : Valuation τ sig (Elt Ideal)) :
    after line V (Proc.devRef .tc main_call4_v0) = broadcastInDim S50000x128 ![] bcast_S_S50000x128 (after line V (Proc.devRef .tc main_call4_cst) : FVec Ideal S_ .f32) :=
  unary_final hw V 104 (lt_len (by decide)) (x := main_call4_cst) (y := main_call4_v0) (broadcastInDim S50000x128 ![] bcast_S_S50000x128 : FVec Ideal S_ .f32 → FVec Ideal S50000x128 .f32) ⟨by decide, rfl⟩ ⟨by decide, rfl⟩ rfl (by decide +kernel) (by decide +kernel)
theorem val_105 (V : Valuation τ sig (Elt Ideal)) :
    after line V (Proc.devRef .tc main_v86) = maximumf (F := Ideal) (φ := .f32) (after line V (Proc.devRef .tc main_v85) : FVec Ideal S50000x128 .f32) (after line V (Proc.devRef .tc main_call4_v0) : FVec Ideal S50000x128 .f32) :=
  binary_final hw V 105 (lt_len (by decide)) (a := main_v85) (b := main_call4_v0) (y := main_v86) (maximumf (F := Ideal) : FVec Ideal S50000x128 .f32 → FVec Ideal S50000x128 .f32 → FVec Ideal S50000x128 .f32) ⟨by decide, rfl⟩ ⟨by decide, rfl⟩ ⟨by decide, rfl⟩ rfl (by decide +kernel) (by decide +kernel) (by decide +kernel)
theorem val_106 (V : Valuation τ sig (Elt Ideal)) :
    after line V (Proc.devRef .tc main_v87) = extractStridedSlice S1x128x128 ![2, 0, 0] (after line V (Proc.devRef .tc main_arg10) : FVec Ideal S4x128x128 .f32) slices_S4x128x128_S1x128x128_2_0_0 :=
  unary_final hw V 106 (lt_len (by decide)) (x := main_arg10) (y := main_v87) ((extractStridedSlice S1x128x128 ![2, 0, 0] · slices_S4x128x128_S1x128x128_2_0_0) : FVec Ideal S4x128x128 .f32 → FVec Ideal S1x128x128 .f32) ⟨by decide, rfl⟩ ⟨by decide, rfl⟩ rfl (by decide +kernel) (by decide +kernel)
theorem val_107 (V : Valuation τ sig (Elt Ideal)) :
    after line V (Proc.devRef .tc main_v88) = shapeCast S128x128 (after line V (Proc.devRef .tc main_v87) : FVec Ideal S1x128x128 .f32) shapeCasts_S1x128x128_S128x128 :=
  reshape_final hw V 107 (lt_len (by decide)) (x := main_v87) (y := main_v88) rfl shapeCasts_S1x128x128_S128x128 ⟨by decide, rfl⟩ ⟨by decide, rfl⟩ rfl (by decide +kernel) (by decide +kernel)
theorem val_108 (V : Valuation τ sig (Elt Ideal)) :
    after line V (Proc.devRef .tc main_v89) = Host.dotGeneral (F := Ideal) (φ₁ := .f32) (φ₂ := .f32) dot_S50000x128_S128x128_S50000x128_1_0_0_1_n_n none (after line V (Proc.devRef .tc main_v86) : FVec Ideal S50000x128 .f32) (after line V (Proc.devRef .tc main_v88) : FVec Ideal S128x128 .f32) :=
  binary_final hw V 108 (lt_len (by decide)) (a := main_v86) (b := main_v88) (y := main_v89) ((fun l r => Host.dotGeneral (F := Ideal) dot_S50000x128_S128x128_S50000x128_1_0_0_1_n_n none l r) : FVec Ideal S50000x128 .f32 → FVec Ideal S128x128 .f32 → FVec Ideal S50000x128 .f32) ⟨by decide, rfl⟩ ⟨by decide, rfl⟩ ⟨by decide, rfl⟩ rfl (by decide +kernel) (by decide +kernel) (by decide +kernel)
theorem val_109 (V : Valuation τ sig (Elt Ideal)) :
    after line V (Proc.devRef .tc main_v90) = extractStridedSlice S1x128 ![2, 0] (after line V (Proc.devRef .tc main_arg11) : FVec Ideal S4x128 .f32) slices_S4x128_S1x128_2_0 :=
  unary_final hw V 109 (lt_len (by decide)) (x := main_arg11) (y := main_v90) ((extractStridedSlice S1x128 ![2, 0] · slices_S4x128_S1x128_2_0) : FVec Ideal S4x128 .f32 → FVec Ideal S1x128 .f32) ⟨by decide, rfl⟩ ⟨by decide, rfl⟩ rfl (by decide +kernel) (by decide +kernel)
theorem val_110 (V : Valuation τ sig (Elt Ideal)) :
    after line V (Proc.devRef .tc main_v91) = shapeCast S128 (after line V (Proc.devRef .tc main_v90) : FVec Ideal S1x128 .f32) shapeCasts_S1x128_S128 :=
  reshape_final hw V 110 (lt_len (by decide)) (x := main_v90) (y := main_v91) rfl shapeCasts_S1x128_S128 ⟨by decide, rfl⟩ ⟨by decide, rfl⟩ rfl (by decide +kernel) (by decide +kernel)
theorem val_111 (V : Valuation τ sig (Elt Ideal)) :
    after line V (Proc.devRef .tc main_v92) = broadcastInDim S1x128 ![1] bcast_S128_S1x128_1 (after line V (Proc.devRef .tc main_v91) : FVec Ideal S128 .f32) :=
  unary_final hw V 111 (lt_len (by decide)) (x := main_v91) (y := main_v92) (broadcastInDim S1x128 ![1] bcast_S128_S1x128_1 : FVec Ideal S128 .f32 → FVec Ideal S1x128 .f32) ⟨by decide, rfl⟩ ⟨by decide, rfl⟩ rfl (by decide +kernel) (by decide +kernel)
theorem val_112 (V : Valuation τ sig (Elt Ideal)) :
    after line V (Proc.devRef .tc main_v93) = broadcastInDim S50000x128 ![0, 1] bcast_S1x128_S50000x128_0_1 (after line V (Proc.devRef .tc main_v92) : FVec Ideal S1x128 .f32) :=
  unary_final hw V 112 (lt_len (by decide)) (x := main_v92) (y := main_v93) (broadcastInDim S50000x128 ![0, 1] bcast_S1x128_S50000x128_0_1 : FVec Ideal S1x128 .f32 → FVec Ideal S50000x128 .f32) ⟨by decide, rfl⟩ ⟨by decide, rfl⟩ rfl (by decide +kernel) (by decide +kernel)
theorem val_113 (V : Valuation τ sig (Elt Ideal)) :
    after line V (Proc.devRef .tc main_v94) = addf (F := Ideal) (φ := .f32) (after line V (Proc.devRef .tc main_v89) : FVec Ideal S50000x128 .f32) (after line V (Proc.devRef .tc main_v93) : FVec Ideal S50000x128 .f32) :=
  binary_final hw V 113 (lt_len (by decide)) (a := main_v89) (b := main_v93) (y := main_v94) (addf (F := Ideal) : FVec Ideal S50000x128 .f32 → FVec Ideal S50000x128 .f32 → FVec Ideal S50000x128 .f32) ⟨by decide, rfl⟩ ⟨by decide, rfl⟩ ⟨by decide, rfl⟩ rfl (by decide +kernel) (by decide +kernel) (by decide +kernel)
theorem val_114 (V : Valuation τ sig (Elt Ideal)) :
    after line V (Proc.devRef .tc main_call5_cst) = constant (F := Ideal) S_ .f32 0x00000000#32 :=
  nullary_final hw V 114 (lt_len (by decide)) (y := main_call5_cst) (constant (F := Ideal) S_ .f32 0x00000000#32 : FVec Ideal S_ .f32) ⟨by decide, rfl⟩ rfl (by decide +kernel)
theorem val_115 (V : Valuation τ sig (Elt Ideal)) :
    after line V (Proc.devRef .tc main_call5_v0) = broadcastInDim S50000x128 ![] bcast_S_S50000x128 (after line V (Proc.devRef .tc main_call5_cst) : FVec Ideal S_ .f32) :=
  unary_final hw V 115 (lt_len (by decide)) (x := main_call5_cst) (y := main_call5_v0) (broadcastInDim S50000x128 ![] bcast_S_S50000x128 : FVec Ideal S_ .f32 → FVec Ideal S50000x128 .f32) ⟨by decide, rfl⟩ ⟨by decide, rfl⟩ rfl (by decide +kernel) (by decide +kernel)
theorem val_116 (V : Valuation τ sig (Elt Ideal)) :
    after line V (Proc.devRef .tc main_v95) = maximumf (F := Ideal) (φ := .f32) (after line V (Proc.devRef .tc main_v94) : FVec Ideal S50000x128 .f32) (after line V (Proc.devRef .tc main_call5_v0) : FVec Ideal S50000x128 .f32) :=
  binary_final hw V 116 (lt_len (by decide)) (a := main_v94) (b := main_call5_v0) (y := main_v95) (maximumf (F := Ideal) : FVec Ideal S50000x128 .f32 → FVec Ideal S50000x128 .f32 → FVec Ideal S50000x128 .f32) ⟨by decide, rfl⟩ ⟨by decide, rfl⟩ ⟨by decide, rfl⟩ rfl (by decide +kernel) (by decide +kernel) (by decide +kernel)
theorem val_117 (V : Valuation τ sig (Elt Ideal)) :
    after line V (Proc.devRef .tc main_c_7) = constantI S_ 32 0#32 :=
  nullary_final hw V 117 (lt_len (by decide)) (y := main_c_7) (constantI S_ 32 0#32 : IVec S_ 32) ⟨by decide, rfl⟩ rfl (by decide +kernel)
theorem val_118 (V : Valuation τ sig (Elt Ideal)) :
    after line V (Proc.devRef .tc main_v96) = broadcastInDim S640000 ![] bcast_S_S640000 (after line V (Proc.devRef .tc main_c_7) : IVec S_ 32) :=
  unary_final hw V 118 (lt_len (by decide)) (x := main_c_7) (y := main_v96) (broadcastInDim S640000 ![] bcast_S_S640000 : IVec S_ 32 → IVec S640000 32) ⟨by decide, rfl⟩ ⟨by decide, rfl⟩ rfl (by decide +kernel) (by decide +kernel)
theorem val_119 (V : Valuation τ sig (Elt Ideal)) :
    after line V (Proc.devRef .tc main_v97) = cmpi .slt (after line V (Proc.devRef .tc main_v1) : IVec S640000 32) (after line V (Proc.devRef .tc main_v96) : IVec S640000 32) :=
  binary_final hw V 119 (lt_len (by decide)) (a := main_v1) (b := main_v96) (y := main_v97) (cmpi .slt : IVec S640000 32 → IVec S640000 32 → IVec S640000 1) ⟨by decide, rfl⟩ ⟨by decide, rfl⟩ ⟨by decide, rfl⟩ rfl (by decide +kernel) (by decide +kernel) (by decide +kernel)
theorem val_120 (V : Valuation τ sig (Elt Ideal)) :
    after line V (Proc.devRef .tc main_c_8) = constantI S_ 32 50000#32 :=
  nullary_final hw V 120 (lt_len (by decide)) (y := main_c_8) (constantI S_ 32 50000#32 : IVec S_ 32) ⟨by decide, rfl⟩ rfl (by decide +kernel)
theorem val_121 (V : Valuation τ sig (Elt Ideal)) :
    after line V (Proc.devRef .tc main_v98) = broadcastInDim S640000 ![] bcast_S_S640000 (after line V (Proc.devRef .tc main_c_8) : IVec S_ 32) :=
  unary_final hw V 121 (lt_len (by decide)) (x := main_c_8) (y := main_v98) (broadcastInDim S640000 ![] bcast_S_S640000 : IVec S_ 32 → IVec S640000 32) ⟨by decide, rfl⟩ ⟨by decide, rfl⟩ rfl (by decide +kernel) (by decide +kernel)
theorem val_122 (V : Valuation τ sig (Elt Ideal)) :
    after line V (Proc.devRef .tc main_v99) = addi (after line V (Proc.devRef .tc main_v1) : IVec S640000 32) (after line V (Proc.devRef .tc main_v98) : IVec S640000 32) :=
  binary_final hw V 122 (lt_len (by decide)) (a := main_v1) (b := main_v98) (y := main_v99) (addi : IVec S640000 32 → IVec S640000 32 → IVec S640000 32) ⟨by decide, rfl⟩ ⟨by decide, rfl⟩ ⟨by decide, rfl⟩ rfl (by decide +kernel) (by decide +kernel) (by decide +kernel)
theorem val_123 (V : Valuation τ sig (Elt Ideal)) :
    after line V (Proc.devRef .tc main_v100) = select (after line V (Proc.devRef .tc main_v97) : IVec S640000 1) (after line V (Proc.devRef .tc main_v99) : IVec S640000 32) (after line V (Proc.devRef .tc main_v1) : IVec S640000 32) :=
  ternary_final hw V 123 (lt_len (by decide)) (c := main_v97) (a := main_v99) (b := main_v1) (y := main_v100) (select : IVec S640000 1 → IVec S640000 32 → IVec S640000 32 → IVec S640000 32) ⟨by decide, rfl⟩ ⟨by decide, rfl⟩ ⟨by decide, rfl⟩ ⟨by decide, rfl⟩ rfl (by decide +kernel) (by decide +kernel) (by decide +kernel) (by decide +kernel)
theorem val_124 (V : Valuation τ sig (Elt Ideal)) :
    after line V (Proc.devRef .tc main_v101) = broadcastInDim S640000x1 ![0] bcast_S640000_S640000x1_0 (after line V (Proc.devRef .tc main_v100) : IVec S640000 32) :=
  unary_final hw V 124 (lt_len (by decide)) (x := main_v100) (y := main_v101) (broadcastInDim S640000x1 ![0] bcast_S640000_S640000x1_0 : IVec S640000 32 → IVec S640000x1 32) ⟨by decide, rfl⟩ ⟨by decide, rfl⟩ rfl (by decide +kernel) (by decide +kernel)
theorem val_125 (V : Valuation τ sig (Elt Ideal)) :
    after line V (Proc.devRef .tc main_v102) = Host.gather gather_S50000x128_S640000x1_S640000x128_1_0_n_n_0_1_1128 (after line V (Proc.devRef .tc main_v95) : FVec Ideal S50000x128 .f32) (after line V (Proc.devRef .tc main_v101) : IVec S640000x1 32) :=
  binary_final hw V 125 (lt_len (by decide)) (a := main_v95) (b := main_v101) (y := main_v102) ((fun x i => Host.gather gather_S50000x128_S640000x1_S640000x128_1_0_n_n_0_1_1128 x i) : FVec Ideal S50000x128 .f32 → IVec S640000x1 32 → FVec Ideal S640000x128 .f32) ⟨by decide, rfl⟩ ⟨by decide, rfl⟩ ⟨by decide, rfl⟩ rfl (by decide +kernel) (by decide +kernel) (by decide +kernel)
theorem val_126 (V : Valuation τ sig (Elt Ideal)) :
    after line V (Proc.devRef .tc main_cst_9) = constant (F := Ideal) S_ .f32 0x00000000#32 :=
  nullary_final hw V 126 (lt_len (by decide)) (y := main_cst_9) (constant (F := Ideal) S_ .f32 0x00000000#32 : FVec Ideal S_ .f32) ⟨by decide, rfl⟩ rfl (by decide +kernel)
theorem val_127 (V : Valuation τ sig (Elt Ideal)) :
    after line V (Proc.devRef .tc main_v103) = broadcastInDim S50000x128 ![] bcast_S_S50000x128 (after line V (Proc.devRef .tc main_cst_9) : FVec Ideal S_ .f32) :=
  unary_final hw V 127 (lt_len (by decide)) (x := main_cst_9) (y := main_v103) (broadcastInDim S50000x128 ![] bcast_S_S50000x128 : FVec Ideal S_ .f32 → FVec Ideal S50000x128 .f32) ⟨by decide, rfl⟩ ⟨by decide, rfl⟩ rfl (by decide +kernel) (by decide +kernel)
theorem val_128 (V : Valuation τ sig (Elt Ideal)) :
    after line V (Proc.devRef .tc main_v104) = broadcastInDim S640000x1 ![0] bcast_S640000_S640000x1_0 (after line V (Proc.devRef .tc main_v3) : IVec S640000 32) :=
  unary_final hw V 128 (lt_len (by decide)) (x := main_v3) (y := main_v104) (broadcastInDim S640000x1 ![0] bcast_S640000_S640000x1_0 : IVec S640000 32 → IVec S640000x1 32) ⟨by decide, rfl⟩ ⟨by decide, rfl⟩ rfl (by decide +kernel) (by decide +kernel)
theorem val_129 (V : Valuation τ sig (Elt Ideal)) :
    after line V (Proc.devRef .tc main_v105) = Host.scatterAdd (F := Ideal) (φ := .f32) scatter_S50000x128_S640000x1_S640000x128_1_0_0_1 (after line V (Proc.devRef .tc main_v103) : FVec Ideal S50000x128 .f32) (after line V (Proc.devRef .tc main_v104) : IVec S640000x1 32) (after line V (Proc.devRef .tc main_v102) : FVec Ideal S640000x128 .f32) :=
  ternary_final hw V 129 (lt_len (by decide)) (c := main_v103) (a := main_v104) (b := main_v102) (y := main_v105) ((fun x i u => Host.scatterAdd (F := Ideal) scatter_S50000x128_S640000x1_S640000x128_1_0_0_1 x i u) : FVec Ideal S50000x128 .f32 → IVec S640000x1 32 → FVec Ideal S640000x128 .f32 → FVec Ideal S50000x128 .f32) ⟨by decide, rfl⟩ ⟨by decide, rfl⟩ ⟨by decide, rfl⟩ ⟨by decide, rfl⟩ rfl (by decide +kernel) (by decide +kernel) (by decide +kernel) (by decide +kernel)
theorem val_130 (V : Valuation τ sig (Elt Ideal)) :
    after line V (Proc.devRef .tc main_v106) = addf (F := Ideal) (φ := .f32) (after line V (Proc.devRef .tc main_v105) : FVec Ideal S50000x128 .f32) (after line V (Proc.devRef .tc main_v95) : FVec Ideal S50000x128 .f32) :=
  binary_final hw V 130 (lt_len (by decide)) (a := main_v105) (b := main_v95) (y := main_v106) (addf (F := Ideal) : FVec Ideal S50000x128 .f32 → FVec Ideal S50000x128 .f32 → FVec Ideal S50000x128 .f32) ⟨by decide, rfl⟩ ⟨by decide, rfl⟩ ⟨by decide, rfl⟩ rfl (by decide +kernel) (by decide +kernel) (by decide +kernel)
theorem val_131 (V : Valuation τ sig (Elt Ideal)) :
    after line V (Proc.devRef .tc main_v107) = extractStridedSlice S1x128x128 ![3, 0, 0] (after line V (Proc.devRef .tc main_arg8) : FVec Ideal S4x128x128 .f32) slices_S4x128x128_S1x128x128_3_0_0 :=
  unary_final hw V 131 (lt_len (by decide)) (x := main_arg8) (y := main_v107) ((extractStridedSlice S1x128x128 ![3, 0, 0] · slices_S4x128x128_S1x128x128_3_0_0) : FVec Ideal S4x128x128 .f32 → FVec Ideal S1x128x128 .f32) ⟨by decide, rfl⟩ ⟨by decide, rfl⟩ rfl (by decide +kernel) (by decide +kernel)
theorem val_132 (V : Valuation τ sig (Elt Ideal)) :
    after line V (Proc.devRef .tc main_v108) = shapeCast S128x128 (after line V (Proc.devRef .tc main_v107) : FVec Ideal S1x128x128 .f32) shapeCasts_S1x128x128_S128x128 :=
  reshape_final hw V 132 (lt_len (by decide)) (x := main_v107) (y := main_v108) rfl shapeCasts_S1x128x128_S128x128 ⟨by decide, rfl⟩ ⟨by decide, rfl⟩ rfl (by decide +kernel) (by decide +kernel)
theorem val_133 (V : Valuation τ sig (Elt Ideal)) :
    after line V (Proc.devRef .tc main_v109) = Host.dotGeneral (F := Ideal) (φ₁ := .f32) (φ₂ := .f32) dot_S50000x128_S128x128_S50000x128_1_0_0_1_n_n none (after line V (Proc.devRef .tc main_v106) : FVec Ideal S50000x128 .f32) (after line V (Proc.devRef .tc main_v108) : FVec Ideal S128x128 .f32) :=
  binary_final hw V 133 (lt_len (by decide)) (a := main_v106) (b := main_v108) (y := main_v109) ((fun l r => Host.dotGeneral (F := Ideal) dot_S50000x128_S128x128_S50000x128_1_0_0_1_n_n none l r) : FVec Ideal S50000x128 .f32 → FVec Ideal S128x128 .f32 → FVec Ideal S50000x128 .f32) ⟨by decide, rfl⟩ ⟨by decide, rfl⟩ ⟨by decide, rfl⟩ rfl (by decide +kernel) (by decide +kernel) (by decide +kernel)
theorem val_134 (V : Valuation τ sig (Elt Ideal)) :
    after line V (Proc.devRef .tc main_v110) = extractStridedSlice S1x128 ![3, 0] (after line V (Proc.devRef .tc main_arg9) : FVec Ideal S4x128 .f32) slices_S4x128_S1x128_3_0 :=
  unary_final hw V 134 (lt_len (by decide)) (x := main_arg9) (y := main_v110) ((extractStridedSlice S1x128 ![3, 0] · slices_S4x128_S1x128_3_0) : FVec Ideal S4x128 .f32 → FVec Ideal S1x128 .f32) ⟨by decide, rfl⟩ ⟨by decide, rfl⟩ rfl (by decide +kernel) (by decide +kernel)
theorem val_135 (V : Valuation τ sig (Elt Ideal)) :
    after line V (Proc.devRef .tc main_v111) = shapeCast S128 (after line V (Proc.devRef .tc main_v110) : FVec Ideal S1x128 .f32) shapeCasts_S1x128_S128 :=
  reshape_final hw V 135 (lt_len (by decide)) (x := main_v110) (y := main_v111) rfl shapeCasts_S1x128_S128 ⟨by decide, rfl⟩ ⟨by decide, rfl⟩ rfl (by decide +kernel) (by decide +kernel)
theorem val_136 (V : Valuation τ sig (Elt Ideal)) :
    after line V (Proc.devRef .tc main_v112) = broadcastInDim S1x128 ![1] bcast_S128_S1x128_1 (after line V (Proc.devRef .tc main_v111) : FVec Ideal S128 .f32) :=
  unary_final hw V 136 (lt_len (by decide)) (x := main_v111) (y := main_v112) (broadcastInDim S1x128 ![1] bcast_S128_S1x128_1 : FVec Ideal S128 .f32 → FVec Ideal S1x128 .f32) ⟨by decide, rfl⟩ ⟨by decide, rfl⟩ rfl (by decide +kernel) (by decide +kernel)
theorem val_137 (V : Valuation τ sig (Elt Ideal)) :
    after line V (Proc.devRef .tc main_v113) = broadcastInDim S50000x128 ![0, 1] bcast_S1x128_S50000x128_0_1 (after line V (Proc.devRef .tc main_v112) : FVec Ideal S1x128 .f32) :=
  unary_final hw V 137 (lt_len (by decide)) (x := main_v112) (y := main_v113) (broadcastInDim S50000x128 ![0, 1] bcast_S1x128_S50000x128_0_1 : FVec Ideal S1x128 .f32 → FVec Ideal S50000x128 .f32) ⟨by decide, rfl⟩ ⟨by decide, rfl⟩ rfl (by decide +kernel) (by decide +kernel)
theorem val_138 (V : Valuation τ sig (Elt Ideal)) :
    after line V (Proc.devRef .tc main_v114) = addf (F := Ideal) (φ := .f32) (after line V (Proc.devRef .tc main_v109) : FVec Ideal S50000x128 .f32) (after line V (Proc.devRef .tc main_v113) : FVec Ideal S50000x128 .f32) :=
  binary_final hw V 138 (lt_len (by decide)) (a := main_v109) (b := main_v113) (y := main_v114) (addf (F := Ideal) : FVec Ideal S50000x128 .f32 → FVec Ideal S50000x128 .f32 → FVec Ideal S50000x128 .f32) ⟨by decide, rfl⟩ ⟨by decide, rfl⟩ ⟨by decide, rfl⟩ rfl (by decide +kernel) (by decide +kernel) (by decide +kernel)
theorem val_139 (V : Valuation τ sig (Elt Ideal)) :
    after line V (Proc.devRef .tc main_call6_cst) = constant (F := Ideal) S_ .f32 0x00000000#32 :=
  nullary_final hw V 139 (lt_len (by decide)) (y := main_call6_cst) (constant (F := Ideal) S_ .f32 0x00000000#32 : FVec Ideal S_ .f32) ⟨by decide, rfl⟩ rfl (by decide +kernel)
theorem val_140 (V : Valuation τ sig (Elt Ideal)) :
    after line V (Proc.devRef .tc main_call6_v0) = broadcastInDim S50000x128 ![] bcast_S_S50000x128 (after line V (Proc.devRef .tc main_call6_cst) : FVec Ideal S_ .f32) :=
  unary_final hw V 140 (lt_len (by decide)) (x := main_call6_cst) (y := main_call6_v0) (broadcastInDim S50000x128 ![] bcast_S_S50000x128 : FVec Ideal S_ .f32 → FVec Ideal S50000x128 .f32) ⟨by decide, rfl⟩ ⟨by decide, rfl⟩ rfl (by decide +kernel) (by decide +kernel)
theorem val_141 (V : Valuation τ sig (Elt Ideal)) :
    after line V (Proc.devRef .tc main_v115) = maximumf (F := Ideal) (φ := .f32) (after line V (Proc.devRef .tc main_v114) : FVec Ideal S50000x128 .f32) (after line V (Proc.devRef .tc main_call6_v0) : FVec Ideal S50000x128 .f32) :=
  binary_final hw V 141 (lt_len (by decide)) (a := main_v114) (b := main_call6_v0) (y := main_v115) (maximumf (F := Ideal) : FVec Ideal S50000x128 .f32 → FVec Ideal S50000x128 .f32 → FVec Ideal S50000x128 .f32) ⟨by decide, rfl⟩ ⟨by decide, rfl⟩ ⟨by decide, rfl⟩ rfl (by decide +kernel) (by decide +kernel) (by decide +kernel)
theorem val_142 (V : Valuation τ sig (Elt Ideal)) :
    after line V (Proc.devRef .tc main_v116) = extractStridedSlice S1x128x128 ![3, 0, 0] (after line V (Proc.devRef .tc main_arg10) : FVec Ideal S4x128x128 .f32) slices_S4x128x128_S1x128x128_3_0_0 :=
  unary_final hw V 142 (lt_len (by decide)) (x := main_arg10) (y := main_v116) ((extractStridedSlice S1x128x128 ![3, 0, 0] · slices_S4x128x128_S1x128x128_3_0_0) : FVec Ideal S4x128x128 .f32 → FVec Ideal S1x128x128 .f32) ⟨by decide, rfl⟩ ⟨by decide, rfl⟩ rfl (by decide +kernel) (by decide +kernel)
theorem val_143 (V : Valuation τ sig (Elt Ideal)) :
    after line V (Proc.devRef .tc main_v117) = shapeCast S128x128 (after line V (Proc.devRef .tc main_v116) : FVec Ideal S1x128x128 .f32) shapeCasts_S1x128x128_S128x128 :=
  reshape_final hw V 143 (lt_len (by decide)) (x := main_v116) (y := main_v117) rfl shapeCasts_S1x128x128_S128x128 ⟨by decide, rfl⟩ ⟨by decide, rfl⟩ rfl (by decide +kernel) (by decide +kernel)
theorem val_144 (V : Valuation τ sig (Elt Ideal)) :
    after line V (Proc.devRef .tc main_v118) = Host.dotGeneral (F := Ideal) (φ₁ := .f32) (φ₂ := .f32) dot_S50000x128_S128x128_S50000x128_1_0_0_1_n_n none (after line V (Proc.devRef .tc main_v115) : FVec Ideal S50000x128 .f32) (after line V (Proc.devRef .tc main_v117) : FVec Ideal S128x128 .f32) :=
  binary_final hw V 144 (lt_len (by decide)) (a := main_v115) (b := main_v117) (y := main_v118) ((fun l r => Host.dotGeneral (F := Ideal) dot_S50000x128_S128x128_S50000x128_1_0_0_1_n_n none l r) : FVec Ideal S50000x128 .f32 → FVec Ideal S128x128 .f32 → FVec Ideal S50000x128 .f32) ⟨by decide, rfl⟩ ⟨by decide, rfl⟩ ⟨by decide, rfl⟩ rfl (by decide +kernel) (by decide +kernel) (by decide +kernel)
theorem val_145 (V : Valuation τ sig (Elt Ideal)) :
    after line V (Proc.devRef .tc main_v119) = extractStridedSlice S1x128 ![3, 0] (after line V (Proc.devRef .tc main_arg11) : FVec Ideal S4x128 .f32) slices_S4x128_S1x128_3_0 :=
  unary_final hw V 145 (lt_len (by decide)) (x := main_arg11) (y := main_v119) ((extractStridedSlice S1x128 ![3, 0] · slices_S4x128_S1x128_3_0) : FVec Ideal S4x128 .f32 → FVec Ideal S1x128 .f32) ⟨by decide, rfl⟩ ⟨by decide, rfl⟩ rfl (by decide +kernel) (by decide +kernel)
theorem val_146 (V : Valuation τ sig (Elt Ideal)) :
    after line V (Proc.devRef .tc main_v120) = shapeCast S128 (after line V (Proc.devRef .tc main_v119) : FVec Ideal S1x128 .f32) shapeCasts_S1x128_S128 :=
  reshape_final hw V 146 (lt_len (by decide)) (x := main_v119) (y := main_v120) rfl shapeCasts_S1x128_S128 ⟨by decide, rfl⟩ ⟨by decide, rfl⟩ rfl (by decide +kernel) (by decide +kernel)
theorem val_147 (V : Valuation τ sig (Elt Ideal)) :
    after line V (Proc.devRef .tc main_v121) = broadcastInDim S1x128 ![1] bcast_S128_S1x128_1 (after line V (Proc.devRef .tc main_v120) : FVec Ideal S128 .f32) :=
  unary_final hw V 147 (lt_len (by decide)) (x := main_v120) (y := main_v121) (broadcastInDim S1x128 ![1] bcast_S128_S1x128_1 : FVec Ideal S128 .f32 → FVec Ideal S1x128 .f32) ⟨by decide, rfl⟩ ⟨by decide, rfl⟩ rfl (by decide +kernel) (by decide +kernel)
theorem val_148 (V : Valuation τ sig (Elt Ideal)) :
    after line V (Proc.devRef .tc main_v122) = broadcastInDim S50000x128 ![0, 1] bcast_S1x128_S50000x128_0_1 (after line V (Proc.devRef .tc main_v121) : FVec Ideal S1x128 .f32) :=
  unary_final hw V 148 (lt_len (by decide)) (x := main_v121) (y := main_v122) (broadcastInDim S50000x128 ![0, 1] bcast_S1x128_S50000x128_0_1 : FVec Ideal S1x128 .f32 → FVec Ideal S50000x128 .f32) ⟨by decide, rfl⟩ ⟨by decide, rfl⟩ rfl (by decide +kernel) (by decide +kernel)
theorem val_149 (V : Valuation τ sig (Elt Ideal)) :
    after line V (Proc.devRef .tc main_v123) = addf (F := Ideal) (φ := .f32) (after line V (Proc.devRef .tc main_v118) : FVec Ideal S50000x128 .f32) (after line V (Proc.devRef .tc main_v122) : FVec Ideal S50000x128 .f32) :=
  binary_final hw V 149 (lt_len (by decide)) (a := main_v118) (b := main_v122) (y := main_v123) (addf (F := Ideal) : FVec Ideal S50000x128 .f32 → FVec Ideal S50000x128 .f32 → FVec Ideal S50000x128 .f32) ⟨by decide, rfl⟩ ⟨by decide, rfl⟩ ⟨by decide, rfl⟩ rfl (by decide +kernel) (by decide +kernel) (by decide +kernel)
theorem val_150 (V : Valuation τ sig (Elt Ideal)) :
    after line V (Proc.devRef .tc main_v124) = addf (F := Ideal) (φ := .f32) (after line V (Proc.devRef .tc main_v123) : FVec Ideal S50000x128 .f32) (after line V (Proc.devRef .tc main_v65) : FVec Ideal S50000x128 .f32) :=
  binary_final hw V 150 (lt_len (by decide)) (a := main_v123) (b := main_v65) (y := main_v124) (addf (F := Ideal) : FVec Ideal S50000x128 .f32 → FVec Ideal S50000x128 .f32 → FVec Ideal S50000x128 .f32) ⟨by decide, rfl⟩ ⟨by decide, rfl⟩ ⟨by decide, rfl⟩ rfl (by decide +kernel) (by decide +kernel) (by decide +kernel)
theorem val_151 (V : Valuation τ sig (Elt Ideal)) :
    after line V (Proc.devRef .tc main_call7_cst) = constant (F := Ideal) S_ .f32 0x00000000#32 :=
  nullary_final hw V 151 (lt_len (by decide)) (y := main_call7_cst) (constant (F := Ideal) S_ .f32 0x00000000#32 : FVec Ideal S_ .f32) ⟨by decide, rfl⟩ rfl (by decide +kernel)
theorem val_152 (V : Valuation τ sig (Elt Ideal)) :
    after line V (Proc.devRef .tc main_call7_v0) = broadcastInDim S50000x128 ![] bcast_S_S50000x128 (after line V (Proc.devRef .tc main_call7_cst) : FVec Ideal S_ .f32) :=
  unary_final hw V 152 (lt_len (by decide)) (x := main_call7_cst) (y := main_call7_v0) (broadcastInDim S50000x128 ![] bcast_S_S50000x128 : FVec Ideal S_ .f32 → FVec Ideal S50000x128 .f32) ⟨by decide, rfl⟩ ⟨by decide, rfl⟩ rfl (by decide +kernel) (by decide +kernel)
theorem val_153 (V : Valuation τ sig (Elt Ideal)) :
    after line V (Proc.devRef .tc main_v125) = maximumf (F := Ideal) (φ := .f32) (after line V (Proc.devRef .tc main_v124) : FVec Ideal S50000x128 .f32) (after line V (Proc.devRef .tc main_call7_v0) : FVec Ideal S50000x128 .f32) :=
  binary_final hw V 153 (lt_len (by decide)) (a := main_v124) (b := main_call7_v0) (y := main_v125) (maximumf (F := Ideal) : FVec Ideal S50000x128 .f32 → FVec Ideal S50000x128 .f32 → FVec Ideal S50000x128 .f32) ⟨by decide, rfl⟩ ⟨by decide, rfl⟩ ⟨by decide, rfl⟩ rfl (by decide +kernel) (by decide +kernel) (by decide +kernel)
theorem val_154 (V : Valuation τ sig (Elt Ideal)) :
    after line V (Proc.devRef .tc main_v126) = concatenate S50000x640 1 [⟨S50000x128, (after line V (Proc.devRef .tc main_v7) : FVec Ideal S50000x128 .f32)⟩, ⟨S50000x128, (after line V (Proc.devRef .tc main_v36) : FVec Ideal S50000x128 .f32)⟩, ⟨S50000x128, (after line V (Proc.devRef .tc main_v66) : FVec Ideal S50000x128 .f32)⟩, ⟨S50000x128, (after line V (Proc.devRef .tc main_v95) : FVec Ideal S50000x128 .f32)⟩, ⟨S50000x128, (after line V (Proc.devRef .tc main_v125) : FVec Ideal S50000x128 .f32)⟩] concatenates_S50000x128_S50000x128_S50000x128_S50000x128_S50000x128_S50000x640_d1 :=
  (nary_final hw V 154 (lt_len (by decide)) (xs := ![main_v7, main_v36, main_v66, main_v95, main_v125]) (y := main_v126) ((fun u => concatenate S50000x640 1 [⟨S50000x128, u 0⟩, ⟨S50000x128, u 1⟩, ⟨S50000x128, u 2⟩, ⟨S50000x128, u 3⟩, ⟨S50000x128, u 4⟩] concatenates_S50000x128_S50000x128_S50000x128_S50000x128_S50000x128_S50000x640_d1)) (by decide) ⟨by decide, rfl⟩ rfl (by decide +kernel) (by decide +kernel)).trans rfl
theorem val_155 (V : Valuation τ sig (Elt Ideal)) :
    after line V (Proc.devRef .tc main_cst_10) = constant (F := Ideal) S_ .f32 0x00000000#32 :=
  nullary_final hw V 155 (lt_len (by decide)) (y := main_cst_10) (constant (F := Ideal) S_ .f32 0x00000000#32 : FVec Ideal S_ .f32) ⟨by decide, rfl⟩ rfl (by decide +kernel)
theorem val_156 (V : Valuation τ sig (Elt Ideal)) :
    after line V (Proc.devRef .tc main_v127) = broadcastInDim S1000x640 ![] bcast_S_S1000x640 (after line V (Proc.devRef .tc main_cst_10) : FVec Ideal S_ .f32) :=
  unary_final hw V 156 (lt_len (by decide)) (x := main_cst_10) (y := main_v127) (broadcastInDim S1000x640 ![] bcast_S_S1000x640 : FVec Ideal S_ .f32 → FVec Ideal S1000x640 .f32) ⟨by decide, rfl⟩ ⟨by decide, rfl⟩ rfl (by decide +kernel) (by decide +kernel)
theorem val_157 (V : Valuation τ sig (Elt Ideal)) :
    after line V (Proc.devRef .tc main_v128) = broadcastInDim S50000x1 ![0] bcast_S50000_S50000x1_0 (after line V (Proc.devRef .tc main_arg2) : IVec S50000 32) :=
  unary_final hw V 157 (lt_len (by decide)) (x := main_arg2) (y := main_v128) (broadcastInDim S50000x1 ![0] bcast_S50000_S50000x1_0 : IVec S50000 32 → IVec S50000x1 32) ⟨by decide, rfl⟩ ⟨by decide, rfl⟩ rfl (by decide +kernel) (by decide +kernel)
theorem val_158 (V : Valuation τ sig (Elt Ideal)) :
    after line V (Proc.devRef .tc main_v129) = Host.scatterAdd (F := Ideal) (φ := .f32) scatter_S1000x640_S50000x1_S50000x640_1_0_0_1 (after line V (Proc.devRef .tc main_v127) : FVec Ideal S1000x640 .f32) (after line V (Proc.devRef .tc main_v128) : IVec S50000x1 32) (after line V (Proc.devRef .tc main_v126) : FVec Ideal S50000x640 .f32) :=
  ternary_final hw V 158 (lt_len (by decide)) (c := main_v127) (a := main_v128) (b := main_v126) (y := main_v129) ((fun x i u => Host.scatterAdd (F := Ideal) scatter_S1000x640_S50000x1_S50000x640_1_0_0_1 x i u) : FVec Ideal S1000x640 .f32 → IVec S50000x1 32 → FVec Ideal S50000x640 .f32 → FVec Ideal S1000x640 .f32) ⟨by decide, rfl⟩ ⟨by decide, rfl⟩ ⟨by decide, rfl⟩ ⟨by decide, rfl⟩ rfl (by decide +kernel) (by decide +kernel) (by decide +kernel) (by decide +kernel)
theorem val_159 (V : Valuation τ sig (Elt Ideal)) :
    after line V (Proc.devRef .tc main_v130) = Host.dotGeneral (F := Ideal) (φ₁ := .f32) (φ₂ := .f32) dot_S1000x640_S640x128_S1000x128_1_0_0_1_n_n none (after line V (Proc.devRef .tc main_v129) : FVec Ideal S1000x640 .f32) (after line V (Proc.devRef .tc main_arg12) : FVec Ideal S640x128 .f32) :=
  binary_final hw V 159 (lt_len (by decide)) (a := main_v129) (b := main_arg12) (y := main_v130) ((fun l r => Host.dotGeneral (F := Ideal) dot_S1000x640_S640x128_S1000x128_1_0_0_1_n_n none l r) : FVec Ideal S1000x640 .f32 → FVec Ideal S640x128 .f32 → FVec Ideal S1000x128 .f32) ⟨by decide, rfl⟩ ⟨by decide, rfl⟩ ⟨by decide, rfl⟩ rfl (by decide +kernel) (by decide +kernel) (by decide +kernel)

end Cert.RefVal

end
-- ==== Proof.RefVal2.lean ====
import proofs.«106875_j87694642250037_1_alg».proof.Proof.RefLine

/-!
# The reference's operations 160 … 239, each read over the line's final values

One equation per operation: the line's final contents at the operation's result buffer are its function of the
final contents at its operand buffers.
-/

noncomputable section

namespace Cert.RefVal

open Cert.ReferenceIdeal Cert.ReferenceIdeal.Gen Cert.RefOps Cert.LineRead Idealize.ShloMosaic Idealize.ShloMosaic.TcCoe Idealize.SL.Sem Idealize.ShloMosaic.StableHlo Cert.RefLine

theorem val_160 (V : Valuation τ sig (Elt Ideal)) :
    after line V (Proc.devRef .tc main_v131) = broadcastInDim S1x128 ![1] bcast_S128_S1x128_1 (after line V (Proc.devRef .tc main_arg13) : FVec Ideal S128 .f32) :=
  unary_final hw V 160 (lt_len (by decide)) (x := main_arg13) (y := main_v131) (broadcastInDim S1x128 ![1] bcast_S128_S1x128_1 : FVec Ideal S128 .f32 → FVec Ideal S1x128 .f32) ⟨by decide, rfl⟩ ⟨by decide, rfl⟩ rfl (by decide +kernel) (by decide +kernel)
theorem val_161 (V : Valuation τ sig (Elt Ideal)) :
    after line V (Proc.devRef .tc main_v132) = broadcastInDim S1000x128 ![0, 1] bcast_S1x128_S1000x128_0_1 (after line V (Proc.devRef .tc main_v131) : FVec Ideal S1x128 .f32) :=
  unary_final hw V 161 (lt_len (by decide)) (x := main_v131) (y := main_v132) (broadcastInDim S1000x128 ![0, 1] bcast_S1x128_S1000x128_0_1 : FVec Ideal S1x128 .f32 → FVec Ideal S1000x128 .f32) ⟨by decide, rfl⟩ ⟨by decide, rfl⟩ rfl (by decide +kernel) (by decide +kernel)
theorem val_162 (V : Valuation τ sig (Elt Ideal)) :
    after line V (Proc.devRef .tc main_v133) = addf (F := Ideal) (φ := .f32) (after line V (Proc.devRef .tc main_v130) : FVec Ideal S1000x128 .f32) (after line V (Proc.devRef .tc main_v132) : FVec Ideal S1000x128 .f32) :=
  binary_final hw V 162 (lt_len (by decide)) (a := main_v130) (b := main_v132) (y := main_v133) (addf (F := Ideal) : FVec Ideal S1000x128 .f32 → FVec Ideal S1000x128 .f32 → FVec Ideal S1000x128 .f32) ⟨by decide, rfl⟩ ⟨by decide, rfl⟩ ⟨by decide, rfl⟩ rfl (by decide +kernel) (by decide +kernel) (by decide +kernel)
theorem val_163 (V : Valuation τ sig (Elt Ideal)) :
    after line V (Proc.devRef .tc main_call8_cst) = constant (F := Ideal) S_ .f32 0x00000000#32 :=
  nullary_final hw V 163 (lt_len (by decide)) (y := main_call8_cst) (constant (F := Ideal) S_ .f32 0x00000000#32 : FVec Ideal S_ .f32) ⟨by decide, rfl⟩ rfl (by decide +kernel)
theorem val_164 (V : Valuation τ sig (Elt Ideal)) :
    after line V (Proc.devRef .tc main_call8_v0) = broadcastInDim S1000x128 ![] bcast_S_S1000x128 (after line V (Proc.devRef .tc main_call8_cst) : FVec Ideal S_ .f32) :=
  unary_final hw V 164 (lt_len (by decide)) (x := main_call8_cst) (y := main_call8_v0) (broadcastInDim S1000x128 ![] bcast_S_S1000x128 : FVec Ideal S_ .f32 → FVec Ideal S1000x128 .f32) ⟨by decide, rfl⟩ ⟨by decide, rfl⟩ rfl (by decide +kernel) (by decide +kernel)
theorem val_165 (V : Valuation τ sig (Elt Ideal)) :
    after line V (Proc.devRef .tc main_v134) = maximumf (F := Ideal) (φ := .f32) (after line V (Proc.devRef .tc main_v133) : FVec Ideal S1000x128 .f32) (after line V (Proc.devRef .tc main_call8_v0) : FVec Ideal S1000x128 .f32) :=
  binary_final hw V 165 (lt_len (by decide)) (a := main_v133) (b := main_call8_v0) (y := main_v134) (maximumf (F := Ideal) : FVec Ideal S1000x128 .f32 → FVec Ideal S1000x128 .f32 → FVec Ideal S1000x128 .f32) ⟨by decide, rfl⟩ ⟨by decide, rfl⟩ ⟨by decide, rfl⟩ rfl (by decide +kernel) (by decide +kernel) (by decide +kernel)
theorem val_166 (V : Valuation τ sig (Elt Ideal)) :
    after line V (Proc.devRef .tc main_v135) = Host.dotGeneral (F := Ideal) (φ₁ := .f32) (φ₂ := .f32) dot_S1000x128_S128x128_S1000x128_1_0_0_1_n_n none (after line V (Proc.devRef .tc main_v134) : FVec Ideal S1000x128 .f32) (after line V (Proc.devRef .tc main_arg14) : FVec Ideal S128x128 .f32) :=
  binary_final hw V 166 (lt_len (by decide)) (a := main_v134) (b := main_arg14) (y := main_v135) ((fun l r => Host.dotGeneral (F := Ideal) dot_S1000x128_S128x128_S1000x128_1_0_0_1_n_n none l r) : FVec Ideal S1000x128 .f32 → FVec Ideal S128x128 .f32 → FVec Ideal S1000x128 .f32) ⟨by decide, rfl⟩ ⟨by decide, rfl⟩ ⟨by decide, rfl⟩ rfl (by decide +kernel) (by decide +kernel) (by decide +kernel)
theorem val_167 (V : Valuation τ sig (Elt Ideal)) :
    after line V (Proc.devRef .tc main_v136) = broadcastInDim S1x128 ![1] bcast_S128_S1x128_1 (after line V (Proc.devRef .tc main_arg15) : FVec Ideal S128 .f32) :=
  unary_final hw V 167 (lt_len (by decide)) (x := main_arg15) (y := main_v136) (broadcastInDim S1x128 ![1] bcast_S128_S1x128_1 : FVec Ideal S128 .f32 → FVec Ideal S1x128 .f32) ⟨by decide, rfl⟩ ⟨by decide, rfl⟩ rfl (by decide +kernel) (by decide +kernel)
theorem val_168 (V : Valuation τ sig (Elt Ideal)) :
    after line V (Proc.devRef .tc main_v137) = broadcastInDim S1000x128 ![0, 1] bcast_S1x128_S1000x128_0_1 (after line V (Proc.devRef .tc main_v136) : FVec Ideal S1x128 .f32) :=
  unary_final hw V 168 (lt_len (by decide)) (x := main_v136) (y := main_v137) (broadcastInDim S1000x128 ![0, 1] bcast_S1x128_S1000x128_0_1 : FVec Ideal S1x128 .f32 → FVec Ideal S1000x128 .f32) ⟨by decide, rfl⟩ ⟨by decide, rfl⟩ rfl (by decide +kernel) (by decide +kernel)
theorem val_169 (V : Valuation τ sig (Elt Ideal)) :
    after line V (Proc.devRef .tc main_v138) = addf (F := Ideal) (φ := .f32) (after line V (Proc.devRef .tc main_v135) : FVec Ideal S1000x128 .f32) (after line V (Proc.devRef .tc main_v137) : FVec Ideal S1000x128 .f32) :=
  binary_final hw V 169 (lt_len (by decide)) (a := main_v135) (b := main_v137) (y := main_v138) (addf (F := Ideal) : FVec Ideal S1000x128 .f32 → FVec Ideal S1000x128 .f32 → FVec Ideal S1000x128 .f32) ⟨by decide, rfl⟩ ⟨by decide, rfl⟩ ⟨by decide, rfl⟩ rfl (by decide +kernel) (by decide +kernel) (by decide +kernel)
theorem val_170 (V : Valuation τ sig (Elt Ideal)) :
    after line V (Proc.devRef .tc main_v139) = extractStridedSlice S1x640000 ![0, 0] (after line V (Proc.devRef .tc main_arg4) : IVec S2x640000 32) slices_S2x640000_S1x640000_0_0 :=
  unary_final hw V 170 (lt_len (by decide)) (x := main_arg4) (y := main_v139) ((extractStridedSlice S1x640000 ![0, 0] · slices_S2x640000_S1x640000_0_0) : IVec S2x640000 32 → IVec S1x640000 32) ⟨by decide, rfl⟩ ⟨by decide, rfl⟩ rfl (by decide +kernel) (by decide +kernel)
theorem val_171 (V : Valuation τ sig (Elt Ideal)) :
    after line V (Proc.devRef .tc main_v140) = shapeCast S640000 (after line V (Proc.devRef .tc main_v139) : IVec S1x640000 32) shapeCasts_S1x640000_S640000 :=
  reshape_final hw V 171 (lt_len (by decide)) (x := main_v139) (y := main_v140) rfl shapeCasts_S1x640000_S640000 ⟨by decide, rfl⟩ ⟨by decide, rfl⟩ rfl (by decide +kernel) (by decide +kernel)
theorem val_172 (V : Valuation τ sig (Elt Ideal)) :
    after line V (Proc.devRef .tc main_v141) = extractStridedSlice S1x640000 ![1, 0] (after line V (Proc.devRef .tc main_arg4) : IVec S2x640000 32) slices_S2x640000_S1x640000_1_0 :=
  unary_final hw V 172 (lt_len (by decide)) (x := main_arg4) (y := main_v141) ((extractStridedSlice S1x640000 ![1, 0] · slices_S2x640000_S1x640000_1_0) : IVec S2x640000 32 → IVec S1x640000 32) ⟨by decide, rfl⟩ ⟨by decide, rfl⟩ rfl (by decide +kernel) (by decide +kernel)
theorem val_173 (V : Valuation τ sig (Elt Ideal)) :
    after line V (Proc.devRef .tc main_v142) = shapeCast S640000 (after line V (Proc.devRef .tc main_v141) : IVec S1x640000 32) shapeCasts_S1x640000_S640000 :=
  reshape_final hw V 173 (lt_len (by decide)) (x := main_v141) (y := main_v142) rfl shapeCasts_S1x640000_S640000 ⟨by decide, rfl⟩ ⟨by decide, rfl⟩ rfl (by decide +kernel) (by decide +kernel)
theorem val_174 (V : Valuation τ sig (Elt Ideal)) :
    after line V (Proc.devRef .tc main_v143) = Host.dotGeneral (F := Ideal) (φ₁ := .f32) (φ₂ := .f32) dot_S50000x32_S32x128_S50000x128_1_0_0_1_n_n none (after line V (Proc.devRef .tc main_arg3) : FVec Ideal S50000x32 .f32) (after line V (Proc.devRef .tc main_arg6) : FVec Ideal S32x128 .f32) :=
  binary_final hw V 174 (lt_len (by decide)) (a := main_arg3) (b := main_arg6) (y := main_v143) ((fun l r => Host.dotGeneral (F := Ideal) dot_S50000x32_S32x128_S50000x128_1_0_0_1_n_n none l r) : FVec Ideal S50000x32 .f32 → FVec Ideal S32x128 .f32 → FVec Ideal S50000x128 .f32) ⟨by decide, rfl⟩ ⟨by decide, rfl⟩ ⟨by decide, rfl⟩ rfl (by decide +kernel) (by decide +kernel) (by decide +kernel)
theorem val_175 (V : Valuation τ sig (Elt Ideal)) :
    after line V (Proc.devRef .tc main_v144) = broadcastInDim S1x128 ![1] bcast_S128_S1x128_1 (after line V (Proc.devRef .tc main_arg7) : FVec Ideal S128 .f32) :=
  unary_final hw V 175 (lt_len (by decide)) (x := main_arg7) (y := main_v144) (broadcastInDim S1x128 ![1] bcast_S128_S1x128_1 : FVec Ideal S128 .f32 → FVec Ideal S1x128 .f32) ⟨by decide, rfl⟩ ⟨by decide, rfl⟩ rfl (by decide +kernel) (by decide +kernel)
theorem val_176 (V : Valuation τ sig (Elt Ideal)) :
    after line V (Proc.devRef .tc main_v145) = broadcastInDim S50000x128 ![0, 1] bcast_S1x128_S50000x128_0_1 (after line V (Proc.devRef .tc main_v144) : FVec Ideal S1x128 .f32) :=
  unary_final hw V 176 (lt_len (by decide)) (x := main_v144) (y := main_v145) (broadcastInDim S50000x128 ![0, 1] bcast_S1x128_S50000x128_0_1 : FVec Ideal S1x128 .f32 → FVec Ideal S50000x128 .f32) ⟨by decide, rfl⟩ ⟨by decide, rfl⟩ rfl (by decide +kernel) (by decide +kernel)
theorem val_177 (V : Valuation τ sig (Elt Ideal)) :
    after line V (Proc.devRef .tc main_v146) = addf (F := Ideal) (φ := .f32) (after line V (Proc.devRef .tc main_v143) : FVec Ideal S50000x128 .f32) (after line V (Proc.devRef .tc main_v145) : FVec Ideal S50000x128 .f32) :=
  binary_final hw V 177 (lt_len (by decide)) (a := main_v143) (b := main_v145) (y := main_v146) (addf (F := Ideal) : FVec Ideal S50000x128 .f32 → FVec Ideal S50000x128 .f32 → FVec Ideal S50000x128 .f32) ⟨by decide, rfl⟩ ⟨by decide, rfl⟩ ⟨by decide, rfl⟩ rfl (by decide +kernel) (by decide +kernel) (by decide +kernel)
theorem val_178 (V : Valuation τ sig (Elt Ideal)) :
    after line V (Proc.devRef .tc main_c_11) = constantI S_ 32 0#32 :=
  nullary_final hw V 178 (lt_len (by decide)) (y := main_c_11) (constantI S_ 32 0#32 : IVec S_ 32) ⟨by decide, rfl⟩ rfl (by decide +kernel)
theorem val_179 (V : Valuation τ sig (Elt Ideal)) :
    after line V (Proc.devRef .tc main_v147) = broadcastInDim S640000 ![] bcast_S_S640000 (after line V (Proc.devRef .tc main_c_11) : IVec S_ 32) :=
  unary_final hw V 179 (lt_len (by decide)) (x := main_c_11) (y := main_v147) (broadcastInDim S640000 ![] bcast_S_S640000 : IVec S_ 32 → IVec S640000 32) ⟨by decide, rfl⟩ ⟨by decide, rfl⟩ rfl (by decide +kernel) (by decide +kernel)
theorem val_180 (V : Valuation τ sig (Elt Ideal)) :
    after line V (Proc.devRef .tc main_v148) = cmpi .slt (after line V (Proc.devRef .tc main_v140) : IVec S640000 32) (after line V (Proc.devRef .tc main_v147) : IVec S640000 32) :=
  binary_final hw V 180 (lt_len (by decide)) (a := main_v140) (b := main_v147) (y := main_v148) (cmpi .slt : IVec S640000 32 → IVec S640000 32 → IVec S640000 1) ⟨by decide, rfl⟩ ⟨by decide, rfl⟩ ⟨by decide, rfl⟩ rfl (by decide +kernel) (by decide +kernel) (by decide +kernel)
theorem val_181 (V : Valuation τ sig (Elt Ideal)) :
    after line V (Proc.devRef .tc main_c_12) = constantI S_ 32 50000#32 :=
  nullary_final hw V 181 (lt_len (by decide)) (y := main_c_12) (constantI S_ 32 50000#32 : IVec S_ 32) ⟨by decide, rfl⟩ rfl (by decide +kernel)
theorem val_182 (V : Valuation τ sig (Elt Ideal)) :
    after line V (Proc.devRef .tc main_v149) = broadcastInDim S640000 ![] bcast_S_S640000 (after line V (Proc.devRef .tc main_c_12) : IVec S_ 32) :=
  unary_final hw V 182 (lt_len (by decide)) (x := main_c_12) (y := main_v149) (broadcastInDim S640000 ![] bcast_S_S640000 : IVec S_ 32 → IVec S640000 32) ⟨by decide, rfl⟩ ⟨by decide, rfl⟩ rfl (by decide +kernel) (by decide +kernel)
theorem val_183 (V : Valuation τ sig (Elt Ideal)) :
    after line V (Proc.devRef .tc main_v150) = addi (after line V (Proc.devRef .tc main_v140) : IVec S640000 32) (after line V (Proc.devRef .tc main_v149) : IVec S640000 32) :=
  binary_final hw V 183 (lt_len (by decide)) (a := main_v140) (b := main_v149) (y := main_v150) (addi : IVec S640000 32 → IVec S640000 32 → IVec S640000 32) ⟨by decide, rfl⟩ ⟨by decide, rfl⟩ ⟨by decide, rfl⟩ rfl (by decide +kernel) (by decide +kernel) (by decide +kernel)
theorem val_184 (V : Valuation τ sig (Elt Ideal)) :
    after line V (Proc.devRef .tc main_v151) = select (after line V (Proc.devRef .tc main_v148) : IVec S640000 1) (after line V (Proc.devRef .tc main_v150) : IVec S640000 32) (after line V (Proc.devRef .tc main_v140) : IVec S640000 32) :=
  ternary_final hw V 184 (lt_len (by decide)) (c := main_v148) (a := main_v150) (b := main_v140) (y := main_v151) (select : IVec S640000 1 → IVec S640000 32 → IVec S640000 32 → IVec S640000 32) ⟨by decide, rfl⟩ ⟨by decide, rfl⟩ ⟨by decide, rfl⟩ ⟨by decide, rfl⟩ rfl (by decide +kernel) (by decide +kernel) (by decide +kernel) (by decide +kernel)
theorem val_185 (V : Valuation τ sig (Elt Ideal)) :
    after line V (Proc.devRef .tc main_v152) = broadcastInDim S640000x1 ![0] bcast_S640000_S640000x1_0 (after line V (Proc.devRef .tc main_v151) : IVec S640000 32) :=
  unary_final hw V 185 (lt_len (by decide)) (x := main_v151) (y := main_v152) (broadcastInDim S640000x1 ![0] bcast_S640000_S640000x1_0 : IVec S640000 32 → IVec S640000x1 32) ⟨by decide, rfl⟩ ⟨by decide, rfl⟩ rfl (by decide +kernel) (by decide +kernel)
theorem val_186 (V : Valuation τ sig (Elt Ideal)) :
    after line V (Proc.devRef .tc main_v153) = Host.gather gather_S50000x128_S640000x1_S640000x128_1_0_n_n_0_1_1128 (after line V (Proc.devRef .tc main_v146) : FVec Ideal S50000x128 .f32) (after line V (Proc.devRef .tc main_v152) : IVec S640000x1 32) :=
  binary_final hw V 186 (lt_len (by decide)) (a := main_v146) (b := main_v152) (y := main_v153) ((fun x i => Host.gather gather_S50000x128_S640000x1_S640000x128_1_0_n_n_0_1_1128 x i) : FVec Ideal S50000x128 .f32 → IVec S640000x1 32 → FVec Ideal S640000x128 .f32) ⟨by decide, rfl⟩ ⟨by decide, rfl⟩ ⟨by decide, rfl⟩ rfl (by decide +kernel) (by decide +kernel) (by decide +kernel)
theorem val_187 (V : Valuation τ sig (Elt Ideal)) :
    after line V (Proc.devRef .tc main_cst_13) = constant (F := Ideal) S_ .f32 0x00000000#32 :=
  nullary_final hw V 187 (lt_len (by decide)) (y := main_cst_13) (constant (F := Ideal) S_ .f32 0x00000000#32 : FVec Ideal S_ .f32) ⟨by decide, rfl⟩ rfl (by decide +kernel)
theorem val_188 (V : Valuation τ sig (Elt Ideal)) :
    after line V (Proc.devRef .tc main_v154) = broadcastInDim S50000x128 ![] bcast_S_S50000x128 (after line V (Proc.devRef .tc main_cst_13) : FVec Ideal S_ .f32) :=
  unary_final hw V 188 (lt_len (by decide)) (x := main_cst_13) (y := main_v154) (broadcastInDim S50000x128 ![] bcast_S_S50000x128 : FVec Ideal S_ .f32 → FVec Ideal S50000x128 .f32) ⟨by decide, rfl⟩ ⟨by decide, rfl⟩ rfl (by decide +kernel) (by decide +kernel)
theorem val_189 (V : Valuation τ sig (Elt Ideal)) :
    after line V (Proc.devRef .tc main_v155) = broadcastInDim S640000x1 ![0] bcast_S640000_S640000x1_0 (after line V (Proc.devRef .tc main_v142) : IVec S640000 32) :=
  unary_final hw V 189 (lt_len (by decide)) (x := main_v142) (y := main_v155) (broadcastInDim S640000x1 ![0] bcast_S640000_S640000x1_0 : IVec S640000 32 → IVec S640000x1 32) ⟨by decide, rfl⟩ ⟨by decide, rfl⟩ rfl (by decide +kernel) (by decide +kernel)
theorem val_190 (V : Valuation τ sig (Elt Ideal)) :
    after line V (Proc.devRef .tc main_v156) = Host.scatterAdd (F := Ideal) (φ := .f32) scatter_S50000x128_S640000x1_S640000x128_1_0_0_1 (after line V (Proc.devRef .tc main_v154) : FVec Ideal S50000x128 .f32) (after line V (Proc.devRef .tc main_v155) : IVec S640000x1 32) (after line V (Proc.devRef .tc main_v153) : FVec Ideal S640000x128 .f32) :=
  ternary_final hw V 190 (lt_len (by decide)) (c := main_v154) (a := main_v155) (b := main_v153) (y := main_v156) ((fun x i u => Host.scatterAdd (F := Ideal) scatter_S50000x128_S640000x1_S640000x128_1_0_0_1 x i u) : FVec Ideal S50000x128 .f32 → IVec S640000x1 32 → FVec Ideal S640000x128 .f32 → FVec Ideal S50000x128 .f32) ⟨by decide, rfl⟩ ⟨by decide, rfl⟩ ⟨by decide, rfl⟩ ⟨by decide, rfl⟩ rfl (by decide +kernel) (by decide +kernel) (by decide +kernel) (by decide +kernel)
theorem val_191 (V : Valuation τ sig (Elt Ideal)) :
    after line V (Proc.devRef .tc main_v157) = addf (F := Ideal) (φ := .f32) (after line V (Proc.devRef .tc main_v156) : FVec Ideal S50000x128 .f32) (after line V (Proc.devRef .tc main_v146) : FVec Ideal S50000x128 .f32) :=
  binary_final hw V 191 (lt_len (by decide)) (a := main_v156) (b := main_v146) (y := main_v157) (addf (F := Ideal) : FVec Ideal S50000x128 .f32 → FVec Ideal S50000x128 .f32 → FVec Ideal S50000x128 .f32) ⟨by decide, rfl⟩ ⟨by decide, rfl⟩ ⟨by decide, rfl⟩ rfl (by decide +kernel) (by decide +kernel) (by decide +kernel)
theorem val_192 (V : Valuation τ sig (Elt Ideal)) :
    after line V (Proc.devRef .tc main_v158) = extractStridedSlice S1x128x128 ![0, 0, 0] (after line V (Proc.devRef .tc main_arg8) : FVec Ideal S4x128x128 .f32) slices_S4x128x128_S1x128x128_0_0_0 :=
  unary_final hw V 192 (lt_len (by decide)) (x := main_arg8) (y := main_v158) ((extractStridedSlice S1x128x128 ![0, 0, 0] · slices_S4x128x128_S1x128x128_0_0_0) : FVec Ideal S4x128x128 .f32 → FVec Ideal S1x128x128 .f32) ⟨by decide, rfl⟩ ⟨by decide, rfl⟩ rfl (by decide +kernel) (by decide +kernel)
theorem val_193 (V : Valuation τ sig (Elt Ideal)) :
    after line V (Proc.devRef .tc main_v159) = shapeCast S128x128 (after line V (Proc.devRef .tc main_v158) : FVec Ideal S1x128x128 .f32) shapeCasts_S1x128x128_S128x128 :=
  reshape_final hw V 193 (lt_len (by decide)) (x := main_v158) (y := main_v159) rfl shapeCasts_S1x128x128_S128x128 ⟨by decide, rfl⟩ ⟨by decide, rfl⟩ rfl (by decide +kernel) (by decide +kernel)
theorem val_194 (V : Valuation τ sig (Elt Ideal)) :
    after line V (Proc.devRef .tc main_v160) = Host.dotGeneral (F := Ideal) (φ₁ := .f32) (φ₂ := .f32) dot_S50000x128_S128x128_S50000x128_1_0_0_1_n_n none (after line V (Proc.devRef .tc main_v157) : FVec Ideal S50000x128 .f32) (after line V (Proc.devRef .tc main_v159) : FVec Ideal S128x128 .f32) :=
  binary_final hw V 194 (lt_len (by decide)) (a := main_v157) (b := main_v159) (y := main_v160) ((fun l r => Host.dotGeneral (F := Ideal) dot_S50000x128_S128x128_S50000x128_1_0_0_1_n_n none l r) : FVec Ideal S50000x128 .f32 → FVec Ideal S128x128 .f32 → FVec Ideal S50000x128 .f32) ⟨by decide, rfl⟩ ⟨by decide, rfl⟩ ⟨by decide, rfl⟩ rfl (by decide +kernel) (by decide +kernel) (by decide +kernel)
theorem val_195 (V : Valuation τ sig (Elt Ideal)) :
    after line V (Proc.devRef .tc main_v161) = extractStridedSlice S1x128 ![0, 0] (after line V (Proc.devRef .tc main_arg9) : FVec Ideal S4x128 .f32) slices_S4x128_S1x128_0_0 :=
  unary_final hw V 195 (lt_len (by decide)) (x := main_arg9) (y := main_v161) ((extractStridedSlice S1x128 ![0, 0] · slices_S4x128_S1x128_0_0) : FVec Ideal S4x128 .f32 → FVec Ideal S1x128 .f32) ⟨by decide, rfl⟩ ⟨by decide, rfl⟩ rfl (by decide +kernel) (by decide +kernel)
theorem val_196 (V : Valuation τ sig (Elt Ideal)) :
    after line V (Proc.devRef .tc main_v162) = shapeCast S128 (after line V (Proc.devRef .tc main_v161) : FVec Ideal S1x128 .f32) shapeCasts_S1x128_S128 :=
  reshape_final hw V 196 (lt_len (by decide)) (x := main_v161) (y := main_v162) rfl shapeCasts_S1x128_S128 ⟨by decide, rfl⟩ ⟨by decide, rfl⟩ rfl (by decide +kernel) (by decide +kernel)
theorem val_197 (V : Valuation τ sig (Elt Ideal)) :
    after line V (Proc.devRef .tc main_v163) = broadcastInDim S1x128 ![1] bcast_S128_S1x128_1 (after line V (Proc.devRef .tc main_v162) : FVec Ideal S128 .f32) :=
  unary_final hw V 197 (lt_len (by decide)) (x := main_v162) (y := main_v163) (broadcastInDim S1x128 ![1] bcast_S128_S1x128_1 : FVec Ideal S128 .f32 → FVec Ideal S1x128 .f32) ⟨by decide, rfl⟩ ⟨by decide, rfl⟩ rfl (by decide +kernel) (by decide +kernel)
theorem val_198 (V : Valuation τ sig (Elt Ideal)) :
    after line V (Proc.devRef .tc main_v164) = broadcastInDim S50000x128 ![0, 1] bcast_S1x128_S50000x128_0_1 (after line V (Proc.devRef .tc main_v163) : FVec Ideal S1x128 .f32) :=
  unary_final hw V 198 (lt_len (by decide)) (x := main_v163) (y := main_v164) (broadcastInDim S50000x128 ![0, 1] bcast_S1x128_S50000x128_0_1 : FVec Ideal S1x128 .f32 → FVec Ideal S50000x128 .f32) ⟨by decide, rfl⟩ ⟨by decide, rfl⟩ rfl (by decide +kernel) (by decide +kernel)
theorem val_199 (V : Valuation τ sig (Elt Ideal)) :
    after line V (Proc.devRef .tc main_v165) = addf (F := Ideal) (φ := .f32) (after line V (Proc.devRef .tc main_v160) : FVec Ideal S50000x128 .f32) (after line V (Proc.devRef .tc main_v164) : FVec Ideal S50000x128 .f32) :=
  binary_final hw V 199 (lt_len (by decide)) (a := main_v160) (b := main_v164) (y := main_v165) (addf (F := Ideal) : FVec Ideal S50000x128 .f32 → FVec Ideal S50000x128 .f32 → FVec Ideal S50000x128 .f32) ⟨by decide, rfl⟩ ⟨by decide, rfl⟩ ⟨by decide, rfl⟩ rfl (by decide +kernel) (by decide +kernel) (by decide +kernel)
theorem val_200 (V : Valuation τ sig (Elt Ideal)) :
    after line V (Proc.devRef .tc main_call9_cst) = constant (F := Ideal) S_ .f32 0x00000000#32 :=
  nullary_final hw V 200 (lt_len (by decide)) (y := main_call9_cst) (constant (F := Ideal) S_ .f32 0x00000000#32 : FVec Ideal S_ .f32) ⟨by decide, rfl⟩ rfl (by decide +kernel)
theorem val_201 (V : Valuation τ sig (Elt Ideal)) :
    after line V (Proc.devRef .tc main_call9_v0) = broadcastInDim S50000x128 ![] bcast_S_S50000x128 (after line V (Proc.devRef .tc main_call9_cst) : FVec Ideal S_ .f32) :=
  unary_final hw V 201 (lt_len (by decide)) (x := main_call9_cst) (y := main_call9_v0) (broadcastInDim S50000x128 ![] bcast_S_S50000x128 : FVec Ideal S_ .f32 → FVec Ideal S50000x128 .f32) ⟨by decide, rfl⟩ ⟨by decide, rfl⟩ rfl (by decide +kernel) (by decide +kernel)
theorem val_202 (V : Valuation τ sig (Elt Ideal)) :
    after line V (Proc.devRef .tc main_v166) = maximumf (F := Ideal) (φ := .f32) (after line V (Proc.devRef .tc main_v165) : FVec Ideal S50000x128 .f32) (after line V (Proc.devRef .tc main_call9_v0) : FVec Ideal S50000x128 .f32) :=
  binary_final hw V 202 (lt_len (by decide)) (a := main_v165) (b := main_call9_v0) (y := main_v166) (maximumf (F := Ideal) : FVec Ideal S50000x128 .f32 → FVec Ideal S50000x128 .f32 → FVec Ideal S50000x128 .f32) ⟨by decide, rfl⟩ ⟨by decide, rfl⟩ ⟨by decide, rfl⟩ rfl (by decide +kernel) (by decide +kernel) (by decide +kernel)
theorem val_203 (V : Valuation τ sig (Elt Ideal)) :
    after line V (Proc.devRef .tc main_v167) = extractStridedSlice S1x128x128 ![0, 0, 0] (after line V (Proc.devRef .tc main_arg10) : FVec Ideal S4x128x128 .f32) slices_S4x128x128_S1x128x128_0_0_0 :=
  unary_final hw V 203 (lt_len (by decide)) (x := main_arg10) (y := main_v167) ((extractStridedSlice S1x128x128 ![0, 0, 0] · slices_S4x128x128_S1x128x128_0_0_0) : FVec Ideal S4x128x128 .f32 → FVec Ideal S1x128x128 .f32) ⟨by decide, rfl⟩ ⟨by decide, rfl⟩ rfl (by decide +kernel) (by decide +kernel)
theorem val_204 (V : Valuation τ sig (Elt Ideal)) :
    after line V (Proc.devRef .tc main_v168) = shapeCast S128x128 (after line V (Proc.devRef .tc main_v167) : FVec Ideal S1x128x128 .f32) shapeCasts_S1x128x128_S128x128 :=
  reshape_final hw V 204 (lt_len (by decide)) (x := main_v167) (y := main_v168) rfl shapeCasts_S1x128x128_S128x128 ⟨by decide, rfl⟩ ⟨by decide, rfl⟩ rfl (by decide +kernel) (by decide +kernel)
theorem val_205 (V : Valuation τ sig (Elt Ideal)) :
    after line V (Proc.devRef .tc main_v169) = Host.dotGeneral (F := Ideal) (φ₁ := .f32) (φ₂ := .f32) dot_S50000x128_S128x128_S50000x128_1_0_0_1_n_n none (after line V (Proc.devRef .tc main_v166) : FVec Ideal S50000x128 .f32) (after line V (Proc.devRef .tc main_v168) : FVec Ideal S128x128 .f32) :=
  binary_final hw V 205 (lt_len (by decide)) (a := main_v166) (b := main_v168) (y := main_v169) ((fun l r => Host.dotGeneral (F := Ideal) dot_S50000x128_S128x128_S50000x128_1_0_0_1_n_n none l r) : FVec Ideal S50000x128 .f32 → FVec Ideal S128x128 .f32 → FVec Ideal S50000x128 .f32) ⟨by decide, rfl⟩ ⟨by decide, rfl⟩ ⟨by decide, rfl⟩ rfl (by decide +kernel) (by decide +kernel) (by decide +kernel)
theorem val_206 (V : Valuation τ sig (Elt Ideal)) :
    after line V (Proc.devRef .tc main_v170) = extractStridedSlice S1x128 ![0, 0] (after line V (Proc.devRef .tc main_arg11) : FVec Ideal S4x128 .f32) slices_S4x128_S1x128_0_0 :=
  unary_final hw V 206 (lt_len (by decide)) (x := main_arg11) (y := main_v170) ((extractStridedSlice S1x128 ![0, 0] · slices_S4x128_S1x128_0_0) : FVec Ideal S4x128 .f32 → FVec Ideal S1x128 .f32) ⟨by decide, rfl⟩ ⟨by decide, rfl⟩ rfl (by decide +kernel) (by decide +kernel)
theorem val_207 (V : Valuation τ sig (Elt Ideal)) :
    after line V (Proc.devRef .tc main_v171) = shapeCast S128 (after line V (Proc.devRef .tc main_v170) : FVec Ideal S1x128 .f32) shapeCasts_S1x128_S128 :=
  reshape_final hw V 207 (lt_len (by decide)) (x := main_v170) (y := main_v171) rfl shapeCasts_S1x128_S128 ⟨by decide, rfl⟩ ⟨by decide, rfl⟩ rfl (by decide +kernel) (by decide +kernel)
theorem val_208 (V : Valuation τ sig (Elt Ideal)) :
    after line V (Proc.devRef .tc main_v172) = broadcastInDim S1x128 ![1] bcast_S128_S1x128_1 (after line V (Proc.devRef .tc main_v171) : FVec Ideal S128 .f32) :=
  unary_final hw V 208 (lt_len (by decide)) (x := main_v171) (y := main_v172) (broadcastInDim S1x128 ![1] bcast_S128_S1x128_1 : FVec Ideal S128 .f32 → FVec Ideal S1x128 .f32) ⟨by decide, rfl⟩ ⟨by decide, rfl⟩ rfl (by decide +kernel) (by decide +kernel)
theorem val_209 (V : Valuation τ sig (Elt Ideal)) :
    after line V (Proc.devRef .tc main_v173) = broadcastInDim S50000x128 ![0, 1] bcast_S1x128_S50000x128_0_1 (after line V (Proc.devRef .tc main_v172) : FVec Ideal S1x128 .f32) :=
  unary_final hw V 209 (lt_len (by decide)) (x := main_v172) (y := main_v173) (broadcastInDim S50000x128 ![0, 1] bcast_S1x128_S50000x128_0_1 : FVec Ideal S1x128 .f32 → FVec Ideal S50000x128 .f32) ⟨by decide, rfl⟩ ⟨by decide, rfl⟩ rfl (by decide +kernel) (by decide +kernel)
theorem val_210 (V : Valuation τ sig (Elt Ideal)) :
    after line V (Proc.devRef .tc main_v174) = addf (F := Ideal) (φ := .f32) (after line V (Proc.devRef .tc main_v169) : FVec Ideal S50000x128 .f32) (after line V (Proc.devRef .tc main_v173) : FVec Ideal S50000x128 .f32) :=
  binary_final hw V 210 (lt_len (by decide)) (a := main_v169) (b := main_v173) (y := main_v174) (addf (F := Ideal) : FVec Ideal S50000x128 .f32 → FVec Ideal S50000x128 .f32 → FVec Ideal S50000x128 .f32) ⟨by decide, rfl⟩ ⟨by decide, rfl⟩ ⟨by decide, rfl⟩ rfl (by decide +kernel) (by decide +kernel) (by decide +kernel)
theorem val_211 (V : Valuation τ sig (Elt Ideal)) :
    after line V (Proc.devRef .tc main_call10_cst) = constant (F := Ideal) S_ .f32 0x00000000#32 :=
  nullary_final hw V 211 (lt_len (by decide)) (y := main_call10_cst) (constant (F := Ideal) S_ .f32 0x00000000#32 : FVec Ideal S_ .f32) ⟨by decide, rfl⟩ rfl (by decide +kernel)
theorem val_212 (V : Valuation τ sig (Elt Ideal)) :
    after line V (Proc.devRef .tc main_call10_v0) = broadcastInDim S50000x128 ![] bcast_S_S50000x128 (after line V (Proc.devRef .tc main_call10_cst) : FVec Ideal S_ .f32) :=
  unary_final hw V 212 (lt_len (by decide)) (x := main_call10_cst) (y := main_call10_v0) (broadcastInDim S50000x128 ![] bcast_S_S50000x128 : FVec Ideal S_ .f32 → FVec Ideal S50000x128 .f32) ⟨by decide, rfl⟩ ⟨by decide, rfl⟩ rfl (by decide +kernel) (by decide +kernel)
theorem val_213 (V : Valuation τ sig (Elt Ideal)) :
    after line V (Proc.devRef .tc main_v175) = maximumf (F := Ideal) (φ := .f32) (after line V (Proc.devRef .tc main_v174) : FVec Ideal S50000x128 .f32) (after line V (Proc.devRef .tc main_call10_v0) : FVec Ideal S50000x128 .f32) :=
  binary_final hw V 213 (lt_len (by decide)) (a := main_v174) (b := main_call10_v0) (y := main_v175) (maximumf (F := Ideal) : FVec Ideal S50000x128 .f32 → FVec Ideal S50000x128 .f32 → FVec Ideal S50000x128 .f32) ⟨by decide, rfl⟩ ⟨by decide, rfl⟩ ⟨by decide, rfl⟩ rfl (by decide +kernel) (by decide +kernel) (by decide +kernel)
theorem val_214 (V : Valuation τ sig (Elt Ideal)) :
    after line V (Proc.devRef .tc main_c_14) = constantI S_ 32 0#32 :=
  nullary_final hw V 214 (lt_len (by decide)) (y := main_c_14) (constantI S_ 32 0#32 : IVec S_ 32) ⟨by decide, rfl⟩ rfl (by decide +kernel)
theorem val_215 (V : Valuation τ sig (Elt Ideal)) :
    after line V (Proc.devRef .tc main_v176) = broadcastInDim S640000 ![] bcast_S_S640000 (after line V (Proc.devRef .tc main_c_14) : IVec S_ 32) :=
  unary_final hw V 215 (lt_len (by decide)) (x := main_c_14) (y := main_v176) (broadcastInDim S640000 ![] bcast_S_S640000 : IVec S_ 32 → IVec S640000 32) ⟨by decide, rfl⟩ ⟨by decide, rfl⟩ rfl (by decide +kernel) (by decide +kernel)
theorem val_216 (V : Valuation τ sig (Elt Ideal)) :
    after line V (Proc.devRef .tc main_v177) = cmpi .slt (after line V (Proc.devRef .tc main_v140) : IVec S640000 32) (after line V (Proc.devRef .tc main_v176) : IVec S640000 32) :=
  binary_final hw V 216 (lt_len (by decide)) (a := main_v140) (b := main_v176) (y := main_v177) (cmpi .slt : IVec S640000 32 → IVec S640000 32 → IVec S640000 1) ⟨by decide, rfl⟩ ⟨by decide, rfl⟩ ⟨by decide, rfl⟩ rfl (by decide +kernel) (by decide +kernel) (by decide +kernel)
theorem val_217 (V : Valuation τ sig (Elt Ideal)) :
    after line V (Proc.devRef .tc main_c_15) = constantI S_ 32 50000#32 :=
  nullary_final hw V 217 (lt_len (by decide)) (y := main_c_15) (constantI S_ 32 50000#32 : IVec S_ 32) ⟨by decide, rfl⟩ rfl (by decide +kernel)
theorem val_218 (V : Valuation τ sig (Elt Ideal)) :
    after line V (Proc.devRef .tc main_v178) = broadcastInDim S640000 ![] bcast_S_S640000 (after line V (Proc.devRef .tc main_c_15) : IVec S_ 32) :=
  unary_final hw V 218 (lt_len (by decide)) (x := main_c_15) (y := main_v178) (broadcastInDim S640000 ![] bcast_S_S640000 : IVec S_ 32 → IVec S640000 32) ⟨by decide, rfl⟩ ⟨by decide, rfl⟩ rfl (by decide +kernel) (by decide +kernel)
theorem val_219 (V : Valuation τ sig (Elt Ideal)) :
    after line V (Proc.devRef .tc main_v179) = addi (after line V (Proc.devRef .tc main_v140) : IVec S640000 32) (after line V (Proc.devRef .tc main_v178) : IVec S640000 32) :=
  binary_final hw V 219 (lt_len (by decide)) (a := main_v140) (b := main_v178) (y := main_v179) (addi : IVec S640000 32 → IVec S640000 32 → IVec S640000 32) ⟨by decide, rfl⟩ ⟨by decide, rfl⟩ ⟨by decide, rfl⟩ rfl (by decide +kernel) (by decide +kernel) (by decide +kernel)
theorem val_220 (V : Valuation τ sig (Elt Ideal)) :
    after line V (Proc.devRef .tc main_v180) = select (after line V (Proc.devRef .tc main_v177) : IVec S640000 1) (after line V (Proc.devRef .tc main_v179) : IVec S640000 32) (after line V (Proc.devRef .tc main_v140) : IVec S640000 32) :=
  ternary_final hw V 220 (lt_len (by decide)) (c := main_v177) (a := main_v179) (b := main_v140) (y := main_v180) (select : IVec S640000 1 → IVec S640000 32 → IVec S640000 32 → IVec S640000 32) ⟨by decide, rfl⟩ ⟨by decide, rfl⟩ ⟨by decide, rfl⟩ ⟨by decide, rfl⟩ rfl (by decide +kernel) (by decide +kernel) (by decide +kernel) (by decide +kernel)
theorem val_221 (V : Valuation τ sig (Elt Ideal)) :
    after line V (Proc.devRef .tc main_v181) = broadcastInDim S640000x1 ![0] bcast_S640000_S640000x1_0 (after line V (Proc.devRef .tc main_v180) : IVec S640000 32) :=
  unary_final hw V 221 (lt_len (by decide)) (x := main_v180) (y := main_v181) (broadcastInDim S640000x1 ![0] bcast_S640000_S640000x1_0 : IVec S640000 32 → IVec S640000x1 32) ⟨by decide, rfl⟩ ⟨by decide, rfl⟩ rfl (by decide +kernel) (by decide +kernel)
theorem val_222 (V : Valuation τ sig (Elt Ideal)) :
    after line V (Proc.devRef .tc main_v182) = Host.gather gather_S50000x128_S640000x1_S640000x128_1_0_n_n_0_1_1128 (after line V (Proc.devRef .tc main_v175) : FVec Ideal S50000x128 .f32) (after line V (Proc.devRef .tc main_v181) : IVec S640000x1 32) :=
  binary_final hw V 222 (lt_len (by decide)) (a := main_v175) (b := main_v181) (y := main_v182) ((fun x i => Host.gather gather_S50000x128_S640000x1_S640000x128_1_0_n_n_0_1_1128 x i) : FVec Ideal S50000x128 .f32 → IVec S640000x1 32 → FVec Ideal S640000x128 .f32) ⟨by decide, rfl⟩ ⟨by decide, rfl⟩ ⟨by decide, rfl⟩ rfl (by decide +kernel) (by decide +kernel) (by decide +kernel)
theorem val_223 (V : Valuation τ sig (Elt Ideal)) :
    after line V (Proc.devRef .tc main_cst_16) = constant (F := Ideal) S_ .f32 0x00000000#32 :=
  nullary_final hw V 223 (lt_len (by decide)) (y := main_cst_16) (constant (F := Ideal) S_ .f32 0x00000000#32 : FVec Ideal S_ .f32) ⟨by decide, rfl⟩ rfl (by decide +kernel)
theorem val_224 (V : Valuation τ sig (Elt Ideal)) :
    after line V (Proc.devRef .tc main_v183) = broadcastInDim S50000x128 ![] bcast_S_S50000x128 (after line V (Proc.devRef .tc main_cst_16) : FVec Ideal S_ .f32) :=
  unary_final hw V 224 (lt_len (by decide)) (x := main_cst_16) (y := main_v183) (broadcastInDim S50000x128 ![] bcast_S_S50000x128 : FVec Ideal S_ .f32 → FVec Ideal S50000x128 .f32) ⟨by decide, rfl⟩ ⟨by decide, rfl⟩ rfl (by decide +kernel) (by decide +kernel)
theorem val_225 (V : Valuation τ sig (Elt Ideal)) :
    after line V (Proc.devRef .tc main_v184) = broadcastInDim S640000x1 ![0] bcast_S640000_S640000x1_0 (after line V (Proc.devRef .tc main_v142) : IVec S640000 32) :=
  unary_final hw V 225 (lt_len (by decide)) (x := main_v142) (y := main_v184) (broadcastInDim S640000x1 ![0] bcast_S640000_S640000x1_0 : IVec S640000 32 → IVec S640000x1 32) ⟨by decide, rfl⟩ ⟨by decide, rfl⟩ rfl (by decide +kernel) (by decide +kernel)
theorem val_226 (V : Valuation τ sig (Elt Ideal)) :
    after line V (Proc.devRef .tc main_v185) = Host.scatterAdd (F := Ideal) (φ := .f32) scatter_S50000x128_S640000x1_S640000x128_1_0_0_1 (after line V (Proc.devRef .tc main_v183) : FVec Ideal S50000x128 .f32) (after line V (Proc.devRef .tc main_v184) : IVec S640000x1 32) (after line V (Proc.devRef .tc main_v182) : FVec Ideal S640000x128 .f32) :=
  ternary_final hw V 226 (lt_len (by decide)) (c := main_v183) (a := main_v184) (b := main_v182) (y := main_v185) ((fun x i u => Host.scatterAdd (F := Ideal) scatter_S50000x128_S640000x1_S640000x128_1_0_0_1 x i u) : FVec Ideal S50000x128 .f32 → IVec S640000x1 32 → FVec Ideal S640000x128 .f32 → FVec Ideal S50000x128 .f32) ⟨by decide, rfl⟩ ⟨by decide, rfl⟩ ⟨by decide, rfl⟩ ⟨by decide, rfl⟩ rfl (by decide +kernel) (by decide +kernel) (by decide +kernel) (by decide +kernel)
theorem val_227 (V : Valuation τ sig (Elt Ideal)) :
    after line V (Proc.devRef .tc main_v186) = addf (F := Ideal) (φ := .f32) (after line V (Proc.devRef .tc main_v185) : FVec Ideal S50000x128 .f32) (after line V (Proc.devRef .tc main_v175) : FVec Ideal S50000x128 .f32) :=
  binary_final hw V 227 (lt_len (by decide)) (a := main_v185) (b := main_v175) (y := main_v186) (addf (F := Ideal) : FVec Ideal S50000x128 .f32 → FVec Ideal S50000x128 .f32 → FVec Ideal S50000x128 .f32) ⟨by decide, rfl⟩ ⟨by decide, rfl⟩ ⟨by decide, rfl⟩ rfl (by decide +kernel) (by decide +kernel) (by decide +kernel)
theorem val_228 (V : Valuation τ sig (Elt Ideal)) :
    after line V (Proc.devRef .tc main_v187) = extractStridedSlice S1x128x128 ![1, 0, 0] (after line V (Proc.devRef .tc main_arg8) : FVec Ideal S4x128x128 .f32) slices_S4x128x128_S1x128x128_1_0_0 :=
  unary_final hw V 228 (lt_len (by decide)) (x := main_arg8) (y := main_v187) ((extractStridedSlice S1x128x128 ![1, 0, 0] · slices_S4x128x128_S1x128x128_1_0_0) : FVec Ideal S4x128x128 .f32 → FVec Ideal S1x128x128 .f32) ⟨by decide, rfl⟩ ⟨by decide, rfl⟩ rfl (by decide +kernel) (by decide +kernel)
theorem val_229 (V : Valuation τ sig (Elt Ideal)) :
    after line V (Proc.devRef .tc main_v188) = shapeCast S128x128 (after line V (Proc.devRef .tc main_v187) : FVec Ideal S1x128x128 .f32) shapeCasts_S1x128x128_S128x128 :=
  reshape_final hw V 229 (lt_len (by decide)) (x := main_v187) (y := main_v188) rfl shapeCasts_S1x128x128_S128x128 ⟨by decide, rfl⟩ ⟨by decide, rfl⟩ rfl (by decide +kernel) (by decide +kernel)
theorem val_230 (V : Valuation τ sig (Elt Ideal)) :
    after line V (Proc.devRef .tc main_v189) = Host.dotGeneral (F := Ideal) (φ₁ := .f32) (φ₂ := .f32) dot_S50000x128_S128x128_S50000x128_1_0_0_1_n_n none (after line V (Proc.devRef .tc main_v186) : FVec Ideal S50000x128 .f32) (after line V (Proc.devRef .tc main_v188) : FVec Ideal S128x128 .f32) :=
  binary_final hw V 230 (lt_len (by decide)) (a := main_v186) (b := main_v188) (y := main_v189) ((fun l r => Host.dotGeneral (F := Ideal) dot_S50000x128_S128x128_S50000x128_1_0_0_1_n_n none l r) : FVec Ideal S50000x128 .f32 → FVec Ideal S128x128 .f32 → FVec Ideal S50000x128 .f32) ⟨by decide, rfl⟩ ⟨by decide, rfl⟩ ⟨by decide, rfl⟩ rfl (by decide +kernel) (by decide +kernel) (by decide +kernel)
theorem val_231 (V : Valuation τ sig (Elt Ideal)) :
    after line V (Proc.devRef .tc main_v190) = extractStridedSlice S1x128 ![1, 0] (after line V (Proc.devRef .tc main_arg9) : FVec Ideal S4x128 .f32) slices_S4x128_S1x128_1_0 :=
  unary_final hw V 231 (lt_len (by decide)) (x := main_arg9) (y := main_v190) ((extractStridedSlice S1x128 ![1, 0] · slices_S4x128_S1x128_1_0) : FVec Ideal S4x128 .f32 → FVec Ideal S1x128 .f32) ⟨by decide, rfl⟩ ⟨by decide, rfl⟩ rfl (by decide +kernel) (by decide +kernel)
theorem val_232 (V : Valuation τ sig (Elt Ideal)) :
    after line V (Proc.devRef .tc main_v191) = shapeCast S128 (after line V (Proc.devRef .tc main_v190) : FVec Ideal S1x128 .f32) shapeCasts_S1x128_S128 :=
  reshape_final hw V 232 (lt_len (by decide)) (x := main_v190) (y := main_v191) rfl shapeCasts_S1x128_S128 ⟨by decide, rfl⟩ ⟨by decide, rfl⟩ rfl (by decide +kernel) (by decide +kernel)
theorem val_233 (V : Valuation τ sig (Elt Ideal)) :
    after line V (Proc.devRef .tc main_v192) = broadcastInDim S1x128 ![1] bcast_S128_S1x128_1 (after line V (Proc.devRef .tc main_v191) : FVec Ideal S128 .f32) :=
  unary_final hw V 233 (lt_len (by decide)) (x := main_v191) (y := main_v192) (broadcastInDim S1x128 ![1] bcast_S128_S1x128_1 : FVec Ideal S128 .f32 → FVec Ideal S1x128 .f32) ⟨by decide, rfl⟩ ⟨by decide, rfl⟩ rfl (by decide +kernel) (by decide +kernel)
theorem val_234 (V : Valuation τ sig (Elt Ideal)) :
    after line V (Proc.devRef .tc main_v193) = broadcastInDim S50000x128 ![0, 1] bcast_S1x128_S50000x128_0_1 (after line V (Proc.devRef .tc main_v192) : FVec Ideal S1x128 .f32) :=
  unary_final hw V 234 (lt_len (by decide)) (x := main_v192) (y := main_v193) (broadcastInDim S50000x128 ![0, 1] bcast_S1x128_S50000x128_0_1 : FVec Ideal S1x128 .f32 → FVec Ideal S50000x128 .f32) ⟨by decide, rfl⟩ ⟨by decide, rfl⟩ rfl (by decide +kernel) (by decide +kernel)
theorem val_235 (V : Valuation τ sig (Elt Ideal)) :
    after line V (Proc.devRef .tc main_v194) = addf (F := Ideal) (φ := .f32) (after line V (Proc.devRef .tc main_v189) : FVec Ideal S50000x128 .f32) (after line V (Proc.devRef .tc main_v193) : FVec Ideal S50000x128 .f32) :=
  binary_final hw V 235 (lt_len (by decide)) (a := main_v189) (b := main_v193) (y := main_v194) (addf (F := Ideal) : FVec Ideal S50000x128 .f32 → FVec Ideal S50000x128 .f32 → FVec Ideal S50000x128 .f32) ⟨by decide, rfl⟩ ⟨by decide, rfl⟩ ⟨by decide, rfl⟩ rfl (by decide +kernel) (by decide +kernel) (by decide +kernel)
theorem val_236 (V : Valuation τ sig (Elt Ideal)) :
    after line V (Proc.devRef .tc main_call11_cst) = constant (F := Ideal) S_ .f32 0x00000000#32 :=
  nullary_final hw V 236 (lt_len (by decide)) (y := main_call11_cst) (constant (F := Ideal) S_ .f32 0x00000000#32 : FVec Ideal S_ .f32) ⟨by decide, rfl⟩ rfl (by decide +kernel)
theorem val_237 (V : Valuation τ sig (Elt Ideal)) :
    after line V (Proc.devRef .tc main_call11_v0) = broadcastInDim S50000x128 ![] bcast_S_S50000x128 (after line V (Proc.devRef .tc main_call11_cst) : FVec Ideal S_ .f32) :=
  unary_final hw V 237 (lt_len (by decide)) (x := main_call11_cst) (y := main_call11_v0) (broadcastInDim S50000x128 ![] bcast_S_S50000x128 : FVec Ideal S_ .f32 → FVec Ideal S50000x128 .f32) ⟨by decide, rfl⟩ ⟨by decide, rfl⟩ rfl (by decide +kernel) (by decide +kernel)
theorem val_238 (V : Valuation τ sig (Elt Ideal)) :
    after line V (Proc.devRef .tc main_v195) = maximumf (F := Ideal) (φ := .f32) (after line V (Proc.devRef .tc main_v194) : FVec Ideal S50000x128 .f32) (after line V (Proc.devRef .tc main_call11_v0) : FVec Ideal S50000x128 .f32) :=
  binary_final hw V 238 (lt_len (by decide)) (a := main_v194) (b := main_call11_v0) (y := main_v195) (maximumf (F := Ideal) : FVec Ideal S50000x128 .f32 → FVec Ideal S50000x128 .f32 → FVec Ideal S50000x128 .f32) ⟨by decide, rfl⟩ ⟨by decide, rfl⟩ ⟨by decide, rfl⟩ rfl (by decide +kernel) (by decide +kernel) (by decide +kernel)
theorem val_239 (V : Valuation τ sig (Elt Ideal)) :
    after line V (Proc.devRef .tc main_v196) = extractStridedSlice S1x128x128 ![1, 0, 0] (after line V (Proc.devRef .tc main_arg10) : FVec Ideal S4x128x128 .f32) slices_S4x128x128_S1x128x128_1_0_0 :=
  unary_final hw V 239 (lt_len (by decide)) (x := main_arg10) (y := main_v196) ((extractStridedSlice S1x128x128 ![1, 0, 0] · slices_S4x128x128_S1x128x128_1_0_0) : FVec Ideal S4x128x128 .f32 → FVec Ideal S1x128x128 .f32) ⟨by decide, rfl⟩ ⟨by decide, rfl⟩ rfl (by decide +kernel) (by decide +kernel)

end Cert.RefVal

end
-- ==== Proof.RefVal3.lean ====
import proofs.«106875_j87694642250037_1_alg».proof.Proof.RefLine

/-!
# The reference's operations 240 … 319, each read over the line's final values

One equation per operation: the line's final contents at the operation's result buffer are its function of the
final contents at its operand buffers.
-/

noncomputable section

namespace Cert.RefVal

open Cert.ReferenceIdeal Cert.ReferenceIdeal.Gen Cert.RefOps Cert.LineRead Idealize.ShloMosaic Idealize.ShloMosaic.TcCoe Idealize.SL.Sem Idealize.ShloMosaic.StableHlo Cert.RefLine

theorem val_240 (V : Valuation τ sig (Elt Ideal)) :
    after line V (Proc.devRef .tc main_v197) = shapeCast S128x128 (after line V (Proc.devRef .tc main_v196) : FVec Ideal S1x128x128 .f32) shapeCasts_S1x128x128_S128x128 :=
  reshape_final hw V 240 (lt_len (by decide)) (x := main_v196) (y := main_v197) rfl shapeCasts_S1x128x128_S128x128 ⟨by decide, rfl⟩ ⟨by decide, rfl⟩ rfl (by decide +kernel) (by decide +kernel)
theorem val_241 (V : Valuation τ sig (Elt Ideal)) :
    after line V (Proc.devRef .tc main_v198) = Host.dotGeneral (F := Ideal) (φ₁ := .f32) (φ₂ := .f32) dot_S50000x128_S128x128_S50000x128_1_0_0_1_n_n none (after line V (Proc.devRef .tc main_v195) : FVec Ideal S50000x128 .f32) (after line V (Proc.devRef .tc main_v197) : FVec Ideal S128x128 .f32) :=
  binary_final hw V 241 (lt_len (by decide)) (a := main_v195) (b := main_v197) (y := main_v198) ((fun l r => Host.dotGeneral (F := Ideal) dot_S50000x128_S128x128_S50000x128_1_0_0_1_n_n none l r) : FVec Ideal S50000x128 .f32 → FVec Ideal S128x128 .f32 → FVec Ideal S50000x128 .f32) ⟨by decide, rfl⟩ ⟨by decide, rfl⟩ ⟨by decide, rfl⟩ rfl (by decide +kernel) (by decide +kernel) (by decide +kernel)
theorem val_242 (V : Valuation τ sig (Elt Ideal)) :
    after line V (Proc.devRef .tc main_v199) = extractStridedSlice S1x128 ![1, 0] (after line V (Proc.devRef .tc main_arg11) : FVec Ideal S4x128 .f32) slices_S4x128_S1x128_1_0 :=
  unary_final hw V 242 (lt_len (by decide)) (x := main_arg11) (y := main_v199) ((extractStridedSlice S1x128 ![1, 0] · slices_S4x128_S1x128_1_0) : FVec Ideal S4x128 .f32 → FVec Ideal S1x128 .f32) ⟨by decide, rfl⟩ ⟨by decide, rfl⟩ rfl (by decide +kernel) (by decide +kernel)
theorem val_243 (V : Valuation τ sig (Elt Ideal)) :
    after line V (Proc.devRef .tc main_v200) = shapeCast S128 (after line V (Proc.devRef .tc main_v199) : FVec Ideal S1x128 .f32) shapeCasts_S1x128_S128 :=
  reshape_final hw V 243 (lt_len (by decide)) (x := main_v199) (y := main_v200) rfl shapeCasts_S1x128_S128 ⟨by decide, rfl⟩ ⟨by decide, rfl⟩ rfl (by decide +kernel) (by decide +kernel)
theorem val_244 (V : Valuation τ sig (Elt Ideal)) :
    after line V (Proc.devRef .tc main_v201) = broadcastInDim S1x128 ![1] bcast_S128_S1x128_1 (after line V (Proc.devRef .tc main_v200) : FVec Ideal S128 .f32) :=
  unary_final hw V 244 (lt_len (by decide)) (x := main_v200) (y := main_v201) (broadcastInDim S1x128 ![1] bcast_S128_S1x128_1 : FVec Ideal S128 .f32 → FVec Ideal S1x128 .f32) ⟨by decide, rfl⟩ ⟨by decide, rfl⟩ rfl (by decide +kernel) (by decide +kernel)
theorem val_245 (V : Valuation τ sig (Elt Ideal)) :
    after line V (Proc.devRef .tc main_v202) = broadcastInDim S50000x128 ![0, 1] bcast_S1x128_S50000x128_0_1 (after line V (Proc.devRef .tc main_v201) : FVec Ideal S1x128 .f32) :=
  unary_final hw V 245 (lt_len (by decide)) (x := main_v201) (y := main_v202) (broadcastInDim S50000x128 ![0, 1] bcast_S1x128_S50000x128_0_1 : FVec Ideal S1x128 .f32 → FVec Ideal S50000x128 .f32) ⟨by decide, rfl⟩ ⟨by decide, rfl⟩ rfl (by decide +kernel) (by decide +kernel)
theorem val_246 (V : Valuation τ sig (Elt Ideal)) :
    after line V (Proc.devRef .tc main_v203) = addf (F := Ideal) (φ := .f32) (after line V (Proc.devRef .tc main_v198) : FVec Ideal S50000x128 .f32) (after line V (Proc.devRef .tc main_v202) : FVec Ideal S50000x128 .f32) :=
  binary_final hw V 246 (lt_len (by decide)) (a := main_v198) (b := main_v202) (y := main_v203) (addf (F := Ideal) : FVec Ideal S50000x128 .f32 → FVec Ideal S50000x128 .f32 → FVec Ideal S50000x128 .f32) ⟨by decide, rfl⟩ ⟨by decide, rfl⟩ ⟨by decide, rfl⟩ rfl (by decide +kernel) (by decide +kernel) (by decide +kernel)
theorem val_247 (V : Valuation τ sig (Elt Ideal)) :
    after line V (Proc.devRef .tc main_v204) = addf (F := Ideal) (φ := .f32) (after line V (Proc.devRef .tc main_v203) : FVec Ideal S50000x128 .f32) (after line V (Proc.devRef .tc main_v146) : FVec Ideal S50000x128 .f32) :=
  binary_final hw V 247 (lt_len (by decide)) (a := main_v203) (b := main_v146) (y := main_v204) (addf (F := Ideal) : FVec Ideal S50000x128 .f32 → FVec Ideal S50000x128 .f32 → FVec Ideal S50000x128 .f32) ⟨by decide, rfl⟩ ⟨by decide, rfl⟩ ⟨by decide, rfl⟩ rfl (by decide +kernel) (by decide +kernel) (by decide +kernel)
theorem val_248 (V : Valuation τ sig (Elt Ideal)) :
    after line V (Proc.devRef .tc main_call12_cst) = constant (F := Ideal) S_ .f32 0x00000000#32 :=
  nullary_final hw V 248 (lt_len (by decide)) (y := main_call12_cst) (constant (F := Ideal) S_ .f32 0x00000000#32 : FVec Ideal S_ .f32) ⟨by decide, rfl⟩ rfl (by decide +kernel)
theorem val_249 (V : Valuation τ sig (Elt Ideal)) :
    after line V (Proc.devRef .tc main_call12_v0) = broadcastInDim S50000x128 ![] bcast_S_S50000x128 (after line V (Proc.devRef .tc main_call12_cst) : FVec Ideal S_ .f32) :=
  unary_final hw V 249 (lt_len (by decide)) (x := main_call12_cst) (y := main_call12_v0) (broadcastInDim S50000x128 ![] bcast_S_S50000x128 : FVec Ideal S_ .f32 → FVec Ideal S50000x128 .f32) ⟨by decide, rfl⟩ ⟨by decide, rfl⟩ rfl (by decide +kernel) (by decide +kernel)
theorem val_250 (V : Valuation τ sig (Elt Ideal)) :
    after line V (Proc.devRef .tc main_v205) = maximumf (F := Ideal) (φ := .f32) (after line V (Proc.devRef .tc main_v204) : FVec Ideal S50000x128 .f32) (after line V (Proc.devRef .tc main_call12_v0) : FVec Ideal S50000x128 .f32) :=
  binary_final hw V 250 (lt_len (by decide)) (a := main_v204) (b := main_call12_v0) (y := main_v205) (maximumf (F := Ideal) : FVec Ideal S50000x128 .f32 → FVec Ideal S50000x128 .f32 → FVec Ideal S50000x128 .f32) ⟨by decide, rfl⟩ ⟨by decide, rfl⟩ ⟨by decide, rfl⟩ rfl (by decide +kernel) (by decide +kernel) (by decide +kernel)
theorem val_251 (V : Valuation τ sig (Elt Ideal)) :
    after line V (Proc.devRef .tc main_c_17) = constantI S_ 32 0#32 :=
  nullary_final hw V 251 (lt_len (by decide)) (y := main_c_17) (constantI S_ 32 0#32 : IVec S_ 32) ⟨by decide, rfl⟩ rfl (by decide +kernel)
theorem val_252 (V : Valuation τ sig (Elt Ideal)) :
    after line V (Proc.devRef .tc main_v206) = broadcastInDim S640000 ![] bcast_S_S640000 (after line V (Proc.devRef .tc main_c_17) : IVec S_ 32) :=
  unary_final hw V 252 (lt_len (by decide)) (x := main_c_17) (y := main_v206) (broadcastInDim S640000 ![] bcast_S_S640000 : IVec S_ 32 → IVec S640000 32) ⟨by decide, rfl⟩ ⟨by decide, rfl⟩ rfl (by decide +kernel) (by decide +kernel)
theorem val_253 (V : Valuation τ sig (Elt Ideal)) :
    after line V (Proc.devRef .tc main_v207) = cmpi .slt (after line V (Proc.devRef .tc main_v140) : IVec S640000 32) (after line V (Proc.devRef .tc main_v206) : IVec S640000 32) :=
  binary_final hw V 253 (lt_len (by decide)) (a := main_v140) (b := main_v206) (y := main_v207) (cmpi .slt : IVec S640000 32 → IVec S640000 32 → IVec S640000 1) ⟨by decide, rfl⟩ ⟨by decide, rfl⟩ ⟨by decide, rfl⟩ rfl (by decide +kernel) (by decide +kernel) (by decide +kernel)
theorem val_254 (V : Valuation τ sig (Elt Ideal)) :
    after line V (Proc.devRef .tc main_c_18) = constantI S_ 32 50000#32 :=
  nullary_final hw V 254 (lt_len (by decide)) (y := main_c_18) (constantI S_ 32 50000#32 : IVec S_ 32) ⟨by decide, rfl⟩ rfl (by decide +kernel)
theorem val_255 (V : Valuation τ sig (Elt Ideal)) :
    after line V (Proc.devRef .tc main_v208) = broadcastInDim S640000 ![] bcast_S_S640000 (after line V (Proc.devRef .tc main_c_18) : IVec S_ 32) :=
  unary_final hw V 255 (lt_len (by decide)) (x := main_c_18) (y := main_v208) (broadcastInDim S640000 ![] bcast_S_S640000 : IVec S_ 32 → IVec S640000 32) ⟨by decide, rfl⟩ ⟨by decide, rfl⟩ rfl (by decide +kernel) (by decide +kernel)
theorem val_256 (V : Valuation τ sig (Elt Ideal)) :
    after line V (Proc.devRef .tc main_v209) = addi (after line V (Proc.devRef .tc main_v140) : IVec S640000 32) (after line V (Proc.devRef .tc main_v208) : IVec S640000 32) :=
  binary_final hw V 256 (lt_len (by decide)) (a := main_v140) (b := main_v208) (y := main_v209) (addi : IVec S640000 32 → IVec S640000 32 → IVec S640000 32) ⟨by decide, rfl⟩ ⟨by decide, rfl⟩ ⟨by decide, rfl⟩ rfl (by decide +kernel) (by decide +kernel) (by decide +kernel)
theorem val_257 (V : Valuation τ sig (Elt Ideal)) :
    after line V (Proc.devRef .tc main_v210) = select (after line V (Proc.devRef .tc main_v207) : IVec S640000 1) (after line V (Proc.devRef .tc main_v209) : IVec S640000 32) (after line V (Proc.devRef .tc main_v140) : IVec S640000 32) :=
  ternary_final hw V 257 (lt_len (by decide)) (c := main_v207) (a := main_v209) (b := main_v140) (y := main_v210) (select : IVec S640000 1 → IVec S640000 32 → IVec S640000 32 → IVec S640000 32) ⟨by decide, rfl⟩ ⟨by decide, rfl⟩ ⟨by decide, rfl⟩ ⟨by decide, rfl⟩ rfl (by decide +kernel) (by decide +kernel) (by decide +kernel) (by decide +kernel)
theorem val_258 (V : Valuation τ sig (Elt Ideal)) :
    after line V (Proc.devRef .tc main_v211) = broadcastInDim S640000x1 ![0] bcast_S640000_S640000x1_0 (after line V (Proc.devRef .tc main_v210) : IVec S640000 32) :=
  unary_final hw V 258 (lt_len (by decide)) (x := main_v210) (y := main_v211) (broadcastInDim S640000x1 ![0] bcast_S640000_S640000x1_0 : IVec S640000 32 → IVec S640000x1 32) ⟨by decide, rfl⟩ ⟨by decide, rfl⟩ rfl (by decide +kernel) (by decide +kernel)
theorem val_259 (V : Valuation τ sig (Elt Ideal)) :
    after line V (Proc.devRef .tc main_v212) = Host.gather gather_S50000x128_S640000x1_S640000x128_1_0_n_n_0_1_1128 (after line V (Proc.devRef .tc main_v205) : FVec Ideal S50000x128 .f32) (after line V (Proc.devRef .tc main_v211) : IVec S640000x1 32) :=
  binary_final hw V 259 (lt_len (by decide)) (a := main_v205) (b := main_v211) (y := main_v212) ((fun x i => Host.gather gather_S50000x128_S640000x1_S640000x128_1_0_n_n_0_1_1128 x i) : FVec Ideal S50000x128 .f32 → IVec S640000x1 32 → FVec Ideal S640000x128 .f32) ⟨by decide, rfl⟩ ⟨by decide, rfl⟩ ⟨by decide, rfl⟩ rfl (by decide +kernel) (by decide +kernel) (by decide +kernel)
theorem val_260 (V : Valuation τ sig (Elt Ideal)) :
    after line V (Proc.devRef .tc main_cst_19) = constant (F := Ideal) S_ .f32 0x00000000#32 :=
  nullary_final hw V 260 (lt_len (by decide)) (y := main_cst_19) (constant (F := Ideal) S_ .f32 0x00000000#32 : FVec Ideal S_ .f32) ⟨by decide, rfl⟩ rfl (by decide +kernel)
theorem val_261 (V : Valuation τ sig (Elt Ideal)) :
    after line V (Proc.devRef .tc main_v213) = broadcastInDim S50000x128 ![] bcast_S_S50000x128 (after line V (Proc.devRef .tc main_cst_19) : FVec Ideal S_ .f32) :=
  unary_final hw V 261 (lt_len (by decide)) (x := main_cst_19) (y := main_v213) (broadcastInDim S50000x128 ![] bcast_S_S50000x128 : FVec Ideal S_ .f32 → FVec Ideal S50000x128 .f32) ⟨by decide, rfl⟩ ⟨by decide, rfl⟩ rfl (by decide +kernel) (by decide +kernel)
theorem val_262 (V : Valuation τ sig (Elt Ideal)) :
    after line V (Proc.devRef .tc main_v214) = broadcastInDim S640000x1 ![0] bcast_S640000_S640000x1_0 (after line V (Proc.devRef .tc main_v142) : IVec S640000 32) :=
  unary_final hw V 262 (lt_len (by decide)) (x := main_v142) (y := main_v214) (broadcastInDim S640000x1 ![0] bcast_S640000_S640000x1_0 : IVec S640000 32 → IVec S640000x1 32) ⟨by decide, rfl⟩ ⟨by decide, rfl⟩ rfl (by decide +kernel) (by decide +kernel)
theorem val_263 (V : Valuation τ sig (Elt Ideal)) :
    after line V (Proc.devRef .tc main_v215) = Host.scatterAdd (F := Ideal) (φ := .f32) scatter_S50000x128_S640000x1_S640000x128_1_0_0_1 (after line V (Proc.devRef .tc main_v213) : FVec Ideal S50000x128 .f32) (after line V (Proc.devRef .tc main_v214) : IVec S640000x1 32) (after line V (Proc.devRef .tc main_v212) : FVec Ideal S640000x128 .f32) :=
  ternary_final hw V 263 (lt_len (by decide)) (c := main_v213) (a := main_v214) (b := main_v212) (y := main_v215) ((fun x i u => Host.scatterAdd (F := Ideal) scatter_S50000x128_S640000x1_S640000x128_1_0_0_1 x i u) : FVec Ideal S50000x128 .f32 → IVec S640000x1 32 → FVec Ideal S640000x128 .f32 → FVec Ideal S50000x128 .f32) ⟨by decide, rfl⟩ ⟨by decide, rfl⟩ ⟨by decide, rfl⟩ ⟨by decide, rfl⟩ rfl (by decide +kernel) (by decide +kernel) (by decide +kernel) (by decide +kernel)
theorem val_264 (V : Valuation τ sig (Elt Ideal)) :
    after line V (Proc.devRef .tc main_v216) = addf (F := Ideal) (φ := .f32) (after line V (Proc.devRef .tc main_v215) : FVec Ideal S50000x128 .f32) (after line V (Proc.devRef .tc main_v205) : FVec Ideal S50000x128 .f32) :=
  binary_final hw V 264 (lt_len (by decide)) (a := main_v215) (b := main_v205) (y := main_v216) (addf (F := Ideal) : FVec Ideal S50000x128 .f32 → FVec Ideal S50000x128 .f32 → FVec Ideal S50000x128 .f32) ⟨by decide, rfl⟩ ⟨by decide, rfl⟩ ⟨by decide, rfl⟩ rfl (by decide +kernel) (by decide +kernel) (by decide +kernel)
theorem val_265 (V : Valuation τ sig (Elt Ideal)) :
    after line V (Proc.devRef .tc main_v217) = extractStridedSlice S1x128x128 ![2, 0, 0] (after line V (Proc.devRef .tc main_arg8) : FVec Ideal S4x128x128 .f32) slices_S4x128x128_S1x128x128_2_0_0 :=
  unary_final hw V 265 (lt_len (by decide)) (x := main_arg8) (y := main_v217) ((extractStridedSlice S1x128x128 ![2, 0, 0] · slices_S4x128x128_S1x128x128_2_0_0) : FVec Ideal S4x128x128 .f32 → FVec Ideal S1x128x128 .f32) ⟨by decide, rfl⟩ ⟨by decide, rfl⟩ rfl (by decide +kernel) (by decide +kernel)
theorem val_266 (V : Valuation τ sig (Elt Ideal)) :
    after line V (Proc.devRef .tc main_v218) = shapeCast S128x128 (after line V (Proc.devRef .tc main_v217) : FVec Ideal S1x128x128 .f32) shapeCasts_S1x128x128_S128x128 :=
  reshape_final hw V 266 (lt_len (by decide)) (x := main_v217) (y := main_v218) rfl shapeCasts_S1x128x128_S128x128 ⟨by decide, rfl⟩ ⟨by decide, rfl⟩ rfl (by decide +kernel) (by decide +kernel)
theorem val_267 (V : Valuation τ sig (Elt Ideal)) :
    after line V (Proc.devRef .tc main_v219) = Host.dotGeneral (F := Ideal) (φ₁ := .f32) (φ₂ := .f32) dot_S50000x128_S128x128_S50000x128_1_0_0_1_n_n none (after line V (Proc.devRef .tc main_v216) : FVec Ideal S50000x128 .f32) (after line V (Proc.devRef .tc main_v218) : FVec Ideal S128x128 .f32) :=
  binary_final hw V 267 (lt_len (by decide)) (a := main_v216) (b := main_v218) (y := main_v219) ((fun l r => Host.dotGeneral (F := Ideal) dot_S50000x128_S128x128_S50000x128_1_0_0_1_n_n none l r) : FVec Ideal S50000x128 .f32 → FVec Ideal S128x128 .f32 → FVec Ideal S50000x128 .f32) ⟨by decide, rfl⟩ ⟨by decide, rfl⟩ ⟨by decide, rfl⟩ rfl (by decide +kernel) (by decide +kernel) (by decide +kernel)
theorem val_268 (V : Valuation τ sig (Elt Ideal)) :
    after line V (Proc.devRef .tc main_v220) = extractStridedSlice S1x128 ![2, 0] (after line V (Proc.devRef .tc main_arg9) : FVec Ideal S4x128 .f32) slices_S4x128_S1x128_2_0 :=
  unary_final hw V 268 (lt_len (by decide)) (x := main_arg9) (y := main_v220) ((extractStridedSlice S1x128 ![2, 0] · slices_S4x128_S1x128_2_0) : FVec Ideal S4x128 .f32 → FVec Ideal S1x128 .f32) ⟨by decide, rfl⟩ ⟨by decide, rfl⟩ rfl (by decide +kernel) (by decide +kernel)
theorem val_269 (V : Valuation τ sig (Elt Ideal)) :
    after line V (Proc.devRef .tc main_v221) = shapeCast S128 (after line V (Proc.devRef .tc main_v220) : FVec Ideal S1x128 .f32) shapeCasts_S1x128_S128 :=
  reshape_final hw V 269 (lt_len (by decide)) (x := main_v220) (y := main_v221) rfl shapeCasts_S1x128_S128 ⟨by decide, rfl⟩ ⟨by decide, rfl⟩ rfl (by decide +kernel) (by decide +kernel)
theorem val_270 (V : Valuation τ sig (Elt Ideal)) :
    after line V (Proc.devRef .tc main_v222) = broadcastInDim S1x128 ![1] bcast_S128_S1x128_1 (after line V (Proc.devRef .tc main_v221) : FVec Ideal S128 .f32) :=
  unary_final hw V 270 (lt_len (by decide)) (x := main_v221) (y := main_v222) (broadcastInDim S1x128 ![1] bcast_S128_S1x128_1 : FVec Ideal S128 .f32 → FVec Ideal S1x128 .f32) ⟨by decide, rfl⟩ ⟨by decide, rfl⟩ rfl (by decide +kernel) (by decide +kernel)
theorem val_271 (V : Valuation τ sig (Elt Ideal)) :
    after line V (Proc.devRef .tc main_v223) = broadcastInDim S50000x128 ![0, 1] bcast_S1x128_S50000x128_0_1 (after line V (Proc.devRef .tc main_v222) : FVec Ideal S1x128 .f32) :=
  unary_final hw V 271 (lt_len (by decide)) (x := main_v222) (y := main_v223) (broadcastInDim S50000x128 ![0, 1] bcast_S1x128_S50000x128_0_1 : FVec Ideal S1x128 .f32 → FVec Ideal S50000x128 .f32) ⟨by decide, rfl⟩ ⟨by decide, rfl⟩ rfl (by decide +kernel) (by decide +kernel)
theorem val_272 (V : Valuation τ sig (Elt Ideal)) :
    after line V (Proc.devRef .tc main_v224) = addf (F := Ideal) (φ := .f32) (after line V (Proc.devRef .tc main_v219) : FVec Ideal S50000x128 .f32) (after line V (Proc.devRef .tc main_v223) : FVec Ideal S50000x128 .f32) :=
  binary_final hw V 272 (lt_len (by decide)) (a := main_v219) (b := main_v223) (y := main_v224) (addf (F := Ideal) : FVec Ideal S50000x128 .f32 → FVec Ideal S50000x128 .f32 → FVec Ideal S50000x128 .f32) ⟨by decide, rfl⟩ ⟨by decide, rfl⟩ ⟨by decide, rfl⟩ rfl (by decide +kernel) (by decide +kernel) (by decide +kernel)
theorem val_273 (V : Valuation τ sig (Elt Ideal)) :
    after line V (Proc.devRef .tc main_call13_cst) = constant (F := Ideal) S_ .f32 0x00000000#32 :=
  nullary_final hw V 273 (lt_len (by decide)) (y := main_call13_cst) (constant (F := Ideal) S_ .f32 0x00000000#32 : FVec Ideal S_ .f32) ⟨by decide, rfl⟩ rfl (by decide +kernel)
theorem val_274 (V : Valuation τ sig (Elt Ideal)) :
    after line V (Proc.devRef .tc main_call13_v0) = broadcastInDim S50000x128 ![] bcast_S_S50000x128 (after line V (Proc.devRef .tc main_call13_cst) : FVec Ideal S_ .f32) :=
  unary_final hw V 274 (lt_len (by decide)) (x := main_call13_cst) (y := main_call13_v0) (broadcastInDim S50000x128 ![] bcast_S_S50000x128 : FVec Ideal S_ .f32 → FVec Ideal S50000x128 .f32) ⟨by decide, rfl⟩ ⟨by decide, rfl⟩ rfl (by decide +kernel) (by decide +kernel)
theorem val_275 (V : Valuation τ sig (Elt Ideal)) :
    after line V (Proc.devRef .tc main_v225) = maximumf (F := Ideal) (φ := .f32) (after line V (Proc.devRef .tc main_v224) : FVec Ideal S50000x128 .f32) (after line V (Proc.devRef .tc main_call13_v0) : FVec Ideal S50000x128 .f32) :=
  binary_final hw V 275 (lt_len (by decide)) (a := main_v224) (b := main_call13_v0) (y := main_v225) (maximumf (F := Ideal) : FVec Ideal S50000x128 .f32 → FVec Ideal S50000x128 .f32 → FVec Ideal S50000x128 .f32) ⟨by decide, rfl⟩ ⟨by decide, rfl⟩ ⟨by decide, rfl⟩ rfl (by decide +kernel) (by decide +kernel) (by decide +kernel)
theorem val_276 (V : Valuation τ sig (Elt Ideal)) :
    after line V (Proc.devRef .tc main_v226) = extractStridedSlice S1x128x128 ![2, 0, 0] (after line V (Proc.devRef .tc main_arg10) : FVec Ideal S4x128x128 .f32) slices_S4x128x128_S1x128x128_2_0_0 :=
  unary_final hw V 276 (lt_len (by decide)) (x := main_arg10) (y := main_v226) ((extractStridedSlice S1x128x128 ![2, 0, 0] · slices_S4x128x128_S1x128x128_2_0_0) : FVec Ideal S4x128x128 .f32 → FVec Ideal S1x128x128 .f32) ⟨by decide, rfl⟩ ⟨by decide, rfl⟩ rfl (by decide +kernel) (by decide +kernel)
theorem val_277 (V : Valuation τ sig (Elt Ideal)) :
    after line V (Proc.devRef .tc main_v227) = shapeCast S128x128 (after line V (Proc.devRef .tc main_v226) : FVec Ideal S1x128x128 .f32) shapeCasts_S1x128x128_S128x128 :=
  reshape_final hw V 277 (lt_len (by decide)) (x := main_v226) (y := main_v227) rfl shapeCasts_S1x128x128_S128x128 ⟨by decide, rfl⟩ ⟨by decide, rfl⟩ rfl (by decide +kernel) (by decide +kernel)
theorem val_278 (V : Valuation τ sig (Elt Ideal)) :
    after line V (Proc.devRef .tc main_v228) = Host.dotGeneral (F := Ideal) (φ₁ := .f32) (φ₂ := .f32) dot_S50000x128_S128x128_S50000x128_1_0_0_1_n_n none (after line V (Proc.devRef .tc main_v225) : FVec Ideal S50000x128 .f32) (after line V (Proc.devRef .tc main_v227) : FVec Ideal S128x128 .f32) :=
  binary_final hw V 278 (lt_len (by decide)) (a := main_v225) (b := main_v227) (y := main_v228) ((fun l r => Host.dotGeneral (F := Ideal) dot_S50000x128_S128x128_S50000x128_1_0_0_1_n_n none l r) : FVec Ideal S50000x128 .f32 → FVec Ideal S128x128 .f32 → FVec Ideal S50000x128 .f32) ⟨by decide, rfl⟩ ⟨by decide, rfl⟩ ⟨by decide, rfl⟩ rfl (by decide +kernel) (by decide +kernel) (by decide +kernel)
theorem val_279 (V : Valuation τ sig (Elt Ideal)) :
    after line V (Proc.devRef .tc main_v229) = extractStridedSlice S1x128 ![2, 0] (after line V (Proc.devRef .tc main_arg11) : FVec Ideal S4x128 .f32) slices_S4x128_S1x128_2_0 :=
  unary_final hw V 279 (lt_len (by decide)) (x := main_arg11) (y := main_v229) ((extractStridedSlice S1x128 ![2, 0] · slices_S4x128_S1x128_2_0) : FVec Ideal S4x128 .f32 → FVec Ideal S1x128 .f32) ⟨by decide, rfl⟩ ⟨by decide, rfl⟩ rfl (by decide +kernel) (by decide +kernel)
theorem val_280 (V : Valuation τ sig (Elt Ideal)) :
    after line V (Proc.devRef .tc main_v230) = shapeCast S128 (after line V (Proc.devRef .tc main_v229) : FVec Ideal S1x128 .f32) shapeCasts_S1x128_S128 :=
  reshape_final hw V 280 (lt_len (by decide)) (x := main_v229) (y := main_v230) rfl shapeCasts_S1x128_S128 ⟨by decide, rfl⟩ ⟨by decide, rfl⟩ rfl (by decide +kernel) (by decide +kernel)
theorem val_281 (V : Valuation τ sig (Elt Ideal)) :
    after line V (Proc.devRef .tc main_v231) = broadcastInDim S1x128 ![1] bcast_S128_S1x128_1 (after line V (Proc.devRef .tc main_v230) : FVec Ideal S128 .f32) :=
  unary_final hw V 281 (lt_len (by decide)) (x := main_v230) (y := main_v231) (broadcastInDim S1x128 ![1] bcast_S128_S1x128_1 : FVec Ideal S128 .f32 → FVec Ideal S1x128 .f32) ⟨by decide, rfl⟩ ⟨by decide, rfl⟩ rfl (by decide +kernel) (by decide +kernel)
theorem val_282 (V : Valuation τ sig (Elt Ideal)) :
    after line V (Proc.devRef .tc main_v232) = broadcastInDim S50000x128 ![0, 1] bcast_S1x128_S50000x128_0_1 (after line V (Proc.devRef .tc main_v231) : FVec Ideal S1x128 .f32) :=
  unary_final hw V 282 (lt_len (by decide)) (x := main_v231) (y := main_v232) (broadcastInDim S50000x128 ![0, 1] bcast_S1x128_S50000x128_0_1 : FVec Ideal S1x128 .f32 → FVec Ideal S50000x128 .f32) ⟨by decide, rfl⟩ ⟨by decide, rfl⟩ rfl (by decide +kernel) (by decide +kernel)
theorem val_283 (V : Valuation τ sig (Elt Ideal)) :
    after line V (Proc.devRef .tc main_v233) = addf (F := Ideal) (φ := .f32) (after line V (Proc.devRef .tc main_v228) : FVec Ideal S50000x128 .f32) (after line V (Proc.devRef .tc main_v232) : FVec Ideal S50000x128 .f32) :=
  binary_final hw V 283 (lt_len (by decide)) (a := main_v228) (b := main_v232) (y := main_v233) (addf (F := Ideal) : FVec Ideal S50000x128 .f32 → FVec Ideal S50000x128 .f32 → FVec Ideal S50000x128 .f32) ⟨by decide, rfl⟩ ⟨by decide, rfl⟩ ⟨by decide, rfl⟩ rfl (by decide +kernel) (by decide +kernel) (by decide +kernel)
theorem val_284 (V : Valuation τ sig (Elt Ideal)) :
    after line V (Proc.devRef .tc main_call14_cst) = constant (F := Ideal) S_ .f32 0x00000000#32 :=
  nullary_final hw V 284 (lt_len (by decide)) (y := main_call14_cst) (constant (F := Ideal) S_ .f32 0x00000000#32 : FVec Ideal S_ .f32) ⟨by decide, rfl⟩ rfl (by decide +kernel)
theorem val_285 (V : Valuation τ sig (Elt Ideal)) :
    after line V (Proc.devRef .tc main_call14_v0) = broadcastInDim S50000x128 ![] bcast_S_S50000x128 (after line V (Proc.devRef .tc main_call14_cst) : FVec Ideal S_ .f32) :=
  unary_final hw V 285 (lt_len (by decide)) (x := main_call14_cst) (y := main_call14_v0) (broadcastInDim S50000x128 ![] bcast_S_S50000x128 : FVec Ideal S_ .f32 → FVec Ideal S50000x128 .f32) ⟨by decide, rfl⟩ ⟨by decide, rfl⟩ rfl (by decide +kernel) (by decide +kernel)
theorem val_286 (V : Valuation τ sig (Elt Ideal)) :
    after line V (Proc.devRef .tc main_v234) = maximumf (F := Ideal) (φ := .f32) (after line V (Proc.devRef .tc main_v233) : FVec Ideal S50000x128 .f32) (after line V (Proc.devRef .tc main_call14_v0) : FVec Ideal S50000x128 .f32) :=
  binary_final hw V 286 (lt_len (by decide)) (a := main_v233) (b := main_call14_v0) (y := main_v234) (maximumf (F := Ideal) : FVec Ideal S50000x128 .f32 → FVec Ideal S50000x128 .f32 → FVec Ideal S50000x128 .f32) ⟨by decide, rfl⟩ ⟨by decide, rfl⟩ ⟨by decide, rfl⟩ rfl (by decide +kernel) (by decide +kernel) (by decide +kernel)
theorem val_287 (V : Valuation τ sig (Elt Ideal)) :
    after line V (Proc.devRef .tc main_c_20) = constantI S_ 32 0#32 :=
  nullary_final hw V 287 (lt_len (by decide)) (y := main_c_20) (constantI S_ 32 0#32 : IVec S_ 32) ⟨by decide, rfl⟩ rfl (by decide +kernel)
theorem val_288 (V : Valuation τ sig (Elt Ideal)) :
    after line V (Proc.devRef .tc main_v235) = broadcastInDim S640000 ![] bcast_S_S640000 (after line V (Proc.devRef .tc main_c_20) : IVec S_ 32) :=
  unary_final hw V 288 (lt_len (by decide)) (x := main_c_20) (y := main_v235) (broadcastInDim S640000 ![] bcast_S_S640000 : IVec S_ 32 → IVec S640000 32) ⟨by decide, rfl⟩ ⟨by decide, rfl⟩ rfl (by decide +kernel) (by decide +kernel)
theorem val_289 (V : Valuation τ sig (Elt Ideal)) :
    after line V (Proc.devRef .tc main_v236) = cmpi .slt (after line V (Proc.devRef .tc main_v140) : IVec S640000 32) (after line V (Proc.devRef .tc main_v235) : IVec S640000 32) :=
  binary_final hw V 289 (lt_len (by decide)) (a := main_v140) (b := main_v235) (y := main_v236) (cmpi .slt : IVec S640000 32 → IVec S640000 32 → IVec S640000 1) ⟨by decide, rfl⟩ ⟨by decide, rfl⟩ ⟨by decide, rfl⟩ rfl (by decide +kernel) (by decide +kernel) (by decide +kernel)
theorem val_290 (V : Valuation τ sig (Elt Ideal)) :
    after line V (Proc.devRef .tc main_c_21) = constantI S_ 32 50000#32 :=
  nullary_final hw V 290 (lt_len (by decide)) (y := main_c_21) (constantI S_ 32 50000#32 : IVec S_ 32) ⟨by decide, rfl⟩ rfl (by decide +kernel)
theorem val_291 (V : Valuation τ sig (Elt Ideal)) :
    after line V (Proc.devRef .tc main_v237) = broadcastInDim S640000 ![] bcast_S_S640000 (after line V (Proc.devRef .tc main_c_21) : IVec S_ 32) :=
  unary_final hw V 291 (lt_len (by decide)) (x := main_c_21) (y := main_v237) (broadcastInDim S640000 ![] bcast_S_S640000 : IVec S_ 32 → IVec S640000 32) ⟨by decide, rfl⟩ ⟨by decide, rfl⟩ rfl (by decide +kernel) (by decide +kernel)
theorem val_292 (V : Valuation τ sig (Elt Ideal)) :
    after line V (Proc.devRef .tc main_v238) = addi (after line V (Proc.devRef .tc main_v140) : IVec S640000 32) (after line V (Proc.devRef .tc main_v237) : IVec S640000 32) :=
  binary_final hw V 292 (lt_len (by decide)) (a := main_v140) (b := main_v237) (y := main_v238) (addi : IVec S640000 32 → IVec S640000 32 → IVec S640000 32) ⟨by decide, rfl⟩ ⟨by decide, rfl⟩ ⟨by decide, rfl⟩ rfl (by decide +kernel) (by decide +kernel) (by decide +kernel)
theorem val_293 (V : Valuation τ sig (Elt Ideal)) :
    after line V (Proc.devRef .tc main_v239) = select (after line V (Proc.devRef .tc main_v236) : IVec S640000 1) (after line V (Proc.devRef .tc main_v238) : IVec S640000 32) (after line V (Proc.devRef .tc main_v140) : IVec S640000 32) :=
  ternary_final hw V 293 (lt_len (by decide)) (c := main_v236) (a := main_v238) (b := main_v140) (y := main_v239) (select : IVec S640000 1 → IVec S640000 32 → IVec S640000 32 → IVec S640000 32) ⟨by decide, rfl⟩ ⟨by decide, rfl⟩ ⟨by decide, rfl⟩ ⟨by decide, rfl⟩ rfl (by decide +kernel) (by decide +kernel) (by decide +kernel) (by decide +kernel)
theorem val_294 (V : Valuation τ sig (Elt Ideal)) :
    after line V (Proc.devRef .tc main_v240) = broadcastInDim S640000x1 ![0] bcast_S640000_S640000x1_0 (after line V (Proc.devRef .tc main_v239) : IVec S640000 32) :=
  unary_final hw V 294 (lt_len (by decide)) (x := main_v239) (y := main_v240) (broadcastInDim S640000x1 ![0] bcast_S640000_S640000x1_0 : IVec S640000 32 → IVec S640000x1 32) ⟨by decide, rfl⟩ ⟨by decide, rfl⟩ rfl (by decide +kernel) (by decide +kernel)
theorem val_295 (V : Valuation τ sig (Elt Ideal)) :
    after line V (Proc.devRef .tc main_v241) = Host.gather gather_S50000x128_S640000x1_S640000x128_1_0_n_n_0_1_1128 (after line V (Proc.devRef .tc main_v234) : FVec Ideal S50000x128 .f32) (after line V (Proc.devRef .tc main_v240) : IVec S640000x1 32) :=
  binary_final hw V 295 (lt_len (by decide)) (a := main_v234) (b := main_v240) (y := main_v241) ((fun x i => Host.gather gather_S50000x128_S640000x1_S640000x128_1_0_n_n_0_1_1128 x i) : FVec Ideal S50000x128 .f32 → IVec S640000x1 32 → FVec Ideal S640000x128 .f32) ⟨by decide, rfl⟩ ⟨by decide, rfl⟩ ⟨by decide, rfl⟩ rfl (by decide +kernel) (by decide +kernel) (by decide +kernel)
theorem val_296 (V : Valuation τ sig (Elt Ideal)) :
    after line V (Proc.devRef .tc main_cst_22) = constant (F := Ideal) S_ .f32 0x00000000#32 :=
  nullary_final hw V 296 (lt_len (by decide)) (y := main_cst_22) (constant (F := Ideal) S_ .f32 0x00000000#32 : FVec Ideal S_ .f32) ⟨by decide, rfl⟩ rfl (by decide +kernel)
theorem val_297 (V : Valuation τ sig (Elt Ideal)) :
    after line V (Proc.devRef .tc main_v242) = broadcastInDim S50000x128 ![] bcast_S_S50000x128 (after line V (Proc.devRef .tc main_cst_22) : FVec Ideal S_ .f32) :=
  unary_final hw V 297 (lt_len (by decide)) (x := main_cst_22) (y := main_v242) (broadcastInDim S50000x128 ![] bcast_S_S50000x128 : FVec Ideal S_ .f32 → FVec Ideal S50000x128 .f32) ⟨by decide, rfl⟩ ⟨by decide, rfl⟩ rfl (by decide +kernel) (by decide +kernel)
theorem val_298 (V : Valuation τ sig (Elt Ideal)) :
    after line V (Proc.devRef .tc main_v243) = broadcastInDim S640000x1 ![0] bcast_S640000_S640000x1_0 (after line V (Proc.devRef .tc main_v142) : IVec S640000 32) :=
  unary_final hw V 298 (lt_len (by decide)) (x := main_v142) (y := main_v243) (broadcastInDim S640000x1 ![0] bcast_S640000_S640000x1_0 : IVec S640000 32 → IVec S640000x1 32) ⟨by decide, rfl⟩ ⟨by decide, rfl⟩ rfl (by decide +kernel) (by decide +kernel)
theorem val_299 (V : Valuation τ sig (Elt Ideal)) :
    after line V (Proc.devRef .tc main_v244) = Host.scatterAdd (F := Ideal) (φ := .f32) scatter_S50000x128_S640000x1_S640000x128_1_0_0_1 (after line V (Proc.devRef .tc main_v242) : FVec Ideal S50000x128 .f32) (after line V (Proc.devRef .tc main_v243) : IVec S640000x1 32) (after line V (Proc.devRef .tc main_v241) : FVec Ideal S640000x128 .f32) :=
  ternary_final hw V 299 (lt_len (by decide)) (c := main_v242) (a := main_v243) (b := main_v241) (y := main_v244) ((fun x i u => Host.scatterAdd (F := Ideal) scatter_S50000x128_S640000x1_S640000x128_1_0_0_1 x i u) : FVec Ideal S50000x128 .f32 → IVec S640000x1 32 → FVec Ideal S640000x128 .f32 → FVec Ideal S50000x128 .f32) ⟨by decide, rfl⟩ ⟨by decide, rfl⟩ ⟨by decide, rfl⟩ ⟨by decide, rfl⟩ rfl (by decide +kernel) (by decide +kernel) (by decide +kernel) (by decide +kernel)
theorem val_300 (V : Valuation τ sig (Elt Ideal)) :
    after line V (Proc.devRef .tc main_v245) = addf (F := Ideal) (φ := .f32) (after line V (Proc.devRef .tc main_v244) : FVec Ideal S50000x128 .f32) (after line V (Proc.devRef .tc main_v234) : FVec Ideal S50000x128 .f32) :=
  binary_final hw V 300 (lt_len (by decide)) (a := main_v244) (b := main_v234) (y := main_v245) (addf (F := Ideal) : FVec Ideal S50000x128 .f32 → FVec Ideal S50000x128 .f32 → FVec Ideal S50000x128 .f32) ⟨by decide, rfl⟩ ⟨by decide, rfl⟩ ⟨by decide, rfl⟩ rfl (by decide +kernel) (by decide +kernel) (by decide +kernel)
theorem val_301 (V : Valuation τ sig (Elt Ideal)) :
    after line V (Proc.devRef .tc main_v246) = extractStridedSlice S1x128x128 ![3, 0, 0] (after line V (Proc.devRef .tc main_arg8) : FVec Ideal S4x128x128 .f32) slices_S4x128x128_S1x128x128_3_0_0 :=
  unary_final hw V 301 (lt_len (by decide)) (x := main_arg8) (y := main_v246) ((extractStridedSlice S1x128x128 ![3, 0, 0] · slices_S4x128x128_S1x128x128_3_0_0) : FVec Ideal S4x128x128 .f32 → FVec Ideal S1x128x128 .f32) ⟨by decide, rfl⟩ ⟨by decide, rfl⟩ rfl (by decide +kernel) (by decide +kernel)
theorem val_302 (V : Valuation τ sig (Elt Ideal)) :
    after line V (Proc.devRef .tc main_v247) = shapeCast S128x128 (after line V (Proc.devRef .tc main_v246) : FVec Ideal S1x128x128 .f32) shapeCasts_S1x128x128_S128x128 :=
  reshape_final hw V 302 (lt_len (by decide)) (x := main_v246) (y := main_v247) rfl shapeCasts_S1x128x128_S128x128 ⟨by decide, rfl⟩ ⟨by decide, rfl⟩ rfl (by decide +kernel) (by decide +kernel)
theorem val_303 (V : Valuation τ sig (Elt Ideal)) :
    after line V (Proc.devRef .tc main_v248) = Host.dotGeneral (F := Ideal) (φ₁ := .f32) (φ₂ := .f32) dot_S50000x128_S128x128_S50000x128_1_0_0_1_n_n none (after line V (Proc.devRef .tc main_v245) : FVec Ideal S50000x128 .f32) (after line V (Proc.devRef .tc main_v247) : FVec Ideal S128x128 .f32) :=
  binary_final hw V 303 (lt_len (by decide)) (a := main_v245) (b := main_v247) (y := main_v248) ((fun l r => Host.dotGeneral (F := Ideal) dot_S50000x128_S128x128_S50000x128_1_0_0_1_n_n none l r) : FVec Ideal S50000x128 .f32 → FVec Ideal S128x128 .f32 → FVec Ideal S50000x128 .f32) ⟨by decide, rfl⟩ ⟨by decide, rfl⟩ ⟨by decide, rfl⟩ rfl (by decide +kernel) (by decide +kernel) (by decide +kernel)
theorem val_304 (V : Valuation τ sig (Elt Ideal)) :
    after line V (Proc.devRef .tc main_v249) = extractStridedSlice S1x128 ![3, 0] (after line V (Proc.devRef .tc main_arg9) : FVec Ideal S4x128 .f32) slices_S4x128_S1x128_3_0 :=
  unary_final hw V 304 (lt_len (by decide)) (x := main_arg9) (y := main_v249) ((extractStridedSlice S1x128 ![3, 0] · slices_S4x128_S1x128_3_0) : FVec Ideal S4x128 .f32 → FVec Ideal S1x128 .f32) ⟨by decide, rfl⟩ ⟨by decide, rfl⟩ rfl (by decide +kernel) (by decide +kernel)
theorem val_305 (V : Valuation τ sig (Elt Ideal)) :
    after line V (Proc.devRef .tc main_v250) = shapeCast S128 (after line V (Proc.devRef .tc main_v249) : FVec Ideal S1x128 .f32) shapeCasts_S1x128_S128 :=
  reshape_final hw V 305 (lt_len (by decide)) (x := main_v249) (y := main_v250) rfl shapeCasts_S1x128_S128 ⟨by decide, rfl⟩ ⟨by decide, rfl⟩ rfl (by decide +kernel) (by decide +kernel)
theorem val_306 (V : Valuation τ sig (Elt Ideal)) :
    after line V (Proc.devRef .tc main_v251) = broadcastInDim S1x128 ![1] bcast_S128_S1x128_1 (after line V (Proc.devRef .tc main_v250) : FVec Ideal S128 .f32) :=
  unary_final hw V 306 (lt_len (by decide)) (x := main_v250) (y := main_v251) (broadcastInDim S1x128 ![1] bcast_S128_S1x128_1 : FVec Ideal S128 .f32 → FVec Ideal S1x128 .f32) ⟨by decide, rfl⟩ ⟨by decide, rfl⟩ rfl (by decide +kernel) (by decide +kernel)
theorem val_307 (V : Valuation τ sig (Elt Ideal)) :
    after line V (Proc.devRef .tc main_v252) = broadcastInDim S50000x128 ![0, 1] bcast_S1x128_S50000x128_0_1 (after line V (Proc.devRef .tc main_v251) : FVec Ideal S1x128 .f32) :=
  unary_final hw V 307 (lt_len (by decide)) (x := main_v251) (y := main_v252) (broadcastInDim S50000x128 ![0, 1] bcast_S1x128_S50000x128_0_1 : FVec Ideal S1x128 .f32 → FVec Ideal S50000x128 .f32) ⟨by decide, rfl⟩ ⟨by decide, rfl⟩ rfl (by decide +kernel) (by decide +kernel)
theorem val_308 (V : Valuation τ sig (Elt Ideal)) :
    after line V (Proc.devRef .tc main_v253) = addf (F := Ideal) (φ := .f32) (after line V (Proc.devRef .tc main_v248) : FVec Ideal S50000x128 .f32) (after line V (Proc.devRef .tc main_v252) : FVec Ideal S50000x128 .f32) :=
  binary_final hw V 308 (lt_len (by decide)) (a := main_v248) (b := main_v252) (y := main_v253) (addf (F := Ideal) : FVec Ideal S50000x128 .f32 → FVec Ideal S50000x128 .f32 → FVec Ideal S50000x128 .f32) ⟨by decide, rfl⟩ ⟨by decide, rfl⟩ ⟨by decide, rfl⟩ rfl (by decide +kernel) (by decide +kernel) (by decide +kernel)
theorem val_309 (V : Valuation τ sig (Elt Ideal)) :
    after line V (Proc.devRef .tc main_call15_cst) = constant (F := Ideal) S_ .f32 0x00000000#32 :=
  nullary_final hw V 309 (lt_len (by decide)) (y := main_call15_cst) (constant (F := Ideal) S_ .f32 0x00000000#32 : FVec Ideal S_ .f32) ⟨by decide, rfl⟩ rfl (by decide +kernel)
theorem val_310 (V : Valuation τ sig (Elt Ideal)) :
    after line V (Proc.devRef .tc main_call15_v0) = broadcastInDim S50000x128 ![] bcast_S_S50000x128 (after line V (Proc.devRef .tc main_call15_cst) : FVec Ideal S_ .f32) :=
  unary_final hw V 310 (lt_len (by decide)) (x := main_call15_cst) (y := main_call15_v0) (broadcastInDim S50000x128 ![] bcast_S_S50000x128 : FVec Ideal S_ .f32 → FVec Ideal S50000x128 .f32) ⟨by decide, rfl⟩ ⟨by decide, rfl⟩ rfl (by decide +kernel) (by decide +kernel)
theorem val_311 (V : Valuation τ sig (Elt Ideal)) :
    after line V (Proc.devRef .tc main_v254) = maximumf (F := Ideal) (φ := .f32) (after line V (Proc.devRef .tc main_v253) : FVec Ideal S50000x128 .f32) (after line V (Proc.devRef .tc main_call15_v0) : FVec Ideal S50000x128 .f32) :=
  binary_final hw V 311 (lt_len (by decide)) (a := main_v253) (b := main_call15_v0) (y := main_v254) (maximumf (F := Ideal) : FVec Ideal S50000x128 .f32 → FVec Ideal S50000x128 .f32 → FVec Ideal S50000x128 .f32) ⟨by decide, rfl⟩ ⟨by decide, rfl⟩ ⟨by decide, rfl⟩ rfl (by decide +kernel) (by decide +kernel) (by decide +kernel)
theorem val_312 (V : Valuation τ sig (Elt Ideal)) :
    after line V (Proc.devRef .tc main_v255) = extractStridedSlice S1x128x128 ![3, 0, 0] (after line V (Proc.devRef .tc main_arg10) : FVec Ideal S4x128x128 .f32) slices_S4x128x128_S1x128x128_3_0_0 :=
  unary_final hw V 312 (lt_len (by decide)) (x := main_arg10) (y := main_v255) ((extractStridedSlice S1x128x128 ![3, 0, 0] · slices_S4x128x128_S1x128x128_3_0_0) : FVec Ideal S4x128x128 .f32 → FVec Ideal S1x128x128 .f32) ⟨by decide, rfl⟩ ⟨by decide, rfl⟩ rfl (by decide +kernel) (by decide +kernel)
theorem val_313 (V : Valuation τ sig (Elt Ideal)) :
    after line V (Proc.devRef .tc main_v256) = shapeCast S128x128 (after line V (Proc.devRef .tc main_v255) : FVec Ideal S1x128x128 .f32) shapeCasts_S1x128x128_S128x128 :=
  reshape_final hw V 313 (lt_len (by decide)) (x := main_v255) (y := main_v256) rfl shapeCasts_S1x128x128_S128x128 ⟨by decide, rfl⟩ ⟨by decide, rfl⟩ rfl (by decide +kernel) (by decide +kernel)
theorem val_314 (V : Valuation τ sig (Elt Ideal)) :
    after line V (Proc.devRef .tc main_v257) = Host.dotGeneral (F := Ideal) (φ₁ := .f32) (φ₂ := .f32) dot_S50000x128_S128x128_S50000x128_1_0_0_1_n_n none (after line V (Proc.devRef .tc main_v254) : FVec Ideal S50000x128 .f32) (after line V (Proc.devRef .tc main_v256) : FVec Ideal S128x128 .f32) :=
  binary_final hw V 314 (lt_len (by decide)) (a := main_v254) (b := main_v256) (y := main_v257) ((fun l r => Host.dotGeneral (F := Ideal) dot_S50000x128_S128x128_S50000x128_1_0_0_1_n_n none l r) : FVec Ideal S50000x128 .f32 → FVec Ideal S128x128 .f32 → FVec Ideal S50000x128 .f32) ⟨by decide, rfl⟩ ⟨by decide, rfl⟩ ⟨by decide, rfl⟩ rfl (by decide +kernel) (by decide +kernel) (by decide +kernel)
theorem val_315 (V : Valuation τ sig (Elt Ideal)) :
    after line V (Proc.devRef .tc main_v258) = extractStridedSlice S1x128 ![3, 0] (after line V (Proc.devRef .tc main_arg11) : FVec Ideal S4x128 .f32) slices_S4x128_S1x128_3_0 :=
  unary_final hw V 315 (lt_len (by decide)) (x := main_arg11) (y := main_v258) ((extractStridedSlice S1x128 ![3, 0] · slices_S4x128_S1x128_3_0) : FVec Ideal S4x128 .f32 → FVec Ideal S1x128 .f32) ⟨by decide, rfl⟩ ⟨by decide, rfl⟩ rfl (by decide +kernel) (by decide +kernel)
theorem val_316 (V : Valuation τ sig (Elt Ideal)) :
    after line V (Proc.devRef .tc main_v259) = shapeCast S128 (after line V (Proc.devRef .tc main_v258) : FVec Ideal S1x128 .f32) shapeCasts_S1x128_S128 :=
  reshape_final hw V 316 (lt_len (by decide)) (x := main_v258) (y := main_v259) rfl shapeCasts_S1x128_S128 ⟨by decide, rfl⟩ ⟨by decide, rfl⟩ rfl (by decide +kernel) (by decide +kernel)
theorem val_317 (V : Valuation τ sig (Elt Ideal)) :
    after line V (Proc.devRef .tc main_v260) = broadcastInDim S1x128 ![1] bcast_S128_S1x128_1 (after line V (Proc.devRef .tc main_v259) : FVec Ideal S128 .f32) :=
  unary_final hw V 317 (lt_len (by decide)) (x := main_v259) (y := main_v260) (broadcastInDim S1x128 ![1] bcast_S128_S1x128_1 : FVec Ideal S128 .f32 → FVec Ideal S1x128 .f32) ⟨by decide, rfl⟩ ⟨by decide, rfl⟩ rfl (by decide +kernel) (by decide +kernel)
theorem val_318 (V : Valuation τ sig (Elt Ideal)) :
    after line V (Proc.devRef .tc main_v261) = broadcastInDim S50000x128 ![0, 1] bcast_S1x128_S50000x128_0_1 (after line V (Proc.devRef .tc main_v260) : FVec Ideal S1x128 .f32) :=
  unary_final hw V 318 (lt_len (by decide)) (x := main_v260) (y := main_v261) (broadcastInDim S50000x128 ![0, 1] bcast_S1x128_S50000x128_0_1 : FVec Ideal S1x128 .f32 → FVec Ideal S50000x128 .f32) ⟨by decide, rfl⟩ ⟨by decide, rfl⟩ rfl (by decide +kernel) (by decide +kernel)
theorem val_319 (V : Valuation τ sig (Elt Ideal)) :
    after line V (Proc.devRef .tc main_v262) = addf (F := Ideal) (φ := .f32) (after line V (Proc.devRef .tc main_v257) : FVec Ideal S50000x128 .f32) (after line V (Proc.devRef .tc main_v261) : FVec Ideal S50000x128 .f32) :=
  binary_final hw V 319 (lt_len (by decide)) (a := main_v257) (b := main_v261) (y := main_v262) (addf (F := Ideal) : FVec Ideal S50000x128 .f32 → FVec Ideal S50000x128 .f32 → FVec Ideal S50000x128 .f32) ⟨by decide, rfl⟩ ⟨by decide, rfl⟩ ⟨by decide, rfl⟩ rfl (by decide +kernel) (by decide +kernel) (by decide +kernel)

end Cert.RefVal

end
-- ==== Proof.RefVal4.lean ====
import proofs.«106875_j87694642250037_1_alg».proof.Proof.RefLine

/-!
# The reference's operations 320 … 398, each read over the line's final values

One equation per operation: the line's final contents at the operation's result buffer are its function of the
final contents at its operand buffers.
-/

noncomputable section

namespace Cert.RefVal

open Cert.ReferenceIdeal Cert.ReferenceIdeal.Gen Cert.RefOps Cert.LineRead Idealize.ShloMosaic Idealize.ShloMosaic.TcCoe Idealize.SL.Sem Idealize.ShloMosaic.StableHlo Cert.RefLine

theorem val_320 (V : Valuation τ sig (Elt Ideal)) :
    after line V (Proc.devRef .tc main_v263) = addf (F := Ideal) (φ := .f32) (after line V (Proc.devRef .tc main_v262) : FVec Ideal S50000x128 .f32) (after line V (Proc.devRef .tc main_v204) : FVec Ideal S50000x128 .f32) :=
  binary_final hw V 320 (lt_len (by decide)) (a := main_v262) (b := main_v204) (y := main_v263) (addf (F := Ideal) : FVec Ideal S50000x128 .f32 → FVec Ideal S50000x128 .f32 → FVec Ideal S50000x128 .f32) ⟨by decide, rfl⟩ ⟨by decide, rfl⟩ ⟨by decide, rfl⟩ rfl (by decide +kernel) (by decide +kernel) (by decide +kernel)
theorem val_321 (V : Valuation τ sig (Elt Ideal)) :
    after line V (Proc.devRef .tc main_call16_cst) = constant (F := Ideal) S_ .f32 0x00000000#32 :=
  nullary_final hw V 321 (lt_len (by decide)) (y := main_call16_cst) (constant (F := Ideal) S_ .f32 0x00000000#32 : FVec Ideal S_ .f32) ⟨by decide, rfl⟩ rfl (by decide +kernel)
theorem val_322 (V : Valuation τ sig (Elt Ideal)) :
    after line V (Proc.devRef .tc main_call16_v0) = broadcastInDim S50000x128 ![] bcast_S_S50000x128 (after line V (Proc.devRef .tc main_call16_cst) : FVec Ideal S_ .f32) :=
  unary_final hw V 322 (lt_len (by decide)) (x := main_call16_cst) (y := main_call16_v0) (broadcastInDim S50000x128 ![] bcast_S_S50000x128 : FVec Ideal S_ .f32 → FVec Ideal S50000x128 .f32) ⟨by decide, rfl⟩ ⟨by decide, rfl⟩ rfl (by decide +kernel) (by decide +kernel)
theorem val_323 (V : Valuation τ sig (Elt Ideal)) :
    after line V (Proc.devRef .tc main_v264) = maximumf (F := Ideal) (φ := .f32) (after line V (Proc.devRef .tc main_v263) : FVec Ideal S50000x128 .f32) (after line V (Proc.devRef .tc main_call16_v0) : FVec Ideal S50000x128 .f32) :=
  binary_final hw V 323 (lt_len (by decide)) (a := main_v263) (b := main_call16_v0) (y := main_v264) (maximumf (F := Ideal) : FVec Ideal S50000x128 .f32 → FVec Ideal S50000x128 .f32 → FVec Ideal S50000x128 .f32) ⟨by decide, rfl⟩ ⟨by decide, rfl⟩ ⟨by decide, rfl⟩ rfl (by decide +kernel) (by decide +kernel) (by decide +kernel)
theorem val_324 (V : Valuation τ sig (Elt Ideal)) :
    after line V (Proc.devRef .tc main_v265) = concatenate S50000x640 1 [⟨S50000x128, (after line V (Proc.devRef .tc main_v146) : FVec Ideal S50000x128 .f32)⟩, ⟨S50000x128, (after line V (Proc.devRef .tc main_v175) : FVec Ideal S50000x128 .f32)⟩, ⟨S50000x128, (after line V (Proc.devRef .tc main_v205) : FVec Ideal S50000x128 .f32)⟩, ⟨S50000x128, (after line V (Proc.devRef .tc main_v234) : FVec Ideal S50000x128 .f32)⟩, ⟨S50000x128, (after line V (Proc.devRef .tc main_v264) : FVec Ideal S50000x128 .f32)⟩] concatenates_S50000x128_S50000x128_S50000x128_S50000x128_S50000x128_S50000x640_d1 :=
  (nary_final hw V 324 (lt_len (by decide)) (xs := ![main_v146, main_v175, main_v205, main_v234, main_v264]) (y := main_v265) ((fun u => concatenate S50000x640 1 [⟨S50000x128, u 0⟩, ⟨S50000x128, u 1⟩, ⟨S50000x128, u 2⟩, ⟨S50000x128, u 3⟩, ⟨S50000x128, u 4⟩] concatenates_S50000x128_S50000x128_S50000x128_S50000x128_S50000x128_S50000x640_d1)) (by decide) ⟨by decide, rfl⟩ rfl (by decide +kernel) (by decide +kernel)).trans rfl
theorem val_325 (V : Valuation τ sig (Elt Ideal)) :
    after line V (Proc.devRef .tc main_cst_23) = constant (F := Ideal) S_ .f32 0x00000000#32 :=
  nullary_final hw V 325 (lt_len (by decide)) (y := main_cst_23) (constant (F := Ideal) S_ .f32 0x00000000#32 : FVec Ideal S_ .f32) ⟨by decide, rfl⟩ rfl (by decide +kernel)
theorem val_326 (V : Valuation τ sig (Elt Ideal)) :
    after line V (Proc.devRef .tc main_v266) = broadcastInDim S1000x640 ![] bcast_S_S1000x640 (after line V (Proc.devRef .tc main_cst_23) : FVec Ideal S_ .f32) :=
  unary_final hw V 326 (lt_len (by decide)) (x := main_cst_23) (y := main_v266) (broadcastInDim S1000x640 ![] bcast_S_S1000x640 : FVec Ideal S_ .f32 → FVec Ideal S1000x640 .f32) ⟨by decide, rfl⟩ ⟨by decide, rfl⟩ rfl (by decide +kernel) (by decide +kernel)
theorem val_327 (V : Valuation τ sig (Elt Ideal)) :
    after line V (Proc.devRef .tc main_v267) = broadcastInDim S50000x1 ![0] bcast_S50000_S50000x1_0 (after line V (Proc.devRef .tc main_arg5) : IVec S50000 32) :=
  unary_final hw V 327 (lt_len (by decide)) (x := main_arg5) (y := main_v267) (broadcastInDim S50000x1 ![0] bcast_S50000_S50000x1_0 : IVec S50000 32 → IVec S50000x1 32) ⟨by decide, rfl⟩ ⟨by decide, rfl⟩ rfl (by decide +kernel) (by decide +kernel)
theorem val_328 (V : Valuation τ sig (Elt Ideal)) :
    after line V (Proc.devRef .tc main_v268) = Host.scatterAdd (F := Ideal) (φ := .f32) scatter_S1000x640_S50000x1_S50000x640_1_0_0_1 (after line V (Proc.devRef .tc main_v266) : FVec Ideal S1000x640 .f32) (after line V (Proc.devRef .tc main_v267) : IVec S50000x1 32) (after line V (Proc.devRef .tc main_v265) : FVec Ideal S50000x640 .f32) :=
  ternary_final hw V 328 (lt_len (by decide)) (c := main_v266) (a := main_v267) (b := main_v265) (y := main_v268) ((fun x i u => Host.scatterAdd (F := Ideal) scatter_S1000x640_S50000x1_S50000x640_1_0_0_1 x i u) : FVec Ideal S1000x640 .f32 → IVec S50000x1 32 → FVec Ideal S50000x640 .f32 → FVec Ideal S1000x640 .f32) ⟨by decide, rfl⟩ ⟨by decide, rfl⟩ ⟨by decide, rfl⟩ ⟨by decide, rfl⟩ rfl (by decide +kernel) (by decide +kernel) (by decide +kernel) (by decide +kernel)
theorem val_329 (V : Valuation τ sig (Elt Ideal)) :
    after line V (Proc.devRef .tc main_v269) = Host.dotGeneral (F := Ideal) (φ₁ := .f32) (φ₂ := .f32) dot_S1000x640_S640x128_S1000x128_1_0_0_1_n_n none (after line V (Proc.devRef .tc main_v268) : FVec Ideal S1000x640 .f32) (after line V (Proc.devRef .tc main_arg12) : FVec Ideal S640x128 .f32) :=
  binary_final hw V 329 (lt_len (by decide)) (a := main_v268) (b := main_arg12) (y := main_v269) ((fun l r => Host.dotGeneral (F := Ideal) dot_S1000x640_S640x128_S1000x128_1_0_0_1_n_n none l r) : FVec Ideal S1000x640 .f32 → FVec Ideal S640x128 .f32 → FVec Ideal S1000x128 .f32) ⟨by decide, rfl⟩ ⟨by decide, rfl⟩ ⟨by decide, rfl⟩ rfl (by decide +kernel) (by decide +kernel) (by decide +kernel)
theorem val_330 (V : Valuation τ sig (Elt Ideal)) :
    after line V (Proc.devRef .tc main_v270) = broadcastInDim S1x128 ![1] bcast_S128_S1x128_1 (after line V (Proc.devRef .tc main_arg13) : FVec Ideal S128 .f32) :=
  unary_final hw V 330 (lt_len (by decide)) (x := main_arg13) (y := main_v270) (broadcastInDim S1x128 ![1] bcast_S128_S1x128_1 : FVec Ideal S128 .f32 → FVec Ideal S1x128 .f32) ⟨by decide, rfl⟩ ⟨by decide, rfl⟩ rfl (by decide +kernel) (by decide +kernel)
theorem val_331 (V : Valuation τ sig (Elt Ideal)) :
    after line V (Proc.devRef .tc main_v271) = broadcastInDim S1000x128 ![0, 1] bcast_S1x128_S1000x128_0_1 (after line V (Proc.devRef .tc main_v270) : FVec Ideal S1x128 .f32) :=
  unary_final hw V 331 (lt_len (by decide)) (x := main_v270) (y := main_v271) (broadcastInDim S1000x128 ![0, 1] bcast_S1x128_S1000x128_0_1 : FVec Ideal S1x128 .f32 → FVec Ideal S1000x128 .f32) ⟨by decide, rfl⟩ ⟨by decide, rfl⟩ rfl (by decide +kernel) (by decide +kernel)
theorem val_332 (V : Valuation τ sig (Elt Ideal)) :
    after line V (Proc.devRef .tc main_v272) = addf (F := Ideal) (φ := .f32) (after line V (Proc.devRef .tc main_v269) : FVec Ideal S1000x128 .f32) (after line V (Proc.devRef .tc main_v271) : FVec Ideal S1000x128 .f32) :=
  binary_final hw V 332 (lt_len (by decide)) (a := main_v269) (b := main_v271) (y := main_v272) (addf (F := Ideal) : FVec Ideal S1000x128 .f32 → FVec Ideal S1000x128 .f32 → FVec Ideal S1000x128 .f32) ⟨by decide, rfl⟩ ⟨by decide, rfl⟩ ⟨by decide, rfl⟩ rfl (by decide +kernel) (by decide +kernel) (by decide +kernel)
theorem val_333 (V : Valuation τ sig (Elt Ideal)) :
    after line V (Proc.devRef .tc main_call17_cst) = constant (F := Ideal) S_ .f32 0x00000000#32 :=
  nullary_final hw V 333 (lt_len (by decide)) (y := main_call17_cst) (constant (F := Ideal) S_ .f32 0x00000000#32 : FVec Ideal S_ .f32) ⟨by decide, rfl⟩ rfl (by decide +kernel)
theorem val_334 (V : Valuation τ sig (Elt Ideal)) :
    after line V (Proc.devRef .tc main_call17_v0) = broadcastInDim S1000x128 ![] bcast_S_S1000x128 (after line V (Proc.devRef .tc main_call17_cst) : FVec Ideal S_ .f32) :=
  unary_final hw V 334 (lt_len (by decide)) (x := main_call17_cst) (y := main_call17_v0) (broadcastInDim S1000x128 ![] bcast_S_S1000x128 : FVec Ideal S_ .f32 → FVec Ideal S1000x128 .f32) ⟨by decide, rfl⟩ ⟨by decide, rfl⟩ rfl (by decide +kernel) (by decide +kernel)
theorem val_335 (V : Valuation τ sig (Elt Ideal)) :
    after line V (Proc.devRef .tc main_v273) = maximumf (F := Ideal) (φ := .f32) (after line V (Proc.devRef .tc main_v272) : FVec Ideal S1000x128 .f32) (after line V (Proc.devRef .tc main_call17_v0) : FVec Ideal S1000x128 .f32) :=
  binary_final hw V 335 (lt_len (by decide)) (a := main_v272) (b := main_call17_v0) (y := main_v273) (maximumf (F := Ideal) : FVec Ideal S1000x128 .f32 → FVec Ideal S1000x128 .f32 → FVec Ideal S1000x128 .f32) ⟨by decide, rfl⟩ ⟨by decide, rfl⟩ ⟨by decide, rfl⟩ rfl (by decide +kernel) (by decide +kernel) (by decide +kernel)
theorem val_336 (V : Valuation τ sig (Elt Ideal)) :
    after line V (Proc.devRef .tc main_v274) = Host.dotGeneral (F := Ideal) (φ₁ := .f32) (φ₂ := .f32) dot_S1000x128_S128x128_S1000x128_1_0_0_1_n_n none (after line V (Proc.devRef .tc main_v273) : FVec Ideal S1000x128 .f32) (after line V (Proc.devRef .tc main_arg14) : FVec Ideal S128x128 .f32) :=
  binary_final hw V 336 (lt_len (by decide)) (a := main_v273) (b := main_arg14) (y := main_v274) ((fun l r => Host.dotGeneral (F := Ideal) dot_S1000x128_S128x128_S1000x128_1_0_0_1_n_n none l r) : FVec Ideal S1000x128 .f32 → FVec Ideal S128x128 .f32 → FVec Ideal S1000x128 .f32) ⟨by decide, rfl⟩ ⟨by decide, rfl⟩ ⟨by decide, rfl⟩ rfl (by decide +kernel) (by decide +kernel) (by decide +kernel)
theorem val_337 (V : Valuation τ sig (Elt Ideal)) :
    after line V (Proc.devRef .tc main_v275) = broadcastInDim S1x128 ![1] bcast_S128_S1x128_1 (after line V (Proc.devRef .tc main_arg15) : FVec Ideal S128 .f32) :=
  unary_final hw V 337 (lt_len (by decide)) (x := main_arg15) (y := main_v275) (broadcastInDim S1x128 ![1] bcast_S128_S1x128_1 : FVec Ideal S128 .f32 → FVec Ideal S1x128 .f32) ⟨by decide, rfl⟩ ⟨by decide, rfl⟩ rfl (by decide +kernel) (by decide +kernel)
theorem val_338 (V : Valuation τ sig (Elt Ideal)) :
    after line V (Proc.devRef .tc main_v276) = broadcastInDim S1000x128 ![0, 1] bcast_S1x128_S1000x128_0_1 (after line V (Proc.devRef .tc main_v275) : FVec Ideal S1x128 .f32) :=
  unary_final hw V 338 (lt_len (by decide)) (x := main_v275) (y := main_v276) (broadcastInDim S1000x128 ![0, 1] bcast_S1x128_S1000x128_0_1 : FVec Ideal S1x128 .f32 → FVec Ideal S1000x128 .f32) ⟨by decide, rfl⟩ ⟨by decide, rfl⟩ rfl (by decide +kernel) (by decide +kernel)
theorem val_339 (V : Valuation τ sig (Elt Ideal)) :
    after line V (Proc.devRef .tc main_v277) = addf (F := Ideal) (φ := .f32) (after line V (Proc.devRef .tc main_v274) : FVec Ideal S1000x128 .f32) (after line V (Proc.devRef .tc main_v276) : FVec Ideal S1000x128 .f32) :=
  binary_final hw V 339 (lt_len (by decide)) (a := main_v274) (b := main_v276) (y := main_v277) (addf (F := Ideal) : FVec Ideal S1000x128 .f32 → FVec Ideal S1000x128 .f32 → FVec Ideal S1000x128 .f32) ⟨by decide, rfl⟩ ⟨by decide, rfl⟩ ⟨by decide, rfl⟩ rfl (by decide +kernel) (by decide +kernel) (by decide +kernel)
/-- Columns 0 … 63 of the graph features, as a function. -/
def fLo : FVec Ideal S1000x128 .f32 → FVec Ideal S1000x64 .f32 :=
  ((extractStridedSlice S1000x64 ![0, 0] · slices_S1000x128_S1000x64_0_0) : FVec Ideal S1000x128 .f32 → FVec Ideal S1000x64 .f32)
/-- Columns 64 … 127 of the graph features, as a function. -/
def fHi : FVec Ideal S1000x128 .f32 → FVec Ideal S1000x64 .f32 :=
  ((extractStridedSlice S1000x64 ![0, 64] · slices_S1000x128_S1000x64_0_64) : FVec Ideal S1000x128 .f32 → FVec Ideal S1000x64 .f32)
theorem val_340 (V : Valuation τ sig (Elt Ideal)) :
    after line V (Proc.devRef .tc main_v278) = extractStridedSlice S1000x64 ![0, 0] (after line V (Proc.devRef .tc main_v138) : FVec Ideal S1000x128 .f32) slices_S1000x128_S1000x64_0_0 :=
  unary_final hw V 340 (lt_len (by decide)) (x := main_v138) (y := main_v278) fLo ⟨by decide, rfl⟩ ⟨by decide, rfl⟩ rfl (by decide +kernel) (by decide +kernel)
theorem val_341 (V : Valuation τ sig (Elt Ideal)) :
    after line V (Proc.devRef .tc main_v279) = extractStridedSlice S1000x64 ![0, 64] (after line V (Proc.devRef .tc main_v138) : FVec Ideal S1000x128 .f32) slices_S1000x128_S1000x64_0_64 :=
  unary_final hw V 341 (lt_len (by decide)) (x := main_v138) (y := main_v279) fHi ⟨by decide, rfl⟩ ⟨by decide, rfl⟩ rfl (by decide +kernel) (by decide +kernel)
theorem val_342 (V : Valuation τ sig (Elt Ideal)) :
    after line V (Proc.devRef .tc main_v280) = extractStridedSlice S1000x64 ![0, 0] (after line V (Proc.devRef .tc main_v277) : FVec Ideal S1000x128 .f32) slices_S1000x128_S1000x64_0_0 :=
  unary_final hw V 342 (lt_len (by decide)) (x := main_v277) (y := main_v280) fLo ⟨by decide, rfl⟩ ⟨by decide, rfl⟩ rfl (by decide +kernel) (by decide +kernel)
theorem val_343 (V : Valuation τ sig (Elt Ideal)) :
    after line V (Proc.devRef .tc main_v281) = extractStridedSlice S1000x64 ![0, 64] (after line V (Proc.devRef .tc main_v277) : FVec Ideal S1000x128 .f32) slices_S1000x128_S1000x64_0_64 :=
  unary_final hw V 343 (lt_len (by decide)) (x := main_v277) (y := main_v281) fHi ⟨by decide, rfl⟩ ⟨by decide, rfl⟩ rfl (by decide +kernel) (by decide +kernel)
theorem val_344 (V : Valuation τ sig (Elt Ideal)) :
    after line V (Proc.devRef .tc main_v282) = subf (F := Ideal) (φ := .f32) (after line V (Proc.devRef .tc main_v278) : FVec Ideal S1000x64 .f32) (after line V (Proc.devRef .tc main_v280) : FVec Ideal S1000x64 .f32) :=
  binary_final hw V 344 (lt_len (by decide)) (a := main_v278) (b := main_v280) (y := main_v282) (subf (F := Ideal) : FVec Ideal S1000x64 .f32 → FVec Ideal S1000x64 .f32 → FVec Ideal S1000x64 .f32) ⟨by decide, rfl⟩ ⟨by decide, rfl⟩ ⟨by decide, rfl⟩ rfl (by decide +kernel) (by decide +kernel) (by decide +kernel)
theorem val_345 (V : Valuation τ sig (Elt Ideal)) :
    after line V (Proc.devRef .tc main_call18_cst) = constant (F := Ideal) S_ .f32 0x00000000#32 :=
  nullary_final hw V 345 (lt_len (by decide)) (y := main_call18_cst) (constant (F := Ideal) S_ .f32 0x00000000#32 : FVec Ideal S_ .f32) ⟨by decide, rfl⟩ rfl (by decide +kernel)
theorem val_346 (V : Valuation τ sig (Elt Ideal)) :
    after line V (Proc.devRef .tc main_call18_v0) = broadcastInDim S1000x64 ![] bcast_S_S1000x64 (after line V (Proc.devRef .tc main_call18_cst) : FVec Ideal S_ .f32) :=
  unary_final hw V 346 (lt_len (by decide)) (x := main_call18_cst) (y := main_call18_v0) (broadcastInDim S1000x64 ![] bcast_S_S1000x64 : FVec Ideal S_ .f32 → FVec Ideal S1000x64 .f32) ⟨by decide, rfl⟩ ⟨by decide, rfl⟩ rfl (by decide +kernel) (by decide +kernel)
theorem val_347 (V : Valuation τ sig (Elt Ideal)) :
    after line V (Proc.devRef .tc main_v283) = maximumf (F := Ideal) (φ := .f32) (after line V (Proc.devRef .tc main_v282) : FVec Ideal S1000x64 .f32) (after line V (Proc.devRef .tc main_call18_v0) : FVec Ideal S1000x64 .f32) :=
  binary_final hw V 347 (lt_len (by decide)) (a := main_v282) (b := main_call18_v0) (y := main_v283) (maximumf (F := Ideal) : FVec Ideal S1000x64 .f32 → FVec Ideal S1000x64 .f32 → FVec Ideal S1000x64 .f32) ⟨by decide, rfl⟩ ⟨by decide, rfl⟩ ⟨by decide, rfl⟩ rfl (by decide +kernel) (by decide +kernel) (by decide +kernel)
theorem val_348 (V : Valuation τ sig (Elt Ideal)) :
    after line V (Proc.devRef .tc main_v284) = mulf (F := Ideal) (φ := .f32) (after line V (Proc.devRef .tc main_v283) : FVec Ideal S1000x64 .f32) (after line V (Proc.devRef .tc main_v283) : FVec Ideal S1000x64 .f32) :=
  binary_final hw V 348 (lt_len (by decide)) (a := main_v283) (b := main_v283) (y := main_v284) (mulf (F := Ideal) : FVec Ideal S1000x64 .f32 → FVec Ideal S1000x64 .f32 → FVec Ideal S1000x64 .f32) ⟨by decide, rfl⟩ ⟨by decide, rfl⟩ ⟨by decide, rfl⟩ rfl (by decide +kernel) (by decide +kernel) (by decide +kernel)
theorem val_349 (V : Valuation τ sig (Elt Ideal)) :
    after line V (Proc.devRef .tc main_cst_24) = constant (F := Ideal) S_ .f32 0x00000000#32 :=
  nullary_final hw V 349 (lt_len (by decide)) (y := main_cst_24) (constant (F := Ideal) S_ .f32 0x00000000#32 : FVec Ideal S_ .f32) ⟨by decide, rfl⟩ rfl (by decide +kernel)
theorem val_350 (V : Valuation τ sig (Elt Ideal)) :
    after line V (Proc.devRef .tc main_v285) = Host.reduceAdd (F := Ideal) (φ := .f32) (after line V (Proc.devRef .tc main_v284) : FVec Ideal S1000x64 .f32) (after line V (Proc.devRef .tc main_cst_24) : FVec Ideal S_ .f32) reducesTo_S1000x64_S1000_d1 h_S_ :=
  binary_final hw V 350 (lt_len (by decide)) (a := main_v284) (b := main_cst_24) (y := main_v285) ((fun x v => Host.reduceAdd (F := Ideal) x v reducesTo_S1000x64_S1000_d1 h_S_) : FVec Ideal S1000x64 .f32 → FVec Ideal S_ .f32 → FVec Ideal S1000 .f32) ⟨by decide, rfl⟩ ⟨by decide, rfl⟩ ⟨by decide, rfl⟩ rfl (by decide +kernel) (by decide +kernel) (by decide +kernel)
theorem val_351 (V : Valuation τ sig (Elt Ideal)) :
    after line V (Proc.devRef .tc main_cst_25) = constant (F := Ideal) S_ .f32 0x3F000000#32 :=
  nullary_final hw V 351 (lt_len (by decide)) (y := main_cst_25) (constant (F := Ideal) S_ .f32 0x3F000000#32 : FVec Ideal S_ .f32) ⟨by decide, rfl⟩ rfl (by decide +kernel)
theorem val_352 (V : Valuation τ sig (Elt Ideal)) :
    after line V (Proc.devRef .tc main_v286) = broadcastInDim S1000 ![] bcast_S_S1000 (after line V (Proc.devRef .tc main_cst_25) : FVec Ideal S_ .f32) :=
  unary_final hw V 352 (lt_len (by decide)) (x := main_cst_25) (y := main_v286) (broadcastInDim S1000 ![] bcast_S_S1000 : FVec Ideal S_ .f32 → FVec Ideal S1000 .f32) ⟨by decide, rfl⟩ ⟨by decide, rfl⟩ rfl (by decide +kernel) (by decide +kernel)
theorem val_353 (V : Valuation τ sig (Elt Ideal)) :
    after line V (Proc.devRef .tc main_v287) = Host.powf (F := Ideal) (φ := .f32) (after line V (Proc.devRef .tc main_v285) : FVec Ideal S1000 .f32) (after line V (Proc.devRef .tc main_v286) : FVec Ideal S1000 .f32) :=
  binary_final hw V 353 (lt_len (by decide)) (a := main_v285) (b := main_v286) (y := main_v287) (Host.powf (F := Ideal) : FVec Ideal S1000 .f32 → FVec Ideal S1000 .f32 → FVec Ideal S1000 .f32) ⟨by decide, rfl⟩ ⟨by decide, rfl⟩ ⟨by decide, rfl⟩ rfl (by decide +kernel) (by decide +kernel) (by decide +kernel)
theorem val_354 (V : Valuation τ sig (Elt Ideal)) :
    after line V (Proc.devRef .tc main_cst_26) = constant (F := Ideal) S_ .f32 0x3F800000#32 :=
  nullary_final hw V 354 (lt_len (by decide)) (y := main_cst_26) (constant (F := Ideal) S_ .f32 0x3F800000#32 : FVec Ideal S_ .f32) ⟨by decide, rfl⟩ rfl (by decide +kernel)
theorem val_355 (V : Valuation τ sig (Elt Ideal)) :
    after line V (Proc.devRef .tc main_v288) = broadcastInDim S1000 ![] bcast_S_S1000 (after line V (Proc.devRef .tc main_cst_26) : FVec Ideal S_ .f32) :=
  unary_final hw V 355 (lt_len (by decide)) (x := main_cst_26) (y := main_v288) (broadcastInDim S1000 ![] bcast_S_S1000 : FVec Ideal S_ .f32 → FVec Ideal S1000 .f32) ⟨by decide, rfl⟩ ⟨by decide, rfl⟩ rfl (by decide +kernel) (by decide +kernel)
theorem val_356 (V : Valuation τ sig (Elt Ideal)) :
    after line V (Proc.devRef .tc main_v289) = mulf (F := Ideal) (φ := .f32) (after line V (Proc.devRef .tc main_v288) : FVec Ideal S1000 .f32) (after line V (Proc.devRef .tc main_v287) : FVec Ideal S1000 .f32) :=
  binary_final hw V 356 (lt_len (by decide)) (a := main_v288) (b := main_v287) (y := main_v289) (mulf (F := Ideal) : FVec Ideal S1000 .f32 → FVec Ideal S1000 .f32 → FVec Ideal S1000 .f32) ⟨by decide, rfl⟩ ⟨by decide, rfl⟩ ⟨by decide, rfl⟩ rfl (by decide +kernel) (by decide +kernel) (by decide +kernel)
theorem val_357 (V : Valuation τ sig (Elt Ideal)) :
    after line V (Proc.devRef .tc main_v290) = subf (F := Ideal) (φ := .f32) (after line V (Proc.devRef .tc main_v280) : FVec Ideal S1000x64 .f32) (after line V (Proc.devRef .tc main_v278) : FVec Ideal S1000x64 .f32) :=
  binary_final hw V 357 (lt_len (by decide)) (a := main_v280) (b := main_v278) (y := main_v290) (subf (F := Ideal) : FVec Ideal S1000x64 .f32 → FVec Ideal S1000x64 .f32 → FVec Ideal S1000x64 .f32) ⟨by decide, rfl⟩ ⟨by decide, rfl⟩ ⟨by decide, rfl⟩ rfl (by decide +kernel) (by decide +kernel) (by decide +kernel)
theorem val_358 (V : Valuation τ sig (Elt Ideal)) :
    after line V (Proc.devRef .tc main_call19_cst) = constant (F := Ideal) S_ .f32 0x00000000#32 :=
  nullary_final hw V 358 (lt_len (by decide)) (y := main_call19_cst) (constant (F := Ideal) S_ .f32 0x00000000#32 : FVec Ideal S_ .f32) ⟨by decide, rfl⟩ rfl (by decide +kernel)
theorem val_359 (V : Valuation τ sig (Elt Ideal)) :
    after line V (Proc.devRef .tc main_call19_v0) = broadcastInDim S1000x64 ![] bcast_S_S1000x64 (after line V (Proc.devRef .tc main_call19_cst) : FVec Ideal S_ .f32) :=
  unary_final hw V 359 (lt_len (by decide)) (x := main_call19_cst) (y := main_call19_v0) (broadcastInDim S1000x64 ![] bcast_S_S1000x64 : FVec Ideal S_ .f32 → FVec Ideal S1000x64 .f32) ⟨by decide, rfl⟩ ⟨by decide, rfl⟩ rfl (by decide +kernel) (by decide +kernel)
theorem val_360 (V : Valuation τ sig (Elt Ideal)) :
    after line V (Proc.devRef .tc main_v291) = maximumf (F := Ideal) (φ := .f32) (after line V (Proc.devRef .tc main_v290) : FVec Ideal S1000x64 .f32) (after line V (Proc.devRef .tc main_call19_v0) : FVec Ideal S1000x64 .f32) :=
  binary_final hw V 360 (lt_len (by decide)) (a := main_v290) (b := main_call19_v0) (y := main_v291) (maximumf (F := Ideal) : FVec Ideal S1000x64 .f32 → FVec Ideal S1000x64 .f32 → FVec Ideal S1000x64 .f32) ⟨by decide, rfl⟩ ⟨by decide, rfl⟩ ⟨by decide, rfl⟩ rfl (by decide +kernel) (by decide +kernel) (by decide +kernel)
theorem val_361 (V : Valuation τ sig (Elt Ideal)) :
    after line V (Proc.devRef .tc main_v292) = mulf (F := Ideal) (φ := .f32) (after line V (Proc.devRef .tc main_v291) : FVec Ideal S1000x64 .f32) (after line V (Proc.devRef .tc main_v291) : FVec Ideal S1000x64 .f32) :=
  binary_final hw V 361 (lt_len (by decide)) (a := main_v291) (b := main_v291) (y := main_v292) (mulf (F := Ideal) : FVec Ideal S1000x64 .f32 → FVec Ideal S1000x64 .f32 → FVec Ideal S1000x64 .f32) ⟨by decide, rfl⟩ ⟨by decide, rfl⟩ ⟨by decide, rfl⟩ rfl (by decide +kernel) (by decide +kernel) (by decide +kernel)
theorem val_362 (V : Valuation τ sig (Elt Ideal)) :
    after line V (Proc.devRef .tc main_cst_27) = constant (F := Ideal) S_ .f32 0x00000000#32 :=
  nullary_final hw V 362 (lt_len (by decide)) (y := main_cst_27) (constant (F := Ideal) S_ .f32 0x00000000#32 : FVec Ideal S_ .f32) ⟨by decide, rfl⟩ rfl (by decide +kernel)
theorem val_363 (V : Valuation τ sig (Elt Ideal)) :
    after line V (Proc.devRef .tc main_v293) = Host.reduceAdd (F := Ideal) (φ := .f32) (after line V (Proc.devRef .tc main_v292) : FVec Ideal S1000x64 .f32) (after line V (Proc.devRef .tc main_cst_27) : FVec Ideal S_ .f32) reducesTo_S1000x64_S1000_d1 h_S_ :=
  binary_final hw V 363 (lt_len (by decide)) (a := main_v292) (b := main_cst_27) (y := main_v293) ((fun x v => Host.reduceAdd (F := Ideal) x v reducesTo_S1000x64_S1000_d1 h_S_) : FVec Ideal S1000x64 .f32 → FVec Ideal S_ .f32 → FVec Ideal S1000 .f32) ⟨by decide, rfl⟩ ⟨by decide, rfl⟩ ⟨by decide, rfl⟩ rfl (by decide +kernel) (by decide +kernel) (by decide +kernel)
theorem val_364 (V : Valuation τ sig (Elt Ideal)) :
    after line V (Proc.devRef .tc main_cst_28) = constant (F := Ideal) S_ .f32 0x3F000000#32 :=
  nullary_final hw V 364 (lt_len (by decide)) (y := main_cst_28) (constant (F := Ideal) S_ .f32 0x3F000000#32 : FVec Ideal S_ .f32) ⟨by decide, rfl⟩ rfl (by decide +kernel)
theorem val_365 (V : Valuation τ sig (Elt Ideal)) :
    after line V (Proc.devRef .tc main_v294) = broadcastInDim S1000 ![] bcast_S_S1000 (after line V (Proc.devRef .tc main_cst_28) : FVec Ideal S_ .f32) :=
  unary_final hw V 365 (lt_len (by decide)) (x := main_cst_28) (y := main_v294) (broadcastInDim S1000 ![] bcast_S_S1000 : FVec Ideal S_ .f32 → FVec Ideal S1000 .f32) ⟨by decide, rfl⟩ ⟨by decide, rfl⟩ rfl (by decide +kernel) (by decide +kernel)
theorem val_366 (V : Valuation τ sig (Elt Ideal)) :
    after line V (Proc.devRef .tc main_v295) = Host.powf (F := Ideal) (φ := .f32) (after line V (Proc.devRef .tc main_v293) : FVec Ideal S1000 .f32) (after line V (Proc.devRef .tc main_v294) : FVec Ideal S1000 .f32) :=
  binary_final hw V 366 (lt_len (by decide)) (a := main_v293) (b := main_v294) (y := main_v295) (Host.powf (F := Ideal) : FVec Ideal S1000 .f32 → FVec Ideal S1000 .f32 → FVec Ideal S1000 .f32) ⟨by decide, rfl⟩ ⟨by decide, rfl⟩ ⟨by decide, rfl⟩ rfl (by decide +kernel) (by decide +kernel) (by decide +kernel)
theorem val_367 (V : Valuation τ sig (Elt Ideal)) :
    after line V (Proc.devRef .tc main_cst_29) = constant (F := Ideal) S_ .f32 0x3F800000#32 :=
  nullary_final hw V 367 (lt_len (by decide)) (y := main_cst_29) (constant (F := Ideal) S_ .f32 0x3F800000#32 : FVec Ideal S_ .f32) ⟨by decide, rfl⟩ rfl (by decide +kernel)
theorem val_368 (V : Valuation τ sig (Elt Ideal)) :
    after line V (Proc.devRef .tc main_v296) = broadcastInDim S1000 ![] bcast_S_S1000 (after line V (Proc.devRef .tc main_cst_29) : FVec Ideal S_ .f32) :=
  unary_final hw V 368 (lt_len (by decide)) (x := main_cst_29) (y := main_v296) (broadcastInDim S1000 ![] bcast_S_S1000 : FVec Ideal S_ .f32 → FVec Ideal S1000 .f32) ⟨by decide, rfl⟩ ⟨by decide, rfl⟩ rfl (by decide +kernel) (by decide +kernel)
theorem val_369 (V : Valuation τ sig (Elt Ideal)) :
    after line V (Proc.devRef .tc main_v297) = mulf (F := Ideal) (φ := .f32) (after line V (Proc.devRef .tc main_v296) : FVec Ideal S1000 .f32) (after line V (Proc.devRef .tc main_v295) : FVec Ideal S1000 .f32) :=
  binary_final hw V 369 (lt_len (by decide)) (a := main_v296) (b := main_v295) (y := main_v297) (mulf (F := Ideal) : FVec Ideal S1000 .f32 → FVec Ideal S1000 .f32 → FVec Ideal S1000 .f32) ⟨by decide, rfl⟩ ⟨by decide, rfl⟩ ⟨by decide, rfl⟩ rfl (by decide +kernel) (by decide +kernel) (by decide +kernel)
theorem val_370 (V : Valuation τ sig (Elt Ideal)) :
    after line V (Proc.devRef .tc main_v298) = addf (F := Ideal) (φ := .f32) (after line V (Proc.devRef .tc main_v289) : FVec Ideal S1000 .f32) (after line V (Proc.devRef .tc main_v297) : FVec Ideal S1000 .f32) :=
  binary_final hw V 370 (lt_len (by decide)) (a := main_v289) (b := main_v297) (y := main_v298) (addf (F := Ideal) : FVec Ideal S1000 .f32 → FVec Ideal S1000 .f32 → FVec Ideal S1000 .f32) ⟨by decide, rfl⟩ ⟨by decide, rfl⟩ ⟨by decide, rfl⟩ rfl (by decide +kernel) (by decide +kernel) (by decide +kernel)
theorem val_371 (V : Valuation τ sig (Elt Ideal)) :
    after line V (Proc.devRef .tc main_v299) = subf (F := Ideal) (φ := .f32) (after line V (Proc.devRef .tc main_v279) : FVec Ideal S1000x64 .f32) (after line V (Proc.devRef .tc main_v281) : FVec Ideal S1000x64 .f32) :=
  binary_final hw V 371 (lt_len (by decide)) (a := main_v279) (b := main_v281) (y := main_v299) (subf (F := Ideal) : FVec Ideal S1000x64 .f32 → FVec Ideal S1000x64 .f32 → FVec Ideal S1000x64 .f32) ⟨by decide, rfl⟩ ⟨by decide, rfl⟩ ⟨by decide, rfl⟩ rfl (by decide +kernel) (by decide +kernel) (by decide +kernel)
theorem val_372 (V : Valuation τ sig (Elt Ideal)) :
    after line V (Proc.devRef .tc main_call20_cst) = constant (F := Ideal) S_ .f32 0x00000000#32 :=
  nullary_final hw V 372 (lt_len (by decide)) (y := main_call20_cst) (constant (F := Ideal) S_ .f32 0x00000000#32 : FVec Ideal S_ .f32) ⟨by decide, rfl⟩ rfl (by decide +kernel)
theorem val_373 (V : Valuation τ sig (Elt Ideal)) :
    after line V (Proc.devRef .tc main_call20_v0) = broadcastInDim S1000x64 ![] bcast_S_S1000x64 (after line V (Proc.devRef .tc main_call20_cst) : FVec Ideal S_ .f32) :=
  unary_final hw V 373 (lt_len (by decide)) (x := main_call20_cst) (y := main_call20_v0) (broadcastInDim S1000x64 ![] bcast_S_S1000x64 : FVec Ideal S_ .f32 → FVec Ideal S1000x64 .f32) ⟨by decide, rfl⟩ ⟨by decide, rfl⟩ rfl (by decide +kernel) (by decide +kernel)
theorem val_374 (V : Valuation τ sig (Elt Ideal)) :
    after line V (Proc.devRef .tc main_v300) = maximumf (F := Ideal) (φ := .f32) (after line V (Proc.devRef .tc main_v299) : FVec Ideal S1000x64 .f32) (after line V (Proc.devRef .tc main_call20_v0) : FVec Ideal S1000x64 .f32) :=
  binary_final hw V 374 (lt_len (by decide)) (a := main_v299) (b := main_call20_v0) (y := main_v300) (maximumf (F := Ideal) : FVec Ideal S1000x64 .f32 → FVec Ideal S1000x64 .f32 → FVec Ideal S1000x64 .f32) ⟨by decide, rfl⟩ ⟨by decide, rfl⟩ ⟨by decide, rfl⟩ rfl (by decide +kernel) (by decide +kernel) (by decide +kernel)
theorem val_375 (V : Valuation τ sig (Elt Ideal)) :
    after line V (Proc.devRef .tc main_v301) = mulf (F := Ideal) (φ := .f32) (after line V (Proc.devRef .tc main_v300) : FVec Ideal S1000x64 .f32) (after line V (Proc.devRef .tc main_v300) : FVec Ideal S1000x64 .f32) :=
  binary_final hw V 375 (lt_len (by decide)) (a := main_v300) (b := main_v300) (y := main_v301) (mulf (F := Ideal) : FVec Ideal S1000x64 .f32 → FVec Ideal S1000x64 .f32 → FVec Ideal S1000x64 .f32) ⟨by decide, rfl⟩ ⟨by decide, rfl⟩ ⟨by decide, rfl⟩ rfl (by decide +kernel) (by decide +kernel) (by decide +kernel)
theorem val_376 (V : Valuation τ sig (Elt Ideal)) :
    after line V (Proc.devRef .tc main_cst_30) = constant (F := Ideal) S_ .f32 0x00000000#32 :=
  nullary_final hw V 376 (lt_len (by decide)) (y := main_cst_30) (constant (F := Ideal) S_ .f32 0x00000000#32 : FVec Ideal S_ .f32) ⟨by decide, rfl⟩ rfl (by decide +kernel)
theorem val_377 (V : Valuation τ sig (Elt Ideal)) :
    after line V (Proc.devRef .tc main_v302) = Host.reduceAdd (F := Ideal) (φ := .f32) (after line V (Proc.devRef .tc main_v301) : FVec Ideal S1000x64 .f32) (after line V (Proc.devRef .tc main_cst_30) : FVec Ideal S_ .f32) reducesTo_S1000x64_S1000_d1 h_S_ :=
  binary_final hw V 377 (lt_len (by decide)) (a := main_v301) (b := main_cst_30) (y := main_v302) ((fun x v => Host.reduceAdd (F := Ideal) x v reducesTo_S1000x64_S1000_d1 h_S_) : FVec Ideal S1000x64 .f32 → FVec Ideal S_ .f32 → FVec Ideal S1000 .f32) ⟨by decide, rfl⟩ ⟨by decide, rfl⟩ ⟨by decide, rfl⟩ rfl (by decide +kernel) (by decide +kernel) (by decide +kernel)
theorem val_378 (V : Valuation τ sig (Elt Ideal)) :
    after line V (Proc.devRef .tc main_cst_31) = constant (F := Ideal) S_ .f32 0x3F000000#32 :=
  nullary_final hw V 378 (lt_len (by decide)) (y := main_cst_31) (constant (F := Ideal) S_ .f32 0x3F000000#32 : FVec Ideal S_ .f32) ⟨by decide, rfl⟩ rfl (by decide +kernel)
theorem val_379 (V : Valuation τ sig (Elt Ideal)) :
    after line V (Proc.devRef .tc main_v303) = broadcastInDim S1000 ![] bcast_S_S1000 (after line V (Proc.devRef .tc main_cst_31) : FVec Ideal S_ .f32) :=
  unary_final hw V 379 (lt_len (by decide)) (x := main_cst_31) (y := main_v303) (broadcastInDim S1000 ![] bcast_S_S1000 : FVec Ideal S_ .f32 → FVec Ideal S1000 .f32) ⟨by decide, rfl⟩ ⟨by decide, rfl⟩ rfl (by decide +kernel) (by decide +kernel)
theorem val_380 (V : Valuation τ sig (Elt Ideal)) :
    after line V (Proc.devRef .tc main_v304) = Host.powf (F := Ideal) (φ := .f32) (after line V (Proc.devRef .tc main_v302) : FVec Ideal S1000 .f32) (after line V (Proc.devRef .tc main_v303) : FVec Ideal S1000 .f32) :=
  binary_final hw V 380 (lt_len (by decide)) (a := main_v302) (b := main_v303) (y := main_v304) (Host.powf (F := Ideal) : FVec Ideal S1000 .f32 → FVec Ideal S1000 .f32 → FVec Ideal S1000 .f32) ⟨by decide, rfl⟩ ⟨by decide, rfl⟩ ⟨by decide, rfl⟩ rfl (by decide +kernel) (by decide +kernel) (by decide +kernel)
theorem val_381 (V : Valuation τ sig (Elt Ideal)) :
    after line V (Proc.devRef .tc main_cst_32) = constant (F := Ideal) S_ .f32 0x3F800000#32 :=
  nullary_final hw V 381 (lt_len (by decide)) (y := main_cst_32) (constant (F := Ideal) S_ .f32 0x3F800000#32 : FVec Ideal S_ .f32) ⟨by decide, rfl⟩ rfl (by decide +kernel)
theorem val_382 (V : Valuation τ sig (Elt Ideal)) :
    after line V (Proc.devRef .tc main_v305) = broadcastInDim S1000 ![] bcast_S_S1000 (after line V (Proc.devRef .tc main_cst_32) : FVec Ideal S_ .f32) :=
  unary_final hw V 382 (lt_len (by decide)) (x := main_cst_32) (y := main_v305) (broadcastInDim S1000 ![] bcast_S_S1000 : FVec Ideal S_ .f32 → FVec Ideal S1000 .f32) ⟨by decide, rfl⟩ ⟨by decide, rfl⟩ rfl (by decide +kernel) (by decide +kernel)
theorem val_383 (V : Valuation τ sig (Elt Ideal)) :
    after line V (Proc.devRef .tc main_v306) = mulf (F := Ideal) (φ := .f32) (after line V (Proc.devRef .tc main_v305) : FVec Ideal S1000 .f32) (after line V (Proc.devRef .tc main_v304) : FVec Ideal S1000 .f32) :=
  binary_final hw V 383 (lt_len (by decide)) (a := main_v305) (b := main_v304) (y := main_v306) (mulf (F := Ideal) : FVec Ideal S1000 .f32 → FVec Ideal S1000 .f32 → FVec Ideal S1000 .f32) ⟨by decide, rfl⟩ ⟨by decide, rfl⟩ ⟨by decide, rfl⟩ rfl (by decide +kernel) (by decide +kernel) (by decide +kernel)
theorem val_384 (V : Valuation τ sig (Elt Ideal)) :
    after line V (Proc.devRef .tc main_v307) = subf (F := Ideal) (φ := .f32) (after line V (Proc.devRef .tc main_v281) : FVec Ideal S1000x64 .f32) (after line V (Proc.devRef .tc main_v279) : FVec Ideal S1000x64 .f32) :=
  binary_final hw V 384 (lt_len (by decide)) (a := main_v281) (b := main_v279) (y := main_v307) (subf (F := Ideal) : FVec Ideal S1000x64 .f32 → FVec Ideal S1000x64 .f32 → FVec Ideal S1000x64 .f32) ⟨by decide, rfl⟩ ⟨by decide, rfl⟩ ⟨by decide, rfl⟩ rfl (by decide +kernel) (by decide +kernel) (by decide +kernel)
theorem val_385 (V : Valuation τ sig (Elt Ideal)) :
    after line V (Proc.devRef .tc main_call21_cst) = constant (F := Ideal) S_ .f32 0x00000000#32 :=
  nullary_final hw V 385 (lt_len (by decide)) (y := main_call21_cst) (constant (F := Ideal) S_ .f32 0x00000000#32 : FVec Ideal S_ .f32) ⟨by decide, rfl⟩ rfl (by decide +kernel)
theorem val_386 (V : Valuation τ sig (Elt Ideal)) :
    after line V (Proc.devRef .tc main_call21_v0) = broadcastInDim S1000x64 ![] bcast_S_S1000x64 (after line V (Proc.devRef .tc main_call21_cst) : FVec Ideal S_ .f32) :=
  unary_final hw V 386 (lt_len (by decide)) (x := main_call21_cst) (y := main_call21_v0) (broadcastInDim S1000x64 ![] bcast_S_S1000x64 : FVec Ideal S_ .f32 → FVec Ideal S1000x64 .f32) ⟨by decide, rfl⟩ ⟨by decide, rfl⟩ rfl (by decide +kernel) (by decide +kernel)
theorem val_387 (V : Valuation τ sig (Elt Ideal)) :
    after line V (Proc.devRef .tc main_v308) = maximumf (F := Ideal) (φ := .f32) (after line V (Proc.devRef .tc main_v307) : FVec Ideal S1000x64 .f32) (after line V (Proc.devRef .tc main_call21_v0) : FVec Ideal S1000x64 .f32) :=
  binary_final hw V 387 (lt_len (by decide)) (a := main_v307) (b := main_call21_v0) (y := main_v308) (maximumf (F := Ideal) : FVec Ideal S1000x64 .f32 → FVec Ideal S1000x64 .f32 → FVec Ideal S1000x64 .f32) ⟨by decide, rfl⟩ ⟨by decide, rfl⟩ ⟨by decide, rfl⟩ rfl (by decide +kernel) (by decide +kernel) (by decide +kernel)
theorem val_388 (V : Valuation τ sig (Elt Ideal)) :
    after line V (Proc.devRef .tc main_v309) = mulf (F := Ideal) (φ := .f32) (after line V (Proc.devRef .tc main_v308) : FVec Ideal S1000x64 .f32) (after line V (Proc.devRef .tc main_v308) : FVec Ideal S1000x64 .f32) :=
  binary_final hw V 388 (lt_len (by decide)) (a := main_v308) (b := main_v308) (y := main_v309) (mulf (F := Ideal) : FVec Ideal S1000x64 .f32 → FVec Ideal S1000x64 .f32 → FVec Ideal S1000x64 .f32) ⟨by decide, rfl⟩ ⟨by decide, rfl⟩ ⟨by decide, rfl⟩ rfl (by decide +kernel) (by decide +kernel) (by decide +kernel)
theorem val_389 (V : Valuation τ sig (Elt Ideal)) :
    after line V (Proc.devRef .tc main_cst_33) = constant (F := Ideal) S_ .f32 0x00000000#32 :=
  nullary_final hw V 389 (lt_len (by decide)) (y := main_cst_33) (constant (F := Ideal) S_ .f32 0x00000000#32 : FVec Ideal S_ .f32) ⟨by decide, rfl⟩ rfl (by decide +kernel)
theorem val_390 (V : Valuation τ sig (Elt Ideal)) :
    after line V (Proc.devRef .tc main_v310) = Host.reduceAdd (F := Ideal) (φ := .f32) (after line V (Proc.devRef .tc main_v309) : FVec Ideal S1000x64 .f32) (after line V (Proc.devRef .tc main_cst_33) : FVec Ideal S_ .f32) reducesTo_S1000x64_S1000_d1 h_S_ :=
  binary_final hw V 390 (lt_len (by decide)) (a := main_v309) (b := main_cst_33) (y := main_v310) ((fun x v => Host.reduceAdd (F := Ideal) x v reducesTo_S1000x64_S1000_d1 h_S_) : FVec Ideal S1000x64 .f32 → FVec Ideal S_ .f32 → FVec Ideal S1000 .f32) ⟨by decide, rfl⟩ ⟨by decide, rfl⟩ ⟨by decide, rfl⟩ rfl (by decide +kernel) (by decide +kernel) (by decide +kernel)
theorem val_391 (V : Valuation τ sig (Elt Ideal)) :
    after line V (Proc.devRef .tc main_cst_34) = constant (F := Ideal) S_ .f32 0x3F000000#32 :=
  nullary_final hw V 391 (lt_len (by decide)) (y := main_cst_34) (constant (F := Ideal) S_ .f32 0x3F000000#32 : FVec Ideal S_ .f32) ⟨by decide, rfl⟩ rfl (by decide +kernel)
theorem val_392 (V : Valuation τ sig (Elt Ideal)) :
    after line V (Proc.devRef .tc main_v311) = broadcastInDim S1000 ![] bcast_S_S1000 (after line V (Proc.devRef .tc main_cst_34) : FVec Ideal S_ .f32) :=
  unary_final hw V 392 (lt_len (by decide)) (x := main_cst_34) (y := main_v311) (broadcastInDim S1000 ![] bcast_S_S1000 : FVec Ideal S_ .f32 → FVec Ideal S1000 .f32) ⟨by decide, rfl⟩ ⟨by decide, rfl⟩ rfl (by decide +kernel) (by decide +kernel)
theorem val_393 (V : Valuation τ sig (Elt Ideal)) :
    after line V (Proc.devRef .tc main_v312) = Host.powf (F := Ideal) (φ := .f32) (after line V (Proc.devRef .tc main_v310) : FVec Ideal S1000 .f32) (after line V (Proc.devRef .tc main_v311) : FVec Ideal S1000 .f32) :=
  binary_final hw V 393 (lt_len (by decide)) (a := main_v310) (b := main_v311) (y := main_v312) (Host.powf (F := Ideal) : FVec Ideal S1000 .f32 → FVec Ideal S1000 .f32 → FVec Ideal S1000 .f32) ⟨by decide, rfl⟩ ⟨by decide, rfl⟩ ⟨by decide, rfl⟩ rfl (by decide +kernel) (by decide +kernel) (by decide +kernel)
theorem val_394 (V : Valuation τ sig (Elt Ideal)) :
    after line V (Proc.devRef .tc main_cst_35) = constant (F := Ideal) S_ .f32 0x3F800000#32 :=
  nullary_final hw V 394 (lt_len (by decide)) (y := main_cst_35) (constant (F := Ideal) S_ .f32 0x3F800000#32 : FVec Ideal S_ .f32) ⟨by decide, rfl⟩ rfl (by decide +kernel)
theorem val_395 (V : Valuation τ sig (Elt Ideal)) :
    after line V (Proc.devRef .tc main_v313) = broadcastInDim S1000 ![] bcast_S_S1000 (after line V (Proc.devRef .tc main_cst_35) : FVec Ideal S_ .f32) :=
  unary_final hw V 395 (lt_len (by decide)) (x := main_cst_35) (y := main_v313) (broadcastInDim S1000 ![] bcast_S_S1000 : FVec Ideal S_ .f32 → FVec Ideal S1000 .f32) ⟨by decide, rfl⟩ ⟨by decide, rfl⟩ rfl (by decide +kernel) (by decide +kernel)
theorem val_396 (V : Valuation τ sig (Elt Ideal)) :
    after line V (Proc.devRef .tc main_v314) = mulf (F := Ideal) (φ := .f32) (after line V (Proc.devRef .tc main_v313) : FVec Ideal S1000 .f32) (after line V (Proc.devRef .tc main_v312) : FVec Ideal S1000 .f32) :=
  binary_final hw V 396 (lt_len (by decide)) (a := main_v313) (b := main_v312) (y := main_v314) (mulf (F := Ideal) : FVec Ideal S1000 .f32 → FVec Ideal S1000 .f32 → FVec Ideal S1000 .f32) ⟨by decide, rfl⟩ ⟨by decide, rfl⟩ ⟨by decide, rfl⟩ rfl (by decide +kernel) (by decide +kernel) (by decide +kernel)
theorem val_397 (V : Valuation τ sig (Elt Ideal)) :
    after line V (Proc.devRef .tc main_v315) = addf (F := Ideal) (φ := .f32) (after line V (Proc.devRef .tc main_v306) : FVec Ideal S1000 .f32) (after line V (Proc.devRef .tc main_v314) : FVec Ideal S1000 .f32) :=
  binary_final hw V 397 (lt_len (by decide)) (a := main_v306) (b := main_v314) (y := main_v315) (addf (F := Ideal) : FVec Ideal S1000 .f32 → FVec Ideal S1000 .f32 → FVec Ideal S1000 .f32) ⟨by decide, rfl⟩ ⟨by decide, rfl⟩ ⟨by decide, rfl⟩ rfl (by decide +kernel) (by decide +kernel) (by decide +kernel)
theorem val_398 (V : Valuation τ sig (Elt Ideal)) :
    after line V (Proc.devRef .tc main_v316) = addf (F := Ideal) (φ := .f32) (after line V (Proc.devRef .tc main_v298) : FVec Ideal S1000 .f32) (after line V (Proc.devRef .tc main_v315) : FVec Ideal S1000 .f32) :=
  binary_final hw V 398 (lt_len (by decide)) (a := main_v298) (b := main_v315) (y := main_v316) (addf (F := Ideal) : FVec Ideal S1000 .f32 → FVec Ideal S1000 .f32 → FVec Ideal S1000 .f32) ⟨by decide, rfl⟩ ⟨by decide, rfl⟩ ⟨by decide, rfl⟩ rfl (by decide +kernel) (by decide +kernel) (by decide +kernel)

end Cert.RefVal

end
-- ==== Proof.RefSide.lean ====
import proofs.«106875_j87694642250037_1_alg».proof.Proof.RefVal0
import proofs.«106875_j87694642250037_1_alg».proof.Proof.RefVal1
import proofs.«106875_j87694642250037_1_alg».proof.Proof.RefVal2
import proofs.«106875_j87694642250037_1_alg».proof.Proof.RefVal3
import proofs.«106875_j87694642250037_1_alg».proof.Proof.RefVal4
import proofs.«106875_j87694642250037_1_alg».proof.Proof.Layers

/-!
# The reference's run, read as the layered network

Every weakly fair execution of the reference program terminates with its result array equal to the
composition of the layer functions of `Cert.Layers` applied to the sixteen argument arrays, and with the
argument arrays unchanged.

The program is a line of host operations, each writing its own buffer once, so the line's final contents at
an operation's buffer are the operation's function of the final contents of its operands. Reading the line
one layer at a time: the final contents at a layer's output buffer are the layer function of the final
contents at the layer's inputs, because the operations between them are exactly the operations the layer
function is written with (the equation closes by unfolding the layer function). Chaining the layers from the
arguments gives the result buffer as the whole network of the arguments.
-/

noncomputable section

namespace Cert.RefSide

open Cert.ReferenceIdeal Cert.ReferenceIdeal.Gen Cert.RefOps Cert.LineRead Idealize.ShloMosaic Idealize.ShloMosaic.TcCoe Idealize.SL.Sem Idealize.ShloMosaic.StableHlo Cert.RefLine Cert.RefVal

/-- The final contents at `main_v1`: `row0` of graph g's arguments. -/
theorem g_row0 (V : Valuation τ sig (Elt Ideal)) :
    after line V (Proc.devRef .tc main_v1) = Cert.Layers.row0 (V (Proc.devRef .tc main_arg1)) := by
  rewrite [val_1, val_0, arg_1]
  rfl

/-- The final contents at `main_v3`: `row1` of graph g's arguments. -/
theorem g_row1 (V : Valuation τ sig (Elt Ideal)) :
    after line V (Proc.devRef .tc main_v3) = Cert.Layers.row1 (V (Proc.devRef .tc main_arg1)) := by
  rewrite [val_3, val_2, arg_1]
  rfl

/-- The final contents at `main_v7`: `emb0` of graph g's arguments. -/
theorem g_emb0 (V : Valuation τ sig (Elt Ideal)) :
    after line V (Proc.devRef .tc main_v7) = Cert.Layers.emb0 (V (Proc.devRef .tc main_arg0)) (V (Proc.devRef .tc main_arg6)) (V (Proc.devRef .tc main_arg7)) := by
  rewrite [val_7, val_6, val_5, val_4, arg_7, arg_6, arg_0]
  rfl

/-- The final contents at `main_v36`: `emb1` of graph g's arguments. -/
theorem g_emb1 (V : Valuation τ sig (Elt Ideal)) :
    after line V (Proc.devRef .tc main_v36) = Cert.Layers.emb1 (V (Proc.devRef .tc main_arg0)) (V (Proc.devRef .tc main_arg1)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  rewrite [val_43, val_42, val_41, val_40, val_39, val_38, val_37, val_36, val_35, val_34, val_33, val_32, val_31, val_30, val_29, val_28, val_27, val_26, val_25, val_24, val_23, val_22, val_21, val_20, val_19, val_18, val_17, val_16, val_15, val_14, val_13, val_12, val_11, val_10, val_9, val_8, arg_11, arg_10, arg_9, arg_8, g_emb0, g_row0, g_row1]
  rfl

/-- The final contents at `main_v65`: `res2` of graph g's arguments. -/
theorem g_res2 (V : Valuation τ sig (Elt Ideal)) :
    after line V (Proc.devRef .tc main_v65) = Cert.Layers.res2 (V (Proc.devRef .tc main_arg0)) (V (Proc.devRef .tc main_arg1)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  rewrite [val_77, val_76, val_75, val_74, val_73, val_72, val_71, val_70, val_69, val_68, val_67, val_66, val_65, val_64, val_63, val_62, val_61, val_60, val_59, val_58, val_57, val_56, val_55, val_54, val_53, val_52, val_51, val_50, val_49, val_48, val_47, val_46, val_45, val_44, g_emb0, arg_11, arg_10, arg_9, arg_8, g_emb1, g_row0, g_row1]
  rfl

/-- The final contents at `main_v66`: `emb2` of graph g's arguments. -/
theorem g_emb2 (V : Valuation τ sig (Elt Ideal)) :
    after line V (Proc.devRef .tc main_v66) = Cert.Layers.emb2 (V (Proc.devRef .tc main_arg0)) (V (Proc.devRef .tc main_arg1)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  rewrite [val_80, val_79, val_78, g_res2]
  rfl

/-- The final contents at `main_v95`: `emb3` of graph g's arguments. -/
theorem g_emb3 (V : Valuation τ sig (Elt Ideal)) :
    after line V (Proc.devRef .tc main_v95) = Cert.Layers.emb3 (V (Proc.devRef .tc main_arg0)) (V (Proc.devRef .tc main_arg1)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  rewrite [val_116, val_115, val_114, val_113, val_112, val_111, val_110, val_109, val_108, val_107, val_106, val_105, val_104, val_103, val_102, val_101, val_100, val_99, val_98, val_97, val_96, val_95, val_94, val_93, val_92, val_91, val_90, val_89, val_88, val_87, val_86, val_85, val_84, val_83, val_82, val_81, arg_11, arg_10, arg_9, arg_8, g_emb2, g_row0, g_row1]
  rfl

/-- The final contents at `main_v124`: `res4` of graph g's arguments. -/
theorem g_res4 (V : Valuation τ sig (Elt Ideal)) :
    after line V (Proc.devRef .tc main_v124) = Cert.Layers.res4 (V (Proc.devRef .tc main_arg0)) (V (Proc.devRef .tc main_arg1)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  rewrite [val_150, val_149, val_148, val_147, val_146, val_145, val_144, val_143, val_142, val_141, val_140, val_139, val_138, val_137, val_136, val_135, val_134, val_133, val_132, val_131, val_130, val_129, val_128, val_127, val_126, val_125, val_124, val_123, val_122, val_121, val_120, val_119, val_118, val_117, g_res2, arg_11, arg_10, arg_9, arg_8, g_emb3, g_row0, g_row1]
  rfl

/-- The final contents at `main_v125`: `emb4` of graph g's arguments. -/
theorem g_emb4 (V : Valuation τ sig (Elt Ideal)) :
    after line V (Proc.devRef .tc main_v125) = Cert.Layers.emb4 (V (Proc.devRef .tc main_arg0)) (V (Proc.devRef .tc main_arg1)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  rewrite [val_153, val_152, val_151, g_res4]
  rfl

/-- The final contents at `main_v138`: `embed` of graph g's arguments. -/
theorem g_embed (V : Valuation τ sig (Elt Ideal)) :
    after line V (Proc.devRef .tc main_v138) = Cert.Layers.embed (V (Proc.devRef .tc main_arg0)) (V (Proc.devRef .tc main_arg1)) (V (Proc.devRef .tc main_arg2)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) := by
  rewrite [val_169, val_168, val_167, val_166, val_165, val_164, val_163, val_162, val_161, val_160, val_159, val_158, val_157, val_156, val_155, val_154, arg_15, arg_14, arg_13, arg_12, g_emb4, g_emb3, g_emb2, g_emb1, g_emb0, arg_2]
  rfl

/-- The final contents at `main_v140`: `row0` of graph h's arguments. -/
theorem h_row0 (V : Valuation τ sig (Elt Ideal)) :
    after line V (Proc.devRef .tc main_v140) = Cert.Layers.row0 (V (Proc.devRef .tc main_arg4)) := by
  rewrite [val_171, val_170, arg_4]
  rfl

/-- The final contents at `main_v142`: `row1` of graph h's arguments. -/
theorem h_row1 (V : Valuation τ sig (Elt Ideal)) :
    after line V (Proc.devRef .tc main_v142) = Cert.Layers.row1 (V (Proc.devRef .tc main_arg4)) := by
  rewrite [val_173, val_172, arg_4]
  rfl

/-- The final contents at `main_v146`: `emb0` of graph h's arguments. -/
theorem h_emb0 (V : Valuation τ sig (Elt Ideal)) :
    after line V (Proc.devRef .tc main_v146) = Cert.Layers.emb0 (V (Proc.devRef .tc main_arg3)) (V (Proc.devRef .tc main_arg6)) (V (Proc.devRef .tc main_arg7)) := by
  rewrite [val_177, val_176, val_175, val_174, arg_7, arg_6, arg_3]
  rfl

/-- The final contents at `main_v175`: `emb1` of graph h's arguments. -/
theorem h_emb1 (V : Valuation τ sig (Elt Ideal)) :
    after line V (Proc.devRef .tc main_v175) = Cert.Layers.emb1 (V (Proc.devRef .tc main_arg3)) (V (Proc.devRef .tc main_arg4)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  rewrite [val_213, val_212, val_211, val_210, val_209, val_208, val_207, val_206, val_205, val_204, val_203, val_202, val_201, val_200, val_199, val_198, val_197, val_196, val_195, val_194, val_193, val_192, val_191, val_190, val_189, val_188, val_187, val_186, val_185, val_184, val_183, val_182, val_181, val_180, val_179, val_178, arg_11, arg_10, arg_9, arg_8, h_emb0, h_row0, h_row1]
  rfl

/-- The final contents at `main_v204`: `res2` of graph h's arguments. -/
theorem h_res2 (V : Valuation τ sig (Elt Ideal)) :
    after line V (Proc.devRef .tc main_v204) = Cert.Layers.res2 (V (Proc.devRef .tc main_arg3)) (V (Proc.devRef .tc main_arg4)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  rewrite [val_247, val_246, val_245, val_244, val_243, val_242, val_241, val_240, val_239, val_238, val_237, val_236, val_235, val_234, val_233, val_232, val_231, val_230, val_229, val_228, val_227, val_226, val_225, val_224, val_223, val_222, val_221, val_220, val_219, val_218, val_217, val_216, val_215, val_214, h_emb0, arg_11, arg_10, arg_9, arg_8, h_emb1, h_row0, h_row1]
  rfl

/-- The final contents at `main_v205`: `emb2` of graph h's arguments. -/
theorem h_emb2 (V : Valuation τ sig (Elt Ideal)) :
    after line V (Proc.devRef .tc main_v205) = Cert.Layers.emb2 (V (Proc.devRef .tc main_arg3)) (V (Proc.devRef .tc main_arg4)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  rewrite [val_250, val_249, val_248, h_res2]
  rfl

/-- The final contents at `main_v234`: `emb3` of graph h's arguments. -/
theorem h_emb3 (V : Valuation τ sig (Elt Ideal)) :
    after line V (Proc.devRef .tc main_v234) = Cert.Layers.emb3 (V (Proc.devRef .tc main_arg3)) (V (Proc.devRef .tc main_arg4)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  rewrite [val_286, val_285, val_284, val_283, val_282, val_281, val_280, val_279, val_278, val_277, val_276, val_275, val_274, val_273, val_272, val_271, val_270, val_269, val_268, val_267, val_266, val_265, val_264, val_263, val_262, val_261, val_260, val_259, val_258, val_257, val_256, val_255, val_254, val_253, val_252, val_251, arg_11, arg_10, arg_9, arg_8, h_emb2, h_row0, h_row1]
  rfl

/-- The final contents at `main_v263`: `res4` of graph h's arguments. -/
theorem h_res4 (V : Valuation τ sig (Elt Ideal)) :
    after line V (Proc.devRef .tc main_v263) = Cert.Layers.res4 (V (Proc.devRef .tc main_arg3)) (V (Proc.devRef .tc main_arg4)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  rewrite [val_320, val_319, val_318, val_317, val_316, val_315, val_314, val_313, val_312, val_311, val_310, val_309, val_308, val_307, val_306, val_305, val_304, val_303, val_302, val_301, val_300, val_299, val_298, val_297, val_296, val_295, val_294, val_293, val_292, val_291, val_290, val_289, val_288, val_287, h_res2, arg_11, arg_10, arg_9, arg_8, h_emb3, h_row0, h_row1]
  rfl

/-- The final contents at `main_v264`: `emb4` of graph h's arguments. -/
theorem h_emb4 (V : Valuation τ sig (Elt Ideal)) :
    after line V (Proc.devRef .tc main_v264) = Cert.Layers.emb4 (V (Proc.devRef .tc main_arg3)) (V (Proc.devRef .tc main_arg4)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  rewrite [val_323, val_322, val_321, h_res4]
  rfl

/-- The final contents at `main_v277`: `embed` of graph h's arguments. -/
theorem h_embed (V : Valuation τ sig (Elt Ideal)) :
    after line V (Proc.devRef .tc main_v277) = Cert.Layers.embed (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) := by
  rewrite [val_339, val_338, val_337, val_336, val_335, val_334, val_333, val_332, val_331, val_330, val_329, val_328, val_327, val_326, val_325, val_324, arg_15, arg_14, arg_13, arg_12, h_emb4, h_emb3, h_emb2, h_emb1, h_emb0, arg_5]
  rfl

/-- The final contents at `main_v316`: `result` of the arguments. -/
theorem result (V : Valuation τ sig (Elt Ideal)) :
    after line V (Proc.devRef .tc main_v316) = Cert.Layers.result (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) := by
  rewrite [val_398, val_397, val_396, val_395, val_394, val_393, val_392, val_391, val_390, val_389, val_388, val_387, val_386, val_385, val_384, val_383, val_382, val_381, val_380, val_379, val_378, val_377, val_376, val_375, val_374, val_373, val_372, val_371, val_370, val_369, val_368, val_367, val_366, val_365, val_364, val_363, val_362, val_361, val_360, val_359, val_358, val_357, val_356, val_355, val_354, val_353, val_352, val_351, val_350, val_349, val_348, val_347, val_346, val_345, val_344, val_343, val_342, val_341, val_340, g_embed, h_embed]
  rfl

/-- Every weakly fair execution of the reference terminates with its result the layered network of the
    argument arrays, and the argument arrays unchanged. -/
theorem run (m' : (ℓ : Loc Cert.ReferenceIdeal.nD Cert.ReferenceIdeal.τ Cert.ReferenceIdeal.sig) → Buf (Elt Ideal) ℓ) (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩
      (fun r => ∀ c : Dev Cert.ReferenceIdeal.nD,
          r.2.mem ((c.tc : Thread Cert.ReferenceIdeal.nD Cert.ReferenceIdeal.τ).loc Cert.ReferenceIdeal.main_v316) = Cert.Layers.result (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15))
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)) :=
  (θ_run (defs (F := Ideal)) _ _).mono
    (fun _ h c => ⟨(h c main_v316).trans (result (launchContents m' c)),
      (h c main_arg0).trans (arg_0 (launchContents m' c)),
      (h c main_arg1).trans (arg_1 (launchContents m' c)),
      (h c main_arg2).trans (arg_2 (launchContents m' c)),
      (h c main_arg3).trans (arg_3 (launchContents m' c)),
      (h c main_arg4).trans (arg_4 (launchContents m' c)),
      (h c main_arg5).trans (arg_5 (launchContents m' c)),
      (h c main_arg6).trans (arg_6 (launchContents m' c)),
      (h c main_arg7).trans (arg_7 (launchContents m' c)),
      (h c main_arg8).trans (arg_8 (launchContents m' c)),
      (h c main_arg9).trans (arg_9 (launchContents m' c)),
      (h c main_arg10).trans (arg_10 (launchContents m' c)),
      (h c main_arg11).trans (arg_11 (launchContents m' c)),
      (h c main_arg12).trans (arg_12 (launchContents m' c)),
      (h c main_arg13).trans (arg_13 (launchContents m' c)),
      (h c main_arg14).trans (arg_14 (launchContents m' c)),
      (h c main_arg15).trans (arg_15 (launchContents m' c))⟩)
    (run_seq scopedRefs_eq scopedSems_eq defs main (fun _ => line) main_eq (fun _ => ops_sub) m' ρ' (fun _ => ops_fresh))

end Cert.RefSide

end
-- ==== Proof.lean ====
/-
  The equivalence, over the extended reals, of a graph-matching network written as thirteen tiled kernel regions (per graph: an
  input projection, four graph convolutions — two of them with a residual —, and a readout perceptron after sum pooling; then one
  region for the asymmetric distance of the two graph embeddings) with its plain array-program reference.

  Both programs compute, for the two graphs, x₀ = x·P + p; for layer l: a = Σ_{edges e into a node} x(src e),
  h = max((a + x)·W₁ + b₁, 0)·W₂ + b₂, with the residual added on the odd layers, x ← max(h, 0); the five embeddings side by side are summed
  over each graph's nodes and passed through max(·A + a, 0)·B + b; the distance of two embeddings u, v is, on each half of the
  columns, ‖max(u − v, 0)‖₂ + ‖max(v − u, 0)‖₂.  At the ideal instance a matrix product into a zero accumulator and a general dot
  product are the same finite sums, so every region's output array is the corresponding layer of the reference applied to its
  operand arrays; the gather, the scatter-additions, the concatenation and the slices are host operations in both programs,
  literally the same.  The one place where the two texts differ is the Euclidean norm: a square root in the kernel, the power 1/2 in
  the reference; they agree on every non-negative extended real, and a sum of squares is non-negative.  No finiteness of the inputs is
  used.

  Frames: each region's body loads whole blocks and overwrites its output blocks whole, so the pipeline library's launch theorem
  applies region by region with the host stretches between them; every weakly fair execution terminates and the argument arrays end
  as launched.  The idealization rewrote nothing, so the preservation claim is empty.
-/
import proofs.«106875_j87694642250037_1_alg».proof.Defs
import proofs.«106875_j87694642250037_1_alg».proof.Proof.Gen.Kernel
import proofs.«106875_j87694642250037_1_alg».proof.Proof.Gen.KernelIdeal
import proofs.«106875_j87694642250037_1_alg».proof.Proof.Gen.ReferenceIdeal
import proofs.«106875_j87694642250037_1_alg».proof.Proof.Gen.Pre_finite_inputs
import proofs.«106875_j87694642250037_1_alg».proof.Proof.BRun
import proofs.«106875_j87694642250037_1_alg».proof.Proof.IRun
import proofs.«106875_j87694642250037_1_alg».proof.Proof.IChain
import proofs.«106875_j87694642250037_1_alg».proof.Proof.RefSide
import Idealize.ShloMosaic.Adequacy
import Idealize.ShloMosaic.Init

noncomputable section

namespace Cert.Proof

open Idealize.ShloMosaic Idealize.SL.Sem

/-- The word-level kernel program runs to the end and leaves its arguments as launched. -/
theorem frame_k : Cert.frame_Kernel := fun m ρ _ =>
  (θ_run (Cert.Kernel.defs (F := Bits)) _ _).mono (fun _ h c => (h c).2) (Cert.Kernel.Hand.run_main (F := Bits) m ρ)

/-- So does its idealization. -/
theorem frame_ki : Cert.frame_KernelIdeal := fun m ρ _ =>
  (θ_run (Cert.KernelIdeal.defs (F := Ideal)) _ _).mono (fun _ h c => (h c).2) (Cert.KernelIdeal.Hand.run_main (F := Ideal) m ρ)

/-- And the reference: its run with the result dropped. -/
theorem frame_ri : Cert.frame_ReferenceIdeal := fun m ρ _ =>
  (θ_run (Cert.ReferenceIdeal.defs (F := Ideal)) _ _).mono (fun _ h c => (h c).2) (Cert.RefSide.run m ρ)

/-- The idealization pass rewrote no operation. -/
theorem preserves : Cert.preserves_Kernel_KernelIdeal := trivial

/-- From memories agreeing on the arguments both idealized programs end with the whole network's value of the arguments in their
    result arrays: the kernel program by the stage-by-stage reading of its run, the reference by its own run. -/
theorem algebraic : Cert.algebraic_KernelIdeal_ReferenceIdeal := by
  intro m ρ m' ρ' _ hagree
  refine ⟨fun c => Cert.Layers.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · exact (θ_run (Cert.KernelIdeal.defs (F := Ideal)) _ _).mono
      (fun _ h c => ⟨(h c).1.trans (Cert.KernelIdeal.HandChain.v172_val m c), (h c).2⟩)
      (Cert.KernelIdeal.Hand.run_main (F := Ideal) m ρ)
  · refine (θ_run (Cert.ReferenceIdeal.defs (F := Ideal)) _ _).mono (fun _ h c => ⟨(h c).1.trans ?_, (h c).2⟩) (Cert.RefSide.run m' ρ')
    obtain ⟨h0, h1, h2, h3, h4, h5, h6, h7, h8, h9, h10, h11, h12, h13, h14, h15⟩ := hagree c
    rw [h0, h1, h2, h3, h4, h5, h6, h7, h8, h9, h10, h11, h12, h13, h14, h15]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
